-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v36_0)) (v2 : (c : Dev Cert.KernelIdeal.nD) → Buf (Elt Ideal) ((c.tc : Thread Cert.KernelIdeal.nD Cert.KernelIdeal.τ).loc Cert.KernelIdeal.main_v37)) (v3 : (c : Dev Cert.KernelIdeal.nD) → Buf (Elt Ideal) ((c.tc : Thread Cert.KernelIdeal.nD Cert.KernelIdeal.τ).loc Cert.KernelIdeal.main_v31_2)) (v4 : (c : Dev Cert.KernelIdeal.nD) → Buf (Elt Ideal) ((c.tc : Thread Cert.KernelIdeal.nD Cert.KernelIdeal.τ).loc Cert.KernelIdeal.main_v18_3)) (v5 : (c : Dev Cert.KernelIdeal.nD) → Buf (Elt Ideal) ((c.tc : Thread Cert.KernelIdeal.nD Cert.KernelIdeal.τ).loc Cert.KernelIdeal.main_v31_0)) (v6 : (c : Dev Cert.KernelIdeal.nD) → Buf (Elt Ideal) ((c.tc : Thread Cert.KernelIdeal.nD Cert.KernelIdeal.τ).loc Cert.KernelIdeal.main_v27_0)) (v7 : (c : Dev Cert.KernelIdeal.nD) → Buf (Elt Ideal) ((c.tc : Thread Cert.KernelIdeal.nD Cert.KernelIdeal.τ).loc Cert.KernelIdeal.main_v18_1)) (v8 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_v31_2) = v3 c
          ∧ r.2.mem ((c.tc : Thread Cert.KernelIdeal.nD Cert.KernelIdeal.τ).loc Cert.KernelIdeal.main_v18_3) = v4 c
          ∧ r.2.mem ((c.tc : Thread Cert.KernelIdeal.nD Cert.KernelIdeal.τ).loc Cert.KernelIdeal.main_v31_0) = v5 c
          ∧ r.2.mem ((c.tc : Thread Cert.KernelIdeal.nD Cert.KernelIdeal.τ).loc Cert.KernelIdeal.main_v27_0) = v6 c
          ∧ r.2.mem ((c.tc : Thread Cert.KernelIdeal.nD Cert.KernelIdeal.τ).loc Cert.KernelIdeal.main_v18_1) = v7 c
          ∧ r.2.mem ((c.tc : Thread Cert.KernelIdeal.nD Cert.KernelIdeal.τ).loc Cert.KernelIdeal.main_v31_1) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_v129) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_v61) = v6 c
          ∧ r.2.mem ((c.tc : Thread Cert.ReferenceIdeal.nD Cert.ReferenceIdeal.τ).loc Cert.ReferenceIdeal.main_v18) = v7 c
          ∧ r.2.mem ((c.tc : Thread Cert.ReferenceIdeal.nD Cert.ReferenceIdeal.τ).loc Cert.ReferenceIdeal.main_v67) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x500 : Shape := ⟨2, ![512, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S10x2000 : Shape := ⟨2, ![10, 2000]⟩
abbrev S2000x500 : Shape := ⟨2, ![2000, 500]⟩
abbrev S500x512 : Shape := ⟨2, ![500, 512]⟩
abbrev S512 : Shape := ⟨1, ![512]⟩
abbrev S10x10 : Shape := ⟨2, ![10, 10]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x500 : S_.BroadcastsInDim S512x500 (![] : Fin 0 → Fin S512x500.rank)
  reducesTo_S512x500_S_d0_1 : S512x500.ReducesTo [0, 1] S_
  bcast_S_S500 : S_.BroadcastsInDim S500 (![] : Fin 0 → Fin S500.rank)
  reducesTo_S500_S_d0 : S500.ReducesTo [0] S_
  bcast_S_S500x500 : S_.BroadcastsInDim S500x500 (![] : Fin 0 → Fin S500x500.rank)
  reducesTo_S500x500_S_d0_1 : S500x500.ReducesTo [0, 1] S_
  bcast_S_S500x2000 : S_.BroadcastsInDim S500x2000 (![] : Fin 0 → Fin S500x2000.rank)
  reducesTo_S500x2000_S_d0_1 : S500x2000.ReducesTo [0, 1] S_
  bcast_S_S2000 : S_.BroadcastsInDim S2000 (![] : Fin 0 → Fin S2000.rank)
  reducesTo_S2000_S_d0 : S2000.ReducesTo [0] S_
  bcast_S_S2000x10 : S_.BroadcastsInDim S2000x10 (![] : Fin 0 → Fin S2000x10.rank)
  reducesTo_S2000x10_S_d0_1 : S2000x10.ReducesTo [0, 1] S_
  bcast_S_S10 : S_.BroadcastsInDim S10 (![] : Fin 0 → Fin S10.rank)
  reducesTo_S10_S_d0 : S10.ReducesTo [0] S_
  bcast_S_S10x2000 : S_.BroadcastsInDim S10x2000 (![] : Fin 0 → Fin S10x2000.rank)
  reducesTo_S10x2000_S_d0_1 : S10x2000.ReducesTo [0, 1] S_
  bcast_S_S2000x500 : S_.BroadcastsInDim S2000x500 (![] : Fin 0 → Fin S2000x500.rank)
  reducesTo_S2000x500_S_d0_1 : S2000x500.ReducesTo [0, 1] S_
  bcast_S_S500x512 : S_.BroadcastsInDim S500x512 (![] : Fin 0 → Fin S500x512.rank)
  reducesTo_S500x512_S_d0_1 : S500x512.ReducesTo [0, 1] S_
  bcast_S_S512 : S_.BroadcastsInDim S512 (![] : Fin 0 → Fin S512.rank)
  reducesTo_S512_S_d0 : S512.ReducesTo [0] S_
  bcast_S_S10x10 : S_.BroadcastsInDim S10x10 (![] : Fin 0 → Fin S10x10.rank)
  reducesTo_S10x10_S_d0_1 : S10x10.ReducesTo [0, 1] S_

variable [Facts]

def fn_part8 {F : FTy → Type} [FloatOps F] (main_v133 : IVec S_ 1) (main_v136 : IVec S10x10 1) : IVec S_ 1 :=
  let main_c_53 : IVec S_ 1 := constantI S_ 1 1#1
  let main_v137 : IVec S_ 1 := (fun x v => Host.reduce IntOp.andi x v reducesTo_S10x10_S_d0_1 h_S_) main_v136 main_c_53
  let main_v138 : IVec S_ 1 := andi main_v133 main_v137
  main_v138

def fn_part7 {F : FTy → Type} [FloatOps F] (main_arg25 : FVec F S500x500 .f32) (main_arg26 : FVec F S500x512 .f32) (main_arg27 : FVec F S10x10 .f32) (main_v118 : IVec S_ 1) (main_v119 : FVec F S2000x500 .f32) : IVec S_ 1 :=
  let main_cst_46 : FVec F S_ .f32 := constant S_ .f32 0x7F800000#32
  let main_v120 : FVec F S2000x500 .f32 := broadcastInDim S2000x500 ![] bcast_S_S2000x500 main_cst_46
  let main_v121 : IVec S2000x500 1 := cmpf .olt main_v119 main_v120
  let main_c_47 : IVec S_ 1 := constantI S_ 1 1#1
  let main_v122 : IVec S_ 1 := (fun x v => Host.reduce IntOp.andi x v reducesTo_S2000x500_S_d0_1 h_S_) main_v121 main_c_47
  let main_v123 : IVec S_ 1 := andi main_v118 main_v122
  let main_v124 : FVec F S500x500 .f32 := Host.absf main_arg25
  let main_cst_48 : FVec F S_ .f32 := constant S_ .f32 0x7F800000#32
  let main_v125 : FVec F S500x500 .f32 := broadcastInDim S500x500 ![] bcast_S_S500x500 main_cst_48
  let main_v126 : IVec S500x500 1 := cmpf .olt main_v124 main_v125
  let main_c_49 : IVec S_ 1 := constantI S_ 1 1#1
  let main_v127 : IVec S_ 1 := (fun x v => Host.reduce IntOp.andi x v reducesTo_S500x500_S_d0_1 h_S_) main_v126 main_c_49
  let main_v128 : IVec S_ 1 := andi main_v123 main_v127
  let main_v129 : FVec F S500x512 .f32 := Host.absf main_arg26
  let main_cst_50 : FVec F S_ .f32 := constant S_ .f32 0x7F800000#32
  let main_v130 : FVec F S500x512 .f32 := broadcastInDim S500x512 ![] bcast_S_S500x512 main_cst_50
  let main_v131 : IVec S500x512 1 := cmpf .olt main_v129 main_v130
  let main_c_51 : IVec S_ 1 := constantI S_ 1 1#1
  let main_v132 : IVec S_ 1 := (fun x v => Host.reduce IntOp.andi x v reducesTo_S500x512_S_d0_1 h_S_) main_v131 main_c_51
  let main_v133 : IVec S_ 1 := andi main_v128 main_v132
  let main_v134 : FVec F S10x10 .f32 := Host.absf main_arg27
  let main_cst_52 : FVec F S_ .f32 := constant S_ .f32 0x7F800000#32
  let main_v135 : FVec F S10x10 .f32 := broadcastInDim S10x10 ![] bcast_S_S10x10 main_cst_52
  let main_v136 : IVec S10x10 1 := cmpf .olt main_v134 main_v135
  fn_part8 (F := F) main_v133 main_v136

def fn_part6 {F : FTy → Type} [FloatOps F] (main_arg21 : FVec F S2000x10 .f32) (main_arg22 : FVec F S10x10 .f32) (main_arg23 : FVec F S10x2000 .f32) (main_arg24 : FVec F S2000x500 .f32) (main_arg25 : FVec F S500x500 .f32) (main_arg26 : FVec F S500x512 .f32) (main_arg27 : FVec F S10x10 .f32) (main_v98 : IVec S_ 1) (main_v101 : IVec S500x2000 1) (main_c_39 : IVec S_ 1) : IVec S_ 1 :=
  let main_v102 : IVec S_ 1 := (fun x v => Host.reduce IntOp.andi x v reducesTo_S500x2000_S_d0_1 h_S_) main_v101 main_c_39
  let main_v103 : IVec S_ 1 := andi main_v98 main_v102
  let main_v104 : FVec F S2000x10 .f32 := Host.absf main_arg21
  let main_cst_40 : FVec F S_ .f32 := constant S_ .f32 0x7F800000#32
  let main_v105 : FVec F S2000x10 .f32 := broadcastInDim S2000x10 ![] bcast_S_S2000x10 main_cst_40
  let main_v106 : IVec S2000x10 1 := cmpf .olt main_v104 main_v105
  let main_c_41 : IVec S_ 1 := constantI S_ 1 1#1
  let main_v107 : IVec S_ 1 := (fun x v => Host.reduce IntOp.andi x v reducesTo_S2000x10_S_d0_1 h_S_) main_v106 main_c_41
  let main_v108 : IVec S_ 1 := andi main_v103 main_v107
  let main_v109 : FVec F S10x10 .f32 := Host.absf main_arg22
  let main_cst_42 : FVec F S_ .f32 := constant S_ .f32 0x7F800000#32
  let main_v110 : FVec F S10x10 .f32 := broadcastInDim S10x10 ![] bcast_S_S10x10 main_cst_42
  let main_v111 : IVec S10x10 1 := cmpf .olt main_v109 main_v110
  let main_c_43 : IVec S_ 1 := constantI S_ 1 1#1
  let main_v112 : IVec S_ 1 := (fun x v => Host.reduce IntOp.andi x v reducesTo_S10x10_S_d0_1 h_S_) main_v111 main_c_43
  let main_v113 : IVec S_ 1 := andi main_v108 main_v112
  let main_v114 : FVec F S10x2000 .f32 := Host.absf main_arg23
  let main_cst_44 : FVec F S_ .f32 := constant S_ .f32 0x7F800000#32
  let main_v115 : FVec F S10x2000 .f32 := broadcastInDim S10x2000 ![] bcast_S_S10x2000 main_cst_44
  let main_v116 : IVec S10x2000 1 := cmpf .olt main_v114 main_v115
  let main_c_45 : IVec S_ 1 := constantI S_ 1 1#1
  let main_v117 : IVec S_ 1 := (fun x v => Host.reduce IntOp.andi x v reducesTo_S10x2000_S_d0_1 h_S_) main_v116 main_c_45
  let main_v118 : IVec S_ 1 := andi main_v113 main_v117
  let main_v119 : FVec F S2000x500 .f32 := Host.absf main_arg24
  fn_part7 (F := F) main_arg25 main_arg26 main_arg27 main_v118 main_v119

def fn_part5 {F : FTy → Type} [FloatOps F] (main_arg18 : FVec F S512x500 .f32) (main_arg19 : FVec F S500x500 .f32) (main_arg20 : FVec F S500x2000 .f32) (main_arg21 : FVec F S2000x10 .f32) (main_arg22 : FVec F S10x10 .f32) (main_arg23 : FVec F S10x2000 .f32) (main_arg24 : FVec F S2000x500 .f32) (main_arg25 : FVec F S500x500 .f32) (main_arg26 : FVec F S500x512 .f32) (main_arg27 : FVec F S10x10 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x500 .f32 := Host.absf main_arg18
  let main_cst_34 : FVec F S_ .f32 := constant S_ .f32 0x7F800000#32
  let main_v90 : FVec F S512x500 .f32 := broadcastInDim S512x500 ![] bcast_S_S512x500 main_cst_34
  let main_v91 : IVec S512x500 1 := cmpf .olt main_v89 main_v90
  let main_c_35 : IVec S_ 1 := constantI S_ 1 1#1
  let main_v92 : IVec S_ 1 := (fun x v => Host.reduce IntOp.andi x v reducesTo_S512x500_S_d0_1 h_S_) main_v91 main_c_35
  let main_v93 : IVec S_ 1 := andi main_v88 main_v92
  let main_v94 : FVec F S500x500 .f32 := Host.absf main_arg19
  let main_cst_36 : FVec F S_ .f32 := constant S_ .f32 0x7F800000#32
  let main_v95 : FVec F S500x500 .f32 := broadcastInDim S500x500 ![] bcast_S_S500x500 main_cst_36
  let main_v96 : IVec S500x500 1 := cmpf .olt main_v94 main_v95
  let main_c_37 : IVec S_ 1 := constantI S_ 1 1#1
  let main_v97 : IVec S_ 1 := (fun x v => Host.reduce IntOp.andi x v reducesTo_S500x500_S_d0_1 h_S_) main_v96 main_c_37
  let main_v98 : IVec S_ 1 := andi main_v93 main_v97
  let main_v99 : FVec F S500x2000 .f32 := Host.absf main_arg20
  let main_cst_38 : FVec F S_ .f32 := constant S_ .f32 0x7F800000#32
  let main_v100 : FVec F S500x2000 .f32 := broadcastInDim S500x2000 ![] bcast_S_S500x2000 main_cst_38
  let main_v101 : IVec S500x2000 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S500x500 .f32) (main_arg15 : FVec F S500 .f32) (main_arg16 : FVec F S500x512 .f32) (main_arg17 : FVec F S512 .f32) (main_arg18 : FVec F S512x500 .f32) (main_arg19 : FVec F S500x500 .f32) (main_arg20 : FVec F S500x2000 .f32) (main_arg21 : FVec F S2000x10 .f32) (main_arg22 : FVec F S10x10 .f32) (main_arg23 : FVec F S10x2000 .f32) (main_arg24 : FVec F S2000x500 .f32) (main_arg25 : FVec F S500x500 .f32) (main_arg26 : FVec F S500x512 .f32) (main_arg27 : FVec F S10x10 .f32) (main_v63 : IVec S_ 1) (main_v67 : IVec S_ 1) : IVec S_ 1 :=
  let main_v68 : IVec S_ 1 := andi main_v63 main_v67
  let main_v69 : FVec F S500x500 .f32 := Host.absf main_arg14
  let main_cst_26 : FVec F S_ .f32 := constant S_ .f32 0x7F800000#32
  let main_v70 : FVec F S500x500 .f32 := broadcastInDim S500x500 ![] bcast_S_S500x500 main_cst_26
  let main_v71 : IVec S500x500 1 := cmpf .olt main_v69 main_v70
  let main_c_27 : IVec S_ 1 := constantI S_ 1 1#1
  let main_v72 : IVec S_ 1 := (fun x v => Host.reduce IntOp.andi x v reducesTo_S500x500_S_d0_1 h_S_) main_v71 main_c_27
  let main_v73 : IVec S_ 1 := andi main_v68 main_v72
  let main_v74 : FVec F S500 .f32 := Host.absf main_arg15
  let main_cst_28 : FVec F S_ .f32 := constant S_ .f32 0x7F800000#32
  let main_v75 : FVec F S500 .f32 := broadcastInDim S500 ![] bcast_S_S500 main_cst_28
  let main_v76 : IVec S500 1 := cmpf .olt main_v74 main_v75
  let main_c_29 : IVec S_ 1 := constantI S_ 1 1#1
  let main_v77 : IVec S_ 1 := (fun x v => Host.reduce IntOp.andi x v reducesTo_S500_S_d0 h_S_) main_v76 main_c_29
  let main_v78 : IVec S_ 1 := andi main_v73 main_v77
  let main_v79 : FVec F S500x512 .f32 := Host.absf main_arg16
  let main_cst_30 : FVec F S_ .f32 := constant S_ .f32 0x7F800000#32
  let main_v80 : FVec F S500x512 .f32 := broadcastInDim S500x512 ![] bcast_S_S500x512 main_cst_30
  let main_v81 : IVec S500x512 1 := cmpf .olt main_v79 main_v80
  let main_c_31 : IVec S_ 1 := constantI S_ 1 1#1
  let main_v82 : IVec S_ 1 := (fun x v => Host.reduce IntOp.andi x v reducesTo_S500x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S2000 .f32) (main_arg12 : FVec F S2000x500 .f32) (main_arg13 : FVec F S500 .f32) (main_arg14 : FVec F S500x500 .f32) (main_arg15 : FVec F S500 .f32) (main_arg16 : FVec F S500x512 .f32) (main_arg17 : FVec F S512 .f32) (main_arg18 : FVec F S512x500 .f32) (main_arg19 : FVec F S500x500 .f32) (main_arg20 : FVec F S500x2000 .f32) (main_arg21 : FVec F S2000x10 .f32) (main_arg22 : FVec F S10x10 .f32) (main_arg23 : FVec F S10x2000 .f32) (main_arg24 : FVec F S2000x500 .f32) (main_arg25 : FVec F S500x500 .f32) (main_arg26 : FVec F S500x512 .f32) (main_arg27 : FVec F S10x10 .f32) (main_v48 : IVec S_ 1) (main_v49 : FVec F S10x2000 .f32) (main_v50 : FVec F S10x2000 .f32) : IVec S_ 1 :=
  let main_v51 : IVec S10x2000 1 := cmpf .olt main_v49 main_v50
  let main_c_19 : IVec S_ 1 := constantI S_ 1 1#1
  let main_v52 : IVec S_ 1 := (fun x v => Host.reduce IntOp.andi x v reducesTo_S10x2000_S_d0_1 h_S_) main_v51 main_c_19
  let main_v53 : IVec S_ 1 := andi main_v48 main_v52
  let main_v54 : FVec F S2000 .f32 := Host.absf main_arg11
  let main_cst_20 : FVec F S_ .f32 := constant S_ .f32 0x7F800000#32
  let main_v55 : FVec F S2000 .f32 := broadcastInDim S2000 ![] bcast_S_S2000 main_cst_20
  let main_v56 : IVec S2000 1 := cmpf .olt main_v54 main_v55
  let main_c_21 : IVec S_ 1 := constantI S_ 1 1#1
  let main_v57 : IVec S_ 1 := (fun x v => Host.reduce IntOp.andi x v reducesTo_S2000_S_d0 h_S_) main_v56 main_c_21
  let main_v58 : IVec S_ 1 := andi main_v53 main_v57
  let main_v59 : FVec F S2000x500 .f32 := Host.absf main_arg12
  let main_cst_22 : FVec F S_ .f32 := constant S_ .f32 0x7F800000#32
  let main_v60 : FVec F S2000x500 .f32 := broadcastInDim S2000x500 ![] bcast_S_S2000x500 main_cst_22
  let main_v61 : IVec S2000x500 1 := cmpf .olt main_v59 main_v60
  let main_c_23 : IVec S_ 1 := constantI S_ 1 1#1
  let main_v62 : IVec S_ 1 := (fun x v => Host.reduce IntOp.andi x v reducesTo_S2000x500_S_d0_1 h_S_) main_v61 main_c_23
  let main_v63 : IVec S_ 1 := andi main_v58 main_v62
  let main_v64 : FVec F S500 .f32 := Host.absf main_arg13
  let main_cst_24 : FVec F S_ .f32 := constant S_ .f32 0x7F800000#32
  let main_v65 : FVec F S500 .f32 := broadcastInDim S500 ![] bcast_S_S500 main_cst_24
  let main_v66 : IVec S500 1 := cmpf .olt main_v64 main_v65
  let main_c_25 : IVec S_ 1 := constantI S_ 1 1#1
  let main_v67 : IVec S_ 1 := (fun x v => Host.reduce IntOp.andi x v reducesTo_S500_S_d0 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S2000 .f32) (main_arg8 : FVec F S2000x10 .f32) (main_arg9 : FVec F S10 .f32) (main_arg10 : FVec F S10x2000 .f32) (main_arg11 : FVec F S2000 .f32) (main_arg12 : FVec F S2000x500 .f32) (main_arg13 : FVec F S500 .f32) (main_arg14 : FVec F S500x500 .f32) (main_arg15 : FVec F S500 .f32) (main_arg16 : FVec F S500x512 .f32) (main_arg17 : FVec F S512 .f32) (main_arg18 : FVec F S512x500 .f32) (main_arg19 : FVec F S500x500 .f32) (main_arg20 : FVec F S500x2000 .f32) (main_arg21 : FVec F S2000x10 .f32) (main_arg22 : FVec F S10x10 .f32) (main_arg23 : FVec F S10x2000 .f32) (main_arg24 : FVec F S2000x500 .f32) (main_arg25 : FVec F S500x500 .f32) (main_arg26 : FVec F S500x512 .f32) (main_arg27 : FVec F S10x10 .f32) (main_v33 : IVec S_ 1) : IVec S_ 1 :=
  let main_v34 : FVec F S2000 .f32 := Host.absf main_arg7
  let main_cst_12 : FVec F S_ .f32 := constant S_ .f32 0x7F800000#32
  let main_v35 : FVec F S2000 .f32 := broadcastInDim S2000 ![] bcast_S_S2000 main_cst_12
  let main_v36 : IVec S2000 1 := cmpf .olt main_v34 main_v35
  let main_c_13 : IVec S_ 1 := constantI S_ 1 1#1
  let main_v37 : IVec S_ 1 := (fun x v => Host.reduce IntOp.andi x v reducesTo_S2000_S_d0 h_S_) main_v36 main_c_13
  let main_v38 : IVec S_ 1 := andi main_v33 main_v37
  let main_v39 : FVec F S2000x10 .f32 := Host.absf main_arg8
  let main_cst_14 : FVec F S_ .f32 := constant S_ .f32 0x7F800000#32
  let main_v40 : FVec F S2000x10 .f32 := broadcastInDim S2000x10 ![] bcast_S_S2000x10 main_cst_14
  let main_v41 : IVec S2000x10 1 := cmpf .olt main_v39 main_v40
  let main_c_15 : IVec S_ 1 := constantI S_ 1 1#1
  let main_v42 : IVec S_ 1 := (fun x v => Host.reduce IntOp.andi x v reducesTo_S2000x10_S_d0_1 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x2000 .f32 := Host.absf main_arg10
  let main_cst_18 : FVec F S_ .f32 := constant S_ .f32 0x7F800000#32
  let main_v50 : FVec F S10x2000 .f32 := broadcastInDim S10x2000 ![] bcast_S_S10x2000 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S500x500 .f32) (main_arg5 : FVec F S500 .f32) (main_arg6 : FVec F S500x2000 .f32) (main_arg7 : FVec F S2000 .f32) (main_arg8 : FVec F S2000x10 .f32) (main_arg9 : FVec F S10 .f32) (main_arg10 : FVec F S10x2000 .f32) (main_arg11 : FVec F S2000 .f32) (main_arg12 : FVec F S2000x500 .f32) (main_arg13 : FVec F S500 .f32) (main_arg14 : FVec F S500x500 .f32) (main_arg15 : FVec F S500 .f32) (main_arg16 : FVec F S500x512 .f32) (main_arg17 : FVec F S512 .f32) (main_arg18 : FVec F S512x500 .f32) (main_arg19 : FVec F S500x500 .f32) (main_arg20 : FVec F S500x2000 .f32) (main_arg21 : FVec F S2000x10 .f32) (main_arg22 : FVec F S10x10 .f32) (main_arg23 : FVec F S10x2000 .f32) (main_arg24 : FVec F S2000x500 .f32) (main_arg25 : FVec F S500x500 .f32) (main_arg26 : FVec F S500x512 .f32) (main_arg27 : FVec F S10x10 .f32) (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  let main_v19 : FVec F S500x500 .f32 := Host.absf main_arg4
  let main_cst_6 : FVec F S_ .f32 := constant S_ .f32 0x7F800000#32
  let main_v20 : FVec F S500x500 .f32 := broadcastInDim S500x500 ![] bcast_S_S500x500 main_cst_6
  let main_v21 : IVec S500x500 1 := cmpf .olt main_v19 main_v20
  let main_c_7 : IVec S_ 1 := constantI S_ 1 1#1
  let main_v22 : IVec S_ 1 := (fun x v => Host.reduce IntOp.andi x v reducesTo_S500x500_S_d0_1 h_S_) main_v21 main_c_7
  let main_v23 : IVec S_ 1 := andi main_v18 main_v22
  let main_v24 : FVec F S500 .f32 := Host.absf main_arg5
  let main_cst_8 : FVec F S_ .f32 := constant S_ .f32 0x7F800000#32
  let main_v25 : FVec F S500 .f32 := broadcastInDim S500 ![] bcast_S_S500 main_cst_8
  let main_v26 : IVec S500 1 := cmpf .olt main_v24 main_v25
  let main_c_9 : IVec S_ 1 := constantI S_ 1 1#1
  let main_v27 : IVec S_ 1 := (fun x v => Host.reduce IntOp.andi x v reducesTo_S500_S_d0 h_S_) main_v26 main_c_9
  let main_v28 : IVec S_ 1 := andi main_v23 main_v27
  let main_v29 : FVec F S500x2000 .f32 := Host.absf main_arg6
  let main_cst_10 : FVec F S_ .f32 := constant S_ .f32 0x7F800000#32
  let main_v30 : FVec F S500x2000 .f32 := broadcastInDim S500x2000 ![] bcast_S_S500x2000 main_cst_10
  let main_v31 : IVec S500x2000 1 := cmpf .olt main_v29 main_v30
  let main_c_11 : IVec S_ 1 := constantI S_ 1 1#1
  let main_v32 : IVec S_ 1 := (fun x v => Host.reduce IntOp.andi x v reducesTo_S500x2000_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S4096x512 .f32) (main_arg1 : FVec F S4096x4096 .f32) (main_arg2 : FVec F S512x500 .f32) (main_arg3 : FVec F S500 .f32) (main_arg4 : FVec F S500x500 .f32) (main_arg5 : FVec F S500 .f32) (main_arg6 : FVec F S500x2000 .f32) (main_arg7 : FVec F S2000 .f32) (main_arg8 : FVec F S2000x10 .f32) (main_arg9 : FVec F S10 .f32) (main_arg10 : FVec F S10x2000 .f32) (main_arg11 : FVec F S2000 .f32) (main_arg12 : FVec F S2000x500 .f32) (main_arg13 : FVec F S500 .f32) (main_arg14 : FVec F S500x500 .f32) (main_arg15 : FVec F S500 .f32) (main_arg16 : FVec F S500x512 .f32) (main_arg17 : FVec F S512 .f32) (main_arg18 : FVec F S512x500 .f32) (main_arg19 : FVec F S500x500 .f32) (main_arg20 : FVec F S500x2000 .f32) (main_arg21 : FVec F S2000x10 .f32) (main_arg22 : FVec F S10x10 .f32) (main_arg23 : FVec F S10x2000 .f32) (main_arg24 : FVec F S2000x500 .f32) (main_arg25 : FVec F S500x500 .f32) (main_arg26 : FVec F S500x512 .f32) (main_arg27 : FVec F S10x10 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x500 .f32 := Host.absf main_arg2
  let main_cst_2 : FVec F S_ .f32 := constant S_ .f32 0x7F800000#32
  let main_v10 : FVec F S512x500 .f32 := broadcastInDim S512x500 ![] bcast_S_S512x500 main_cst_2
  let main_v11 : IVec S512x500 1 := cmpf .olt main_v9 main_v10
  let main_c_3 : IVec S_ 1 := constantI S_ 1 1#1
  let main_v12 : IVec S_ 1 := (fun x v => Host.reduce IntOp.andi x v reducesTo_S512x500_S_d0_1 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S4096x512 : Shape := ⟨2, ![4096, 512]⟩
abbrev S4096x4096 : Shape := ⟨2, ![4096, 4096]⟩
abbrev S512x500 : Shape := ⟨2, ![512, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S10x2000 : Shape := ⟨2, ![10, 2000]⟩
abbrev S2000x500 : Shape := ⟨2, ![2000, 500]⟩
abbrev S500x512 : Shape := ⟨2, ![500, 512]⟩
abbrev S512 : Shape := ⟨1, ![512]⟩
abbrev S10x10 : Shape := ⟨2, ![10, 10]⟩
abbrev S1x500 : Shape := ⟨2, ![1, 500]⟩
abbrev S1x2000 : Shape := ⟨2, ![1, 2000]⟩
abbrev S1x10 : Shape := ⟨2, ![1, 10]⟩
abbrev S1x512 : Shape := ⟨2, ![1, 512]⟩
abbrev S4096x10 : Shape := ⟨2, ![4096, 10]⟩
abbrev S4096x500 : Shape := ⟨2, ![4096, 500]⟩
abbrev S1024x512 : Shape := ⟨2, ![1024, 512]⟩
abbrev S1024x10 : Shape := ⟨2, ![1024, 10]⟩
abbrev S1024x500 : Shape := ⟨2, ![1024, 500]⟩
abbrev S1024x2000 : Shape := ⟨2, ![1024, 2000]⟩
abbrev S1024 : Shape := ⟨1, ![1024]⟩
abbrev S1024x1 : Shape := ⟨2, ![1024, 1]⟩
abbrev S512x4096 : Shape := ⟨2, ![512, 4096]⟩
abbrev S512x10 : Shape := ⟨2, ![512, 10]⟩
abbrev S512x2000 : Shape := ⟨2, ![512, 2000]⟩
abbrev S4096x256 : Shape := ⟨2, ![4096, 256]⟩
abbrev S512x256 : Shape := ⟨2, ![512, 256]⟩
abbrev S512x118 : Shape := ⟨2, ![512, 118]⟩
abbrev S512x128 : Shape := ⟨2, ![512, 128]⟩
abbrev S512x1 : Shape := ⟨2, ![512, 1]⟩
abbrev S512x512 : Shape := ⟨2, ![512, 512]⟩
abbrev S1024x4096 : Shape := ⟨2, ![1024, 4096]⟩

abbrev nBuf : Space → Nat
  | .hbm => 77
  | .vmem => 106
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x500, .f32⟩
  | .hbm, ⟨3, _⟩ => ⟨S500, .f32⟩
  | .hbm, ⟨4, _⟩ => ⟨S500x500, .f32⟩
  | .hbm, ⟨5, _⟩ => ⟨S500, .f32⟩
  | .hbm, ⟨6, _⟩ => ⟨S500x2000, .f32⟩
  | .hbm, ⟨7, _⟩ => ⟨S2000, .f32⟩
  | .hbm, ⟨8, _⟩ => ⟨S2000x10, .f32⟩
  | .hbm, ⟨9, _⟩ => ⟨S10, .f32⟩
  | .hbm, ⟨10, _⟩ => ⟨S10x2000, .f32⟩
  | .hbm, ⟨11, _⟩ => ⟨S2000, .f32⟩
  | .hbm, ⟨12, _⟩ => ⟨S2000x500, .f32⟩
  | .hbm, ⟨13, _⟩ => ⟨S500, .f32⟩
  | .hbm, ⟨14, _⟩ => ⟨S500x500, .f32⟩
  | .hbm, ⟨15, _⟩ => ⟨S500, .f32⟩
  | .hbm, ⟨16, _⟩ => ⟨S500x512, .f32⟩
  | .hbm, ⟨17, _⟩ => ⟨S512, .f32⟩
  | .hbm, ⟨18, _⟩ => ⟨S512x500, .f32⟩
  | .hbm, ⟨19, _⟩ => ⟨S500x500, .f32⟩
  | .hbm, ⟨20, _⟩ => ⟨S500x2000, .f32⟩
  | .hbm, ⟨21, _⟩ => ⟨S2000x10, .f32⟩
  | .hbm, ⟨22, _⟩ => ⟨S10x10, .f32⟩
  | .hbm, ⟨23, _⟩ => ⟨S10x2000, .f32⟩
  | .hbm, ⟨24, _⟩ => ⟨S2000x500, .f32⟩
  | .hbm, ⟨25, _⟩ => ⟨S500x500, .f32⟩
  | .hbm, ⟨26, _⟩ => ⟨S500x512, .f32⟩
  | .hbm, ⟨27, _⟩ => ⟨S10x10, .f32⟩
  | .hbm, ⟨28, _⟩ => ⟨S10x10, .f32⟩
  | .hbm, ⟨29, _⟩ => ⟨S512x500, .bf16⟩
  | .hbm, ⟨30, _⟩ => ⟨S500x500, .bf16⟩
  | .hbm, ⟨31, _⟩ => ⟨S500x2000, .bf16⟩
  | .hbm, ⟨32, _⟩ => ⟨S2000x10, .bf16⟩
  | .hbm, ⟨33, _⟩ => ⟨S10x2000, .bf16⟩
  | .hbm, ⟨34, _⟩ => ⟨S2000x500, .bf16⟩
  | .hbm, ⟨35, _⟩ => ⟨S500x500, .bf16⟩
  | .hbm, ⟨36, _⟩ => ⟨S500x512, .bf16⟩
  | .hbm, ⟨37, _⟩ => ⟨S1x500, .f32⟩
  | .hbm, ⟨38, _⟩ => ⟨S1x500, .f32⟩
  | .hbm, ⟨39, _⟩ => ⟨S1x2000, .f32⟩
  | .hbm, ⟨40, _⟩ => ⟨S1x10, .f32⟩
  | .hbm, ⟨41, _⟩ => ⟨S1x2000, .f32⟩
  | .hbm, ⟨42, _⟩ => ⟨S1x500, .f32⟩
  | .hbm, ⟨43, _⟩ => ⟨S1x500, .f32⟩
  | .hbm, ⟨44, _⟩ => ⟨S1x512, .f32⟩
  | .hbm, ⟨45, _⟩ => ⟨S512x500, .bf16⟩
  | .hbm, ⟨46, _⟩ => ⟨S4096x512, .f32⟩
  | .hbm, ⟨47, _⟩ => ⟨S4096x10, .f32⟩
  | .hbm, ⟨48, _⟩ => ⟨S4096x500, .bf16⟩
  | .hbm, ⟨49, _⟩ => ⟨S4096x10, .f32⟩
  | .hbm, ⟨50, _⟩ => ⟨S4096x500, .bf16⟩
  | .hbm, ⟨51, _⟩ => ⟨S500x500, .bf16⟩
  | .hbm, ⟨52, _⟩ => ⟨S1x500, .f32⟩
  | .hbm, ⟨53, _⟩ => ⟨S500x500, .bf16⟩
  | .hbm, ⟨54, _⟩ => ⟨S4096x500, .bf16⟩
  | .hbm, ⟨55, _⟩ => ⟨S4096x500, .bf16⟩
  | .hbm, ⟨56, _⟩ => ⟨S4096x4096, .bf16⟩
  | .hbm, ⟨57, _⟩ => ⟨S4096x500, .bf16⟩
  | .hbm, ⟨58, _⟩ => ⟨S500x2000, .bf16⟩
  | .hbm, ⟨59, _⟩ => ⟨S2000x10, .bf16⟩
  | .hbm, ⟨60, _⟩ => ⟨S4096x10, .bf16⟩
  | .hbm, ⟨61, _⟩ => ⟨S4096x10, .f32⟩
  | .hbm, ⟨62, _⟩ => ⟨S4096x256, .bf16⟩
  | .hbm, ⟨63, _⟩ => ⟨S10x10, .bf16⟩
  | .hbm, ⟨64, _⟩ => ⟨S10x2000, .bf16⟩
  | .hbm, ⟨65, _⟩ => ⟨S2000x500, .bf16⟩
  | .hbm, ⟨66, _⟩ => ⟨S4096x10, .f32⟩
  | .hbm, ⟨67, _⟩ => ⟨S4096x10, .f32⟩
  | .hbm, ⟨68, _⟩ => ⟨S4096x10, .f32⟩
  | .hbm, ⟨69, _⟩ => ⟨S4096x500, .bf16⟩
  | .hbm, ⟨70, _⟩ => ⟨S500x500, .bf16⟩
  | .hbm, ⟨71, _⟩ => ⟨S4096x500, .bf16⟩
  | .hbm, ⟨72, _⟩ => ⟨S500x512, .bf16⟩
  | .hbm, ⟨73, _⟩ => ⟨S4096x512, .bf16⟩
  | .hbm, ⟨74, _⟩ => ⟨S4096x512, .f32⟩
  | .hbm, ⟨75, _⟩ => ⟨S4096x512, .bf16⟩
  | .hbm, ⟨76, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x500, .bf16⟩
  | .local _ .vmem, ⟨3, _⟩ => ⟨S1x500, .f32⟩
  | .local _ .vmem, ⟨4, _⟩ => ⟨S500x500, .bf16⟩
  | .local _ .vmem, ⟨5, _⟩ => ⟨S1x500, .f32⟩
  | .local _ .vmem, ⟨6, _⟩ => ⟨S500x2000, .bf16⟩
  | .local _ .vmem, ⟨7, _⟩ => ⟨S1x2000, .f32⟩
  | .local _ .vmem, ⟨8, _⟩ => ⟨S2000x10, .bf16⟩
  | .local _ .vmem, ⟨9, _⟩ => ⟨S1x10, .f32⟩
  | .local _ .vmem, ⟨10, _⟩ => ⟨S10x2000, .bf16⟩
  | .local _ .vmem, ⟨11, _⟩ => ⟨S1x2000, .f32⟩
  | .local _ .vmem, ⟨12, _⟩ => ⟨S2000x500, .bf16⟩
  | .local _ .vmem, ⟨13, _⟩ => ⟨S1x500, .f32⟩
  | .local _ .vmem, ⟨14, _⟩ => ⟨S500x500, .bf16⟩
  | .local _ .vmem, ⟨15, _⟩ => ⟨S1x500, .f32⟩
  | .local _ .vmem, ⟨16, _⟩ => ⟨S500x512, .bf16⟩
  | .local _ .vmem, ⟨17, _⟩ => ⟨S1x512, .f32⟩
  | .local _ .vmem, ⟨18, _⟩ => ⟨S512x500, .bf16⟩
  | .local _ .vmem, ⟨19, _⟩ => ⟨S10x10, .f32⟩
  | .local _ .vmem, ⟨20, _⟩ => ⟨S1024x512, .f32⟩
  | .local _ .vmem, ⟨21, _⟩ => ⟨S1024x512, .f32⟩
  | .local _ .vmem, ⟨22, _⟩ => ⟨S1024x10, .f32⟩
  | .local _ .vmem, ⟨23, _⟩ => ⟨S1024x10, .f32⟩
  | .local _ .vmem, ⟨24, _⟩ => ⟨S1024x500, .bf16⟩
  | .local _ .vmem, ⟨25, _⟩ => ⟨S1024x500, .bf16⟩
  | .local _ .vmem, ⟨26, _⟩ => ⟨S1024x10, .f32⟩
  | .local _ .vmem, ⟨27, _⟩ => ⟨S1024x10, .f32⟩
  | .local _ .vmem, ⟨28, _⟩ => ⟨S1024x500, .bf16⟩
  | .local _ .vmem, ⟨29, _⟩ => ⟨S1024x500, .bf16⟩
  | .local _ .vmem, ⟨30, _⟩ => ⟨S512x4096, .f32⟩
  | .local _ .vmem, ⟨31, _⟩ => ⟨S512x4096, .f32⟩
  | .local _ .vmem, ⟨32, _⟩ => ⟨S4096x500, .bf16⟩
  | .local _ .vmem, ⟨33, _⟩ => ⟨S512x500, .bf16⟩
  | .local _ .vmem, ⟨34, _⟩ => ⟨S512x500, .bf16⟩
  | .local _ .vmem, ⟨35, _⟩ => ⟨S500x500, .bf16⟩
  | .local _ .vmem, ⟨36, _⟩ => ⟨S1x500, .f32⟩
  | .local _ .vmem, ⟨37, _⟩ => ⟨S500x500, .bf16⟩
  | .local _ .vmem, ⟨38, _⟩ => ⟨S512x500, .bf16⟩
  | .local _ .vmem, ⟨39, _⟩ => ⟨S512x500, .bf16⟩
  | .local _ .vmem, ⟨40, _⟩ => ⟨S512x500, .bf16⟩
  | .local _ .vmem, ⟨41, _⟩ => ⟨S512x500, .bf16⟩
  | .local _ .vmem, ⟨42, _⟩ => ⟨S512x4096, .bf16⟩
  | .local _ .vmem, ⟨43, _⟩ => ⟨S512x4096, .bf16⟩
  | .local _ .vmem, ⟨44, _⟩ => ⟨S512x4096, .bf16⟩
  | .local _ .vmem, ⟨45, _⟩ => ⟨S512x4096, .bf16⟩
  | .local _ .vmem, ⟨46, _⟩ => ⟨S4096x500, .bf16⟩
  | .local _ .vmem, ⟨47, _⟩ => ⟨S512x500, .bf16⟩
  | .local _ .vmem, ⟨48, _⟩ => ⟨S512x500, .bf16⟩
  | .local _ .vmem, ⟨49, _⟩ => ⟨S512x500, .bf16⟩
  | .local _ .vmem, ⟨50, _⟩ => ⟨S512x500, .bf16⟩
  | .local _ .vmem, ⟨51, _⟩ => ⟨S512x4096, .bf16⟩
  | .local _ .vmem, ⟨52, _⟩ => ⟨S512x4096, .bf16⟩
  | .local _ .vmem, ⟨53, _⟩ => ⟨S4096x500, .bf16⟩
  | .local _ .vmem, ⟨54, _⟩ => ⟨S500x2000, .bf16⟩
  | .local _ .vmem, ⟨55, _⟩ => ⟨S2000x10, .bf16⟩
  | .local _ .vmem, ⟨56, _⟩ => ⟨S512x10, .bf16⟩
  | .local _ .vmem, ⟨57, _⟩ => ⟨S512x10, .bf16⟩
  | .local _ .vmem, ⟨58, _⟩ => ⟨S512x4096, .bf16⟩
  | .local _ .vmem, ⟨59, _⟩ => ⟨S512x4096, .bf16⟩
  | .local _ .vmem, ⟨60, _⟩ => ⟨S4096x10, .bf16⟩
  | .local _ .vmem, ⟨61, _⟩ => ⟨S512x10, .f32⟩
  | .local _ .vmem, ⟨62, _⟩ => ⟨S512x10, .f32⟩
  | .local _ .vmem, ⟨63, _⟩ => ⟨S512x10, .f32⟩
  | .local _ .vmem, ⟨64, _⟩ => ⟨S512x10, .f32⟩
  | .local _ .vmem, ⟨65, _⟩ => ⟨S512x256, .bf16⟩
  | .local _ .vmem, ⟨66, _⟩ => ⟨S512x256, .bf16⟩
  | .local _ .vmem, ⟨67, _⟩ => ⟨S512x4096, .bf16⟩
  | .local _ .vmem, ⟨68, _⟩ => ⟨S512x4096, .bf16⟩
  | .local _ .vmem, ⟨69, _⟩ => ⟨S4096x256, .bf16⟩
  | .local _ .vmem, ⟨70, _⟩ => ⟨S10x10, .bf16⟩
  | .local _ .vmem, ⟨71, _⟩ => ⟨S10x2000, .bf16⟩
  | .local _ .vmem, ⟨72, _⟩ => ⟨S2000x500, .bf16⟩
  | .local _ .vmem, ⟨73, _⟩ => ⟨S10x10, .f32⟩
  | .local _ .vmem, ⟨74, _⟩ => ⟨S512x10, .f32⟩
  | .local _ .vmem, ⟨75, _⟩ => ⟨S512x10, .f32⟩
  | .local _ .vmem, ⟨76, _⟩ => ⟨S512x10, .f32⟩
  | .local _ .vmem, ⟨77, _⟩ => ⟨S512x10, .f32⟩
  | .local _ .vmem, ⟨78, _⟩ => ⟨S512x10, .f32⟩
  | .local _ .vmem, ⟨79, _⟩ => ⟨S512x10, .f32⟩
  | .local _ .vmem, ⟨80, _⟩ => ⟨S512x500, .bf16⟩
  | .local _ .vmem, ⟨81, _⟩ => ⟨S512x500, .bf16⟩
  | .local _ .vmem, ⟨82, _⟩ => ⟨S512x4096, .bf16⟩
  | .local _ .vmem, ⟨83, _⟩ => ⟨S512x4096, .bf16⟩
  | .local _ .vmem, ⟨84, _⟩ => ⟨S4096x500, .bf16⟩
  | .local _ .vmem, ⟨85, _⟩ => ⟨S500x500, .bf16⟩
  | .local _ .vmem, ⟨86, _⟩ => ⟨S512x500, .bf16⟩
  | .local _ .vmem, ⟨87, _⟩ => ⟨S512x500, .bf16⟩
  | .local _ .vmem, ⟨88, _⟩ => ⟨S512x4096, .bf16⟩
  | .local _ .vmem, ⟨89, _⟩ => ⟨S512x4096, .bf16⟩
  | .local _ .vmem, ⟨90, _⟩ => ⟨S4096x500, .bf16⟩
  | .local _ .vmem, ⟨91, _⟩ => ⟨S500x512, .bf16⟩
  | .local _ .vmem, ⟨92, _⟩ => ⟨S512x512, .bf16⟩
  | .local _ .vmem, ⟨93, _⟩ => ⟨S512x512, .bf16⟩
  | .local _ .vmem, ⟨94, _⟩ => ⟨S512x4096, .bf16⟩
  | .local _ .vmem, ⟨95, _⟩ => ⟨S512x4096, .bf16⟩
  | .local _ .vmem, ⟨96, _⟩ => ⟨S4096x512, .bf16⟩
  | .local _ .vmem, ⟨97, _⟩ => ⟨S512x512, .f32⟩
  | .local _ .vmem, ⟨98, _⟩ => ⟨S512x512, .f32⟩
  | .local _ .vmem, ⟨99, _⟩ => ⟨S512x512, .bf16⟩
  | .local _ .vmem, ⟨100, _⟩ => ⟨S512x512, .bf16⟩
  | .local _ .vmem, ⟨101, _⟩ => ⟨S1024x512, .bf16⟩
  | .local _ .vmem, ⟨102, _⟩ => ⟨S1024x512, .bf16⟩
  | .local _ .vmem, ⟨103, _⟩ => ⟨S4096x512, .bf16⟩
  | .local _ .vmem, ⟨104, _⟩ => ⟨S1024x4096, .f32⟩
  | .local _ .vmem, ⟨105, _⟩ => ⟨S1024x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | _, _ => false

abbrev semScoped : Fin 0 → Bool
  | ⟨_, h⟩ => absurd h (Nat.not_lt_zero _)

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  ofTc nBuf bufTy 0 106 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18_0 : Ref sig .tc := ⟨.hbm, 46, rfl⟩
abbrev main_v18_1 : Ref sig .tc := ⟨.hbm, 47, rfl⟩
abbrev main_v18_2 : Ref sig .tc := ⟨.hbm, 48, rfl⟩
abbrev main_v18_3 : Ref sig .tc := ⟨.hbm, 49, rfl⟩
abbrev main_v18_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22_0 : Ref sig .tc := ⟨.hbm, 54, rfl⟩
abbrev main_v22_1 : Ref sig .tc := ⟨.hbm, 55, rfl⟩
abbrev main_v22_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27_0 : Ref sig .tc := ⟨.hbm, 61, rfl⟩
abbrev main_v27_1 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31_0 : Ref sig .tc := ⟨.hbm, 66, rfl⟩
abbrev main_v31_1 : Ref sig .tc := ⟨.hbm, 67, rfl⟩
abbrev main_v31_2 : Ref sig .tc := ⟨.hbm, 68, rfl⟩
abbrev main_v31_3 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36_0 : Ref sig .tc := ⟨.hbm, 74, rfl⟩
abbrev main_v36_1 : Ref sig .tc := ⟨.hbm, 75, rfl⟩
abbrev main_v37 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg4_0 : Ref sig .tc := ⟨.vmem, 36, rfl⟩
abbrev cc1_stg5_0 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg2_0 : Ref sig .tc := ⟨.vmem, 47, rfl⟩
abbrev cc2_stg2_1 : Ref sig .tc := ⟨.vmem, 48, rfl⟩
abbrev cc2_stg3_0 : Ref sig .tc := ⟨.vmem, 49, rfl⟩
abbrev cc2_stg3_1 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg2_0 : Ref sig .tc := ⟨.vmem, 54, rfl⟩
abbrev cc3_stg3_0 : Ref sig .tc := ⟨.vmem, 55, rfl⟩
abbrev cc3_stg4_0 : Ref sig .tc := ⟨.vmem, 56, rfl⟩
abbrev cc3_stg4_1 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg2_0 : Ref sig .tc := ⟨.vmem, 61, rfl⟩
abbrev cc4_stg2_1 : Ref sig .tc := ⟨.vmem, 62, rfl⟩
abbrev cc4_stg3_0 : Ref sig .tc := ⟨.vmem, 63, rfl⟩
abbrev cc4_stg3_1 : Ref sig .tc := ⟨.vmem, 64, rfl⟩
abbrev cc4_stg4_0 : Ref sig .tc := ⟨.vmem, 65, rfl⟩
abbrev cc4_stg4_1 : Ref sig .tc := ⟨.vmem, 66, rfl⟩
abbrev cc5_stg0_0 : Ref sig .tc := ⟨.vmem, 67, rfl⟩
abbrev cc5_stg0_1 : Ref sig .tc := ⟨.vmem, 68, rfl⟩
abbrev cc5_stg1_0 : Ref sig .tc := ⟨.vmem, 69, rfl⟩
abbrev cc5_stg2_0 : Ref sig .tc := ⟨.vmem, 70, rfl⟩
abbrev cc5_stg3_0 : Ref sig .tc := ⟨.vmem, 71, rfl⟩
abbrev cc5_stg4_0 : Ref sig .tc := ⟨.vmem, 72, rfl⟩
abbrev cc5_stg5_0 : Ref sig .tc := ⟨.vmem, 73, rfl⟩
abbrev cc5_stg6_0 : Ref sig .tc := ⟨.vmem, 74, rfl⟩
abbrev cc5_stg6_1 : Ref sig .tc := ⟨.vmem, 75, rfl⟩
abbrev cc5_stg7_0 : Ref sig .tc := ⟨.vmem, 76, rfl⟩
abbrev cc5_stg7_1 : Ref sig .tc := ⟨.vmem, 77, rfl⟩
abbrev cc5_stg8_0 : Ref sig .tc := ⟨.vmem, 78, rfl⟩
abbrev cc5_stg8_1 : Ref sig .tc := ⟨.vmem, 79, rfl⟩
abbrev cc5_stg9_0 : Ref sig .tc := ⟨.vmem, 80, rfl⟩
abbrev cc5_stg9_1 : Ref sig .tc := ⟨.vmem, 81, rfl⟩
abbrev cc6_stg0_0 : Ref sig .tc := ⟨.vmem, 82, rfl⟩
abbrev cc6_stg0_1 : Ref sig .tc := ⟨.vmem, 83, rfl⟩
abbrev cc6_stg1_0 : Ref sig .tc := ⟨.vmem, 84, rfl⟩
abbrev cc6_stg2_0 : Ref sig .tc := ⟨.vmem, 85, rfl⟩
abbrev cc6_stg3_0 : Ref sig .tc := ⟨.vmem, 86, rfl⟩
abbrev cc6_stg3_1 : Ref sig .tc := ⟨.vmem, 87, rfl⟩
abbrev cc7_stg0_0 : Ref sig .tc := ⟨.vmem, 88, rfl⟩
abbrev cc7_stg0_1 : Ref sig .tc := ⟨.vmem, 89, rfl⟩
abbrev cc7_stg1_0 : Ref sig .tc := ⟨.vmem, 90, rfl⟩
abbrev cc7_stg2_0 : Ref sig .tc := ⟨.vmem, 91, rfl⟩
abbrev cc7_stg3_0 : Ref sig .tc := ⟨.vmem, 92, rfl⟩
abbrev cc7_stg3_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg2_1 : Ref sig .tc := ⟨.vmem, 98, rfl⟩
abbrev cc8_stg3_0 : Ref sig .tc := ⟨.vmem, 99, rfl⟩
abbrev cc8_stg3_1 : Ref sig .tc := ⟨.vmem, 100, rfl⟩
abbrev cc9_stg0_0 : Ref sig .tc := ⟨.vmem, 101, rfl⟩
abbrev cc9_stg0_1 : Ref sig .tc := ⟨.vmem, 102, rfl⟩
abbrev cc9_stg1_0 : Ref sig .tc := ⟨.vmem, 103, rfl⟩
abbrev cc9_stg2_0 : Ref sig .tc := ⟨.vmem, 104, rfl⟩
abbrev cc9_stg2_1 : Ref sig .tc := ⟨.vmem, 105, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc1_sem0_0 : DmaSem sig := 30
abbrev cc1_sem0_1 : DmaSem sig := 31
abbrev cc1_sem1_0 : DmaSem sig := 32
abbrev cc1_sem2_0 : DmaSem sig := 33
abbrev cc1_sem2_1 : DmaSem sig := 34
abbrev cc1_sem3_0 : DmaSem sig := 35
abbrev cc1_sem4_0 : DmaSem sig := 36
abbrev cc1_sem5_0 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43
abbrev cc2_sem0_0 : DmaSem sig := 44
abbrev cc2_sem0_1 : DmaSem sig := 45
abbrev cc2_sem1_0 : DmaSem sig := 46
abbrev cc2_sem2_0 : DmaSem sig := 47
abbrev cc2_sem2_1 : DmaSem sig := 48
abbrev cc2_sem3_0 : DmaSem sig := 49
abbrev cc2_sem3_1 : DmaSem sig := 50
abbrev cc3_sem0_0 : DmaSem sig := 51
abbrev cc3_sem0_1 : DmaSem sig := 52
abbrev cc3_sem1_0 : DmaSem sig := 53
abbrev cc3_sem2_0 : DmaSem sig := 54
abbrev cc3_sem3_0 : DmaSem sig := 55
abbrev cc3_sem4_0 : DmaSem sig := 56
abbrev cc3_sem4_1 : DmaSem sig := 57
abbrev cc4_sem0_0 : DmaSem sig := 58
abbrev cc4_sem0_1 : DmaSem sig := 59
abbrev cc4_sem1_0 : DmaSem sig := 60
abbrev cc4_sem2_0 : DmaSem sig := 61
abbrev cc4_sem2_1 : DmaSem sig := 62
abbrev cc4_sem3_0 : DmaSem sig := 63
abbrev cc4_sem3_1 : DmaSem sig := 64
abbrev cc4_sem4_0 : DmaSem sig := 65
abbrev cc4_sem4_1 : DmaSem sig := 66
abbrev cc5_sem0_0 : DmaSem sig := 67
abbrev cc5_sem0_1 : DmaSem sig := 68
abbrev cc5_sem1_0 : DmaSem sig := 69
abbrev cc5_sem2_0 : DmaSem sig := 70
abbrev cc5_sem3_0 : DmaSem sig := 71
abbrev cc5_sem4_0 : DmaSem sig := 72
abbrev cc5_sem5_0 : DmaSem sig := 73
abbrev cc5_sem6_0 : DmaSem sig := 74
abbrev cc5_sem6_1 : DmaSem sig := 75
abbrev cc5_sem7_0 : DmaSem sig := 76
abbrev cc5_sem7_1 : DmaSem sig := 77
abbrev cc5_sem8_0 : DmaSem sig := 78
abbrev cc5_sem8_1 : DmaSem sig := 79
abbrev cc5_sem9_0 : DmaSem sig := 80
abbrev cc5_sem9_1 : DmaSem sig := 81
abbrev cc6_sem0_0 : DmaSem sig := 82
abbrev cc6_sem0_1 : DmaSem sig := 83
abbrev cc6_sem1_0 : DmaSem sig := 84
abbrev cc6_sem2_0 : DmaSem sig := 85
abbrev cc6_sem3_0 : DmaSem sig := 86
abbrev cc6_sem3_1 : DmaSem sig := 87
abbrev cc7_sem0_0 : DmaSem sig := 88
abbrev cc7_sem0_1 : DmaSem sig := 89
abbrev cc7_sem1_0 : DmaSem sig := 90
abbrev cc7_sem2_0 : DmaSem sig := 91
abbrev cc7_sem3_0 : DmaSem sig := 92
abbrev cc7_sem3_1 : DmaSem sig := 93
abbrev cc8_sem0_0 : DmaSem sig := 94
abbrev cc8_sem0_1 : DmaSem sig := 95
abbrev cc8_sem1_0 : DmaSem sig := 96
abbrev cc8_sem2_0 : DmaSem sig := 97
abbrev cc8_sem2_1 : DmaSem sig := 98
abbrev cc8_sem3_0 : DmaSem sig := 99
abbrev cc8_sem3_1 : DmaSem sig := 100
abbrev cc9_sem0_0 : DmaSem sig := 101
abbrev cc9_sem0_1 : DmaSem sig := 102
abbrev cc9_sem1_0 : DmaSem sig := 103
abbrev cc9_sem2_0 : DmaSem sig := 104
abbrev cc9_sem2_1 : DmaSem sig := 105

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500x500 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x2000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2000x10 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x2000 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2000x500 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x500 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S500x500 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x500 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S500x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x500 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S10x10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x10 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x500 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x10 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x500 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x500 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x500 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S500x500 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x500 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S500x500 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x500 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x500 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x4096 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x500 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x500 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x500 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x500 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S500x2000 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2000x10 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x10 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x10 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S10x10 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S10x2000 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2000x500 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S10x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S512x10 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S512x10 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S512x10 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S512x500 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4096x500 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S500x500 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x500 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S4096x500 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S500x512 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S4096x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x512 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S4096x512 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1024x4096 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  transposes_S10x10_S10x10_1_0 : S10x10.Transposes [1, 0] S10x10
  bitsLt_bf16_f32 : FTy.bits .bf16 < FTy.bits .f32
  shapeCasts_S500_S1x500 : S500.ShapeCasts S1x500
  shapeCasts_S2000_S1x2000 : S2000.ShapeCasts S1x2000
  shapeCasts_S10_S1x10 : S10.ShapeCasts S1x10
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x500_S512x500_0_0 : ∀ a, (![0, 0] : Fin 2 → Nat) a + S512x500.size a ≤ S512x500.size a
  h_S512x500 : 0 < S512x500.numel
  shapeCasts_S512x500_S512x500 : S512x500.ShapeCasts S512x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S1024x500 : S1x500.Broadcasts S1024x500
  inb_S500x500_S500x500_0_0 : ∀ a, (![0, 0] : Fin 2 → Nat) a + S500x500.size a ≤ S500x500.size a
  h_S500x500 : 0 < S500x500.numel
  shapeCasts_S500x500_S500x500 : S500x500.ShapeCasts S500x500
  inb_S500x2000_S500x2000_0_0 : ∀ a, (![0, 0] : Fin 2 → Nat) a + S500x2000.size a ≤ S500x2000.size a
  h_S500x2000 : 0 < S500x2000.numel
  shapeCasts_S500x2000_S500x2000 : S500x2000.ShapeCasts S500x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S1024x2000 : S1x2000.Broadcasts S1024x2000
  inb_S2000x10_S2000x10_0_0 : ∀ a, (![0, 0] : Fin 2 → Nat) a + S2000x10.size a ≤ S2000x10.size a
  h_S2000x10 : 0 < S2000x10.numel
  shapeCasts_S2000x10_S2000x10 : S2000x10.ShapeCasts S2000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S10x2000_S10x2000_0_0 : ∀ a, (![0, 0] : Fin 2 → Nat) a + S10x2000.size a ≤ S10x2000.size a
  h_S10x2000 : 0 < S10x2000.numel
  shapeCasts_S10x2000_S10x2000 : S10x2000.ShapeCasts S10x2000
  inb_S2000x500_S2000x500_0_0 : ∀ a, (![0, 0] : Fin 2 → Nat) a + S2000x500.size a ≤ S2000x500.size a
  h_S2000x500 : 0 < S2000x500.numel
  shapeCasts_S2000x500_S2000x500 : S2000x500.ShapeCasts S2000x500
  inb_S500x512_S500x512_0_0 : ∀ a, (![0, 0] : Fin 2 → Nat) a + S500x512.size a ≤ S500x512.size a
  h_S500x512 : 0 < S500x512.numel
  shapeCasts_S500x512_S500x512 : S500x512.ShapeCasts S500x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x10_S1024x10_0_0 : ∀ a, (![0, 0] : Fin 2 → Nat) a + S1024x10.size a ≤ S1024x10.size a
  h_S1024x10 : 0 < S1024x10.numel
  inb_S1024x500_S1024x500_0_0 : ∀ a, (![0, 0] : Fin 2 → Nat) a + S1024x500.size a ≤ S1024x500.size a
  h_S1024x500 : 0 < S1024x500.numel
  packedbf16_S1024x500_S1024x500_0_0 : (Rect.unit (s := S1024x500) ![0, 0] S1024x500.size inb_S1024x500_S1024x500_0_0).PackedRows (EltTy.packing .bf16)
  inb_S10x10_S10x10_0_0 : ∀ a, (![0, 0] : Fin 2 → Nat) a + S10x10.size a ≤ S10x10.size a
  h_S10x10 : 0 < S10x10.numel
  shapeCasts_S10x10_S10x10 : S10x10.ShapeCasts S10x10
  reduces_S1024x10_S1024 : S1024x10.Reduces [1] S1024
  shapeCasts_S1024_S1024x1 : S1024.ShapeCasts S1024x1
  broadcasts_S1024x1_S1024x10 : S1024x1.Broadcasts S1024x10
  reduces_S10x10_S10 : S10x10.Reduces [0] S10
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S4096x500_S4096x500_0_0 : ∀ a, (![0, 0] : Fin 2 → Nat) a + S4096x500.size a ≤ S4096x500.size a
  h_S4096x500 : 0 < S4096x500.numel
  shapeCasts_S4096x500_S4096x500 : S4096x500.ShapeCasts S4096x500
  broadcasts_S1x500_S512x500 : S1x500.Broadcasts S512x500
  packedbf16_S512x500_S512x500_0_0 : (Rect.unit (s := S512x500) ![0, 0] S512x500.size inb_S512x500_S512x500_0_0).PackedRows (EltTy.packing .bf16)
  shapeCasts_S512x4096_S512x4096 : S512x4096.ShapeCasts S512x4096
  inb_S512x10_S512x10_0_0 : ∀ a, (![0, 0] : Fin 2 → Nat) a + S512x10.size a ≤ S512x10.size a
  h_S512x10 : 0 < S512x10.numel
  packedbf16_S512x10_S512x10_0_0 : (Rect.unit (s := S512x10) ![0, 0] S512x10.size inb_S512x10_S512x10_0_0).PackedRows (EltTy.packing .bf16)
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  shapeCasts_S512x10_S512x10 : S512x10.ShapeCasts S512x10
  concatenates_S512x10_S512x118_S512x128_d1 : Shape.Concatenates [S512x10, S512x118] S512x128 1
  concatenates_S512x128_S512x128_S512x256_d1 : Shape.Concatenates [S512x128, S512x128] S512x256 1
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  slices_S512x256_o0_0_S512x10 : S512x256.Slices ![0, 0] S512x10
  slices_S512x256_o0_128_S512x10 : S512x256.Slices ![0, 128] S512x10
  reduces_S512x10_S512 : S512x10.Reduces [1] S512
  shapeCasts_S512_S512x1 : S512.ShapeCasts S512x1
  broadcasts_S512x1_S512x10 : S512x1.Broadcasts S512x10
  broadcasts_S1x10_S512x10 : S1x10.Broadcasts S512x10
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S1024x512_S1024x512 : S1024x512.ShapeCasts S1024x512
  inb_S1024x4096_S1024x4096_0_0 : ∀ a, (![0, 0] : Fin 2 → Nat) a + S1024x4096.size a ≤ S1024x4096.size a
  h_S1024x4096 : 0 < S1024x4096.numel
  dot_S1024x512_S512x500_S1024x500_1_0_0_1_n_n_wf : DotDims.WF S1024x512 S512x500 S1024x500 [1] [0] [0] [1] [] []
  dot_S1024x500_S500x500_S1024x500_1_0_0_1_n_n_wf : DotDims.WF S1024x500 S500x500 S1024x500 [1] [0] [0] [1] [] []
  dot_S1024x500_S500x2000_S1024x2000_1_0_0_1_n_n_wf : DotDims.WF S1024x500 S500x2000 S1024x2000 [1] [0] [0] [1] [] []
  dot_S1024x2000_S2000x10_S1024x10_1_0_0_1_n_n_wf : DotDims.WF S1024x2000 S2000x10 S1024x10 [1] [0] [0] [1] [] []
  dot_S1024x10_S10x2000_S1024x2000_1_0_0_1_n_n_wf : DotDims.WF S1024x10 S10x2000 S1024x2000 [1] [0] [0] [1] [] []
  dot_S1024x2000_S2000x500_S1024x500_1_0_0_1_n_n_wf : DotDims.WF S1024x2000 S2000x500 S1024x500 [1] [0] [0] [1] [] []
  dot_S1024x500_S500x512_S1024x512_1_0_0_1_n_n_wf : DotDims.WF S1024x500 S500x512 S1024x512 [1] [0] [0] [1] [] []
  dot_S1024x10_S10x10_S1024x10_1_0_0_1_n_n_wf : DotDims.WF S1024x10 S10x10 S1024x10 [1] [0] [0] [1] [] []
  dot_S512x4096_S4096x500_S512x500_1_0_0_1_n_n_wf : DotDims.WF S512x4096 S4096x500 S512x500 [1] [0] [0] [1] [] []
  dot_S512x500_S500x500_S512x500_1_0_0_1_n_n_wf : DotDims.WF S512x500 S500x500 S512x500 [1] [0] [0] [1] [] []
  dot_S512x500_S500x2000_S512x2000_1_0_0_1_n_n_wf : DotDims.WF S512x500 S500x2000 S512x2000 [1] [0] [0] [1] [] []
  dot_S512x2000_S2000x10_S512x10_1_0_0_1_n_n_wf : DotDims.WF S512x2000 S2000x10 S512x10 [1] [0] [0] [1] [] []
  dot_S512x4096_S4096x10_S512x10_1_0_0_1_n_n_wf : DotDims.WF S512x4096 S4096x10 S512x10 [1] [0] [0] [1] [] []
  dot_S512x4096_S4096x256_S512x256_1_0_0_1_n_n_wf : DotDims.WF S512x4096 S4096x256 S512x256 [1] [0] [0] [1] [] []
  dot_S512x10_S10x10_S512x10_1_0_0_1_n_n_wf : DotDims.WF S512x10 S10x10 S512x10 [1] [0] [0] [1] [] []
  dot_S512x10_S10x2000_S512x2000_1_0_0_1_n_n_wf : DotDims.WF S512x10 S10x2000 S512x2000 [1] [0] [0] [1] [] []
  dot_S512x2000_S2000x500_S512x500_1_0_0_1_n_n_wf : DotDims.WF S512x2000 S2000x500 S512x500 [1] [0] [0] [1] [] []
  dot_S512x500_S500x512_S512x512_1_0_0_1_n_n_wf : DotDims.WF S512x500 S500x512 S512x512 [1] [0] [0] [1] [] []
  dot_S512x4096_S4096x512_S512x512_1_0_0_1_n_n_wf : DotDims.WF S512x4096 S4096x512 S512x512 [1] [0] [0] [1] [] []
  dot_S1024x512_S4096x512_S1024x4096_1_1_0_0_n_n_wf : DotDims.WF S1024x512 S4096x512 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x500.size a ≤ S512x500.size a
  hwx0_1 : ∀ i : grid0.Coords, EltTy.bits .bf16 = 32 ∨ (Rect.block (s := S512x500) S512x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500.size a ≤ S1x500.size a
  hwx0_2 : ∀ i : grid0.Coords, EltTy.bits .f32 = 32 ∨ (Rect.block (s := S1x500) S1x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x500.size a ≤ S500x500.size a
  hwx0_3 : ∀ i : grid0.Coords, EltTy.bits .bf16 = 32 ∨ (Rect.block (s := S500x500) S500x500.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x500.size a ≤ S1x500.size a
  hwx0_4 : ∀ i : grid0.Coords, EltTy.bits .f32 = 32 ∨ (Rect.block (s := S1x500) S1x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x2000.size a ≤ S500x2000.size a
  hwx0_5 : ∀ i : grid0.Coords, EltTy.bits .bf16 = 32 ∨ (Rect.block (s := S500x2000) S500x2000.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2000.size a ≤ S1x2000.size a
  hwx0_6 : ∀ i : grid0.Coords, EltTy.bits .f32 = 32 ∨ (Rect.block (s := S1x2000) S1x2000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2000x10.size a ≤ S2000x10.size a
  hwx0_7 : ∀ i : grid0.Coords, EltTy.bits .bf16 = 32 ∨ (Rect.block (s := S2000x10) S2000x10.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x2000.size a ≤ S10x2000.size a
  hwx0_9 : ∀ i : grid0.Coords, EltTy.bits .bf16 = 32 ∨ (Rect.block (s := S10x2000) S10x2000.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2000.size a ≤ S1x2000.size a
  hwx0_10 : ∀ i : grid0.Coords, EltTy.bits .f32 = 32 ∨ (Rect.block (s := S1x2000) S1x2000.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2000x500.size a ≤ S2000x500.size a
  hwx0_11 : ∀ i : grid0.Coords, EltTy.bits .bf16 = 32 ∨ (Rect.block (s := S2000x500) S2000x500.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x500.size a ≤ S1x500.size a
  hwx0_12 : ∀ i : grid0.Coords, EltTy.bits .f32 = 32 ∨ (Rect.block (s := S1x500) S1x500.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S500x500.size a ≤ S500x500.size a
  hwx0_13 : ∀ i : grid0.Coords, EltTy.bits .bf16 = 32 ∨ (Rect.block (s := S500x500) S500x500.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x500.size a ≤ S1x500.size a
  hwx0_14 : ∀ i : grid0.Coords, EltTy.bits .f32 = 32 ∨ (Rect.block (s := S1x500) S1x500.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S500x512.size a ≤ S500x512.size a
  hwx0_15 : ∀ i : grid0.Coords, EltTy.bits .bf16 = 32 ∨ (Rect.block (s := S500x512) S500x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x500.size a ≤ S512x500.size a
  hwx0_17 : ∀ i : grid0.Coords, EltTy.bits .bf16 = 32 ∨ (Rect.block (s := S512x500) S512x500.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S10x10.size a ≤ S10x10.size a
  hwx0_18 : ∀ i : grid0.Coords, EltTy.bits .f32 = 32 ∨ (Rect.block (s := S10x10) S10x10.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x512.size a ≤ S4096x512.size a
  hwx0_19 : ∀ i : grid0.Coords, EltTy.bits .f32 = 32 ∨ (Rect.block (s := S4096x512) S1024x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x10.size a ≤ S4096x10.size a
  hwx0_20 : ∀ i : grid0.Coords, EltTy.bits .f32 = 32 ∨ (Rect.block (s := S4096x10) S1024x10.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x500.size a ≤ S4096x500.size a
  hwx0_21 : ∀ i : grid0.Coords, EltTy.bits .bf16 = 32 ∨ (Rect.block (s := S4096x500) S1024x500.size (cc0_transform_21 i) (hinb0_21 i)).WholeWords (EltTy.packing .bf16)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x10.size a ≤ S4096x10.size a
  hwx0_22 : ∀ i : grid0.Coords, EltTy.bits .f32 = 32 ∨ (Rect.block (s := S4096x10) S1024x10.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1024x500.size a ≤ S4096x500.size a
  hwx0_23 : ∀ i : grid0.Coords, EltTy.bits .bf16 = 32 ∨ (Rect.block (s := S4096x500) S1024x500.size (cc0_transform_23 i) (hinb0_23 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x500.size a ≤ S4096x500.size a
  hwx1_1 : ∀ i : grid1.Coords, EltTy.bits .bf16 = 32 ∨ (Rect.block (s := S4096x500) S4096x500.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x500.size a ≤ S4096x500.size a
  hwx1_2 : ∀ i : grid1.Coords, EltTy.bits .bf16 = 32 ∨ (Rect.block (s := S4096x500) S512x500.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S500x500.size a ≤ S500x500.size a
  hwx1_3 : ∀ i : grid1.Coords, EltTy.bits .bf16 = 32 ∨ (Rect.block (s := S500x500) S500x500.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x500.size a ≤ S1x500.size a
  hwx1_4 : ∀ i : grid1.Coords, EltTy.bits .f32 = 32 ∨ (Rect.block (s := S1x500) S1x500.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S500x500.size a ≤ S500x500.size a
  hwx1_5 : ∀ i : grid1.Coords, EltTy.bits .bf16 = 32 ∨ (Rect.block (s := S500x500) S500x500.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x500.size a ≤ S4096x500.size a
  hwx1_6 : ∀ i : grid1.Coords, EltTy.bits .bf16 = 32 ∨ (Rect.block (s := S4096x500) S512x500.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x500.size a ≤ S4096x500.size a
  hwx1_7 : ∀ i : grid1.Coords, EltTy.bits .bf16 = 32 ∨ (Rect.block (s := S4096x500) S512x500.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x4096.size a ≤ S4096x4096.size a
  hwx1_8 : ∀ i : grid1.Coords, EltTy.bits .bf16 = 32 ∨ (Rect.block (s := S4096x4096) S512x4096.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x500.size a ≤ S4096x500.size a
  hwx2_1 : ∀ i : grid2.Coords, EltTy.bits .bf16 = 32 ∨ (Rect.block (s := S4096x500) S4096x500.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x500.size a ≤ S4096x500.size a
  hwx2_2 : ∀ i : grid2.Coords, EltTy.bits .bf16 = 32 ∨ (Rect.block (s := S4096x500) S512x500.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x500.size a ≤ S4096x500.size a
  hwx2_3 : ∀ i : grid2.Coords, EltTy.bits .bf16 = 32 ∨ (Rect.block (s := S4096x500) S512x500.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x500.size a ≤ S4096x500.size a
  hwx3_1 : ∀ i : grid3.Coords, EltTy.bits .bf16 = 32 ∨ (Rect.block (s := S4096x500) S4096x500.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S500x2000.size a ≤ S500x2000.size a
  hwx3_2 : ∀ i : grid3.Coords, EltTy.bits .bf16 = 32 ∨ (Rect.block (s := S500x2000) S500x2000.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2000x10.size a ≤ S2000x10.size a
  hwx3_3 : ∀ i : grid3.Coords, EltTy.bits .bf16 = 32 ∨ (Rect.block (s := S2000x10) S2000x10.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x10.size a ≤ S4096x10.size a
  hwx3_4 : ∀ i : grid3.Coords, EltTy.bits .bf16 = 32 ∨ (Rect.block (s := S4096x10) S512x10.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S4096x4096.size a
  hwx4_0 : ∀ i : grid4.Coords, EltTy.bits .bf16 = 32 ∨ (Rect.block (s := S4096x4096) S512x4096.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x10.size a ≤ S4096x10.size a
  hwx4_1 : ∀ i : grid4.Coords, EltTy.bits .bf16 = 32 ∨ (Rect.block (s := S4096x10) S4096x10.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x10.size a ≤ S4096x10.size a
  hwx4_2 : ∀ i : grid4.Coords, EltTy.bits .f32 = 32 ∨ (Rect.block (s := S4096x10) S512x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x10.size a ≤ S4096x10.size a
  hwx4_3 : ∀ i : grid4.Coords, EltTy.bits .f32 = 32 ∨ (Rect.block (s := S4096x10) S512x10.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x256.size a ≤ S4096x256.size a
  hwx4_4 : ∀ i : grid4.Coords, EltTy.bits .bf16 = 32 ∨ (Rect.block (s := S4096x256) S512x256.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x4096.size a ≤ S4096x4096.size a
  hwx5_0 : ∀ i : grid5.Coords, EltTy.bits .bf16 = 32 ∨ (Rect.block (s := S4096x4096) S512x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x256.size a ≤ S4096x256.size a
  hwx5_1 : ∀ i : grid5.Coords, EltTy.bits .bf16 = 32 ∨ (Rect.block (s := S4096x256) S4096x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10x10.size a ≤ S10x10.size a
  hwx5_2 : ∀ i : grid5.Coords, EltTy.bits .bf16 = 32 ∨ (Rect.block (s := S10x10) S10x10.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S10x2000.size a ≤ S10x2000.size a
  hwx5_3 : ∀ i : grid5.Coords, EltTy.bits .bf16 = 32 ∨ (Rect.block (s := S10x2000) S10x2000.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2000x500.size a ≤ S2000x500.size a
  hwx5_4 : ∀ i : grid5.Coords, EltTy.bits .bf16 = 32 ∨ (Rect.block (s := S2000x500) S2000x500.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S10x10.size a ≤ S10x10.size a
  hwx5_5 : ∀ i : grid5.Coords, EltTy.bits .f32 = 32 ∨ (Rect.block (s := S10x10) S10x10.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S512x10.size a ≤ S4096x10.size a
  hwx5_6 : ∀ i : grid5.Coords, EltTy.bits .f32 = 32 ∨ (Rect.block (s := S4096x10) S512x10.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S512x10.size a ≤ S4096x10.size a
  hwx5_7 : ∀ i : grid5.Coords, EltTy.bits .f32 = 32 ∨ (Rect.block (s := S4096x10) S512x10.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S512x10.size a ≤ S4096x10.size a
  hwx5_8 : ∀ i : grid5.Coords, EltTy.bits .f32 = 32 ∨ (Rect.block (s := S4096x10) S512x10.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S512x500.size a ≤ S4096x500.size a
  hwx5_9 : ∀ i : grid5.Coords, EltTy.bits .bf16 = 32 ∨ (Rect.block (s := S4096x500) S512x500.size (cc5_transform_9 i) (hinb5_9 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x4096.size a ≤ S4096x4096.size a
  hwx6_0 : ∀ i : grid6.Coords, EltTy.bits .bf16 = 32 ∨ (Rect.block (s := S4096x4096) S512x4096.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S4096x500.size a ≤ S4096x500.size a
  hwx6_1 : ∀ i : grid6.Coords, EltTy.bits .bf16 = 32 ∨ (Rect.block (s := S4096x500) S4096x500.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S500x500.size a ≤ S500x500.size a
  hwx6_2 : ∀ i : grid6.Coords, EltTy.bits .bf16 = 32 ∨ (Rect.block (s := S500x500) S500x500.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x500.size a ≤ S4096x500.size a
  hwx6_3 : ∀ i : grid6.Coords, EltTy.bits .bf16 = 32 ∨ (Rect.block (s := S4096x500) S512x500.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x4096.size a ≤ S4096x4096.size a
  hwx7_0 : ∀ i : grid7.Coords, EltTy.bits .bf16 = 32 ∨ (Rect.block (s := S4096x4096) S512x4096.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S4096x500.size a ≤ S4096x500.size a
  hwx7_1 : ∀ i : grid7.Coords, EltTy.bits .bf16 = 32 ∨ (Rect.block (s := S4096x500) S4096x500.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S500x512.size a ≤ S500x512.size a
  hwx7_2 : ∀ i : grid7.Coords, EltTy.bits .bf16 = 32 ∨ (Rect.block (s := S500x512) S500x512.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S4096x512.size a
  hwx7_3 : ∀ i : grid7.Coords, EltTy.bits .bf16 = 32 ∨ (Rect.block (s := S4096x512) S512x512.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x4096.size a ≤ S4096x4096.size a
  hwx8_0 : ∀ i : grid8.Coords, EltTy.bits .bf16 = 32 ∨ (Rect.block (s := S4096x4096) S512x4096.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S4096x512.size a ≤ S4096x512.size a
  hwx8_1 : ∀ i : grid8.Coords, EltTy.bits .bf16 = 32 ∨ (Rect.block (s := S4096x512) S4096x512.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x512.size a ≤ S4096x512.size a
  hwx8_2 : ∀ i : grid8.Coords, EltTy.bits .f32 = 32 ∨ (Rect.block (s := S4096x512) S512x512.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x512.size a ≤ S4096x512.size a
  hwx8_3 : ∀ i : grid8.Coords, EltTy.bits .bf16 = 32 ∨ (Rect.block (s := S4096x512) S512x512.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x512.size a ≤ S4096x512.size a
  hwx9_0 : ∀ i : grid9.Coords, EltTy.bits .bf16 = 32 ∨ (Rect.block (s := S4096x512) S1024x512.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S4096x512.size a ≤ S4096x512.size a
  hwx9_1 : ∀ i : grid9.Coords, EltTy.bits .bf16 = 32 ∨ (Rect.block (s := S4096x512) S4096x512.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x4096.size a ≤ S4096x4096.size a
  hwx9_2 : ∀ i : grid9.Coords, EltTy.bits .f32 = 32 ∨ (Rect.block (s := S4096x4096) S1024x4096.size (cc9_transform_2 i) (hinb9_2 i)).WholeWords (EltTy.packing .f32)

variable [Facts₀]

def dot_S1024x512_S512x500_S1024x500_1_0_0_1_n_n : DotDims S1024x512 S512x500 S1024x500 where
  lhsContracting := [1]
  rhsContracting := [0]
  lhsNonContracting := [0]
  rhsNonContracting := [1]
  lhsBatch := []
  rhsBatch := []
  wf := dot_S1024x512_S512x500_S1024x500_1_0_0_1_n_n_wf
def dot_S1024x500_S500x500_S1024x500_1_0_0_1_n_n : DotDims S1024x500 S500x500 S1024x500 where
  lhsContracting := [1]
  rhsContracting := [0]
  lhsNonContracting := [0]
  rhsNonContracting := [1]
  lhsBatch := []
  rhsBatch := []
  wf := dot_S1024x500_S500x500_S1024x500_1_0_0_1_n_n_wf
def dot_S1024x500_S500x2000_S1024x2000_1_0_0_1_n_n : DotDims S1024x500 S500x2000 S1024x2000 where
  lhsContracting := [1]
  rhsContracting := [0]
  lhsNonContracting := [0]
  rhsNonContracting := [1]
  lhsBatch := []
  rhsBatch := []
  wf := dot_S1024x500_S500x2000_S1024x2000_1_0_0_1_n_n_wf
def dot_S1024x2000_S2000x10_S1024x10_1_0_0_1_n_n : DotDims S1024x2000 S2000x10 S1024x10 where
  lhsContracting := [1]
  rhsContracting := [0]
  lhsNonContracting := [0]
  rhsNonContracting := [1]
  lhsBatch := []
  rhsBatch := []
  wf := dot_S1024x2000_S2000x10_S1024x10_1_0_0_1_n_n_wf
def dot_S1024x10_S10x2000_S1024x2000_1_0_0_1_n_n : DotDims S1024x10 S10x2000 S1024x2000 where
  lhsContracting := [1]
  rhsContracting := [0]
  lhsNonContracting := [0]
  rhsNonContracting := [1]
  lhsBatch := []
  rhsBatch := []
  wf := dot_S1024x10_S10x2000_S1024x2000_1_0_0_1_n_n_wf
def dot_S1024x2000_S2000x500_S1024x500_1_0_0_1_n_n : DotDims S1024x2000 S2000x500 S1024x500 where
  lhsContracting := [1]
  rhsContracting := [0]
  lhsNonContracting := [0]
  rhsNonContracting := [1]
  lhsBatch := []
  rhsBatch := []
  wf := dot_S1024x2000_S2000x500_S1024x500_1_0_0_1_n_n_wf
def dot_S1024x500_S500x512_S1024x512_1_0_0_1_n_n : DotDims S1024x500 S500x512 S1024x512 where
  lhsContracting := [1]
  rhsContracting := [0]
  lhsNonContracting := [0]
  rhsNonContracting := [1]
  lhsBatch := []
  rhsBatch := []
  wf := dot_S1024x500_S500x512_S1024x512_1_0_0_1_n_n_wf
def dot_S1024x10_S10x10_S1024x10_1_0_0_1_n_n : DotDims S1024x10 S10x10 S1024x10 where
  lhsContracting := [1]
  rhsContracting := [0]
  lhsNonContracting := [0]
  rhsNonContracting := [1]
  lhsBatch := []
  rhsBatch := []
  wf := dot_S1024x10_S10x10_S1024x10_1_0_0_1_n_n_wf
def dot_S512x4096_S4096x500_S512x500_1_0_0_1_n_n : DotDims S512x4096 S4096x500 S512x500 where
  lhsContracting := [1]
  rhsContracting := [0]
  lhsNonContracting := [0]
  rhsNonContracting := [1]
  lhsBatch := []
  rhsBatch := []
  wf := dot_S512x4096_S4096x500_S512x500_1_0_0_1_n_n_wf
def dot_S512x500_S500x500_S512x500_1_0_0_1_n_n : DotDims S512x500 S500x500 S512x500 where
  lhsContracting := [1]
  rhsContracting := [0]
  lhsNonContracting := [0]
  rhsNonContracting := [1]
  lhsBatch := []
  rhsBatch := []
  wf := dot_S512x500_S500x500_S512x500_1_0_0_1_n_n_wf
def dot_S512x500_S500x2000_S512x2000_1_0_0_1_n_n : DotDims S512x500 S500x2000 S512x2000 where
  lhsContracting := [1]
  rhsContracting := [0]
  lhsNonContracting := [0]
  rhsNonContracting := [1]
  lhsBatch := []
  rhsBatch := []
  wf := dot_S512x500_S500x2000_S512x2000_1_0_0_1_n_n_wf
def dot_S512x2000_S2000x10_S512x10_1_0_0_1_n_n : DotDims S512x2000 S2000x10 S512x10 where
  lhsContracting := [1]
  rhsContracting := [0]
  lhsNonContracting := [0]
  rhsNonContracting := [1]
  lhsBatch := []
  rhsBatch := []
  wf := dot_S512x2000_S2000x10_S512x10_1_0_0_1_n_n_wf
def dot_S512x4096_S4096x10_S512x10_1_0_0_1_n_n : DotDims S512x4096 S4096x10 S512x10 where
  lhsContracting := [1]
  rhsContracting := [0]
  lhsNonContracting := [0]
  rhsNonContracting := [1]
  lhsBatch := []
  rhsBatch := []
  wf := dot_S512x4096_S4096x10_S512x10_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x10_S10x10_S512x10_1_0_0_1_n_n : DotDims S512x10 S10x10 S512x10 where
  lhsContracting := [1]
  rhsContracting := [0]
  lhsNonContracting := [0]
  rhsNonContracting := [1]
  lhsBatch := []
  rhsBatch := []
  wf := dot_S512x10_S10x10_S512x10_1_0_0_1_n_n_wf
def dot_S512x10_S10x2000_S512x2000_1_0_0_1_n_n : DotDims S512x10 S10x2000 S512x2000 where
  lhsContracting := [1]
  rhsContracting := [0]
  lhsNonContracting := [0]
  rhsNonContracting := [1]
  lhsBatch := []
  rhsBatch := []
  wf := dot_S512x10_S10x2000_S512x2000_1_0_0_1_n_n_wf
def dot_S512x2000_S2000x500_S512x500_1_0_0_1_n_n : DotDims S512x2000 S2000x500 S512x500 where
  lhsContracting := [1]
  rhsContracting := [0]
  lhsNonContracting := [0]
  rhsNonContracting := [1]
  lhsBatch := []
  rhsBatch := []
  wf := dot_S512x2000_S2000x500_S512x500_1_0_0_1_n_n_wf
def dot_S512x500_S500x512_S512x512_1_0_0_1_n_n : DotDims S512x500 S500x512 S512x512 where
  lhsContracting := [1]
  rhsContracting := [0]
  lhsNonContracting := [0]
  rhsNonContracting := [1]
  lhsBatch := []
  rhsBatch := []
  wf := dot_S512x500_S500x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S1024x512_S4096x512_S1024x4096_1_1_0_0_n_n : DotDims S1024x512 S4096x512 S1024x4096 where
  lhsContracting := [1]
  rhsContracting := [1]
  lhsNonContracting := [0]
  rhsNonContracting := [0]
  lhsBatch := []
  rhsBatch := []
  wf := dot_S1024x512_S4096x512_S1024x4096_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S500x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S500x2000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x2000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2000x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S10x2000.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x2000.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S2000x500.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x500.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S500x500.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x500.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S500x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S512x500.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v0) S10x10.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v18_0) S1024x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v18_1) S1024x10.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v18_2) S1024x500.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v18_3) S1024x10.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v18_4) S1024x500.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_4) S4096x500.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_2) S512x500.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S500x500.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x500.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S500x500.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22_0) S512x500.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v22_1) S512x500.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v22_2) S512x4096.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v22_2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22_1) S4096x500.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22_0) S512x500.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S512x500.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v22_2) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S4096x500.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S500x2000.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S2000x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S512x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v22_2) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S4096x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18_1) S512x10.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v27_0) S512x10.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v27_1) S512x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v22_2) S512x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27_1) S4096x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v28) S10x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S10x2000.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v30) S2000x500.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v0) S10x10.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v31_0) S512x10.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v31_1) S512x10.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v31_2) S512x10.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v31_3) S512x500.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v22_2) S512x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31_3) S4096x500.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v32) S500x500.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v33) S512x500.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v22_2) S512x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v33) S4096x500.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v34) S500x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v35) S512x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v22_2) S512x4096.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v35) S4096x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v36_0) S512x512.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v36_1) S512x512.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v36_1) S1024x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v36_1) S4096x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v37) S1024x4096.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x500 : Shape := ⟨2, ![512, 500]⟩
abbrev S500 : Shape := ⟨1, ![500]⟩
abbrev S500x500 : Shape := ⟨2, ![500, 500]⟩
abbrev S500x2000 : Shape := ⟨2, ![500, 2000]⟩
abbrev S2000 : Shape := ⟨1, ![2000]⟩
abbrev S2000x10 : Shape := ⟨2, ![2000, 10]⟩
abbrev S10 : Shape := ⟨1, ![10]⟩
abbrev S10x2000 : Shape := ⟨2, ![10, 2000]⟩
abbrev S2000x500 : Shape := ⟨2, ![2000, 500]⟩
abbrev S500x512 : Shape := ⟨2, ![500, 512]⟩
abbrev S512 : Shape := ⟨1, ![512]⟩
abbrev S10x10 : Shape := ⟨2, ![10, 10]⟩
abbrev S4096x500 : Shape := ⟨2, ![4096, 500]⟩
abbrev S1x500 : Shape := ⟨2, ![1, 500]⟩
abbrev S_ : Shape := ⟨0, ![]⟩
abbrev S4096x2000 : Shape := ⟨2, ![4096, 2000]⟩
abbrev S1x2000 : Shape := ⟨2, ![1, 2000]⟩
abbrev S4096x10 : Shape := ⟨2, ![4096, 10]⟩
abbrev S1x10 : Shape := ⟨2, ![1, 10]⟩
abbrev S1x512 : Shape := ⟨2, ![1, 512]⟩
abbrev S512x4096 : Shape := ⟨2, ![512, 4096]⟩
abbrev S4096x1x10 : Shape := ⟨3, ![4096, 1, 10]⟩
abbrev S1x10x10 : Shape := ⟨3, ![1, 10, 10]⟩
abbrev S4096x10x10 : Shape := ⟨3, ![4096, 10, 10]⟩
abbrev S10x4096 : Shape := ⟨2, ![10, 4096]⟩
abbrev S4096 : Shape := ⟨1, ![4096]⟩
abbrev S1x4096 : Shape := ⟨2, ![1, 4096]⟩

abbrev nBuf : Space → Nat
  | .hbm => 206
  | .vmem => 0
  | .smem => 0
  | _ => 0

abbrev hbmTy0_0 (i : Nat) : BufTy := match i % 128 with
  | 0 => ⟨S4096x512, .f32⟩
  | 1 => ⟨S4096x4096, .f32⟩
  | 2 => ⟨S512x500, .f32⟩
  | 3 => ⟨S500, .f32⟩
  | 4 => ⟨S500x500, .f32⟩
  | 5 => ⟨S500, .f32⟩
  | 6 => ⟨S500x2000, .f32⟩
  | 7 => ⟨S2000, .f32⟩
  | 8 => ⟨S2000x10, .f32⟩
  | 9 => ⟨S10, .f32⟩
  | 10 => ⟨S10x2000, .f32⟩
  | 11 => ⟨S2000, .f32⟩
  | 12 => ⟨S2000x500, .f32⟩
  | 13 => ⟨S500, .f32⟩
  | 14 => ⟨S500x500, .f32⟩
  | 15 => ⟨S500, .f32⟩
  | 16 => ⟨S500x512, .f32⟩
  | 17 => ⟨S512, .f32⟩
  | 18 => ⟨S512x500, .f32⟩
  | 19 => ⟨S500x500, .f32⟩
  | 20 => ⟨S500x2000, .f32⟩
  | 21 => ⟨S2000x10, .f32⟩
  | 22 => ⟨S10x10, .f32⟩
  | 23 => ⟨S10x2000, .f32⟩
  | 24 => ⟨S2000x500, .f32⟩
  | 25 => ⟨S500x500, .f32⟩
  | 26 => ⟨S500x512, .f32⟩
  | 27 => ⟨S10x10, .f32⟩
  | 28 => ⟨S4096x500, .f32⟩
  | 29 => ⟨S1x500, .f32⟩
  | 30 => ⟨S4096x500, .f32⟩
  | 31 => ⟨S4096x500, .f32⟩
  | 32 => ⟨S_, .f32⟩
  | 33 => ⟨S4096x500, .f32⟩
  | 34 => ⟨S4096x500, .f32⟩
  | 35 => ⟨S4096x500, .f32⟩
  | 36 => ⟨S1x500, .f32⟩
  | 37 => ⟨S4096x500, .f32⟩
  | 38 => ⟨S4096x500, .f32⟩
  | 39 => ⟨S_, .f32⟩
  | 40 => ⟨S4096x500, .f32⟩
  | 41 => ⟨S4096x500, .f32⟩
  | 42 => ⟨S4096x2000, .f32⟩
  | 43 => ⟨S1x2000, .f32⟩
  | 44 => ⟨S4096x2000, .f32⟩
  | 45 => ⟨S4096x2000, .f32⟩
  | 46 => ⟨S_, .f32⟩
  | 47 => ⟨S4096x2000, .f32⟩
  | 48 => ⟨S4096x2000, .f32⟩
  | 49 => ⟨S4096x10, .f32⟩
  | 50 => ⟨S1x10, .f32⟩
  | 51 => ⟨S4096x10, .f32⟩
  | 52 => ⟨S4096x10, .f32⟩
  | 53 => ⟨S4096x2000, .f32⟩
  | 54 => ⟨S1x2000, .f32⟩
  | 55 => ⟨S4096x2000, .f32⟩
  | 56 => ⟨S4096x2000, .f32⟩
  | 57 => ⟨S_, .f32⟩
  | 58 => ⟨S4096x2000, .f32⟩
  | 59 => ⟨S4096x2000, .f32⟩
  | 60 => ⟨S4096x500, .f32⟩
  | 61 => ⟨S1x500, .f32⟩
  | 62 => ⟨S4096x500, .f32⟩
  | 63 => ⟨S4096x500, .f32⟩
  | 64 => ⟨S_, .f32⟩
  | 65 => ⟨S4096x500, .f32⟩
  | 66 => ⟨S4096x500, .f32⟩
  | 67 => ⟨S4096x500, .f32⟩
  | 68 => ⟨S1x500, .f32⟩
  | 69 => ⟨S4096x500, .f32⟩
  | 70 => ⟨S4096x500, .f32⟩
  | 71 => ⟨S_, .f32⟩
  | 72 => ⟨S4096x500, .f32⟩
  | 73 => ⟨S4096x500, .f32⟩
  | 74 => ⟨S4096x512, .f32⟩
  | 75 => ⟨S1x512, .f32⟩
  | 76 => ⟨S4096x512, .f32⟩
  | 77 => ⟨S4096x512, .f32⟩
  | 78 => ⟨S4096x500, .f32⟩
  | 79 => ⟨S4096x500, .f32⟩
  | 80 => ⟨S_, .f32⟩
  | 81 => ⟨S4096x500, .f32⟩
  | 82 => ⟨S4096x500, .f32⟩
  | 83 => ⟨S4096x500, .f32⟩
  | 84 => ⟨S4096x500, .f32⟩
  | 85 => ⟨S1x500, .f32⟩
  | 86 => ⟨S4096x500, .f32⟩
  | 87 => ⟨S4096x500, .f32⟩
  | 88 => ⟨S_, .f32⟩
  | 89 => ⟨S4096x500, .f32⟩
  | 90 => ⟨S4096x500, .f32⟩
  | 91 => ⟨S4096x500, .f32⟩
  | 92 => ⟨S4096x500, .f32⟩
  | 93 => ⟨S_, .f32⟩
  | 94 => ⟨S4096x500, .f32⟩
  | 95 => ⟨S4096x500, .f32⟩
  | 96 => ⟨S4096x2000, .f32⟩
  | 97 => ⟨S1x2000, .f32⟩
  | 98 => ⟨S4096x2000, .f32⟩
  | 99 => ⟨S4096x2000, .f32⟩
  | 100 => ⟨S_, .f32⟩
  | 101 => ⟨S4096x2000, .f32⟩
  | 102 => ⟨S4096x2000, .f32⟩
  | 103 => ⟨S4096x500, .f32⟩
  | 104 => ⟨S4096x2000, .f32⟩
  | 105 => ⟨S4096x2000, .f32⟩
  | 106 => ⟨S_, .f32⟩
  | 107 => ⟨S4096x2000, .f32⟩
  | 108 => ⟨S4096x2000, .f32⟩
  | 109 => ⟨S4096x10, .f32⟩
  | 110 => ⟨S4096x10, .f32⟩
  | 111 => ⟨S_, .f32⟩
  | 112 => ⟨S4096x10, .f32⟩
  | 113 => ⟨S4096x10, .f32⟩
  | 114 => ⟨S4096x10, .f32⟩
  | 115 => ⟨S4096x10, .f32⟩
  | 116 => ⟨S4096x10, .f32⟩
  | 117 => ⟨S_, .f32⟩
  | 118 => ⟨S4096x10, .f32⟩
  | 119 => ⟨S4096x10, .f32⟩
  | 120 => ⟨S4096x10, .f32⟩
  | 121 => ⟨S4096x10, .f32⟩
  | 122 => ⟨S4096x2000, .f32⟩
  | 123 => ⟨S4096x2000, .f32⟩
  | 124 => ⟨S_, .f32⟩
  | 125 => ⟨S4096x2000, .f32⟩
  | 126 => ⟨S4096x2000, .f32⟩
  | 127 => ⟨S4096x500, .f32⟩
  | _ => ⟨S4096x512, .f32⟩

abbrev hbmTy0_1 (i : Nat) : BufTy := match i % 128 with
  | 0 => ⟨S4096x500, .f32⟩
  | 1 => ⟨S_, .f32⟩
  | 2 => ⟨S4096x500, .f32⟩
  | 3 => ⟨S4096x500, .f32⟩
  | 4 => ⟨S4096x500, .f32⟩
  | 5 => ⟨S4096x500, .f32⟩
  | 6 => ⟨S_, .f32⟩
  | 7 => ⟨S4096x500, .f32⟩
  | 8 => ⟨S4096x500, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S512x4096, .f32⟩
  | 15 => ⟨S4096x4096, .f32⟩
  | 16 => ⟨S4096x4096, .f32⟩
  | 17 => ⟨S4096x4096, .f32⟩
  | 18 => ⟨S_, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S4096x1x10, .f32⟩
  | 25 => ⟨S1x10x10, .f32⟩
  | 26 => ⟨S4096x10x10, .f32⟩
  | 27 => ⟨S4096x10x10, .f32⟩
  | 28 => ⟨S4096x10x10, .f32⟩
  | 29 => ⟨S4096x10x10, .f32⟩
  | 30 => ⟨S_, .f32⟩
  | 31 => ⟨S4096x10, .f32⟩
  | 32 => ⟨S_, .f32⟩
  | 33 => ⟨S4096x10, .f32⟩
  | 34 => ⟨S4096x10, .f32⟩
  | 35 => ⟨S_, .f32⟩
  | 36 => ⟨S4096x10, .f32⟩
  | 37 => ⟨S4096x10, .f32⟩
  | 38 => ⟨S_, .f32⟩
  | 39 => ⟨S4096x10, .f32⟩
  | 40 => ⟨S4096x10, .f32⟩
  | 41 => ⟨S_, .f32⟩
  | 42 => ⟨S4096x10, .f32⟩
  | 43 => ⟨S4096x10, .f32⟩
  | 44 => ⟨S10x4096, .f32⟩
  | 45 => ⟨S_, .f32⟩
  | 46 => ⟨S4096, .f32⟩
  | 47 => ⟨S1x4096, .f32⟩
  | 48 => ⟨S10x4096, .f32⟩
  | 49 => ⟨S10x4096, .f32⟩
  | 50 => ⟨S4096x10, .f32⟩
  | 51 => ⟨S4096x1x10, .f32⟩
  | 52 => ⟨S1x10x10, .f32⟩
  | 53 => ⟨S4096x10x10, .f32⟩
  | 54 => ⟨S4096x10x10, .f32⟩
  | 55 => ⟨S4096x10x10, .f32⟩
  | 56 => ⟨S4096x10x10, .f32⟩
  | 57 => ⟨S_, .f32⟩
  | 58 => ⟨S4096x10, .f32⟩
  | 59 => ⟨S_, .f32⟩
  | 60 => ⟨S4096x10, .f32⟩
  | 61 => ⟨S4096x10, .f32⟩
  | 62 => ⟨S_, .f32⟩
  | 63 => ⟨S4096x10, .f32⟩
  | 64 => ⟨S4096x10, .f32⟩
  | 65 => ⟨S_, .f32⟩
  | 66 => ⟨S4096x10, .f32⟩
  | 67 => ⟨S4096x10, .f32⟩
  | 68 => ⟨S_, .f32⟩
  | 69 => ⟨S4096x10, .f32⟩
  | 70 => ⟨S4096x10, .f32⟩
  | 71 => ⟨S10x4096, .f32⟩
  | 72 => ⟨S_, .f32⟩
  | 73 => ⟨S4096, .f32⟩
  | 74 => ⟨S1x4096, .f32⟩
  | 75 => ⟨S10x4096, .f32⟩
  | 76 => ⟨S10x4096, .f32⟩
  | 77 => ⟨S4096x10, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call0_cst : Ref sig .tc := ⟨.hbm, 32, rfl⟩
abbrev main_call0_v0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_cst : Ref sig .tc := ⟨.hbm, 39, rfl⟩
abbrev main_call1_v0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_call2_cst : Ref sig .tc := ⟨.hbm, 46, rfl⟩
abbrev main_call2_v0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call3_cst : Ref sig .tc := ⟨.hbm, 57, rfl⟩
abbrev main_call3_v0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_call4_cst : Ref sig .tc := ⟨.hbm, 64, rfl⟩
abbrev main_call4_v0 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_call5_cst : Ref sig .tc := ⟨.hbm, 71, rfl⟩
abbrev main_call5_v0 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_call6_cst : Ref sig .tc := ⟨.hbm, 80, rfl⟩
abbrev main_call6_v0 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call7_cst : Ref sig .tc := ⟨.hbm, 88, rfl⟩
abbrev main_call7_v0 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_call8_cst : Ref sig .tc := ⟨.hbm, 93, rfl⟩
abbrev main_call8_v0 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_call9_cst : Ref sig .tc := ⟨.hbm, 100, rfl⟩
abbrev main_call9_v0 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_call10_cst : Ref sig .tc := ⟨.hbm, 106, rfl⟩
abbrev main_call10_v0 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_call11_cst : Ref sig .tc := ⟨.hbm, 111, rfl⟩
abbrev main_call11_v0 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_call12_cst : Ref sig .tc := ⟨.hbm, 117, rfl⟩
abbrev main_call12_v0 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_call13_cst : Ref sig .tc := ⟨.hbm, 124, rfl⟩
abbrev main_call13_v0 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_call14_cst : Ref sig .tc := ⟨.hbm, 129, rfl⟩
abbrev main_call14_v0 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_call15_cst : Ref sig .tc := ⟨.hbm, 134, rfl⟩
abbrev main_call15_v0 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_call16_cst : Ref sig .tc := ⟨.hbm, 139, rfl⟩
abbrev main_call16_v0 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst : Ref sig .tc := ⟨.hbm, 146, rfl⟩
abbrev main_v84 : Ref sig .tc := ⟨.hbm, 147, rfl⟩
abbrev main_v85 : Ref sig .tc := ⟨.hbm, 148, rfl⟩
abbrev main_cst_0 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_1 : Ref sig .tc := ⟨.hbm, 158, rfl⟩
abbrev main_v94 : Ref sig .tc := ⟨.hbm, 159, rfl⟩
abbrev main_cst_2 : Ref sig .tc := ⟨.hbm, 160, rfl⟩
abbrev main_v95 : Ref sig .tc := ⟨.hbm, 161, rfl⟩
abbrev main_v96 : Ref sig .tc := ⟨.hbm, 162, rfl⟩
abbrev main_cst_3 : Ref sig .tc := ⟨.hbm, 163, rfl⟩
abbrev main_v97 : Ref sig .tc := ⟨.hbm, 164, rfl⟩
abbrev main_v98 : Ref sig .tc := ⟨.hbm, 165, rfl⟩
abbrev main_cst_4 : Ref sig .tc := ⟨.hbm, 166, rfl⟩
abbrev main_v99 : Ref sig .tc := ⟨.hbm, 167, rfl⟩
abbrev main_v100 : Ref sig .tc := ⟨.hbm, 168, rfl⟩
abbrev main_cst_5 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_cst_6 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_cst_7 : Ref sig .tc := ⟨.hbm, 185, rfl⟩
abbrev main_v115 : Ref sig .tc := ⟨.hbm, 186, rfl⟩
abbrev main_cst_8 : Ref sig .tc := ⟨.hbm, 187, rfl⟩
abbrev main_v116 : Ref sig .tc := ⟨.hbm, 188, rfl⟩
abbrev main_v117 : Ref sig .tc := ⟨.hbm, 189, rfl⟩
abbrev main_cst_9 : Ref sig .tc := ⟨.hbm, 190, rfl⟩
abbrev main_v118 : Ref sig .tc := ⟨.hbm, 191, rfl⟩
abbrev main_v119 : Ref sig .tc := ⟨.hbm, 192, rfl⟩
abbrev main_cst_10 : Ref sig .tc := ⟨.hbm, 193, rfl⟩
abbrev main_v120 : Ref sig .tc := ⟨.hbm, 194, rfl⟩
abbrev main_v121 : Ref sig .tc := ⟨.hbm, 195, rfl⟩
abbrev main_cst_11 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_12 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S4096x500_0_1 : S1x500.BroadcastsInDim S4096x500 (![0, 1] : Fin 2 → Fin S4096x500.rank)
  bcast_S_S4096x500 : S_.BroadcastsInDim S4096x500 (![] : Fin 0 → Fin S4096x500.rank)
  bcast_S2000_S1x2000_1 : S2000.BroadcastsInDim S1x2000 (![1] : Fin 1 → Fin S1x2000.rank)
  bcast_S1x2000_S4096x2000_0_1 : S1x2000.BroadcastsInDim S4096x2000 (![0, 1] : Fin 2 → Fin S4096x2000.rank)
  bcast_S_S4096x2000 : S_.BroadcastsInDim S4096x2000 (![] : Fin 0 → Fin S4096x2000.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x10 : S_.BroadcastsInDim S4096x10 (![] : Fin 0 → Fin S4096x10.rank)
  bcast_S_S4096x512 : S_.BroadcastsInDim S4096x512 (![] : Fin 0 → Fin S4096x512.rank)
  transposes_S4096x512_S512x4096_1_0 : S4096x512.Transposes [1, 0] S512x4096
  bcast_S_S4096x4096 : S_.BroadcastsInDim S4096x4096 (![] : Fin 0 → Fin S4096x4096.rank)
  bcast_S4096x10_S4096x1x10_0_2 : S4096x10.BroadcastsInDim S4096x1x10 (![0, 2] : Fin 2 → Fin S4096x1x10.rank)
  bcast_S10x10_S1x10x10_1_2 : S10x10.BroadcastsInDim S1x10x10 (![1, 2] : Fin 2 → Fin S1x10x10.rank)
  bcast_S4096x1x10_S4096x10x10_0_1_2 : S4096x1x10.BroadcastsInDim S4096x10x10 (![0, 1, 2] : Fin 3 → Fin S4096x10x10.rank)
  bcast_S1x10x10_S4096x10x10_0_1_2 : S1x10x10.BroadcastsInDim S4096x10x10 (![0, 1, 2] : Fin 3 → Fin S4096x10x10.rank)
  reducesTo_S4096x10x10_S4096x10_d2 : S4096x10x10.ReducesTo [2] S4096x10
  h_S_ : 0 < S_.numel
  transposes_S4096x10_S10x4096_1_0 : S4096x10.Transposes [1, 0] S10x4096
  reducesTo_S4096x10_S4096_d1 : S4096x10.ReducesTo [1] S4096
  bcast_S4096_S1x4096_1 : S4096.BroadcastsInDim S1x4096 (![1] : Fin 1 → Fin S1x4096.rank)
  bcast_S1x4096_S10x4096_0_1 : S1x4096.BroadcastsInDim S10x4096 (![0, 1] : Fin 2 → Fin S10x4096.rank)
  transposes_S10x4096_S4096x10_1_0 : S10x4096.Transposes [1, 0] S4096x10
  dot_S4096x512_S512x500_S4096x500_1_0_0_1_n_n_wf : DotDims.WF S4096x512 S512x500 S4096x500 [1] [0] [0] [1] [] []
  dot_S4096x500_S500x500_S4096x500_1_0_0_1_n_n_wf : DotDims.WF S4096x500 S500x500 S4096x500 [1] [0] [0] [1] [] []
  dot_S4096x500_S500x2000_S4096x2000_1_0_0_1_n_n_wf : DotDims.WF S4096x500 S500x2000 S4096x2000 [1] [0] [0] [1] [] []
  dot_S4096x2000_S2000x10_S4096x10_1_0_0_1_n_n_wf : DotDims.WF S4096x2000 S2000x10 S4096x10 [1] [0] [0] [1] [] []
  dot_S4096x10_S10x2000_S4096x2000_1_0_0_1_n_n_wf : DotDims.WF S4096x10 S10x2000 S4096x2000 [1] [0] [0] [1] [] []
  dot_S4096x2000_S2000x500_S4096x500_1_0_0_1_n_n_wf : DotDims.WF S4096x2000 S2000x500 S4096x500 [1] [0] [0] [1] [] []
  dot_S4096x500_S500x512_S4096x512_1_0_0_1_n_n_wf : DotDims.WF S4096x500 S500x512 S4096x512 [1] [0] [0] [1] [] []
  dot_S4096x4096_S4096x500_S4096x500_1_0_0_1_n_n_wf : DotDims.WF S4096x4096 S4096x500 S4096x500 [1] [0] [0] [1] [] []
  dot_S4096x4096_S4096x2000_S4096x2000_1_0_0_1_n_n_wf : DotDims.WF S4096x4096 S4096x2000 S4096x2000 [1] [0] [0] [1] [] []
  dot_S4096x4096_S4096x10_S4096x10_1_0_0_1_n_n_wf : DotDims.WF S4096x4096 S4096x10 S4096x10 [1] [0] [0] [1] [] []
  dot_S4096x10_S10x10_S4096x10_1_0_0_1_n_n_wf : DotDims.WF S4096x10 S10x10 S4096x10 [1] [0] [0] [1] [] []
  dot_S4096x4096_S4096x512_S4096x512_1_0_0_1_n_n_wf : DotDims.WF S4096x4096 S4096x512 S4096x512 [1] [0] [0] [1] [] []
  dot_S4096x512_S512x4096_S4096x4096_1_0_0_1_n_n_wf : DotDims.WF S4096x512 S512x4096 S4096x4096 [1] [0] [0] [1] [] []

variable [Facts₀]

def dot_S4096x512_S512x500_S4096x500_1_0_0_1_n_n : DotDims S4096x512 S512x500 S4096x500 where
  lhsContracting := [1]
  rhsContracting := [0]
  lhsNonContracting := [0]
  rhsNonContracting := [1]
  lhsBatch := []
  rhsBatch := []
  wf := dot_S4096x512_S512x500_S4096x500_1_0_0_1_n_n_wf
def dot_S4096x500_S500x500_S4096x500_1_0_0_1_n_n : DotDims S4096x500 S500x500 S4096x500 where
  lhsContracting := [1]
  rhsContracting := [0]
  lhsNonContracting := [0]
  rhsNonContracting := [1]
  lhsBatch := []
  rhsBatch := []
  wf := dot_S4096x500_S500x500_S4096x500_1_0_0_1_n_n_wf
def dot_S4096x500_S500x2000_S4096x2000_1_0_0_1_n_n : DotDims S4096x500 S500x2000 S4096x2000 where
  lhsContracting := [1]
  rhsContracting := [0]
  lhsNonContracting := [0]
  rhsNonContracting := [1]
  lhsBatch := []
  rhsBatch := []
  wf := dot_S4096x500_S500x2000_S4096x2000_1_0_0_1_n_n_wf
def dot_S4096x2000_S2000x10_S4096x10_1_0_0_1_n_n : DotDims S4096x2000 S2000x10 S4096x10 where
  lhsContracting := [1]
  rhsContracting := [0]
  lhsNonContracting := [0]
  rhsNonContracting := [1]
  lhsBatch := []
  rhsBatch := []
  wf := dot_S4096x2000_S2000x10_S4096x10_1_0_0_1_n_n_wf
def dot_S4096x10_S10x2000_S4096x2000_1_0_0_1_n_n : DotDims S4096x10 S10x2000 S4096x2000 where
  lhsContracting := [1]
  rhsContracting := [0]
  lhsNonContracting := [0]
  rhsNonContracting := [1]
  lhsBatch := []
  rhsBatch := []
  wf := dot_S4096x10_S10x2000_S4096x2000_1_0_0_1_n_n_wf
def dot_S4096x2000_S2000x500_S4096x500_1_0_0_1_n_n : DotDims S4096x2000 S2000x500 S4096x500 where
  lhsContracting := [1]
  rhsContracting := [0]
  lhsNonContracting := [0]
  rhsNonContracting := [1]
  lhsBatch := []
  rhsBatch := []
  wf := dot_S4096x2000_S2000x500_S4096x500_1_0_0_1_n_n_wf
def dot_S4096x500_S500x512_S4096x512_1_0_0_1_n_n : DotDims S4096x500 S500x512 S4096x512 where
  lhsContracting := [1]
  rhsContracting := [0]
  lhsNonContracting := [0]
  rhsNonContracting := [1]
  lhsBatch := []
  rhsBatch := []
  wf := dot_S4096x500_S500x512_S4096x512_1_0_0_1_n_n_wf
def dot_S4096x4096_S4096x500_S4096x500_1_0_0_1_n_n : DotDims S4096x4096 S4096x500 S4096x500 where
  lhsContracting := [1]
  rhsContracting := [0]
  lhsNonContracting := [0]
  rhsNonContracting := [1]
  lhsBatch := []
  rhsBatch := []
  wf := dot_S4096x4096_S4096x500_S4096x500_1_0_0_1_n_n_wf
def dot_S4096x4096_S4096x2000_S4096x2000_1_0_0_1_n_n : DotDims S4096x4096 S4096x2000 S4096x2000 where
  lhsContracting := [1]
  rhsContracting := [0]
  lhsNonContracting := [0]
  rhsNonContracting := [1]
  lhsBatch := []
  rhsBatch := []
  wf := dot_S4096x4096_S4096x2000_S4096x2000_1_0_0_1_n_n_wf
def dot_S4096x4096_S4096x10_S4096x10_1_0_0_1_n_n : DotDims S4096x4096 S4096x10 S4096x10 where
  lhsContracting := [1]
  rhsContracting := [0]
  lhsNonContracting := [0]
  rhsNonContracting := [1]
  lhsBatch := []
  rhsBatch := []
  wf := dot_S4096x4096_S4096x10_S4096x10_1_0_0_1_n_n_wf
def dot_S4096x10_S10x10_S4096x10_1_0_0_1_n_n : DotDims S4096x10 S10x10 S4096x10 where
  lhsContracting := [1]
  rhsContracting := [0]
  lhsNonContracting := [0]
  rhsNonContracting := [1]
  lhsBatch := []
  rhsBatch := []
  wf := dot_S4096x10_S10x10_S4096x10_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KernelR0.lean ====
/-
  The autoencoder region: one grid point runs the whole eight-layer autoencoder on a block of 1024 rows of
  the input (weights and biases resident, each fetched once), and leaves five blocks: the reconstruction, the
  latent code, the first hidden layer, the soft assignment of the latent code to the cluster centres, and the
  input block times the first graph weight.  What the body leaves in its staging buffers, as proof data for
  the pipeline, and the body's obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: unfetched, the block
    index has not moved.  One statement per input window (windows 0 to 18). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (Pipeline.UD sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (Pipeline.UD sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (Pipeline.UD sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (Pipeline.UD sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (Pipeline.UD sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (Pipeline.UD sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (Pipeline.UD sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (Pipeline.UD sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (Pipeline.UD sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through, one per shape. -/
abbrev r0_x : Rect S1024x512 := Rect.unit (s := S1024x512) ![0, 0] S1024x512.size inb_S1024x512_S1024x512_0_0
abbrev r0_w1 : Rect S512x500 := Rect.unit (s := S512x500) ![0, 0] S512x500.size inb_S512x500_S512x500_0_0
abbrev r0_b500 : Rect S1x500 := Rect.unit (s := S1x500) ![0, 0] S1x500.size inb_S1x500_S1x500_0_0
abbrev r0_w2 : Rect S500x500 := Rect.unit (s := S500x500) ![0, 0] S500x500.size inb_S500x500_S500x500_0_0
abbrev r0_w3 : Rect S500x2000 := Rect.unit (s := S500x2000) ![0, 0] S500x2000.size inb_S500x2000_S500x2000_0_0
abbrev r0_b2000 : Rect S1x2000 := Rect.unit (s := S1x2000) ![0, 0] S1x2000.size inb_S1x2000_S1x2000_0_0
abbrev r0_w4 : Rect S2000x10 := Rect.unit (s := S2000x10) ![0, 0] S2000x10.size inb_S2000x10_S2000x10_0_0
abbrev r0_b10 : Rect S1x10 := Rect.unit (s := S1x10) ![0, 0] S1x10.size inb_S1x10_S1x10_0_0
abbrev r0_w5 : Rect S10x2000 := Rect.unit (s := S10x2000) ![0, 0] S10x2000.size inb_S10x2000_S10x2000_0_0
abbrev r0_w6 : Rect S2000x500 := Rect.unit (s := S2000x500) ![0, 0] S2000x500.size inb_S2000x500_S2000x500_0_0
abbrev r0_w8 : Rect S500x512 := Rect.unit (s := S500x512) ![0, 0] S500x512.size inb_S500x512_S500x512_0_0
abbrev r0_b512 : Rect S1x512 := Rect.unit (s := S1x512) ![0, 0] S1x512.size inb_S1x512_S1x512_0_0
abbrev r0_c : Rect S10x10 := Rect.unit (s := S10x10) ![0, 0] S10x10.size inb_S10x10_S10x10_0_0
abbrev r0_o10 : Rect S1024x10 := Rect.unit (s := S1024x10) ![0, 0] S1024x10.size inb_S1024x10_S1024x10_0_0
abbrev r0_o500 : Rect S1024x500 := Rect.unit (s := S1024x500) ![0, 0] S1024x500.size inb_S1024x500_S1024x500_0_0

section Outs
variable (x0 : Vec F S1024x512 .f32) (x1 : Vec F S512x500 .bf16) (x2 : Vec F S1x500 .f32) (x3 : Vec F S500x500 .bf16)
  (x4 : Vec F S1x500 .f32) (x5 : Vec F S500x2000 .bf16) (x6 : Vec F S1x2000 .f32) (x7 : Vec F S2000x10 .bf16)
  (x8 : Vec F S1x10 .f32) (x9 : Vec F S10x2000 .bf16) (x10 : Vec F S1x2000 .f32) (x11 : Vec F S2000x500 .bf16)
  (x12 : Vec F S1x500 .f32) (x13 : Vec F S500x500 .bf16) (x14 : Vec F S1x500 .f32) (x15 : Vec F S500x512 .bf16)
  (x16 : Vec F S1x512 .f32) (x17 : Vec F S512x500 .bf16) (x18 : Vec F S10x10 .f32)

/-- The latent code's pre-bias product chain, as the first part returns it: three rectified affine layers and the
    product with the fourth weight. -/
def enc0 : FVec F S1024x10 .f32 :=
  k0_pay3 (View.ld x0 r0_x) (View.ld x1 r0_w1) (View.ld x2 r0_b500) (View.ld x3 r0_w2) (View.ld x4 r0_b500) (View.ld x5 r0_w3)
    (View.ld x6 r0_b2000) (View.ld x7 r0_w4)

/-- The latent code of the block. -/
def lat0 : FVec F S1024x10 .f32 := k0_pay4 (enc0 x0 x1 x2 x3 x4 x5 x6 x7) (View.ld x8 r0_b10)

/-- The reconstruction block: window 19's one store. -/
def out0_19 : Vec F S1024x512 .f32 :=
  View.canon [⟨r0_x, k0_pay6 (k0_pay5 (enc0 x0 x1 x2 x3 x4 x5 x6 x7) (View.ld x8 r0_b10) (View.ld x9 r0_w5) (View.ld x10 r0_b2000)
    (View.ld x11 r0_w6) (View.ld x12 r0_b500) (View.ld x13 r0_w2) (View.ld x14 r0_b500) (View.ld x15 r0_w8)) (View.ld x16 r0_b512)⟩]

/-- The latent block: window 20's one store. -/
def out0_20 : Vec F S1024x10 .f32 :=
  View.canon [⟨r0_o10, lat0 x0 x1 x2 x3 x4 x5 x6 x7 x8⟩]

/-- The first hidden layer, narrowed: window 21's one store. -/
def out0_21 : Vec F S1024x500 .bf16 :=
  View.canon [⟨r0_o500, k0_pay7 (k0_pay2 (View.ld x0 r0_x) (View.ld x1 r0_w1) (View.ld x2 r0_b500))⟩]

/-- The soft assignment of the latent block: window 22's one store. -/
def out0_22 : Vec F S1024x10 .f32 :=
  View.canon [⟨r0_o10, k0_pay8 (lat0 x0 x1 x2 x3 x4 x5 x6 x7 x8) (View.ld x18 r0_c)⟩]

/-- The input block times the first graph weight, narrowed: window 23's one store. -/
def out0_23 : Vec F S1024x500 .bf16 :=
  View.canon [⟨r0_o500, k0_pay1 (k0_pay9 (View.ld x17 r0_w1)) (k0_pay10 (View.ld x0 r0_x))⟩]

end Outs

/-- Each output's one store covers its block. -/
theorem cover0_19 (p0 : Vec F S1024x512 .f32) (y : S1024x512.Idx) :
    ∃ pc ∈ ([⟨r0_x, p0⟩] : List (View.Piece (Elt F) S1024x512 .f32)), y ∈ pc.1.set :=
  View.cover_of_tiled [⟨r0_x, p0⟩] S1024x512.size (by rfl) y
theorem cover0_20 (p0 : Vec F S1024x10 .f32) (y : S1024x10.Idx) :
    ∃ pc ∈ ([⟨r0_o10, p0⟩] : List (View.Piece (Elt F) S1024x10 .f32)), y ∈ pc.1.set :=
  View.cover_of_tiled [⟨r0_o10, p0⟩] S1024x10.size (by rfl) y
theorem cover0_21 (p0 : Vec F S1024x500 .bf16) (y : S1024x500.Idx) :
    ∃ pc ∈ ([⟨r0_o500, p0⟩] : List (View.Piece (Elt F) S1024x500 .bf16)), y ∈ pc.1.set :=
  View.cover_of_tiled [⟨r0_o500, p0⟩] S1024x500.size (by rfl) y

set_option maxHeartbeats 4000000 in
/-- The body on whole staging buffers: the nineteen inputs are left as read, each of the five outputs holds its
    `out0_w` of the inputs. -/
theorem sound_kernel0 (c : Dev nD) (E : Set ℕ) (i : grid0.Coords)
    (arg1 : Memref sig .tc .vmem S1024x512 .f32) (harg1 : arg1.IsWhole) (arg2 : Memref sig .tc .vmem S512x500 .bf16) (harg2 : arg2.IsWhole)
    (arg3 : Memref sig .tc .vmem S1x500 .f32) (harg3 : arg3.IsWhole) (arg4 : Memref sig .tc .vmem S500x500 .bf16) (harg4 : arg4.IsWhole)
    (arg5 : Memref sig .tc .vmem S1x500 .f32) (harg5 : arg5.IsWhole) (arg6 : Memref sig .tc .vmem S500x2000 .bf16) (harg6 : arg6.IsWhole)
    (arg7 : Memref sig .tc .vmem S1x2000 .f32) (harg7 : arg7.IsWhole) (arg8 : Memref sig .tc .vmem S2000x10 .bf16) (harg8 : arg8.IsWhole)
    (arg9 : Memref sig .tc .vmem S1x10 .f32) (harg9 : arg9.IsWhole) (arg10 : Memref sig .tc .vmem S10x2000 .bf16) (harg10 : arg10.IsWhole)
    (arg11 : Memref sig .tc .vmem S1x2000 .f32) (harg11 : arg11.IsWhole) (arg12 : Memref sig .tc .vmem S2000x500 .bf16) (harg12 : arg12.IsWhole)
    (arg13 : Memref sig .tc .vmem S1x500 .f32) (harg13 : arg13.IsWhole) (arg14 : Memref sig .tc .vmem S500x500 .bf16) (harg14 : arg14.IsWhole)
    (arg15 : Memref sig .tc .vmem S1x500 .f32) (harg15 : arg15.IsWhole) (arg16 : Memref sig .tc .vmem S500x512 .bf16) (harg16 : arg16.IsWhole)
    (arg17 : Memref sig .tc .vmem S1x512 .f32) (harg17 : arg17.IsWhole) (arg18 : Memref sig .tc .vmem S512x500 .bf16) (harg18 : arg18.IsWhole)
    (arg19 : Memref sig .tc .vmem S10x10 .f32) (harg19 : arg19.IsWhole) (arg20 : Memref sig .tc .vmem S1024x512 .f32) (harg20 : arg20.IsWhole)
    (arg21 : Memref sig .tc .vmem S1024x10 .f32) (harg21 : arg21.IsWhole) (arg22 : Memref sig .tc .vmem S1024x500 .bf16) (harg22 : arg22.IsWhole)
    (arg23 : Memref sig .tc .vmem S1024x10 .f32) (harg23 : arg23.IsWhole) (arg24 : Memref sig .tc .vmem S1024x500 .bf16) (harg24 : arg24.IsWhole)
    (x0 : Vec F S1024x512 .f32) (x1 : Vec F S512x500 .bf16) (x2 : Vec F S1x500 .f32) (x3 : Vec F S500x500 .bf16)
    (x4 : Vec F S1x500 .f32) (x5 : Vec F S500x2000 .bf16) (x6 : Vec F S1x2000 .f32) (x7 : Vec F S2000x10 .bf16)
    (x8 : Vec F S1x10 .f32) (x9 : Vec F S10x2000 .bf16) (x10 : Vec F S1x2000 .f32) (x11 : Vec F S2000x500 .bf16)
    (x12 : Vec F S1x500 .f32) (x13 : Vec F S500x500 .bf16) (x14 : Vec F S1x500 .f32) (x15 : Vec F S500x512 .bf16)
    (x16 : Vec F S1x512 .f32) (x17 : Vec F S512x500 .bf16) (x18 : Vec F S10x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare x8 ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14 ∗ owns (c : Thread nD τ) arg16 fullShare x15
        ∗ owns (c : Thread nD τ) arg17 fullShare x16 ∗ owns (c : Thread nD τ) arg18 fullShare x17 ∗ owns (c : Thread nD τ) arg19 fullShare x18
        ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14 ∗ owns (c : Thread nD τ) arg16 fullShare x15
            ∗ owns (c : Thread nD τ) arg17 fullShare x16 ∗ owns (c : Thread nD τ) arg18 fullShare x17 ∗ owns (c : Thread nD τ) arg19 fullShare x18
            ∗ owns (c : Thread nD τ) arg20 fullShare (out0_19 x0 x1 x2 x3 x4 x5 x6 x7 x8 x9 x10 x11 x12 x13 x14 x15 x16)
            ∗ owns (c : Thread nD τ) arg21 fullShare (out0_20 x0 x1 x2 x3 x4 x5 x6 x7 x8)
            ∗ owns (c : Thread nD τ) arg22 fullShare (out0_21 x0 x1 x2)
            ∗ owns (c : Thread nD τ) arg23 fullShare (out0_22 x0 x1 x2 x3 x4 x5 x6 x7 x8 x18)
            ∗ owns (c : Thread nD τ) arg24 fullShare (out0_23 x0 x17)) -∗ K ⟨⟩))
      ⊢ wp frame (wpE (defs₀ (F := F)) Variants.none c none) E
          (cc0__ae_body i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19 arg20 harg20
            arg21 harg21 arg22 harg22 arg23 harg23 arg24 harg24) K := by
  simp only [cc0__ae_body_eq_skeleton]; unfold cc0__ae_body_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩,
    ⟨%d19, %f19, -, H19⟩, ⟨%d20, %f20, -, H20⟩, ⟨%d21, %f21, -, H21⟩, ⟨%d22, %f22, -, H22⟩, ⟨%d23, %f23, -, H23⟩, Hk⟩
  subst hf0; subst hf1; subst hf2; subst hf3; subst hf4; subst hf5; subst hf6; subst hf7; subst hf8; subst hf9
  subst hf10; subst hf11; subst hf12; subst hf13; subst hf14; subst hf15; subst hf16; subst hf17; subst hf18
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [H12]; · iexists f12; isplitr; · ipureintro; rfl
                   iexact H12
  isplitl [H13]; · iexists f13; isplitr; · ipureintro; rfl
                   iexact H13
  isplitl [H14]; · iexists f14; isplitr; · ipureintro; rfl
                   iexact H14
  isplitl [H15]; · iexists f15; isplitr; · ipureintro; rfl
                   iexact H15
  isplitl [H16]; · iexists f16; isplitr; · ipureintro; rfl
                   iexact H16
  isplitl [H17]; · iexists f17; isplitr; · ipureintro; rfl
                   iexact H17
  isplitl [H18]; · iexists f18; isplitr; · ipureintro; rfl
                   iexact H18
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_20 _)
  iexists _; isplitr
  swap; · iexact H23
  ipureintro
  exact View.read_writes_eq_canon _ _ _ (cover0_21 _)

/-! ## The proof data -/

/-- The arrays as the region finds them; after the body at point `t` each input's buffer at its block and each
    output's at its `out0_w` of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => out0_19 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (iblk0 V c 10 t) (iblk0 V c 11 t) (iblk0 V c 12 t) (iblk0 V c 13 t) (iblk0 V c 14 t)
        (iblk0 V c 15 t) (iblk0 V c 16 t)
    | ⟨20, _⟩ => out0_20 (iblk0 V c 0 t) (iblk0 V c 1 t) (iblk0 V c 2 t) (iblk0 V c 3 t) (iblk0 V c 4 t) (iblk0 V c 5 t) (iblk0 V c 6 t)
        (iblk0 V c 7 t) (iblk0 V c 8 t)
    | ⟨21, _⟩ => out0_21 (iblk0 V c 0 t) (iblk0 V c 1 t) (iblk0 V c 2 t)
    | ⟨22, _⟩ => out0_22 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 18 t)
    | ⟨23, _⟩ => out0_23 (iblk0 V c 0 t) (iblk0 V c 17 t)
    | ⟨_ + 24, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t =
    out0_19 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t) (iblk0 V c 13 t) (iblk0 V c 14 t)
      (iblk0 V c 15 t) (iblk0 V c 16 t) := by dsimp only [dat0]
theorem after0_20 (c : Dev nD) (t : Fin cfg0.N) : (dat0 V c).after 20 t =
    out0_20 (iblk0 V c 0 t) (iblk0 V c 1 t) (iblk0 V c 2 t) (iblk0 V c 3 t) (iblk0 V c 4 t) (iblk0 V c 5 t) (iblk0 V c 6 t)
      (iblk0 V c 7 t) (iblk0 V c 8 t) := by dsimp only [dat0]
theorem after0_21 (c : Dev nD) (t : Fin cfg0.N) : (dat0 V c).after 21 t =
    out0_21 (iblk0 V c 0 t) (iblk0 V c 1 t) (iblk0 V c 2 t) := by dsimp only [dat0]
theorem after0_22 (c : Dev nD) (t : Fin cfg0.N) : (dat0 V c).after 22 t =
    out0_22 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 18 t) := by dsimp only [dat0]
theorem after0_23 (c : Dev nD) (t : Fin cfg0.N) : (dat0 V c).after 23 t =
    out0_23 (iblk0 V c 0 t) (iblk0 V c 17 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9,
    before0_10, before0_11, before0_12, before0_13, before0_14, before0_15, before0_16, before0_17, before0_18]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11,
    after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩,
    ⟨%d19, H19⟩, ⟨%d20, H20⟩, ⟨%d21, H21⟩, ⟨%d22, H22⟩, ⟨%d23, H23⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) (iblk0 V c 11 t) (iblk0 V c 12 t) (iblk0 V c 13 t) (iblk0 V c 14 t) (iblk0 V c 15 t)
    (iblk0 V c 16 t) (iblk0 V c 17 t) (iblk0 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

set_option maxHeartbeats 4000000 in
theorem body_obligation0 (c : Dev nD) : BodyObligation (dat0 (F := F) V c) (defs₀ (F := F)) Variants.none () Set.univ := fun t => by
  rw [bigSep_W0, bigSep_W0]
  show bodyPre0 V c t ⊢ wp frame (wpE (defs₀ (F := F)) Variants.none c none) Set.univ (bodyAt0 t) (fun _ => bodyPost0 V c t)
  exact sound_body0 V c t

end Cert.Kernel.Hand

end
-- ==== Proof.KernelR1.lean ====
/-
  The first adjacency sweep, which also rounds the adjacency to bf16 and applies the first dense layers,
  as one pipelined region: what a grid point's body leaves in its staging buffers, as proof data for the
  pipeline, and the body's obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # The first adjacency sweep: one grid point rounds a 512 × 4096 single-precision block of the adjacency to
    bf16 and stores it, forms `m = max (adj · u) 0` with the whole 4096 × 500 operand, and stores two blocks of
    512 rows: `max ((m + h) · w + b) 0`, from a 512 × 500 block of the addend `h`, the whole 500 × 500 weight `w`
    and the 1 × 500 bias `b`; and `m · w'`, from the second whole 500 × 500 weight. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: unfetched, the block
    index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev r1_a : Rect S512x4096 := Rect.unit (s := S512x4096) ![0, 0] S512x4096.size inb_S512x4096_S512x4096_0_0
abbrev r1_u : Rect S4096x500 := Rect.unit (s := S4096x500) ![0, 0] S4096x500.size inb_S4096x500_S4096x500_0_0
abbrev r1_h : Rect S512x500 := Rect.unit (s := S512x500) ![0, 0] S512x500.size inb_S512x500_S512x500_0_0
abbrev r1_w : Rect S500x500 := Rect.unit (s := S500x500) ![0, 0] S500x500.size inb_S500x500_S500x500_0_0
abbrev r1_b : Rect S1x500 := Rect.unit (s := S1x500) ![0, 0] S1x500.size inb_S1x500_S1x500_0_0

/-- The first layer's output block after the body, from the adjacency block, the operand, the addend, the weight
    and the bias: its one store, of the whole block. -/
def out1_6 (x0 : Vec F S512x4096 .f32) (x1 : Vec F S4096x500 .bf16) (x2 : Vec F S512x500 .bf16) (x3 : Vec F S500x500 .bf16)
    (x4 : Vec F S1x500 .f32) : Vec F S512x500 .bf16 :=
  View.canon [⟨r1_h, k1_pay3 (View.ld x0 r1_a) (View.ld x1 r1_u) (View.ld x2 r1_h) (View.ld x3 r1_w) (View.ld x4 r1_b)⟩]

/-- The second weight's output block after the body, from the adjacency block, the operand and that weight: its
    one store, of the whole block. -/
def out1_7 (x0 : Vec F S512x4096 .f32) (x1 : Vec F S4096x500 .bf16) (x5 : Vec F S500x500 .bf16) : Vec F S512x500 .bf16 :=
  View.canon [⟨r1_h, k1_pay4 (View.ld x0 r1_a) (View.ld x1 r1_u) (View.ld x5 r1_w)⟩]

/-- The rounded adjacency block after the body, from the single-precision one: its one store, of the whole
    block. -/
def out1_8 (x0 : Vec F S512x4096 .f32) : Vec F S512x4096 .bf16 :=
  View.canon [⟨r1_a, k1_pay1 (View.ld x0 r1_a)⟩]

/-- The one store covers a 512 × 500 block. -/
theorem cover1_6 (p0 : Vec F S512x500 .bf16) (y : S512x500.Idx) :
    ∃ pc ∈ ([⟨r1_h, p0⟩] : List (View.Piece (Elt F) S512x500 .bf16)), y ∈ pc.1.set :=
  View.cover_of_tiled [⟨r1_h, p0⟩] S512x500.size (by rfl) y

/-- The one store covers the rounded adjacency block. -/
theorem cover1_8 (p0 : Vec F S512x4096 .bf16) (y : S512x4096.Idx) :
    ∃ pc ∈ ([⟨r1_a, p0⟩] : List (View.Piece (Elt F) S512x4096 .bf16)), y ∈ pc.1.set :=
  View.cover_of_tiled [⟨r1_a, p0⟩] S512x4096.size (by rfl) y

set_option maxHeartbeats 1000000 in
/-- The body on whole staging buffers: the inputs are left as read, the outputs hold `out1_6`, `out1_7` and
    `out1_8` of the inputs. -/
theorem sound_kernel1 (c : Dev nD) (E : Set ℕ) (i : grid1.Coords)
    (arg1 : Memref sig .tc .vmem S512x4096 .f32) (harg1 : arg1.IsWhole) (arg2 : Memref sig .tc .vmem S4096x500 .bf16) (harg2 : arg2.IsWhole)
    (arg3 : Memref sig .tc .vmem S512x500 .bf16) (harg3 : arg3.IsWhole) (arg4 : Memref sig .tc .vmem S500x500 .bf16) (harg4 : arg4.IsWhole)
    (arg5 : Memref sig .tc .vmem S1x500 .f32) (harg5 : arg5.IsWhole) (arg6 : Memref sig .tc .vmem S500x500 .bf16) (harg6 : arg6.IsWhole)
    (arg7 : Memref sig .tc .vmem S512x500 .bf16) (harg7 : arg7.IsWhole) (arg8 : Memref sig .tc .vmem S512x500 .bf16) (harg8 : arg8.IsWhole)
    (arg9 : Memref sig .tc .vmem S512x4096 .bf16) (harg9 : arg9.IsWhole)
    (x0 : Vec F S512x4096 .f32) (x1 : Vec F S4096x500 .bf16) (x2 : Vec F S512x500 .bf16) (x3 : Vec F S500x500 .bf16)
    (x4 : Vec F S1x500 .f32) (x5 : Vec F S500x500 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4) ∗ owns (c : Thread nD τ) arg8 fullShare (out1_7 x0 x1 x5)
            ∗ owns (c : Thread nD τ) arg9 fullShare (out1_8 x0)) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_6 _)
  iexists _; isplitr
  swap; · iexact H8
  ipureintro
  exact View.read_writes_eq_canon _ _ _ (cover1_8 _)

/-! ## The proof data -/

/-- The arrays as the region finds them; after the body at point `t` each input's buffer at its block and the
    outputs' at `out1_6`, `out1_7` and `out1_8` of the input blocks; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 5 t)
    | ⟨8, _⟩ => out1_8 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) :
    (dat1 V c).after 7 t = out1_7 (iblk1 V c 0 t) (iblk1 V c 1 t) (iblk1 V c 5 t) := by dsimp only [dat1]
theorem after1_8 (c : Dev nD) (t : Fin cfg1.N) :
    (dat1 V c).after 8 t = out1_8 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelR2.lean ====
/-
  The second adjacency sweep as one pipelined region: what a grid point's body leaves in its
  staging buffers, as proof data for the pipeline, and the body's obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # The second adjacency sweep: one grid point computes a block of 512 rows of
    `max (adj · u) 0 + h`, from a 512 × 4096 block of the adjacency, the whole 4096 × 500 operand and a
    512 × 500 block of the addend. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: unfetched, the block
    index has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev r2_a : Rect S512x4096 := Rect.unit (s := S512x4096) ![0, 0] S512x4096.size inb_S512x4096_S512x4096_0_0
abbrev r2_u : Rect S4096x500 := Rect.unit (s := S4096x500) ![0, 0] S4096x500.size inb_S4096x500_S4096x500_0_0
abbrev r2_o : Rect S512x500 := Rect.unit (s := S512x500) ![0, 0] S512x500.size inb_S512x500_S512x500_0_0

/-- The output block after the body, from the three input blocks: its one store, of the whole block. -/
def out2_3 (x0 : Vec F S512x4096 .bf16) (x1 : Vec F S4096x500 .bf16) (x2 : Vec F S512x500 .bf16) : Vec F S512x500 .bf16 :=
  View.canon [⟨r2_o, k2_pay1 (View.ld x0 r2_a) (View.ld x1 r2_u) (View.ld x2 r2_o)⟩]

/-- The one store covers the block. -/
theorem cover2_3 (p0 : Vec F S512x500 .bf16) (y : S512x500.Idx) :
    ∃ pc ∈ ([⟨r2_o, p0⟩] : List (View.Piece (Elt F) S512x500 .bf16)), y ∈ pc.1.set :=
  View.cover_of_tiled [⟨r2_o, p0⟩] S512x500.size (by rfl) y

set_option maxHeartbeats 1000000 in
/-- The body on whole staging buffers: the inputs are left as read, the output holds `out2_3` of the inputs. -/
theorem sound_kernel2 (c : Dev nD) (E : Set ℕ) (i : grid2.Coords)
    (arg1 : Memref sig .tc .vmem S512x4096 .bf16) (harg1 : arg1.IsWhole) (arg2 : Memref sig .tc .vmem S4096x500 .bf16) (harg2 : arg2.IsWhole)
    (arg3 : Memref sig .tc .vmem S512x500 .bf16) (harg3 : arg3.IsWhole) (arg4 : Memref sig .tc .vmem S512x500 .bf16) (harg4 : arg4.IsWhole)
    (x0 : Vec F S512x4096 .bf16) (x1 : Vec F S4096x500 .bf16) (x2 : Vec F S512x500 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_body i arg1 harg1 arg2 harg2 arg3 harg3 arg4 harg4) K := by
  simp only [cc2_body_eq_skeleton]; unfold cc2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The arrays as the region finds them; after the body at point `t` each input's buffer at its block and the
    output's at `out2_3` of the input blocks; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelR3.lean ====
/-
  The adjacency sweep followed by the two layers that narrow 500 columns to 10, as one pipelined region:
  what a grid point's body leaves in its staging buffers, as proof data for the pipeline, and the body's
  obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep with a 500 × 2000 and a 2000 × 10 layer: one grid point computes a block of 512 rows of
    `max ((adj · u) · w₁) 0 · w₂`, from a 512 × 4096 block of the adjacency, the whole 4096 × 500 operand and
    the two whole weights. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: unfetched, the block
    index has not moved. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev r3_a : Rect S512x4096 := Rect.unit (s := S512x4096) ![0, 0] S512x4096.size inb_S512x4096_S512x4096_0_0
abbrev r3_u : Rect S4096x500 := Rect.unit (s := S4096x500) ![0, 0] S4096x500.size inb_S4096x500_S4096x500_0_0
abbrev r3_w1 : Rect S500x2000 := Rect.unit (s := S500x2000) ![0, 0] S500x2000.size inb_S500x2000_S500x2000_0_0
abbrev r3_w2 : Rect S2000x10 := Rect.unit (s := S2000x10) ![0, 0] S2000x10.size inb_S2000x10_S2000x10_0_0
abbrev r3_o : Rect S512x10 := Rect.unit (s := S512x10) ![0, 0] S512x10.size inb_S512x10_S512x10_0_0

/-- The output block after the body, from the four input blocks: its one store, of the whole block. -/
def out3_4 (x0 : Vec F S512x4096 .bf16) (x1 : Vec F S4096x500 .bf16) (x2 : Vec F S500x2000 .bf16) (x3 : Vec F S2000x10 .bf16) : Vec F S512x10 .bf16 :=
  View.canon [⟨r3_o, k3_pay1 (View.ld x0 r3_a) (View.ld x1 r3_u) (View.ld x2 r3_w1) (View.ld x3 r3_w2)⟩]

/-- The one store covers the block. -/
theorem cover3_4 (p0 : Vec F S512x10 .bf16) (y : S512x10.Idx) :
    ∃ pc ∈ ([⟨r3_o, p0⟩] : List (View.Piece (Elt F) S512x10 .bf16)), y ∈ pc.1.set :=
  View.cover_of_tiled [⟨r3_o, p0⟩] S512x10.size (by rfl) y

set_option maxHeartbeats 1000000 in
/-- The body on whole staging buffers: the inputs are left as read, the output holds `out3_4` of the inputs. -/
theorem sound_kernel3 (c : Dev nD) (E : Set ℕ) (i : grid3.Coords)
    (arg1 : Memref sig .tc .vmem S512x4096 .bf16) (harg1 : arg1.IsWhole) (arg2 : Memref sig .tc .vmem S4096x500 .bf16) (harg2 : arg2.IsWhole)
    (arg3 : Memref sig .tc .vmem S500x2000 .bf16) (harg3 : arg3.IsWhole) (arg4 : Memref sig .tc .vmem S2000x10 .bf16) (harg4 : arg4.IsWhole)
    (arg5 : Memref sig .tc .vmem S512x10 .bf16) (harg5 : arg5.IsWhole)
    (x0 : Vec F S512x4096 .bf16) (x1 : Vec F S4096x500 .bf16) (x2 : Vec F S500x2000 .bf16) (x3 : Vec F S2000x10 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3_body i arg1 harg1 arg2 harg2 arg3 harg3 arg4 harg4 arg5 harg5) K := by
  simp only [cc3_body_eq_skeleton]; unfold cc3_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data -/

/-- The arrays as the region finds them; after the body at point `t` each input's buffer at its block and the
    output's at `out3_4` of the input blocks; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KernelR4.lean ====
/-
  The adjacency sweep of the 10-column stage, which keeps its rectified product and packs it beside the
  carried block, as one pipelined region: what a grid point's body leaves in its staging buffers, as proof
  data for the pipeline, and the body's obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep of the 10-column stage: one grid point computes a block of 512 rows of `max (adj · u) 0`,
    from a 512 × 4096 block of the adjacency and the whole 4096 × 10 operand, stores it in single precision, and
    stores beside it, rounded to bf16, the 512 × 256 block made of it and of a carried 512 × 10 block, each padded
    with zeros to 128 columns. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not: unfetched, the block
    index has not moved. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole rectangles the body loads and stores through. -/
abbrev r4_a : Rect S512x4096 := Rect.unit (s := S512x4096) ![0, 0] S512x4096.size inb_S512x4096_S512x4096_0_0
abbrev r4_u : Rect S4096x10 := Rect.unit (s := S4096x10) ![0, 0] S4096x10.size inb_S4096x10_S4096x10_0_0
abbrev r4_h : Rect S512x10 := Rect.unit (s := S512x10) ![0, 0] S512x10.size inb_S512x10_S512x10_0_0
abbrev r4_p : Rect S512x256 := Rect.unit (s := S512x256) ![0, 0] S512x256.size inb_S512x256_S512x256_0_0

/-- The single-precision output block after the body, from the adjacency block and the operand: its one store,
    of the whole block. -/
def out4_3 (x0 : Vec F S512x4096 .bf16) (x1 : Vec F S4096x10 .bf16) : Vec F S512x10 .f32 :=
  View.canon [⟨r4_h, k4_pay1 (View.ld x0 r4_a) (View.ld x1 r4_u)⟩]

/-- The packed bf16 output block after the body, from the three input blocks: its one store, of the whole
    block. -/
def out4_4 (x0 : Vec F S512x4096 .bf16) (x1 : Vec F S4096x10 .bf16) (x2 : Vec F S512x10 .f32) : Vec F S512x256 .bf16 :=
  View.canon [⟨r4_p, k4_pay2 (View.ld x0 r4_a) (View.ld x1 r4_u) (View.ld x2 r4_h)⟩]

/-- The one store covers the single-precision block. -/
theorem cover4_3 (p0 : Vec F S512x10 .f32) (y : S512x10.Idx) :
    ∃ pc ∈ ([⟨r4_h, p0⟩] : List (View.Piece (Elt F) S512x10 .f32)), y ∈ pc.1.set :=
  View.cover_of_tiled [⟨r4_h, p0⟩] S512x10.size (by rfl) y

/-- The one store covers the packed block. -/
theorem cover4_4 (p0 : Vec F S512x256 .bf16) (y : S512x256.Idx) :
    ∃ pc ∈ ([⟨r4_p, p0⟩] : List (View.Piece (Elt F) S512x256 .bf16)), y ∈ pc.1.set :=
  View.cover_of_tiled [⟨r4_p, p0⟩] S512x256.size (by rfl) y

set_option maxHeartbeats 1000000 in
/-- The body on whole staging buffers: the inputs are left as read, the outputs hold `out4_3` and `out4_4` of
    the inputs. -/
theorem sound_kernel4 (c : Dev nD) (E : Set ℕ) (i : grid4.Coords)
    (arg1 : Memref sig .tc .vmem S512x4096 .bf16) (harg1 : arg1.IsWhole) (arg2 : Memref sig .tc .vmem S4096x10 .bf16) (harg2 : arg2.IsWhole)
    (arg3 : Memref sig .tc .vmem S512x10 .f32) (harg3 : arg3.IsWhole) (arg4 : Memref sig .tc .vmem S512x10 .f32) (harg4 : arg4.IsWhole)
    (arg5 : Memref sig .tc .vmem S512x256 .bf16) (harg5 : arg5.IsWhole)
    (x0 : Vec F S512x4096 .bf16) (x1 : Vec F S4096x10 .bf16) (x2 : Vec F S512x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1) ∗ owns (c : Thread nD τ) arg5 fullShare (out4_4 x0 x1 x2)) -∗ K ⟨⟩))
      ⊢ wp frame (wpE (defs₀ (F := F)) Variants.none c none) E (cc4_body i arg1 harg1 arg2 harg2 arg3 harg3 arg4 harg4 arg5 harg5) K := by
  simp only [cc4_body_eq_skeleton]; unfold cc4_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-! ## The proof data -/

/-- The arrays as the region finds them; after the body at point `t` each input's buffer at its block and the
    outputs' at `out4_3` and `out4_4` of the input blocks; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) := by dsimp only [dat4]
theorem after4_4 (c : Dev nD) (t : Fin cfg4.N) :
    (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KernelR5.lean ====
/-
  The fifth adjacency sweep: one grid point multiplies a 512 × 4096 block of the adjacency with the 4096 × 256
  operand holding the graph code and the latent code side by side, and from the two products leaves four blocks:
  the rectified projection of their sum, the sum itself, its soft assignment to the cluster centres, and the
  next sweep's operand.  What the body leaves in its staging buffers, as proof data for the pipeline, and the
  body's obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every point, fetched there or not (windows 0 to 5). -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The whole rectangles the body loads and stores through, one per shape. -/
abbrev r5_a : Rect S512x4096 := Rect.unit (s := S512x4096) ![0, 0] S512x4096.size inb_S512x4096_S512x4096_0_0
abbrev r5_u : Rect S4096x256 := Rect.unit (s := S4096x256) ![0, 0] S4096x256.size inb_S4096x256_S4096x256_0_0
abbrev r5_g5 : Rect S10x10 := Rect.unit (s := S10x10) ![0, 0] S10x10.size inb_S10x10_S10x10_0_0
abbrev r5_g6 : Rect S10x2000 := Rect.unit (s := S10x2000) ![0, 0] S10x2000.size inb_S10x2000_S10x2000_0_0
abbrev r5_g7 : Rect S2000x500 := Rect.unit (s := S2000x500) ![0, 0] S2000x500.size inb_S2000x500_S2000x500_0_0
abbrev r5_o10 : Rect S512x10 := Rect.unit (s := S512x10) ![0, 0] S512x10.size inb_S512x10_S512x10_0_0
abbrev r5_o500 : Rect S512x500 := Rect.unit (s := S512x500) ![0, 0] S512x500.size inb_S512x500_S512x500_0_0

section Outs
variable (x0 : Vec F S512x4096 .bf16) (x1 : Vec F S4096x256 .bf16) (x2 : Vec F S10x10 .bf16) (x3 : Vec F S10x2000 .bf16)
  (x4 : Vec F S2000x500 .bf16) (x5 : Vec F S10x10 .f32)

/-- The rectified projection of the summed products: window 6's one store. -/
def out5_6 : Vec F S512x10 .f32 :=
  View.canon [⟨r5_o10, k5_pay8 (View.ld x0 r5_a) (View.ld x1 r5_u) (View.ld x2 r5_g5)⟩]

/-- The summed products: window 7's one store. -/
def out5_7 : Vec F S512x10 .f32 :=
  View.canon [⟨r5_o10, k5_pay7 (View.ld x0 r5_a) (View.ld x1 r5_u)⟩]

/-- The soft assignment of the sum: window 8's one store. -/
def out5_8 : Vec F S512x10 .f32 :=
  View.canon [⟨r5_o10, k5_pay1 (k5_pay9 (View.ld x0 r5_a) (View.ld x1 r5_u) (View.ld x5 r5_g5))⟩]

/-- The next sweep's operand: window 9's one store. -/
def out5_9 : Vec F S512x500 .bf16 :=
  View.canon [⟨r5_o500, k5_pay2 (k5_pay4 (View.ld x3 r5_g6)) (k5_pay5 (View.ld x4 r5_g7)) (k5_pay6 (View.ld x0 r5_a) (View.ld x1 r5_u))⟩]

end Outs

/-- Each output's one store covers its block. -/
theorem cover5_o10 (p0 : Vec F S512x10 .f32) (y : S512x10.Idx) :
    ∃ pc ∈ ([⟨r5_o10, p0⟩] : List (View.Piece (Elt F) S512x10 .f32)), y ∈ pc.1.set :=
  View.cover_of_tiled [⟨r5_o10, p0⟩] S512x10.size (by rfl) y
theorem cover5_o500 (p0 : Vec F S512x500 .bf16) (y : S512x500.Idx) :
    ∃ pc ∈ ([⟨r5_o500, p0⟩] : List (View.Piece (Elt F) S512x500 .bf16)), y ∈ pc.1.set :=
  View.cover_of_tiled [⟨r5_o500, p0⟩] S512x500.size (by rfl) y

set_option maxHeartbeats 2000000 in
/-- The body on whole staging buffers: the six inputs are left as read, each of the four outputs holds its
    `out5_w` of the inputs. -/
theorem sound_kernel5 (c : Dev nD) (E : Set ℕ) (i : grid5.Coords)
    (arg1 : Memref sig .tc .vmem S512x4096 .bf16) (harg1 : arg1.IsWhole) (arg2 : Memref sig .tc .vmem S4096x256 .bf16) (harg2 : arg2.IsWhole)
    (arg3 : Memref sig .tc .vmem S10x10 .bf16) (harg3 : arg3.IsWhole) (arg4 : Memref sig .tc .vmem S10x2000 .bf16) (harg4 : arg4.IsWhole)
    (arg5 : Memref sig .tc .vmem S2000x500 .bf16) (harg5 : arg5.IsWhole) (arg6 : Memref sig .tc .vmem S10x10 .f32) (harg6 : arg6.IsWhole)
    (arg7 : Memref sig .tc .vmem S512x10 .f32) (harg7 : arg7.IsWhole) (arg8 : Memref sig .tc .vmem S512x10 .f32) (harg8 : arg8.IsWhole)
    (arg9 : Memref sig .tc .vmem S512x10 .f32) (harg9 : arg9.IsWhole) (arg10 : Memref sig .tc .vmem S512x500 .bf16) (harg10 : arg10.IsWhole)
    (x0 : Vec F S512x4096 .bf16) (x1 : Vec F S4096x256 .bf16) (x2 : Vec F S10x10 .bf16) (x3 : Vec F S10x2000 .bf16)
    (x4 : Vec F S2000x500 .bf16) (x5 : Vec F S10x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out5_6 x0 x1 x2) ∗ owns (c : Thread nD τ) arg8 fullShare (out5_7 x0 x1)
            ∗ owns (c : Thread nD τ) arg9 fullShare (out5_8 x0 x1 x5) ∗ owns (c : Thread nD τ) arg10 fullShare (out5_9 x0 x1 x3 x4)) -∗ K ⟨⟩))
      ⊢ wp frame (wpE (defs₀ (F := F)) Variants.none c none) E
          (cc5_body i arg1 harg1 arg2 harg2 arg3 harg3 arg4 harg4 arg5 harg5 arg6 harg6 arg7 harg7 arg8 harg8 arg9 harg9 arg10 harg10) K := by
  simp only [cc5_body_eq_skeleton]; unfold cc5_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (cover5_o10 _)
  isplitl [H7]
  · iexists _; isplitr
    swap; · iexact H7
    ipureintro
    exact View.read_writes_eq_canon _ _ _ (cover5_o10 _)
  isplitl [H8]
  · iexists _; isplitr
    swap; · iexact H8
    ipureintro
    exact View.read_writes_eq_canon _ _ _ (cover5_o10 _)
  iexists _; isplitr
  swap; · iexact H9
  ipureintro
  exact View.read_writes_eq_canon _ _ _ (cover5_o500 _)

/-! ## The proof data -/

/-- The arrays as the region finds them; after the body at point `t` each input's buffer at its block and each
    output's at its `out5_w` of the input blocks; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t)
    | ⟨7, _⟩ => out5_7 (iblk5 V c 0 t) (iblk5 V c 1 t)
    | ⟨8, _⟩ => out5_8 (iblk5 V c 0 t) (iblk5 V c 1 t) (iblk5 V c 5 t)
    | ⟨9, _⟩ => out5_9 (iblk5 V c 0 t) (iblk5 V c 1 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = out5_6 (iblk5 V c 0 t) (iblk5 V c 1 t) (iblk5 V c 2 t) := by dsimp only [dat5]
theorem after5_7 (c : Dev nD) (t : Fin cfg5.N) :
    (dat5 V c).after 7 t = out5_7 (iblk5 V c 0 t) (iblk5 V c 1 t) := by dsimp only [dat5]
theorem after5_8 (c : Dev nD) (t : Fin cfg5.N) :
    (dat5 V c).after 8 t = out5_8 (iblk5 V c 0 t) (iblk5 V c 1 t) (iblk5 V c 5 t) := by dsimp only [dat5]
theorem after5_9 (c : Dev nD) (t : Fin cfg5.N) :
    (dat5 V c).after 9 t = out5_9 (iblk5 V c 0 t) (iblk5 V c 1 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KernelR6.lean ====
/-
  The sweep that follows an adjacency product by a 500 × 500 layer, as one pipelined region: what a
  grid point's body leaves in its staging buffers, as proof data for the pipeline, and the body's
  obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep with a 500 × 500 layer: one grid point computes a block of 512 rows of
    `max (adj · u) 0 · w`, from a 512 × 4096 block of the adjacency, the whole 4096 × 500 operand and the
    whole 500 × 500 weight. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: unfetched, the block
    index has not moved. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole rectangles the body loads and stores through. -/
abbrev r6_a : Rect S512x4096 := Rect.unit (s := S512x4096) ![0, 0] S512x4096.size inb_S512x4096_S512x4096_0_0
abbrev r6_u : Rect S4096x500 := Rect.unit (s := S4096x500) ![0, 0] S4096x500.size inb_S4096x500_S4096x500_0_0
abbrev r6_w : Rect S500x500 := Rect.unit (s := S500x500) ![0, 0] S500x500.size inb_S500x500_S500x500_0_0
abbrev r6_o : Rect S512x500 := Rect.unit (s := S512x500) ![0, 0] S512x500.size inb_S512x500_S512x500_0_0

/-- The output block after the body, from the three input blocks: its one store, of the whole block. -/
def out6_3 (x0 : Vec F S512x4096 .bf16) (x1 : Vec F S4096x500 .bf16) (x2 : Vec F S500x500 .bf16) : Vec F S512x500 .bf16 :=
  View.canon [⟨r6_o, k6_pay1 (View.ld x0 r6_a) (View.ld x1 r6_u) (View.ld x2 r6_w)⟩]

/-- The one store covers the block. -/
theorem cover6_3 (p0 : Vec F S512x500 .bf16) (y : S512x500.Idx) :
    ∃ pc ∈ ([⟨r6_o, p0⟩] : List (View.Piece (Elt F) S512x500 .bf16)), y ∈ pc.1.set :=
  View.cover_of_tiled [⟨r6_o, p0⟩] S512x500.size (by rfl) y

set_option maxHeartbeats 1000000 in
/-- The body on whole staging buffers: the inputs are left as read, the output holds `out6_3` of the inputs. -/
theorem sound_kernel6 (c : Dev nD) (E : Set ℕ) (i : grid6.Coords)
    (arg1 : Memref sig .tc .vmem S512x4096 .bf16) (harg1 : arg1.IsWhole) (arg2 : Memref sig .tc .vmem S4096x500 .bf16) (harg2 : arg2.IsWhole)
    (arg3 : Memref sig .tc .vmem S500x500 .bf16) (harg3 : arg3.IsWhole) (arg4 : Memref sig .tc .vmem S512x500 .bf16) (harg4 : arg4.IsWhole)
    (x0 : Vec F S512x4096 .bf16) (x1 : Vec F S4096x500 .bf16) (x2 : Vec F S500x500 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6_body i arg1 harg1 arg2 harg2 arg3 harg3 arg4 harg4) K := by
  simp only [cc6_body_eq_skeleton]; unfold cc6_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The proof data -/

/-- The arrays as the region finds them; after the body at point `t` each input's buffer at its block and the
    output's at `out6_3` of the input blocks; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KernelR7.lean ====
/-
  The sweep that follows an adjacency product by a 500 × 512 layer, as one pipelined region: what a
  grid point's body leaves in its staging buffers, as proof data for the pipeline, and the body's
  obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep with a 500 × 512 layer: one grid point computes a block of 512 rows of
    `max (adj · u) 0 · w`, from a 512 × 4096 block of the adjacency, the whole 4096 × 500 operand and the
    whole 500 × 512 weight. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not: unfetched, the block
    index has not moved. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole rectangles the body loads and stores through. -/
abbrev r7_a : Rect S512x4096 := Rect.unit (s := S512x4096) ![0, 0] S512x4096.size inb_S512x4096_S512x4096_0_0
abbrev r7_u : Rect S4096x500 := Rect.unit (s := S4096x500) ![0, 0] S4096x500.size inb_S4096x500_S4096x500_0_0
abbrev r7_w : Rect S500x512 := Rect.unit (s := S500x512) ![0, 0] S500x512.size inb_S500x512_S500x512_0_0
abbrev r7_o : Rect S512x512 := Rect.unit (s := S512x512) ![0, 0] S512x512.size inb_S512x512_S512x512_0_0

/-- The output block after the body, from the three input blocks: its one store, of the whole block. -/
def out7_3 (x0 : Vec F S512x4096 .bf16) (x1 : Vec F S4096x500 .bf16) (x2 : Vec F S500x512 .bf16) : Vec F S512x512 .bf16 :=
  View.canon [⟨r7_o, k7_pay1 (View.ld x0 r7_a) (View.ld x1 r7_u) (View.ld x2 r7_w)⟩]

/-- The one store covers the block. -/
theorem cover7_3 (p0 : Vec F S512x512 .bf16) (y : S512x512.Idx) :
    ∃ pc ∈ ([⟨r7_o, p0⟩] : List (View.Piece (Elt F) S512x512 .bf16)), y ∈ pc.1.set :=
  View.cover_of_tiled [⟨r7_o, p0⟩] S512x512.size (by rfl) y

set_option maxHeartbeats 1000000 in
/-- The body on whole staging buffers: the inputs are left as read, the output holds `out7_3` of the inputs. -/
theorem sound_kernel7 (c : Dev nD) (E : Set ℕ) (i : grid7.Coords)
    (arg1 : Memref sig .tc .vmem S512x4096 .bf16) (harg1 : arg1.IsWhole) (arg2 : Memref sig .tc .vmem S4096x500 .bf16) (harg2 : arg2.IsWhole)
    (arg3 : Memref sig .tc .vmem S500x512 .bf16) (harg3 : arg3.IsWhole) (arg4 : Memref sig .tc .vmem S512x512 .bf16) (harg4 : arg4.IsWhole)
    (x0 : Vec F S512x4096 .bf16) (x1 : Vec F S4096x500 .bf16) (x2 : Vec F S500x512 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_body i arg1 harg1 arg2 harg2 arg3 harg3 arg4 harg4) K := by
  simp only [cc7_body_eq_skeleton]; unfold cc7_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The proof data -/

/-- The arrays as the region finds them; after the body at point `t` each input's buffer at its block and the
    output's at `out7_3` of the input blocks; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KernelR8.lean ====
/-
  The adjacency sweep that keeps its rectified product twice, as one pipelined region: what a grid
  point's body leaves in its staging buffers, as proof data for the pipeline, and the body's obligation
  at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep with two outputs: one grid point computes a block of 512 rows of `max (adj · u) 0`,
    from a 512 × 4096 block of the adjacency and the whole 4096 × 512 operand, and stores it once in single
    precision and once rounded to bf16. -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not: unfetched, the block
    index has not moved. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole rectangles the body loads and stores through. -/
abbrev r8_a : Rect S512x4096 := Rect.unit (s := S512x4096) ![0, 0] S512x4096.size inb_S512x4096_S512x4096_0_0
abbrev r8_u : Rect S4096x512 := Rect.unit (s := S4096x512) ![0, 0] S4096x512.size inb_S4096x512_S4096x512_0_0
abbrev r8_o : Rect S512x512 := Rect.unit (s := S512x512) ![0, 0] S512x512.size inb_S512x512_S512x512_0_0

/-- The single-precision output block after the body, from the two input blocks: its one store, of the whole
    block. -/
def out8_2 (x0 : Vec F S512x4096 .bf16) (x1 : Vec F S4096x512 .bf16) : Vec F S512x512 .f32 :=
  View.canon [⟨r8_o, k8_pay1 (View.ld x0 r8_a) (View.ld x1 r8_u)⟩]

/-- The bf16 output block after the body, from the two input blocks: its one store, of the whole block. -/
def out8_3 (x0 : Vec F S512x4096 .bf16) (x1 : Vec F S4096x512 .bf16) : Vec F S512x512 .bf16 :=
  View.canon [⟨r8_o, k8_pay2 (View.ld x0 r8_a) (View.ld x1 r8_u)⟩]

/-- The one store covers the single-precision block. -/
theorem cover8_2 (p0 : Vec F S512x512 .f32) (y : S512x512.Idx) :
    ∃ pc ∈ ([⟨r8_o, p0⟩] : List (View.Piece (Elt F) S512x512 .f32)), y ∈ pc.1.set :=
  View.cover_of_tiled [⟨r8_o, p0⟩] S512x512.size (by rfl) y

/-- The one store covers the bf16 block. -/
theorem cover8_3 (p0 : Vec F S512x512 .bf16) (y : S512x512.Idx) :
    ∃ pc ∈ ([⟨r8_o, p0⟩] : List (View.Piece (Elt F) S512x512 .bf16)), y ∈ pc.1.set :=
  View.cover_of_tiled [⟨r8_o, p0⟩] S512x512.size (by rfl) y

set_option maxHeartbeats 1000000 in
/-- The body on whole staging buffers: the inputs are left as read, the outputs hold `out8_2` and `out8_3` of
    the inputs. -/
theorem sound_kernel8 (c : Dev nD) (E : Set ℕ) (i : grid8.Coords)
    (arg1 : Memref sig .tc .vmem S512x4096 .bf16) (harg1 : arg1.IsWhole) (arg2 : Memref sig .tc .vmem S4096x512 .bf16) (harg2 : arg2.IsWhole)
    (arg3 : Memref sig .tc .vmem S512x512 .f32) (harg3 : arg3.IsWhole) (arg4 : Memref sig .tc .vmem S512x512 .bf16) (harg4 : arg4.IsWhole)
    (x0 : Vec F S512x4096 .bf16) (x1 : Vec F S4096x512 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out8_2 x0 x1) ∗ owns (c : Thread nD τ) arg4 fullShare (out8_3 x0 x1)) -∗ K ⟨⟩))
      ⊢ wp frame (wpE (defs₀ (F := F)) Variants.none c none) E (cc8_body i arg1 harg1 arg2 harg2 arg3 harg3 arg4 harg4) K := by
  simp only [cc8_body_eq_skeleton]; unfold cc8_body_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover8_2 _)
  iexists _; isplitr
  swap; · iexact H3
  ipureintro
  exact View.read_writes_eq_canon _ _ _ (cover8_3 _)

/-! ## The proof data -/

/-- The arrays as the region finds them; after the body at point `t` each input's buffer at its block and the
    outputs' at `out8_2` and `out8_3` of the input blocks; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
    | ⟨3, _⟩ => out8_3 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = out8_2 (iblk8 V c 0 t) (iblk8 V c 1 t) := by dsimp only [dat8]
theorem after8_3 (c : Dev nD) (t : Fin cfg8.N) :
    (dat8 V c).after 3 t = out8_3 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KernelR9.lean ====
/-
  The Gram-matrix region: one grid point computes a block of 1024 rows of
  `½ (1 + tanh (½ · (Z Zᵀ)))` from a 1024 × 512 row block of `Z` and the whole of `Z` — two windows
  onto ONE array, which they hold at complementary half shares.  What the body leaves in its staging buffers,
  as proof data for the pipeline, and the body's obligation at every point.
-/
import proofs.«140843_g75050258530825_cont_9to1_m_403_24_alg».proof.Proof.Gen.Kernel.Launch
import proofs.«140843_g75050258530825_cont_9to1_m_403_24_alg».proof.Proof.Gen.Kernel.Skeleton
import proofs.«140843_g75050258530825_cont_9to1_m_403_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not: unfetched, the block
    index has not moved. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The whole rectangles the body loads and stores through. -/
abbrev r9_z : Rect S1024x512 := Rect.unit (s := S1024x512) ![0, 0] S1024x512.size inb_S1024x512_S1024x512_0_0
abbrev r9_w : Rect S4096x512 := Rect.unit (s := S4096x512) ![0, 0] S4096x512.size inb_S4096x512_S4096x512_0_0
abbrev r9_o : Rect S1024x4096 := Rect.unit (s := S1024x4096) ![0, 0] S1024x4096.size inb_S1024x4096_S1024x4096_0_0

/-- The output block after the body, from the two input blocks: its one store, of the whole block. -/
def out9_2 (x0 : Vec F S1024x512 .bf16) (x1 : Vec F S4096x512 .bf16) : Vec F S1024x4096 .f32 :=
  View.canon [⟨r9_o, k9_pay1 (View.ld x0 r9_z) (View.ld x1 r9_w)⟩]

/-- The one store covers the block. -/
theorem cover9_2 (p0 : Vec F S1024x4096 .f32) (y : S1024x4096.Idx) :
    ∃ pc ∈ ([⟨r9_o, p0⟩] : List (View.Piece (Elt F) S1024x4096 .f32)), y ∈ pc.1.set :=
  View.cover_of_tiled [⟨r9_o, p0⟩] S1024x4096.size (by rfl) y

set_option maxHeartbeats 1000000 in
/-- The body on whole staging buffers: the inputs are left as read, the output holds `out9_2` of the inputs. -/
theorem sound_kernel9 (c : Dev nD) (E : Set ℕ) (i : grid9.Coords)
    (arg1 : Memref sig .tc .vmem S1024x512 .bf16) (harg1 : arg1.IsWhole) (arg2 : Memref sig .tc .vmem S4096x512 .bf16) (harg2 : arg2.IsWhole)
    (arg3 : Memref sig .tc .vmem S1024x4096 .f32) (harg3 : arg3.IsWhole)
    (x0 : Vec F S1024x512 .bf16) (x1 : Vec F S4096x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__nt_body i arg1 harg1 arg2 harg2 arg3 harg3) K := by
  simp only [cc9__nt_body_eq_skeleton]; unfold cc9__nt_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The proof data -/

/-- The arrays as the region finds them; after the body at point `t` each input's buffer at its block and the
    output's at `out9_2` of the input blocks; nothing owed.  The two input windows read one array: each holds it at
    one half of the full share; the output's array is held whole. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q w := match w with
    | ⟨0, _⟩ => fullShare.left
    | ⟨1, _⟩ => fullShare.right
    | ⟨2, _⟩ => fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation at a generic point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KernelRun.lean ====
/-
  The run of the whole kernel program: ten pipelined regions among six stretches of host operations.
  The contents of every unscoped buffer at each of the sixteen boundaries between items are named by a fold from
  the launch memory — a host stretch applies its operations, a region replaces its windows' arrays by what its
  write-backs leave — and each region is entered from one boundary's contents and left at the next.
-/
import proofs.«140843_g75050258530825_cont_9to1_m_403_24_alg».proof.Proof.KernelR0
import proofs.«140843_g75050258530825_cont_9to1_m_403_24_alg».proof.Proof.KernelR1
import proofs.«140843_g75050258530825_cont_9to1_m_403_24_alg».proof.Proof.KernelR2
import proofs.«140843_g75050258530825_cont_9to1_m_403_24_alg».proof.Proof.KernelR3
import proofs.«140843_g75050258530825_cont_9to1_m_403_24_alg».proof.Proof.KernelR4
import proofs.«140843_g75050258530825_cont_9to1_m_403_24_alg».proof.Proof.KernelR5
import proofs.«140843_g75050258530825_cont_9to1_m_403_24_alg».proof.Proof.KernelR6
import proofs.«140843_g75050258530825_cont_9to1_m_403_24_alg».proof.Proof.KernelR7
import proofs.«140843_g75050258530825_cont_9to1_m_403_24_alg».proof.Proof.KernelR8
import proofs.«140843_g75050258530825_cont_9to1_m_403_24_alg».proof.Proof.KernelR9
import proofs.«140843_g75050258530825_cont_9to1_m_403_24_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents at each boundary -/

/-- A valuation read at the TensorCore's references. -/
abbrev atRefs (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m ((c : Dev nD), b)
/-- After the first host stretch (the narrowed weights, the biases as rows, the transposed centres). -/
def W1 (c : Dev nD) : Valuation τ sig (Elt F) := StableHlo.after hostOps0 (W0 m c)
/-- After the autoencoder region. -/
def W2 (c : Dev nD) : Valuation τ sig (Elt F) :=
  Pipeline.withArrays spec0 c (W1 m c) fun w => (dat0 (atRefs (W1 m)) c).arrAt w cfg0.N
def W3 (c : Dev nD) : Valuation τ sig (Elt F) := StableHlo.after hostOps1 (W2 m c)
/-- After the first sweep. -/
def W4 (c : Dev nD) : Valuation τ sig (Elt F) :=
  Pipeline.withArrays spec1 c (W3 m c) fun w => (dat1 (atRefs (W3 m)) c).arrAt w cfg1.N
/-- After the second sweep. -/
def W5 (c : Dev nD) : Valuation τ sig (Elt F) :=
  Pipeline.withArrays spec2 c (W4 m c) fun w => (dat2 (atRefs (W4 m)) c).arrAt w cfg2.N
def W6 (c : Dev nD) : Valuation τ sig (Elt F) := StableHlo.after hostOps3 (W5 m c)
/-- After the third sweep. -/
def W7 (c : Dev nD) : Valuation τ sig (Elt F) :=
  Pipeline.withArrays spec3 c (W6 m c) fun w => (dat3 (atRefs (W6 m)) c).arrAt w cfg3.N
/-- After the fourth sweep. -/
def W8 (c : Dev nD) : Valuation τ sig (Elt F) :=
  Pipeline.withArrays spec4 c (W7 m c) fun w => (dat4 (atRefs (W7 m)) c).arrAt w cfg4.N
def W9 (c : Dev nD) : Valuation τ sig (Elt F) := StableHlo.after hostOps5 (W8 m c)
/-- After the fifth sweep. -/
def W10 (c : Dev nD) : Valuation τ sig (Elt F) :=
  Pipeline.withArrays spec5 c (W9 m c) fun w => (dat5 (atRefs (W9 m)) c).arrAt w cfg5.N
def W11 (c : Dev nD) : Valuation τ sig (Elt F) := StableHlo.after hostOps6 (W10 m c)
/-- After the sixth sweep. -/
def W12 (c : Dev nD) : Valuation τ sig (Elt F) :=
  Pipeline.withArrays spec6 c (W11 m c) fun w => (dat6 (atRefs (W11 m)) c).arrAt w cfg6.N
def W13 (c : Dev nD) : Valuation τ sig (Elt F) := StableHlo.after hostOps7 (W12 m c)
/-- After the seventh sweep. -/
def W14 (c : Dev nD) : Valuation τ sig (Elt F) :=
  Pipeline.withArrays spec7 c (W13 m c) fun w => (dat7 (atRefs (W13 m)) c).arrAt w cfg7.N
/-- After the eighth sweep. -/
def W15 (c : Dev nD) : Valuation τ sig (Elt F) :=
  Pipeline.withArrays spec8 c (W14 m c) fun w => (dat8 (atRefs (W14 m)) c).arrAt w cfg8.N
/-- After the Gram-matrix region: its two input windows read one array, which it leaves as found; only its
    output array changes. -/
def W16 (c : Dev nD) : Valuation τ sig (Elt F) :=
  Function.update (W15 m c) (Proc.devRef .tc main_v37) ((dat9 (atRefs (W15 m)) c).arrAt 2 cfg9.N)

/-! ## A region's arrays after it, and every other buffer as before it -/

theorem W2_arr (c : Dev nD) (w : Fin cfg0.W) :
    W2 m c (Proc.devRef .tc (Pipeline.arrRef spec0 w)) = (dat0 (atRefs (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A buffer that is no output array of the region is left as found: an input window's array is never written. -/
theorem W2_keep (c : Dev nD) (b : Ref sig .tc)
    (hb : b ∉ ([main_v18_0, main_v18_1, main_v18_2, main_v18_3, main_v18_4] : List (Ref sig .tc))) :
    W2 m c (Proc.devRef .tc b) = W1 m c (Proc.devRef .tc b) := by
  by_cases h : ∃ w, Pipeline.arrRef spec0 w = b
  · obtain ⟨w, rfl⟩ := h
    have hin : (cfg0.win w).isOut = false :=
      (by decide : ∀ w : Fin cfg0.W, Pipeline.arrRef spec0 w ∉ ([main_v18_0, main_v18_1, main_v18_2, main_v18_3, main_v18_4] : List (Ref sig .tc)) →
        (cfg0.win w).isOut = false) w hb
    exact (W2_arr m c w).trans (((dat0 (atRefs (W1 m)) c).arrAt_in w hin _).trans (A_eq0 (atRefs (W1 m)) c w))
  · exact W2_of_ne m c b fun w e => h ⟨w, e⟩

theorem W4_arr (c : Dev nD) (w : Fin cfg1.W) :
    W4 m c (Proc.devRef .tc (Pipeline.arrRef spec1 w)) = (dat1 (atRefs (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_keep (c : Dev nD) (b : Ref sig .tc) (hb : b ∉ ([main_v22_0, main_v22_1, main_v22_2] : List (Ref sig .tc))) :
    W4 m c (Proc.devRef .tc b) = W3 m c (Proc.devRef .tc b) := by
  by_cases h : ∃ w, Pipeline.arrRef spec1 w = b
  · obtain ⟨w, rfl⟩ := h
    have hin : (cfg1.win w).isOut = false :=
      (by decide : ∀ w : Fin cfg1.W, Pipeline.arrRef spec1 w ∉ ([main_v22_0, main_v22_1, main_v22_2] : List (Ref sig .tc)) →
        (cfg1.win w).isOut = false) w hb
    exact (W4_arr m c w).trans (((dat1 (atRefs (W3 m)) c).arrAt_in w hin _).trans (A_eq1 (atRefs (W3 m)) c w))
  · exact W4_of_ne m c b fun w e => h ⟨w, e⟩

theorem W5_arr (c : Dev nD) (w : Fin cfg2.W) :
    W5 m c (Proc.devRef .tc (Pipeline.arrRef spec2 w)) = (dat2 (atRefs (W4 m)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W5_keep (c : Dev nD) (b : Ref sig .tc) (hb : b ∉ ([main_v23] : List (Ref sig .tc))) :
    W5 m c (Proc.devRef .tc b) = W4 m c (Proc.devRef .tc b) := by
  by_cases h : ∃ w, Pipeline.arrRef spec2 w = b
  · obtain ⟨w, rfl⟩ := h
    have hin : (cfg2.win w).isOut = false :=
      (by decide : ∀ w : Fin cfg2.W, Pipeline.arrRef spec2 w ∉ ([main_v23] : List (Ref sig .tc)) → (cfg2.win w).isOut = false) w hb
    exact (W5_arr m c w).trans (((dat2 (atRefs (W4 m)) c).arrAt_in w hin _).trans (A_eq2 (atRefs (W4 m)) c w))
  · exact W5_of_ne m c b fun w e => h ⟨w, e⟩

theorem W7_arr (c : Dev nD) (w : Fin cfg3.W) :
    W7 m c (Proc.devRef .tc (Pipeline.arrRef spec3 w)) = (dat3 (atRefs (W6 m)) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
theorem W7_keep (c : Dev nD) (b : Ref sig .tc) (hb : b ∉ ([main_v26] : List (Ref sig .tc))) :
    W7 m c (Proc.devRef .tc b) = W6 m c (Proc.devRef .tc b) := by
  by_cases h : ∃ w, Pipeline.arrRef spec3 w = b
  · obtain ⟨w, rfl⟩ := h
    have hin : (cfg3.win w).isOut = false :=
      (by decide : ∀ w : Fin cfg3.W, Pipeline.arrRef spec3 w ∉ ([main_v26] : List (Ref sig .tc)) → (cfg3.win w).isOut = false) w hb
    exact (W7_arr m c w).trans (((dat3 (atRefs (W6 m)) c).arrAt_in w hin _).trans (A_eq3 (atRefs (W6 m)) c w))
  · exact W7_of_ne m c b fun w e => h ⟨w, e⟩

theorem W8_arr (c : Dev nD) (w : Fin cfg4.W) :
    W8 m c (Proc.devRef .tc (Pipeline.arrRef spec4 w)) = (dat4 (atRefs (W7 m)) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
theorem W8_keep (c : Dev nD) (b : Ref sig .tc) (hb : b ∉ ([main_v27_0, main_v27_1] : List (Ref sig .tc))) :
    W8 m c (Proc.devRef .tc b) = W7 m c (Proc.devRef .tc b) := by
  by_cases h : ∃ w, Pipeline.arrRef spec4 w = b
  · obtain ⟨w, rfl⟩ := h
    have hin : (cfg4.win w).isOut = false :=
      (by decide : ∀ w : Fin cfg4.W, Pipeline.arrRef spec4 w ∉ ([main_v27_0, main_v27_1] : List (Ref sig .tc)) → (cfg4.win w).isOut = false) w hb
    exact (W8_arr m c w).trans (((dat4 (atRefs (W7 m)) c).arrAt_in w hin _).trans (A_eq4 (atRefs (W7 m)) c w))
  · exact W8_of_ne m c b fun w e => h ⟨w, e⟩

theorem W10_arr (c : Dev nD) (w : Fin cfg5.W) :
    W10 m c (Proc.devRef .tc (Pipeline.arrRef spec5 w)) = (dat5 (atRefs (W9 m)) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
theorem W10_keep (c : Dev nD) (b : Ref sig .tc) (hb : b ∉ ([main_v31_0, main_v31_1, main_v31_2, main_v31_3] : List (Ref sig .tc))) :
    W10 m c (Proc.devRef .tc b) = W9 m c (Proc.devRef .tc b) := by
  by_cases h : ∃ w, Pipeline.arrRef spec5 w = b
  · obtain ⟨w, rfl⟩ := h
    have hin : (cfg5.win w).isOut = false :=
      (by decide : ∀ w : Fin cfg5.W, Pipeline.arrRef spec5 w ∉ ([main_v31_0, main_v31_1, main_v31_2, main_v31_3] : List (Ref sig .tc)) →
        (cfg5.win w).isOut = false) w hb
    exact (W10_arr m c w).trans (((dat5 (atRefs (W9 m)) c).arrAt_in w hin _).trans (A_eq5 (atRefs (W9 m)) c w))
  · exact W10_of_ne m c b fun w e => h ⟨w, e⟩

theorem W12_arr (c : Dev nD) (w : Fin cfg6.W) :
    W12 m c (Proc.devRef .tc (Pipeline.arrRef spec6 w)) = (dat6 (atRefs (W11 m)) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
theorem W12_keep (c : Dev nD) (b : Ref sig .tc) (hb : b ∉ ([main_v33] : List (Ref sig .tc))) :
    W12 m c (Proc.devRef .tc b) = W11 m c (Proc.devRef .tc b) := by
  by_cases h : ∃ w, Pipeline.arrRef spec6 w = b
  · obtain ⟨w, rfl⟩ := h
    have hin : (cfg6.win w).isOut = false :=
      (by decide : ∀ w : Fin cfg6.W, Pipeline.arrRef spec6 w ∉ ([main_v33] : List (Ref sig .tc)) → (cfg6.win w).isOut = false) w hb
    exact (W12_arr m c w).trans (((dat6 (atRefs (W11 m)) c).arrAt_in w hin _).trans (A_eq6 (atRefs (W11 m)) c w))
  · exact W12_of_ne m c b fun w e => h ⟨w, e⟩

theorem W14_arr (c : Dev nD) (w : Fin cfg7.W) :
    W14 m c (Proc.devRef .tc (Pipeline.arrRef spec7 w)) = (dat7 (atRefs (W13 m)) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m c (Proc.devRef .tc b) = W13 m c (Proc.devRef .tc b) := by
  unfold W14; exact Pipeline.withArrays_of_ne spec7 c _ _ b hb
theorem W14_keep (c : Dev nD) (b : Ref sig .tc) (hb : b ∉ ([main_v35] : List (Ref sig .tc))) :
    W14 m c (Proc.devRef .tc b) = W13 m c (Proc.devRef .tc b) := by
  by_cases h : ∃ w, Pipeline.arrRef spec7 w = b
  · obtain ⟨w, rfl⟩ := h
    have hin : (cfg7.win w).isOut = false :=
      (by decide : ∀ w : Fin cfg7.W, Pipeline.arrRef spec7 w ∉ ([main_v35] : List (Ref sig .tc)) → (cfg7.win w).isOut = false) w hb
    exact (W14_arr m c w).trans (((dat7 (atRefs (W13 m)) c).arrAt_in w hin _).trans (A_eq7 (atRefs (W13 m)) c w))
  · exact W14_of_ne m c b fun w e => h ⟨w, e⟩

theorem W15_arr (c : Dev nD) (w : Fin cfg8.W) :
    W15 m c (Proc.devRef .tc (Pipeline.arrRef spec8 w)) = (dat8 (atRefs (W14 m)) c).arrAt w cfg8.N := by
  unfold W15; exact Pipeline.withArrays_arr spec8 launch8.win.arr_inj c _ _ w
theorem W15_of_ne (c : Dev nD) (b : Ref sig .tc) (hb : ∀ w, Pipeline.arrRef spec8 w ≠ b) :
    W15 m c (Proc.devRef .tc b) = W14 m c (Proc.devRef .tc b) := by
  unfold W15; exact Pipeline.withArrays_of_ne spec8 c _ _ b hb
theorem W15_keep (c : Dev nD) (b : Ref sig .tc) (hb : b ∉ ([main_v36_0, main_v36_1] : List (Ref sig .tc))) :
    W15 m c (Proc.devRef .tc b) = W14 m c (Proc.devRef .tc b) := by
  by_cases h : ∃ w, Pipeline.arrRef spec8 w = b
  · obtain ⟨w, rfl⟩ := h
    have hin : (cfg8.win w).isOut = false :=
      (by decide : ∀ w : Fin cfg8.W, Pipeline.arrRef spec8 w ∉ ([main_v36_0, main_v36_1] : List (Ref sig .tc)) → (cfg8.win w).isOut = false) w hb
    exact (W15_arr m c w).trans (((dat8 (atRefs (W14 m)) c).arrAt_in w hin _).trans (A_eq8 (atRefs (W14 m)) c w))
  · exact W15_of_ne m c b fun w e => h ⟨w, e⟩

/-- The last region changes its output array only. -/
theorem W16_out (c : Dev nD) : W16 m c (Proc.devRef .tc main_v37) = (dat9 (atRefs (W15 m)) c).arrAt 2 cfg9.N := by
  unfold W16; exact Function.update_self _ _ _
theorem W16_keep (c : Dev nD) (b : Ref sig .tc) (hb : b ∉ ([main_v37] : List (Ref sig .tc))) :
    W16 m c (Proc.devRef .tc b) = W15 m c (Proc.devRef .tc b) := by
  unfold W16
  exact Function.update_of_ne (StableHlo.devRef_ne_of_ne (List.ne_of_not_mem_cons hb)) _ _

/-! A host stretch leaves every buffer it does not write as found. -/
theorem W1_keep (c : Dev nD) (b : Ref sig .tc) (hb : b ∉ hostOps0_W) : W1 m c (Proc.devRef .tc b) = W0 m c (Proc.devRef .tc b) :=
  StableHlo.after_of_writes_sub hostOps0 _ hostOps0_writes hb
theorem W3_keep (c : Dev nD) (b : Ref sig .tc) (hb : b ∉ hostOps1_W) : W3 m c (Proc.devRef .tc b) = W2 m c (Proc.devRef .tc b) :=
  StableHlo.after_of_writes_sub hostOps1 _ hostOps1_writes hb
theorem W6_keep (c : Dev nD) (b : Ref sig .tc) (hb : b ∉ hostOps3_W) : W6 m c (Proc.devRef .tc b) = W5 m c (Proc.devRef .tc b) :=
  StableHlo.after_of_writes_sub hostOps3 _ hostOps3_writes hb
theorem W9_keep (c : Dev nD) (b : Ref sig .tc) (hb : b ∉ hostOps5_W) : W9 m c (Proc.devRef .tc b) = W8 m c (Proc.devRef .tc b) :=
  StableHlo.after_of_writes_sub hostOps5 _ hostOps5_writes hb
theorem W11_keep (c : Dev nD) (b : Ref sig .tc) (hb : b ∉ hostOps6_W) : W11 m c (Proc.devRef .tc b) = W10 m c (Proc.devRef .tc b) :=
  StableHlo.after_of_writes_sub hostOps6 _ hostOps6_writes hb
theorem W13_keep (c : Dev nD) (b : Ref sig .tc) (hb : b ∉ hostOps7_W) : W13 m c (Proc.devRef .tc b) = W12 m c (Proc.devRef .tc b) :=
  StableHlo.after_of_writes_sub hostOps7 _ hostOps7_writes hb

/-! ## The proof data family and the thread state -/

/-- No pipeline has a prefetched table. -/
abbrev admH : (p : Fin 10) → (pcfgs (F := F) p).Adm := fun p => (cfgs p).toPCfg_adm

/-- Every pipeline's proof data, each at its region's entry contents. -/
def pdats : (p : Fin 10) → (c : Dev nD) → Dat τ (Elt F) Unit ℕ (Pipeline.UD sig nD τ) ℕ (Pipeline.pin (pcfgs (F := F)) admH p) c
  | ⟨0, _⟩ => fun c => dat0 (atRefs (W1 m)) c
  | ⟨1, _⟩ => fun c => dat1 (atRefs (W3 m)) c
  | ⟨2, _⟩ => fun c => dat2 (atRefs (W4 m)) c
  | ⟨3, _⟩ => fun c => dat3 (atRefs (W6 m)) c
  | ⟨4, _⟩ => fun c => dat4 (atRefs (W7 m)) c
  | ⟨5, _⟩ => fun c => dat5 (atRefs (W9 m)) c
  | ⟨6, _⟩ => fun c => dat6 (atRefs (W11 m)) c
  | ⟨7, _⟩ => fun c => dat7 (atRefs (W13 m)) c
  | ⟨8, _⟩ => fun c => dat8 (atRefs (W14 m)) c
  | ⟨9, _⟩ => fun c => dat9 (atRefs (W15 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

theorem hF0 (c : Dev nD) (w : Fin cfg0.W) : (dat0 (atRefs (W1 m)) c).arrAt w cfg0.N = atRefs (W2 m) c (Pipeline.arrRef spec0 w) :=
  (W2_arr m c w).symm
theorem hrest0 (c : Dev nD) : ∀ b, b ∉ Finset.univ.image (Pipeline.arrRef spec0) → atRefs (W2 m) c b = atRefs (W1 m) c b :=
  fun b hb => W2_of_ne m c b fun w e => hb (Finset.mem_image.mpr ⟨w, Finset.mem_univ _, e⟩)

set_option backward.isDefEq.respectTransparency.types false in
/-- The autoencoder region over the thread state: entered from every unscoped buffer at `W1`, left at `W2`. Its
    arrays are split out of the unscoped buffers at entry and put back at the exit contents; the generator register
    goes into the pipeline's invariant and comes back; nothing is owed. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (atRefs (W1 m) c)
  hentry c := by
    rw [Pipeline.ownSems0_none]
    have hsplit := Pipeline.arrays_of_unscopedBufs (p := 0) (pcfgs (F := F)) admH (pdats m) launch0.win launch0.arr_whole c
      ((pdats m 0 c).share_full fun _ => rfl) (atRefs (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m) ((pdats m 0 c).share_full fun _ => rfl)
      (atRefs (W1 m) c) (atRefs (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (dat1 (atRefs (W3 m)) c).arrAt w cfg1.N = atRefs (W4 m) c (Pipeline.arrRef spec1 w) :=
  (W4_arr m c w).symm
theorem hrest1 (c : Dev nD) : ∀ b, b ∉ Finset.univ.image (Pipeline.arrRef spec1) → atRefs (W4 m) c b = atRefs (W3 m) c b :=
  fun b hb => W4_of_ne m c b fun w e => hb (Finset.mem_image.mpr ⟨w, Finset.mem_univ _, e⟩)

set_option backward.isDefEq.respectTransparency.types false in
/-- The first sweep over the thread state: entered from `W3`, left at `W4`. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (atRefs (W3 m) c)
  hentry c := by
    rw [Pipeline.ownSems0_none]
    have hsplit := Pipeline.arrays_of_unscopedBufs (p := 1) (pcfgs (F := F)) admH (pdats m) launch1.win launch1.arr_whole c
      ((pdats m 1 c).share_full fun _ => rfl) (atRefs (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m) ((pdats m 1 c).share_full fun _ => rfl)
      (atRefs (W3 m) c) (atRefs (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (dat2 (atRefs (W4 m)) c).arrAt w cfg2.N = atRefs (W5 m) c (Pipeline.arrRef spec2 w) :=
  (W5_arr m c w).symm
theorem hrest2 (c : Dev nD) : ∀ b, b ∉ Finset.univ.image (Pipeline.arrRef spec2) → atRefs (W5 m) c b = atRefs (W4 m) c b :=
  fun b hb => W5_of_ne m c b fun w e => hb (Finset.mem_image.mpr ⟨w, Finset.mem_univ _, e⟩)

set_option backward.isDefEq.respectTransparency.types false in
/-- The second sweep over the thread state: entered from `W4`, left at `W5`. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (atRefs (W4 m) c)
  hentry c := by
    rw [Pipeline.ownSems0_none]
    have hsplit := Pipeline.arrays_of_unscopedBufs (p := 2) (pcfgs (F := F)) admH (pdats m) launch2.win launch2.arr_whole c
      ((pdats m 2 c).share_full fun _ => rfl) (atRefs (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := Pipeline.UD sig nD τ) (Lvl := ℕ)
      launch2.win launch2.arr_whole c (pdats m) ((pdats m 2 c).share_full fun _ => rfl)
      (atRefs (W4 m) c) (atRefs (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) (w : Fin cfg3.W) : (dat3 (atRefs (W6 m)) c).arrAt w cfg3.N = atRefs (W7 m) c (Pipeline.arrRef spec3 w) :=
  (W7_arr m c w).symm
theorem hrest3 (c : Dev nD) : ∀ b, b ∉ Finset.univ.image (Pipeline.arrRef spec3) → atRefs (W7 m) c b = atRefs (W6 m) c b :=
  fun b hb => W7_of_ne m c b fun w e => hb (Finset.mem_image.mpr ⟨w, Finset.mem_univ _, e⟩)

set_option backward.isDefEq.respectTransparency.types false in
/-- The third sweep over the thread state: entered from `W6`, left at `W7`. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (W6 m)) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (atRefs (W6 m) c)
  hentry c := by
    rw [Pipeline.ownSems0_none]
    have hsplit := Pipeline.arrays_of_unscopedBufs (p := 3) (pcfgs (F := F)) admH (pdats m) launch3.win launch3.arr_whole c
      ((pdats m 3 c).share_full fun _ => rfl) (atRefs (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := Pipeline.UD sig nD τ) (Lvl := ℕ)
      launch3.win launch3.arr_whole c (pdats m) ((pdats m 3 c).share_full fun _ => rfl)
      (atRefs (W6 m) c) (atRefs (W7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF4 (c : Dev nD) (w : Fin cfg4.W) : (dat4 (atRefs (W7 m)) c).arrAt w cfg4.N = atRefs (W8 m) c (Pipeline.arrRef spec4 w) :=
  (W8_arr m c w).symm
theorem hrest4 (c : Dev nD) : ∀ b, b ∉ Finset.univ.image (Pipeline.arrRef spec4) → atRefs (W8 m) c b = atRefs (W7 m) c b :=
  fun b hb => W8_of_ne m c b fun w e => hb (Finset.mem_image.mpr ⟨w, Finset.mem_univ _, e⟩)

set_option backward.isDefEq.respectTransparency.types false in
/-- The fourth sweep over the thread state: entered from `W7`, left at `W8`. -/
def reg4 : Pipeline.RegionSeg (pcfgs (F := F)) admH (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (W7 m)) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (atRefs (W7 m) c)
  hentry c := by
    rw [Pipeline.ownSems0_none]
    have hsplit := Pipeline.arrays_of_unscopedBufs (p := 4) (pcfgs (F := F)) admH (pdats m) launch4.win launch4.arr_whole c
      ((pdats m 4 c).share_full fun _ => rfl) (atRefs (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := Pipeline.UD sig nD τ) (Lvl := ℕ)
      launch4.win launch4.arr_whole c (pdats m) ((pdats m 4 c).share_full fun _ => rfl)
      (atRefs (W7 m) c) (atRefs (W8 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF5 (c : Dev nD) (w : Fin cfg5.W) : (dat5 (atRefs (W9 m)) c).arrAt w cfg5.N = atRefs (W10 m) c (Pipeline.arrRef spec5 w) :=
  (W10_arr m c w).symm
theorem hrest5 (c : Dev nD) : ∀ b, b ∉ Finset.univ.image (Pipeline.arrRef spec5) → atRefs (W10 m) c b = atRefs (W9 m) c b :=
  fun b hb => W10_of_ne m c b fun w e => hb (Finset.mem_image.mpr ⟨w, Finset.mem_univ _, e⟩)

set_option backward.isDefEq.respectTransparency.types false in
/-- The fifth sweep over the thread state: entered from `W9`, left at `W10`. -/
def reg5 : Pipeline.RegionSeg (pcfgs (F := F)) admH (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (W9 m)) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (atRefs (W9 m) c)
  hentry c := by
    rw [Pipeline.ownSems0_none]
    have hsplit := Pipeline.arrays_of_unscopedBufs (p := 5) (pcfgs (F := F)) admH (pdats m) launch5.win launch5.arr_whole c
      ((pdats m 5 c).share_full fun _ => rfl) (atRefs (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := Pipeline.UD sig nD τ) (Lvl := ℕ)
      launch5.win launch5.arr_whole c (pdats m) ((pdats m 5 c).share_full fun _ => rfl)
      (atRefs (W9 m) c) (atRefs (W10 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF6 (c : Dev nD) (w : Fin cfg6.W) : (dat6 (atRefs (W11 m)) c).arrAt w cfg6.N = atRefs (W12 m) c (Pipeline.arrRef spec6 w) :=
  (W12_arr m c w).symm
theorem hrest6 (c : Dev nD) : ∀ b, b ∉ Finset.univ.image (Pipeline.arrRef spec6) → atRefs (W12 m) c b = atRefs (W11 m) c b :=
  fun b hb => W12_of_ne m c b fun w e => hb (Finset.mem_image.mpr ⟨w, Finset.mem_univ _, e⟩)

set_option backward.isDefEq.respectTransparency.types false in
/-- The sixth sweep over the thread state: entered from `W11`, left at `W12`. -/
def reg6 : Pipeline.RegionSeg (pcfgs (F := F)) admH (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atRefs (W11 m)) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (atRefs (W11 m) c)
  hentry c := by
    rw [Pipeline.ownSems0_none]
    have hsplit := Pipeline.arrays_of_unscopedBufs (p := 6) (pcfgs (F := F)) admH (pdats m) launch6.win launch6.arr_whole c
      ((pdats m 6 c).share_full fun _ => rfl) (atRefs (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := Pipeline.UD sig nD τ) (Lvl := ℕ)
      launch6.win launch6.arr_whole c (pdats m) ((pdats m 6 c).share_full fun _ => rfl)
      (atRefs (W11 m) c) (atRefs (W12 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF7 (c : Dev nD) (w : Fin cfg7.W) : (dat7 (atRefs (W13 m)) c).arrAt w cfg7.N = atRefs (W14 m) c (Pipeline.arrRef spec7 w) :=
  (W14_arr m c w).symm
theorem hrest7 (c : Dev nD) : ∀ b, b ∉ Finset.univ.image (Pipeline.arrRef spec7) → atRefs (W14 m) c b = atRefs (W13 m) c b :=
  fun b hb => W14_of_ne m c b fun w e => hb (Finset.mem_image.mpr ⟨w, Finset.mem_univ _, e⟩)

set_option backward.isDefEq.respectTransparency.types false in
/-- The seventh sweep over the thread state: entered from `W13`, left at `W14`. -/
def reg7 : Pipeline.RegionSeg (pcfgs (F := F)) admH (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atRefs (W13 m)) c).loose
  hwaits := Pipeline.hwaits_of_owed_zero _ _ _ _ L lv 7 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := Pipeline.UD sig nD τ) (Lvl := ℕ) spec7 c (atRefs (W13 m) c)
  hentry c := by
    rw [Pipeline.ownSems0_none]
    have hsplit := Pipeline.arrays_of_unscopedBufs (p := 7) (pcfgs (F := F)) admH (pdats m) launch7.win launch7.arr_whole c
      ((pdats m 7 c).share_full fun _ => rfl) (atRefs (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := Pipeline.UD sig nD τ) (Lvl := ℕ)
      launch7.win launch7.arr_whole c (pdats m) ((pdats m 7 c).share_full fun _ => rfl)
      (atRefs (W13 m) c) (atRefs (W14 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF8 (c : Dev nD) (w : Fin cfg8.W) : (dat8 (atRefs (W14 m)) c).arrAt w cfg8.N = atRefs (W15 m) c (Pipeline.arrRef spec8 w) :=
  (W15_arr m c w).symm
theorem hrest8 (c : Dev nD) : ∀ b, b ∉ Finset.univ.image (Pipeline.arrRef spec8) → atRefs (W15 m) c b = atRefs (W14 m) c b :=
  fun b hb => W15_of_ne m c b fun w e => hb (Finset.mem_image.mpr ⟨w, Finset.mem_univ _, e⟩)

set_option backward.isDefEq.respectTransparency.types false in
/-- The eighth sweep over the thread state: entered from `W14`, left at `W15`. -/
def reg8 : Pipeline.RegionSeg (pcfgs (F := F)) admH (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atRefs (W14 m)) c).loose
  hwaits := Pipeline.hwaits_of_owed_zero _ _ _ _ L lv 8 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := Pipeline.UD sig nD τ) (Lvl := ℕ) spec8 c (atRefs (W14 m) c)
  hentry c := by
    rw [Pipeline.ownSems0_none]
    have hsplit := Pipeline.arrays_of_unscopedBufs (p := 8) (pcfgs (F := F)) admH (pdats m) launch8.win launch8.arr_whole c
      ((pdats m 8 c).share_full fun _ => rfl) (atRefs (W14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := Pipeline.UD sig nD τ) (Lvl := ℕ)
      launch8.win launch8.arr_whole c (pdats m) ((pdats m 8 c).share_full fun _ => rfl)
      (atRefs (W14 m) c) (atRefs (W15 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The Gram-matrix region: two windows on one array -/

theorem set9_0 : ((Pipeline.pin (pcfgs (F := F)) admH 9).win (0 : Fin 3)).arr.view.set = Finset.univ := (arr_whole9 0).set_eq_univ
theorem set9_1 : ((Pipeline.pin (pcfgs (F := F)) admH 9).win (1 : Fin 3)).arr.view.set = Finset.univ := (arr_whole9 1).set_eq_univ
theorem set9_2 : ((Pipeline.pin (pcfgs (F := F)) admH 9).win (2 : Fin 3)).arr.view.set = Finset.univ := (arr_whole9 2).set_eq_univ

/-- At entry the one array the two input windows read, held whole, splits into its two halves; the output array is
    held whole. -/
theorem arrays9_of_bufs (c : Dev nD) :
    (Pipeline.arrBufs spec9 c (atRefs (W15 m) c) : sProp 𝕄) ⊢ (pdats m 9 c).arrays fun w => (pdats m 9 c).arrAt w 0 := by
  unfold Pipeline.arrBufs Dat.arrays
  rw [show Finset.univ.image (Pipeline.arrRef spec9) = ({main_v36_1, main_v37} : Finset (Ref sig .tc)) from by decide,
    bigSep_insert (by decide), bigSep_singleton, bigSep_W9, set9_0, set9_1, set9_2]
  show iprop((((c.tc : Thread nD τ).loc main_v36_1) ↦{fullShare} atRefs (W15 m) c main_v36_1) ∗ (((c.tc : Thread nD τ).loc main_v37) ↦{fullShare} atRefs (W15 m) c main_v37)) ⊢ _
  iintro ⟨Hz, Ho⟩
  ihave Hs := (pointsTo_share (PosShare.mem_left_op_right fullShare)).1 $$ Hz
  icases Hs with ⟨Hl, Hr⟩
  isplitl [Hl]; · iexact Hl
  isplitl [Hr]; · iexact Hr
  iexact Ho

theorem arrAt9_0 (c : Dev nD) : (pdats m 9 c).arrAt (0 : Fin 3) cfg9.N = atRefs (W16 m) c main_v36_1 :=
  ((dat9 (atRefs (W15 m)) c).arrAt_in 0 rfl _).trans ((A_eq9 (atRefs (W15 m)) c 0).trans (W16_keep m c main_v36_1 (by decide)).symm)
theorem arrAt9_1 (c : Dev nD) : (pdats m 9 c).arrAt (1 : Fin 3) cfg9.N = atRefs (W16 m) c main_v36_1 :=
  ((dat9 (atRefs (W15 m)) c).arrAt_in 1 rfl _).trans ((A_eq9 (atRefs (W15 m)) c 1).trans (W16_keep m c main_v36_1 (by decide)).symm)
theorem arrAt9_2 (c : Dev nD) : (pdats m 9 c).arrAt (2 : Fin 3) cfg9.N = atRefs (W16 m) c main_v37 :=
  (W16_out m c).symm

/-- At exit the two halves, holding the array as found, join to the whole; the output array holds what the region's
    write-backs left. -/
theorem bufs9_of_arrays (c : Dev nD) :
    ((pdats m 9 c).arrays fun w => (pdats m 9 c).arrAt w cfg9.N : sProp 𝕄) ⊢ Pipeline.arrBufs spec9 c (atRefs (W16 m) c) := by
  unfold Pipeline.arrBufs Dat.arrays
  rw [show Finset.univ.image (Pipeline.arrRef spec9) = ({main_v36_1, main_v37} : Finset (Ref sig .tc)) from by decide,
    bigSep_insert (by decide), bigSep_singleton, bigSep_W9, set9_0, set9_1, set9_2]
  dsimp only
  rw [arrAt9_0, arrAt9_1, arrAt9_2]
  show _ ⊢ iprop((((c.tc : Thread nD τ).loc main_v36_1) ↦{fullShare} atRefs (W16 m) c main_v36_1) ∗ (((c.tc : Thread nD τ).loc main_v37) ↦{fullShare} atRefs (W16 m) c main_v37))
  iintro ⟨Hl, Hr, Ho⟩
  isplitl [Hl Hr]
  · iapply (pointsTo_share (PosShare.mem_left_op_right fullShare)).2
    isplitl [Hl]; · iexact Hl
    iexact Hr
  iexact Ho

/-- The last thread state without the dues: every unscoped buffer at the last boundary's contents, the generator
    register at some state. -/
abbrev Tₙ (c : Dev nD) : sProp 𝕄 := iprop(StableHlo.held (c : Thread nD τ) (Pipeline.ucRefs τ sig) (W16 m c) ∗ ∃ r, prngReg c r)

/-- A core's unscoped buffers are the two buffers behind the region's three windows and the rest. -/
theorem split9 (c : Dev nD) (V : (b : Ref sig .tc) → Buf (Elt F) ((c : Thread nD τ).loc b)) :
    (unscopedBufs c V : sProp 𝕄) = iprop(Pipeline.arrBufs spec9 c V ∗ Pipeline.unscopedRest spec9 c V) :=
  Pipeline.unscopedBufs_split₀ cfgs 9 winFacts₀9.arr_unscoped c V

set_option backward.isDefEq.respectTransparency.types false in
/-- The Gram-matrix region over the thread state: entered from `W15`, left at `W16`.  Its two input windows share one
    array: at entry that buffer is split into halves, at exit the halves, unchanged, are joined. -/
def reg9 : Pipeline.RegionSeg (pcfgs (F := F)) admH (pdats m) () defs₀ 𝒱₀ L lv 9 where
  win := winFacts₀9
  block_pos := block_pos9
  stage_whole := stage_whole9
  K := PEmpty
  osem k := k.elim
  ho := Pipeline.OwnSemFacts.none _
  hbody c := (body_obligation9 (atRefs (W15 m)) c).loose
  hwaits := Pipeline.hwaits_of_owed_zero _ _ _ _ L lv 9 fun _ _ => rfl
  pre c := iprop(StableHlo.held (c : Thread nD τ) (Pipeline.ucRefs τ sig) (W15 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec9 c (atRefs (W15 m) c)
  hentry c := by
    rw [Pipeline.ownSems0_none]
    have hsplit : (unscopedBufs c (atRefs (W15 m) c) : sProp 𝕄)
        ⊢ iprop(((pdats m 9 c).arrays fun w => (pdats m 9 c).arrAt w 0) ∗ Pipeline.unscopedRest spec9 c (atRefs (W15 m) c)) := by
      rw [split9 c]; exact sep_mono (arrays9_of_bufs m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin : iprop(((pdats m 9 c).arrays fun w => (pdats m 9 c).arrAt w cfg9.N) ∗ Pipeline.unscopedRest spec9 c (atRefs (W15 m) c))
        ⊢ (unscopedBufs c (atRefs (W16 m) c) : sProp 𝕄) := by
      rw [split9 c (atRefs (W16 m) c)]
      refine sep_mono (bufs9_of_arrays m c) (Entails.of_eq ?_)
      unfold Pipeline.unscopedRest
      exact bigSep_congr fun b hb => by
        rw [show atRefs (W16 m) c b = atRefs (W15 m) c b from W16_keep m c b fun h => (Finset.mem_sdiff.mp hb).2 (by
          rcases List.mem_singleton.mp h with rfl
          exact Finset.mem_image.mpr ⟨2, Finset.mem_univ _, rfl⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The sixteen items in order: a host segment per stretch from its boundary's contents, a region per pipelined call. -/
abbrev segs : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)),
    .region (reg5 m),
    .host (hseg hostOps6 hostOps6_sub hostOps6_fresh (W10 m)),
    .region (reg6 m),
    .host (hseg hostOps7 hostOps7_sub hostOps7_fresh (W12 m)),
    .region (reg7 m),
    .region (reg8 m),
    .region (reg9 m) ]

/-- The program IS the run of the segments. -/
theorem main_run (c : Dev nD) : main (F := F) c = Pipeline.Seg.run (segs m) := (main_chain c).trans (by chain_rfl)

set_option backward.isDefEq.respectTransparency.types false in
/-- THE RUN.  From any memory with zero counters, every weakly fair execution of the program on the TensorCores
    terminates, nothing faulting, and in every final state each unscoped buffer holds the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W16 m c b) :=
  Pipeline.θ_run_regions_kit (pcfgs (F := F)) admH (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

end Cert.Kernel.Hand

end
-- ==== Proof.KernelFrame.lean ====
/-
  The frame of the kernel program in the certificate's own words: from any memory with zero counters every weakly
  fair execution terminates, nothing faulting, and every argument array ends as launched.  No item writes an
  argument: walking an argument's buffer back through the sixteen boundaries reaches the launch memory.
-/
import proofs.«140843_g75050258530825_cont_9to1_m_403_24_alg».proof.Proof.KernelRun

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Walk a buffer back through the boundaries to the last item that wrote it. -/
local macro "arg_kept" : tactic =>
  `(tactic| rw [W16_keep _ _ _ (by decide), W15_keep _ _ _ (by decide), W14_keep _ _ _ (by decide), W13_keep _ _ _ (by decide),
    W12_keep _ _ _ (by decide), W11_keep _ _ _ (by decide), W10_keep _ _ _ (by decide), W9_keep _ _ _ (by decide),
    W8_keep _ _ _ (by decide), W7_keep _ _ _ (by decide), W6_keep _ _ _ (by decide), W5_keep _ _ _ (by decide),
    W4_keep _ _ _ (by decide), W3_keep _ _ _ (by decide), W2_keep _ _ _ (by decide), W1_keep _ _ _ (by decide)])

theorem W16_arg0 (c : Dev nD) : W16 m c (Proc.devRef .tc main_arg0) = m ((c.tc : Thread nD τ).loc main_arg0) := by arg_kept
theorem W16_arg1 (c : Dev nD) : W16 m c (Proc.devRef .tc main_arg1) = m ((c.tc : Thread nD τ).loc main_arg1) := by arg_kept
theorem W16_arg2 (c : Dev nD) : W16 m c (Proc.devRef .tc main_arg2) = m ((c.tc : Thread nD τ).loc main_arg2) := by arg_kept
theorem W16_arg3 (c : Dev nD) : W16 m c (Proc.devRef .tc main_arg3) = m ((c.tc : Thread nD τ).loc main_arg3) := by arg_kept
theorem W16_arg4 (c : Dev nD) : W16 m c (Proc.devRef .tc main_arg4) = m ((c.tc : Thread nD τ).loc main_arg4) := by arg_kept
theorem W16_arg5 (c : Dev nD) : W16 m c (Proc.devRef .tc main_arg5) = m ((c.tc : Thread nD τ).loc main_arg5) := by arg_kept
theorem W16_arg6 (c : Dev nD) : W16 m c (Proc.devRef .tc main_arg6) = m ((c.tc : Thread nD τ).loc main_arg6) := by arg_kept
theorem W16_arg7 (c : Dev nD) : W16 m c (Proc.devRef .tc main_arg7) = m ((c.tc : Thread nD τ).loc main_arg7) := by arg_kept
theorem W16_arg8 (c : Dev nD) : W16 m c (Proc.devRef .tc main_arg8) = m ((c.tc : Thread nD τ).loc main_arg8) := by arg_kept
theorem W16_arg9 (c : Dev nD) : W16 m c (Proc.devRef .tc main_arg9) = m ((c.tc : Thread nD τ).loc main_arg9) := by arg_kept
theorem W16_arg10 (c : Dev nD) : W16 m c (Proc.devRef .tc main_arg10) = m ((c.tc : Thread nD τ).loc main_arg10) := by arg_kept
theorem W16_arg11 (c : Dev nD) : W16 m c (Proc.devRef .tc main_arg11) = m ((c.tc : Thread nD τ).loc main_arg11) := by arg_kept
theorem W16_arg12 (c : Dev nD) : W16 m c (Proc.devRef .tc main_arg12) = m ((c.tc : Thread nD τ).loc main_arg12) := by arg_kept
theorem W16_arg13 (c : Dev nD) : W16 m c (Proc.devRef .tc main_arg13) = m ((c.tc : Thread nD τ).loc main_arg13) := by arg_kept
theorem W16_arg14 (c : Dev nD) : W16 m c (Proc.devRef .tc main_arg14) = m ((c.tc : Thread nD τ).loc main_arg14) := by arg_kept
theorem W16_arg15 (c : Dev nD) : W16 m c (Proc.devRef .tc main_arg15) = m ((c.tc : Thread nD τ).loc main_arg15) := by arg_kept
theorem W16_arg16 (c : Dev nD) : W16 m c (Proc.devRef .tc main_arg16) = m ((c.tc : Thread nD τ).loc main_arg16) := by arg_kept
theorem W16_arg17 (c : Dev nD) : W16 m c (Proc.devRef .tc main_arg17) = m ((c.tc : Thread nD τ).loc main_arg17) := by arg_kept
theorem W16_arg18 (c : Dev nD) : W16 m c (Proc.devRef .tc main_arg18) = m ((c.tc : Thread nD τ).loc main_arg18) := by arg_kept
theorem W16_arg19 (c : Dev nD) : W16 m c (Proc.devRef .tc main_arg19) = m ((c.tc : Thread nD τ).loc main_arg19) := by arg_kept
theorem W16_arg20 (c : Dev nD) : W16 m c (Proc.devRef .tc main_arg20) = m ((c.tc : Thread nD τ).loc main_arg20) := by arg_kept
theorem W16_arg21 (c : Dev nD) : W16 m c (Proc.devRef .tc main_arg21) = m ((c.tc : Thread nD τ).loc main_arg21) := by arg_kept
theorem W16_arg22 (c : Dev nD) : W16 m c (Proc.devRef .tc main_arg22) = m ((c.tc : Thread nD τ).loc main_arg22) := by arg_kept
theorem W16_arg23 (c : Dev nD) : W16 m c (Proc.devRef .tc main_arg23) = m ((c.tc : Thread nD τ).loc main_arg23) := by arg_kept
theorem W16_arg24 (c : Dev nD) : W16 m c (Proc.devRef .tc main_arg24) = m ((c.tc : Thread nD τ).loc main_arg24) := by arg_kept
theorem W16_arg25 (c : Dev nD) : W16 m c (Proc.devRef .tc main_arg25) = m ((c.tc : Thread nD τ).loc main_arg25) := by arg_kept
theorem W16_arg26 (c : Dev nD) : W16 m c (Proc.devRef .tc main_arg26) = m ((c.tc : Thread nD τ).loc main_arg26) := by arg_kept
theorem W16_arg27 (c : Dev nD) : W16 m c (Proc.devRef .tc main_arg27) = m ((c.tc : Thread nD τ).loc main_arg27) := by arg_kept

/-- What a final state's memory holds at an argument, given that every unscoped buffer ends at the last boundary's contents. -/
theorem args_kept {s : MemSt nD τ sig (Elt F)} {c : Dev nD}
    (h : ∀ b ∈ Pipeline.ucRefs τ sig, s.mem (((c : Thread nD τ)).1, b) = W16 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23)
      ∧ s.mem ((c.tc : Thread nD τ).loc main_arg24) = m ((c.tc : Thread nD τ).loc main_arg24)
      ∧ s.mem ((c.tc : Thread nD τ).loc main_arg25) = m ((c.tc : Thread nD τ).loc main_arg25)
      ∧ s.mem ((c.tc : Thread nD τ).loc main_arg26) = m ((c.tc : Thread nD τ).loc main_arg26)
      ∧ s.mem ((c.tc : Thread nD τ).loc main_arg27) = m ((c.tc : Thread nD τ).loc main_arg27) :=
  ⟨(h _ (mem_uc main_arg0 (by decide))).trans (W16_arg0 m c), (h _ (mem_uc main_arg1 (by decide))).trans (W16_arg1 m c),
   (h _ (mem_uc main_arg2 (by decide))).trans (W16_arg2 m c), (h _ (mem_uc main_arg3 (by decide))).trans (W16_arg3 m c),
   (h _ (mem_uc main_arg4 (by decide))).trans (W16_arg4 m c), (h _ (mem_uc main_arg5 (by decide))).trans (W16_arg5 m c),
   (h _ (mem_uc main_arg6 (by decide))).trans (W16_arg6 m c), (h _ (mem_uc main_arg7 (by decide))).trans (W16_arg7 m c),
   (h _ (mem_uc main_arg8 (by decide))).trans (W16_arg8 m c), (h _ (mem_uc main_arg9 (by decide))).trans (W16_arg9 m c),
   (h _ (mem_uc main_arg10 (by decide))).trans (W16_arg10 m c), (h _ (mem_uc main_arg11 (by decide))).trans (W16_arg11 m c),
   (h _ (mem_uc main_arg12 (by decide))).trans (W16_arg12 m c), (h _ (mem_uc main_arg13 (by decide))).trans (W16_arg13 m c),
   (h _ (mem_uc main_arg14 (by decide))).trans (W16_arg14 m c), (h _ (mem_uc main_arg15 (by decide))).trans (W16_arg15 m c),
   (h _ (mem_uc main_arg16 (by decide))).trans (W16_arg16 m c), (h _ (mem_uc main_arg17 (by decide))).trans (W16_arg17 m c),
   (h _ (mem_uc main_arg18 (by decide))).trans (W16_arg18 m c), (h _ (mem_uc main_arg19 (by decide))).trans (W16_arg19 m c),
   (h _ (mem_uc main_arg20 (by decide))).trans (W16_arg20 m c), (h _ (mem_uc main_arg21 (by decide))).trans (W16_arg21 m c),
   (h _ (mem_uc main_arg22 (by decide))).trans (W16_arg22 m c), (h _ (mem_uc main_arg23 (by decide))).trans (W16_arg23 m c),
   (h _ (mem_uc main_arg24 (by decide))).trans (W16_arg24 m c), (h _ (mem_uc main_arg25 (by decide))).trans (W16_arg25 m c),
   (h _ (mem_uc main_arg26 (by decide))).trans (W16_arg26 m c), (h _ (mem_uc main_arg27 (by decide))).trans (W16_arg27 m c)⟩

/-- THE FRAME, as the certificate states it, at any instance. -/
theorem run_frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => args_kept m (h c)) (run_all m ρ)

end Cert.Kernel.Hand

end
-- ==== Proof.KernelIdealR0.lean ====
/-
  The autoencoder region: one grid point runs the whole eight-layer autoencoder on a block of 1024 rows of
  the input (weights and biases resident, each fetched once), and leaves five blocks: the reconstruction, the
  latent code, the first hidden layer, the soft assignment of the latent code to the cluster centres, and the
  input block times the first graph weight.  What the body leaves in its staging buffers, as proof data for
  the pipeline, and the body's obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: unfetched, the block
    index has not moved.  One statement per input window (windows 0 to 18). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (Pipeline.UD sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (Pipeline.UD sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (Pipeline.UD sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (Pipeline.UD sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (Pipeline.UD sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (Pipeline.UD sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (Pipeline.UD sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (Pipeline.UD sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (Pipeline.UD sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through, one per shape. -/
abbrev r0_x : Rect S1024x512 := Rect.unit (s := S1024x512) ![0, 0] S1024x512.size inb_S1024x512_S1024x512_0_0
abbrev r0_w1 : Rect S512x500 := Rect.unit (s := S512x500) ![0, 0] S512x500.size inb_S512x500_S512x500_0_0
abbrev r0_b500 : Rect S1x500 := Rect.unit (s := S1x500) ![0, 0] S1x500.size inb_S1x500_S1x500_0_0
abbrev r0_w2 : Rect S500x500 := Rect.unit (s := S500x500) ![0, 0] S500x500.size inb_S500x500_S500x500_0_0
abbrev r0_w3 : Rect S500x2000 := Rect.unit (s := S500x2000) ![0, 0] S500x2000.size inb_S500x2000_S500x2000_0_0
abbrev r0_b2000 : Rect S1x2000 := Rect.unit (s := S1x2000) ![0, 0] S1x2000.size inb_S1x2000_S1x2000_0_0
abbrev r0_w4 : Rect S2000x10 := Rect.unit (s := S2000x10) ![0, 0] S2000x10.size inb_S2000x10_S2000x10_0_0
abbrev r0_b10 : Rect S1x10 := Rect.unit (s := S1x10) ![0, 0] S1x10.size inb_S1x10_S1x10_0_0
abbrev r0_w5 : Rect S10x2000 := Rect.unit (s := S10x2000) ![0, 0] S10x2000.size inb_S10x2000_S10x2000_0_0
abbrev r0_w6 : Rect S2000x500 := Rect.unit (s := S2000x500) ![0, 0] S2000x500.size inb_S2000x500_S2000x500_0_0
abbrev r0_w8 : Rect S500x512 := Rect.unit (s := S500x512) ![0, 0] S500x512.size inb_S500x512_S500x512_0_0
abbrev r0_b512 : Rect S1x512 := Rect.unit (s := S1x512) ![0, 0] S1x512.size inb_S1x512_S1x512_0_0
abbrev r0_c : Rect S10x10 := Rect.unit (s := S10x10) ![0, 0] S10x10.size inb_S10x10_S10x10_0_0
abbrev r0_o10 : Rect S1024x10 := Rect.unit (s := S1024x10) ![0, 0] S1024x10.size inb_S1024x10_S1024x10_0_0
abbrev r0_o500 : Rect S1024x500 := Rect.unit (s := S1024x500) ![0, 0] S1024x500.size inb_S1024x500_S1024x500_0_0

section Outs
variable (x0 : Vec F S1024x512 .f32) (x1 : Vec F S512x500 .bf16) (x2 : Vec F S1x500 .f32) (x3 : Vec F S500x500 .bf16)
  (x4 : Vec F S1x500 .f32) (x5 : Vec F S500x2000 .bf16) (x6 : Vec F S1x2000 .f32) (x7 : Vec F S2000x10 .bf16)
  (x8 : Vec F S1x10 .f32) (x9 : Vec F S10x2000 .bf16) (x10 : Vec F S1x2000 .f32) (x11 : Vec F S2000x500 .bf16)
  (x12 : Vec F S1x500 .f32) (x13 : Vec F S500x500 .bf16) (x14 : Vec F S1x500 .f32) (x15 : Vec F S500x512 .bf16)
  (x16 : Vec F S1x512 .f32) (x17 : Vec F S512x500 .bf16) (x18 : Vec F S10x10 .f32)

/-- The latent code's pre-bias product chain, as the first part returns it: three rectified affine layers and the
    product with the fourth weight. -/
def enc0 : FVec F S1024x10 .f32 :=
  k0_pay3 (View.ld x0 r0_x) (View.ld x1 r0_w1) (View.ld x2 r0_b500) (View.ld x3 r0_w2) (View.ld x4 r0_b500) (View.ld x5 r0_w3)
    (View.ld x6 r0_b2000) (View.ld x7 r0_w4)

/-- The latent code of the block. -/
def lat0 : FVec F S1024x10 .f32 := k0_pay4 (enc0 x0 x1 x2 x3 x4 x5 x6 x7) (View.ld x8 r0_b10)

/-- The reconstruction block: window 19's one store. -/
def out0_19 : Vec F S1024x512 .f32 :=
  View.canon [⟨r0_x, k0_pay6 (k0_pay5 (enc0 x0 x1 x2 x3 x4 x5 x6 x7) (View.ld x8 r0_b10) (View.ld x9 r0_w5) (View.ld x10 r0_b2000)
    (View.ld x11 r0_w6) (View.ld x12 r0_b500) (View.ld x13 r0_w2) (View.ld x14 r0_b500) (View.ld x15 r0_w8)) (View.ld x16 r0_b512)⟩]

/-- The latent block: window 20's one store. -/
def out0_20 : Vec F S1024x10 .f32 :=
  View.canon [⟨r0_o10, lat0 x0 x1 x2 x3 x4 x5 x6 x7 x8⟩]

/-- The first hidden layer, narrowed: window 21's one store. -/
def out0_21 : Vec F S1024x500 .bf16 :=
  View.canon [⟨r0_o500, k0_pay7 (k0_pay2 (View.ld x0 r0_x) (View.ld x1 r0_w1) (View.ld x2 r0_b500))⟩]

/-- The soft assignment of the latent block: window 22's one store. -/
def out0_22 : Vec F S1024x10 .f32 :=
  View.canon [⟨r0_o10, k0_pay8 (lat0 x0 x1 x2 x3 x4 x5 x6 x7 x8) (View.ld x18 r0_c)⟩]

/-- The input block times the first graph weight, narrowed: window 23's one store. -/
def out0_23 : Vec F S1024x500 .bf16 :=
  View.canon [⟨r0_o500, k0_pay1 (k0_pay9 (View.ld x17 r0_w1)) (k0_pay10 (View.ld x0 r0_x))⟩]

end Outs

/-- Each output's one store covers its block. -/
theorem cover0_19 (p0 : Vec F S1024x512 .f32) (y : S1024x512.Idx) :
    ∃ pc ∈ ([⟨r0_x, p0⟩] : List (View.Piece (Elt F) S1024x512 .f32)), y ∈ pc.1.set :=
  View.cover_of_tiled [⟨r0_x, p0⟩] S1024x512.size (by rfl) y
theorem cover0_20 (p0 : Vec F S1024x10 .f32) (y : S1024x10.Idx) :
    ∃ pc ∈ ([⟨r0_o10, p0⟩] : List (View.Piece (Elt F) S1024x10 .f32)), y ∈ pc.1.set :=
  View.cover_of_tiled [⟨r0_o10, p0⟩] S1024x10.size (by rfl) y
theorem cover0_21 (p0 : Vec F S1024x500 .bf16) (y : S1024x500.Idx) :
    ∃ pc ∈ ([⟨r0_o500, p0⟩] : List (View.Piece (Elt F) S1024x500 .bf16)), y ∈ pc.1.set :=
  View.cover_of_tiled [⟨r0_o500, p0⟩] S1024x500.size (by rfl) y

set_option maxHeartbeats 4000000 in
/-- The body on whole staging buffers: the nineteen inputs are left as read, each of the five outputs holds its
    `out0_w` of the inputs. -/
theorem sound_kernel0 (c : Dev nD) (E : Set ℕ) (i : grid0.Coords)
    (arg1 : Memref sig .tc .vmem S1024x512 .f32) (harg1 : arg1.IsWhole) (arg2 : Memref sig .tc .vmem S512x500 .bf16) (harg2 : arg2.IsWhole)
    (arg3 : Memref sig .tc .vmem S1x500 .f32) (harg3 : arg3.IsWhole) (arg4 : Memref sig .tc .vmem S500x500 .bf16) (harg4 : arg4.IsWhole)
    (arg5 : Memref sig .tc .vmem S1x500 .f32) (harg5 : arg5.IsWhole) (arg6 : Memref sig .tc .vmem S500x2000 .bf16) (harg6 : arg6.IsWhole)
    (arg7 : Memref sig .tc .vmem S1x2000 .f32) (harg7 : arg7.IsWhole) (arg8 : Memref sig .tc .vmem S2000x10 .bf16) (harg8 : arg8.IsWhole)
    (arg9 : Memref sig .tc .vmem S1x10 .f32) (harg9 : arg9.IsWhole) (arg10 : Memref sig .tc .vmem S10x2000 .bf16) (harg10 : arg10.IsWhole)
    (arg11 : Memref sig .tc .vmem S1x2000 .f32) (harg11 : arg11.IsWhole) (arg12 : Memref sig .tc .vmem S2000x500 .bf16) (harg12 : arg12.IsWhole)
    (arg13 : Memref sig .tc .vmem S1x500 .f32) (harg13 : arg13.IsWhole) (arg14 : Memref sig .tc .vmem S500x500 .bf16) (harg14 : arg14.IsWhole)
    (arg15 : Memref sig .tc .vmem S1x500 .f32) (harg15 : arg15.IsWhole) (arg16 : Memref sig .tc .vmem S500x512 .bf16) (harg16 : arg16.IsWhole)
    (arg17 : Memref sig .tc .vmem S1x512 .f32) (harg17 : arg17.IsWhole) (arg18 : Memref sig .tc .vmem S512x500 .bf16) (harg18 : arg18.IsWhole)
    (arg19 : Memref sig .tc .vmem S10x10 .f32) (harg19 : arg19.IsWhole) (arg20 : Memref sig .tc .vmem S1024x512 .f32) (harg20 : arg20.IsWhole)
    (arg21 : Memref sig .tc .vmem S1024x10 .f32) (harg21 : arg21.IsWhole) (arg22 : Memref sig .tc .vmem S1024x500 .bf16) (harg22 : arg22.IsWhole)
    (arg23 : Memref sig .tc .vmem S1024x10 .f32) (harg23 : arg23.IsWhole) (arg24 : Memref sig .tc .vmem S1024x500 .bf16) (harg24 : arg24.IsWhole)
    (x0 : Vec F S1024x512 .f32) (x1 : Vec F S512x500 .bf16) (x2 : Vec F S1x500 .f32) (x3 : Vec F S500x500 .bf16)
    (x4 : Vec F S1x500 .f32) (x5 : Vec F S500x2000 .bf16) (x6 : Vec F S1x2000 .f32) (x7 : Vec F S2000x10 .bf16)
    (x8 : Vec F S1x10 .f32) (x9 : Vec F S10x2000 .bf16) (x10 : Vec F S1x2000 .f32) (x11 : Vec F S2000x500 .bf16)
    (x12 : Vec F S1x500 .f32) (x13 : Vec F S500x500 .bf16) (x14 : Vec F S1x500 .f32) (x15 : Vec F S500x512 .bf16)
    (x16 : Vec F S1x512 .f32) (x17 : Vec F S512x500 .bf16) (x18 : Vec F S10x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare x8 ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14 ∗ owns (c : Thread nD τ) arg16 fullShare x15
        ∗ owns (c : Thread nD τ) arg17 fullShare x16 ∗ owns (c : Thread nD τ) arg18 fullShare x17 ∗ owns (c : Thread nD τ) arg19 fullShare x18
        ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14 ∗ owns (c : Thread nD τ) arg16 fullShare x15
            ∗ owns (c : Thread nD τ) arg17 fullShare x16 ∗ owns (c : Thread nD τ) arg18 fullShare x17 ∗ owns (c : Thread nD τ) arg19 fullShare x18
            ∗ owns (c : Thread nD τ) arg20 fullShare (out0_19 x0 x1 x2 x3 x4 x5 x6 x7 x8 x9 x10 x11 x12 x13 x14 x15 x16)
            ∗ owns (c : Thread nD τ) arg21 fullShare (out0_20 x0 x1 x2 x3 x4 x5 x6 x7 x8)
            ∗ owns (c : Thread nD τ) arg22 fullShare (out0_21 x0 x1 x2)
            ∗ owns (c : Thread nD τ) arg23 fullShare (out0_22 x0 x1 x2 x3 x4 x5 x6 x7 x8 x18)
            ∗ owns (c : Thread nD τ) arg24 fullShare (out0_23 x0 x17)) -∗ K ⟨⟩))
      ⊢ wp frame (wpE (defs₀ (F := F)) Variants.none c none) E
          (cc0__ae_body i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19 arg20 harg20
            arg21 harg21 arg22 harg22 arg23 harg23 arg24 harg24) K := by
  simp only [cc0__ae_body_eq_skeleton]; unfold cc0__ae_body_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩,
    ⟨%d19, %f19, -, H19⟩, ⟨%d20, %f20, -, H20⟩, ⟨%d21, %f21, -, H21⟩, ⟨%d22, %f22, -, H22⟩, ⟨%d23, %f23, -, H23⟩, Hk⟩
  subst hf0; subst hf1; subst hf2; subst hf3; subst hf4; subst hf5; subst hf6; subst hf7; subst hf8; subst hf9
  subst hf10; subst hf11; subst hf12; subst hf13; subst hf14; subst hf15; subst hf16; subst hf17; subst hf18
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [H12]; · iexists f12; isplitr; · ipureintro; rfl
                   iexact H12
  isplitl [H13]; · iexists f13; isplitr; · ipureintro; rfl
                   iexact H13
  isplitl [H14]; · iexists f14; isplitr; · ipureintro; rfl
                   iexact H14
  isplitl [H15]; · iexists f15; isplitr; · ipureintro; rfl
                   iexact H15
  isplitl [H16]; · iexists f16; isplitr; · ipureintro; rfl
                   iexact H16
  isplitl [H17]; · iexists f17; isplitr; · ipureintro; rfl
                   iexact H17
  isplitl [H18]; · iexists f18; isplitr; · ipureintro; rfl
                   iexact H18
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_20 _)
  iexists _; isplitr
  swap; · iexact H23
  ipureintro
  exact View.read_writes_eq_canon _ _ _ (cover0_21 _)

/-! ## The proof data -/

/-- The arrays as the region finds them; after the body at point `t` each input's buffer at its block and each
    output's at its `out0_w` of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => out0_19 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (iblk0 V c 10 t) (iblk0 V c 11 t) (iblk0 V c 12 t) (iblk0 V c 13 t) (iblk0 V c 14 t)
        (iblk0 V c 15 t) (iblk0 V c 16 t)
    | ⟨20, _⟩ => out0_20 (iblk0 V c 0 t) (iblk0 V c 1 t) (iblk0 V c 2 t) (iblk0 V c 3 t) (iblk0 V c 4 t) (iblk0 V c 5 t) (iblk0 V c 6 t)
        (iblk0 V c 7 t) (iblk0 V c 8 t)
    | ⟨21, _⟩ => out0_21 (iblk0 V c 0 t) (iblk0 V c 1 t) (iblk0 V c 2 t)
    | ⟨22, _⟩ => out0_22 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 18 t)
    | ⟨23, _⟩ => out0_23 (iblk0 V c 0 t) (iblk0 V c 17 t)
    | ⟨_ + 24, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t =
    out0_19 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t) (iblk0 V c 13 t) (iblk0 V c 14 t)
      (iblk0 V c 15 t) (iblk0 V c 16 t) := by dsimp only [dat0]
theorem after0_20 (c : Dev nD) (t : Fin cfg0.N) : (dat0 V c).after 20 t =
    out0_20 (iblk0 V c 0 t) (iblk0 V c 1 t) (iblk0 V c 2 t) (iblk0 V c 3 t) (iblk0 V c 4 t) (iblk0 V c 5 t) (iblk0 V c 6 t)
      (iblk0 V c 7 t) (iblk0 V c 8 t) := by dsimp only [dat0]
theorem after0_21 (c : Dev nD) (t : Fin cfg0.N) : (dat0 V c).after 21 t =
    out0_21 (iblk0 V c 0 t) (iblk0 V c 1 t) (iblk0 V c 2 t) := by dsimp only [dat0]
theorem after0_22 (c : Dev nD) (t : Fin cfg0.N) : (dat0 V c).after 22 t =
    out0_22 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 18 t) := by dsimp only [dat0]
theorem after0_23 (c : Dev nD) (t : Fin cfg0.N) : (dat0 V c).after 23 t =
    out0_23 (iblk0 V c 0 t) (iblk0 V c 17 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9,
    before0_10, before0_11, before0_12, before0_13, before0_14, before0_15, before0_16, before0_17, before0_18]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11,
    after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩,
    ⟨%d19, H19⟩, ⟨%d20, H20⟩, ⟨%d21, H21⟩, ⟨%d22, H22⟩, ⟨%d23, H23⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) (iblk0 V c 11 t) (iblk0 V c 12 t) (iblk0 V c 13 t) (iblk0 V c 14 t) (iblk0 V c 15 t)
    (iblk0 V c 16 t) (iblk0 V c 17 t) (iblk0 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

set_option maxHeartbeats 4000000 in
theorem body_obligation0 (c : Dev nD) : BodyObligation (dat0 (F := F) V c) (defs₀ (F := F)) Variants.none () Set.univ := fun t => by
  rw [bigSep_W0, bigSep_W0]
  show bodyPre0 V c t ⊢ wp frame (wpE (defs₀ (F := F)) Variants.none c none) Set.univ (bodyAt0 t) (fun _ => bodyPost0 V c t)
  exact sound_body0 V c t

end Cert.KernelIdeal.Hand

end
-- ==== Proof.KernelIdealR1.lean ====
/-
  The first adjacency sweep, which also rounds the adjacency to bf16 and applies the first dense layers,
  as one pipelined region: what a grid point's body leaves in its staging buffers, as proof data for the
  pipeline, and the body's obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # The first adjacency sweep: one grid point rounds a 512 × 4096 single-precision block of the adjacency to
    bf16 and stores it, forms `m = max (adj · u) 0` with the whole 4096 × 500 operand, and stores two blocks of
    512 rows: `max ((m + h) · w + b) 0`, from a 512 × 500 block of the addend `h`, the whole 500 × 500 weight `w`
    and the 1 × 500 bias `b`; and `m · w'`, from the second whole 500 × 500 weight. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: unfetched, the block
    index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev r1_a : Rect S512x4096 := Rect.unit (s := S512x4096) ![0, 0] S512x4096.size inb_S512x4096_S512x4096_0_0
abbrev r1_u : Rect S4096x500 := Rect.unit (s := S4096x500) ![0, 0] S4096x500.size inb_S4096x500_S4096x500_0_0
abbrev r1_h : Rect S512x500 := Rect.unit (s := S512x500) ![0, 0] S512x500.size inb_S512x500_S512x500_0_0
abbrev r1_w : Rect S500x500 := Rect.unit (s := S500x500) ![0, 0] S500x500.size inb_S500x500_S500x500_0_0
abbrev r1_b : Rect S1x500 := Rect.unit (s := S1x500) ![0, 0] S1x500.size inb_S1x500_S1x500_0_0

/-- The first layer's output block after the body, from the adjacency block, the operand, the addend, the weight
    and the bias: its one store, of the whole block. -/
def out1_6 (x0 : Vec F S512x4096 .f32) (x1 : Vec F S4096x500 .bf16) (x2 : Vec F S512x500 .bf16) (x3 : Vec F S500x500 .bf16)
    (x4 : Vec F S1x500 .f32) : Vec F S512x500 .bf16 :=
  View.canon [⟨r1_h, k1_pay3 (View.ld x0 r1_a) (View.ld x1 r1_u) (View.ld x2 r1_h) (View.ld x3 r1_w) (View.ld x4 r1_b)⟩]

/-- The second weight's output block after the body, from the adjacency block, the operand and that weight: its
    one store, of the whole block. -/
def out1_7 (x0 : Vec F S512x4096 .f32) (x1 : Vec F S4096x500 .bf16) (x5 : Vec F S500x500 .bf16) : Vec F S512x500 .bf16 :=
  View.canon [⟨r1_h, k1_pay4 (View.ld x0 r1_a) (View.ld x1 r1_u) (View.ld x5 r1_w)⟩]

/-- The rounded adjacency block after the body, from the single-precision one: its one store, of the whole
    block. -/
def out1_8 (x0 : Vec F S512x4096 .f32) : Vec F S512x4096 .bf16 :=
  View.canon [⟨r1_a, k1_pay1 (View.ld x0 r1_a)⟩]

/-- The one store covers a 512 × 500 block. -/
theorem cover1_6 (p0 : Vec F S512x500 .bf16) (y : S512x500.Idx) :
    ∃ pc ∈ ([⟨r1_h, p0⟩] : List (View.Piece (Elt F) S512x500 .bf16)), y ∈ pc.1.set :=
  View.cover_of_tiled [⟨r1_h, p0⟩] S512x500.size (by rfl) y

/-- The one store covers the rounded adjacency block. -/
theorem cover1_8 (p0 : Vec F S512x4096 .bf16) (y : S512x4096.Idx) :
    ∃ pc ∈ ([⟨r1_a, p0⟩] : List (View.Piece (Elt F) S512x4096 .bf16)), y ∈ pc.1.set :=
  View.cover_of_tiled [⟨r1_a, p0⟩] S512x4096.size (by rfl) y

set_option maxHeartbeats 1000000 in
/-- The body on whole staging buffers: the inputs are left as read, the outputs hold `out1_6`, `out1_7` and
    `out1_8` of the inputs. -/
theorem sound_kernel1 (c : Dev nD) (E : Set ℕ) (i : grid1.Coords)
    (arg1 : Memref sig .tc .vmem S512x4096 .f32) (harg1 : arg1.IsWhole) (arg2 : Memref sig .tc .vmem S4096x500 .bf16) (harg2 : arg2.IsWhole)
    (arg3 : Memref sig .tc .vmem S512x500 .bf16) (harg3 : arg3.IsWhole) (arg4 : Memref sig .tc .vmem S500x500 .bf16) (harg4 : arg4.IsWhole)
    (arg5 : Memref sig .tc .vmem S1x500 .f32) (harg5 : arg5.IsWhole) (arg6 : Memref sig .tc .vmem S500x500 .bf16) (harg6 : arg6.IsWhole)
    (arg7 : Memref sig .tc .vmem S512x500 .bf16) (harg7 : arg7.IsWhole) (arg8 : Memref sig .tc .vmem S512x500 .bf16) (harg8 : arg8.IsWhole)
    (arg9 : Memref sig .tc .vmem S512x4096 .bf16) (harg9 : arg9.IsWhole)
    (x0 : Vec F S512x4096 .f32) (x1 : Vec F S4096x500 .bf16) (x2 : Vec F S512x500 .bf16) (x3 : Vec F S500x500 .bf16)
    (x4 : Vec F S1x500 .f32) (x5 : Vec F S500x500 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4) ∗ owns (c : Thread nD τ) arg8 fullShare (out1_7 x0 x1 x5)
            ∗ owns (c : Thread nD τ) arg9 fullShare (out1_8 x0)) -∗ K ⟨⟩))
      ⊢ wp frame (wpE (defs₀ (F := F)) Variants.none c none) E
          (cc1_body i arg1 harg1 arg2 harg2 arg3 harg3 arg4 harg4 arg5 harg5 arg6 harg6 arg7 harg7 arg8 harg8 arg9 harg9) K := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_6 _)
  iexists _; isplitr
  swap; · iexact H8
  ipureintro
  exact View.read_writes_eq_canon _ _ _ (cover1_8 _)

/-! ## The proof data -/

/-- The arrays as the region finds them; after the body at point `t` each input's buffer at its block and the
    outputs' at `out1_6`, `out1_7` and `out1_8` of the input blocks; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 5 t)
    | ⟨8, _⟩ => out1_8 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) :
    (dat1 V c).after 7 t = out1_7 (iblk1 V c 0 t) (iblk1 V c 1 t) (iblk1 V c 5 t) := by dsimp only [dat1]
theorem after1_8 (c : Dev nD) (t : Fin cfg1.N) :
    (dat1 V c).after 8 t = out1_8 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealR2.lean ====
/-
  The second adjacency sweep as one pipelined region: what a grid point's body leaves in its
  staging buffers, as proof data for the pipeline, and the body's obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # The second adjacency sweep: one grid point computes a block of 512 rows of
    `max (adj · u) 0 + h`, from a 512 × 4096 block of the adjacency, the whole 4096 × 500 operand and a
    512 × 500 block of the addend. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: unfetched, the block
    index has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev r2_a : Rect S512x4096 := Rect.unit (s := S512x4096) ![0, 0] S512x4096.size inb_S512x4096_S512x4096_0_0
abbrev r2_u : Rect S4096x500 := Rect.unit (s := S4096x500) ![0, 0] S4096x500.size inb_S4096x500_S4096x500_0_0
abbrev r2_o : Rect S512x500 := Rect.unit (s := S512x500) ![0, 0] S512x500.size inb_S512x500_S512x500_0_0

/-- The output block after the body, from the three input blocks: its one store, of the whole block. -/
def out2_3 (x0 : Vec F S512x4096 .bf16) (x1 : Vec F S4096x500 .bf16) (x2 : Vec F S512x500 .bf16) : Vec F S512x500 .bf16 :=
  View.canon [⟨r2_o, k2_pay1 (View.ld x0 r2_a) (View.ld x1 r2_u) (View.ld x2 r2_o)⟩]

/-- The one store covers the block. -/
theorem cover2_3 (p0 : Vec F S512x500 .bf16) (y : S512x500.Idx) :
    ∃ pc ∈ ([⟨r2_o, p0⟩] : List (View.Piece (Elt F) S512x500 .bf16)), y ∈ pc.1.set :=
  View.cover_of_tiled [⟨r2_o, p0⟩] S512x500.size (by rfl) y

set_option maxHeartbeats 1000000 in
/-- The body on whole staging buffers: the inputs are left as read, the output holds `out2_3` of the inputs. -/
theorem sound_kernel2 (c : Dev nD) (E : Set ℕ) (i : grid2.Coords)
    (arg1 : Memref sig .tc .vmem S512x4096 .bf16) (harg1 : arg1.IsWhole) (arg2 : Memref sig .tc .vmem S4096x500 .bf16) (harg2 : arg2.IsWhole)
    (arg3 : Memref sig .tc .vmem S512x500 .bf16) (harg3 : arg3.IsWhole) (arg4 : Memref sig .tc .vmem S512x500 .bf16) (harg4 : arg4.IsWhole)
    (x0 : Vec F S512x4096 .bf16) (x1 : Vec F S4096x500 .bf16) (x2 : Vec F S512x500 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_body i arg1 harg1 arg2 harg2 arg3 harg3 arg4 harg4) K := by
  simp only [cc2_body_eq_skeleton]; unfold cc2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The arrays as the region finds them; after the body at point `t` each input's buffer at its block and the
    output's at `out2_3` of the input blocks; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealR3.lean ====
/-
  The adjacency sweep followed by the two layers that narrow 500 columns to 10, as one pipelined region:
  what a grid point's body leaves in its staging buffers, as proof data for the pipeline, and the body's
  obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep with a 500 × 2000 and a 2000 × 10 layer: one grid point computes a block of 512 rows of
    `max ((adj · u) · w₁) 0 · w₂`, from a 512 × 4096 block of the adjacency, the whole 4096 × 500 operand and
    the two whole weights. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: unfetched, the block
    index has not moved. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev r3_a : Rect S512x4096 := Rect.unit (s := S512x4096) ![0, 0] S512x4096.size inb_S512x4096_S512x4096_0_0
abbrev r3_u : Rect S4096x500 := Rect.unit (s := S4096x500) ![0, 0] S4096x500.size inb_S4096x500_S4096x500_0_0
abbrev r3_w1 : Rect S500x2000 := Rect.unit (s := S500x2000) ![0, 0] S500x2000.size inb_S500x2000_S500x2000_0_0
abbrev r3_w2 : Rect S2000x10 := Rect.unit (s := S2000x10) ![0, 0] S2000x10.size inb_S2000x10_S2000x10_0_0
abbrev r3_o : Rect S512x10 := Rect.unit (s := S512x10) ![0, 0] S512x10.size inb_S512x10_S512x10_0_0

/-- The output block after the body, from the four input blocks: its one store, of the whole block. -/
def out3_4 (x0 : Vec F S512x4096 .bf16) (x1 : Vec F S4096x500 .bf16) (x2 : Vec F S500x2000 .bf16) (x3 : Vec F S2000x10 .bf16) : Vec F S512x10 .bf16 :=
  View.canon [⟨r3_o, k3_pay1 (View.ld x0 r3_a) (View.ld x1 r3_u) (View.ld x2 r3_w1) (View.ld x3 r3_w2)⟩]

/-- The one store covers the block. -/
theorem cover3_4 (p0 : Vec F S512x10 .bf16) (y : S512x10.Idx) :
    ∃ pc ∈ ([⟨r3_o, p0⟩] : List (View.Piece (Elt F) S512x10 .bf16)), y ∈ pc.1.set :=
  View.cover_of_tiled [⟨r3_o, p0⟩] S512x10.size (by rfl) y

set_option maxHeartbeats 1000000 in
/-- The body on whole staging buffers: the inputs are left as read, the output holds `out3_4` of the inputs. -/
theorem sound_kernel3 (c : Dev nD) (E : Set ℕ) (i : grid3.Coords)
    (arg1 : Memref sig .tc .vmem S512x4096 .bf16) (harg1 : arg1.IsWhole) (arg2 : Memref sig .tc .vmem S4096x500 .bf16) (harg2 : arg2.IsWhole)
    (arg3 : Memref sig .tc .vmem S500x2000 .bf16) (harg3 : arg3.IsWhole) (arg4 : Memref sig .tc .vmem S2000x10 .bf16) (harg4 : arg4.IsWhole)
    (arg5 : Memref sig .tc .vmem S512x10 .bf16) (harg5 : arg5.IsWhole)
    (x0 : Vec F S512x4096 .bf16) (x1 : Vec F S4096x500 .bf16) (x2 : Vec F S500x2000 .bf16) (x3 : Vec F S2000x10 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3_body i arg1 harg1 arg2 harg2 arg3 harg3 arg4 harg4 arg5 harg5) K := by
  simp only [cc3_body_eq_skeleton]; unfold cc3_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data -/

/-- The arrays as the region finds them; after the body at point `t` each input's buffer at its block and the
    output's at `out3_4` of the input blocks; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdealR4.lean ====
/-
  The adjacency sweep of the 10-column stage, which keeps its rectified product and packs it beside the
  carried block, as one pipelined region: what a grid point's body leaves in its staging buffers, as proof
  data for the pipeline, and the body's obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep of the 10-column stage: one grid point computes a block of 512 rows of `max (adj · u) 0`,
    from a 512 × 4096 block of the adjacency and the whole 4096 × 10 operand, stores it in single precision, and
    stores beside it, rounded to bf16, the 512 × 256 block made of it and of a carried 512 × 10 block, each padded
    with zeros to 128 columns. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not: unfetched, the block
    index has not moved. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole rectangles the body loads and stores through. -/
abbrev r4_a : Rect S512x4096 := Rect.unit (s := S512x4096) ![0, 0] S512x4096.size inb_S512x4096_S512x4096_0_0
abbrev r4_u : Rect S4096x10 := Rect.unit (s := S4096x10) ![0, 0] S4096x10.size inb_S4096x10_S4096x10_0_0
abbrev r4_h : Rect S512x10 := Rect.unit (s := S512x10) ![0, 0] S512x10.size inb_S512x10_S512x10_0_0
abbrev r4_p : Rect S512x256 := Rect.unit (s := S512x256) ![0, 0] S512x256.size inb_S512x256_S512x256_0_0

/-- The single-precision output block after the body, from the adjacency block and the operand: its one store,
    of the whole block. -/
def out4_3 (x0 : Vec F S512x4096 .bf16) (x1 : Vec F S4096x10 .bf16) : Vec F S512x10 .f32 :=
  View.canon [⟨r4_h, k4_pay1 (View.ld x0 r4_a) (View.ld x1 r4_u)⟩]

/-- The packed bf16 output block after the body, from the three input blocks: its one store, of the whole
    block. -/
def out4_4 (x0 : Vec F S512x4096 .bf16) (x1 : Vec F S4096x10 .bf16) (x2 : Vec F S512x10 .f32) : Vec F S512x256 .bf16 :=
  View.canon [⟨r4_p, k4_pay2 (View.ld x0 r4_a) (View.ld x1 r4_u) (View.ld x2 r4_h)⟩]

/-- The one store covers the single-precision block. -/
theorem cover4_3 (p0 : Vec F S512x10 .f32) (y : S512x10.Idx) :
    ∃ pc ∈ ([⟨r4_h, p0⟩] : List (View.Piece (Elt F) S512x10 .f32)), y ∈ pc.1.set :=
  View.cover_of_tiled [⟨r4_h, p0⟩] S512x10.size (by rfl) y

/-- The one store covers the packed block. -/
theorem cover4_4 (p0 : Vec F S512x256 .bf16) (y : S512x256.Idx) :
    ∃ pc ∈ ([⟨r4_p, p0⟩] : List (View.Piece (Elt F) S512x256 .bf16)), y ∈ pc.1.set :=
  View.cover_of_tiled [⟨r4_p, p0⟩] S512x256.size (by rfl) y

set_option maxHeartbeats 1000000 in
/-- The body on whole staging buffers: the inputs are left as read, the outputs hold `out4_3` and `out4_4` of
    the inputs. -/
theorem sound_kernel4 (c : Dev nD) (E : Set ℕ) (i : grid4.Coords)
    (arg1 : Memref sig .tc .vmem S512x4096 .bf16) (harg1 : arg1.IsWhole) (arg2 : Memref sig .tc .vmem S4096x10 .bf16) (harg2 : arg2.IsWhole)
    (arg3 : Memref sig .tc .vmem S512x10 .f32) (harg3 : arg3.IsWhole) (arg4 : Memref sig .tc .vmem S512x10 .f32) (harg4 : arg4.IsWhole)
    (arg5 : Memref sig .tc .vmem S512x256 .bf16) (harg5 : arg5.IsWhole)
    (x0 : Vec F S512x4096 .bf16) (x1 : Vec F S4096x10 .bf16) (x2 : Vec F S512x10 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1) ∗ owns (c : Thread nD τ) arg5 fullShare (out4_4 x0 x1 x2)) -∗ K ⟨⟩))
      ⊢ wp frame (wpE (defs₀ (F := F)) Variants.none c none) E (cc4_body i arg1 harg1 arg2 harg2 arg3 harg3 arg4 harg4 arg5 harg5) K := by
  simp only [cc4_body_eq_skeleton]; unfold cc4_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-! ## The proof data -/

/-- The arrays as the region finds them; after the body at point `t` each input's buffer at its block and the
    outputs' at `out4_3` and `out4_4` of the input blocks; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) := by dsimp only [dat4]
theorem after4_4 (c : Dev nD) (t : Fin cfg4.N) :
    (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdealR5.lean ====
/-
  The fifth adjacency sweep: one grid point multiplies a 512 × 4096 block of the adjacency with the 4096 × 256
  operand holding the graph code and the latent code side by side, and from the two products leaves four blocks:
  the rectified projection of their sum, the sum itself, its soft assignment to the cluster centres, and the
  next sweep's operand.  What the body leaves in its staging buffers, as proof data for the pipeline, and the
  body's obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's staging buffer holds its block at every point, fetched there or not (windows 0 to 5). -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The whole rectangles the body loads and stores through, one per shape. -/
abbrev r5_a : Rect S512x4096 := Rect.unit (s := S512x4096) ![0, 0] S512x4096.size inb_S512x4096_S512x4096_0_0
abbrev r5_u : Rect S4096x256 := Rect.unit (s := S4096x256) ![0, 0] S4096x256.size inb_S4096x256_S4096x256_0_0
abbrev r5_g5 : Rect S10x10 := Rect.unit (s := S10x10) ![0, 0] S10x10.size inb_S10x10_S10x10_0_0
abbrev r5_g6 : Rect S10x2000 := Rect.unit (s := S10x2000) ![0, 0] S10x2000.size inb_S10x2000_S10x2000_0_0
abbrev r5_g7 : Rect S2000x500 := Rect.unit (s := S2000x500) ![0, 0] S2000x500.size inb_S2000x500_S2000x500_0_0
abbrev r5_o10 : Rect S512x10 := Rect.unit (s := S512x10) ![0, 0] S512x10.size inb_S512x10_S512x10_0_0
abbrev r5_o500 : Rect S512x500 := Rect.unit (s := S512x500) ![0, 0] S512x500.size inb_S512x500_S512x500_0_0

section Outs
variable (x0 : Vec F S512x4096 .bf16) (x1 : Vec F S4096x256 .bf16) (x2 : Vec F S10x10 .bf16) (x3 : Vec F S10x2000 .bf16)
  (x4 : Vec F S2000x500 .bf16) (x5 : Vec F S10x10 .f32)

/-- The rectified projection of the summed products: window 6's one store. -/
def out5_6 : Vec F S512x10 .f32 :=
  View.canon [⟨r5_o10, k5_pay8 (View.ld x0 r5_a) (View.ld x1 r5_u) (View.ld x2 r5_g5)⟩]

/-- The summed products: window 7's one store. -/
def out5_7 : Vec F S512x10 .f32 :=
  View.canon [⟨r5_o10, k5_pay7 (View.ld x0 r5_a) (View.ld x1 r5_u)⟩]

/-- The soft assignment of the sum: window 8's one store. -/
def out5_8 : Vec F S512x10 .f32 :=
  View.canon [⟨r5_o10, k5_pay1 (k5_pay9 (View.ld x0 r5_a) (View.ld x1 r5_u) (View.ld x5 r5_g5))⟩]

/-- The next sweep's operand: window 9's one store. -/
def out5_9 : Vec F S512x500 .bf16 :=
  View.canon [⟨r5_o500, k5_pay2 (k5_pay4 (View.ld x3 r5_g6)) (k5_pay5 (View.ld x4 r5_g7)) (k5_pay6 (View.ld x0 r5_a) (View.ld x1 r5_u))⟩]

end Outs

/-- Each output's one store covers its block. -/
theorem cover5_o10 (p0 : Vec F S512x10 .f32) (y : S512x10.Idx) :
    ∃ pc ∈ ([⟨r5_o10, p0⟩] : List (View.Piece (Elt F) S512x10 .f32)), y ∈ pc.1.set :=
  View.cover_of_tiled [⟨r5_o10, p0⟩] S512x10.size (by rfl) y
theorem cover5_o500 (p0 : Vec F S512x500 .bf16) (y : S512x500.Idx) :
    ∃ pc ∈ ([⟨r5_o500, p0⟩] : List (View.Piece (Elt F) S512x500 .bf16)), y ∈ pc.1.set :=
  View.cover_of_tiled [⟨r5_o500, p0⟩] S512x500.size (by rfl) y

set_option maxHeartbeats 2000000 in
/-- The body on whole staging buffers: the six inputs are left as read, each of the four outputs holds its
    `out5_w` of the inputs. -/
theorem sound_kernel5 (c : Dev nD) (E : Set ℕ) (i : grid5.Coords)
    (arg1 : Memref sig .tc .vmem S512x4096 .bf16) (harg1 : arg1.IsWhole) (arg2 : Memref sig .tc .vmem S4096x256 .bf16) (harg2 : arg2.IsWhole)
    (arg3 : Memref sig .tc .vmem S10x10 .bf16) (harg3 : arg3.IsWhole) (arg4 : Memref sig .tc .vmem S10x2000 .bf16) (harg4 : arg4.IsWhole)
    (arg5 : Memref sig .tc .vmem S2000x500 .bf16) (harg5 : arg5.IsWhole) (arg6 : Memref sig .tc .vmem S10x10 .f32) (harg6 : arg6.IsWhole)
    (arg7 : Memref sig .tc .vmem S512x10 .f32) (harg7 : arg7.IsWhole) (arg8 : Memref sig .tc .vmem S512x10 .f32) (harg8 : arg8.IsWhole)
    (arg9 : Memref sig .tc .vmem S512x10 .f32) (harg9 : arg9.IsWhole) (arg10 : Memref sig .tc .vmem S512x500 .bf16) (harg10 : arg10.IsWhole)
    (x0 : Vec F S512x4096 .bf16) (x1 : Vec F S4096x256 .bf16) (x2 : Vec F S10x10 .bf16) (x3 : Vec F S10x2000 .bf16)
    (x4 : Vec F S2000x500 .bf16) (x5 : Vec F S10x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out5_6 x0 x1 x2) ∗ owns (c : Thread nD τ) arg8 fullShare (out5_7 x0 x1)
            ∗ owns (c : Thread nD τ) arg9 fullShare (out5_8 x0 x1 x5) ∗ owns (c : Thread nD τ) arg10 fullShare (out5_9 x0 x1 x3 x4)) -∗ K ⟨⟩))
      ⊢ wp frame (wpE (defs₀ (F := F)) Variants.none c none) E
          (cc5_body i arg1 harg1 arg2 harg2 arg3 harg3 arg4 harg4 arg5 harg5 arg6 harg6 arg7 harg7 arg8 harg8 arg9 harg9 arg10 harg10) K := by
  simp only [cc5_body_eq_skeleton]; unfold cc5_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (cover5_o10 _)
  isplitl [H7]
  · iexists _; isplitr
    swap; · iexact H7
    ipureintro
    exact View.read_writes_eq_canon _ _ _ (cover5_o10 _)
  isplitl [H8]
  · iexists _; isplitr
    swap; · iexact H8
    ipureintro
    exact View.read_writes_eq_canon _ _ _ (cover5_o10 _)
  iexists _; isplitr
  swap; · iexact H9
  ipureintro
  exact View.read_writes_eq_canon _ _ _ (cover5_o500 _)

/-! ## The proof data -/

/-- The arrays as the region finds them; after the body at point `t` each input's buffer at its block and each
    output's at its `out5_w` of the input blocks; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t)
    | ⟨7, _⟩ => out5_7 (iblk5 V c 0 t) (iblk5 V c 1 t)
    | ⟨8, _⟩ => out5_8 (iblk5 V c 0 t) (iblk5 V c 1 t) (iblk5 V c 5 t)
    | ⟨9, _⟩ => out5_9 (iblk5 V c 0 t) (iblk5 V c 1 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) :
    (dat5 V c).after 6 t = out5_6 (iblk5 V c 0 t) (iblk5 V c 1 t) (iblk5 V c 2 t) := by dsimp only [dat5]
theorem after5_7 (c : Dev nD) (t : Fin cfg5.N) :
    (dat5 V c).after 7 t = out5_7 (iblk5 V c 0 t) (iblk5 V c 1 t) := by dsimp only [dat5]
theorem after5_8 (c : Dev nD) (t : Fin cfg5.N) :
    (dat5 V c).after 8 t = out5_8 (iblk5 V c 0 t) (iblk5 V c 1 t) (iblk5 V c 5 t) := by dsimp only [dat5]
theorem after5_9 (c : Dev nD) (t : Fin cfg5.N) :
    (dat5 V c).after 9 t = out5_9 (iblk5 V c 0 t) (iblk5 V c 1 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdealR6.lean ====
/-
  The sweep that follows an adjacency product by a 500 × 500 layer, as one pipelined region: what a
  grid point's body leaves in its staging buffers, as proof data for the pipeline, and the body's
  obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep with a 500 × 500 layer: one grid point computes a block of 512 rows of
    `max (adj · u) 0 · w`, from a 512 × 4096 block of the adjacency, the whole 4096 × 500 operand and the
    whole 500 × 500 weight. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: unfetched, the block
    index has not moved. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole rectangles the body loads and stores through. -/
abbrev r6_a : Rect S512x4096 := Rect.unit (s := S512x4096) ![0, 0] S512x4096.size inb_S512x4096_S512x4096_0_0
abbrev r6_u : Rect S4096x500 := Rect.unit (s := S4096x500) ![0, 0] S4096x500.size inb_S4096x500_S4096x500_0_0
abbrev r6_w : Rect S500x500 := Rect.unit (s := S500x500) ![0, 0] S500x500.size inb_S500x500_S500x500_0_0
abbrev r6_o : Rect S512x500 := Rect.unit (s := S512x500) ![0, 0] S512x500.size inb_S512x500_S512x500_0_0

/-- The output block after the body, from the three input blocks: its one store, of the whole block. -/
def out6_3 (x0 : Vec F S512x4096 .bf16) (x1 : Vec F S4096x500 .bf16) (x2 : Vec F S500x500 .bf16) : Vec F S512x500 .bf16 :=
  View.canon [⟨r6_o, k6_pay1 (View.ld x0 r6_a) (View.ld x1 r6_u) (View.ld x2 r6_w)⟩]

/-- The one store covers the block. -/
theorem cover6_3 (p0 : Vec F S512x500 .bf16) (y : S512x500.Idx) :
    ∃ pc ∈ ([⟨r6_o, p0⟩] : List (View.Piece (Elt F) S512x500 .bf16)), y ∈ pc.1.set :=
  View.cover_of_tiled [⟨r6_o, p0⟩] S512x500.size (by rfl) y

set_option maxHeartbeats 1000000 in
/-- The body on whole staging buffers: the inputs are left as read, the output holds `out6_3` of the inputs. -/
theorem sound_kernel6 (c : Dev nD) (E : Set ℕ) (i : grid6.Coords)
    (arg1 : Memref sig .tc .vmem S512x4096 .bf16) (harg1 : arg1.IsWhole) (arg2 : Memref sig .tc .vmem S4096x500 .bf16) (harg2 : arg2.IsWhole)
    (arg3 : Memref sig .tc .vmem S500x500 .bf16) (harg3 : arg3.IsWhole) (arg4 : Memref sig .tc .vmem S512x500 .bf16) (harg4 : arg4.IsWhole)
    (x0 : Vec F S512x4096 .bf16) (x1 : Vec F S4096x500 .bf16) (x2 : Vec F S500x500 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6_body i arg1 harg1 arg2 harg2 arg3 harg3 arg4 harg4) K := by
  simp only [cc6_body_eq_skeleton]; unfold cc6_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The proof data -/

/-- The arrays as the region finds them; after the body at point `t` each input's buffer at its block and the
    output's at `out6_3` of the input blocks; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KernelIdealR7.lean ====
/-
  The sweep that follows an adjacency product by a 500 × 512 layer, as one pipelined region: what a
  grid point's body leaves in its staging buffers, as proof data for the pipeline, and the body's
  obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep with a 500 × 512 layer: one grid point computes a block of 512 rows of
    `max (adj · u) 0 · w`, from a 512 × 4096 block of the adjacency, the whole 4096 × 500 operand and the
    whole 500 × 512 weight. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not: unfetched, the block
    index has not moved. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole rectangles the body loads and stores through. -/
abbrev r7_a : Rect S512x4096 := Rect.unit (s := S512x4096) ![0, 0] S512x4096.size inb_S512x4096_S512x4096_0_0
abbrev r7_u : Rect S4096x500 := Rect.unit (s := S4096x500) ![0, 0] S4096x500.size inb_S4096x500_S4096x500_0_0
abbrev r7_w : Rect S500x512 := Rect.unit (s := S500x512) ![0, 0] S500x512.size inb_S500x512_S500x512_0_0
abbrev r7_o : Rect S512x512 := Rect.unit (s := S512x512) ![0, 0] S512x512.size inb_S512x512_S512x512_0_0

/-- The output block after the body, from the three input blocks: its one store, of the whole block. -/
def out7_3 (x0 : Vec F S512x4096 .bf16) (x1 : Vec F S4096x500 .bf16) (x2 : Vec F S500x512 .bf16) : Vec F S512x512 .bf16 :=
  View.canon [⟨r7_o, k7_pay1 (View.ld x0 r7_a) (View.ld x1 r7_u) (View.ld x2 r7_w)⟩]

/-- The one store covers the block. -/
theorem cover7_3 (p0 : Vec F S512x512 .bf16) (y : S512x512.Idx) :
    ∃ pc ∈ ([⟨r7_o, p0⟩] : List (View.Piece (Elt F) S512x512 .bf16)), y ∈ pc.1.set :=
  View.cover_of_tiled [⟨r7_o, p0⟩] S512x512.size (by rfl) y

set_option maxHeartbeats 1000000 in
/-- The body on whole staging buffers: the inputs are left as read, the output holds `out7_3` of the inputs. -/
theorem sound_kernel7 (c : Dev nD) (E : Set ℕ) (i : grid7.Coords)
    (arg1 : Memref sig .tc .vmem S512x4096 .bf16) (harg1 : arg1.IsWhole) (arg2 : Memref sig .tc .vmem S4096x500 .bf16) (harg2 : arg2.IsWhole)
    (arg3 : Memref sig .tc .vmem S500x512 .bf16) (harg3 : arg3.IsWhole) (arg4 : Memref sig .tc .vmem S512x512 .bf16) (harg4 : arg4.IsWhole)
    (x0 : Vec F S512x4096 .bf16) (x1 : Vec F S4096x500 .bf16) (x2 : Vec F S500x512 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_body i arg1 harg1 arg2 harg2 arg3 harg3 arg4 harg4) K := by
  simp only [cc7_body_eq_skeleton]; unfold cc7_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The proof data -/

/-- The arrays as the region finds them; after the body at point `t` each input's buffer at its block and the
    output's at `out7_3` of the input blocks; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KernelIdealR8.lean ====
/-
  The adjacency sweep that keeps its rectified product twice, as one pipelined region: what a grid
  point's body leaves in its staging buffers, as proof data for the pipeline, and the body's obligation
  at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! # Adjacency sweep with two outputs: one grid point computes a block of 512 rows of `max (adj · u) 0`,
    from a 512 × 4096 block of the adjacency and the whole 4096 × 512 operand, and stores it once in single
    precision and once rounded to bf16. -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not: unfetched, the block
    index has not moved. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole rectangles the body loads and stores through. -/
abbrev r8_a : Rect S512x4096 := Rect.unit (s := S512x4096) ![0, 0] S512x4096.size inb_S512x4096_S512x4096_0_0
abbrev r8_u : Rect S4096x512 := Rect.unit (s := S4096x512) ![0, 0] S4096x512.size inb_S4096x512_S4096x512_0_0
abbrev r8_o : Rect S512x512 := Rect.unit (s := S512x512) ![0, 0] S512x512.size inb_S512x512_S512x512_0_0

/-- The single-precision output block after the body, from the two input blocks: its one store, of the whole
    block. -/
def out8_2 (x0 : Vec F S512x4096 .bf16) (x1 : Vec F S4096x512 .bf16) : Vec F S512x512 .f32 :=
  View.canon [⟨r8_o, k8_pay1 (View.ld x0 r8_a) (View.ld x1 r8_u)⟩]

/-- The bf16 output block after the body, from the two input blocks: its one store, of the whole block. -/
def out8_3 (x0 : Vec F S512x4096 .bf16) (x1 : Vec F S4096x512 .bf16) : Vec F S512x512 .bf16 :=
  View.canon [⟨r8_o, k8_pay2 (View.ld x0 r8_a) (View.ld x1 r8_u)⟩]

/-- The one store covers the single-precision block. -/
theorem cover8_2 (p0 : Vec F S512x512 .f32) (y : S512x512.Idx) :
    ∃ pc ∈ ([⟨r8_o, p0⟩] : List (View.Piece (Elt F) S512x512 .f32)), y ∈ pc.1.set :=
  View.cover_of_tiled [⟨r8_o, p0⟩] S512x512.size (by rfl) y

/-- The one store covers the bf16 block. -/
theorem cover8_3 (p0 : Vec F S512x512 .bf16) (y : S512x512.Idx) :
    ∃ pc ∈ ([⟨r8_o, p0⟩] : List (View.Piece (Elt F) S512x512 .bf16)), y ∈ pc.1.set :=
  View.cover_of_tiled [⟨r8_o, p0⟩] S512x512.size (by rfl) y

set_option maxHeartbeats 1000000 in
/-- The body on whole staging buffers: the inputs are left as read, the outputs hold `out8_2` and `out8_3` of
    the inputs. -/
theorem sound_kernel8 (c : Dev nD) (E : Set ℕ) (i : grid8.Coords)
    (arg1 : Memref sig .tc .vmem S512x4096 .bf16) (harg1 : arg1.IsWhole) (arg2 : Memref sig .tc .vmem S4096x512 .bf16) (harg2 : arg2.IsWhole)
    (arg3 : Memref sig .tc .vmem S512x512 .f32) (harg3 : arg3.IsWhole) (arg4 : Memref sig .tc .vmem S512x512 .bf16) (harg4 : arg4.IsWhole)
    (x0 : Vec F S512x4096 .bf16) (x1 : Vec F S4096x512 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out8_2 x0 x1) ∗ owns (c : Thread nD τ) arg4 fullShare (out8_3 x0 x1)) -∗ K ⟨⟩))
      ⊢ wp frame (wpE (defs₀ (F := F)) Variants.none c none) E (cc8_body i arg1 harg1 arg2 harg2 arg3 harg3 arg4 harg4) K := by
  simp only [cc8_body_eq_skeleton]; unfold cc8_body_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover8_2 _)
  iexists _; isplitr
  swap; · iexact H3
  ipureintro
  exact View.read_writes_eq_canon _ _ _ (cover8_3 _)

/-! ## The proof data -/

/-- The arrays as the region finds them; after the body at point `t` each input's buffer at its block and the
    outputs' at `out8_2` and `out8_3` of the input blocks; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
    | ⟨3, _⟩ => out8_3 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = out8_2 (iblk8 V c 0 t) (iblk8 V c 1 t) := by dsimp only [dat8]
theorem after8_3 (c : Dev nD) (t : Fin cfg8.N) :
    (dat8 V c).after 3 t = out8_3 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KernelIdealR9.lean ====
/-
  The Gram-matrix region: one grid point computes a block of 1024 rows of
  `½ (1 + tanh (½ · (Z Zᵀ)))` from a 1024 × 512 row block of `Z` and the whole of `Z` — two windows
  onto ONE array, which they hold at complementary half shares.  What the body leaves in its staging buffers,
  as proof data for the pipeline, and the body's obligation at every point.
-/
import proofs.«140843_g75050258530825_cont_9to1_m_403_24_alg».proof.Proof.Gen.KernelIdeal.Launch
import proofs.«140843_g75050258530825_cont_9to1_m_403_24_alg».proof.Proof.Gen.KernelIdeal.Skeleton
import proofs.«140843_g75050258530825_cont_9to1_m_403_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not: unfetched, the block
    index has not moved. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The whole rectangles the body loads and stores through. -/
abbrev r9_z : Rect S1024x512 := Rect.unit (s := S1024x512) ![0, 0] S1024x512.size inb_S1024x512_S1024x512_0_0
abbrev r9_w : Rect S4096x512 := Rect.unit (s := S4096x512) ![0, 0] S4096x512.size inb_S4096x512_S4096x512_0_0
abbrev r9_o : Rect S1024x4096 := Rect.unit (s := S1024x4096) ![0, 0] S1024x4096.size inb_S1024x4096_S1024x4096_0_0

/-- The output block after the body, from the two input blocks: its one store, of the whole block. -/
def out9_2 (x0 : Vec F S1024x512 .bf16) (x1 : Vec F S4096x512 .bf16) : Vec F S1024x4096 .f32 :=
  View.canon [⟨r9_o, k9_pay1 (View.ld x0 r9_z) (View.ld x1 r9_w)⟩]

/-- The one store covers the block. -/
theorem cover9_2 (p0 : Vec F S1024x4096 .f32) (y : S1024x4096.Idx) :
    ∃ pc ∈ ([⟨r9_o, p0⟩] : List (View.Piece (Elt F) S1024x4096 .f32)), y ∈ pc.1.set :=
  View.cover_of_tiled [⟨r9_o, p0⟩] S1024x4096.size (by rfl) y

set_option maxHeartbeats 1000000 in
/-- The body on whole staging buffers: the inputs are left as read, the output holds `out9_2` of the inputs. -/
theorem sound_kernel9 (c : Dev nD) (E : Set ℕ) (i : grid9.Coords)
    (arg1 : Memref sig .tc .vmem S1024x512 .bf16) (harg1 : arg1.IsWhole) (arg2 : Memref sig .tc .vmem S4096x512 .bf16) (harg2 : arg2.IsWhole)
    (arg3 : Memref sig .tc .vmem S1024x4096 .f32) (harg3 : arg3.IsWhole)
    (x0 : Vec F S1024x512 .bf16) (x1 : Vec F S4096x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__nt_body i arg1 harg1 arg2 harg2 arg3 harg3) K := by
  simp only [cc9__nt_body_eq_skeleton]; unfold cc9__nt_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The proof data -/

/-- The arrays as the region finds them; after the body at point `t` each input's buffer at its block and the
    output's at `out9_2` of the input blocks; nothing owed.  The two input windows read one array: each holds it at
    one half of the full share; the output's array is held whole. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q w := match w with
    | ⟨0, _⟩ => fullShare.left
    | ⟨1, _⟩ => fullShare.right
    | ⟨2, _⟩ => fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) :
    (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation at a generic point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KernelIdealRun.lean ====
/-
  The run of the whole kernel program: ten pipelined regions among six stretches of host operations.
  The contents of every unscoped buffer at each of the sixteen boundaries between items are named by a fold from
  the launch memory — a host stretch applies its operations, a region replaces its windows' arrays by what its
  write-backs leave — and each region is entered from one boundary's contents and left at the next.
-/
import proofs.«140843_g75050258530825_cont_9to1_m_403_24_alg».proof.Proof.KernelIdealR0
import proofs.«140843_g75050258530825_cont_9to1_m_403_24_alg».proof.Proof.KernelIdealR1
import proofs.«140843_g75050258530825_cont_9to1_m_403_24_alg».proof.Proof.KernelIdealR2
import proofs.«140843_g75050258530825_cont_9to1_m_403_24_alg».proof.Proof.KernelIdealR3
import proofs.«140843_g75050258530825_cont_9to1_m_403_24_alg».proof.Proof.KernelIdealR4
import proofs.«140843_g75050258530825_cont_9to1_m_403_24_alg».proof.Proof.KernelIdealR5
import proofs.«140843_g75050258530825_cont_9to1_m_403_24_alg».proof.Proof.KernelIdealR6
import proofs.«140843_g75050258530825_cont_9to1_m_403_24_alg».proof.Proof.KernelIdealR7
import proofs.«140843_g75050258530825_cont_9to1_m_403_24_alg».proof.Proof.KernelIdealR8
import proofs.«140843_g75050258530825_cont_9to1_m_403_24_alg».proof.Proof.KernelIdealR9
import proofs.«140843_g75050258530825_cont_9to1_m_403_24_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffer contents at each boundary -/

/-- A valuation read at the TensorCore's references. -/
abbrev atRefs (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m ((c : Dev nD), b)
/-- After the first host stretch (the narrowed weights, the biases as rows, the transposed centres). -/
def W1 (c : Dev nD) : Valuation τ sig (Elt F) := StableHlo.after hostOps0 (W0 m c)
/-- After the autoencoder region. -/
def W2 (c : Dev nD) : Valuation τ sig (Elt F) :=
  Pipeline.withArrays spec0 c (W1 m c) fun w => (dat0 (atRefs (W1 m)) c).arrAt w cfg0.N
def W3 (c : Dev nD) : Valuation τ sig (Elt F) := StableHlo.after hostOps1 (W2 m c)
/-- After the first sweep. -/
def W4 (c : Dev nD) : Valuation τ sig (Elt F) :=
  Pipeline.withArrays spec1 c (W3 m c) fun w => (dat1 (atRefs (W3 m)) c).arrAt w cfg1.N
/-- After the second sweep. -/
def W5 (c : Dev nD) : Valuation τ sig (Elt F) :=
  Pipeline.withArrays spec2 c (W4 m c) fun w => (dat2 (atRefs (W4 m)) c).arrAt w cfg2.N
def W6 (c : Dev nD) : Valuation τ sig (Elt F) := StableHlo.after hostOps3 (W5 m c)
/-- After the third sweep. -/
def W7 (c : Dev nD) : Valuation τ sig (Elt F) :=
  Pipeline.withArrays spec3 c (W6 m c) fun w => (dat3 (atRefs (W6 m)) c).arrAt w cfg3.N
/-- After the fourth sweep. -/
def W8 (c : Dev nD) : Valuation τ sig (Elt F) :=
  Pipeline.withArrays spec4 c (W7 m c) fun w => (dat4 (atRefs (W7 m)) c).arrAt w cfg4.N
def W9 (c : Dev nD) : Valuation τ sig (Elt F) := StableHlo.after hostOps5 (W8 m c)
/-- After the fifth sweep. -/
def W10 (c : Dev nD) : Valuation τ sig (Elt F) :=
  Pipeline.withArrays spec5 c (W9 m c) fun w => (dat5 (atRefs (W9 m)) c).arrAt w cfg5.N
def W11 (c : Dev nD) : Valuation τ sig (Elt F) := StableHlo.after hostOps6 (W10 m c)
/-- After the sixth sweep. -/
def W12 (c : Dev nD) : Valuation τ sig (Elt F) :=
  Pipeline.withArrays spec6 c (W11 m c) fun w => (dat6 (atRefs (W11 m)) c).arrAt w cfg6.N
def W13 (c : Dev nD) : Valuation τ sig (Elt F) := StableHlo.after hostOps7 (W12 m c)
/-- After the seventh sweep. -/
def W14 (c : Dev nD) : Valuation τ sig (Elt F) :=
  Pipeline.withArrays spec7 c (W13 m c) fun w => (dat7 (atRefs (W13 m)) c).arrAt w cfg7.N
/-- After the eighth sweep. -/
def W15 (c : Dev nD) : Valuation τ sig (Elt F) :=
  Pipeline.withArrays spec8 c (W14 m c) fun w => (dat8 (atRefs (W14 m)) c).arrAt w cfg8.N
/-- After the Gram-matrix region: its two input windows read one array, which it leaves as found; only its
    output array changes. -/
def W16 (c : Dev nD) : Valuation τ sig (Elt F) :=
  Function.update (W15 m c) (Proc.devRef .tc main_v37) ((dat9 (atRefs (W15 m)) c).arrAt 2 cfg9.N)

/-! ## A region's arrays after it, and every other buffer as before it -/

theorem W2_arr (c : Dev nD) (w : Fin cfg0.W) :
    W2 m c (Proc.devRef .tc (Pipeline.arrRef spec0 w)) = (dat0 (atRefs (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A buffer that is no output array of the region is left as found: an input window's array is never written. -/
theorem W2_keep (c : Dev nD) (b : Ref sig .tc)
    (hb : b ∉ ([main_v18_0, main_v18_1, main_v18_2, main_v18_3, main_v18_4] : List (Ref sig .tc))) :
    W2 m c (Proc.devRef .tc b) = W1 m c (Proc.devRef .tc b) := by
  by_cases h : ∃ w, Pipeline.arrRef spec0 w = b
  · obtain ⟨w, rfl⟩ := h
    have hin : (cfg0.win w).isOut = false :=
      (by decide : ∀ w : Fin cfg0.W, Pipeline.arrRef spec0 w ∉ ([main_v18_0, main_v18_1, main_v18_2, main_v18_3, main_v18_4] : List (Ref sig .tc)) →
        (cfg0.win w).isOut = false) w hb
    exact (W2_arr m c w).trans (((dat0 (atRefs (W1 m)) c).arrAt_in w hin _).trans (A_eq0 (atRefs (W1 m)) c w))
  · exact W2_of_ne m c b fun w e => h ⟨w, e⟩

theorem W4_arr (c : Dev nD) (w : Fin cfg1.W) :
    W4 m c (Proc.devRef .tc (Pipeline.arrRef spec1 w)) = (dat1 (atRefs (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_keep (c : Dev nD) (b : Ref sig .tc) (hb : b ∉ ([main_v22_0, main_v22_1, main_v22_2] : List (Ref sig .tc))) :
    W4 m c (Proc.devRef .tc b) = W3 m c (Proc.devRef .tc b) := by
  by_cases h : ∃ w, Pipeline.arrRef spec1 w = b
  · obtain ⟨w, rfl⟩ := h
    have hin : (cfg1.win w).isOut = false :=
      (by decide : ∀ w : Fin cfg1.W, Pipeline.arrRef spec1 w ∉ ([main_v22_0, main_v22_1, main_v22_2] : List (Ref sig .tc)) →
        (cfg1.win w).isOut = false) w hb
    exact (W4_arr m c w).trans (((dat1 (atRefs (W3 m)) c).arrAt_in w hin _).trans (A_eq1 (atRefs (W3 m)) c w))
  · exact W4_of_ne m c b fun w e => h ⟨w, e⟩

theorem W5_arr (c : Dev nD) (w : Fin cfg2.W) :
    W5 m c (Proc.devRef .tc (Pipeline.arrRef spec2 w)) = (dat2 (atRefs (W4 m)) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W5_keep (c : Dev nD) (b : Ref sig .tc) (hb : b ∉ ([main_v23] : List (Ref sig .tc))) :
    W5 m c (Proc.devRef .tc b) = W4 m c (Proc.devRef .tc b) := by
  by_cases h : ∃ w, Pipeline.arrRef spec2 w = b
  · obtain ⟨w, rfl⟩ := h
    have hin : (cfg2.win w).isOut = false :=
      (by decide : ∀ w : Fin cfg2.W, Pipeline.arrRef spec2 w ∉ ([main_v23] : List (Ref sig .tc)) → (cfg2.win w).isOut = false) w hb
    exact (W5_arr m c w).trans (((dat2 (atRefs (W4 m)) c).arrAt_in w hin _).trans (A_eq2 (atRefs (W4 m)) c w))
  · exact W5_of_ne m c b fun w e => h ⟨w, e⟩

theorem W7_arr (c : Dev nD) (w : Fin cfg3.W) :
    W7 m c (Proc.devRef .tc (Pipeline.arrRef spec3 w)) = (dat3 (atRefs (W6 m)) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
theorem W7_keep (c : Dev nD) (b : Ref sig .tc) (hb : b ∉ ([main_v26] : List (Ref sig .tc))) :
    W7 m c (Proc.devRef .tc b) = W6 m c (Proc.devRef .tc b) := by
  by_cases h : ∃ w, Pipeline.arrRef spec3 w = b
  · obtain ⟨w, rfl⟩ := h
    have hin : (cfg3.win w).isOut = false :=
      (by decide : ∀ w : Fin cfg3.W, Pipeline.arrRef spec3 w ∉ ([main_v26] : List (Ref sig .tc)) → (cfg3.win w).isOut = false) w hb
    exact (W7_arr m c w).trans (((dat3 (atRefs (W6 m)) c).arrAt_in w hin _).trans (A_eq3 (atRefs (W6 m)) c w))
  · exact W7_of_ne m c b fun w e => h ⟨w, e⟩

theorem W8_arr (c : Dev nD) (w : Fin cfg4.W) :
    W8 m c (Proc.devRef .tc (Pipeline.arrRef spec4 w)) = (dat4 (atRefs (W7 m)) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
theorem W8_keep (c : Dev nD) (b : Ref sig .tc) (hb : b ∉ ([main_v27_0, main_v27_1] : List (Ref sig .tc))) :
    W8 m c (Proc.devRef .tc b) = W7 m c (Proc.devRef .tc b) := by
  by_cases h : ∃ w, Pipeline.arrRef spec4 w = b
  · obtain ⟨w, rfl⟩ := h
    have hin : (cfg4.win w).isOut = false :=
      (by decide : ∀ w : Fin cfg4.W, Pipeline.arrRef spec4 w ∉ ([main_v27_0, main_v27_1] : List (Ref sig .tc)) → (cfg4.win w).isOut = false) w hb
    exact (W8_arr m c w).trans (((dat4 (atRefs (W7 m)) c).arrAt_in w hin _).trans (A_eq4 (atRefs (W7 m)) c w))
  · exact W8_of_ne m c b fun w e => h ⟨w, e⟩

theorem W10_arr (c : Dev nD) (w : Fin cfg5.W) :
    W10 m c (Proc.devRef .tc (Pipeline.arrRef spec5 w)) = (dat5 (atRefs (W9 m)) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
theorem W10_keep (c : Dev nD) (b : Ref sig .tc) (hb : b ∉ ([main_v31_0, main_v31_1, main_v31_2, main_v31_3] : List (Ref sig .tc))) :
    W10 m c (Proc.devRef .tc b) = W9 m c (Proc.devRef .tc b) := by
  by_cases h : ∃ w, Pipeline.arrRef spec5 w = b
  · obtain ⟨w, rfl⟩ := h
    have hin : (cfg5.win w).isOut = false :=
      (by decide : ∀ w : Fin cfg5.W, Pipeline.arrRef spec5 w ∉ ([main_v31_0, main_v31_1, main_v31_2, main_v31_3] : List (Ref sig .tc)) →
        (cfg5.win w).isOut = false) w hb
    exact (W10_arr m c w).trans (((dat5 (atRefs (W9 m)) c).arrAt_in w hin _).trans (A_eq5 (atRefs (W9 m)) c w))
  · exact W10_of_ne m c b fun w e => h ⟨w, e⟩

theorem W12_arr (c : Dev nD) (w : Fin cfg6.W) :
    W12 m c (Proc.devRef .tc (Pipeline.arrRef spec6 w)) = (dat6 (atRefs (W11 m)) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
theorem W12_keep (c : Dev nD) (b : Ref sig .tc) (hb : b ∉ ([main_v33] : List (Ref sig .tc))) :
    W12 m c (Proc.devRef .tc b) = W11 m c (Proc.devRef .tc b) := by
  by_cases h : ∃ w, Pipeline.arrRef spec6 w = b
  · obtain ⟨w, rfl⟩ := h
    have hin : (cfg6.win w).isOut = false :=
      (by decide : ∀ w : Fin cfg6.W, Pipeline.arrRef spec6 w ∉ ([main_v33] : List (Ref sig .tc)) → (cfg6.win w).isOut = false) w hb
    exact (W12_arr m c w).trans (((dat6 (atRefs (W11 m)) c).arrAt_in w hin _).trans (A_eq6 (atRefs (W11 m)) c w))
  · exact W12_of_ne m c b fun w e => h ⟨w, e⟩

theorem W14_arr (c : Dev nD) (w : Fin cfg7.W) :
    W14 m c (Proc.devRef .tc (Pipeline.arrRef spec7 w)) = (dat7 (atRefs (W13 m)) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m c (Proc.devRef .tc b) = W13 m c (Proc.devRef .tc b) := by
  unfold W14; exact Pipeline.withArrays_of_ne spec7 c _ _ b hb
theorem W14_keep (c : Dev nD) (b : Ref sig .tc) (hb : b ∉ ([main_v35] : List (Ref sig .tc))) :
    W14 m c (Proc.devRef .tc b) = W13 m c (Proc.devRef .tc b) := by
  by_cases h : ∃ w, Pipeline.arrRef spec7 w = b
  · obtain ⟨w, rfl⟩ := h
    have hin : (cfg7.win w).isOut = false :=
      (by decide : ∀ w : Fin cfg7.W, Pipeline.arrRef spec7 w ∉ ([main_v35] : List (Ref sig .tc)) → (cfg7.win w).isOut = false) w hb
    exact (W14_arr m c w).trans (((dat7 (atRefs (W13 m)) c).arrAt_in w hin _).trans (A_eq7 (atRefs (W13 m)) c w))
  · exact W14_of_ne m c b fun w e => h ⟨w, e⟩

theorem W15_arr (c : Dev nD) (w : Fin cfg8.W) :
    W15 m c (Proc.devRef .tc (Pipeline.arrRef spec8 w)) = (dat8 (atRefs (W14 m)) c).arrAt w cfg8.N := by
  unfold W15; exact Pipeline.withArrays_arr spec8 launch8.win.arr_inj c _ _ w
theorem W15_of_ne (c : Dev nD) (b : Ref sig .tc) (hb : ∀ w, Pipeline.arrRef spec8 w ≠ b) :
    W15 m c (Proc.devRef .tc b) = W14 m c (Proc.devRef .tc b) := by
  unfold W15; exact Pipeline.withArrays_of_ne spec8 c _ _ b hb
theorem W15_keep (c : Dev nD) (b : Ref sig .tc) (hb : b ∉ ([main_v36_0, main_v36_1] : List (Ref sig .tc))) :
    W15 m c (Proc.devRef .tc b) = W14 m c (Proc.devRef .tc b) := by
  by_cases h : ∃ w, Pipeline.arrRef spec8 w = b
  · obtain ⟨w, rfl⟩ := h
    have hin : (cfg8.win w).isOut = false :=
      (by decide : ∀ w : Fin cfg8.W, Pipeline.arrRef spec8 w ∉ ([main_v36_0, main_v36_1] : List (Ref sig .tc)) → (cfg8.win w).isOut = false) w hb
    exact (W15_arr m c w).trans (((dat8 (atRefs (W14 m)) c).arrAt_in w hin _).trans (A_eq8 (atRefs (W14 m)) c w))
  · exact W15_of_ne m c b fun w e => h ⟨w, e⟩

/-- The last region changes its output array only. -/
theorem W16_out (c : Dev nD) : W16 m c (Proc.devRef .tc main_v37) = (dat9 (atRefs (W15 m)) c).arrAt 2 cfg9.N := by
  unfold W16; exact Function.update_self _ _ _
theorem W16_keep (c : Dev nD) (b : Ref sig .tc) (hb : b ∉ ([main_v37] : List (Ref sig .tc))) :
    W16 m c (Proc.devRef .tc b) = W15 m c (Proc.devRef .tc b) := by
  unfold W16
  exact Function.update_of_ne (StableHlo.devRef_ne_of_ne (List.ne_of_not_mem_cons hb)) _ _

/-! A host stretch leaves every buffer it does not write as found. -/
theorem W1_keep (c : Dev nD) (b : Ref sig .tc) (hb : b ∉ hostOps0_W) : W1 m c (Proc.devRef .tc b) = W0 m c (Proc.devRef .tc b) :=
  StableHlo.after_of_writes_sub hostOps0 _ hostOps0_writes hb
theorem W3_keep (c : Dev nD) (b : Ref sig .tc) (hb : b ∉ hostOps1_W) : W3 m c (Proc.devRef .tc b) = W2 m c (Proc.devRef .tc b) :=
  StableHlo.after_of_writes_sub hostOps1 _ hostOps1_writes hb
theorem W6_keep (c : Dev nD) (b : Ref sig .tc) (hb : b ∉ hostOps3_W) : W6 m c (Proc.devRef .tc b) = W5 m c (Proc.devRef .tc b) :=
  StableHlo.after_of_writes_sub hostOps3 _ hostOps3_writes hb
theorem W9_keep (c : Dev nD) (b : Ref sig .tc) (hb : b ∉ hostOps5_W) : W9 m c (Proc.devRef .tc b) = W8 m c (Proc.devRef .tc b) :=
  StableHlo.after_of_writes_sub hostOps5 _ hostOps5_writes hb
theorem W11_keep (c : Dev nD) (b : Ref sig .tc) (hb : b ∉ hostOps6_W) : W11 m c (Proc.devRef .tc b) = W10 m c (Proc.devRef .tc b) :=
  StableHlo.after_of_writes_sub hostOps6 _ hostOps6_writes hb
theorem W13_keep (c : Dev nD) (b : Ref sig .tc) (hb : b ∉ hostOps7_W) : W13 m c (Proc.devRef .tc b) = W12 m c (Proc.devRef .tc b) :=
  StableHlo.after_of_writes_sub hostOps7 _ hostOps7_writes hb

/-! ## The proof data family and the thread state -/

/-- No pipeline has a prefetched table. -/
abbrev admH : (p : Fin 10) → (pcfgs (F := F) p).Adm := fun p => (cfgs p).toPCfg_adm

/-- Every pipeline's proof data, each at its region's entry contents. -/
def pdats : (p : Fin 10) → (c : Dev nD) → Dat τ (Elt F) Unit ℕ (Pipeline.UD sig nD τ) ℕ (Pipeline.pin (pcfgs (F := F)) admH p) c
  | ⟨0, _⟩ => fun c => dat0 (atRefs (W1 m)) c
  | ⟨1, _⟩ => fun c => dat1 (atRefs (W3 m)) c
  | ⟨2, _⟩ => fun c => dat2 (atRefs (W4 m)) c
  | ⟨3, _⟩ => fun c => dat3 (atRefs (W6 m)) c
  | ⟨4, _⟩ => fun c => dat4 (atRefs (W7 m)) c
  | ⟨5, _⟩ => fun c => dat5 (atRefs (W9 m)) c
  | ⟨6, _⟩ => fun c => dat6 (atRefs (W11 m)) c
  | ⟨7, _⟩ => fun c => dat7 (atRefs (W13 m)) c
  | ⟨8, _⟩ => fun c => dat8 (atRefs (W14 m)) c
  | ⟨9, _⟩ => fun c => dat9 (atRefs (W15 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

theorem hF0 (c : Dev nD) (w : Fin cfg0.W) : (dat0 (atRefs (W1 m)) c).arrAt w cfg0.N = atRefs (W2 m) c (Pipeline.arrRef spec0 w) :=
  (W2_arr m c w).symm
theorem hrest0 (c : Dev nD) : ∀ b, b ∉ Finset.univ.image (Pipeline.arrRef spec0) → atRefs (W2 m) c b = atRefs (W1 m) c b :=
  fun b hb => W2_of_ne m c b fun w e => hb (Finset.mem_image.mpr ⟨w, Finset.mem_univ _, e⟩)

set_option backward.isDefEq.respectTransparency.types false in
/-- The autoencoder region over the thread state: entered from every unscoped buffer at `W1`, left at `W2`. Its
    arrays are split out of the unscoped buffers at entry and put back at the exit contents; the generator register
    goes into the pipeline's invariant and comes back; nothing is owed. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (atRefs (W1 m) c)
  hentry c := by
    rw [Pipeline.ownSems0_none]
    have hsplit := Pipeline.arrays_of_unscopedBufs (p := 0) (pcfgs (F := F)) admH (pdats m) launch0.win launch0.arr_whole c
      ((pdats m 0 c).share_full fun _ => rfl) (atRefs (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m) ((pdats m 0 c).share_full fun _ => rfl)
      (atRefs (W1 m) c) (atRefs (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) : (dat1 (atRefs (W3 m)) c).arrAt w cfg1.N = atRefs (W4 m) c (Pipeline.arrRef spec1 w) :=
  (W4_arr m c w).symm
theorem hrest1 (c : Dev nD) : ∀ b, b ∉ Finset.univ.image (Pipeline.arrRef spec1) → atRefs (W4 m) c b = atRefs (W3 m) c b :=
  fun b hb => W4_of_ne m c b fun w e => hb (Finset.mem_image.mpr ⟨w, Finset.mem_univ _, e⟩)

set_option backward.isDefEq.respectTransparency.types false in
/-- The first sweep over the thread state: entered from `W3`, left at `W4`. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (atRefs (W3 m) c)
  hentry c := by
    rw [Pipeline.ownSems0_none]
    have hsplit := Pipeline.arrays_of_unscopedBufs (p := 1) (pcfgs (F := F)) admH (pdats m) launch1.win launch1.arr_whole c
      ((pdats m 1 c).share_full fun _ => rfl) (atRefs (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m) ((pdats m 1 c).share_full fun _ => rfl)
      (atRefs (W3 m) c) (atRefs (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) (w : Fin cfg2.W) : (dat2 (atRefs (W4 m)) c).arrAt w cfg2.N = atRefs (W5 m) c (Pipeline.arrRef spec2 w) :=
  (W5_arr m c w).symm
theorem hrest2 (c : Dev nD) : ∀ b, b ∉ Finset.univ.image (Pipeline.arrRef spec2) → atRefs (W5 m) c b = atRefs (W4 m) c b :=
  fun b hb => W5_of_ne m c b fun w e => hb (Finset.mem_image.mpr ⟨w, Finset.mem_univ _, e⟩)

set_option backward.isDefEq.respectTransparency.types false in
/-- The second sweep over the thread state: entered from `W4`, left at `W5`. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (atRefs (W4 m) c)
  hentry c := by
    rw [Pipeline.ownSems0_none]
    have hsplit := Pipeline.arrays_of_unscopedBufs (p := 2) (pcfgs (F := F)) admH (pdats m) launch2.win launch2.arr_whole c
      ((pdats m 2 c).share_full fun _ => rfl) (atRefs (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := Pipeline.UD sig nD τ) (Lvl := ℕ)
      launch2.win launch2.arr_whole c (pdats m) ((pdats m 2 c).share_full fun _ => rfl)
      (atRefs (W4 m) c) (atRefs (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) (w : Fin cfg3.W) : (dat3 (atRefs (W6 m)) c).arrAt w cfg3.N = atRefs (W7 m) c (Pipeline.arrRef spec3 w) :=
  (W7_arr m c w).symm
theorem hrest3 (c : Dev nD) : ∀ b, b ∉ Finset.univ.image (Pipeline.arrRef spec3) → atRefs (W7 m) c b = atRefs (W6 m) c b :=
  fun b hb => W7_of_ne m c b fun w e => hb (Finset.mem_image.mpr ⟨w, Finset.mem_univ _, e⟩)

set_option backward.isDefEq.respectTransparency.types false in
/-- The third sweep over the thread state: entered from `W6`, left at `W7`. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (W6 m)) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (atRefs (W6 m) c)
  hentry c := by
    rw [Pipeline.ownSems0_none]
    have hsplit := Pipeline.arrays_of_unscopedBufs (p := 3) (pcfgs (F := F)) admH (pdats m) launch3.win launch3.arr_whole c
      ((pdats m 3 c).share_full fun _ => rfl) (atRefs (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := Pipeline.UD sig nD τ) (Lvl := ℕ)
      launch3.win launch3.arr_whole c (pdats m) ((pdats m 3 c).share_full fun _ => rfl)
      (atRefs (W6 m) c) (atRefs (W7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF4 (c : Dev nD) (w : Fin cfg4.W) : (dat4 (atRefs (W7 m)) c).arrAt w cfg4.N = atRefs (W8 m) c (Pipeline.arrRef spec4 w) :=
  (W8_arr m c w).symm
theorem hrest4 (c : Dev nD) : ∀ b, b ∉ Finset.univ.image (Pipeline.arrRef spec4) → atRefs (W8 m) c b = atRefs (W7 m) c b :=
  fun b hb => W8_of_ne m c b fun w e => hb (Finset.mem_image.mpr ⟨w, Finset.mem_univ _, e⟩)

set_option backward.isDefEq.respectTransparency.types false in
/-- The fourth sweep over the thread state: entered from `W7`, left at `W8`. -/
def reg4 : Pipeline.RegionSeg (pcfgs (F := F)) admH (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRefs (W7 m)) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (atRefs (W7 m) c)
  hentry c := by
    rw [Pipeline.ownSems0_none]
    have hsplit := Pipeline.arrays_of_unscopedBufs (p := 4) (pcfgs (F := F)) admH (pdats m) launch4.win launch4.arr_whole c
      ((pdats m 4 c).share_full fun _ => rfl) (atRefs (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := Pipeline.UD sig nD τ) (Lvl := ℕ)
      launch4.win launch4.arr_whole c (pdats m) ((pdats m 4 c).share_full fun _ => rfl)
      (atRefs (W7 m) c) (atRefs (W8 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF5 (c : Dev nD) (w : Fin cfg5.W) : (dat5 (atRefs (W9 m)) c).arrAt w cfg5.N = atRefs (W10 m) c (Pipeline.arrRef spec5 w) :=
  (W10_arr m c w).symm
theorem hrest5 (c : Dev nD) : ∀ b, b ∉ Finset.univ.image (Pipeline.arrRef spec5) → atRefs (W10 m) c b = atRefs (W9 m) c b :=
  fun b hb => W10_of_ne m c b fun w e => hb (Finset.mem_image.mpr ⟨w, Finset.mem_univ _, e⟩)

set_option backward.isDefEq.respectTransparency.types false in
/-- The fifth sweep over the thread state: entered from `W9`, left at `W10`. -/
def reg5 : Pipeline.RegionSeg (pcfgs (F := F)) admH (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atRefs (W9 m)) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (atRefs (W9 m) c)
  hentry c := by
    rw [Pipeline.ownSems0_none]
    have hsplit := Pipeline.arrays_of_unscopedBufs (p := 5) (pcfgs (F := F)) admH (pdats m) launch5.win launch5.arr_whole c
      ((pdats m 5 c).share_full fun _ => rfl) (atRefs (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := Pipeline.UD sig nD τ) (Lvl := ℕ)
      launch5.win launch5.arr_whole c (pdats m) ((pdats m 5 c).share_full fun _ => rfl)
      (atRefs (W9 m) c) (atRefs (W10 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF6 (c : Dev nD) (w : Fin cfg6.W) : (dat6 (atRefs (W11 m)) c).arrAt w cfg6.N = atRefs (W12 m) c (Pipeline.arrRef spec6 w) :=
  (W12_arr m c w).symm
theorem hrest6 (c : Dev nD) : ∀ b, b ∉ Finset.univ.image (Pipeline.arrRef spec6) → atRefs (W12 m) c b = atRefs (W11 m) c b :=
  fun b hb => W12_of_ne m c b fun w e => hb (Finset.mem_image.mpr ⟨w, Finset.mem_univ _, e⟩)

set_option backward.isDefEq.respectTransparency.types false in
/-- The sixth sweep over the thread state: entered from `W11`, left at `W12`. -/
def reg6 : Pipeline.RegionSeg (pcfgs (F := F)) admH (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atRefs (W11 m)) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (atRefs (W11 m) c)
  hentry c := by
    rw [Pipeline.ownSems0_none]
    have hsplit := Pipeline.arrays_of_unscopedBufs (p := 6) (pcfgs (F := F)) admH (pdats m) launch6.win launch6.arr_whole c
      ((pdats m 6 c).share_full fun _ => rfl) (atRefs (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := Pipeline.UD sig nD τ) (Lvl := ℕ)
      launch6.win launch6.arr_whole c (pdats m) ((pdats m 6 c).share_full fun _ => rfl)
      (atRefs (W11 m) c) (atRefs (W12 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF7 (c : Dev nD) (w : Fin cfg7.W) : (dat7 (atRefs (W13 m)) c).arrAt w cfg7.N = atRefs (W14 m) c (Pipeline.arrRef spec7 w) :=
  (W14_arr m c w).symm
theorem hrest7 (c : Dev nD) : ∀ b, b ∉ Finset.univ.image (Pipeline.arrRef spec7) → atRefs (W14 m) c b = atRefs (W13 m) c b :=
  fun b hb => W14_of_ne m c b fun w e => hb (Finset.mem_image.mpr ⟨w, Finset.mem_univ _, e⟩)

set_option backward.isDefEq.respectTransparency.types false in
/-- The seventh sweep over the thread state: entered from `W13`, left at `W14`. -/
def reg7 : Pipeline.RegionSeg (pcfgs (F := F)) admH (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atRefs (W13 m)) c).loose
  hwaits := Pipeline.hwaits_of_owed_zero _ _ _ _ L lv 7 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := Pipeline.UD sig nD τ) (Lvl := ℕ) spec7 c (atRefs (W13 m) c)
  hentry c := by
    rw [Pipeline.ownSems0_none]
    have hsplit := Pipeline.arrays_of_unscopedBufs (p := 7) (pcfgs (F := F)) admH (pdats m) launch7.win launch7.arr_whole c
      ((pdats m 7 c).share_full fun _ => rfl) (atRefs (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := Pipeline.UD sig nD τ) (Lvl := ℕ)
      launch7.win launch7.arr_whole c (pdats m) ((pdats m 7 c).share_full fun _ => rfl)
      (atRefs (W13 m) c) (atRefs (W14 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF8 (c : Dev nD) (w : Fin cfg8.W) : (dat8 (atRefs (W14 m)) c).arrAt w cfg8.N = atRefs (W15 m) c (Pipeline.arrRef spec8 w) :=
  (W15_arr m c w).symm
theorem hrest8 (c : Dev nD) : ∀ b, b ∉ Finset.univ.image (Pipeline.arrRef spec8) → atRefs (W15 m) c b = atRefs (W14 m) c b :=
  fun b hb => W15_of_ne m c b fun w e => hb (Finset.mem_image.mpr ⟨w, Finset.mem_univ _, e⟩)

set_option backward.isDefEq.respectTransparency.types false in
/-- The eighth sweep over the thread state: entered from `W14`, left at `W15`. -/
def reg8 : Pipeline.RegionSeg (pcfgs (F := F)) admH (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atRefs (W14 m)) c).loose
  hwaits := Pipeline.hwaits_of_owed_zero _ _ _ _ L lv 8 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := Pipeline.UD sig nD τ) (Lvl := ℕ) spec8 c (atRefs (W14 m) c)
  hentry c := by
    rw [Pipeline.ownSems0_none]
    have hsplit := Pipeline.arrays_of_unscopedBufs (p := 8) (pcfgs (F := F)) admH (pdats m) launch8.win launch8.arr_whole c
      ((pdats m 8 c).share_full fun _ => rfl) (atRefs (W14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := Pipeline.UD sig nD τ) (Lvl := ℕ)
      launch8.win launch8.arr_whole c (pdats m) ((pdats m 8 c).share_full fun _ => rfl)
      (atRefs (W14 m) c) (atRefs (W15 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The Gram-matrix region: two windows on one array -/

theorem set9_0 : ((Pipeline.pin (pcfgs (F := F)) admH 9).win (0 : Fin 3)).arr.view.set = Finset.univ := (arr_whole9 0).set_eq_univ
theorem set9_1 : ((Pipeline.pin (pcfgs (F := F)) admH 9).win (1 : Fin 3)).arr.view.set = Finset.univ := (arr_whole9 1).set_eq_univ
theorem set9_2 : ((Pipeline.pin (pcfgs (F := F)) admH 9).win (2 : Fin 3)).arr.view.set = Finset.univ := (arr_whole9 2).set_eq_univ

/-- At entry the one array the two input windows read, held whole, splits into its two halves; the output array is
    held whole. -/
theorem arrays9_of_bufs (c : Dev nD) :
    (Pipeline.arrBufs spec9 c (atRefs (W15 m) c) : sProp 𝕄) ⊢ (pdats m 9 c).arrays fun w => (pdats m 9 c).arrAt w 0 := by
  unfold Pipeline.arrBufs Dat.arrays
  rw [show Finset.univ.image (Pipeline.arrRef spec9) = ({main_v36_1, main_v37} : Finset (Ref sig .tc)) from by decide,
    bigSep_insert (by decide), bigSep_singleton, bigSep_W9, set9_0, set9_1, set9_2]
  show iprop((((c.tc : Thread nD τ).loc main_v36_1) ↦{fullShare} atRefs (W15 m) c main_v36_1) ∗ (((c.tc : Thread nD τ).loc main_v37) ↦{fullShare} atRefs (W15 m) c main_v37)) ⊢ _
  iintro ⟨Hz, Ho⟩
  ihave Hs := (pointsTo_share (PosShare.mem_left_op_right fullShare)).1 $$ Hz
  icases Hs with ⟨Hl, Hr⟩
  isplitl [Hl]; · iexact Hl
  isplitl [Hr]; · iexact Hr
  iexact Ho

theorem arrAt9_0 (c : Dev nD) : (pdats m 9 c).arrAt (0 : Fin 3) cfg9.N = atRefs (W16 m) c main_v36_1 :=
  ((dat9 (atRefs (W15 m)) c).arrAt_in 0 rfl _).trans ((A_eq9 (atRefs (W15 m)) c 0).trans (W16_keep m c main_v36_1 (by decide)).symm)
theorem arrAt9_1 (c : Dev nD) : (pdats m 9 c).arrAt (1 : Fin 3) cfg9.N = atRefs (W16 m) c main_v36_1 :=
  ((dat9 (atRefs (W15 m)) c).arrAt_in 1 rfl _).trans ((A_eq9 (atRefs (W15 m)) c 1).trans (W16_keep m c main_v36_1 (by decide)).symm)
theorem arrAt9_2 (c : Dev nD) : (pdats m 9 c).arrAt (2 : Fin 3) cfg9.N = atRefs (W16 m) c main_v37 :=
  (W16_out m c).symm

/-- At exit the two halves, holding the array as found, join to the whole; the output array holds what the region's
    write-backs left. -/
theorem bufs9_of_arrays (c : Dev nD) :
    ((pdats m 9 c).arrays fun w => (pdats m 9 c).arrAt w cfg9.N : sProp 𝕄) ⊢ Pipeline.arrBufs spec9 c (atRefs (W16 m) c) := by
  unfold Pipeline.arrBufs Dat.arrays
  rw [show Finset.univ.image (Pipeline.arrRef spec9) = ({main_v36_1, main_v37} : Finset (Ref sig .tc)) from by decide,
    bigSep_insert (by decide), bigSep_singleton, bigSep_W9, set9_0, set9_1, set9_2]
  dsimp only
  rw [arrAt9_0, arrAt9_1, arrAt9_2]
  show _ ⊢ iprop((((c.tc : Thread nD τ).loc main_v36_1) ↦{fullShare} atRefs (W16 m) c main_v36_1) ∗ (((c.tc : Thread nD τ).loc main_v37) ↦{fullShare} atRefs (W16 m) c main_v37))
  iintro ⟨Hl, Hr, Ho⟩
  isplitl [Hl Hr]
  · iapply (pointsTo_share (PosShare.mem_left_op_right fullShare)).2
    isplitl [Hl]; · iexact Hl
    iexact Hr
  iexact Ho

/-- The last thread state without the dues: every unscoped buffer at the last boundary's contents, the generator
    register at some state. -/
abbrev Tₙ (c : Dev nD) : sProp 𝕄 := iprop(StableHlo.held (c : Thread nD τ) (Pipeline.ucRefs τ sig) (W16 m c) ∗ ∃ r, prngReg c r)

/-- A core's unscoped buffers are the two buffers behind the region's three windows and the rest. -/
theorem split9 (c : Dev nD) (V : (b : Ref sig .tc) → Buf (Elt F) ((c : Thread nD τ).loc b)) :
    (unscopedBufs c V : sProp 𝕄) = iprop(Pipeline.arrBufs spec9 c V ∗ Pipeline.unscopedRest spec9 c V) :=
  Pipeline.unscopedBufs_split₀ cfgs 9 winFacts₀9.arr_unscoped c V

set_option backward.isDefEq.respectTransparency.types false in
/-- The Gram-matrix region over the thread state: entered from `W15`, left at `W16`.  Its two input windows share one
    array: at entry that buffer is split into halves, at exit the halves, unchanged, are joined. -/
def reg9 : Pipeline.RegionSeg (pcfgs (F := F)) admH (pdats m) () defs₀ 𝒱₀ L lv 9 where
  win := winFacts₀9
  block_pos := block_pos9
  stage_whole := stage_whole9
  K := PEmpty
  osem k := k.elim
  ho := Pipeline.OwnSemFacts.none _
  hbody c := (body_obligation9 (atRefs (W15 m)) c).loose
  hwaits := Pipeline.hwaits_of_owed_zero _ _ _ _ L lv 9 fun _ _ => rfl
  pre c := iprop(StableHlo.held (c : Thread nD τ) (Pipeline.ucRefs τ sig) (W15 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec9 c (atRefs (W15 m) c)
  hentry c := by
    rw [Pipeline.ownSems0_none]
    have hsplit : (unscopedBufs c (atRefs (W15 m) c) : sProp 𝕄)
        ⊢ iprop(((pdats m 9 c).arrays fun w => (pdats m 9 c).arrAt w 0) ∗ Pipeline.unscopedRest spec9 c (atRefs (W15 m) c)) := by
      rw [split9 c]; exact sep_mono (arrays9_of_bufs m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin : iprop(((pdats m 9 c).arrays fun w => (pdats m 9 c).arrAt w cfg9.N) ∗ Pipeline.unscopedRest spec9 c (atRefs (W15 m) c))
        ⊢ (unscopedBufs c (atRefs (W16 m) c) : sProp 𝕄) := by
      rw [split9 c (atRefs (W16 m) c)]
      refine sep_mono (bufs9_of_arrays m c) (Entails.of_eq ?_)
      unfold Pipeline.unscopedRest
      exact bigSep_congr fun b hb => by
        rw [show atRefs (W16 m) c b = atRefs (W15 m) c b from W16_keep m c b fun h => (Finset.mem_sdiff.mp hb).2 (by
          rcases List.mem_singleton.mp h with rfl
          exact Finset.mem_image.mpr ⟨2, Finset.mem_univ _, rfl⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The sixteen items in order: a host segment per stretch from its boundary's contents, a region per pipelined call. -/
abbrev segs : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .region (reg4 m),
    .host (hseg hostOps5 hostOps5_sub hostOps5_fresh (W8 m)),
    .region (reg5 m),
    .host (hseg hostOps6 hostOps6_sub hostOps6_fresh (W10 m)),
    .region (reg6 m),
    .host (hseg hostOps7 hostOps7_sub hostOps7_fresh (W12 m)),
    .region (reg7 m),
    .region (reg8 m),
    .region (reg9 m) ]

/-- The program IS the run of the segments. -/
theorem main_run (c : Dev nD) : main (F := F) c = Pipeline.Seg.run (segs m) := (main_chain c).trans (by chain_rfl)

set_option backward.isDefEq.respectTransparency.types false in
/-- THE RUN.  From any memory with zero counters, every weakly fair execution of the program on the TensorCores
    terminates, nothing faulting, and in every final state each unscoped buffer holds the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W16 m c b) :=
  Pipeline.θ_run_regions_kit (pcfgs (F := F)) admH (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

end Cert.KernelIdeal.Hand

end
-- ==== Proof.KernelIdealFrame.lean ====
/-
  The frame of the kernel program in the certificate's own words: from any memory with zero counters every weakly
  fair execution terminates, nothing faulting, and every argument array ends as launched.  No item writes an
  argument: walking an argument's buffer back through the sixteen boundaries reaches the launch memory.
-/
import proofs.«140843_g75050258530825_cont_9to1_m_403_24_alg».proof.Proof.KernelIdealRun

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Walk a buffer back through the boundaries to the last item that wrote it. -/
local macro "arg_kept" : tactic =>
  `(tactic| rw [W16_keep _ _ _ (by decide), W15_keep _ _ _ (by decide), W14_keep _ _ _ (by decide), W13_keep _ _ _ (by decide),
    W12_keep _ _ _ (by decide), W11_keep _ _ _ (by decide), W10_keep _ _ _ (by decide), W9_keep _ _ _ (by decide),
    W8_keep _ _ _ (by decide), W7_keep _ _ _ (by decide), W6_keep _ _ _ (by decide), W5_keep _ _ _ (by decide),
    W4_keep _ _ _ (by decide), W3_keep _ _ _ (by decide), W2_keep _ _ _ (by decide), W1_keep _ _ _ (by decide)])

theorem W16_arg0 (c : Dev nD) : W16 m c (Proc.devRef .tc main_arg0) = m ((c.tc : Thread nD τ).loc main_arg0) := by arg_kept
theorem W16_arg1 (c : Dev nD) : W16 m c (Proc.devRef .tc main_arg1) = m ((c.tc : Thread nD τ).loc main_arg1) := by arg_kept
theorem W16_arg2 (c : Dev nD) : W16 m c (Proc.devRef .tc main_arg2) = m ((c.tc : Thread nD τ).loc main_arg2) := by arg_kept
theorem W16_arg3 (c : Dev nD) : W16 m c (Proc.devRef .tc main_arg3) = m ((c.tc : Thread nD τ).loc main_arg3) := by arg_kept
theorem W16_arg4 (c : Dev nD) : W16 m c (Proc.devRef .tc main_arg4) = m ((c.tc : Thread nD τ).loc main_arg4) := by arg_kept
theorem W16_arg5 (c : Dev nD) : W16 m c (Proc.devRef .tc main_arg5) = m ((c.tc : Thread nD τ).loc main_arg5) := by arg_kept
theorem W16_arg6 (c : Dev nD) : W16 m c (Proc.devRef .tc main_arg6) = m ((c.tc : Thread nD τ).loc main_arg6) := by arg_kept
theorem W16_arg7 (c : Dev nD) : W16 m c (Proc.devRef .tc main_arg7) = m ((c.tc : Thread nD τ).loc main_arg7) := by arg_kept
theorem W16_arg8 (c : Dev nD) : W16 m c (Proc.devRef .tc main_arg8) = m ((c.tc : Thread nD τ).loc main_arg8) := by arg_kept
theorem W16_arg9 (c : Dev nD) : W16 m c (Proc.devRef .tc main_arg9) = m ((c.tc : Thread nD τ).loc main_arg9) := by arg_kept
theorem W16_arg10 (c : Dev nD) : W16 m c (Proc.devRef .tc main_arg10) = m ((c.tc : Thread nD τ).loc main_arg10) := by arg_kept
theorem W16_arg11 (c : Dev nD) : W16 m c (Proc.devRef .tc main_arg11) = m ((c.tc : Thread nD τ).loc main_arg11) := by arg_kept
theorem W16_arg12 (c : Dev nD) : W16 m c (Proc.devRef .tc main_arg12) = m ((c.tc : Thread nD τ).loc main_arg12) := by arg_kept
theorem W16_arg13 (c : Dev nD) : W16 m c (Proc.devRef .tc main_arg13) = m ((c.tc : Thread nD τ).loc main_arg13) := by arg_kept
theorem W16_arg14 (c : Dev nD) : W16 m c (Proc.devRef .tc main_arg14) = m ((c.tc : Thread nD τ).loc main_arg14) := by arg_kept
theorem W16_arg15 (c : Dev nD) : W16 m c (Proc.devRef .tc main_arg15) = m ((c.tc : Thread nD τ).loc main_arg15) := by arg_kept
theorem W16_arg16 (c : Dev nD) : W16 m c (Proc.devRef .tc main_arg16) = m ((c.tc : Thread nD τ).loc main_arg16) := by arg_kept
theorem W16_arg17 (c : Dev nD) : W16 m c (Proc.devRef .tc main_arg17) = m ((c.tc : Thread nD τ).loc main_arg17) := by arg_kept
theorem W16_arg18 (c : Dev nD) : W16 m c (Proc.devRef .tc main_arg18) = m ((c.tc : Thread nD τ).loc main_arg18) := by arg_kept
theorem W16_arg19 (c : Dev nD) : W16 m c (Proc.devRef .tc main_arg19) = m ((c.tc : Thread nD τ).loc main_arg19) := by arg_kept
theorem W16_arg20 (c : Dev nD) : W16 m c (Proc.devRef .tc main_arg20) = m ((c.tc : Thread nD τ).loc main_arg20) := by arg_kept
theorem W16_arg21 (c : Dev nD) : W16 m c (Proc.devRef .tc main_arg21) = m ((c.tc : Thread nD τ).loc main_arg21) := by arg_kept
theorem W16_arg22 (c : Dev nD) : W16 m c (Proc.devRef .tc main_arg22) = m ((c.tc : Thread nD τ).loc main_arg22) := by arg_kept
theorem W16_arg23 (c : Dev nD) : W16 m c (Proc.devRef .tc main_arg23) = m ((c.tc : Thread nD τ).loc main_arg23) := by arg_kept
theorem W16_arg24 (c : Dev nD) : W16 m c (Proc.devRef .tc main_arg24) = m ((c.tc : Thread nD τ).loc main_arg24) := by arg_kept
theorem W16_arg25 (c : Dev nD) : W16 m c (Proc.devRef .tc main_arg25) = m ((c.tc : Thread nD τ).loc main_arg25) := by arg_kept
theorem W16_arg26 (c : Dev nD) : W16 m c (Proc.devRef .tc main_arg26) = m ((c.tc : Thread nD τ).loc main_arg26) := by arg_kept
theorem W16_arg27 (c : Dev nD) : W16 m c (Proc.devRef .tc main_arg27) = m ((c.tc : Thread nD τ).loc main_arg27) := by arg_kept

/-- What a final state's memory holds at an argument, given that every unscoped buffer ends at the last boundary's contents. -/
theorem args_kept {s : MemSt nD τ sig (Elt F)} {c : Dev nD}
    (h : ∀ b ∈ Pipeline.ucRefs τ sig, s.mem (((c : Thread nD τ)).1, b) = W16 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23)
      ∧ s.mem ((c.tc : Thread nD τ).loc main_arg24) = m ((c.tc : Thread nD τ).loc main_arg24)
      ∧ s.mem ((c.tc : Thread nD τ).loc main_arg25) = m ((c.tc : Thread nD τ).loc main_arg25)
      ∧ s.mem ((c.tc : Thread nD τ).loc main_arg26) = m ((c.tc : Thread nD τ).loc main_arg26)
      ∧ s.mem ((c.tc : Thread nD τ).loc main_arg27) = m ((c.tc : Thread nD τ).loc main_arg27) :=
  ⟨(h _ (mem_uc main_arg0 (by decide))).trans (W16_arg0 m c), (h _ (mem_uc main_arg1 (by decide))).trans (W16_arg1 m c),
   (h _ (mem_uc main_arg2 (by decide))).trans (W16_arg2 m c), (h _ (mem_uc main_arg3 (by decide))).trans (W16_arg3 m c),
   (h _ (mem_uc main_arg4 (by decide))).trans (W16_arg4 m c), (h _ (mem_uc main_arg5 (by decide))).trans (W16_arg5 m c),
   (h _ (mem_uc main_arg6 (by decide))).trans (W16_arg6 m c), (h _ (mem_uc main_arg7 (by decide))).trans (W16_arg7 m c),
   (h _ (mem_uc main_arg8 (by decide))).trans (W16_arg8 m c), (h _ (mem_uc main_arg9 (by decide))).trans (W16_arg9 m c),
   (h _ (mem_uc main_arg10 (by decide))).trans (W16_arg10 m c), (h _ (mem_uc main_arg11 (by decide))).trans (W16_arg11 m c),
   (h _ (mem_uc main_arg12 (by decide))).trans (W16_arg12 m c), (h _ (mem_uc main_arg13 (by decide))).trans (W16_arg13 m c),
   (h _ (mem_uc main_arg14 (by decide))).trans (W16_arg14 m c), (h _ (mem_uc main_arg15 (by decide))).trans (W16_arg15 m c),
   (h _ (mem_uc main_arg16 (by decide))).trans (W16_arg16 m c), (h _ (mem_uc main_arg17 (by decide))).trans (W16_arg17 m c),
   (h _ (mem_uc main_arg18 (by decide))).trans (W16_arg18 m c), (h _ (mem_uc main_arg19 (by decide))).trans (W16_arg19 m c),
   (h _ (mem_uc main_arg20 (by decide))).trans (W16_arg20 m c), (h _ (mem_uc main_arg21 (by decide))).trans (W16_arg21 m c),
   (h _ (mem_uc main_arg22 (by decide))).trans (W16_arg22 m c), (h _ (mem_uc main_arg23 (by decide))).trans (W16_arg23 m c),
   (h _ (mem_uc main_arg24 (by decide))).trans (W16_arg24 m c), (h _ (mem_uc main_arg25 (by decide))).trans (W16_arg25 m c),
   (h _ (mem_uc main_arg26 (by decide))).trans (W16_arg26 m c), (h _ (mem_uc main_arg27 (by decide))).trans (W16_arg27 m c)⟩

/-- THE FRAME, as the certificate states it, at any instance. -/
theorem run_frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => args_kept m (h c)) (run_all m ρ)

end Cert.KernelIdeal.Hand

end
-- ==== Proof.KernelIdealVMatmul.lean ====
/-
  The four matrix products of the last three adjacency sweeps, read at one entry at the exact instance.

  A product into a zero accumulator, at entry `(p, q)` of its result, is the sum over the one contracted axis
  of the products of the left operand's row `p` with the right operand's column `q`.  The four products are
  a 512 × 4096 block of the adjacency against a 4096 × 500 or a 4096 × 512 operand, and a rectified 512 × 500
  block against a 500 × 500 or a 500 × 512 weight.
-/
import proofs.«140843_g75050258530825_cont_9to1_m_403_24_alg».proof.Proof.Gen.KernelIdeal.Skeleton
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open scoped BigOperators

/-! ## A 512 × 4096 adjacency block times a 4096 × 500 operand -/

/-- The dimension numbers: 512 × 4096 times 4096 × 500, contracting the one shared axis. -/
abbrev dotAU500 : DotDims S512x4096 S4096x500 S512x500 := dot_S512x4096_S4096x500_S512x500_1_0_0_1_n_n

/-- The left operand's row coordinate is the output's row. -/
theorem dotAU500_lhs0 (j : S512x500.Idx) (k : dotAU500.contr.Idx) : (dotAU500.lhsIdx j k 0).val = (j 0).val := by
  unfold DotDims.lhsIdx
  rw [dif_neg (show ¬(0 : Fin S512x4096.rank) ∈ dotAU500.lhsBatch by decide),
    dif_pos (show (0 : Fin S512x4096.rank) ∈ dotAU500.lhsNonContracting by decide)]
  rfl

/-- The left operand's column coordinate is the contraction position. -/
theorem dotAU500_lhs1 (j : S512x500.Idx) (k : dotAU500.contr.Idx) :
    (dotAU500.lhsIdx j k 1).val = (k ⟨0, by decide⟩).val :=
  dotAU500.lhsIdx_val_of_single rfl j k

/-- The right operand's row coordinate is the contraction position. -/
theorem dotAU500_rhs0 (j : S512x500.Idx) (k : dotAU500.contr.Idx) :
    (dotAU500.rhsIdx j k 0).val = (k ⟨0, by decide⟩).val :=
  dotAU500.rhsIdx_val_of_single rfl j k

/-- The right operand's column coordinate is the output's column. -/
theorem dotAU500_rhs1 (j : S512x500.Idx) (k : dotAU500.contr.Idx) : (dotAU500.rhsIdx j k 1).val = (j 1).val := by
  unfold DotDims.rhsIdx
  rw [dif_neg (show ¬(1 : Fin S4096x500.rank) ∈ dotAU500.rhsBatch by decide),
    dif_pos (show (1 : Fin S4096x500.rank) ∈ dotAU500.rhsNonContracting by decide)]
  rfl

/-- The product into a zero accumulator, at entry `(p, q)`: the sum over `k` of `x0 (p, k) · x1 (k, q)`. -/
theorem matmulAU500_apply (x0 : FVec Ideal S512x4096 .bf16) (x1 : FVec Ideal S4096x500 .bf16)
    (p : Fin 512) (q : Fin 500) :
    FloatOps.matmul dotAU500 none x0 x1 (constant (F := Ideal) S512x500 .f32 0x00000000#32) (ix2 p q)
      = ∑ k : Fin 4096, x0 (ix2 p k) * x1 (ix2 k q) := by
  refine (Ideal.matmul_constant_zero_apply dotAU500 none x0 x1 (ix2 p q)).trans ?_
  rw [← Equiv.sum_comp (contrEquiv1 dotAU500 4096 rfl rfl).symm]
  refine Finset.sum_congr rfl fun k _ => ?_
  have hk := contrEquiv1_symm_val dotAU500 4096 rfl rfl k
  have el : dotAU500.lhsIdx (ix2 p q) ((contrEquiv1 dotAU500 4096 rfl rfl).symm k) = ix2 p k :=
    funext fun a => Fin.ext (by
      match a with
      | ⟨0, _⟩ => exact dotAU500_lhs0 _ _
      | ⟨1, _⟩ => exact (dotAU500_lhs1 _ _).trans hk)
  have er : dotAU500.rhsIdx (ix2 p q) ((contrEquiv1 dotAU500 4096 rfl rfl).symm k) = ix2 k q :=
    funext fun a => Fin.ext (by
      match a with
      | ⟨0, _⟩ => exact (dotAU500_rhs0 _ _).trans hk
      | ⟨1, _⟩ => exact dotAU500_rhs1 _ _)
  rw [el, er]

/-! ## A 512 × 500 block times a 500 × 500 weight -/

/-- The dimension numbers: 512 × 500 times 500 × 500, contracting the one shared axis. -/
abbrev dotHW500 : DotDims S512x500 S500x500 S512x500 := dot_S512x500_S500x500_S512x500_1_0_0_1_n_n

/-- The left operand's row coordinate is the output's row. -/
theorem dotHW500_lhs0 (j : S512x500.Idx) (k : dotHW500.contr.Idx) : (dotHW500.lhsIdx j k 0).val = (j 0).val := by
  unfold DotDims.lhsIdx
  rw [dif_neg (show ¬(0 : Fin S512x500.rank) ∈ dotHW500.lhsBatch by decide),
    dif_pos (show (0 : Fin S512x500.rank) ∈ dotHW500.lhsNonContracting by decide)]
  rfl

/-- The left operand's column coordinate is the contraction position. -/
theorem dotHW500_lhs1 (j : S512x500.Idx) (k : dotHW500.contr.Idx) :
    (dotHW500.lhsIdx j k 1).val = (k ⟨0, by decide⟩).val :=
  dotHW500.lhsIdx_val_of_single rfl j k

/-- The right operand's row coordinate is the contraction position. -/
theorem dotHW500_rhs0 (j : S512x500.Idx) (k : dotHW500.contr.Idx) :
    (dotHW500.rhsIdx j k 0).val = (k ⟨0, by decide⟩).val :=
  dotHW500.rhsIdx_val_of_single rfl j k

/-- The right operand's column coordinate is the output's column. -/
theorem dotHW500_rhs1 (j : S512x500.Idx) (k : dotHW500.contr.Idx) : (dotHW500.rhsIdx j k 1).val = (j 1).val := by
  unfold DotDims.rhsIdx
  rw [dif_neg (show ¬(1 : Fin S500x500.rank) ∈ dotHW500.rhsBatch by decide),
    dif_pos (show (1 : Fin S500x500.rank) ∈ dotHW500.rhsNonContracting by decide)]
  rfl

/-- The product into a zero accumulator, at entry `(p, q)`: the sum over `l` of `y (p, l) · w (l, q)`. -/
theorem matmulHW500_apply (y : FVec Ideal S512x500 .bf16) (w : FVec Ideal S500x500 .bf16)
    (p : Fin 512) (q : Fin 500) :
    FloatOps.matmul dotHW500 none y w (constant (F := Ideal) S512x500 .f32 0x00000000#32) (ix2 p q)
      = ∑ l : Fin 500, y (ix2 p l) * w (ix2 l q) := by
  refine (Ideal.matmul_constant_zero_apply dotHW500 none y w (ix2 p q)).trans ?_
  rw [← Equiv.sum_comp (contrEquiv1 dotHW500 500 rfl rfl).symm]
  refine Finset.sum_congr rfl fun l _ => ?_
  have hl := contrEquiv1_symm_val dotHW500 500 rfl rfl l
  have el : dotHW500.lhsIdx (ix2 p q) ((contrEquiv1 dotHW500 500 rfl rfl).symm l) = ix2 p l :=
    funext fun a => Fin.ext (by
      match a with
      | ⟨0, _⟩ => exact dotHW500_lhs0 _ _
      | ⟨1, _⟩ => exact (dotHW500_lhs1 _ _).trans hl)
  have er : dotHW500.rhsIdx (ix2 p q) ((contrEquiv1 dotHW500 500 rfl rfl).symm l) = ix2 l q :=
    funext fun a => Fin.ext (by
      match a with
      | ⟨0, _⟩ => exact (dotHW500_rhs0 _ _).trans hl
      | ⟨1, _⟩ => exact dotHW500_rhs1 _ _)
  rw [el, er]

/-! ## A 512 × 500 block times a 500 × 512 weight -/

/-- The dimension numbers: 512 × 500 times 500 × 512, contracting the one shared axis. -/
abbrev dotHW512 : DotDims S512x500 S500x512 S512x512 := dot_S512x500_S500x512_S512x512_1_0_0_1_n_n

/-- The left operand's row coordinate is the output's row. -/
theorem dotHW512_lhs0 (j : S512x512.Idx) (k : dotHW512.contr.Idx) : (dotHW512.lhsIdx j k 0).val = (j 0).val := by
  unfold DotDims.lhsIdx
  rw [dif_neg (show ¬(0 : Fin S512x500.rank) ∈ dotHW512.lhsBatch by decide),
    dif_pos (show (0 : Fin S512x500.rank) ∈ dotHW512.lhsNonContracting by decide)]
  rfl

/-- The left operand's column coordinate is the contraction position. -/
theorem dotHW512_lhs1 (j : S512x512.Idx) (k : dotHW512.contr.Idx) :
    (dotHW512.lhsIdx j k 1).val = (k ⟨0, by decide⟩).val :=
  dotHW512.lhsIdx_val_of_single rfl j k

/-- The right operand's row coordinate is the contraction position. -/
theorem dotHW512_rhs0 (j : S512x512.Idx) (k : dotHW512.contr.Idx) :
    (dotHW512.rhsIdx j k 0).val = (k ⟨0, by decide⟩).val :=
  dotHW512.rhsIdx_val_of_single rfl j k

/-- The right operand's column coordinate is the output's column. -/
theorem dotHW512_rhs1 (j : S512x512.Idx) (k : dotHW512.contr.Idx) : (dotHW512.rhsIdx j k 1).val = (j 1).val := by
  unfold DotDims.rhsIdx
  rw [dif_neg (show ¬(1 : Fin S500x512.rank) ∈ dotHW512.rhsBatch by decide),
    dif_pos (show (1 : Fin S500x512.rank) ∈ dotHW512.rhsNonContracting by decide)]
  rfl

/-- The product into a zero accumulator, at entry `(p, q)`: the sum over `l` of `y (p, l) · w (l, q)`. -/
theorem matmulHW512_apply (y : FVec Ideal S512x500 .bf16) (w : FVec Ideal S500x512 .bf16)
    (p : Fin 512) (q : Fin 512) :
    FloatOps.matmul dotHW512 none y w (constant (F := Ideal) S512x512 .f32 0x00000000#32) (ix2 p q)
      = ∑ l : Fin 500, y (ix2 p l) * w (ix2 l q) := by
  refine (Ideal.matmul_constant_zero_apply dotHW512 none y w (ix2 p q)).trans ?_
  rw [← Equiv.sum_comp (contrEquiv1 dotHW512 500 rfl rfl).symm]
  refine Finset.sum_congr rfl fun l _ => ?_
  have hl := contrEquiv1_symm_val dotHW512 500 rfl rfl l
  have el : dotHW512.lhsIdx (ix2 p q) ((contrEquiv1 dotHW512 500 rfl rfl).symm l) = ix2 p l :=
    funext fun a => Fin.ext (by
      match a with
      | ⟨0, _⟩ => exact dotHW512_lhs0 _ _
      | ⟨1, _⟩ => exact (dotHW512_lhs1 _ _).trans hl)
  have er : dotHW512.rhsIdx (ix2 p q) ((contrEquiv1 dotHW512 500 rfl rfl).symm l) = ix2 l q :=
    funext fun a => Fin.ext (by
      match a with
      | ⟨0, _⟩ => exact (dotHW512_rhs0 _ _).trans hl
      | ⟨1, _⟩ => exact dotHW512_rhs1 _ _)
  rw [el, er]

/-! ## A 512 × 4096 adjacency block times a 4096 × 512 operand -/

/-- The dimension numbers: 512 × 4096 times 4096 × 512, contracting the one shared axis. -/
abbrev dotAU512 : DotDims S512x4096 S4096x512 S512x512 := dot_S512x4096_S4096x512_S512x512_1_0_0_1_n_n

/-- The left operand's row coordinate is the output's row. -/
theorem dotAU512_lhs0 (j : S512x512.Idx) (k : dotAU512.contr.Idx) : (dotAU512.lhsIdx j k 0).val = (j 0).val := by
  unfold DotDims.lhsIdx
  rw [dif_neg (show ¬(0 : Fin S512x4096.rank) ∈ dotAU512.lhsBatch by decide),
    dif_pos (show (0 : Fin S512x4096.rank) ∈ dotAU512.lhsNonContracting by decide)]
  rfl

/-- The left operand's column coordinate is the contraction position. -/
theorem dotAU512_lhs1 (j : S512x512.Idx) (k : dotAU512.contr.Idx) :
    (dotAU512.lhsIdx j k 1).val = (k ⟨0, by decide⟩).val :=
  dotAU512.lhsIdx_val_of_single rfl j k

/-- The right operand's row coordinate is the contraction position. -/
theorem dotAU512_rhs0 (j : S512x512.Idx) (k : dotAU512.contr.Idx) :
    (dotAU512.rhsIdx j k 0).val = (k ⟨0, by decide⟩).val :=
  dotAU512.rhsIdx_val_of_single rfl j k

/-- The right operand's column coordinate is the output's column. -/
theorem dotAU512_rhs1 (j : S512x512.Idx) (k : dotAU512.contr.Idx) : (dotAU512.rhsIdx j k 1).val = (j 1).val := by
  unfold DotDims.rhsIdx
  rw [dif_neg (show ¬(1 : Fin S4096x512.rank) ∈ dotAU512.rhsBatch by decide),
    dif_pos (show (1 : Fin S4096x512.rank) ∈ dotAU512.rhsNonContracting by decide)]
  rfl

/-- The product into a zero accumulator, at entry `(p, q)`: the sum over `k` of `x0 (p, k) · x1 (k, q)`. -/
theorem matmulAU512_apply (x0 : FVec Ideal S512x4096 .bf16) (x1 : FVec Ideal S4096x512 .bf16)
    (p : Fin 512) (q : Fin 512) :
    FloatOps.matmul dotAU512 none x0 x1 (constant (F := Ideal) S512x512 .f32 0x00000000#32) (ix2 p q)
      = ∑ k : Fin 4096, x0 (ix2 p k) * x1 (ix2 k q) := by
  refine (Ideal.matmul_constant_zero_apply dotAU512 none x0 x1 (ix2 p q)).trans ?_
  rw [← Equiv.sum_comp (contrEquiv1 dotAU512 4096 rfl rfl).symm]
  refine Finset.sum_congr rfl fun k _ => ?_
  have hk := contrEquiv1_symm_val dotAU512 4096 rfl rfl k
  have el : dotAU512.lhsIdx (ix2 p q) ((contrEquiv1 dotAU512 4096 rfl rfl).symm k) = ix2 p k :=
    funext fun a => Fin.ext (by
      match a with
      | ⟨0, _⟩ => exact dotAU512_lhs0 _ _
      | ⟨1, _⟩ => exact (dotAU512_lhs1 _ _).trans hk)
  have er : dotAU512.rhsIdx (ix2 p q) ((contrEquiv1 dotAU512 4096 rfl rfl).symm k) = ix2 k q :=
    funext fun a => Fin.ext (by
      match a with
      | ⟨0, _⟩ => exact (dotAU512_rhs0 _ _).trans hk
      | ⟨1, _⟩ => exact dotAU512_rhs1 _ _)
  rw [el, er]

end Cert.KernelIdeal.HandValue

end
-- ==== Proof.LibRealNet.lean ====
/-
  Real-valued vocabulary for a dense graph-autoencoder forward pass.

  Every array of the two programs, read at the exact instance under finite inputs, is the
  coercion of a real matrix.  This module fixes the real-side operations the rest of the
  proof speaks in: matrices are Mathlib's `Matrix (Fin n) (Fin m) ℝ`, so products are
  `*`, sums `+`, transposes `ᵀ`, and re-association of a triple product is `Matrix.mul_assoc`.
-/
import Mathlib.Data.Matrix.Mul
import Mathlib.Data.EReal.Inv
import Mathlib.Analysis.SpecialFunctions.Exp
import Mathlib.Analysis.SpecialFunctions.Trigonometric.DerivHyp

noncomputable section

namespace RealNet

open Matrix

/-- A real `n × m` matrix. -/
abbrev M (n m : ℕ) := Matrix (Fin n) (Fin m) ℝ

/-- The entrywise coercion of a real matrix to the extended reals. -/
def coeM {n m : ℕ} (A : M n m) : Fin n → Fin m → EReal := fun i j => ((A i j : ℝ) : EReal)

/-- The entrywise coercion of a real vector. -/
def coeV {n : ℕ} (b : Fin n → ℝ) : Fin n → EReal := fun i => ((b i : ℝ) : EReal)

/-- Rectifier, entrywise: `max x 0`. -/
def relu {n m : ℕ} (A : M n m) : M n m := fun i j => max (A i j) 0

/-- Add a row vector to every row. -/
def addRow {n m : ℕ} (A : M n m) (b : Fin m → ℝ) : M n m := fun i j => A i j + b j

/-- An affine layer `X W + b`. -/
def lin {n k m : ℕ} (X : M n k) (W : M k m) (b : Fin m → ℝ) : M n m := addRow (X * W) b

/-- Student-t kernel of row `i` of `h` against centre `j` (row `j` of `c`), one degree of freedom:
    `1 / (1 + ‖h i − c j‖²)`. -/
def tKernel {n d k : ℕ} (h : M n d) (c : M k d) : M n k :=
  fun i j => 1 / (1 + ∑ l, (h i l - c j l) ^ 2)

/-- Soft assignment: the kernel normalised along each row. -/
def softAssign {n d k : ℕ} (h : M n d) (c : M k d) : M n k :=
  fun i j => tKernel h c i j / ∑ j', tKernel h c i j'

/-- The logistic function, entrywise. -/
def logistic {n m : ℕ} (A : M n m) : M n m := fun i j => 1 / (1 + Real.exp (-(A i j)))

end RealNet

end
-- ==== Proof.LibRealLift.lean ====
/-
  Lifting between the extended reals and the reals.

  At the exact reading of a float program every value is an extended real and every operation is the
  textbook one.  When all inputs are finite, every array is the entrywise coercion of a real array, and
  each operation applied to coerced reals is the coercion of the real operation.  This module states
  those facts one operation at a time, in the direction that moves a coercion outwards
  (`op ↑a ↑b = ↑(op a b)`), so that a rewriting pass carries a whole term over to the reals; then the
  finite-sum and matrix-product forms; then the identities over the reals that relate two ways of
  writing a squared distance, a Student-t soft assignment and the logistic function, with the
  positivity facts their divisions need.
-/
import Idealize.ShloMosaic.PureOps.Ideal
import Idealize.ShloMosaic.PureOps.Ideal.Laws
import Mathlib.Tactic.Ring
import Mathlib.Tactic.FieldSimp
import Mathlib.Tactic.Positivity
import Mathlib.Tactic.Linarith
import Mathlib.Tactic.NormNum
import proofs.«140843_g75050258530825_cont_9to1_m_403_24_alg».proof.Proof.LibRealNet

noncomputable section

namespace RealNet

open Matrix
open Idealize.ShloMosaic
open scoped BigOperators

/-! ## A. One operation at a time: an operation of coerced reals is the coercion of the real operation -/

/-- The sum of two finite extended reals is the coercion of the real sum: `↑a + ↑b = ↑(a + b)`. -/
theorem lift_add (a b : ℝ) : (a : EReal) + (b : EReal) = ((a + b : ℝ) : EReal) := (EReal.coe_add a b).symm

/-- The product of two finite extended reals is the coercion of the real product: `↑a * ↑b = ↑(a * b)`. -/
theorem lift_mul (a b : ℝ) : (a : EReal) * (b : EReal) = ((a * b : ℝ) : EReal) := (EReal.coe_mul a b).symm

/-- The difference of two finite extended reals is the coercion of the real difference: `↑a - ↑b = ↑(a - b)`. -/
theorem lift_sub (a b : ℝ) : (a : EReal) - (b : EReal) = ((a - b : ℝ) : EReal) := (EReal.coe_sub a b).symm

/-- The negation of a finite extended real is the coercion of the real negation: `-↑a = ↑(-a)`. -/
theorem lift_neg (a : ℝ) : -(a : EReal) = ((-a : ℝ) : EReal) := (EReal.coe_neg a).symm

/-- The extended real zero is the coercion of the real zero. -/
theorem lift_zero : (0 : EReal) = ((0 : ℝ) : EReal) := EReal.coe_zero.symm

/-- The extended real one is the coercion of the real one. -/
theorem lift_one : (1 : EReal) = ((1 : ℝ) : EReal) := EReal.coe_one.symm

/-- The exact quotient of two finite extended reals with a nonzero divisor is the coercion of the real
    quotient: `div ↑a ↑b = ↑(a / b)` for `b ≠ 0`. -/
theorem lift_div (a : ℝ) {b : ℝ} (hb : b ≠ 0) : Ideal.div (a : EReal) (b : EReal) = ((a / b : ℝ) : EReal) := by
  rw [Ideal.div_coe hb, ← EReal.coe_mul, mul_one_div]

/-- Dividing any extended real by one leaves it unchanged: `div x 1 = x`. -/
theorem div_one' (x : EReal) : Ideal.div x 1 = x := by
  rw [← EReal.coe_one, Ideal.div_coe one_ne_zero, div_one, EReal.coe_one, mul_one]

/-- The maximum of two finite extended reals is the coercion of the real maximum: `max ↑a ↑b = ↑(max a b)`. -/
theorem lift_max (a b : ℝ) : max (a : EReal) (b : EReal) = ((max a b : ℝ) : EReal) :=
  (EReal.coe_strictMono.monotone.map_max).symm

/-- The minimum of two finite extended reals is the coercion of the real minimum: `min ↑a ↑b = ↑(min a b)`. -/
theorem lift_min (a b : ℝ) : min (a : EReal) (b : EReal) = ((min a b : ℝ) : EReal) :=
  (EReal.coe_strictMono.monotone.map_min).symm

/-- The rectifier against the extended real zero: `max ↑a 0 = ↑(max a 0)`. -/
theorem lift_max_zero (a : ℝ) : max (a : EReal) 0 = ((max a 0 : ℝ) : EReal) := by
  rw [← EReal.coe_zero, lift_max]

/-- The exponential of a finite extended real is the coercion of the real exponential: `exp ↑a = ↑(eᵃ)`. -/
theorem lift_exp (a : ℝ) : Ideal.exp (a : EReal) = ((Real.exp a : ℝ) : EReal) := rfl

/-- The hyperbolic tangent of a finite extended real is the coercion of the real one: `tanh ↑a = ↑(tanh a)`. -/
theorem lift_tanh (a : ℝ) : Ideal.tanh (a : EReal) = ((Real.tanh a : ℝ) : EReal) := rfl

/-- A real power of a real base is the coercion of the real power: `pow ↑a ↑b = ↑(a ^ b)`. -/
theorem lift_pow (a b : ℝ) : Ideal.pow (a : EReal) (b : EReal) = ((a ^ b : ℝ) : EReal) := rfl

/-- The first power of a finite extended real is itself: `pow ↑a ↑1 = ↑a` (no sign condition: `a ^ 1 = a`
    for every real `a`). -/
theorem lift_pow_one (a : ℝ) : Ideal.pow (a : EReal) ((1 : ℝ) : EReal) = (a : EReal) := by
  rw [lift_pow, Real.rpow_one]

/-- The same with the exponent written as the extended real one: `pow ↑a 1 = ↑a`. -/
theorem lift_pow_one' (a : ℝ) : Ideal.pow (a : EReal) 1 = (a : EReal) := by
  rw [← EReal.coe_one, lift_pow_one]

/-- The single-precision word `0x00000000` denotes the real number `0`. -/
theorem ofBits_f32_zero : Ideal.ofBits .f32 0x00000000#32 = ((0 : ℝ) : EReal) := by
  rw [Ideal.ofBits_zero_f32, EReal.coe_zero]

/-- The single-precision word `0x3F800000` denotes the real number `1`. -/
theorem ofBits_f32_one : Ideal.ofBits .f32 0x3F800000#32 = ((1 : ℝ) : EReal) := by
  simp [Ideal.ofBits, Ideal.ieee, -EReal.coe_mul]; norm_num

/-- The single-precision word `0x3F000000` denotes the real number `1/2`. -/
theorem ofBits_f32_half : Ideal.ofBits .f32 0x3F000000#32 = ((1 / 2 : ℝ) : EReal) := by
  simp [Ideal.ofBits, Ideal.ieee, -EReal.coe_mul]; norm_num

/-- The single-precision word `0x40000000` denotes the real number `2`. -/
theorem ofBits_f32_two : Ideal.ofBits .f32 0x40000000#32 = ((2 : ℝ) : EReal) := by
  simp [Ideal.ofBits, Ideal.ieee, -EReal.coe_mul]; norm_num

/-! ## B. Finite sums and matrix products -/

/-- A finite sum of finite extended reals is the coercion of the real sum:
    `∑ k ∈ s, ↑(f k) = ↑(∑ k ∈ s, f k)`. -/
theorem lift_sum_finset {ι : Type*} (s : Finset ι) (f : ι → ℝ) :
    ∑ k ∈ s, ((f k : ℝ) : EReal) = ((∑ k ∈ s, f k : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

/-- The same over a whole finite index type: `∑ k, ↑(f k) = ↑(∑ k, f k)`. -/
theorem lift_sum {ι : Type*} [Fintype ι] (f : ι → ℝ) :
    ∑ k : ι, ((f k : ℝ) : EReal) = ((∑ k, f k : ℝ) : EReal) := lift_sum_finset Finset.univ f

/-- The sum of products that a contraction computes, on coerced matrices, is the coercion of the entry of
    the real matrix product: `∑ l, ↑(A i l) * ↑(B l j) = ↑((A * B) i j)`. -/
theorem lift_matmul {n k m : ℕ} (A : M n k) (B : M k m) (i : Fin n) (j : Fin m) :
    ∑ l, coeM A i l * coeM B l j = (((A * B) i j : ℝ) : EReal) := by
  simp only [coeM, lift_mul, Matrix.mul_apply]
  exact lift_sum _

/-- The contraction against the rows of the second matrix is the product with its transpose:
    `∑ l, ↑(A i l) * ↑(B j l) = ↑((A * Bᵀ) i j)`. -/
theorem lift_matmul_transpose {n k m : ℕ} (A : M n k) (B : M m k) (i : Fin n) (j : Fin m) :
    ∑ l, coeM A i l * coeM B j l = (((A * Bᵀ) i j : ℝ) : EReal) := by
  simp only [coeM, lift_mul, Matrix.mul_apply, Matrix.transpose_apply]
  exact lift_sum _

end RealNet

end

noncomputable section

namespace RealNet

open Matrix
open scoped BigOperators

/-! ## C. Identities over the reals -/

/-- A sum of squared differences expands into three sums:
    `∑ (h - c)² = ∑ h·h − 2 ∑ h·c + ∑ c·c`. -/
theorem sum_sq_sub {ι : Type*} [Fintype ι] (h c : ι → ℝ) :
    ∑ l, (h l - c l) ^ 2 = ∑ l, h l * h l - 2 * ∑ l, h l * c l + ∑ l, c l * c l := by
  rw [Finset.mul_sum, ← Finset.sum_sub_distrib, ← Finset.sum_add_distrib]
  exact Finset.sum_congr rfl fun l _ => by ring

/-- A square written as a product: `∑ (h - c)·(h - c) = ∑ (h - c)²`. -/
theorem sum_mul_self_sub {ι : Type*} [Fintype ι] (h c : ι → ℝ) :
    ∑ l, (h l - c l) * (h l - c l) = ∑ l, (h l - c l) ^ 2 :=
  Finset.sum_congr rfl fun l _ => (sq _).symm

/-- The squared distance of row `i` of `H` to row `j` of `C`, in expanded form: the squared norm of the
    row, minus twice the entry of `H Cᵀ`, plus the squared norm of the centre (read off the columns of `Cᵀ`). -/
def sqDistExpanded {n d k : ℕ} (H : M n d) (C : M k d) : M n k :=
  fun i j => (∑ l, H i l * H i l) - 2 * (H * Cᵀ) i j + ∑ l, Cᵀ l j * Cᵀ l j

/-- The expanded squared distance is the sum of squared differences:
    `‖H i‖² − 2 (H Cᵀ) i j + ‖C j‖² = ∑ l, (H i l − C j l)²`. -/
theorem sqDistExpanded_apply {n d k : ℕ} (H : M n d) (C : M k d) (i : Fin n) (j : Fin k) :
    sqDistExpanded H C i j = ∑ l, (H i l - C j l) ^ 2 := by
  rw [sum_sq_sub]
  simp only [sqDistExpanded, Matrix.mul_apply, Matrix.transpose_apply]

/-- The Student-t kernel computed from the expanded squared distance: `1 / (1 + ‖H i‖² − 2 (H Cᵀ) i j + ‖C j‖²)`. -/
def tKernelExpanded {n d k : ℕ} (H : M n d) (C : M k d) : M n k :=
  fun i j => 1 / (1 + sqDistExpanded H C i j)

/-- The soft assignment computed from the expanded squared distance: the expanded kernel normalised along each row. -/
def softAssignExpanded {n d k : ℕ} (H : M n d) (C : M k d) : M n k :=
  fun i j => tKernelExpanded H C i j / ∑ j', tKernelExpanded H C i j'

/-- The expanded soft assignment, written out in full. -/
theorem softAssignExpanded_apply {n d k : ℕ} (H : M n d) (C : M k d) (i : Fin n) (j : Fin k) :
    softAssignExpanded H C i j
      = (1 / (1 + ((∑ l, H i l * H i l) - 2 * (H * Cᵀ) i j + ∑ l, Cᵀ l j * Cᵀ l j)))
        / ∑ j', (1 / (1 + ((∑ l, H i l * H i l) - 2 * (H * Cᵀ) i j' + ∑ l, Cᵀ l j' * Cᵀ l j'))) := rfl

/-- The kernel computed from the expanded squared distance is the Student-t kernel. -/
theorem tKernelExpanded_eq {n d k : ℕ} (H : M n d) (C : M k d) : tKernelExpanded H C = tKernel H C := by
  funext i j
  simp only [tKernelExpanded, tKernel, sqDistExpanded_apply]

/-- The soft assignment computed from the expanded squared distance is the soft assignment. -/
theorem softAssignExpanded_eq {n d k : ℕ} (H : M n d) (C : M k d) : softAssignExpanded H C = softAssign H C := by
  funext i j
  simp only [softAssignExpanded, softAssign, tKernelExpanded_eq]

/-- The Student-t kernel with the squares written as products: `1 / (1 + ∑ l, (h i l − c j l)·(h i l − c j l))`. -/
theorem tKernel_apply_mul {n d k : ℕ} (h : M n d) (c : M k d) (i : Fin n) (j : Fin k) :
    tKernel h c i j = 1 / (1 + ∑ l, (h i l - c j l) * (h i l - c j l)) := by
  rw [sum_mul_self_sub]; rfl

/-- The logistic function through the hyperbolic tangent:
    `1 / (1 + e^(−x)) = ½ (1 + tanh (x/2))` for every real `x`. -/
theorem logistic_eq_tanh (x : ℝ) :
    1 / (1 + Real.exp (-x)) = (1 / 2) * (1 + Real.tanh ((1 / 2) * x)) := by
  have he : 0 < Real.exp ((1 / 2) * x) := Real.exp_pos _
  have h1 : Real.exp (-((1 / 2) * x)) = (Real.exp ((1 / 2) * x))⁻¹ := Real.exp_neg _
  have h2 : Real.exp (-x) = (Real.exp ((1 / 2) * x))⁻¹ * (Real.exp ((1 / 2) * x))⁻¹ := by
    rw [← h1, ← Real.exp_add]; congr 1; ring
  rw [Real.tanh_eq_sinh_div_cosh, Real.sinh_eq, Real.cosh_eq, h1, h2]
  generalize Real.exp ((1 / 2) * x) = e at he
  have hne : e ≠ 0 := he.ne'
  have h3 : e * e + 1 ≠ 0 := by positivity
  field_simp
  ring

/-- The logistic function, entrywise, written through the hyperbolic tangent. -/
def logisticTanh {n m : ℕ} (A : M n m) : M n m := fun i j => (1 / 2) * (1 + Real.tanh ((1 / 2) * A i j))

/-- The entrywise `½ (1 + tanh (x/2))` is the entrywise logistic function. -/
theorem logisticTanh_eq {n m : ℕ} (A : M n m) : logisticTanh A = logistic A := by
  funext i j
  simp only [logisticTanh, logistic, logistic_eq_tanh]

/-- The reciprocal form of the logistic function: `(1 + e^(−x))⁻¹ = 1 / (1 + e^(−x))`. -/
theorem logistic_inv_eq (x : ℝ) : (1 + Real.exp (-x))⁻¹ = 1 / (1 + Real.exp (-x)) := (one_div _).symm

/-- One plus a sum of squares is positive. -/
theorem one_add_sum_sq_pos {ι : Type*} [Fintype ι] (h c : ι → ℝ) : 0 < 1 + ∑ l, (h l - c l) ^ 2 := by
  have h0 : 0 ≤ ∑ l, (h l - c l) ^ 2 := Finset.sum_nonneg fun l _ => sq_nonneg _
  linarith

/-- One plus a sum of squares is not zero. -/
theorem one_add_sum_sq_ne_zero {ι : Type*} [Fintype ι] (h c : ι → ℝ) : 1 + ∑ l, (h l - c l) ^ 2 ≠ 0 :=
  (one_add_sum_sq_pos h c).ne'

/-- One plus the same sum with the squares written as products is positive. -/
theorem one_add_sum_mul_self_pos {ι : Type*} [Fintype ι] (h c : ι → ℝ) :
    0 < 1 + ∑ l, (h l - c l) * (h l - c l) := by
  rw [sum_mul_self_sub]; exact one_add_sum_sq_pos h c

/-- One plus the expanded squared distance is positive. -/
theorem one_add_sqDistExpanded_pos {n d k : ℕ} (H : M n d) (C : M k d) (i : Fin n) (j : Fin k) :
    0 < 1 + sqDistExpanded H C i j := by
  rw [sqDistExpanded_apply]; exact one_add_sum_sq_pos _ _

/-- Every entry of the Student-t kernel is positive. -/
theorem tKernel_pos {n d k : ℕ} (h : M n d) (c : M k d) (i : Fin n) (j : Fin k) : 0 < tKernel h c i j :=
  one_div_pos.mpr (one_add_sum_sq_pos _ _)

/-- Every row sum of the Student-t kernel is positive, when there is at least one centre. -/
theorem sum_tKernel_pos {n d k : ℕ} (hk : 0 < k) (h : M n d) (c : M k d) (i : Fin n) :
    0 < ∑ j', tKernel h c i j' :=
  Finset.sum_pos (fun j _ => tKernel_pos h c i j) ⟨⟨0, hk⟩, Finset.mem_univ _⟩

/-- Every row sum of the Student-t kernel is nonzero, when there is at least one centre. -/
theorem sum_tKernel_ne_zero {n d k : ℕ} (hk : 0 < k) (h : M n d) (c : M k d) (i : Fin n) :
    ∑ j', tKernel h c i j' ≠ 0 := (sum_tKernel_pos hk h c i).ne'

/-- The case of ten centres. -/
theorem sum_tKernel_pos_ten {n d : ℕ} (h : M n d) (c : M 10 d) (i : Fin n) : 0 < ∑ j', tKernel h c i j' :=
  sum_tKernel_pos (by norm_num) h c i

/-- One plus an exponential is positive. -/
theorem one_add_exp_pos (y : ℝ) : 0 < 1 + Real.exp y := by
  have := Real.exp_pos y
  linarith

/-- One plus an exponential is not zero. -/
theorem one_add_exp_ne_zero (y : ℝ) : 1 + Real.exp y ≠ 0 := (one_add_exp_pos y).ne'

end RealNet

end

noncomputable section

namespace RealNet

open Matrix
open Idealize.ShloMosaic
open scoped BigOperators

/-! ## E. Entrywise forms: a building block on coerced arrays, read at an entry, is the coercion of the
real building block.  Each statement has the extended-real expression on the left and a `coeM` entry on
the right, so that rewriting left to right folds a term bottom-up. -/

/-- An entry of a coerced matrix. -/
theorem coeM_apply {n m : ℕ} (A : M n m) (i : Fin n) (j : Fin m) : coeM A i j = ((A i j : ℝ) : EReal) := rfl

/-- An entry of a coerced vector. -/
theorem coeV_apply {n : ℕ} (b : Fin n → ℝ) (i : Fin n) : coeV b i = ((b i : ℝ) : EReal) := rfl

/-- Entrywise coercion is injective on matrices. -/
theorem coeM_injective {n m : ℕ} : Function.Injective (coeM (n := n) (m := m)) := by
  intro A B h
  funext i j
  exact EReal.coe_injective (congrFun (congrFun h i) j)

/-- Entrywise coercion is injective on vectors. -/
theorem coeV_injective {n : ℕ} : Function.Injective (coeV (n := n)) := by
  intro a b h
  funext i
  exact EReal.coe_injective (congrFun h i)

/-- An extended real that is neither infinity is the coercion of a real. -/
theorem exists_real_of_finite {x : EReal} (htop : x ≠ ⊤) (hbot : x ≠ ⊥) : ∃ r : ℝ, x = (r : EReal) :=
  ⟨x.toReal, (EReal.coe_toReal htop hbot).symm⟩

/-- An array of extended reals none of which is an infinity is the entrywise coercion of a real matrix. -/
theorem exists_coeM_of_finite {n m : ℕ} (x : Fin n → Fin m → EReal) (h : ∀ i j, x i j ≠ ⊤ ∧ x i j ≠ ⊥) :
    ∃ A : M n m, x = coeM A :=
  ⟨fun i j => (x i j).toReal, funext fun i => funext fun j => (EReal.coe_toReal (h i j).1 (h i j).2).symm⟩

/-- A vector of extended reals none of which is an infinity is the entrywise coercion of a real vector. -/
theorem exists_coeV_of_finite {n : ℕ} (x : Fin n → EReal) (h : ∀ i, x i ≠ ⊤ ∧ x i ≠ ⊥) :
    ∃ b : Fin n → ℝ, x = coeV b :=
  ⟨fun i => (x i).toReal, funext fun i => (EReal.coe_toReal (h i).1 (h i).2).symm⟩

/-- Sum of two coerced matrices at an entry. -/
theorem lift_add_apply {n m : ℕ} (A B : M n m) (i : Fin n) (j : Fin m) :
    coeM A i j + coeM B i j = coeM (A + B) i j := by
  simp only [coeM, lift_add, Matrix.add_apply]

/-- A coerced matrix plus a coerced row vector at an entry. -/
theorem lift_addRow_apply {n m : ℕ} (A : M n m) (b : Fin m → ℝ) (i : Fin n) (j : Fin m) :
    coeM A i j + coeV b j = coeM (addRow A b) i j := by
  simp only [coeM, coeV, lift_add, addRow]

/-- The rectifier of a coerced matrix at an entry, against the extended real zero. -/
theorem lift_relu_apply {n m : ℕ} (A : M n m) (i : Fin n) (j : Fin m) :
    max (coeM A i j) 0 = coeM (relu A) i j := by
  simp only [coeM, relu, lift_max_zero]

/-- The rectifier of a coerced matrix at an entry, against the coerced real zero. -/
theorem lift_relu_apply' {n m : ℕ} (A : M n m) (i : Fin n) (j : Fin m) :
    max (coeM A i j) ((0 : ℝ) : EReal) = coeM (relu A) i j := by
  simp only [coeM, relu, lift_max]

/-- The contraction of two coerced matrices at an entry is the entry of the coerced product. -/
theorem lift_matmul_apply {n k m : ℕ} (A : M n k) (B : M k m) (i : Fin n) (j : Fin m) :
    ∑ l, coeM A i l * coeM B l j = coeM (A * B) i j := lift_matmul A B i j

/-- The contraction against the rows of the second matrix is the entry of the coerced product with the
    transpose. -/
theorem lift_matmul_transpose_apply {n k m : ℕ} (A : M n k) (B : M m k) (i : Fin n) (j : Fin m) :
    ∑ l, coeM A i l * coeM B j l = coeM (A * Bᵀ) i j := lift_matmul_transpose A B i j

/-- An entry of the coerced transpose. -/
theorem coeM_transpose_apply {n m : ℕ} (A : M n m) (i : Fin m) (j : Fin n) : coeM Aᵀ i j = coeM A j i := rfl

/-- An affine layer on coerced arrays at an entry: contraction plus bias. -/
theorem lift_lin_apply {n k m : ℕ} (X : M n k) (W : M k m) (b : Fin m → ℝ) (i : Fin n) (j : Fin m) :
    (∑ l, coeM X i l * coeM W l j) + coeV b j = coeM (lin X W b) i j := by
  rw [lift_matmul_apply, lift_addRow_apply]; rfl

/-- The logistic function of a coerced entry, written with the exact division and exponential. -/
theorem lift_logistic_apply {n m : ℕ} (A : M n m) (i : Fin n) (j : Fin m) :
    Ideal.div ((1 : ℝ) : EReal) (((1 : ℝ) : EReal) + Ideal.exp (-(coeM A i j))) = coeM (logistic A) i j := by
  simp only [coeM, logistic, lift_neg, lift_exp, lift_add]
  rw [lift_div _ (one_add_exp_ne_zero _)]

/-- The exact instance's own logistic of a coerced entry. -/
theorem lift_logistic_apply' {n m : ℕ} (A : M n m) (i : Fin n) (j : Fin m) :
    Ideal.logistic (coeM A i j) = coeM (logistic A) i j := by
  simp only [coeM, logistic, Ideal.logistic_coe, logistic_inv_eq]

/-- The logistic function through the hyperbolic tangent, on a coerced entry. -/
theorem lift_logisticTanh_apply {n m : ℕ} (A : M n m) (i : Fin n) (j : Fin m) :
    ((1 / 2 : ℝ) : EReal) * (((1 : ℝ) : EReal) + Ideal.tanh (((1 / 2 : ℝ) : EReal) * coeM A i j))
      = coeM (logisticTanh A) i j := by
  simp only [coeM, logisticTanh, lift_mul, lift_tanh, lift_add]

/-- The Student-t kernel on coerced arrays at an entry, with the squares written as products. -/
theorem lift_tKernel_apply {n d k : ℕ} (h : M n d) (c : M k d) (i : Fin n) (j : Fin k) :
    Ideal.div ((1 : ℝ) : EReal)
        (((1 : ℝ) : EReal) + ∑ l, (coeM h i l - coeM c j l) * (coeM h i l - coeM c j l))
      = coeM (tKernel h c) i j := by
  have hb : (1 + ∑ l, (h i l - c j l) * (h i l - c j l)) ≠ 0 :=
    (one_add_sum_mul_self_pos (fun l => h i l) (fun l => c j l)).ne'
  simp only [coeM, lift_sub, lift_mul, lift_sum, lift_add]
  rw [lift_div _ hb, ← tKernel_apply_mul]

/-- The Student-t kernel from the expanded squared distance, on coerced arrays at an entry. -/
theorem lift_tKernelExpanded_apply {n d k : ℕ} (H : M n d) (C : M k d) (i : Fin n) (j : Fin k) :
    Ideal.div ((1 : ℝ) : EReal)
        (((1 : ℝ) : EReal) + ((∑ l, coeM H i l * coeM H i l) - ((2 : ℝ) : EReal) * coeM (H * Cᵀ) i j
          + ∑ l, coeM Cᵀ l j * coeM Cᵀ l j))
      = coeM (tKernelExpanded H C) i j := by
  have hb : (1 + ((∑ l, H i l * H i l) - 2 * (H * Cᵀ) i j + ∑ l, Cᵀ l j * Cᵀ l j)) ≠ 0 :=
    (one_add_sqDistExpanded_pos H C i j).ne'
  simp only [coeM, lift_mul, lift_sum, lift_sub, lift_add]
  rw [lift_div _ hb]
  rfl

/-- Row normalisation of a coerced positive kernel at an entry: the soft assignment. -/
theorem lift_softAssign_apply {n d k : ℕ} (hk : 0 < k) (h : M n d) (c : M k d) (i : Fin n) (j : Fin k) :
    Ideal.div (coeM (tKernel h c) i j) (∑ j', coeM (tKernel h c) i j') = coeM (softAssign h c) i j := by
  simp only [coeM, lift_sum]
  rw [lift_div _ (sum_tKernel_ne_zero hk h c i)]
  rfl

/-- Row normalisation of the coerced expanded kernel at an entry: the expanded soft assignment. -/
theorem lift_softAssignExpanded_apply {n d k : ℕ} (hk : 0 < k) (H : M n d) (C : M k d) (i : Fin n) (j : Fin k) :
    Ideal.div (coeM (tKernelExpanded H C) i j) (∑ j', coeM (tKernelExpanded H C) i j')
      = coeM (softAssignExpanded H C) i j := by
  have hb : (∑ j', tKernelExpanded H C i j') ≠ 0 := by
    rw [tKernelExpanded_eq]; exact sum_tKernel_ne_zero hk H C i
  simp only [coeM, lift_sum]
  rw [lift_div _ hb]
  rfl

end RealNet

end
-- ==== Proof.KernelIdealV1.lean ====
/-
  The first adjacency sweep, read as values at the exact instance.

  One grid point of the sweep takes a block of 512 rows of the single-precision adjacency `a`, the whole
  operand `u`, the same 512 rows of the addend `h`, two whole 500 × 500 weights `w`, `g` and a bias row `b`,
  and leaves three blocks of 512 rows: the adjacency rows themselves, `max ((max (a · u) 0 + h) · w + b) 0`, and
  `max (a · u) 0 · g`.  This module reads that off in three steps: the body's arithmetic at one entry of a
  block; the eight blocks put together as one function of the arrays, entry by entry; and the same over the
  reals when the arrays are coercions of real matrices.
-/
import proofs.«140843_g75050258530825_cont_9to1_m_403_24_alg».proof.Proof.KernelIdealR1
import proofs.«140843_g75050258530825_cont_9to1_m_403_24_alg».proof.Proof.KernelIdealVMatmul
import proofs.«140843_g75050258530825_cont_9to1_m_403_24_alg».proof.Proof.LibRealLift
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 1. The body's arithmetic at one entry

The two products of the body — the adjacency block against the operand, and a 512 × 500 block against a 500 × 500
weight — are read at an entry by `matmulAU500_apply` and `matmulHW500_apply`. -/

/-- The rounded adjacency block at an entry is the entry itself: the change of format is the identity at the exact
    instance. -/
theorem pay1_1_apply (x0 : Vec Ideal S512x4096 .f32) (j : S512x4096.Idx) : k1_pay1 x0 j = x0 j := rfl

/-- The rectified product at entry `(p, l)`: `max (∑ k, x0 (p, k) · x1 (k, l)) 0`.  (The shape cast is an identity,
    the accumulator is the zero word.) -/
theorem pay1_2_apply (x0 : Vec Ideal S512x4096 .f32) (x1 : Vec Ideal S4096x500 .bf16) (p : Fin 512) (l : Fin 500) :
    k1_pay2 x0 x1 (ix2 p l) = max (∑ k : Fin 4096, x0 (ix2 p k) * x1 (ix2 k l)) 0 := by
  unfold k1_pay2
  simp only [shapeCast_self]
  show max (FloatOps.matmul dotAU500 none (k1_pay1 x0) x1 (constant (F := Ideal) S512x500 .f32 0x00000000#32) (ix2 p l))
      (Ideal.ofBits .f32 0x00000000#32) = _
  rw [matmulAU500_apply, Ideal.ofBits_zero_f32]
  rfl

/-- The first stored block at entry `(p, q)`: the rectified product plus the addend, through the dense layer with
    its bias row, rectified: `max ((∑ l, (max (∑ k, x0 (p, k) · x1 (k, l)) 0 + x2 (p, l)) · x3 (l, q)) + x4 (0, q)) 0`. -/
theorem pay1_3_apply (x0 : Vec Ideal S512x4096 .f32) (x1 : Vec Ideal S4096x500 .bf16) (x2 : Vec Ideal S512x500 .bf16)
    (x3 : Vec Ideal S500x500 .bf16) (x4 : Vec Ideal S1x500 .f32) (p : Fin 512) (q : Fin 500) :
    k1_pay3 x0 x1 x2 x3 x4 (ix2 p q)
      = max ((∑ l : Fin 500, (max (∑ k : Fin 4096, x0 (ix2 p k) * x1 (ix2 k l)) 0 + x2 (ix2 p l)) * x3 (ix2 l q))
          + x4 (ix2 (0 : Fin 1) q)) 0 := by
  unfold k1_pay3
  simp only [shapeCast_self]
  show max (FloatOps.matmul dotHW500 none
        (truncf .bf16 (addf (k1_pay2 x0 x1) (extf .f32 x2 bitsLt_bf16_f32)) bitsLt_bf16_f32) x3
        (constant (F := Ideal) S512x500 .f32 0x00000000#32) (ix2 p q)
      + broadcastTo S512x500 x4 broadcasts_S1x500_S512x500 (ix2 p q)) (Ideal.ofBits .f32 0x00000000#32) = _
  rw [matmulHW500_apply, broadcastTo_1b_ab_apply, Ideal.ofBits_zero_f32]
  refine congrArg (fun s => max (s + x4 (ix2 (0 : Fin 1) q)) 0) (Finset.sum_congr rfl fun l _ => ?_)
  show (k1_pay2 x0 x1 (ix2 p l) + x2 (ix2 p l)) * x3 (ix2 l q) = _
  rw [pay1_2_apply]

/-- The second stored block at entry `(p, q)`: the rectified product through the second weight,
    `∑ l, max (∑ k, x0 (p, k) · x1 (k, l)) 0 · x5 (l, q)`. -/
theorem pay1_4_apply (x0 : Vec Ideal S512x4096 .f32) (x1 : Vec Ideal S4096x500 .bf16) (x5 : Vec Ideal S500x500 .bf16)
    (p : Fin 512) (q : Fin 500) :
    k1_pay4 x0 x1 x5 (ix2 p q) = ∑ l : Fin 500, max (∑ k : Fin 4096, x0 (ix2 p k) * x1 (ix2 k l)) 0 * x5 (ix2 l q) := by
  unfold k1_pay4
  simp only [shapeCast_self]
  rw [truncf_apply]
  show FloatOps.matmul dotHW500 none (truncf .bf16 (k1_pay2 x0 x1) bitsLt_bf16_f32) x5
      (constant (F := Ideal) S512x500 .f32 0x00000000#32) (ix2 p q) = _
  rw [matmulHW500_apply]
  refine Finset.sum_congr rfl fun l _ => ?_
  show k1_pay2 x0 x1 (ix2 p l) * x5 (ix2 l q) = _
  rw [pay1_2_apply]

/-! ## 2. The eight blocks as one function of the arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz1 : (![0, 0] : Fin 2 → Nat) = fun _ => 0 := funext fun a => by fin_cases a <;> rfl

/-- The first dense layer's result as one function of the adjacency `a`, the operand `u`, the addend `h`, the weight
    `w` and the bias row `b`, entry by entry: row `P` of the result uses row `P` of `a` and of `h`. -/
def G1_6 (a : Vec Ideal S4096x4096 .f32) (u h : Vec Ideal S4096x500 .bf16) (w : Vec Ideal S500x500 .bf16)
    (b : Vec Ideal S1x500 .f32) : Vec Ideal S4096x500 .bf16 :=
  fun i => max ((∑ l : Fin 500, (max (∑ k : Fin 4096, a (ix2 (⟨(i 0).val, (i 0).isLt⟩ : Fin 4096) k) * u (ix2 k l)) 0
        + h (ix2 (⟨(i 0).val, (i 0).isLt⟩ : Fin 4096) l)) * w (ix2 l (⟨(i 1).val, (i 1).isLt⟩ : Fin 500)))
      + b (ix2 (0 : Fin 1) (⟨(i 1).val, (i 1).isLt⟩ : Fin 500))) 0

/-- The result at entry `(P, Q)`. -/
theorem G1_6_apply (a : Vec Ideal S4096x4096 .f32) (u h : Vec Ideal S4096x500 .bf16) (w : Vec Ideal S500x500 .bf16)
    (b : Vec Ideal S1x500 .f32) (P : Fin 4096) (Q : Fin 500) :
    G1_6 a u h w b (ix2 P Q)
      = max ((∑ l : Fin 500, (max (∑ k : Fin 4096, a (ix2 P k) * u (ix2 k l)) 0 + h (ix2 P l)) * w (ix2 l Q))
          + b (ix2 (0 : Fin 1) Q)) 0 := rfl

/-- The second weight's result as one function of the adjacency `a`, the operand `u` and the weight `g`, entry by
    entry. -/
def G1_7 (a : Vec Ideal S4096x4096 .f32) (u : Vec Ideal S4096x500 .bf16) (g : Vec Ideal S500x500 .bf16) :
    Vec Ideal S4096x500 .bf16 :=
  fun i => ∑ l : Fin 500, max (∑ k : Fin 4096, a (ix2 (⟨(i 0).val, (i 0).isLt⟩ : Fin 4096) k) * u (ix2 k l)) 0
      * g (ix2 l (⟨(i 1).val, (i 1).isLt⟩ : Fin 500))

/-- The result at entry `(P, Q)`. -/
theorem G1_7_apply (a : Vec Ideal S4096x4096 .f32) (u : Vec Ideal S4096x500 .bf16) (g : Vec Ideal S500x500 .bf16)
    (P : Fin 4096) (Q : Fin 500) :
    G1_7 a u g (ix2 P Q) = ∑ l : Fin 500, max (∑ k : Fin 4096, a (ix2 P k) * u (ix2 k l)) 0 * g (ix2 l Q) := rfl

/-- The rounded adjacency as a function of the single-precision one: the same entries. -/
def G1_8 (a : Vec Ideal S4096x4096 .f32) : Vec Ideal S4096x4096 .bf16 := fun i => a i

/-- One point of the first dense layer, over variables: when the blocks are row `P` of `a` along row `p`, the
    whole of `u`, row `P` of `h` along row `p`, column `q` of `w` and entry `q` of `b`, the body's value at `(p, q)`
    is the result at `(P, q)`. -/
theorem point1_6 (a : Vec Ideal S4096x4096 .f32) (u h : Vec Ideal S4096x500 .bf16) (w : Vec Ideal S500x500 .bf16)
    (b : Vec Ideal S1x500 .f32)
    (x0 : Vec Ideal S512x4096 .f32) (x1 : Vec Ideal S4096x500 .bf16) (x2 : Vec Ideal S512x500 .bf16)
    (x3 : Vec Ideal S500x500 .bf16) (x4 : Vec Ideal S1x500 .f32)
    (p : Fin 512) (q : Fin 500) (P : Fin 4096)
    (h0 : ∀ k : Fin 4096, x0 (ix2 p k) = a (ix2 P k))
    (h1 : ∀ (k : Fin 4096) (l : Fin 500), x1 (ix2 k l) = u (ix2 k l))
    (h2 : ∀ l : Fin 500, x2 (ix2 p l) = h (ix2 P l))
    (h3 : ∀ l : Fin 500, x3 (ix2 l q) = w (ix2 l q))
    (h4 : x4 (ix2 (0 : Fin 1) q) = b (ix2 (0 : Fin 1) q)) :
    k1_pay3 x0 x1 x2 x3 x4 (ix2 p q) = G1_6 a u h w b (ix2 P q) := by
  rw [pay1_3_apply, G1_6_apply, h4]
  refine congrArg (fun s => max (s + b (ix2 (0 : Fin 1) q)) 0) (Finset.sum_congr rfl fun l _ => ?_)
  rw [h2 l, h3 l]
  refine congrArg (fun s => (max s 0 + h (ix2 P l)) * w (ix2 l q)) (Finset.sum_congr rfl fun k _ => ?_)
  rw [h0 k, h1 k l]

/-- One point of the second weight's product, over variables. -/
theorem point1_7 (a : Vec Ideal S4096x4096 .f32) (u : Vec Ideal S4096x500 .bf16) (g : Vec Ideal S500x500 .bf16)
    (x0 : Vec Ideal S512x4096 .f32) (x1 : Vec Ideal S4096x500 .bf16) (x5 : Vec Ideal S500x500 .bf16)
    (p : Fin 512) (q : Fin 500) (P : Fin 4096)
    (h0 : ∀ k : Fin 4096, x0 (ix2 p k) = a (ix2 P k))
    (h1 : ∀ (k : Fin 4096) (l : Fin 500), x1 (ix2 k l) = u (ix2 k l))
    (h5 : ∀ l : Fin 500, x5 (ix2 l q) = g (ix2 l q)) :
    k1_pay4 x0 x1 x5 (ix2 p q) = G1_7 a u g (ix2 P q) := by
  rw [pay1_4_apply, G1_7_apply]
  refine Finset.sum_congr rfl fun l _ => ?_
  rw [h5 l]
  refine congrArg (fun s => max s 0 * g (ix2 l q)) (Finset.sum_congr rfl fun k _ => ?_)
  rw [h0 k, h1 k l]

/-- The printed index maps, decided once over the eight points, window by window: the adjacency's, the addend's and
    the three results' blocks are row block `t`; the operand's, the weights' and the bias's blocks are the whole
    arrays. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)

/-- Where the adjacency block's entry `(p, k)` at point `t` sits in the array: row `512 t + p`, column `k`. -/
theorem emb1_0 (t : Fin cfg1.N) (p : Fin 512) (k : Fin 4096) (P : Fin 4096) (hP : P.val = t.val * 512 + p.val) :
    ((cfg1.win 0).blk t).view.emb (ix2 p k) = ix2 P k := by
  obtain ⟨e0, e1⟩ := idx1_0 t
  funext a; apply Fin.ext
  match a with
  | ⟨0, _⟩ => show win1_0.index t (0 : Fin 2) * 512 + 1 * p.val = P.val; omega
  | ⟨1, _⟩ => show win1_0.index t (1 : Fin 2) * 4096 + 1 * k.val = k.val; omega

/-- The operand's block is the whole array: entry `(k, l)` sits at `(k, l)`. -/
theorem emb1_1 (t : Fin cfg1.N) (k : Fin 4096) (l : Fin 500) :
    ((cfg1.win 1).blk t).view.emb (ix2 k l) = ix2 k l := by
  obtain ⟨e0, e1⟩ := idx1_1 t
  funext a; apply Fin.ext
  match a with
  | ⟨0, _⟩ => show win1_1.index t (0 : Fin 2) * 4096 + 1 * k.val = k.val; omega
  | ⟨1, _⟩ => show win1_1.index t (1 : Fin 2) * 500 + 1 * l.val = l.val; omega

/-- Where the addend block's entry `(p, l)` at point `t` sits in the array: row `512 t + p`, column `l`. -/
theorem emb1_2 (t : Fin cfg1.N) (p : Fin 512) (l : Fin 500) (P : Fin 4096) (hP : P.val = t.val * 512 + p.val) :
    ((cfg1.win 2).blk t).view.emb (ix2 p l) = ix2 P l := by
  obtain ⟨e0, e1⟩ := idx1_2 t
  funext a; apply Fin.ext
  match a with
  | ⟨0, _⟩ => show win1_2.index t (0 : Fin 2) * 512 + 1 * p.val = P.val; omega
  | ⟨1, _⟩ => show win1_2.index t (1 : Fin 2) * 500 + 1 * l.val = l.val; omega

/-- The first weight's block is the whole array. -/
theorem emb1_3 (t : Fin cfg1.N) (l : Fin 500) (q : Fin 500) :
    ((cfg1.win 3).blk t).view.emb (ix2 l q) = ix2 l q := by
  obtain ⟨e0, e1⟩ := idx1_3 t
  funext a; apply Fin.ext
  match a with
  | ⟨0, _⟩ => show win1_3.index t (0 : Fin 2) * 500 + 1 * l.val = l.val; omega
  | ⟨1, _⟩ => show win1_3.index t (1 : Fin 2) * 500 + 1 * q.val = q.val; omega

/-- The bias row's block is the whole array. -/
theorem emb1_4 (t : Fin cfg1.N) (z : Fin 1) (q : Fin 500) :
    ((cfg1.win 4).blk t).view.emb (ix2 z q) = ix2 z q := by
  obtain ⟨e0, e1⟩ := idx1_4 t
  funext a; apply Fin.ext
  match a with
  | ⟨0, _⟩ => show win1_4.index t (0 : Fin 2) * 1 + 1 * z.val = z.val; omega
  | ⟨1, _⟩ => show win1_4.index t (1 : Fin 2) * 500 + 1 * q.val = q.val; omega

/-- The second weight's block is the whole array. -/
theorem emb1_5 (t : Fin cfg1.N) (l : Fin 500) (q : Fin 500) :
    ((cfg1.win 5).blk t).view.emb (ix2 l q) = ix2 l q := by
  obtain ⟨e0, e1⟩ := idx1_5 t
  funext a; apply Fin.ext
  match a with
  | ⟨0, _⟩ => show win1_5.index t (0 : Fin 2) * 500 + 1 * l.val = l.val; omega
  | ⟨1, _⟩ => show win1_5.index t (1 : Fin 2) * 500 + 1 * q.val = q.val; omega

/-- Where the first result block's entry `(p, q)` at point `t` sits in the array: row `512 t + p`, column `q`. -/
theorem emb1_6 (t : Fin cfg1.N) (p : Fin 512) (q : Fin 500) (P : Fin 4096) (hP : P.val = t.val * 512 + p.val) :
    ((cfg1.win 6).blk t).view.emb (ix2 p q) = ix2 P q := by
  obtain ⟨e0, e1⟩ := idx1_6 t
  funext a; apply Fin.ext
  match a with
  | ⟨0, _⟩ => show win1_6.index t (0 : Fin 2) * 512 + 1 * p.val = P.val; omega
  | ⟨1, _⟩ => show win1_6.index t (1 : Fin 2) * 500 + 1 * q.val = q.val; omega

/-- Where the second result block's entry `(p, q)` at point `t` sits in the array. -/
theorem emb1_7 (t : Fin cfg1.N) (p : Fin 512) (q : Fin 500) (P : Fin 4096) (hP : P.val = t.val * 512 + p.val) :
    ((cfg1.win 7).blk t).view.emb (ix2 p q) = ix2 P q := by
  obtain ⟨e0, e1⟩ := idx1_7 t
  funext a; apply Fin.ext
  match a with
  | ⟨0, _⟩ => show win1_7.index t (0 : Fin 2) * 512 + 1 * p.val = P.val; omega
  | ⟨1, _⟩ => show win1_7.index t (1 : Fin 2) * 500 + 1 * q.val = q.val; omega

/-- Where the rounded adjacency block's entry `(p, k)` at point `t` sits in the array. -/
theorem emb1_8 (t : Fin cfg1.N) (p : Fin 512) (k : Fin 4096) (P : Fin 4096) (hP : P.val = t.val * 512 + p.val) :
    ((cfg1.win 8).blk t).view.emb (ix2 p k) = ix2 P k := by
  obtain ⟨e0, e1⟩ := idx1_8 t
  funext a; apply Fin.ext
  match a with
  | ⟨0, _⟩ => show win1_8.index t (0 : Fin 2) * 512 + 1 * p.val = P.val; omega
  | ⟨1, _⟩ => show win1_8.index t (1 : Fin 2) * 4096 + 1 * k.val = k.val; omega

/-- The adjacency block of point `t` at entry `(p, k)` is the array's entry at row `512 t + p`, column `k`. -/
theorem iblk1_0_apply (c : Dev nD) (t : Fin cfg1.N) (p : Fin 512) (k : Fin 4096) (P : Fin 4096)
    (hP : P.val = t.val * 512 + p.val) :
    iblk1 V c 0 t (ix2 p k) = V c (Pipeline.arrRef spec1 0) (ix2 P k) := by
  show V c (Pipeline.arrRef spec1 0) (((cfg1.win 0).blk t).view.emb (ix2 p k)) = _
  rw [emb1_0 t p k P hP]

/-- The operand block of point `t` is the operand. -/
theorem iblk1_1_apply (c : Dev nD) (t : Fin cfg1.N) (k : Fin 4096) (l : Fin 500) :
    iblk1 V c 1 t (ix2 k l) = V c (Pipeline.arrRef spec1 1) (ix2 k l) := by
  show V c (Pipeline.arrRef spec1 1) (((cfg1.win 1).blk t).view.emb (ix2 k l)) = _
  rw [emb1_1 t k l]

/-- The addend block of point `t` at entry `(p, l)` is the array's entry at row `512 t + p`, column `l`. -/
theorem iblk1_2_apply (c : Dev nD) (t : Fin cfg1.N) (p : Fin 512) (l : Fin 500) (P : Fin 4096)
    (hP : P.val = t.val * 512 + p.val) :
    iblk1 V c 2 t (ix2 p l) = V c (Pipeline.arrRef spec1 2) (ix2 P l) := by
  show V c (Pipeline.arrRef spec1 2) (((cfg1.win 2).blk t).view.emb (ix2 p l)) = _
  rw [emb1_2 t p l P hP]

/-- The first weight's block of point `t` is the weight. -/
theorem iblk1_3_apply (c : Dev nD) (t : Fin cfg1.N) (l : Fin 500) (q : Fin 500) :
    iblk1 V c 3 t (ix2 l q) = V c (Pipeline.arrRef spec1 3) (ix2 l q) := by
  show V c (Pipeline.arrRef spec1 3) (((cfg1.win 3).blk t).view.emb (ix2 l q)) = _
  rw [emb1_3 t l q]

/-- The bias block of point `t` is the bias row. -/
theorem iblk1_4_apply (c : Dev nD) (t : Fin cfg1.N) (z : Fin 1) (q : Fin 500) :
    iblk1 V c 4 t (ix2 z q) = V c (Pipeline.arrRef spec1 4) (ix2 z q) := by
  show V c (Pipeline.arrRef spec1 4) (((cfg1.win 4).blk t).view.emb (ix2 z q)) = _
  rw [emb1_4 t z q]

/-- The second weight's block of point `t` is the weight. -/
theorem iblk1_5_apply (c : Dev nD) (t : Fin cfg1.N) (l : Fin 500) (q : Fin 500) :
    iblk1 V c 5 t (ix2 l q) = V c (Pipeline.arrRef spec1 5) (ix2 l q) := by
  show V c (Pipeline.arrRef spec1 5) (((cfg1.win 5).blk t).view.emb (ix2 l q)) = _
  rw [emb1_5 t l q]

/-- What point `t` writes back through window 6 is block `t` of the first dense layer's result of the arrays as the
    region finds them. -/
theorem flushed1_6_eq (c : Dev nD) (t : Fin cfg1.N) :
    (dat1 (F := Ideal) V c).flushed 6 t
      = ((cfg1.win 6).blk t).view.read (Elt Ideal)
          (G1_6 (V c (Pipeline.arrRef spec1 0)) (V c (Pipeline.arrRef spec1 1)) (V c (Pipeline.arrRef spec1 2))
            (V c (Pipeline.arrRef spec1 3)) (V c (Pipeline.arrRef spec1 4))) := by
  show (cfg1.win 6).cut (grid1.coords t) ((dat1 V c).after 6 t) = _
  rw [after1_6]
  unfold out1_6
  rw [View.canon_unit_zero hz1]
  simp only [View.ld_unit_zero (S := S512x4096) hz1, View.ld_unit_zero (S := S4096x500) hz1,
    View.ld_unit_zero (S := S512x500) hz1, View.ld_unit_zero (S := S500x500) hz1, View.ld_unit_zero (S := S1x500) hz1]
  funext j
  obtain ⟨p, q, rfl⟩ : ∃ (p : Fin 512) (q : Fin 500), j = ix2 p q := ⟨j 0, j 1, eq_ix2 (n0 := 512) (n1 := 500) j⟩
  have ht : t.val < 8 := lt_of_lt_of_eq t.isLt N_1
  have hP : t.val * 512 + p.val < 4096 := by have := p.isLt; omega
  show k1_pay3 (iblk1 V c 0 t) (iblk1 V c 1 t) (iblk1 V c 2 t) (iblk1 V c 3 t) (iblk1 V c 4 t) (ix2 p q)
    = G1_6 (V c (Pipeline.arrRef spec1 0)) (V c (Pipeline.arrRef spec1 1)) (V c (Pipeline.arrRef spec1 2))
        (V c (Pipeline.arrRef spec1 3)) (V c (Pipeline.arrRef spec1 4)) (((cfg1.win 6).blk t).view.emb (ix2 p q))
  rw [emb1_6 t p q ⟨t.val * 512 + p.val, hP⟩ rfl]
  exact point1_6 _ _ _ _ _ _ _ _ _ _ p q ⟨t.val * 512 + p.val, hP⟩
    (fun k => iblk1_0_apply V c t p k ⟨t.val * 512 + p.val, hP⟩ rfl) (fun k l => iblk1_1_apply V c t k l)
    (fun l => iblk1_2_apply V c t p l ⟨t.val * 512 + p.val, hP⟩ rfl) (fun l => iblk1_3_apply V c t l q)
    (iblk1_4_apply V c t 0 q)

/-- What point `t` writes back through window 7 is block `t` of the second weight's result. -/
theorem flushed1_7_eq (c : Dev nD) (t : Fin cfg1.N) :
    (dat1 (F := Ideal) V c).flushed 7 t
      = ((cfg1.win 7).blk t).view.read (Elt Ideal)
          (G1_7 (V c (Pipeline.arrRef spec1 0)) (V c (Pipeline.arrRef spec1 1)) (V c (Pipeline.arrRef spec1 5))) := by
  show (cfg1.win 7).cut (grid1.coords t) ((dat1 V c).after 7 t) = _
  rw [after1_7]
  unfold out1_7
  rw [View.canon_unit_zero hz1]
  simp only [View.ld_unit_zero (S := S512x4096) hz1, View.ld_unit_zero (S := S4096x500) hz1,
    View.ld_unit_zero (S := S500x500) hz1]
  funext j
  obtain ⟨p, q, rfl⟩ : ∃ (p : Fin 512) (q : Fin 500), j = ix2 p q := ⟨j 0, j 1, eq_ix2 (n0 := 512) (n1 := 500) j⟩
  have ht : t.val < 8 := lt_of_lt_of_eq t.isLt N_1
  have hP : t.val * 512 + p.val < 4096 := by have := p.isLt; omega
  show k1_pay4 (iblk1 V c 0 t) (iblk1 V c 1 t) (iblk1 V c 5 t) (ix2 p q)
    = G1_7 (V c (Pipeline.arrRef spec1 0)) (V c (Pipeline.arrRef spec1 1)) (V c (Pipeline.arrRef spec1 5))
        (((cfg1.win 7).blk t).view.emb (ix2 p q))
  rw [emb1_7 t p q ⟨t.val * 512 + p.val, hP⟩ rfl]
  exact point1_7 _ _ _ _ _ _ p q ⟨t.val * 512 + p.val, hP⟩
    (fun k => iblk1_0_apply V c t p k ⟨t.val * 512 + p.val, hP⟩ rfl) (fun k l => iblk1_1_apply V c t k l)
    (fun l => iblk1_5_apply V c t l q)

/-- What point `t` writes back through window 8 is block `t` of the adjacency as the region finds it. -/
theorem flushed1_8_eq (c : Dev nD) (t : Fin cfg1.N) :
    (dat1 (F := Ideal) V c).flushed 8 t
      = ((cfg1.win 8).blk t).view.read (Elt Ideal) (G1_8 (V c (Pipeline.arrRef spec1 0))) := by
  show (cfg1.win 8).cut (grid1.coords t) ((dat1 V c).after 8 t) = _
  rw [after1_8]
  unfold out1_8
  rw [View.canon_unit_zero hz1]
  simp only [View.ld_unit_zero (S := S512x4096) hz1]
  funext j
  obtain ⟨p, k, rfl⟩ : ∃ (p : Fin 512) (k : Fin 4096), j = ix2 p k := ⟨j 0, j 1, eq_ix2 (n0 := 512) (n1 := 4096) j⟩
  have ht : t.val < 8 := lt_of_lt_of_eq t.isLt N_1
  have hP : t.val * 512 + p.val < 4096 := by have := p.isLt; omega
  show k1_pay1 (iblk1 V c 0 t) (ix2 p k) = G1_8 (V c (Pipeline.arrRef spec1 0)) (((cfg1.win 8).blk t).view.emb (ix2 p k))
  rw [emb1_8 t p k ⟨t.val * 512 + p.val, hP⟩ rfl, pay1_1_apply]
  exact iblk1_0_apply V c t p k ⟨t.val * 512 + p.val, hP⟩ rfl

/-- An entry of the array lies in point `t`'s block of window 6 iff each coordinate lies in the block's range. -/
theorem mem_blk1_6 (t : Fin cfg1.N) (i : S4096x500.Idx) :
    i ∈ ((cfg1.win 6).blk t).view.set ↔ ∀ a : Fin 2, win1_6.index t a * S512x500.size a ≤ (i a).val
      ∧ (i a).val < win1_6.index t a * S512x500.size a + S512x500.size a := by
  show i ∈ ((View.whole main_v22_0).slice (win1_6.rect t)).set ↔ _
  rw [View.set_slice_whole, Rect.mem_set_unit]
  exact Iff.rfl

/-- The same for window 7. -/
theorem mem_blk1_7 (t : Fin cfg1.N) (i : S4096x500.Idx) :
    i ∈ ((cfg1.win 7).blk t).view.set ↔ ∀ a : Fin 2, win1_7.index t a * S512x500.size a ≤ (i a).val
      ∧ (i a).val < win1_7.index t a * S512x500.size a + S512x500.size a := by
  show i ∈ ((View.whole main_v22_1).slice (win1_7.rect t)).set ↔ _
  rw [View.set_slice_whole, Rect.mem_set_unit]
  exact Iff.rfl

/-- The same for window 8. -/
theorem mem_blk1_8 (t : Fin cfg1.N) (i : S4096x4096.Idx) :
    i ∈ ((cfg1.win 8).blk t).view.set ↔ ∀ a : Fin 2, win1_8.index t a * S512x4096.size a ≤ (i a).val
      ∧ (i a).val < win1_8.index t a * S512x4096.size a + S512x4096.size a := by
  show i ∈ ((View.whole main_v22_2).slice (win1_8.rect t)).set ↔ _
  rw [View.set_slice_whole, Rect.mem_set_unit]
  exact Iff.rfl

/-- Every entry of the first result array is in some point's block: row `P` is covered by point `P / 512`. -/
theorem covered1_6 (i : S4096x500.Idx) :
    ∃ t : Fin cfg1.N, (cfg1.win 6).flush t = true ∧ i ∈ ((cfg1.win 6).blk t).view.set := by
  have hi0 : (i 0).val < 4096 := (i 0).isLt
  have hi1 : (i 1).val < 500 := (i 1).isLt
  obtain ⟨t, ht⟩ : ∃ t : Fin cfg1.N, t.val = (i 0).val / 512 :=
    ⟨⟨(i 0).val / 512, lt_of_lt_of_eq (show (i 0).val / 512 < 8 by omega) N_1.symm⟩, rfl⟩
  obtain ⟨e0, e1⟩ := idx1_6 t
  refine ⟨t, flush1_6 t, ?_⟩
  rw [mem_blk1_6]
  intro a
  match a with
  | ⟨0, _⟩ =>
    show win1_6.index t (0 : Fin 2) * 512 ≤ (i 0).val ∧ (i 0).val < win1_6.index t (0 : Fin 2) * 512 + 512
    omega
  | ⟨1, _⟩ =>
    show win1_6.index t (1 : Fin 2) * 500 ≤ (i 1).val ∧ (i 1).val < win1_6.index t (1 : Fin 2) * 500 + 500
    omega

/-- Every entry of the second result array is in some point's block. -/
theorem covered1_7 (i : S4096x500.Idx) :
    ∃ t : Fin cfg1.N, (cfg1.win 7).flush t = true ∧ i ∈ ((cfg1.win 7).blk t).view.set := by
  have hi0 : (i 0).val < 4096 := (i 0).isLt
  have hi1 : (i 1).val < 500 := (i 1).isLt
  obtain ⟨t, ht⟩ : ∃ t : Fin cfg1.N, t.val = (i 0).val / 512 :=
    ⟨⟨(i 0).val / 512, lt_of_lt_of_eq (show (i 0).val / 512 < 8 by omega) N_1.symm⟩, rfl⟩
  obtain ⟨e0, e1⟩ := idx1_7 t
  refine ⟨t, flush1_7 t, ?_⟩
  rw [mem_blk1_7]
  intro a
  match a with
  | ⟨0, _⟩ =>
    show win1_7.index t (0 : Fin 2) * 512 ≤ (i 0).val ∧ (i 0).val < win1_7.index t (0 : Fin 2) * 512 + 512
    omega
  | ⟨1, _⟩ =>
    show win1_7.index t (1 : Fin 2) * 500 ≤ (i 1).val ∧ (i 1).val < win1_7.index t (1 : Fin 2) * 500 + 500
    omega

/-- Every entry of the rounded adjacency is in some point's block. -/
theorem covered1_8 (i : S4096x4096.Idx) :
    ∃ t : Fin cfg1.N, (cfg1.win 8).flush t = true ∧ i ∈ ((cfg1.win 8).blk t).view.set := by
  have hi0 : (i 0).val < 4096 := (i 0).isLt
  have hi1 : (i 1).val < 4096 := (i 1).isLt
  obtain ⟨t, ht⟩ : ∃ t : Fin cfg1.N, t.val = (i 0).val / 512 :=
    ⟨⟨(i 0).val / 512, lt_of_lt_of_eq (show (i 0).val / 512 < 8 by omega) N_1.symm⟩, rfl⟩
  obtain ⟨e0, e1⟩ := idx1_8 t
  refine ⟨t, flush1_8 t, ?_⟩
  rw [mem_blk1_8]
  intro a
  match a with
  | ⟨0, _⟩ =>
    show win1_8.index t (0 : Fin 2) * 512 ≤ (i 0).val ∧ (i 0).val < win1_8.index t (0 : Fin 2) * 512 + 512
    omega
  | ⟨1, _⟩ =>
    show win1_8.index t (1 : Fin 2) * 4096 ≤ (i 1).val ∧ (i 1).val < win1_8.index t (1 : Fin 2) * 4096 + 4096
    omega

/-- The first result array after the region: the one function of the five arrays as the region finds them. -/
theorem final1_6 (c : Dev nD) :
    (dat1 (F := Ideal) V c).arrAt 6 cfg1.N
      = G1_6 (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 6
    (G1_6 (V c (Pipeline.arrRef spec1 0)) (V c (Pipeline.arrRef spec1 1)) (V c (Pipeline.arrRef spec1 2))
      (V c (Pipeline.arrRef spec1 3)) (V c (Pipeline.arrRef spec1 4)))
    (fun t _ => flushed1_6_eq V c t) covered1_6

/-- The second result array after the region. -/
theorem final1_7 (c : Dev nD) :
    (dat1 (F := Ideal) V c).arrAt 7 cfg1.N
      = G1_7 (V c (Pipeline.arrRef spec1 0)) (V c (Pipeline.arrRef spec1 1)) (V c (Pipeline.arrRef spec1 5)) :=
  (dat1 (F := Ideal) V c).arrAt_eq_of_cover 7
    (G1_7 (V c (Pipeline.arrRef spec1 0)) (V c (Pipeline.arrRef spec1 1)) (V c (Pipeline.arrRef spec1 5)))
    (fun t _ => flushed1_7_eq V c t) covered1_7

/-- The rounded adjacency after the region: the adjacency as the region finds it. -/
theorem final1_8 (c : Dev nD) :
    (dat1 (F := Ideal) V c).arrAt 8 cfg1.N = G1_8 (V c (Pipeline.arrRef spec1 0)) :=
  (dat1 (F := Ideal) V c).arrAt_eq_of_cover 8 (G1_8 (V c (Pipeline.arrRef spec1 0)))
    (fun t _ => flushed1_8_eq V c t) covered1_8

/-! ## 3. Over the reals -/

/-- The rectified product over the reals, over variables: when `a` and `u` are entrywise the coercions of real
    matrices `ADJ`, `U`, the rectified sum of products at `(p, l)` is the coercion of `relu (ADJ · U) p l`. -/
theorem relu_prod1_real (a : Vec Ideal S4096x4096 .f32) (u : Vec Ideal S4096x500 .bf16)
    (ADJ : RealNet.M 4096 4096) (U : RealNet.M 4096 500)
    (hA : ∀ (p k : Fin 4096), a (ix2 p k) = ((ADJ p k : ℝ) : EReal))
    (hU : ∀ (k : Fin 4096) (l : Fin 500), u (ix2 k l) = ((U k l : ℝ) : EReal))
    (p : Fin 4096) (l : Fin 500) :
    max (∑ k : Fin 4096, a (ix2 p k) * u (ix2 k l)) 0 = RealNet.coeM (RealNet.relu (ADJ * U)) p l := by
  have hs : (∑ k : Fin 4096, a (ix2 p k) * u (ix2 k l)) = RealNet.coeM (ADJ * U) p l := by
    rw [← RealNet.lift_matmul_apply ADJ U p l]
    exact Finset.sum_congr rfl fun k _ => by rw [hA, hU]; rfl
  rw [hs]
  exact RealNet.lift_relu_apply (ADJ * U) p l

/-- The first dense layer's result over the reals, over variables: when the five arrays are entrywise the
    coercions of real matrices `ADJ`, `U`, `H`, `W` and of a real row `bb`, the result at `(p, q)` is the coercion
    of `relu (lin (relu (ADJ · U) + H) W bb) p q`. -/
theorem G1_6_real (a : Vec Ideal S4096x4096 .f32) (u h : Vec Ideal S4096x500 .bf16) (w : Vec Ideal S500x500 .bf16)
    (b : Vec Ideal S1x500 .f32)
    (ADJ : RealNet.M 4096 4096) (U H : RealNet.M 4096 500) (W : RealNet.M 500 500) (bb : Fin 500 → ℝ)
    (hA : ∀ (p k : Fin 4096), a (ix2 p k) = ((ADJ p k : ℝ) : EReal))
    (hU : ∀ (k : Fin 4096) (l : Fin 500), u (ix2 k l) = ((U k l : ℝ) : EReal))
    (hH : ∀ (p : Fin 4096) (l : Fin 500), h (ix2 p l) = ((H p l : ℝ) : EReal))
    (hW : ∀ (l q : Fin 500), w (ix2 l q) = ((W l q : ℝ) : EReal))
    (hb : ∀ q : Fin 500, b (ix2 (0 : Fin 1) q) = ((bb q : ℝ) : EReal))
    (p : Fin 4096) (q : Fin 500) :
    G1_6 a u h w b (ix2 p q)
      = (((RealNet.relu (RealNet.lin (RealNet.relu (ADJ * U) + H) W bb)) p q : ℝ) : EReal) := by
  have hm : ∀ l : Fin 500, max (∑ k : Fin 4096, a (ix2 p k) * u (ix2 k l)) 0 + h (ix2 p l)
      = RealNet.coeM (RealNet.relu (ADJ * U) + H) p l := fun l => by
    rw [relu_prod1_real a u ADJ U hA hU p l, hH]
    exact RealNet.lift_add_apply (RealNet.relu (ADJ * U)) H p l
  have hs : (∑ l : Fin 500, (max (∑ k : Fin 4096, a (ix2 p k) * u (ix2 k l)) 0 + h (ix2 p l)) * w (ix2 l q))
      = RealNet.coeM ((RealNet.relu (ADJ * U) + H) * W) p q := by
    rw [← RealNet.lift_matmul_apply (RealNet.relu (ADJ * U) + H) W p q]
    exact Finset.sum_congr rfl fun l _ => by rw [hm l, hW]; rfl
  rw [G1_6_apply, hs, hb]
  exact (congrArg (fun s => max s 0) (RealNet.lift_addRow_apply ((RealNet.relu (ADJ * U) + H) * W) bb p q)).trans
    (RealNet.lift_relu_apply (RealNet.addRow ((RealNet.relu (ADJ * U) + H) * W) bb) p q)

/-- The second weight's result over the reals, over variables: the coercion of `(relu (ADJ · U) · G) p q`. -/
theorem G1_7_real (a : Vec Ideal S4096x4096 .f32) (u : Vec Ideal S4096x500 .bf16) (g : Vec Ideal S500x500 .bf16)
    (ADJ : RealNet.M 4096 4096) (U : RealNet.M 4096 500) (G : RealNet.M 500 500)
    (hA : ∀ (p k : Fin 4096), a (ix2 p k) = ((ADJ p k : ℝ) : EReal))
    (hU : ∀ (k : Fin 4096) (l : Fin 500), u (ix2 k l) = ((U k l : ℝ) : EReal))
    (hG : ∀ (l q : Fin 500), g (ix2 l q) = ((G l q : ℝ) : EReal))
    (p : Fin 4096) (q : Fin 500) :
    G1_7 a u g (ix2 p q) = (((RealNet.relu (ADJ * U) * G) p q : ℝ) : EReal) := by
  rw [G1_7_apply, ← RealNet.lift_matmul (RealNet.relu (ADJ * U)) G p q]
  exact Finset.sum_congr rfl fun l _ => by rw [relu_prod1_real a u ADJ U hA hU p l, hG]; rfl

/-- The first result array after the region, over the reals: with the five arrays the region finds entrywise the
    coercions of `ADJ`, `U`, `H`, `W`, `bb`, every entry is the coercion of `relu (lin (relu (ADJ · U) + H) W bb)`
    there. -/
theorem final1_6_real (c : Dev nD)
    (ADJ : RealNet.M 4096 4096) (U H : RealNet.M 4096 500) (W : RealNet.M 500 500) (bb : Fin 500 → ℝ)
    (hA : ∀ (p k : Fin 4096), V c (Pipeline.arrRef spec1 0) (ix2 p k) = ((ADJ p k : ℝ) : EReal))
    (hU : ∀ (k : Fin 4096) (l : Fin 500), V c (Pipeline.arrRef spec1 1) (ix2 k l) = ((U k l : ℝ) : EReal))
    (hH : ∀ (p : Fin 4096) (l : Fin 500), V c (Pipeline.arrRef spec1 2) (ix2 p l) = ((H p l : ℝ) : EReal))
    (hW : ∀ (l q : Fin 500), V c (Pipeline.arrRef spec1 3) (ix2 l q) = ((W l q : ℝ) : EReal))
    (hb : ∀ q : Fin 500, V c (Pipeline.arrRef spec1 4) (ix2 (0 : Fin 1) q) = ((bb q : ℝ) : EReal))
    (p : Fin 4096) (q : Fin 500) :
    (dat1 (F := Ideal) V c).arrAt 6 cfg1.N (ix2 p q)
      = (((RealNet.relu (RealNet.lin (RealNet.relu (ADJ * U) + H) W bb)) p q : ℝ) : EReal) :=
  (congrFun (final1_6 V c) (ix2 p q)).trans (G1_6_real _ _ _ _ _ ADJ U H W bb hA hU hH hW hb p q)

/-- The second result array after the region, over the reals: every entry is the coercion of
    `relu (ADJ · U) · G` there. -/
theorem final1_7_real (c : Dev nD)
    (ADJ : RealNet.M 4096 4096) (U : RealNet.M 4096 500) (G : RealNet.M 500 500)
    (hA : ∀ (p k : Fin 4096), V c (Pipeline.arrRef spec1 0) (ix2 p k) = ((ADJ p k : ℝ) : EReal))
    (hU : ∀ (k : Fin 4096) (l : Fin 500), V c (Pipeline.arrRef spec1 1) (ix2 k l) = ((U k l : ℝ) : EReal))
    (hG : ∀ (l q : Fin 500), V c (Pipeline.arrRef spec1 5) (ix2 l q) = ((G l q : ℝ) : EReal))
    (p : Fin 4096) (q : Fin 500) :
    (dat1 (F := Ideal) V c).arrAt 7 cfg1.N (ix2 p q) = (((RealNet.relu (ADJ * U) * G) p q : ℝ) : EReal) :=
  (congrFun (final1_7 V c) (ix2 p q)).trans (G1_7_real _ _ _ ADJ U G hA hU hG p q)

/-- The rounded adjacency after the region, over the reals: every entry is the coercion of `ADJ` there. -/
theorem final1_8_real (c : Dev nD) (ADJ : RealNet.M 4096 4096)
    (hA : ∀ (p k : Fin 4096), V c (Pipeline.arrRef spec1 0) (ix2 p k) = ((ADJ p k : ℝ) : EReal))
    (p k : Fin 4096) :
    (dat1 (F := Ideal) V c).arrAt 8 cfg1.N (ix2 p k) = ((ADJ p k : ℝ) : EReal) :=
  (congrFun (final1_8 V c) (ix2 p k)).trans (hA p k)

end Cert.KernelIdeal.HandValue

end
-- ==== Proof.KernelIdealV2.lean ====
/-
  The second adjacency sweep, read as values at the exact instance.

  One grid point of the sweep takes a block of 512 rows of the adjacency `a`, the whole operand `u` and the
  same 512 rows of the addend `h`, and leaves the 512 rows of `max (a · u) 0 + h`.  This module reads that
  off in three steps: the body's arithmetic at one entry of the block; the eight blocks put together as one
  function of the three arrays, entry by entry; and the same over the reals when the three arrays are
  coercions of real matrices.
-/
import proofs.«140843_g75050258530825_cont_9to1_m_403_24_alg».proof.Proof.KernelIdealR2
import proofs.«140843_g75050258530825_cont_9to1_m_403_24_alg».proof.Proof.LibRealLift
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 1. The body's arithmetic at one entry -/

/-- The dimension numbers of the sweep's product: 512 × 4096 times 4096 × 500, contracting the one shared axis. -/
abbrev dot2 : DotDims S512x4096 S4096x500 S512x500 := dot_S512x4096_S4096x500_S512x500_1_0_0_1_n_n

/-- The left operand's row coordinate is the output's row. -/
theorem dot2_lhs0 (j : S512x500.Idx) (k : dot2.contr.Idx) : (dot2.lhsIdx j k 0).val = (j 0).val := by
  unfold DotDims.lhsIdx
  rw [dif_neg (show ¬(0 : Fin S512x4096.rank) ∈ dot2.lhsBatch by decide),
    dif_pos (show (0 : Fin S512x4096.rank) ∈ dot2.lhsNonContracting by decide)]
  rfl

/-- The left operand's column coordinate is the contraction position. -/
theorem dot2_lhs1 (j : S512x500.Idx) (k : dot2.contr.Idx) : (dot2.lhsIdx j k 1).val = (k ⟨0, by decide⟩).val :=
  dot2.lhsIdx_val_of_single rfl j k

/-- The right operand's row coordinate is the contraction position. -/
theorem dot2_rhs0 (j : S512x500.Idx) (k : dot2.contr.Idx) : (dot2.rhsIdx j k 0).val = (k ⟨0, by decide⟩).val :=
  dot2.rhsIdx_val_of_single rfl j k

/-- The right operand's column coordinate is the output's column. -/
theorem dot2_rhs1 (j : S512x500.Idx) (k : dot2.contr.Idx) : (dot2.rhsIdx j k 1).val = (j 1).val := by
  unfold DotDims.rhsIdx
  rw [dif_neg (show ¬(1 : Fin S4096x500.rank) ∈ dot2.rhsBatch by decide),
    dif_pos (show (1 : Fin S4096x500.rank) ∈ dot2.rhsNonContracting by decide)]
  rfl

/-- The product into a zero accumulator, at entry `(p, q)`: the sum over `k` of `x0 (p, k) · x1 (k, q)`. -/
theorem matmul2_apply (x0 : FVec Ideal S512x4096 .bf16) (x1 : FVec Ideal S4096x500 .bf16) (p : Fin 512) (q : Fin 500) :
    FloatOps.matmul dot2 none x0 x1 (constant (F := Ideal) S512x500 .f32 0x00000000#32) (ix2 p q)
      = ∑ k : Fin 4096, x0 (ix2 p k) * x1 (ix2 k q) := by
  refine (Ideal.matmul_constant_zero_apply dot2 none x0 x1 (ix2 p q)).trans ?_
  rw [← Equiv.sum_comp (contrEquiv1 dot2 4096 rfl rfl).symm]
  refine Finset.sum_congr rfl fun k _ => ?_
  have hk := contrEquiv1_symm_val dot2 4096 rfl rfl k
  have el : dot2.lhsIdx (ix2 p q) ((contrEquiv1 dot2 4096 rfl rfl).symm k) = ix2 p k := funext fun a => Fin.ext (by
    match a with
    | ⟨0, _⟩ => exact dot2_lhs0 _ _
    | ⟨1, _⟩ => exact (dot2_lhs1 _ _).trans hk)
  have er : dot2.rhsIdx (ix2 p q) ((contrEquiv1 dot2 4096 rfl rfl).symm k) = ix2 k q := funext fun a => Fin.ext (by
    match a with
    | ⟨0, _⟩ => exact (dot2_rhs0 _ _).trans hk
    | ⟨1, _⟩ => exact dot2_rhs1 _ _)
  rw [el, er]

/-- The body's stored value at entry `(p, q)` of the block: the rectified product plus the addend,
    `max (∑ k, x0 (p, k) · x1 (k, q)) 0 + x2 (p, q)`.  (The shape casts are identities, the accumulator is the zero
    word, and the two changes of format are the identity at the exact instance.) -/
theorem pay2_1_apply (x0 : Vec Ideal S512x4096 .bf16) (x1 : Vec Ideal S4096x500 .bf16) (x2 : Vec Ideal S512x500 .bf16)
    (p : Fin 512) (q : Fin 500) :
    k2_pay1 x0 x1 x2 (ix2 p q) = max (∑ k : Fin 4096, x0 (ix2 p k) * x1 (ix2 k q)) 0 + x2 (ix2 p q) := by
  unfold k2_pay1
  simp only [shapeCast_self]
  show max (FloatOps.matmul dot2 none x0 x1 (constant (F := Ideal) S512x500 .f32 0x00000000#32) (ix2 p q))
      (Ideal.ofBits .f32 0x00000000#32) + x2 (ix2 p q) = _
  rw [matmul2_apply, Ideal.ofBits_zero_f32]

/-! ## 2. The eight blocks as one function of the three arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz2 : (![0, 0] : Fin 2 → Nat) = fun _ => 0 := funext fun a => by fin_cases a <;> rfl

/-- The sweep's result as one function of the adjacency `a`, the operand `u` and the addend `h`, entry by
    entry: row `P` of the result uses row `P` of `a`, all of `u`, and row `P` of `h`. -/
def G2_3 (a : Vec Ideal S4096x4096 .bf16) (u h : Vec Ideal S4096x500 .bf16) : Vec Ideal S4096x500 .bf16 :=
  fun i => max (∑ k : Fin 4096, a (ix2 (⟨(i 0).val, (i 0).isLt⟩ : Fin 4096) k)
      * u (ix2 k (⟨(i 1).val, (i 1).isLt⟩ : Fin 500))) 0 + h i

/-- The result at entry `(P, Q)`. -/
theorem G2_3_apply (a : Vec Ideal S4096x4096 .bf16) (u h : Vec Ideal S4096x500 .bf16) (P : Fin 4096) (Q : Fin 500) :
    G2_3 a u h (ix2 P Q) = max (∑ k : Fin 4096, a (ix2 P k) * u (ix2 k Q)) 0 + h (ix2 P Q) := rfl

/-- One point, over variables: when the first block is row `P` of `a` along row `p`, the second is `u` along column
    `q`, and the third is `h` at `(P, q)`, the body's value at `(p, q)` is the result at `(P, q)`. -/
theorem point2_3 (a : Vec Ideal S4096x4096 .bf16) (u h : Vec Ideal S4096x500 .bf16)
    (x0 : Vec Ideal S512x4096 .bf16) (x1 : Vec Ideal S4096x500 .bf16) (x2 : Vec Ideal S512x500 .bf16)
    (p : Fin 512) (q : Fin 500) (P : Fin 4096)
    (h0 : ∀ k : Fin 4096, x0 (ix2 p k) = a (ix2 P k))
    (h1 : ∀ k : Fin 4096, x1 (ix2 k q) = u (ix2 k q))
    (h2 : x2 (ix2 p q) = h (ix2 P q)) :
    k2_pay1 x0 x1 x2 (ix2 p q) = G2_3 a u h (ix2 P q) := by
  rw [pay2_1_apply, G2_3_apply, h2]
  refine congrArg (fun s => max s 0 + h (ix2 P q)) (Finset.sum_congr rfl fun k _ => ?_)
  rw [h0 k, h1 k]

/-- The printed index maps, decided once over the eight points: the adjacency's, the addend's and the result's
    blocks are row block `t`; the operand's block is the whole array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Where the adjacency block's entry `(p, k)` at point `t` sits in the array: row `512 t + p`, column `k`. -/
theorem emb2_0 (t : Fin cfg2.N) (p : Fin 512) (k : Fin 4096) (P : Fin 4096) (hP : P.val = t.val * 512 + p.val) :
    ((cfg2.win 0).blk t).view.emb (ix2 p k) = ix2 P k := by
  obtain ⟨e0, e1, -⟩ := idx_facts2 t
  funext a; apply Fin.ext
  match a with
  | ⟨0, _⟩ => show win2_0.index t (0 : Fin 2) * 512 + 1 * p.val = P.val; omega
  | ⟨1, _⟩ => show win2_0.index t (1 : Fin 2) * 4096 + 1 * k.val = k.val; omega

/-- The operand's block is the whole array: entry `(k, q)` sits at `(k, q)`. -/
theorem emb2_1 (t : Fin cfg2.N) (k : Fin 4096) (q : Fin 500) :
    ((cfg2.win 1).blk t).view.emb (ix2 k q) = ix2 k q := by
  obtain ⟨-, -, e0, e1, -⟩ := idx_facts2 t
  funext a; apply Fin.ext
  match a with
  | ⟨0, _⟩ => show win2_1.index t (0 : Fin 2) * 4096 + 1 * k.val = k.val; omega
  | ⟨1, _⟩ => show win2_1.index t (1 : Fin 2) * 500 + 1 * q.val = q.val; omega

/-- Where the addend block's entry `(p, q)` at point `t` sits in the array: row `512 t + p`, column `q`. -/
theorem emb2_2 (t : Fin cfg2.N) (p : Fin 512) (q : Fin 500) (P : Fin 4096) (hP : P.val = t.val * 512 + p.val) :
    ((cfg2.win 2).blk t).view.emb (ix2 p q) = ix2 P q := by
  obtain ⟨-, -, -, -, e0, e1, -⟩ := idx_facts2 t
  funext a; apply Fin.ext
  match a with
  | ⟨0, _⟩ => show win2_2.index t (0 : Fin 2) * 512 + 1 * p.val = P.val; omega
  | ⟨1, _⟩ => show win2_2.index t (1 : Fin 2) * 500 + 1 * q.val = q.val; omega

/-- Where the result block's entry `(p, q)` at point `t` sits in the array: row `512 t + p`, column `q`. -/
theorem emb2_3 (t : Fin cfg2.N) (p : Fin 512) (q : Fin 500) (P : Fin 4096) (hP : P.val = t.val * 512 + p.val) :
    ((cfg2.win 3).blk t).view.emb (ix2 p q) = ix2 P q := by
  obtain ⟨-, -, -, -, -, -, e0, e1⟩ := idx_facts2 t
  funext a; apply Fin.ext
  match a with
  | ⟨0, _⟩ => show win2_3.index t (0 : Fin 2) * 512 + 1 * p.val = P.val; omega
  | ⟨1, _⟩ => show win2_3.index t (1 : Fin 2) * 500 + 1 * q.val = q.val; omega

/-- What point `t` writes back is block `t` of the result of the three arrays as the region finds them. -/
theorem flushed2_3_eq (c : Dev nD) (t : Fin cfg2.N) :
    (dat2 (F := Ideal) V c).flushed 3 t
      = ((cfg2.win 3).blk t).view.read (Elt Ideal)
          (G2_3 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S512x4096) hz2, View.ld_unit_zero (S := S4096x500) hz2,
    View.ld_unit_zero (S := S512x500) hz2]
  funext j
  obtain ⟨p, q, rfl⟩ : ∃ (p : Fin 512) (q : Fin 500), j = ix2 p q := ⟨j 0, j 1, eq_ix2 (n0 := 512) (n1 := 500) j⟩
  have ht : t.val < 8 := lt_of_lt_of_eq t.isLt N_2
  have hP : t.val * 512 + p.val < 4096 := by have := p.isLt; omega
  show k2_pay1 (iblk2 V c 0 t) (iblk2 V c 1 t) (iblk2 V c 2 t) (ix2 p q)
    = G2_3 (V c (Pipeline.arrRef spec2 0)) (V c (Pipeline.arrRef spec2 1)) (V c (Pipeline.arrRef spec2 2))
        (((cfg2.win 3).blk t).view.emb (ix2 p q))
  rw [emb2_3 t p q ⟨t.val * 512 + p.val, hP⟩ rfl]
  refine point2_3 _ _ _ _ _ _ p q ⟨t.val * 512 + p.val, hP⟩ (fun k => ?_) (fun k => ?_) ?_
  · show V c (Pipeline.arrRef spec2 0) (((cfg2.win 0).blk t).view.emb (ix2 p k)) = _
    rw [emb2_0 t p k ⟨t.val * 512 + p.val, hP⟩ rfl]
  · show V c (Pipeline.arrRef spec2 1) (((cfg2.win 1).blk t).view.emb (ix2 k q)) = _
    rw [emb2_1 t k q]
  · show V c (Pipeline.arrRef spec2 2) (((cfg2.win 2).blk t).view.emb (ix2 p q)) = _
    rw [emb2_2 t p q ⟨t.val * 512 + p.val, hP⟩ rfl]

/-- An entry of the array lies in point `t`'s result block iff each coordinate lies in the block's range. -/
theorem mem_blk2_3 (t : Fin cfg2.N) (i : S4096x500.Idx) :
    i ∈ ((cfg2.win 3).blk t).view.set ↔ ∀ a : Fin 2, win2_3.index t a * S512x500.size a ≤ (i a).val
      ∧ (i a).val < win2_3.index t a * S512x500.size a + S512x500.size a := by
  show i ∈ ((View.whole main_v23).slice (win2_3.rect t)).set ↔ _
  rw [View.set_slice_whole, Rect.mem_set_unit]
  exact Iff.rfl

/-- Every entry of the array is in some point's result block: row `P` is covered by point `P / 512`. -/
theorem covered2_3 (i : S4096x500.Idx) :
    ∃ t : Fin cfg2.N, (cfg2.win 3).flush t = true ∧ i ∈ ((cfg2.win 3).blk t).view.set := by
  have hi0 : (i 0).val < 4096 := (i 0).isLt
  have hi1 : (i 1).val < 500 := (i 1).isLt
  obtain ⟨t, ht⟩ : ∃ t : Fin cfg2.N, t.val = (i 0).val / 512 :=
    ⟨⟨(i 0).val / 512, lt_of_lt_of_eq (show (i 0).val / 512 < 8 by omega) N_2.symm⟩, rfl⟩
  obtain ⟨-, -, -, -, -, -, e0, e1⟩ := idx_facts2 t
  refine ⟨t, flush2_3 t, ?_⟩
  rw [mem_blk2_3]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 500 ≤ (i 1).val ∧ (i 1).val < win2_3.index t (1 : Fin 2) * 500 + 500
    omega

/-- The result array after the region: the one function of the three arrays as the region finds them. -/
theorem final2_3 (c : Dev nD) :
    (dat2 (F := Ideal) V c).arrAt 3 cfg2.N
      = G2_3 (V c (Pipeline.arrRef spec2 0)) (V c (Pipeline.arrRef spec2 1)) (V c (Pipeline.arrRef spec2 2)) :=
  (dat2 (F := Ideal) V c).arrAt_eq_of_cover 3
    (G2_3 (V c (Pipeline.arrRef spec2 0)) (V c (Pipeline.arrRef spec2 1)) (V c (Pipeline.arrRef spec2 2)))
    (fun t _ => flushed2_3_eq V c t) covered2_3

/-! ## 3. Over the reals -/

/-- The result over the reals, over variables: when the three arrays are entrywise the coercions of real
    matrices `ADJ`, `U`, `H`, the result at `(p, q)` is the coercion of `(relu (ADJ · U) + H) p q`.  (Each
    product, the sum, the maximum with zero and the final sum are operations of finite extended reals.) -/
theorem G2_3_real (a : Vec Ideal S4096x4096 .bf16) (u h : Vec Ideal S4096x500 .bf16)
    (ADJ : RealNet.M 4096 4096) (U H : RealNet.M 4096 500)
    (hA : ∀ (p k : Fin 4096), a (ix2 p k) = ((ADJ p k : ℝ) : EReal))
    (hU : ∀ (k : Fin 4096) (q : Fin 500), u (ix2 k q) = ((U k q : ℝ) : EReal))
    (hH : ∀ (p : Fin 4096) (q : Fin 500), h (ix2 p q) = ((H p q : ℝ) : EReal))
    (p : Fin 4096) (q : Fin 500) :
    G2_3 a u h (ix2 p q) = (((RealNet.relu (ADJ * U) + H) p q : ℝ) : EReal) := by
  rw [G2_3_apply, hH]
  have hs : (∑ k : Fin 4096, a (ix2 p k) * u (ix2 k q)) = (((ADJ * U) p q : ℝ) : EReal) := by
    rw [← RealNet.lift_matmul ADJ U p q]
    exact Finset.sum_congr rfl fun k _ => by rw [hA, hU]; rfl
  rw [hs, RealNet.lift_max_zero, RealNet.lift_add]
  rfl

/-- The result array after the region, over the reals: with the three arrays the region finds entrywise the
    coercions of `ADJ`, `U`, `H`, every entry is the coercion of `relu (ADJ · U) + H` there. -/
theorem final2_3_real (c : Dev nD) (ADJ : RealNet.M 4096 4096) (U H : RealNet.M 4096 500)
    (hA : ∀ (p k : Fin 4096), V c (Pipeline.arrRef spec2 0) (ix2 p k) = ((ADJ p k : ℝ) : EReal))
    (hU : ∀ (k : Fin 4096) (q : Fin 500), V c (Pipeline.arrRef spec2 1) (ix2 k q) = ((U k q : ℝ) : EReal))
    (hH : ∀ (p : Fin 4096) (q : Fin 500), V c (Pipeline.arrRef spec2 2) (ix2 p q) = ((H p q : ℝ) : EReal))
    (p : Fin 4096) (q : Fin 500) :
    (dat2 (F := Ideal) V c).arrAt 3 cfg2.N (ix2 p q) = (((RealNet.relu (ADJ * U) + H) p q : ℝ) : EReal) :=
  (congrFun (final2_3 V c) (ix2 p q)).trans (G2_3_real _ _ _ ADJ U H hA hU hH p q)

end Cert.KernelIdeal.HandValue

end
-- ==== Proof.LibIdealMatmul.lean ====
/-
  A plain matrix product at the exact instance, read at an entry.

  A contraction with the dimension numbers of an `M × K` by `K × N` product, into a zero accumulator, is at
  entry `(p, q)` the sum over `k` of `x (p, k) · y (k, q)` in the extended reals: the contraction index is its one
  coordinate, the left operand is read along row `p` and the right one along column `q`.  Stated once for all
  extents; the same for the product against the rows of the second operand (`M × K` by `N × K`).
-/
import Idealize.ShloMosaic.Lib.ValueIdx
import Idealize.ShloMosaic.PureOps.Ideal.Laws
import proofs.«140843_g75050258530825_cont_9to1_m_403_24_alg».proof.Proof.LibRealLift

noncomputable section

namespace IdealMatmul

open Idealize.ShloMosaic Idealize.ShloMosaic.ValueIdx
open scoped BigOperators

/-- The plain product into a zero accumulator at entry `(p, q)`: `∑ k, x (p, k) · y (k, q)`. -/
theorem plain_zero_apply (M K N : Nat) {φ₁ φ₂ : FTy} (x : FVec Ideal ⟨2, ![M, K]⟩ φ₁) (y : FVec Ideal ⟨2, ![K, N]⟩ φ₂)
    (p : Fin M) (q : Fin N) :
    FloatOps.matmul (DotDims.plain M K N) none x y (constant (F := Ideal) ⟨2, ![M, N]⟩ .f32 0x00000000#32) (ix2 p q)
      = ∑ k : Fin K, x (ix2 p k) * y (ix2 k q) := by
  refine (Ideal.matmul_constant_zero_apply (DotDims.plain M K N) none x y (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- The product against the rows of the second operand, into a zero accumulator, at entry `(p, q)`:
    `∑ k, x (p, k) · y (q, k)`. -/
theorem transposedRhs_zero_apply (M K N : Nat) {φ₁ φ₂ : FTy} (x : FVec Ideal ⟨2, ![M, K]⟩ φ₁) (y : FVec Ideal ⟨2, ![N, K]⟩ φ₂)
    (p : Fin M) (q : Fin N) :
    FloatOps.matmul (DotDims.transposedRhs M K N) none x y (constant (F := Ideal) ⟨2, ![M, N]⟩ .f32 0x00000000#32) (ix2 p q)
      = ∑ k : Fin K, x (ix2 p k) * y (ix2 q k) := by
  refine (Ideal.matmul_constant_zero_apply (DotDims.transposedRhs M K N) none x y (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => rfl
      | ⟨1, _⟩ => exact ((DotDims.transposedRhs M K N).rhsIdx_val_of_single rfl _ _).trans hk)
  rw [el, er]

/-- The same with the product spelt as the exact instance's own contraction (no formats to name). -/
theorem ideal_plain_zero_apply (M K N : Nat) (x : (⟨2, ![M, K]⟩ : Shape).Idx → EReal) (y : (⟨2, ![K, N]⟩ : Shape).Idx → EReal)
    (p : Fin M) (q : Fin N) :
    Ideal.matmul (DotDims.plain M K N) x y (fun _ => Ideal.ofBits .f32 0x00000000#32) (ix2 p q)
      = ∑ k : Fin K, x (ix2 p k) * y (ix2 k q) :=
  plain_zero_apply M K N (φ₁ := .f32) (φ₂ := .f32) x y p q

/-- The product against the rows of the second operand, spelt as the exact instance's own contraction. -/
theorem ideal_transposedRhs_zero_apply (M K N : Nat) (x : (⟨2, ![M, K]⟩ : Shape).Idx → EReal)
    (y : (⟨2, ![N, K]⟩ : Shape).Idx → EReal) (p : Fin M) (q : Fin N) :
    Ideal.matmul (DotDims.transposedRhs M K N) x y (fun _ => Ideal.ofBits .f32 0x00000000#32) (ix2 p q)
      = ∑ k : Fin K, x (ix2 p k) * y (ix2 q k) :=
  transposedRhs_zero_apply M K N (φ₁ := .f32) (φ₂ := .f32) x y p q

/-- A sum of products whose factors are, term by term, the coercions of a row of `A` and a column of `B` is the
    coercion of the entry of the real product `A · B`. -/
theorem sum_mul_eq_coe_mul {n k m : ℕ} (A : RealNet.M n k) (B : RealNet.M k m) (i : Fin n) (j : Fin m) (f g : Fin k → EReal)
    (hf : ∀ l, f l = ((A i l : ℝ) : EReal)) (hg : ∀ l, g l = ((B l j : ℝ) : EReal)) :
    ∑ l, f l * g l = (((A * B) i j : ℝ) : EReal) := by
  rw [← RealNet.lift_matmul A B i j]
  exact Finset.sum_congr rfl fun l _ => by rw [hf, hg]; rfl

end IdealMatmul

end
-- ==== Proof.KernelIdealV3.lean ====
/-
  The third adjacency sweep, read as values at the exact instance.

  One grid point takes a block of 512 rows of the adjacency `a`, the whole operand `u` and the two weights
  `g₃`, `g₄`, and leaves the 512 rows of `max ((a · u) · g₃) 0 · g₄`: the sweep at the narrow width, the wide
  weight applied after it, the rectifier, and the next layer's projection.  The three steps are those of the
  second sweep: the body's arithmetic at one entry, the eight blocks as one function of the four arrays, and
  the same over the reals.
-/
import proofs.«140843_g75050258530825_cont_9to1_m_403_24_alg».proof.Proof.KernelIdealR3
import proofs.«140843_g75050258530825_cont_9to1_m_403_24_alg».proof.Proof.LibRealLift
import proofs.«140843_g75050258530825_cont_9to1_m_403_24_alg».proof.Proof.LibIdealMatmul
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 1. The body's arithmetic at one entry -/

/-- The body's stored value at entry `(p, q)` of the block: three nested sums,
    `∑ l, max (∑ j, (∑ k, x0 (p, k) · x1 (k, j)) · x2 (j, l)) 0 · x3 (l, q)`.  (Each product runs into a zero
    accumulator; the shape casts and the changes of format are identities at the exact instance.) -/
theorem pay3_1_apply (x0 : Vec Ideal S512x4096 .bf16) (x1 : Vec Ideal S4096x500 .bf16) (x2 : Vec Ideal S500x2000 .bf16)
    (x3 : Vec Ideal S2000x10 .bf16) (p : Fin 512) (q : Fin 10) :
    k3_pay1 x0 x1 x2 x3 (ix2 p q)
      = ∑ l : Fin 2000, max (∑ j : Fin 500, (∑ k : Fin 4096, x0 (ix2 p k) * x1 (ix2 k j)) * x2 (ix2 j l)) 0
          * x3 (ix2 l q) := by
  unfold k3_pay1
  simp only [shapeCast_self]
  show Ideal.matmul (DotDims.plain 512 2000 10)
      (fun i => max (Ideal.matmul (DotDims.plain 512 500 2000)
          (Ideal.matmul (DotDims.plain 512 4096 500) x0 x1 (fun _ => Ideal.ofBits .f32 0x00000000#32))
          x2 (fun _ => Ideal.ofBits .f32 0x00000000#32) i) (Ideal.ofBits .f32 0x00000000#32))
      x3 (fun _ => Ideal.ofBits .f32 0x00000000#32) (ix2 p q) = _
  refine (IdealMatmul.ideal_plain_zero_apply 512 2000 10 _ x3 p q).trans ?_
  refine Finset.sum_congr rfl fun l _ => ?_
  show max (Ideal.matmul (DotDims.plain 512 500 2000)
      (Ideal.matmul (DotDims.plain 512 4096 500) x0 x1 (fun _ => Ideal.ofBits .f32 0x00000000#32))
      x2 (fun _ => Ideal.ofBits .f32 0x00000000#32) (ix2 p l)) (Ideal.ofBits .f32 0x00000000#32) * x3 (ix2 l q) = _
  rw [IdealMatmul.ideal_plain_zero_apply 512 500 2000 _ x2 p l]
  have hin : ∀ j : Fin 500, Ideal.matmul (DotDims.plain 512 4096 500) x0 x1 (fun _ => Ideal.ofBits .f32 0x00000000#32) (ix2 p j)
      = ∑ k : Fin 4096, x0 (ix2 p k) * x1 (ix2 k j) := fun j => IdealMatmul.ideal_plain_zero_apply 512 4096 500 x0 x1 p j
  simp only [hin]
  rw [Ideal.ofBits_zero_f32]

/-! ## 2. The eight blocks as one function of the four arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz3 : (![0, 0] : Fin 2 → Nat) = fun _ => 0 := funext fun a => by fin_cases a <;> rfl

/-- The sweep's result as one function of the adjacency `a`, the operand `u` and the weights `g3`, `g4`, entry by
    entry: row `P` of the result uses row `P` of `a` and all of `u`, `g3`, `g4`. -/
def G3_4 (a : Vec Ideal S4096x4096 .bf16) (u : Vec Ideal S4096x500 .bf16) (g3 : Vec Ideal S500x2000 .bf16)
    (g4 : Vec Ideal S2000x10 .bf16) : Vec Ideal S4096x10 .bf16 :=
  fun i => ∑ l : Fin 2000, max (∑ j : Fin 500,
      (∑ k : Fin 4096, a (ix2 (⟨(i 0).val, (i 0).isLt⟩ : Fin 4096) k) * u (ix2 k j)) * g3 (ix2 j l)) 0
    * g4 (ix2 l (⟨(i 1).val, (i 1).isLt⟩ : Fin 10))

/-- The result at entry `(P, Q)`. -/
theorem G3_4_apply (a : Vec Ideal S4096x4096 .bf16) (u : Vec Ideal S4096x500 .bf16) (g3 : Vec Ideal S500x2000 .bf16)
    (g4 : Vec Ideal S2000x10 .bf16) (P : Fin 4096) (Q : Fin 10) :
    G3_4 a u g3 g4 (ix2 P Q)
      = ∑ l : Fin 2000, max (∑ j : Fin 500, (∑ k : Fin 4096, a (ix2 P k) * u (ix2 k j)) * g3 (ix2 j l)) 0
          * g4 (ix2 l Q) := rfl

/-- One point, over variables: when the first block is row `P` of `a` along row `p` and the other three blocks are
    the whole arrays, the body's value at `(p, q)` is the result at `(P, q)`. -/
theorem point3_4 (a : Vec Ideal S4096x4096 .bf16) (u : Vec Ideal S4096x500 .bf16) (g3 : Vec Ideal S500x2000 .bf16)
    (g4 : Vec Ideal S2000x10 .bf16)
    (x0 : Vec Ideal S512x4096 .bf16) (x1 : Vec Ideal S4096x500 .bf16) (x2 : Vec Ideal S500x2000 .bf16)
    (x3 : Vec Ideal S2000x10 .bf16) (p : Fin 512) (q : Fin 10) (P : Fin 4096)
    (h0 : ∀ k : Fin 4096, x0 (ix2 p k) = a (ix2 P k))
    (h1 : ∀ (k : Fin 4096) (j : Fin 500), x1 (ix2 k j) = u (ix2 k j))
    (h2 : ∀ (j : Fin 500) (l : Fin 2000), x2 (ix2 j l) = g3 (ix2 j l))
    (h3 : ∀ l : Fin 2000, x3 (ix2 l q) = g4 (ix2 l q)) :
    k3_pay1 x0 x1 x2 x3 (ix2 p q) = G3_4 a u g3 g4 (ix2 P q) := by
  rw [pay3_1_apply, G3_4_apply]
  refine Finset.sum_congr rfl fun l _ => ?_
  rw [h3 l]
  refine congrArg (fun s => max s 0 * g4 (ix2 l q)) (Finset.sum_congr rfl fun j _ => ?_)
  rw [h2 j l]
  refine congrArg (fun s => s * g3 (ix2 j l)) (Finset.sum_congr rfl fun k _ => ?_)
  rw [h0 k, h1 k j]

/-- The printed index maps, decided once over the eight points: the adjacency's and the result's blocks are row
    block `t`; the operand's and the weights' blocks are the whole arrays. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Where the adjacency block's entry `(p, k)` at point `t` sits in the array: row `512 t + p`, column `k`. -/
theorem emb3_0 (t : Fin cfg3.N) (p : Fin 512) (k : Fin 4096) (P : Fin 4096) (hP : P.val = t.val * 512 + p.val) :
    ((cfg3.win 0).blk t).view.emb (ix2 p k) = ix2 P k := by
  obtain ⟨e0, e1, -⟩ := idx_facts3 t
  funext a; apply Fin.ext
  match a with
  | ⟨0, _⟩ => show win3_0.index t (0 : Fin 2) * 512 + 1 * p.val = P.val; omega
  | ⟨1, _⟩ => show win3_0.index t (1 : Fin 2) * 4096 + 1 * k.val = k.val; omega

/-- The operand's block is the whole array. -/
theorem emb3_1 (t : Fin cfg3.N) (k : Fin 4096) (j : Fin 500) :
    ((cfg3.win 1).blk t).view.emb (ix2 k j) = ix2 k j := by
  obtain ⟨-, -, e0, e1, -⟩ := idx_facts3 t
  funext a; apply Fin.ext
  match a with
  | ⟨0, _⟩ => show win3_1.index t (0 : Fin 2) * 4096 + 1 * k.val = k.val; omega
  | ⟨1, _⟩ => show win3_1.index t (1 : Fin 2) * 500 + 1 * j.val = j.val; omega

/-- The first weight's block is the whole array. -/
theorem emb3_2 (t : Fin cfg3.N) (j : Fin 500) (l : Fin 2000) :
    ((cfg3.win 2).blk t).view.emb (ix2 j l) = ix2 j l := by
  obtain ⟨-, -, -, -, e0, e1, -⟩ := idx_facts3 t
  funext a; apply Fin.ext
  match a with
  | ⟨0, _⟩ => show win3_2.index t (0 : Fin 2) * 500 + 1 * j.val = j.val; omega
  | ⟨1, _⟩ => show win3_2.index t (1 : Fin 2) * 2000 + 1 * l.val = l.val; omega

/-- The second weight's block is the whole array. -/
theorem emb3_3 (t : Fin cfg3.N) (l : Fin 2000) (q : Fin 10) :
    ((cfg3.win 3).blk t).view.emb (ix2 l q) = ix2 l q := by
  obtain ⟨-, -, -, -, -, -, e0, e1, -⟩ := idx_facts3 t
  funext a; apply Fin.ext
  match a with
  | ⟨0, _⟩ => show win3_3.index t (0 : Fin 2) * 2000 + 1 * l.val = l.val; omega
  | ⟨1, _⟩ => show win3_3.index t (1 : Fin 2) * 10 + 1 * q.val = q.val; omega

/-- Where the result block's entry `(p, q)` at point `t` sits in the array: row `512 t + p`, column `q`. -/
theorem emb3_4 (t : Fin cfg3.N) (p : Fin 512) (q : Fin 10) (P : Fin 4096) (hP : P.val = t.val * 512 + p.val) :
    ((cfg3.win 4).blk t).view.emb (ix2 p q) = ix2 P q := by
  obtain ⟨-, -, -, -, -, -, -, -, e0, e1⟩ := idx_facts3 t
  funext a; apply Fin.ext
  match a with
  | ⟨0, _⟩ => show win3_4.index t (0 : Fin 2) * 512 + 1 * p.val = P.val; omega
  | ⟨1, _⟩ => show win3_4.index t (1 : Fin 2) * 10 + 1 * q.val = q.val; omega

/-- The adjacency block at point `t`, read at `(p, k)`: the array at row `512 t + p`. -/
theorem iblk3_0_apply (c : Dev nD) (t : Fin cfg3.N) (p : Fin 512) (k : Fin 4096) (P : Fin 4096)
    (hP : P.val = t.val * 512 + p.val) :
    iblk3 V c 0 t (ix2 p k) = V c (Pipeline.arrRef spec3 0) (ix2 P k) := by
  show V c (Pipeline.arrRef spec3 0) (((cfg3.win 0).blk t).view.emb (ix2 p k)) = _
  rw [emb3_0 t p k P hP]

/-- The operand block at any point is the array. -/
theorem iblk3_1_apply (c : Dev nD) (t : Fin cfg3.N) (k : Fin 4096) (j : Fin 500) :
    iblk3 V c 1 t (ix2 k j) = V c (Pipeline.arrRef spec3 1) (ix2 k j) := by
  show V c (Pipeline.arrRef spec3 1) (((cfg3.win 1).blk t).view.emb (ix2 k j)) = _
  rw [emb3_1 t k j]

/-- The first weight's block at any point is the array. -/
theorem iblk3_2_apply (c : Dev nD) (t : Fin cfg3.N) (j : Fin 500) (l : Fin 2000) :
    iblk3 V c 2 t (ix2 j l) = V c (Pipeline.arrRef spec3 2) (ix2 j l) := by
  show V c (Pipeline.arrRef spec3 2) (((cfg3.win 2).blk t).view.emb (ix2 j l)) = _
  rw [emb3_2 t j l]

/-- The second weight's block at any point is the array. -/
theorem iblk3_3_apply (c : Dev nD) (t : Fin cfg3.N) (l : Fin 2000) (q : Fin 10) :
    iblk3 V c 3 t (ix2 l q) = V c (Pipeline.arrRef spec3 3) (ix2 l q) := by
  show V c (Pipeline.arrRef spec3 3) (((cfg3.win 3).blk t).view.emb (ix2 l q)) = _
  rw [emb3_3 t l q]

set_option maxHeartbeats 1000000 in
/-- What point `t` writes back is block `t` of the result of the four arrays as the region finds them. -/
theorem flushed3_4_eq (c : Dev nD) (t : Fin cfg3.N) :
    (dat3 (F := Ideal) V c).flushed 4 t
      = ((cfg3.win 4).blk t).view.read (Elt Ideal)
          (G3_4 (V c (Pipeline.arrRef spec3 0)) (V c (Pipeline.arrRef spec3 1)) (V c (Pipeline.arrRef spec3 2))
            (V c (Pipeline.arrRef spec3 3))) := by
  show (cfg3.win 4).cut (grid3.coords t) ((dat3 V c).after 4 t) = _
  rw [after3_4]
  unfold out3_4
  rw [View.canon_unit_zero hz3]
  simp only [View.ld_unit_zero (S := S512x4096) hz3, View.ld_unit_zero (S := S4096x500) hz3,
    View.ld_unit_zero (S := S500x2000) hz3, View.ld_unit_zero (S := S2000x10) hz3]
  funext j
  obtain ⟨p, q, rfl⟩ : ∃ (p : Fin 512) (q : Fin 10), j = ix2 p q := ⟨j 0, j 1, eq_ix2 (n0 := 512) (n1 := 10) j⟩
  have ht : t.val < 8 := lt_of_lt_of_eq t.isLt N_3
  have hP : t.val * 512 + p.val < 4096 := by have := p.isLt; omega
  show k3_pay1 (iblk3 V c 0 t) (iblk3 V c 1 t) (iblk3 V c 2 t) (iblk3 V c 3 t) (ix2 p q)
    = G3_4 (V c (Pipeline.arrRef spec3 0)) (V c (Pipeline.arrRef spec3 1)) (V c (Pipeline.arrRef spec3 2))
        (V c (Pipeline.arrRef spec3 3)) (((cfg3.win 4).blk t).view.emb (ix2 p q))
  rw [emb3_4 t p q ⟨t.val * 512 + p.val, hP⟩ rfl]
  refine point3_4 _ _ _ _ _ _ _ _ p q ⟨t.val * 512 + p.val, hP⟩ (fun k => ?_) (fun k j => ?_) (fun j l => ?_) (fun l => ?_)
  · exact iblk3_0_apply V c t p k ⟨t.val * 512 + p.val, hP⟩ rfl
  · exact iblk3_1_apply V c t k j
  · exact iblk3_2_apply V c t j l
  · exact iblk3_3_apply V c t l q

/-- An entry of the array lies in point `t`'s result block iff each coordinate lies in the block's range. -/
theorem mem_blk3_4 (t : Fin cfg3.N) (i : S4096x10.Idx) :
    i ∈ ((cfg3.win 4).blk t).view.set ↔ ∀ a : Fin 2, win3_4.index t a * S512x10.size a ≤ (i a).val
      ∧ (i a).val < win3_4.index t a * S512x10.size a + S512x10.size a := by
  show i ∈ ((View.whole main_v26).slice (win3_4.rect t)).set ↔ _
  rw [View.set_slice_whole, Rect.mem_set_unit]
  exact Iff.rfl

/-- Every entry of the array is in some point's result block: row `P` is covered by point `P / 512`. -/
theorem covered3_4 (i : S4096x10.Idx) :
    ∃ t : Fin cfg3.N, (cfg3.win 4).flush t = true ∧ i ∈ ((cfg3.win 4).blk t).view.set := by
  have hi0 : (i 0).val < 4096 := (i 0).isLt
  have hi1 : (i 1).val < 10 := (i 1).isLt
  obtain ⟨t, ht⟩ : ∃ t : Fin cfg3.N, t.val = (i 0).val / 512 :=
    ⟨⟨(i 0).val / 512, lt_of_lt_of_eq (show (i 0).val / 512 < 8 by omega) N_3.symm⟩, rfl⟩
  obtain ⟨-, -, -, -, -, -, -, -, e0, e1⟩ := idx_facts3 t
  refine ⟨t, flush3_4 t, ?_⟩
  rw [mem_blk3_4]
  intro a
  match a with
  | ⟨0, _⟩ =>
    show win3_4.index t (0 : Fin 2) * 512 ≤ (i 0).val ∧ (i 0).val < win3_4.index t (0 : Fin 2) * 512 + 512
    omega
  | ⟨1, _⟩ =>
    show win3_4.index t (1 : Fin 2) * 10 ≤ (i 1).val ∧ (i 1).val < win3_4.index t (1 : Fin 2) * 10 + 10
    omega

/-- The result array after the region: the one function of the four arrays as the region finds them. -/
theorem final3_4 (c : Dev nD) :
    (dat3 (F := Ideal) V c).arrAt 4 cfg3.N
      = G3_4 (V c (Pipeline.arrRef spec3 0)) (V c (Pipeline.arrRef spec3 1)) (V c (Pipeline.arrRef spec3 2))
          (V c (Pipeline.arrRef spec3 3)) :=
  (dat3 (F := Ideal) V c).arrAt_eq_of_cover 4
    (G3_4 (V c (Pipeline.arrRef spec3 0)) (V c (Pipeline.arrRef spec3 1)) (V c (Pipeline.arrRef spec3 2))
      (V c (Pipeline.arrRef spec3 3)))
    (fun t _ => flushed3_4_eq V c t) covered3_4

/-! ## 3. Over the reals -/

/-- The result over the reals, over variables: when the four arrays are entrywise the coercions of real
    matrices `ADJ`, `A3`, `G3`, `G4`, the result at `(p, q)` is the coercion of
    `(relu ((ADJ · A3) · G3) · G4) p q`. -/
theorem G3_4_real (a : Vec Ideal S4096x4096 .bf16) (u : Vec Ideal S4096x500 .bf16) (g3 : Vec Ideal S500x2000 .bf16)
    (g4 : Vec Ideal S2000x10 .bf16)
    (ADJ : RealNet.M 4096 4096) (A3 : RealNet.M 4096 500) (G3 : RealNet.M 500 2000) (G4 : RealNet.M 2000 10)
    (hA : ∀ (p k : Fin 4096), a (ix2 p k) = ((ADJ p k : ℝ) : EReal))
    (hU : ∀ (k : Fin 4096) (j : Fin 500), u (ix2 k j) = ((A3 k j : ℝ) : EReal))
    (hG3 : ∀ (j : Fin 500) (l : Fin 2000), g3 (ix2 j l) = ((G3 j l : ℝ) : EReal))
    (hG4 : ∀ (l : Fin 2000) (q : Fin 10), g4 (ix2 l q) = ((G4 l q : ℝ) : EReal))
    (p : Fin 4096) (q : Fin 10) :
    G3_4 a u g3 g4 (ix2 p q) = (((RealNet.relu ((ADJ * A3) * G3) * G4) p q : ℝ) : EReal) := by
  rw [G3_4_apply]
  refine IdealMatmul.sum_mul_eq_coe_mul (RealNet.relu ((ADJ * A3) * G3)) G4 p q _ _ (fun l => ?_) (fun l => hG4 l q)
  have hs : (∑ j : Fin 500, (∑ k : Fin 4096, a (ix2 p k) * u (ix2 k j)) * g3 (ix2 j l))
      = ((((ADJ * A3) * G3) p l : ℝ) : EReal) :=
    IdealMatmul.sum_mul_eq_coe_mul (ADJ * A3) G3 p l _ _
      (fun j => IdealMatmul.sum_mul_eq_coe_mul ADJ A3 p j _ _ (fun k => hA p k) (fun k => hU k j)) (fun j => hG3 j l)
  rw [hs, RealNet.lift_max_zero]
  rfl

/-- The result array after the region, over the reals: with the four arrays the region finds entrywise the
    coercions of `ADJ`, `A3`, `G3`, `G4`, every entry is the coercion of `relu ((ADJ · A3) · G3) · G4` there. -/
theorem final3_4_real (c : Dev nD) (ADJ : RealNet.M 4096 4096) (A3 : RealNet.M 4096 500) (G3 : RealNet.M 500 2000)
    (G4 : RealNet.M 2000 10)
    (hA : ∀ (p k : Fin 4096), V c (Pipeline.arrRef spec3 0) (ix2 p k) = ((ADJ p k : ℝ) : EReal))
    (hU : ∀ (k : Fin 4096) (j : Fin 500), V c (Pipeline.arrRef spec3 1) (ix2 k j) = ((A3 k j : ℝ) : EReal))
    (hG3 : ∀ (j : Fin 500) (l : Fin 2000), V c (Pipeline.arrRef spec3 2) (ix2 j l) = ((G3 j l : ℝ) : EReal))
    (hG4 : ∀ (l : Fin 2000) (q : Fin 10), V c (Pipeline.arrRef spec3 3) (ix2 l q) = ((G4 l q : ℝ) : EReal))
    (p : Fin 4096) (q : Fin 10) :
    (dat3 (F := Ideal) V c).arrAt 4 cfg3.N (ix2 p q)
      = (((RealNet.relu ((ADJ * A3) * G3) * G4) p q : ℝ) : EReal) :=
  (congrFun (final3_4 V c) (ix2 p q)).trans (G3_4_real _ _ _ _ ADJ A3 G3 G4 hA hU hG3 hG4 p q)

end Cert.KernelIdeal.HandValue

end
-- ==== Proof.NetPack.lean ====
/-
  Two ten-column blocks packed side by side in a 256-column array.

  The fourth sweep writes its rectified result `Z` and the latent code `R` into one array of 256 columns: `Z` in
  columns 0–9, `R` in columns 128–137, zeros everywhere else, so that one product with the adjacency sweeps
  both.  This module defines that packing over the reals and reads a product with it column by column:
  `A · pack Z R` has `A · Z` in columns 0–9 and `A · R` in columns 128–137.
-/
import proofs.«140843_g75050258530825_cont_9to1_m_403_24_alg».proof.Proof.LibRealNet

noncomputable section

namespace RealNet

open Matrix

/-- `Z` in columns 0–9, `R` in columns 128–137, zero in every other column. -/
def packZR {n : ℕ} (Z R : M n 10) : M n 256 := fun p c =>
  if h : c.val < 10 then Z p ⟨c.val, h⟩
  else if h2 : 128 ≤ c.val ∧ c.val < 138 then R p ⟨c.val - 128, by omega⟩ else 0

/-- Column `j < 10` of the packing is column `j` of `Z`. -/
theorem packZR_left {n : ℕ} (Z R : M n 10) (p : Fin n) (j : Fin 10) (c : Fin 256) (hc : c.val = j.val) :
    packZR Z R p c = Z p j := by
  have h : c.val < 10 := by have := j.isLt; omega
  rw [packZR, dif_pos h]
  exact congrArg (Z p) (Fin.ext hc)

/-- Column `128 + j` of the packing is column `j` of `R`. -/
theorem packZR_right {n : ℕ} (Z R : M n 10) (p : Fin n) (j : Fin 10) (c : Fin 256) (hc : c.val = 128 + j.val) :
    packZR Z R p c = R p j := by
  have h : ¬ c.val < 10 := by omega
  have h2 : 128 ≤ c.val ∧ c.val < 138 := by have := j.isLt; omega
  rw [packZR, dif_neg h, dif_pos h2]
  exact congrArg (R p) (Fin.ext (by show c.val - 128 = j.val; omega))

/-- Every other column of the packing is zero. -/
theorem packZR_zero {n : ℕ} (Z R : M n 10) (p : Fin n) (c : Fin 256) (h : ¬ c.val < 10)
    (h2 : ¬ (128 ≤ c.val ∧ c.val < 138)) : packZR Z R p c = 0 := by
  rw [packZR, dif_neg h, dif_neg h2]

/-- Column `j < 10` of `A · pack Z R` is column `j` of `A · Z`. -/
theorem mul_packZR_left {m n : ℕ} (A : M m n) (Z R : M n 10) (p : Fin m) (j : Fin 10) (c : Fin 256)
    (hc : c.val = j.val) : (A * packZR Z R) p c = (A * Z) p j := by
  simp only [Matrix.mul_apply, packZR_left Z R _ j c hc]

/-- Column `128 + j` of `A · pack Z R` is column `j` of `A · R`. -/
theorem mul_packZR_right {m n : ℕ} (A : M m n) (Z R : M n 10) (p : Fin m) (j : Fin 10) (c : Fin 256)
    (hc : c.val = 128 + j.val) : (A * packZR Z R) p c = (A * R) p j := by
  simp only [Matrix.mul_apply, packZR_right Z R _ j c hc]

end RealNet

end
-- ==== Proof.KernelIdealV4.lean ====
/-
  The fourth adjacency sweep, read as values at the exact instance.

  One grid point takes a block of 512 rows of the adjacency `a`, the whole ten-column operand `u` and the same
  512 rows of the latent code `r`.  It leaves two blocks: the 512 rows of `z = max (a · u) 0`, and a packed
  block of 256 columns holding `z` in columns 0–9, `r` in columns 128–137 and zeros elsewhere (the operand of
  the next sweep).  The steps are those of the second sweep, once per output.
-/
import proofs.«140843_g75050258530825_cont_9to1_m_403_24_alg».proof.Proof.KernelIdealR4
import proofs.«140843_g75050258530825_cont_9to1_m_403_24_alg».proof.Proof.LibRealLift
import proofs.«140843_g75050258530825_cont_9to1_m_403_24_alg».proof.Proof.LibIdealMatmul
import proofs.«140843_g75050258530825_cont_9to1_m_403_24_alg».proof.Proof.NetPack
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 1. The body's arithmetic at one entry -/

/-- The first stored value at entry `(p, q)`: the rectified product, `max (∑ k, x0 (p, k) · x1 (k, q)) 0`. -/
theorem pay4_1_apply (x0 : Vec Ideal S512x4096 .bf16) (x1 : Vec Ideal S4096x10 .bf16) (p : Fin 512) (q : Fin 10) :
    k4_pay1 x0 x1 (ix2 p q) = max (∑ k : Fin 4096, x0 (ix2 p k) * x1 (ix2 k q)) 0 := by
  unfold k4_pay1
  simp only [shapeCast_self]
  show max (Ideal.matmul (DotDims.plain 512 4096 10) x0 x1 (fun _ => Ideal.ofBits .f32 0x00000000#32) (ix2 p q))
      (Ideal.ofBits .f32 0x00000000#32) = _
  rw [IdealMatmul.ideal_plain_zero_apply 512 4096 10 x0 x1 p q, Ideal.ofBits_zero_f32]

/-- The integer zero converted to a float is the extended real zero. -/
theorem sitofp_zero4 : (Scalar.sitofp (F := Ideal) .f32 (0#32 : BitVec 32)) = 0 := by
  show (((0#32 : BitVec 32).toInt : ℝ) : EReal) = 0
  simp

/-- The packed value in a column `c = q < 10`: the first stored value at `(p, q)`. -/
theorem pay4_2_left (x0 : Vec Ideal S512x4096 .bf16) (x1 : Vec Ideal S4096x10 .bf16) (x2 : Vec Ideal S512x10 .f32)
    (p : Fin 512) (q : Fin 10) (c : Fin 256) (hc : c.val = q.val) :
    k4_pay2 x0 x1 x2 (ix2 p c) = k4_pay1 x0 x1 (ix2 p q) := by
  have hq := q.isLt
  unfold k4_pay2
  try simp only [shapeCast_self]
  show concatenate S512x256 1 [⟨S512x128, _⟩, ⟨S512x128, _⟩] concatenates_S512x128_S512x128_S512x256_d1 (ix2 p c) = _
  refine (concatenate_pair_apply_left 1 _ _ concatenates_S512x128_S512x128_S512x256_d1 (ix2 p c) rfl
    (ix2 p (⟨c.val, by omega⟩ : Fin 128)) (fun b => by match b with | ⟨0, _⟩ => rfl | ⟨1, _⟩ => rfl)).trans ?_
  exact concatenate_pair_apply_left 1 _ _ concatenates_S512x10_S512x118_S512x128_d1 _ rfl (ix2 p q)
    (fun b => by match b with | ⟨0, _⟩ => rfl | ⟨1, _⟩ => exact hc.symm)

/-- The packed value in a column `c = 128 + q`, `q < 10`: the third block at `(p, q)`. -/
theorem pay4_2_right (x0 : Vec Ideal S512x4096 .bf16) (x1 : Vec Ideal S4096x10 .bf16) (x2 : Vec Ideal S512x10 .f32)
    (p : Fin 512) (q : Fin 10) (c : Fin 256) (hc : c.val = 128 + q.val) :
    k4_pay2 x0 x1 x2 (ix2 p c) = x2 (ix2 p q) := by
  have hq := q.isLt
  unfold k4_pay2
  try simp only [shapeCast_self]
  show concatenate S512x256 1 [⟨S512x128, _⟩, ⟨S512x128, _⟩] concatenates_S512x128_S512x128_S512x256_d1 (ix2 p c) = _
  refine (concatenate_pair_apply_right 1 _ _ concatenates_S512x128_S512x128_S512x256_d1 (ix2 p c) rfl rfl
    (ix2 p (⟨c.val - 128, by omega⟩ : Fin 128))
    (fun b hb => by match b with | ⟨0, _⟩ => rfl | ⟨1, _⟩ => exact absurd rfl hb)
    (by show c.val - 128 + 128 = c.val; omega)).trans ?_
  refine (concatenate_pair_apply_left 1 _ _ concatenates_S512x10_S512x118_S512x128_d1 _ rfl (ix2 p q)
    (fun b => by match b with | ⟨0, _⟩ => rfl | ⟨1, _⟩ => show q.val = c.val - 128; omega)).trans ?_
  first | rfl | rw [shapeCast_self]

/-- The packed value in every other column: zero. -/
theorem pay4_2_zero (x0 : Vec Ideal S512x4096 .bf16) (x1 : Vec Ideal S4096x10 .bf16) (x2 : Vec Ideal S512x10 .f32)
    (p : Fin 512) (c : Fin 256) (h : ¬ c.val < 10) (h2 : ¬ (128 ≤ c.val ∧ c.val < 138)) :
    k4_pay2 x0 x1 x2 (ix2 p c) = 0 := by
  have hc := c.isLt
  unfold k4_pay2
  try simp only [shapeCast_self]
  show concatenate S512x256 1 [⟨S512x128, _⟩, ⟨S512x128, _⟩] concatenates_S512x128_S512x128_S512x256_d1 (ix2 p c) = _
  by_cases h3 : c.val < 128
  · refine (concatenate_pair_apply_left 1 _ _ concatenates_S512x128_S512x128_S512x256_d1 (ix2 p c) rfl
      (ix2 p (⟨c.val, h3⟩ : Fin 128)) (fun b => by match b with | ⟨0, _⟩ => rfl | ⟨1, _⟩ => rfl)).trans ?_
    refine (concatenate_pair_apply_right 1 _ _ concatenates_S512x10_S512x118_S512x128_d1 _ rfl rfl
      (ix2 p (⟨c.val - 10, by omega⟩ : Fin 118))
      (fun b hb => by match b with | ⟨0, _⟩ => rfl | ⟨1, _⟩ => exact absurd rfl hb)
      (by show c.val - 10 + 10 = c.val; omega)).trans ?_
    exact sitofp_zero4
  · refine (concatenate_pair_apply_right 1 _ _ concatenates_S512x128_S512x128_S512x256_d1 (ix2 p c) rfl rfl
      (ix2 p (⟨c.val - 128, by omega⟩ : Fin 128))
      (fun b hb => by match b with | ⟨0, _⟩ => rfl | ⟨1, _⟩ => exact absurd rfl hb)
      (by show c.val - 128 + 128 = c.val; omega)).trans ?_
    refine (concatenate_pair_apply_right 1 _ _ concatenates_S512x10_S512x118_S512x128_d1 _ rfl rfl
      (ix2 p (⟨c.val - 128 - 10, by omega⟩ : Fin 118))
      (fun b hb => by match b with | ⟨0, _⟩ => rfl | ⟨1, _⟩ => exact absurd rfl hb)
      (by show c.val - 128 - 10 + 10 = c.val - 128; omega)).trans ?_
    exact sitofp_zero4

/-! ## 2. The eight blocks as functions of the three arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz4 : (![0, 0] : Fin 2 → Nat) = fun _ => 0 := funext fun a => by fin_cases a <;> rfl

/-- The rectified product as one function of the adjacency `a` and the operand `u`, entry by entry. -/
def G4_3 (a : Vec Ideal S4096x4096 .bf16) (u : Vec Ideal S4096x10 .bf16) : Vec Ideal S4096x10 .f32 :=
  fun i => max (∑ k : Fin 4096, a (ix2 (⟨(i 0).val, (i 0).isLt⟩ : Fin 4096) k)
      * u (ix2 k (⟨(i 1).val, (i 1).isLt⟩ : Fin 10))) 0

/-- The rectified product at entry `(P, Q)`. -/
theorem G4_3_apply (a : Vec Ideal S4096x4096 .bf16) (u : Vec Ideal S4096x10 .bf16) (P : Fin 4096) (Q : Fin 10) :
    G4_3 a u (ix2 P Q) = max (∑ k : Fin 4096, a (ix2 P k) * u (ix2 k Q)) 0 := rfl

/-- The packed array as one function of `a`, `u` and the latent code `r`: the rectified product in columns 0–9,
    `r` in columns 128–137, zero elsewhere. -/
def G4_4 (a : Vec Ideal S4096x4096 .bf16) (u : Vec Ideal S4096x10 .bf16) (r : Vec Ideal S4096x10 .f32) :
    Vec Ideal S4096x256 .bf16 :=
  fun i =>
    if h : (i 1).val < 10 then G4_3 a u (ix2 (⟨(i 0).val, (i 0).isLt⟩ : Fin 4096) (⟨(i 1).val, h⟩ : Fin 10))
    else if h2 : 128 ≤ (i 1).val ∧ (i 1).val < 138 then
      r (ix2 (⟨(i 0).val, (i 0).isLt⟩ : Fin 4096) (⟨(i 1).val - 128, by omega⟩ : Fin 10))
    else 0

/-- The packed array in a column `c = q < 10`. -/
theorem G4_4_left (a : Vec Ideal S4096x4096 .bf16) (u : Vec Ideal S4096x10 .bf16) (r : Vec Ideal S4096x10 .f32)
    (P : Fin 4096) (q : Fin 10) (c : Fin 256) (hc : c.val = q.val) : G4_4 a u r (ix2 P c) = G4_3 a u (ix2 P q) := by
  have h : c.val < 10 := by have := q.isLt; omega
  show (if h : c.val < 10 then G4_3 a u (ix2 P (⟨c.val, h⟩ : Fin 10)) else _) = _
  rw [dif_pos h]
  exact congrArg (fun z => G4_3 a u (ix2 P z)) (Fin.ext hc)

/-- The packed array in a column `c = 128 + q`, `q < 10`. -/
theorem G4_4_right (a : Vec Ideal S4096x4096 .bf16) (u : Vec Ideal S4096x10 .bf16) (r : Vec Ideal S4096x10 .f32)
    (P : Fin 4096) (q : Fin 10) (c : Fin 256) (hc : c.val = 128 + q.val) : G4_4 a u r (ix2 P c) = r (ix2 P q) := by
  have h : ¬ c.val < 10 := by omega
  have h2 : 128 ≤ c.val ∧ c.val < 138 := by have := q.isLt; omega
  show (if h : c.val < 10 then _ else if h2 : 128 ≤ c.val ∧ c.val < 138 then
      r (ix2 P (⟨c.val - 128, by omega⟩ : Fin 10)) else _) = _
  rw [dif_neg h, dif_pos h2]
  exact congrArg (fun z => r (ix2 P z)) (Fin.ext (by show c.val - 128 = q.val; omega))

/-- The packed array in every other column. -/
theorem G4_4_zero (a : Vec Ideal S4096x4096 .bf16) (u : Vec Ideal S4096x10 .bf16) (r : Vec Ideal S4096x10 .f32)
    (P : Fin 4096) (c : Fin 256) (h : ¬ c.val < 10) (h2 : ¬ (128 ≤ c.val ∧ c.val < 138)) :
    G4_4 a u r (ix2 P c) = 0 := by
  show (if h : c.val < 10 then _ else if h2 : 128 ≤ c.val ∧ c.val < 138 then _ else (0 : EReal)) = _
  rw [dif_neg h, dif_neg h2]

/-- One point of the first output, over variables. -/
theorem point4_3 (a : Vec Ideal S4096x4096 .bf16) (u : Vec Ideal S4096x10 .bf16)
    (x0 : Vec Ideal S512x4096 .bf16) (x1 : Vec Ideal S4096x10 .bf16) (p : Fin 512) (q : Fin 10) (P : Fin 4096)
    (h0 : ∀ k : Fin 4096, x0 (ix2 p k) = a (ix2 P k))
    (h1 : ∀ (k : Fin 4096) (q : Fin 10), x1 (ix2 k q) = u (ix2 k q)) :
    k4_pay1 x0 x1 (ix2 p q) = G4_3 a u (ix2 P q) := by
  rw [pay4_1_apply, G4_3_apply]
  refine congrArg (fun s => max s 0) (Finset.sum_congr rfl fun k _ => ?_)
  rw [h0 k, h1 k q]

/-- One point of the packed output, over variables. -/
theorem point4_4 (a : Vec Ideal S4096x4096 .bf16) (u : Vec Ideal S4096x10 .bf16) (r : Vec Ideal S4096x10 .f32)
    (x0 : Vec Ideal S512x4096 .bf16) (x1 : Vec Ideal S4096x10 .bf16) (x2 : Vec Ideal S512x10 .f32)
    (p : Fin 512) (c : Fin 256) (P : Fin 4096)
    (h0 : ∀ k : Fin 4096, x0 (ix2 p k) = a (ix2 P k))
    (h1 : ∀ (k : Fin 4096) (q : Fin 10), x1 (ix2 k q) = u (ix2 k q))
    (h2 : ∀ q : Fin 10, x2 (ix2 p q) = r (ix2 P q)) :
    k4_pay2 x0 x1 x2 (ix2 p c) = G4_4 a u r (ix2 P c) := by
  by_cases hl : c.val < 10
  · rw [pay4_2_left x0 x1 x2 p ⟨c.val, hl⟩ c rfl, G4_4_left a u r P ⟨c.val, hl⟩ c rfl]
    exact point4_3 a u x0 x1 p _ P h0 h1
  · by_cases hr : 128 ≤ c.val ∧ c.val < 138
    · rw [pay4_2_right x0 x1 x2 p ⟨c.val - 128, by omega⟩ c (by show c.val = 128 + (c.val - 128); omega),
        G4_4_right a u r P ⟨c.val - 128, by omega⟩ c (by show c.val = 128 + (c.val - 128); omega)]
      exact h2 _
    · rw [pay4_2_zero x0 x1 x2 p c hl hr, G4_4_zero a u r P c hl hr]

/-- The printed index maps, decided once over the eight points: the adjacency's, the latent code's and both
    results' blocks are row block `t`; the operand's block is the whole array. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Where the adjacency block's entry `(p, k)` at point `t` sits in the array. -/
theorem emb4_0 (t : Fin cfg4.N) (p : Fin 512) (k : Fin 4096) (P : Fin 4096) (hP : P.val = t.val * 512 + p.val) :
    ((cfg4.win 0).blk t).view.emb (ix2 p k) = ix2 P k := by
  obtain ⟨e0, e1, -⟩ := idx_facts4 t
  funext a; apply Fin.ext
  match a with
  | ⟨0, _⟩ => show win4_0.index t (0 : Fin 2) * 512 + 1 * p.val = P.val; omega
  | ⟨1, _⟩ => show win4_0.index t (1 : Fin 2) * 4096 + 1 * k.val = k.val; omega

/-- The operand's block is the whole array. -/
theorem emb4_1 (t : Fin cfg4.N) (k : Fin 4096) (q : Fin 10) :
    ((cfg4.win 1).blk t).view.emb (ix2 k q) = ix2 k q := by
  obtain ⟨-, -, e0, e1, -⟩ := idx_facts4 t
  funext a; apply Fin.ext
  match a with
  | ⟨0, _⟩ => show win4_1.index t (0 : Fin 2) * 4096 + 1 * k.val = k.val; omega
  | ⟨1, _⟩ => show win4_1.index t (1 : Fin 2) * 10 + 1 * q.val = q.val; omega

/-- Where the latent block's entry `(p, q)` at point `t` sits in the array. -/
theorem emb4_2 (t : Fin cfg4.N) (p : Fin 512) (q : Fin 10) (P : Fin 4096) (hP : P.val = t.val * 512 + p.val) :
    ((cfg4.win 2).blk t).view.emb (ix2 p q) = ix2 P q := by
  obtain ⟨-, -, -, -, e0, e1, -⟩ := idx_facts4 t
  funext a; apply Fin.ext
  match a with
  | ⟨0, _⟩ => show win4_2.index t (0 : Fin 2) * 512 + 1 * p.val = P.val; omega
  | ⟨1, _⟩ => show win4_2.index t (1 : Fin 2) * 10 + 1 * q.val = q.val; omega

/-- Where the first result block's entry `(p, q)` at point `t` sits in the array. -/
theorem emb4_3 (t : Fin cfg4.N) (p : Fin 512) (q : Fin 10) (P : Fin 4096) (hP : P.val = t.val * 512 + p.val) :
    ((cfg4.win 3).blk t).view.emb (ix2 p q) = ix2 P q := by
  obtain ⟨-, -, -, -, -, -, e0, e1, -⟩ := idx_facts4 t
  funext a; apply Fin.ext
  match a with
  | ⟨0, _⟩ => show win4_3.index t (0 : Fin 2) * 512 + 1 * p.val = P.val; omega
  | ⟨1, _⟩ => show win4_3.index t (1 : Fin 2) * 10 + 1 * q.val = q.val; omega

/-- Where the packed result block's entry `(p, c)` at point `t` sits in the array. -/
theorem emb4_4 (t : Fin cfg4.N) (p : Fin 512) (c : Fin 256) (P : Fin 4096) (hP : P.val = t.val * 512 + p.val) :
    ((cfg4.win 4).blk t).view.emb (ix2 p c) = ix2 P c := by
  obtain ⟨-, -, -, -, -, -, -, -, e0, e1⟩ := idx_facts4 t
  funext a; apply Fin.ext
  match a with
  | ⟨0, _⟩ => show win4_4.index t (0 : Fin 2) * 512 + 1 * p.val = P.val; omega
  | ⟨1, _⟩ => show win4_4.index t (1 : Fin 2) * 256 + 1 * c.val = c.val; omega

/-- The adjacency block at point `t`, read at `(p, k)`: the array at row `512 t + p`. -/
theorem iblk4_0_apply (c : Dev nD) (t : Fin cfg4.N) (p : Fin 512) (k : Fin 4096) (P : Fin 4096)
    (hP : P.val = t.val * 512 + p.val) :
    iblk4 V c 0 t (ix2 p k) = V c (Pipeline.arrRef spec4 0) (ix2 P k) := by
  show V c (Pipeline.arrRef spec4 0) (((cfg4.win 0).blk t).view.emb (ix2 p k)) = _
  rw [emb4_0 t p k P hP]

/-- The operand block at any point is the array. -/
theorem iblk4_1_apply (c : Dev nD) (t : Fin cfg4.N) (k : Fin 4096) (q : Fin 10) :
    iblk4 V c 1 t (ix2 k q) = V c (Pipeline.arrRef spec4 1) (ix2 k q) := by
  show V c (Pipeline.arrRef spec4 1) (((cfg4.win 1).blk t).view.emb (ix2 k q)) = _
  rw [emb4_1 t k q]

/-- The latent block at point `t`, read at `(p, q)`: the array at row `512 t + p`. -/
theorem iblk4_2_apply (c : Dev nD) (t : Fin cfg4.N) (p : Fin 512) (q : Fin 10) (P : Fin 4096)
    (hP : P.val = t.val * 512 + p.val) :
    iblk4 V c 2 t (ix2 p q) = V c (Pipeline.arrRef spec4 2) (ix2 P q) := by
  show V c (Pipeline.arrRef spec4 2) (((cfg4.win 2).blk t).view.emb (ix2 p q)) = _
  rw [emb4_2 t p q P hP]

set_option maxHeartbeats 1000000 in
/-- What point `t` writes back to the first result is block `t` of the rectified product. -/
theorem flushed4_3_eq (c : Dev nD) (t : Fin cfg4.N) :
    (dat4 (F := Ideal) V c).flushed 3 t
      = ((cfg4.win 3).blk t).view.read (Elt Ideal)
          (G4_3 (V c (Pipeline.arrRef spec4 0)) (V c (Pipeline.arrRef spec4 1))) := by
  show (cfg4.win 3).cut (grid4.coords t) ((dat4 V c).after 3 t) = _
  rw [after4_3]
  unfold out4_3
  rw [View.canon_unit_zero hz4]
  simp only [View.ld_unit_zero (S := S512x4096) hz4, View.ld_unit_zero (S := S4096x10) hz4]
  funext j
  obtain ⟨p, q, rfl⟩ : ∃ (p : Fin 512) (q : Fin 10), j = ix2 p q := ⟨j 0, j 1, eq_ix2 (n0 := 512) (n1 := 10) j⟩
  have ht : t.val < 8 := lt_of_lt_of_eq t.isLt N_4
  have hP : t.val * 512 + p.val < 4096 := by have := p.isLt; omega
  show k4_pay1 (iblk4 V c 0 t) (iblk4 V c 1 t) (ix2 p q)
    = G4_3 (V c (Pipeline.arrRef spec4 0)) (V c (Pipeline.arrRef spec4 1)) (((cfg4.win 3).blk t).view.emb (ix2 p q))
  rw [emb4_3 t p q ⟨t.val * 512 + p.val, hP⟩ rfl]
  refine point4_3 _ _ _ _ p q ⟨t.val * 512 + p.val, hP⟩ (fun k => ?_) (fun k q => ?_)
  · exact iblk4_0_apply V c t p k ⟨t.val * 512 + p.val, hP⟩ rfl
  · exact iblk4_1_apply V c t k q

set_option maxHeartbeats 1000000 in
/-- What point `t` writes back to the packed result is block `t` of the packed array. -/
theorem flushed4_4_eq (c : Dev nD) (t : Fin cfg4.N) :
    (dat4 (F := Ideal) V c).flushed 4 t
      = ((cfg4.win 4).blk t).view.read (Elt Ideal)
          (G4_4 (V c (Pipeline.arrRef spec4 0)) (V c (Pipeline.arrRef spec4 1)) (V c (Pipeline.arrRef spec4 2))) := by
  show (cfg4.win 4).cut (grid4.coords t) ((dat4 V c).after 4 t) = _
  rw [after4_4]
  unfold out4_4
  rw [View.canon_unit_zero hz4]
  simp only [View.ld_unit_zero (S := S512x4096) hz4, View.ld_unit_zero (S := S4096x10) hz4,
    View.ld_unit_zero (S := S512x10) hz4]
  funext j
  obtain ⟨p, cc, rfl⟩ : ∃ (p : Fin 512) (cc : Fin 256), j = ix2 p cc := ⟨j 0, j 1, eq_ix2 (n0 := 512) (n1 := 256) j⟩
  have ht : t.val < 8 := lt_of_lt_of_eq t.isLt N_4
  have hP : t.val * 512 + p.val < 4096 := by have := p.isLt; omega
  show k4_pay2 (iblk4 V c 0 t) (iblk4 V c 1 t) (iblk4 V c 2 t) (ix2 p cc)
    = G4_4 (V c (Pipeline.arrRef spec4 0)) (V c (Pipeline.arrRef spec4 1)) (V c (Pipeline.arrRef spec4 2))
        (((cfg4.win 4).blk t).view.emb (ix2 p cc))
  rw [emb4_4 t p cc ⟨t.val * 512 + p.val, hP⟩ rfl]
  refine point4_4 _ _ _ _ _ _ p cc ⟨t.val * 512 + p.val, hP⟩ (fun k => ?_) (fun k q => ?_) (fun q => ?_)
  · exact iblk4_0_apply V c t p k ⟨t.val * 512 + p.val, hP⟩ rfl
  · exact iblk4_1_apply V c t k q
  · exact iblk4_2_apply V c t p q ⟨t.val * 512 + p.val, hP⟩ rfl

/-- An entry of the first result array lies in point `t`'s block iff each coordinate lies in the block's range. -/
theorem mem_blk4_3 (t : Fin cfg4.N) (i : S4096x10.Idx) :
    i ∈ ((cfg4.win 3).blk t).view.set ↔ ∀ a : Fin 2, win4_3.index t a * S512x10.size a ≤ (i a).val
      ∧ (i a).val < win4_3.index t a * S512x10.size a + S512x10.size a := by
  show i ∈ ((View.whole main_v27_0).slice (win4_3.rect t)).set ↔ _
  rw [View.set_slice_whole, Rect.mem_set_unit]
  exact Iff.rfl

/-- An entry of the packed result array lies in point `t`'s block iff each coordinate lies in the block's range. -/
theorem mem_blk4_4 (t : Fin cfg4.N) (i : S4096x256.Idx) :
    i ∈ ((cfg4.win 4).blk t).view.set ↔ ∀ a : Fin 2, win4_4.index t a * S512x256.size a ≤ (i a).val
      ∧ (i a).val < win4_4.index t a * S512x256.size a + S512x256.size a := by
  show i ∈ ((View.whole main_v27_1).slice (win4_4.rect t)).set ↔ _
  rw [View.set_slice_whole, Rect.mem_set_unit]
  exact Iff.rfl

/-- Every entry of the first result array is in some point's block: row `P` is covered by point `P / 512`. -/
theorem covered4_3 (i : S4096x10.Idx) :
    ∃ t : Fin cfg4.N, (cfg4.win 3).flush t = true ∧ i ∈ ((cfg4.win 3).blk t).view.set := by
  have hi0 : (i 0).val < 4096 := (i 0).isLt
  have hi1 : (i 1).val < 10 := (i 1).isLt
  obtain ⟨t, ht⟩ : ∃ t : Fin cfg4.N, t.val = (i 0).val / 512 :=
    ⟨⟨(i 0).val / 512, lt_of_lt_of_eq (show (i 0).val / 512 < 8 by omega) N_4.symm⟩, rfl⟩
  obtain ⟨-, -, -, -, -, -, e0, e1, -⟩ := idx_facts4 t
  refine ⟨t, flush4_3 t, ?_⟩
  rw [mem_blk4_3]
  intro a
  match a with
  | ⟨0, _⟩ =>
    show win4_3.index t (0 : Fin 2) * 512 ≤ (i 0).val ∧ (i 0).val < win4_3.index t (0 : Fin 2) * 512 + 512
    omega
  | ⟨1, _⟩ =>
    show win4_3.index t (1 : Fin 2) * 10 ≤ (i 1).val ∧ (i 1).val < win4_3.index t (1 : Fin 2) * 10 + 10
    omega

/-- Every entry of the packed result array is in some point's block. -/
theorem covered4_4 (i : S4096x256.Idx) :
    ∃ t : Fin cfg4.N, (cfg4.win 4).flush t = true ∧ i ∈ ((cfg4.win 4).blk t).view.set := by
  have hi0 : (i 0).val < 4096 := (i 0).isLt
  have hi1 : (i 1).val < 256 := (i 1).isLt
  obtain ⟨t, ht⟩ : ∃ t : Fin cfg4.N, t.val = (i 0).val / 512 :=
    ⟨⟨(i 0).val / 512, lt_of_lt_of_eq (show (i 0).val / 512 < 8 by omega) N_4.symm⟩, rfl⟩
  obtain ⟨-, -, -, -, -, -, -, -, e0, e1⟩ := idx_facts4 t
  refine ⟨t, flush4_4 t, ?_⟩
  rw [mem_blk4_4]
  intro a
  match a with
  | ⟨0, _⟩ =>
    show win4_4.index t (0 : Fin 2) * 512 ≤ (i 0).val ∧ (i 0).val < win4_4.index t (0 : Fin 2) * 512 + 512
    omega
  | ⟨1, _⟩ =>
    show win4_4.index t (1 : Fin 2) * 256 ≤ (i 1).val ∧ (i 1).val < win4_4.index t (1 : Fin 2) * 256 + 256
    omega

/-- The first result array after the region. -/
theorem final4_3 (c : Dev nD) :
    (dat4 (F := Ideal) V c).arrAt 3 cfg4.N = G4_3 (V c (Pipeline.arrRef spec4 0)) (V c (Pipeline.arrRef spec4 1)) :=
  (dat4 (F := Ideal) V c).arrAt_eq_of_cover 3
    (G4_3 (V c (Pipeline.arrRef spec4 0)) (V c (Pipeline.arrRef spec4 1)))
    (fun t _ => flushed4_3_eq V c t) covered4_3

/-- The packed result array after the region. -/
theorem final4_4 (c : Dev nD) :
    (dat4 (F := Ideal) V c).arrAt 4 cfg4.N
      = G4_4 (V c (Pipeline.arrRef spec4 0)) (V c (Pipeline.arrRef spec4 1)) (V c (Pipeline.arrRef spec4 2)) :=
  (dat4 (F := Ideal) V c).arrAt_eq_of_cover 4
    (G4_4 (V c (Pipeline.arrRef spec4 0)) (V c (Pipeline.arrRef spec4 1)) (V c (Pipeline.arrRef spec4 2)))
    (fun t _ => flushed4_4_eq V c t) covered4_4

/-! ## 3. Over the reals -/

/-- The rectified product over the reals, over variables. -/
theorem G4_3_real (a : Vec Ideal S4096x4096 .bf16) (u : Vec Ideal S4096x10 .bf16)
    (ADJ : RealNet.M 4096 4096) (U4 : RealNet.M 4096 10)
    (hA : ∀ (p k : Fin 4096), a (ix2 p k) = ((ADJ p k : ℝ) : EReal))
    (hU : ∀ (k : Fin 4096) (q : Fin 10), u (ix2 k q) = ((U4 k q : ℝ) : EReal))
    (p : Fin 4096) (q : Fin 10) :
    G4_3 a u (ix2 p q) = ((RealNet.relu (ADJ * U4) p q : ℝ) : EReal) := by
  rw [G4_3_apply, IdealMatmul.sum_mul_eq_coe_mul ADJ U4 p q _ _ (fun k => hA p k) (fun k => hU k q),
    RealNet.lift_max_zero]
  rfl

/-- The packed array over the reals, over variables: the packing of `relu (ADJ · U4)` and `R`. -/
theorem G4_4_real (a : Vec Ideal S4096x4096 .bf16) (u : Vec Ideal S4096x10 .bf16) (r : Vec Ideal S4096x10 .f32)
    (ADJ : RealNet.M 4096 4096) (U4 R : RealNet.M 4096 10)
    (hA : ∀ (p k : Fin 4096), a (ix2 p k) = ((ADJ p k : ℝ) : EReal))
    (hU : ∀ (k : Fin 4096) (q : Fin 10), u (ix2 k q) = ((U4 k q : ℝ) : EReal))
    (hR : ∀ (p : Fin 4096) (q : Fin 10), r (ix2 p q) = ((R p q : ℝ) : EReal))
    (p : Fin 4096) (c : Fin 256) :
    G4_4 a u r (ix2 p c) = ((RealNet.packZR (RealNet.relu (ADJ * U4)) R p c : ℝ) : EReal) := by
  by_cases hl : c.val < 10
  · rw [G4_4_left a u r p ⟨c.val, hl⟩ c rfl, RealNet.packZR_left _ R p ⟨c.val, hl⟩ c rfl]
    exact G4_3_real a u ADJ U4 hA hU p _
  · by_cases hr : 128 ≤ c.val ∧ c.val < 138
    · rw [G4_4_right a u r p ⟨c.val - 128, by omega⟩ c (by show c.val = 128 + (c.val - 128); omega),
        RealNet.packZR_right _ R p ⟨c.val - 128, by omega⟩ c (by show c.val = 128 + (c.val - 128); omega)]
      exact hR p _
    · rw [G4_4_zero a u r p c hl hr, RealNet.packZR_zero _ R p c hl hr]
      rfl

/-- The first result array after the region, over the reals: `relu (ADJ · U4)`. -/
theorem final4_3_real (c : Dev nD) (ADJ : RealNet.M 4096 4096) (U4 : RealNet.M 4096 10)
    (hA : ∀ (p k : Fin 4096), V c (Pipeline.arrRef spec4 0) (ix2 p k) = ((ADJ p k : ℝ) : EReal))
    (hU : ∀ (k : Fin 4096) (q : Fin 10), V c (Pipeline.arrRef spec4 1) (ix2 k q) = ((U4 k q : ℝ) : EReal))
    (p : Fin 4096) (q : Fin 10) :
    (dat4 (F := Ideal) V c).arrAt 3 cfg4.N (ix2 p q) = ((RealNet.relu (ADJ * U4) p q : ℝ) : EReal) :=
  (congrFun (final4_3 V c) (ix2 p q)).trans (G4_3_real _ _ ADJ U4 hA hU p q)

/-- The packed result array after the region, over the reals: the packing of `relu (ADJ · U4)` and `R`. -/
theorem final4_4_real (c : Dev nD) (ADJ : RealNet.M 4096 4096) (U4 R : RealNet.M 4096 10)
    (hA : ∀ (p k : Fin 4096), V c (Pipeline.arrRef spec4 0) (ix2 p k) = ((ADJ p k : ℝ) : EReal))
    (hU : ∀ (k : Fin 4096) (q : Fin 10), V c (Pipeline.arrRef spec4 1) (ix2 k q) = ((U4 k q : ℝ) : EReal))
    (hR : ∀ (p : Fin 4096) (q : Fin 10), V c (Pipeline.arrRef spec4 2) (ix2 p q) = ((R p q : ℝ) : EReal))
    (p : Fin 4096) (cc : Fin 256) :
    (dat4 (F := Ideal) V c).arrAt 4 cfg4.N (ix2 p cc)
      = ((RealNet.packZR (RealNet.relu (ADJ * U4)) R p cc : ℝ) : EReal) :=
  (congrFun (final4_4 V c) (ix2 p cc)).trans (G4_4_real _ _ _ ADJ U4 R hA hU hR p cc)

end Cert.KernelIdeal.HandValue

end
-- ==== Proof.KernelIdealV5.lean ====
/-
  The fifth adjacency sweep, read as values at the exact instance.

  One grid point sweeps a block of 512 rows of the adjacency `a` against the packed 256-column operand (the
  rectified `z` in columns 0–9, the latent code `r` in columns 128–137), and from the two ten-column pieces
  `t₁`, `t₂` of the product leaves four blocks: the propagated latent `zl = t₁ + t₂`; its rectified projection
  `max (zl · g₅) 0`; its soft assignment against the cluster centres, computed from the expanded squared
  distance; and the next sweep's operand `max (t₁ · g₆) 0 · g₇`.  Everything a row of the results needs
  from the adjacency is the row `s = (a · azr) p` of the product, so each result is stated as a function of that
  row and of the whole weights.
-/
import proofs.«140843_g75050258530825_cont_9to1_m_403_24_alg».proof.Proof.KernelIdealR5
import proofs.«140843_g75050258530825_cont_9to1_m_403_24_alg».proof.Proof.LibRealLift
import proofs.«140843_g75050258530825_cont_9to1_m_403_24_alg».proof.Proof.LibIdealMatmul
import proofs.«140843_g75050258530825_cont_9to1_m_403_24_alg».proof.Proof.NetPack
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 0. The results as functions of one row of the swept product -/

/-- The float word of one, and of two. -/
abbrev one5 : EReal := Ideal.ofBits .f32 0x3F800000#32
abbrev two5 : EReal := Ideal.ofBits .f32 0x40000000#32

/-- Row `p` of the swept product: `s c = ∑ k, x0 (p, k) · x1 (k, c)`. -/
def sw5 {n : ℕ} (x0 : (⟨2, ![n, 4096]⟩ : Shape).Idx → EReal) (x1 : S4096x256.Idx → EReal) (p : Fin n) (c : Fin 256) : EReal :=
  ∑ k : Fin 4096, x0 (ix2 p k) * x1 (ix2 k c)

/-- The first ten-column piece of a row of the product (columns 0–9). -/
def t1Row5 (s : Fin 256 → EReal) (q : Fin 10) : EReal := s ⟨q.val, by have := q.isLt; omega⟩

/-- The sum of the two ten-column pieces (columns 0–9 and 128–137). -/
def zlRow5 (s : Fin 256 → EReal) (q : Fin 10) : EReal :=
  s ⟨q.val, by have := q.isLt; omega⟩ + s ⟨128 + q.val, by have := q.isLt; omega⟩

/-- The rectified projection of the sum. -/
def arRow5 (s : Fin 256 → EReal) (g5 : S10x10.Idx → EReal) (q : Fin 10) : EReal :=
  max (∑ j : Fin 10, zlRow5 s j * g5 (ix2 j q)) 0

/-- The Student-t kernel of the sum against centre `q`, from the expanded squared distance (`ct` holds the
    centres as columns). -/
def tkRow5 (s : Fin 256 → EReal) (ct : S10x10.Idx → EReal) (q : Fin 10) : EReal :=
  Ideal.div one5 (one5 + ((∑ j : Fin 10, zlRow5 s j * zlRow5 s j) - two5 * (∑ j : Fin 10, zlRow5 s j * ct (ix2 j q))
    + ∑ j : Fin 10, ct (ix2 j q) * ct (ix2 j q)))

/-- The soft assignment: the kernel normalised along the row. -/
def qRow5 (s : Fin 256 → EReal) (ct : S10x10.Idx → EReal) (q : Fin 10) : EReal :=
  Ideal.div (tkRow5 s ct q) (∑ j : Fin 10, tkRow5 s ct j)

/-- The next sweep's operand: the first piece projected, rectified and projected again. -/
def u7Row5 (s : Fin 256 → EReal) (g6 : S10x2000.Idx → EReal) (g7 : S2000x500.Idx → EReal) (q : Fin 500) : EReal :=
  ∑ l : Fin 2000, max (∑ j : Fin 10, t1Row5 s j * g6 (ix2 j l)) 0 * g7 (ix2 l q)

/-! ## 1. The body's arithmetic at one entry -/

/-- The swept product at entry `(p, c)`. -/
theorem pay5_3_apply (x0 : Vec Ideal S512x4096 .bf16) (x1 : Vec Ideal S4096x256 .bf16) (p : Fin 512) (c : Fin 256) :
    k5_pay3 x0 x1 (ix2 p c) = sw5 x0 x1 p c := by
  unfold k5_pay3
  simp only [shapeCast_self]
  exact IdealMatmul.ideal_plain_zero_apply 512 4096 256 x0 x1 p c

/-- The first piece at entry `(p, q)`. -/
theorem pay5_6_apply (x0 : Vec Ideal S512x4096 .bf16) (x1 : Vec Ideal S4096x256 .bf16) (p : Fin 512) (q : Fin 10) :
    k5_pay6 x0 x1 (ix2 p q) = t1Row5 (sw5 x0 x1 p) q := by
  unfold k5_pay6
  refine (slice2_axis1_apply 0 _ slices_S512x256_o0_0_S512x10 p q ⟨q.val, by have := q.isLt; omega⟩
    (by show q.val = 0 + q.val; omega)).trans ?_
  exact pay5_3_apply x0 x1 p _

/-- The sum of the two pieces at entry `(p, q)`. -/
theorem pay5_7_apply (x0 : Vec Ideal S512x4096 .bf16) (x1 : Vec Ideal S4096x256 .bf16) (p : Fin 512) (q : Fin 10) :
    k5_pay7 x0 x1 (ix2 p q) = zlRow5 (sw5 x0 x1 p) q := by
  unfold k5_pay7
  show k5_pay6 x0 x1 (ix2 p q)
    + extractStridedSlice S512x10 ![0, 128] (k5_pay3 x0 x1) slices_S512x256_o0_128_S512x10 (ix2 p q) = _
  rw [pay5_6_apply, slice2_axis1_apply 128 _ slices_S512x256_o0_128_S512x10 p q
    ⟨128 + q.val, by have := q.isLt; omega⟩ rfl, pay5_3_apply]
  rfl

/-- The rectified projection at entry `(p, q)`. -/
theorem pay5_8_apply (x0 : Vec Ideal S512x4096 .bf16) (x1 : Vec Ideal S4096x256 .bf16) (x2 : Vec Ideal S10x10 .bf16)
    (p : Fin 512) (q : Fin 10) :
    k5_pay8 x0 x1 x2 (ix2 p q) = arRow5 (sw5 x0 x1 p) x2 q := by
  unfold k5_pay8
  simp only [shapeCast_self]
  show max (Ideal.matmul (DotDims.plain 512 10 10) (k5_pay7 x0 x1) x2 (fun _ => Ideal.ofBits .f32 0x00000000#32) (ix2 p q))
      (Ideal.ofBits .f32 0x00000000#32) = _
  rw [IdealMatmul.ideal_plain_zero_apply 512 10 10 _ x2 p q]
  simp only [pay5_7_apply]
  rw [Ideal.ofBits_zero_f32]
  rfl

/-- The next sweep's operand at entry `(p, q)`. -/
theorem pay5_2_apply (x0 : Vec Ideal S512x4096 .bf16) (x1 : Vec Ideal S4096x256 .bf16) (x3 : Vec Ideal S10x2000 .bf16)
    (x4 : Vec Ideal S2000x500 .bf16) (p : Fin 512) (q : Fin 500) :
    k5_pay2 (k5_pay4 x3) (k5_pay5 x4) (k5_pay6 x0 x1) (ix2 p q) = u7Row5 (sw5 x0 x1 p) x3 x4 q := by
  unfold k5_pay2 k5_pay4 k5_pay5
  simp only [shapeCast_self]
  show Ideal.matmul (DotDims.plain 512 2000 500)
      (fun i => max (Ideal.matmul (DotDims.plain 512 10 2000) (k5_pay6 x0 x1) x3 (fun _ => Ideal.ofBits .f32 0x00000000#32) i)
        (Ideal.ofBits .f32 0x00000000#32))
      x4 (fun _ => Ideal.ofBits .f32 0x00000000#32) (ix2 p q) = _
  refine (IdealMatmul.ideal_plain_zero_apply 512 2000 500 _ x4 p q).trans ?_
  refine Finset.sum_congr rfl fun l _ => ?_
  show max (Ideal.matmul (DotDims.plain 512 10 2000) (k5_pay6 x0 x1) x3 (fun _ => Ideal.ofBits .f32 0x00000000#32) (ix2 p l))
      (Ideal.ofBits .f32 0x00000000#32) * x4 (ix2 l q) = _
  rw [IdealMatmul.ideal_plain_zero_apply 512 10 2000 _ x3 p l]
  simp only [pay5_6_apply]
  rw [Ideal.ofBits_zero_f32]

/-- A lane sum along the columns of a `512 × 10` array, at row `p`: `∑ k, v (p, k)`. -/
theorem rowSum5_apply (v : FVec Ideal S512x10 .f32) (hφ : FKind.Formats .f32)
    (hacc : (0x00000000#32 : BitVec 32) = FKind.add.neutral .f32 hφ) (p : Fin 512) :
    multiReduction .add [1] S512 v 0x00000000#32 reduces_S512x10_S512 hφ hacc (ix1 p) = ∑ k : Fin 10, v (ix2 p k) := by
  refine (Ideal.multiReduction_add_single v 0x00000000#32 reduces_S512x10_S512 hφ hacc (ix1 p)).trans ?_
  refine Finset.sum_congr rfl fun k _ => congrArg v (funext fun a => Fin.ext ?_)
  match a with
  | ⟨0, _⟩ => rfl
  | ⟨1, _⟩ => rfl

/-- The lane sum kept as a column and broadcast back along the row, at `(p, q)`: the sum of row `p`. -/
theorem rowSumBcast5_apply (v : FVec Ideal S512x10 .f32) (hφ : FKind.Formats .f32)
    (hacc : (0x00000000#32 : BitVec 32) = FKind.add.neutral .f32 hφ) (p : Fin 512) (q : Fin 10) :
    broadcastTo S512x10 (shapeCast S512x1 (multiReduction .add [1] S512 v 0x00000000#32 reduces_S512x10_S512 hφ hacc)
        shapeCasts_S512_S512x1) broadcasts_S512x1_S512x10 (ix2 p q) = ∑ k : Fin 10, v (ix2 p k) := by
  refine (broadcastTo_apply _ broadcasts_S512x1_S512x10 (ix2 p q) (ix2 p (0 : Fin 1)) (fun a => ?_)).trans ?_
  · match a with
    | ⟨0, _⟩ => show p.val = if (512 : ℕ) = 1 then 0 else p.val; rw [if_neg (by decide)]
    | ⟨1, _⟩ => show 0 = if (1 : ℕ) = 1 then 0 else q.val; rw [if_pos rfl]
  refine (shapeCast_apply _ shapeCasts_S512_S512x1 (ix2 p (0 : Fin 1)) (ix1 p) ?_).trans ?_
  · rw [Shape.rowMajor_val_one, Shape.rowMajor_val_two]; show p.val = p.val * 1 + 0; omega
  exact rowSum5_apply v hφ hacc p

/-- A sum down the rows of a `10 × 10` array, at column `q`: `∑ l, w (l, q)`. -/
theorem colSum5_apply (w : FVec Ideal S10x10 .f32) (hφ : FKind.Formats .f32)
    (hacc : (0x00000000#32 : BitVec 32) = FKind.add.neutral .f32 hφ) (q : Fin 10) :
    multiReduction .add [0] S10 w 0x00000000#32 reduces_S10x10_S10 hφ hacc (ix1 q) = ∑ l : Fin 10, w (ix2 l q) := by
  refine (Ideal.multiReduction_add_single w 0x00000000#32 reduces_S10x10_S10 hφ hacc (ix1 q)).trans ?_
  refine Finset.sum_congr rfl fun l _ => congrArg w (funext fun a => Fin.ext ?_)
  match a with
  | ⟨0, _⟩ => rfl
  | ⟨1, _⟩ => rfl

/-- The column sums kept as a row and broadcast down the rows, at `(p, q)`: the sum of column `q`. -/
theorem colSumBcast5_apply (w : FVec Ideal S10x10 .f32) (hφ : FKind.Formats .f32)
    (hacc : (0x00000000#32 : BitVec 32) = FKind.add.neutral .f32 hφ) (p : Fin 512) (q : Fin 10) :
    broadcastTo S512x10 (shapeCast S1x10 (multiReduction .add [0] S10 w 0x00000000#32 reduces_S10x10_S10 hφ hacc)
        shapeCasts_S10_S1x10) broadcasts_S1x10_S512x10 (ix2 p q) = ∑ l : Fin 10, w (ix2 l q) := by
  refine (broadcastTo_1b_ab_apply _ broadcasts_S1x10_S512x10 p q).trans ?_
  refine (shapeCast_a_1a_apply _ shapeCasts_S10_S1x10 (0 : Fin 1) q).trans ?_
  exact colSum5_apply w hφ hacc q

/-- The Student-t kernel at entry `(p, q)`, from the expanded squared distance. -/
theorem pay5_9_apply (x0 : Vec Ideal S512x4096 .bf16) (x1 : Vec Ideal S4096x256 .bf16) (x5 : Vec Ideal S10x10 .f32)
    (p : Fin 512) (q : Fin 10) :
    k5_pay9 x0 x1 x5 (ix2 p q) = tkRow5 (sw5 x0 x1 p) x5 q := by
  unfold k5_pay9
  simp only [shapeCast_self]
  show Ideal.div one5 (one5 + ((broadcastTo S512x10 (shapeCast S512x1
        (multiReduction (F := Ideal) .add [1] S512 (mulf (F := Ideal) (k5_pay7 x0 x1) (k5_pay7 x0 x1)) 0x00000000#32
          reduces_S512x10_S512 (.inl rfl) rfl)
        shapeCasts_S512_S512x1) broadcasts_S512x1_S512x10 (ix2 p q)
      - two5 * Ideal.matmul (DotDims.plain 512 10 10) (k5_pay7 x0 x1) x5 (fun _ => Ideal.ofBits .f32 0x00000000#32) (ix2 p q))
      + broadcastTo S512x10 (shapeCast S1x10
        (multiReduction (F := Ideal) .add [0] S10 (mulf (F := Ideal) x5 x5) 0x00000000#32 reduces_S10x10_S10 (.inl rfl) rfl)
        shapeCasts_S10_S1x10) broadcasts_S1x10_S512x10 (ix2 p q))) = _
  have e1 := rowSumBcast5_apply (mulf (F := Ideal) (k5_pay7 x0 x1) (k5_pay7 x0 x1)) (.inl rfl) rfl p q
  have e2 := colSumBcast5_apply (mulf (F := Ideal) x5 x5) (.inl rfl) rfl p q
  have e3 := IdealMatmul.ideal_plain_zero_apply 512 10 10 (k5_pay7 x0 x1) x5 p q
  refine (congrArg (fun z => Ideal.div one5 (one5 + z))
    (congrArg₂ (· + ·) (congrArg₂ (· - ·) e1 (congrArg (two5 * ·) e3)) e2)).trans ?_
  simp only [ValueIdx.mulf_apply, pay5_7_apply]
  rfl

/-- The soft assignment at entry `(p, q)`: the kernel `v` divided by its row sum. -/
theorem pay5_1_apply (v : FVec Ideal S512x10 .f32) (p : Fin 512) (q : Fin 10) :
    k5_pay1 v (ix2 p q) = Ideal.div (v (ix2 p q)) (∑ j : Fin 10, v (ix2 p j)) := by
  unfold k5_pay1
  show Ideal.div (v (ix2 p q)) (broadcastTo S512x10 (shapeCast S512x1
      (multiReduction (F := Ideal) .add [1] S512 v 0x00000000#32 reduces_S512x10_S512 (.inl rfl) rfl)
      shapeCasts_S512_S512x1) broadcasts_S512x1_S512x10 (ix2 p q)) = _
  exact congrArg (Ideal.div (v (ix2 p q))) (rowSumBcast5_apply v (.inl rfl) rfl p q)

/-- The soft assignment of the sum at entry `(p, q)`. -/
theorem pay5_19_apply (x0 : Vec Ideal S512x4096 .bf16) (x1 : Vec Ideal S4096x256 .bf16) (x5 : Vec Ideal S10x10 .f32)
    (p : Fin 512) (q : Fin 10) :
    k5_pay1 (k5_pay9 x0 x1 x5) (ix2 p q) = qRow5 (sw5 x0 x1 p) x5 q := by
  rw [pay5_1_apply]
  simp only [pay5_9_apply]
  rfl

/-! ## 2. The eight blocks as functions of the six arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz5 : (![0, 0] : Fin 2 → Nat) = fun _ => 0 := funext fun a => by fin_cases a <;> rfl

/-- The rectified projection of the propagated latent, as one function of the adjacency `a`, the packed operand
    `azr` and the weight `g5`. -/
def G5_6 (a : Vec Ideal S4096x4096 .bf16) (azr : Vec Ideal S4096x256 .bf16) (g5 : Vec Ideal S10x10 .bf16) :
    Vec Ideal S4096x10 .f32 :=
  fun i => arRow5 (sw5 a azr (⟨(i 0).val, (i 0).isLt⟩ : Fin 4096)) g5 (⟨(i 1).val, (i 1).isLt⟩ : Fin 10)

/-- The propagated latent, as one function of `a` and `azr`. -/
def G5_7 (a : Vec Ideal S4096x4096 .bf16) (azr : Vec Ideal S4096x256 .bf16) : Vec Ideal S4096x10 .f32 :=
  fun i => zlRow5 (sw5 a azr (⟨(i 0).val, (i 0).isLt⟩ : Fin 4096)) (⟨(i 1).val, (i 1).isLt⟩ : Fin 10)

/-- The soft assignment of the propagated latent, as one function of `a`, `azr` and the transposed centres `ct`. -/
def G5_8 (a : Vec Ideal S4096x4096 .bf16) (azr : Vec Ideal S4096x256 .bf16) (ct : Vec Ideal S10x10 .f32) :
    Vec Ideal S4096x10 .f32 :=
  fun i => qRow5 (sw5 a azr (⟨(i 0).val, (i 0).isLt⟩ : Fin 4096)) ct (⟨(i 1).val, (i 1).isLt⟩ : Fin 10)

/-- The next sweep's operand, as one function of `a`, `azr` and the weights `g6`, `g7`. -/
def G5_9 (a : Vec Ideal S4096x4096 .bf16) (azr : Vec Ideal S4096x256 .bf16) (g6 : Vec Ideal S10x2000 .bf16)
    (g7 : Vec Ideal S2000x500 .bf16) : Vec Ideal S4096x500 .bf16 :=
  fun i => u7Row5 (sw5 a azr (⟨(i 0).val, (i 0).isLt⟩ : Fin 4096)) g6 g7 (⟨(i 1).val, (i 1).isLt⟩ : Fin 500)

theorem G5_6_apply (a : Vec Ideal S4096x4096 .bf16) (azr : Vec Ideal S4096x256 .bf16) (g5 : Vec Ideal S10x10 .bf16)
    (P : Fin 4096) (Q : Fin 10) : G5_6 a azr g5 (ix2 P Q) = arRow5 (sw5 a azr P) g5 Q := rfl
theorem G5_7_apply (a : Vec Ideal S4096x4096 .bf16) (azr : Vec Ideal S4096x256 .bf16)
    (P : Fin 4096) (Q : Fin 10) : G5_7 a azr (ix2 P Q) = zlRow5 (sw5 a azr P) Q := rfl
theorem G5_8_apply (a : Vec Ideal S4096x4096 .bf16) (azr : Vec Ideal S4096x256 .bf16) (ct : Vec Ideal S10x10 .f32)
    (P : Fin 4096) (Q : Fin 10) : G5_8 a azr ct (ix2 P Q) = qRow5 (sw5 a azr P) ct Q := rfl
theorem G5_9_apply (a : Vec Ideal S4096x4096 .bf16) (azr : Vec Ideal S4096x256 .bf16) (g6 : Vec Ideal S10x2000 .bf16)
    (g7 : Vec Ideal S2000x500 .bf16) (P : Fin 4096) (Q : Fin 500) :
    G5_9 a azr g6 g7 (ix2 P Q) = u7Row5 (sw5 a azr P) g6 g7 Q := rfl

/-- A row of the swept product depends on the adjacency only through its row: when row `p` of the block is row
    `P` of the array, the two rows of the product agree. -/
theorem sw5_congr {n m : ℕ} (x0 : (⟨2, ![n, 4096]⟩ : Shape).Idx → EReal) (a : (⟨2, ![m, 4096]⟩ : Shape).Idx → EReal)
    (x1 : S4096x256.Idx → EReal) (p : Fin n) (P : Fin m) (h0 : ∀ k : Fin 4096, x0 (ix2 p k) = a (ix2 P k)) :
    sw5 x0 x1 p = sw5 a x1 P := by
  funext c
  unfold sw5
  exact Finset.sum_congr rfl fun k _ => by rw [h0 k]

/-- One point of each output, over variables: the adjacency block is row `P` of `a` along row `p`; every other
    block is its whole array. -/
theorem point5_6 (a : Vec Ideal S4096x4096 .bf16) (azr : Vec Ideal S4096x256 .bf16) (g5 : Vec Ideal S10x10 .bf16)
    (x0 : Vec Ideal S512x4096 .bf16) (x1 : Vec Ideal S4096x256 .bf16) (x2 : Vec Ideal S10x10 .bf16)
    (p : Fin 512) (q : Fin 10) (P : Fin 4096)
    (h0 : ∀ k : Fin 4096, x0 (ix2 p k) = a (ix2 P k)) (h1 : x1 = azr) (h2 : x2 = g5) :
    k5_pay8 x0 x1 x2 (ix2 p q) = G5_6 a azr g5 (ix2 P q) := by
  subst h1; subst h2
  rw [pay5_8_apply, G5_6_apply, sw5_congr x0 a x1 p P h0]

theorem point5_7 (a : Vec Ideal S4096x4096 .bf16) (azr : Vec Ideal S4096x256 .bf16)
    (x0 : Vec Ideal S512x4096 .bf16) (x1 : Vec Ideal S4096x256 .bf16)
    (p : Fin 512) (q : Fin 10) (P : Fin 4096)
    (h0 : ∀ k : Fin 4096, x0 (ix2 p k) = a (ix2 P k)) (h1 : x1 = azr) :
    k5_pay7 x0 x1 (ix2 p q) = G5_7 a azr (ix2 P q) := by
  subst h1
  rw [pay5_7_apply, G5_7_apply, sw5_congr x0 a x1 p P h0]

theorem point5_8 (a : Vec Ideal S4096x4096 .bf16) (azr : Vec Ideal S4096x256 .bf16) (ct : Vec Ideal S10x10 .f32)
    (x0 : Vec Ideal S512x4096 .bf16) (x1 : Vec Ideal S4096x256 .bf16) (x5 : Vec Ideal S10x10 .f32)
    (p : Fin 512) (q : Fin 10) (P : Fin 4096)
    (h0 : ∀ k : Fin 4096, x0 (ix2 p k) = a (ix2 P k)) (h1 : x1 = azr) (h5 : x5 = ct) :
    k5_pay1 (k5_pay9 x0 x1 x5) (ix2 p q) = G5_8 a azr ct (ix2 P q) := by
  subst h1; subst h5
  rw [pay5_19_apply, G5_8_apply, sw5_congr x0 a x1 p P h0]

theorem point5_9 (a : Vec Ideal S4096x4096 .bf16) (azr : Vec Ideal S4096x256 .bf16) (g6 : Vec Ideal S10x2000 .bf16)
    (g7 : Vec Ideal S2000x500 .bf16)
    (x0 : Vec Ideal S512x4096 .bf16) (x1 : Vec Ideal S4096x256 .bf16) (x3 : Vec Ideal S10x2000 .bf16)
    (x4 : Vec Ideal S2000x500 .bf16) (p : Fin 512) (q : Fin 500) (P : Fin 4096)
    (h0 : ∀ k : Fin 4096, x0 (ix2 p k) = a (ix2 P k)) (h1 : x1 = azr) (h3 : x3 = g6) (h4 : x4 = g7) :
    k5_pay2 (k5_pay4 x3) (k5_pay5 x4) (k5_pay6 x0 x1) (ix2 p q) = G5_9 a azr g6 g7 (ix2 P q) := by
  subst h1; subst h3; subst h4
  rw [pay5_2_apply, G5_9_apply, sw5_congr x0 a x1 p P h0]

/-- The printed index maps, decided once over the eight points.  The adjacency's blocks are row block `t`. -/
theorem idx5_0 : ∀ t : Fin cfg5.N, win5_0.index t (0 : Fin 2) = t.val ∧ win5_0.index t (1 : Fin 2) = 0 :=
  (by decide +kernel : ∀ t : Fin grid5.N, _)

/-- The packed operand's, the three weights' and the centres' blocks are the whole arrays. -/
theorem idx5_whole : ∀ t : Fin cfg5.N,
    win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The four results' blocks are row block `t`. -/
theorem idx5_out : ∀ t : Fin cfg5.N,
    win5_6.index t (0 : Fin 2) = t.val ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0 :=
  (by decide +kernel : ∀ t : Fin grid5.N, _)

/-- Where the adjacency block's entry `(p, k)` at point `t` sits in the array: row `512 t + p`, column `k`. -/
theorem emb5_0 (t : Fin cfg5.N) (p : Fin 512) (k : Fin 4096) (P : Fin 4096) (hP : P.val = t.val * 512 + p.val) :
    ((cfg5.win 0).blk t).view.emb (ix2 p k) = ix2 P k := by
  obtain ⟨e0, e1⟩ := idx5_0 t
  funext a; apply Fin.ext
  match a with
  | ⟨0, _⟩ => show win5_0.index t (0 : Fin 2) * 512 + 1 * p.val = P.val; omega
  | ⟨1, _⟩ => show win5_0.index t (1 : Fin 2) * 4096 + 1 * k.val = k.val; omega

/-- The packed operand's block is the whole array. -/
theorem emb5_1 (t : Fin cfg5.N) (k : Fin 4096) (cc : Fin 256) :
    ((cfg5.win 1).blk t).view.emb (ix2 k cc) = ix2 k cc := by
  obtain ⟨e0, e1, -⟩ := idx5_whole t
  funext a; apply Fin.ext
  match a with
  | ⟨0, _⟩ => show win5_1.index t (0 : Fin 2) * 4096 + 1 * k.val = k.val; omega
  | ⟨1, _⟩ => show win5_1.index t (1 : Fin 2) * 256 + 1 * cc.val = cc.val; omega

/-- The weight `g5`'s block is the whole array. -/
theorem emb5_2 (t : Fin cfg5.N) (j : Fin 10) (q : Fin 10) :
    ((cfg5.win 2).blk t).view.emb (ix2 j q) = ix2 j q := by
  obtain ⟨-, -, e0, e1, -⟩ := idx5_whole t
  funext a; apply Fin.ext
  match a with
  | ⟨0, _⟩ => show win5_2.index t (0 : Fin 2) * 10 + 1 * j.val = j.val; omega
  | ⟨1, _⟩ => show win5_2.index t (1 : Fin 2) * 10 + 1 * q.val = q.val; omega

/-- The weight `g6`'s block is the whole array. -/
theorem emb5_3 (t : Fin cfg5.N) (j : Fin 10) (l : Fin 2000) :
    ((cfg5.win 3).blk t).view.emb (ix2 j l) = ix2 j l := by
  obtain ⟨-, -, -, -, e0, e1, -⟩ := idx5_whole t
  funext a; apply Fin.ext
  match a with
  | ⟨0, _⟩ => show win5_3.index t (0 : Fin 2) * 10 + 1 * j.val = j.val; omega
  | ⟨1, _⟩ => show win5_3.index t (1 : Fin 2) * 2000 + 1 * l.val = l.val; omega

/-- The weight `g7`'s block is the whole array. -/
theorem emb5_4 (t : Fin cfg5.N) (l : Fin 2000) (q : Fin 500) :
    ((cfg5.win 4).blk t).view.emb (ix2 l q) = ix2 l q := by
  obtain ⟨-, -, -, -, -, -, e0, e1, -⟩ := idx5_whole t
  funext a; apply Fin.ext
  match a with
  | ⟨0, _⟩ => show win5_4.index t (0 : Fin 2) * 2000 + 1 * l.val = l.val; omega
  | ⟨1, _⟩ => show win5_4.index t (1 : Fin 2) * 500 + 1 * q.val = q.val; omega

/-- The centres' block is the whole array. -/
theorem emb5_5 (t : Fin cfg5.N) (j : Fin 10) (q : Fin 10) :
    ((cfg5.win 5).blk t).view.emb (ix2 j q) = ix2 j q := by
  obtain ⟨-, -, -, -, -, -, -, -, e0, e1⟩ := idx5_whole t
  funext a; apply Fin.ext
  match a with
  | ⟨0, _⟩ => show win5_5.index t (0 : Fin 2) * 10 + 1 * j.val = j.val; omega
  | ⟨1, _⟩ => show win5_5.index t (1 : Fin 2) * 10 + 1 * q.val = q.val; omega

/-- Where the entry `(p, q)` of a result block at point `t` sits in its array: row `512 t + p`, column `q`. -/
theorem emb5_6 (t : Fin cfg5.N) (p : Fin 512) (q : Fin 10) (P : Fin 4096) (hP : P.val = t.val * 512 + p.val) :
    ((cfg5.win 6).blk t).view.emb (ix2 p q) = ix2 P q := by
  obtain ⟨e0, e1, -⟩ := idx5_out t
  funext a; apply Fin.ext
  match a with
  | ⟨0, _⟩ => show win5_6.index t (0 : Fin 2) * 512 + 1 * p.val = P.val; omega
  | ⟨1, _⟩ => show win5_6.index t (1 : Fin 2) * 10 + 1 * q.val = q.val; omega

theorem emb5_7 (t : Fin cfg5.N) (p : Fin 512) (q : Fin 10) (P : Fin 4096) (hP : P.val = t.val * 512 + p.val) :
    ((cfg5.win 7).blk t).view.emb (ix2 p q) = ix2 P q := by
  obtain ⟨-, -, e0, e1, -⟩ := idx5_out t
  funext a; apply Fin.ext
  match a with
  | ⟨0, _⟩ => show win5_7.index t (0 : Fin 2) * 512 + 1 * p.val = P.val; omega
  | ⟨1, _⟩ => show win5_7.index t (1 : Fin 2) * 10 + 1 * q.val = q.val; omega

theorem emb5_8 (t : Fin cfg5.N) (p : Fin 512) (q : Fin 10) (P : Fin 4096) (hP : P.val = t.val * 512 + p.val) :
    ((cfg5.win 8).blk t).view.emb (ix2 p q) = ix2 P q := by
  obtain ⟨-, -, -, -, e0, e1, -⟩ := idx5_out t
  funext a; apply Fin.ext
  match a with
  | ⟨0, _⟩ => show win5_8.index t (0 : Fin 2) * 512 + 1 * p.val = P.val; omega
  | ⟨1, _⟩ => show win5_8.index t (1 : Fin 2) * 10 + 1 * q.val = q.val; omega

theorem emb5_9 (t : Fin cfg5.N) (p : Fin 512) (q : Fin 500) (P : Fin 4096) (hP : P.val = t.val * 512 + p.val) :
    ((cfg5.win 9).blk t).view.emb (ix2 p q) = ix2 P q := by
  obtain ⟨-, -, -, -, -, -, e0, e1⟩ := idx5_out t
  funext a; apply Fin.ext
  match a with
  | ⟨0, _⟩ => show win5_9.index t (0 : Fin 2) * 512 + 1 * p.val = P.val; omega
  | ⟨1, _⟩ => show win5_9.index t (1 : Fin 2) * 500 + 1 * q.val = q.val; omega

/-- The adjacency block at point `t`, read at `(p, k)`: the array at row `512 t + p`. -/
theorem iblk5_0_apply (c : Dev nD) (t : Fin cfg5.N) (p : Fin 512) (k : Fin 4096) (P : Fin 4096)
    (hP : P.val = t.val * 512 + p.val) :
    iblk5 V c 0 t (ix2 p k) = V c (Pipeline.arrRef spec5 0) (ix2 P k) := by
  show V c (Pipeline.arrRef spec5 0) (((cfg5.win 0).blk t).view.emb (ix2 p k)) = _
  rw [emb5_0 t p k P hP]

/-- Each whole-array window's block at any point is the array. -/
theorem iblk5_1_eq (c : Dev nD) (t : Fin cfg5.N) : iblk5 V c 1 t = V c (Pipeline.arrRef spec5 1) := by
  funext j
  obtain ⟨k, cc, rfl⟩ : ∃ (k : Fin 4096) (cc : Fin 256), j = ix2 k cc := ⟨j 0, j 1, eq_ix2 (n0 := 4096) (n1 := 256) j⟩
  show V c (Pipeline.arrRef spec5 1) (((cfg5.win 1).blk t).view.emb (ix2 k cc)) = _
  rw [emb5_1 t k cc]

theorem iblk5_2_eq (c : Dev nD) (t : Fin cfg5.N) : iblk5 V c 2 t = V c (Pipeline.arrRef spec5 2) := by
  funext j
  obtain ⟨k, q, rfl⟩ : ∃ (k : Fin 10) (q : Fin 10), j = ix2 k q := ⟨j 0, j 1, eq_ix2 (n0 := 10) (n1 := 10) j⟩
  show V c (Pipeline.arrRef spec5 2) (((cfg5.win 2).blk t).view.emb (ix2 k q)) = _
  rw [emb5_2 t k q]

theorem iblk5_3_eq (c : Dev nD) (t : Fin cfg5.N) : iblk5 V c 3 t = V c (Pipeline.arrRef spec5 3) := by
  funext j
  obtain ⟨k, l, rfl⟩ : ∃ (k : Fin 10) (l : Fin 2000), j = ix2 k l := ⟨j 0, j 1, eq_ix2 (n0 := 10) (n1 := 2000) j⟩
  show V c (Pipeline.arrRef spec5 3) (((cfg5.win 3).blk t).view.emb (ix2 k l)) = _
  rw [emb5_3 t k l]

theorem iblk5_4_eq (c : Dev nD) (t : Fin cfg5.N) : iblk5 V c 4 t = V c (Pipeline.arrRef spec5 4) := by
  funext j
  obtain ⟨l, q, rfl⟩ : ∃ (l : Fin 2000) (q : Fin 500), j = ix2 l q := ⟨j 0, j 1, eq_ix2 (n0 := 2000) (n1 := 500) j⟩
  show V c (Pipeline.arrRef spec5 4) (((cfg5.win 4).blk t).view.emb (ix2 l q)) = _
  rw [emb5_4 t l q]

theorem iblk5_5_eq (c : Dev nD) (t : Fin cfg5.N) : iblk5 V c 5 t = V c (Pipeline.arrRef spec5 5) := by
  funext j
  obtain ⟨k, q, rfl⟩ : ∃ (k : Fin 10) (q : Fin 10), j = ix2 k q := ⟨j 0, j 1, eq_ix2 (n0 := 10) (n1 := 10) j⟩
  show V c (Pipeline.arrRef spec5 5) (((cfg5.win 5).blk t).view.emb (ix2 k q)) = _
  rw [emb5_5 t k q]

set_option maxHeartbeats 1000000 in
/-- What point `t` writes back to the rectified projection is block `t` of `G5_6`. -/
theorem flushed5_6_eq (c : Dev nD) (t : Fin cfg5.N) :
    (dat5 (F := Ideal) V c).flushed 6 t
      = ((cfg5.win 6).blk t).view.read (Elt Ideal)
          (G5_6 (V c (Pipeline.arrRef spec5 0)) (V c (Pipeline.arrRef spec5 1)) (V c (Pipeline.arrRef spec5 2))) := by
  show (cfg5.win 6).cut (grid5.coords t) ((dat5 V c).after 6 t) = _
  rw [after5_6]
  unfold out5_6
  rw [View.canon_unit_zero hz5]
  simp only [View.ld_unit_zero (S := S512x4096) hz5, View.ld_unit_zero (S := S4096x256) hz5,
    View.ld_unit_zero (S := S10x10) hz5]
  funext j
  obtain ⟨p, q, rfl⟩ : ∃ (p : Fin 512) (q : Fin 10), j = ix2 p q := ⟨j 0, j 1, eq_ix2 (n0 := 512) (n1 := 10) j⟩
  have ht : t.val < 8 := lt_of_lt_of_eq t.isLt N_5
  have hP : t.val * 512 + p.val < 4096 := by have := p.isLt; omega
  show k5_pay8 (iblk5 V c 0 t) (iblk5 V c 1 t) (iblk5 V c 2 t) (ix2 p q)
    = G5_6 (V c (Pipeline.arrRef spec5 0)) (V c (Pipeline.arrRef spec5 1)) (V c (Pipeline.arrRef spec5 2))
        (((cfg5.win 6).blk t).view.emb (ix2 p q))
  rw [emb5_6 t p q ⟨t.val * 512 + p.val, hP⟩ rfl]
  exact point5_6 _ _ _ _ _ _ p q ⟨t.val * 512 + p.val, hP⟩
    (fun k => iblk5_0_apply V c t p k ⟨t.val * 512 + p.val, hP⟩ rfl) (iblk5_1_eq V c t) (iblk5_2_eq V c t)

set_option maxHeartbeats 1000000 in
/-- What point `t` writes back to the propagated latent is block `t` of `G5_7`. -/
theorem flushed5_7_eq (c : Dev nD) (t : Fin cfg5.N) :
    (dat5 (F := Ideal) V c).flushed 7 t
      = ((cfg5.win 7).blk t).view.read (Elt Ideal)
          (G5_7 (V c (Pipeline.arrRef spec5 0)) (V c (Pipeline.arrRef spec5 1))) := by
  show (cfg5.win 7).cut (grid5.coords t) ((dat5 V c).after 7 t) = _
  rw [after5_7]
  unfold out5_7
  rw [View.canon_unit_zero hz5]
  simp only [View.ld_unit_zero (S := S512x4096) hz5, View.ld_unit_zero (S := S4096x256) hz5]
  funext j
  obtain ⟨p, q, rfl⟩ : ∃ (p : Fin 512) (q : Fin 10), j = ix2 p q := ⟨j 0, j 1, eq_ix2 (n0 := 512) (n1 := 10) j⟩
  have ht : t.val < 8 := lt_of_lt_of_eq t.isLt N_5
  have hP : t.val * 512 + p.val < 4096 := by have := p.isLt; omega
  show k5_pay7 (iblk5 V c 0 t) (iblk5 V c 1 t) (ix2 p q)
    = G5_7 (V c (Pipeline.arrRef spec5 0)) (V c (Pipeline.arrRef spec5 1)) (((cfg5.win 7).blk t).view.emb (ix2 p q))
  rw [emb5_7 t p q ⟨t.val * 512 + p.val, hP⟩ rfl]
  exact point5_7 _ _ _ _ p q ⟨t.val * 512 + p.val, hP⟩
    (fun k => iblk5_0_apply V c t p k ⟨t.val * 512 + p.val, hP⟩ rfl) (iblk5_1_eq V c t)

set_option maxHeartbeats 1000000 in
/-- What point `t` writes back to the soft assignment is block `t` of `G5_8`. -/
theorem flushed5_8_eq (c : Dev nD) (t : Fin cfg5.N) :
    (dat5 (F := Ideal) V c).flushed 8 t
      = ((cfg5.win 8).blk t).view.read (Elt Ideal)
          (G5_8 (V c (Pipeline.arrRef spec5 0)) (V c (Pipeline.arrRef spec5 1)) (V c (Pipeline.arrRef spec5 5))) := by
  show (cfg5.win 8).cut (grid5.coords t) ((dat5 V c).after 8 t) = _
  rw [after5_8]
  unfold out5_8
  rw [View.canon_unit_zero hz5]
  simp only [View.ld_unit_zero (S := S512x4096) hz5, View.ld_unit_zero (S := S4096x256) hz5,
    View.ld_unit_zero (S := S10x10) hz5]
  funext j
  obtain ⟨p, q, rfl⟩ : ∃ (p : Fin 512) (q : Fin 10), j = ix2 p q := ⟨j 0, j 1, eq_ix2 (n0 := 512) (n1 := 10) j⟩
  have ht : t.val < 8 := lt_of_lt_of_eq t.isLt N_5
  have hP : t.val * 512 + p.val < 4096 := by have := p.isLt; omega
  show k5_pay1 (k5_pay9 (iblk5 V c 0 t) (iblk5 V c 1 t) (iblk5 V c 5 t)) (ix2 p q)
    = G5_8 (V c (Pipeline.arrRef spec5 0)) (V c (Pipeline.arrRef spec5 1)) (V c (Pipeline.arrRef spec5 5))
        (((cfg5.win 8).blk t).view.emb (ix2 p q))
  rw [emb5_8 t p q ⟨t.val * 512 + p.val, hP⟩ rfl]
  exact point5_8 _ _ _ _ _ _ p q ⟨t.val * 512 + p.val, hP⟩
    (fun k => iblk5_0_apply V c t p k ⟨t.val * 512 + p.val, hP⟩ rfl) (iblk5_1_eq V c t) (iblk5_5_eq V c t)

set_option maxHeartbeats 1000000 in
/-- What point `t` writes back to the next sweep's operand is block `t` of `G5_9`. -/
theorem flushed5_9_eq (c : Dev nD) (t : Fin cfg5.N) :
    (dat5 (F := Ideal) V c).flushed 9 t
      = ((cfg5.win 9).blk t).view.read (Elt Ideal)
          (G5_9 (V c (Pipeline.arrRef spec5 0)) (V c (Pipeline.arrRef spec5 1)) (V c (Pipeline.arrRef spec5 3))
            (V c (Pipeline.arrRef spec5 4))) := by
  show (cfg5.win 9).cut (grid5.coords t) ((dat5 V c).after 9 t) = _
  rw [after5_9]
  unfold out5_9
  rw [View.canon_unit_zero hz5]
  simp only [View.ld_unit_zero (S := S512x4096) hz5, View.ld_unit_zero (S := S4096x256) hz5,
    View.ld_unit_zero (S := S10x2000) hz5, View.ld_unit_zero (S := S2000x500) hz5]
  funext j
  obtain ⟨p, q, rfl⟩ : ∃ (p : Fin 512) (q : Fin 500), j = ix2 p q := ⟨j 0, j 1, eq_ix2 (n0 := 512) (n1 := 500) j⟩
  have ht : t.val < 8 := lt_of_lt_of_eq t.isLt N_5
  have hP : t.val * 512 + p.val < 4096 := by have := p.isLt; omega
  show k5_pay2 (k5_pay4 (iblk5 V c 3 t)) (k5_pay5 (iblk5 V c 4 t)) (k5_pay6 (iblk5 V c 0 t) (iblk5 V c 1 t)) (ix2 p q)
    = G5_9 (V c (Pipeline.arrRef spec5 0)) (V c (Pipeline.arrRef spec5 1)) (V c (Pipeline.arrRef spec5 3))
        (V c (Pipeline.arrRef spec5 4)) (((cfg5.win 9).blk t).view.emb (ix2 p q))
  rw [emb5_9 t p q ⟨t.val * 512 + p.val, hP⟩ rfl]
  exact point5_9 _ _ _ _ _ _ _ _ p q ⟨t.val * 512 + p.val, hP⟩
    (fun k => iblk5_0_apply V c t p k ⟨t.val * 512 + p.val, hP⟩ rfl) (iblk5_1_eq V c t) (iblk5_3_eq V c t)
    (iblk5_4_eq V c t)

/-- An entry of a result array lies in point `t`'s block iff each coordinate lies in the block's range. -/
theorem mem_blk5_6 (t : Fin cfg5.N) (i : S4096x10.Idx) :
    i ∈ ((cfg5.win 6).blk t).view.set ↔ ∀ a : Fin 2, win5_6.index t a * S512x10.size a ≤ (i a).val
      ∧ (i a).val < win5_6.index t a * S512x10.size a + S512x10.size a := by
  show i ∈ ((View.whole main_v31_0).slice (win5_6.rect t)).set ↔ _
  rw [View.set_slice_whole, Rect.mem_set_unit]
  exact Iff.rfl

theorem mem_blk5_7 (t : Fin cfg5.N) (i : S4096x10.Idx) :
    i ∈ ((cfg5.win 7).blk t).view.set ↔ ∀ a : Fin 2, win5_7.index t a * S512x10.size a ≤ (i a).val
      ∧ (i a).val < win5_7.index t a * S512x10.size a + S512x10.size a := by
  show i ∈ ((View.whole main_v31_1).slice (win5_7.rect t)).set ↔ _
  rw [View.set_slice_whole, Rect.mem_set_unit]
  exact Iff.rfl

theorem mem_blk5_8 (t : Fin cfg5.N) (i : S4096x10.Idx) :
    i ∈ ((cfg5.win 8).blk t).view.set ↔ ∀ a : Fin 2, win5_8.index t a * S512x10.size a ≤ (i a).val
      ∧ (i a).val < win5_8.index t a * S512x10.size a + S512x10.size a := by
  show i ∈ ((View.whole main_v31_2).slice (win5_8.rect t)).set ↔ _
  rw [View.set_slice_whole, Rect.mem_set_unit]
  exact Iff.rfl

theorem mem_blk5_9 (t : Fin cfg5.N) (i : S4096x500.Idx) :
    i ∈ ((cfg5.win 9).blk t).view.set ↔ ∀ a : Fin 2, win5_9.index t a * S512x500.size a ≤ (i a).val
      ∧ (i a).val < win5_9.index t a * S512x500.size a + S512x500.size a := by
  show i ∈ ((View.whole main_v31_3).slice (win5_9.rect t)).set ↔ _
  rw [View.set_slice_whole, Rect.mem_set_unit]
  exact Iff.rfl

/-- Every entry of a result array is in some point's block: row `P` is covered by point `P / 512`. -/
theorem covered5_6 (i : S4096x10.Idx) :
    ∃ t : Fin cfg5.N, (cfg5.win 6).flush t = true ∧ i ∈ ((cfg5.win 6).blk t).view.set := by
  have hi0 : (i 0).val < 4096 := (i 0).isLt
  have hi1 : (i 1).val < 10 := (i 1).isLt
  obtain ⟨t, ht⟩ : ∃ t : Fin cfg5.N, t.val = (i 0).val / 512 :=
    ⟨⟨(i 0).val / 512, lt_of_lt_of_eq (show (i 0).val / 512 < 8 by omega) N_5.symm⟩, rfl⟩
  obtain ⟨e0, e1, -⟩ := idx5_out t
  refine ⟨t, flush5_6 t, ?_⟩
  rw [mem_blk5_6]
  intro a
  match a with
  | ⟨0, _⟩ =>
    show win5_6.index t (0 : Fin 2) * 512 ≤ (i 0).val ∧ (i 0).val < win5_6.index t (0 : Fin 2) * 512 + 512
    omega
  | ⟨1, _⟩ =>
    show win5_6.index t (1 : Fin 2) * 10 ≤ (i 1).val ∧ (i 1).val < win5_6.index t (1 : Fin 2) * 10 + 10
    omega

theorem covered5_7 (i : S4096x10.Idx) :
    ∃ t : Fin cfg5.N, (cfg5.win 7).flush t = true ∧ i ∈ ((cfg5.win 7).blk t).view.set := by
  have hi0 : (i 0).val < 4096 := (i 0).isLt
  have hi1 : (i 1).val < 10 := (i 1).isLt
  obtain ⟨t, ht⟩ : ∃ t : Fin cfg5.N, t.val = (i 0).val / 512 :=
    ⟨⟨(i 0).val / 512, lt_of_lt_of_eq (show (i 0).val / 512 < 8 by omega) N_5.symm⟩, rfl⟩
  obtain ⟨-, -, e0, e1, -⟩ := idx5_out t
  refine ⟨t, flush5_7 t, ?_⟩
  rw [mem_blk5_7]
  intro a
  match a with
  | ⟨0, _⟩ =>
    show win5_7.index t (0 : Fin 2) * 512 ≤ (i 0).val ∧ (i 0).val < win5_7.index t (0 : Fin 2) * 512 + 512
    omega
  | ⟨1, _⟩ =>
    show win5_7.index t (1 : Fin 2) * 10 ≤ (i 1).val ∧ (i 1).val < win5_7.index t (1 : Fin 2) * 10 + 10
    omega

theorem covered5_8 (i : S4096x10.Idx) :
    ∃ t : Fin cfg5.N, (cfg5.win 8).flush t = true ∧ i ∈ ((cfg5.win 8).blk t).view.set := by
  have hi0 : (i 0).val < 4096 := (i 0).isLt
  have hi1 : (i 1).val < 10 := (i 1).isLt
  obtain ⟨t, ht⟩ : ∃ t : Fin cfg5.N, t.val = (i 0).val / 512 :=
    ⟨⟨(i 0).val / 512, lt_of_lt_of_eq (show (i 0).val / 512 < 8 by omega) N_5.symm⟩, rfl⟩
  obtain ⟨-, -, -, -, e0, e1, -⟩ := idx5_out t
  refine ⟨t, flush5_8 t, ?_⟩
  rw [mem_blk5_8]
  intro a
  match a with
  | ⟨0, _⟩ =>
    show win5_8.index t (0 : Fin 2) * 512 ≤ (i 0).val ∧ (i 0).val < win5_8.index t (0 : Fin 2) * 512 + 512
    omega
  | ⟨1, _⟩ =>
    show win5_8.index t (1 : Fin 2) * 10 ≤ (i 1).val ∧ (i 1).val < win5_8.index t (1 : Fin 2) * 10 + 10
    omega

theorem covered5_9 (i : S4096x500.Idx) :
    ∃ t : Fin cfg5.N, (cfg5.win 9).flush t = true ∧ i ∈ ((cfg5.win 9).blk t).view.set := by
  have hi0 : (i 0).val < 4096 := (i 0).isLt
  have hi1 : (i 1).val < 500 := (i 1).isLt
  obtain ⟨t, ht⟩ : ∃ t : Fin cfg5.N, t.val = (i 0).val / 512 :=
    ⟨⟨(i 0).val / 512, lt_of_lt_of_eq (show (i 0).val / 512 < 8 by omega) N_5.symm⟩, rfl⟩
  obtain ⟨-, -, -, -, -, -, e0, e1⟩ := idx5_out t
  refine ⟨t, flush5_9 t, ?_⟩
  rw [mem_blk5_9]
  intro a
  match a with
  | ⟨0, _⟩ =>
    show win5_9.index t (0 : Fin 2) * 512 ≤ (i 0).val ∧ (i 0).val < win5_9.index t (0 : Fin 2) * 512 + 512
    omega
  | ⟨1, _⟩ =>
    show win5_9.index t (1 : Fin 2) * 500 ≤ (i 1).val ∧ (i 1).val < win5_9.index t (1 : Fin 2) * 500 + 500
    omega

/-- The four result arrays after the region. -/
theorem final5_6 (c : Dev nD) :
    (dat5 (F := Ideal) V c).arrAt 6 cfg5.N
      = G5_6 (V c (Pipeline.arrRef spec5 0)) (V c (Pipeline.arrRef spec5 1)) (V c (Pipeline.arrRef spec5 2)) :=
  (dat5 (F := Ideal) V c).arrAt_eq_of_cover 6
    (G5_6 (V c (Pipeline.arrRef spec5 0)) (V c (Pipeline.arrRef spec5 1)) (V c (Pipeline.arrRef spec5 2)))
    (fun t _ => flushed5_6_eq V c t) covered5_6

theorem final5_7 (c : Dev nD) :
    (dat5 (F := Ideal) V c).arrAt 7 cfg5.N = G5_7 (V c (Pipeline.arrRef spec5 0)) (V c (Pipeline.arrRef spec5 1)) :=
  (dat5 (F := Ideal) V c).arrAt_eq_of_cover 7
    (G5_7 (V c (Pipeline.arrRef spec5 0)) (V c (Pipeline.arrRef spec5 1)))
    (fun t _ => flushed5_7_eq V c t) covered5_7

theorem final5_8 (c : Dev nD) :
    (dat5 (F := Ideal) V c).arrAt 8 cfg5.N
      = G5_8 (V c (Pipeline.arrRef spec5 0)) (V c (Pipeline.arrRef spec5 1)) (V c (Pipeline.arrRef spec5 5)) :=
  (dat5 (F := Ideal) V c).arrAt_eq_of_cover 8
    (G5_8 (V c (Pipeline.arrRef spec5 0)) (V c (Pipeline.arrRef spec5 1)) (V c (Pipeline.arrRef spec5 5)))
    (fun t _ => flushed5_8_eq V c t) covered5_8

theorem final5_9 (c : Dev nD) :
    (dat5 (F := Ideal) V c).arrAt 9 cfg5.N
      = G5_9 (V c (Pipeline.arrRef spec5 0)) (V c (Pipeline.arrRef spec5 1)) (V c (Pipeline.arrRef spec5 3))
          (V c (Pipeline.arrRef spec5 4)) :=
  (dat5 (F := Ideal) V c).arrAt_eq_of_cover 9
    (G5_9 (V c (Pipeline.arrRef spec5 0)) (V c (Pipeline.arrRef spec5 1)) (V c (Pipeline.arrRef spec5 3))
      (V c (Pipeline.arrRef spec5 4)))
    (fun t _ => flushed5_9_eq V c t) covered5_9

/-! ## 3. Over the reals

The adjacency is the coercion of `ADJ`; the packed operand is the coercion of the packing of `Z` and `R`; so the
first piece of a row of the swept product is a row of `ADJ · Z`, the second a row of `ADJ · R`, and their sum a
row of `H = ADJ · Z + ADJ · R`. -/

section Real

variable (a : Vec Ideal S4096x4096 .bf16) (azr : Vec Ideal S4096x256 .bf16)
  (ADJ : RealNet.M 4096 4096) (Z R : RealNet.M 4096 10)
  (hA : ∀ (p k : Fin 4096), a (ix2 p k) = ((ADJ p k : ℝ) : EReal))
  (hAZR : ∀ (k : Fin 4096) (cc : Fin 256), azr (ix2 k cc) = ((RealNet.packZR Z R k cc : ℝ) : EReal))

include hA hAZR

/-- A row of the swept product over the reals. -/
theorem sw5_real (p : Fin 4096) (cc : Fin 256) :
    sw5 a azr p cc = (((ADJ * RealNet.packZR Z R) p cc : ℝ) : EReal) :=
  IdealMatmul.sum_mul_eq_coe_mul ADJ (RealNet.packZR Z R) p cc _ _ (fun k => hA p k) (fun k => hAZR k cc)

/-- The first piece over the reals: a row of `ADJ · Z`. -/
theorem t1Row5_real (p : Fin 4096) (q : Fin 10) :
    t1Row5 (sw5 a azr p) q = (((ADJ * Z) p q : ℝ) : EReal) := by
  unfold t1Row5
  rw [sw5_real a azr ADJ Z R hA hAZR, RealNet.mul_packZR_left ADJ Z R p q _ rfl]

/-- The sum of the two pieces over the reals: a row of `ADJ · Z + ADJ · R`. -/
theorem zlRow5_real (p : Fin 4096) (q : Fin 10) :
    zlRow5 (sw5 a azr p) q = (((ADJ * Z + ADJ * R) p q : ℝ) : EReal) := by
  unfold zlRow5
  rw [sw5_real a azr ADJ Z R hA hAZR, sw5_real a azr ADJ Z R hA hAZR, RealNet.mul_packZR_left ADJ Z R p q _ rfl,
    RealNet.mul_packZR_right ADJ Z R p q _ rfl, RealNet.lift_add]
  rfl

/-- The rectified projection over the reals. -/
theorem arRow5_real (g5 : Vec Ideal S10x10 .bf16) (G5 : RealNet.M 10 10)
    (hG5 : ∀ (j q : Fin 10), g5 (ix2 j q) = ((G5 j q : ℝ) : EReal)) (p : Fin 4096) (q : Fin 10) :
    arRow5 (sw5 a azr p) g5 q = ((RealNet.relu ((ADJ * Z + ADJ * R) * G5) p q : ℝ) : EReal) := by
  unfold arRow5
  rw [IdealMatmul.sum_mul_eq_coe_mul (ADJ * Z + ADJ * R) G5 p q _ _
    (fun j => zlRow5_real a azr ADJ Z R hA hAZR p j) (fun j => hG5 j q), RealNet.lift_max_zero]
  rfl

/-- The next sweep's operand over the reals. -/
theorem u7Row5_real (g6 : Vec Ideal S10x2000 .bf16) (g7 : Vec Ideal S2000x500 .bf16)
    (G6 : RealNet.M 10 2000) (G7 : RealNet.M 2000 500)
    (hG6 : ∀ (j : Fin 10) (l : Fin 2000), g6 (ix2 j l) = ((G6 j l : ℝ) : EReal))
    (hG7 : ∀ (l : Fin 2000) (q : Fin 500), g7 (ix2 l q) = ((G7 l q : ℝ) : EReal)) (p : Fin 4096) (q : Fin 500) :
    u7Row5 (sw5 a azr p) g6 g7 q = (((RealNet.relu ((ADJ * Z) * G6) * G7) p q : ℝ) : EReal) := by
  unfold u7Row5
  refine IdealMatmul.sum_mul_eq_coe_mul (RealNet.relu ((ADJ * Z) * G6)) G7 p q _ _ (fun l => ?_) (fun l => hG7 l q)
  rw [IdealMatmul.sum_mul_eq_coe_mul (ADJ * Z) G6 p l _ _
    (fun j => t1Row5_real a azr ADJ Z R hA hAZR p j) (fun j => hG6 j l), RealNet.lift_max_zero]
  rfl

/-- The Student-t kernel over the reals: the kernel from the expanded squared distance of `H = ADJ · Z + ADJ · R`
    to the centres `C`, whose transpose the array `ct` holds. -/
theorem tkRow5_real (ct : Vec Ideal S10x10 .f32) (C : RealNet.M 10 10)
    (hCT : ∀ (l j : Fin 10), ct (ix2 l j) = ((Matrix.transpose C l j : ℝ) : EReal)) (p : Fin 4096) (q : Fin 10) :
    tkRow5 (sw5 a azr p) ct q = ((RealNet.tKernelExpanded (ADJ * Z + ADJ * R) C p q : ℝ) : EReal) := by
  have s1 : (∑ j : Fin 10, zlRow5 (sw5 a azr p) j * zlRow5 (sw5 a azr p) j)
      = ∑ l, RealNet.coeM (ADJ * Z + ADJ * R) p l * RealNet.coeM (ADJ * Z + ADJ * R) p l :=
    Finset.sum_congr rfl fun j _ => by rw [zlRow5_real a azr ADJ Z R hA hAZR p j]; rfl
  have s2 : (∑ j : Fin 10, zlRow5 (sw5 a azr p) j * ct (ix2 j q))
      = RealNet.coeM ((ADJ * Z + ADJ * R) * Matrix.transpose C) p q :=
    IdealMatmul.sum_mul_eq_coe_mul (ADJ * Z + ADJ * R) (Matrix.transpose C) p q _ _
      (fun j => zlRow5_real a azr ADJ Z R hA hAZR p j) (fun j => hCT j q)
  have s3 : (∑ j : Fin 10, ct (ix2 j q) * ct (ix2 j q))
      = ∑ l, RealNet.coeM (Matrix.transpose C) l q * RealNet.coeM (Matrix.transpose C) l q :=
    Finset.sum_congr rfl fun j _ => by rw [hCT j q]; rfl
  show Ideal.div (Ideal.ofBits .f32 0x3F800000#32) (Ideal.ofBits .f32 0x3F800000#32
      + ((∑ j : Fin 10, zlRow5 (sw5 a azr p) j * zlRow5 (sw5 a azr p) j)
        - Ideal.ofBits .f32 0x40000000#32 * (∑ j : Fin 10, zlRow5 (sw5 a azr p) j * ct (ix2 j q))
        + ∑ j : Fin 10, ct (ix2 j q) * ct (ix2 j q))) = _
  rw [s1, s2, s3, RealNet.ofBits_f32_one, RealNet.ofBits_f32_two]
  exact RealNet.lift_tKernelExpanded_apply (ADJ * Z + ADJ * R) C p q

/-- The soft assignment over the reals. -/
theorem qRow5_real (ct : Vec Ideal S10x10 .f32) (C : RealNet.M 10 10)
    (hCT : ∀ (l j : Fin 10), ct (ix2 l j) = ((Matrix.transpose C l j : ℝ) : EReal)) (p : Fin 4096) (q : Fin 10) :
    qRow5 (sw5 a azr p) ct q = ((RealNet.softAssignExpanded (ADJ * Z + ADJ * R) C p q : ℝ) : EReal) := by
  unfold qRow5
  simp only [tkRow5_real a azr ADJ Z R hA hAZR ct C hCT]
  exact RealNet.lift_softAssignExpanded_apply (by norm_num) (ADJ * Z + ADJ * R) C p q

end Real

/-- The rectified projection after the region, over the reals: `relu ((ADJ · Z + ADJ · R) · G5)`. -/
theorem final5_6_real (c : Dev nD) (ADJ : RealNet.M 4096 4096) (Z R : RealNet.M 4096 10) (G5 : RealNet.M 10 10)
    (hA : ∀ (p k : Fin 4096), V c (Pipeline.arrRef spec5 0) (ix2 p k) = ((ADJ p k : ℝ) : EReal))
    (hAZR : ∀ (k : Fin 4096) (cc : Fin 256),
      V c (Pipeline.arrRef spec5 1) (ix2 k cc) = ((RealNet.packZR Z R k cc : ℝ) : EReal))
    (hG5 : ∀ (j q : Fin 10), V c (Pipeline.arrRef spec5 2) (ix2 j q) = ((G5 j q : ℝ) : EReal))
    (p : Fin 4096) (q : Fin 10) :
    (dat5 (F := Ideal) V c).arrAt 6 cfg5.N (ix2 p q)
      = ((RealNet.relu ((ADJ * Z + ADJ * R) * G5) p q : ℝ) : EReal) :=
  (congrFun (final5_6 V c) (ix2 p q)).trans (arRow5_real _ _ ADJ Z R hA hAZR _ G5 hG5 p q)

/-- The propagated latent after the region, over the reals: `ADJ · Z + ADJ · R`. -/
theorem final5_7_real (c : Dev nD) (ADJ : RealNet.M 4096 4096) (Z R : RealNet.M 4096 10)
    (hA : ∀ (p k : Fin 4096), V c (Pipeline.arrRef spec5 0) (ix2 p k) = ((ADJ p k : ℝ) : EReal))
    (hAZR : ∀ (k : Fin 4096) (cc : Fin 256),
      V c (Pipeline.arrRef spec5 1) (ix2 k cc) = ((RealNet.packZR Z R k cc : ℝ) : EReal))
    (p : Fin 4096) (q : Fin 10) :
    (dat5 (F := Ideal) V c).arrAt 7 cfg5.N (ix2 p q) = (((ADJ * Z + ADJ * R) p q : ℝ) : EReal) :=
  (congrFun (final5_7 V c) (ix2 p q)).trans (zlRow5_real _ _ ADJ Z R hA hAZR p q)

/-- The soft assignment after the region, over the reals: the expanded soft assignment of `ADJ · Z + ADJ · R`
    against the centres `C`, whose transpose the sixth array holds. -/
theorem final5_8_real (c : Dev nD) (ADJ : RealNet.M 4096 4096) (Z R : RealNet.M 4096 10) (C : RealNet.M 10 10)
    (hA : ∀ (p k : Fin 4096), V c (Pipeline.arrRef spec5 0) (ix2 p k) = ((ADJ p k : ℝ) : EReal))
    (hAZR : ∀ (k : Fin 4096) (cc : Fin 256),
      V c (Pipeline.arrRef spec5 1) (ix2 k cc) = ((RealNet.packZR Z R k cc : ℝ) : EReal))
    (hCT : ∀ (l j : Fin 10), V c (Pipeline.arrRef spec5 5) (ix2 l j) = ((Matrix.transpose C l j : ℝ) : EReal))
    (p : Fin 4096) (q : Fin 10) :
    (dat5 (F := Ideal) V c).arrAt 8 cfg5.N (ix2 p q)
      = ((RealNet.softAssignExpanded (ADJ * Z + ADJ * R) C p q : ℝ) : EReal) :=
  (congrFun (final5_8 V c) (ix2 p q)).trans (qRow5_real _ _ ADJ Z R hA hAZR _ C hCT p q)

/-- The next sweep's operand after the region, over the reals: `relu ((ADJ · Z) · G6) · G7`. -/
theorem final5_9_real (c : Dev nD) (ADJ : RealNet.M 4096 4096) (Z R : RealNet.M 4096 10)
    (G6 : RealNet.M 10 2000) (G7 : RealNet.M 2000 500)
    (hA : ∀ (p k : Fin 4096), V c (Pipeline.arrRef spec5 0) (ix2 p k) = ((ADJ p k : ℝ) : EReal))
    (hAZR : ∀ (k : Fin 4096) (cc : Fin 256),
      V c (Pipeline.arrRef spec5 1) (ix2 k cc) = ((RealNet.packZR Z R k cc : ℝ) : EReal))
    (hG6 : ∀ (j : Fin 10) (l : Fin 2000), V c (Pipeline.arrRef spec5 3) (ix2 j l) = ((G6 j l : ℝ) : EReal))
    (hG7 : ∀ (l : Fin 2000) (q : Fin 500), V c (Pipeline.arrRef spec5 4) (ix2 l q) = ((G7 l q : ℝ) : EReal))
    (p : Fin 4096) (q : Fin 500) :
    (dat5 (F := Ideal) V c).arrAt 9 cfg5.N (ix2 p q)
      = (((RealNet.relu ((ADJ * Z) * G6) * G7) p q : ℝ) : EReal) :=
  (congrFun (final5_9 V c) (ix2 p q)).trans (u7Row5_real _ _ ADJ Z R hA hAZR _ _ G6 G7 hG6 hG7 p q)

end Cert.KernelIdeal.HandValue

end
-- ==== Proof.KernelIdealV6.lean ====
/-
  The sweep that follows an adjacency product by a 500 × 500 layer, read as values at the exact instance.

  One grid point of the sweep takes a block of 512 rows of the adjacency `a`, the whole operand `u` and the
  whole weight `w`, and leaves the 512 rows of `max (a · u) 0 · w`.  This module reads that off in three
  steps: the body's arithmetic at one entry of the block; the eight blocks put together as one function of
  the three arrays, entry by entry; and the same over the reals when the three arrays are coercions of real
  matrices.
-/
import proofs.«140843_g75050258530825_cont_9to1_m_403_24_alg».proof.Proof.KernelIdealR6
import proofs.«140843_g75050258530825_cont_9to1_m_403_24_alg».proof.Proof.KernelIdealVMatmul
import proofs.«140843_g75050258530825_cont_9to1_m_403_24_alg».proof.Proof.LibRealLift
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 1. The body's arithmetic at one entry -/

/-- The body's stored value at entry `(p, q)` of the block: the rectified first product, contracted with the
    weight, `∑ l, max (∑ k, x0 (p, k) · x1 (k, l)) 0 · x2 (l, q)`.  (The shape casts are identities, both
    accumulators are the zero word, and the two narrowing changes of format are the identity at the exact
    instance.) -/
theorem pay6_1_apply (x0 : Vec Ideal S512x4096 .bf16) (x1 : Vec Ideal S4096x500 .bf16) (x2 : Vec Ideal S500x500 .bf16)
    (p : Fin 512) (q : Fin 500) :
    k6_pay1 x0 x1 x2 (ix2 p q)
      = ∑ l : Fin 500, max (∑ k : Fin 4096, x0 (ix2 p k) * x1 (ix2 k l)) 0 * x2 (ix2 l q) := by
  unfold k6_pay1
  simp only [shapeCast_self]
  show FloatOps.matmul (φ₁ := .bf16) (φ₂ := .bf16) dotHW500 none
      ((fun i => max (FloatOps.matmul dotAU500 none x0 x1 (constant (F := Ideal) S512x500 .f32 0x00000000#32) i)
        (Ideal.ofBits .f32 0x00000000#32)) : FVec Ideal S512x500 .bf16)
      x2 (constant (F := Ideal) S512x500 .f32 0x00000000#32) (ix2 p q) = _
  rw [matmulHW500_apply]
  refine Finset.sum_congr rfl fun l _ => ?_
  rw [matmulAU500_apply, Ideal.ofBits_zero_f32]

/-! ## 2. The eight blocks as one function of the three arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz6 : (![0, 0] : Fin 2 → Nat) = fun _ => 0 := funext fun a => by fin_cases a <;> rfl

/-- The sweep's result as one function of the adjacency `a`, the operand `u` and the weight `w`, entry by
    entry: row `P` of the result uses row `P` of `a`, all of `u`, and column `Q` of `w`. -/
def G6_3 (a : Vec Ideal S4096x4096 .bf16) (u : Vec Ideal S4096x500 .bf16) (w : Vec Ideal S500x500 .bf16) :
    Vec Ideal S4096x500 .bf16 :=
  fun i => ∑ l : Fin 500, max (∑ k : Fin 4096, a (ix2 (⟨(i 0).val, (i 0).isLt⟩ : Fin 4096) k) * u (ix2 k l)) 0
      * w (ix2 l (⟨(i 1).val, (i 1).isLt⟩ : Fin 500))

/-- The result at entry `(P, Q)`. -/
theorem G6_3_apply (a : Vec Ideal S4096x4096 .bf16) (u : Vec Ideal S4096x500 .bf16) (w : Vec Ideal S500x500 .bf16)
    (P : Fin 4096) (Q : Fin 500) :
    G6_3 a u w (ix2 P Q) = ∑ l : Fin 500, max (∑ k : Fin 4096, a (ix2 P k) * u (ix2 k l)) 0 * w (ix2 l Q) := rfl

/-- One point, over variables: when the first block is row `P` of `a` along row `p`, the second is `u` and the
    third is `w` along column `q`, the body's value at `(p, q)` is the result at `(P, q)`. -/
theorem point6_3 (a : Vec Ideal S4096x4096 .bf16) (u : Vec Ideal S4096x500 .bf16) (w : Vec Ideal S500x500 .bf16)
    (x0 : Vec Ideal S512x4096 .bf16) (x1 : Vec Ideal S4096x500 .bf16) (x2 : Vec Ideal S500x500 .bf16)
    (p : Fin 512) (q : Fin 500) (P : Fin 4096)
    (h0 : ∀ k : Fin 4096, x0 (ix2 p k) = a (ix2 P k))
    (h1 : ∀ (k : Fin 4096) (l : Fin 500), x1 (ix2 k l) = u (ix2 k l))
    (h2 : ∀ l : Fin 500, x2 (ix2 l q) = w (ix2 l q)) :
    k6_pay1 x0 x1 x2 (ix2 p q) = G6_3 a u w (ix2 P q) := by
  rw [pay6_1_apply, G6_3_apply]
  refine Finset.sum_congr rfl fun l _ => ?_
  rw [h2 l]
  refine congrArg (fun s => max s 0 * w (ix2 l q)) (Finset.sum_congr rfl fun k _ => ?_)
  rw [h0 k, h1 k l]

/-- The printed index maps, decided once over the eight points: the adjacency's and the result's blocks are
    row block `t`; the operand's and the weight's blocks are the whole arrays. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Where the adjacency block's entry `(p, k)` at point `t` sits in the array: row `512 t + p`, column `k`. -/
theorem emb6_0 (t : Fin cfg6.N) (p : Fin 512) (k : Fin 4096) (P : Fin 4096) (hP : P.val = t.val * 512 + p.val) :
    ((cfg6.win 0).blk t).view.emb (ix2 p k) = ix2 P k := by
  obtain ⟨e0, e1, -⟩ := idx_facts6 t
  funext a; apply Fin.ext
  match a with
  | ⟨0, _⟩ => show win6_0.index t (0 : Fin 2) * 512 + 1 * p.val = P.val; omega
  | ⟨1, _⟩ => show win6_0.index t (1 : Fin 2) * 4096 + 1 * k.val = k.val; omega

/-- The operand's block is the whole array: entry `(k, l)` sits at `(k, l)`. -/
theorem emb6_1 (t : Fin cfg6.N) (k : Fin 4096) (l : Fin 500) :
    ((cfg6.win 1).blk t).view.emb (ix2 k l) = ix2 k l := by
  obtain ⟨-, -, e0, e1, -⟩ := idx_facts6 t
  funext a; apply Fin.ext
  match a with
  | ⟨0, _⟩ => show win6_1.index t (0 : Fin 2) * 4096 + 1 * k.val = k.val; omega
  | ⟨1, _⟩ => show win6_1.index t (1 : Fin 2) * 500 + 1 * l.val = l.val; omega

/-- The weight's block is the whole array: entry `(l, q)` sits at `(l, q)`. -/
theorem emb6_2 (t : Fin cfg6.N) (l : Fin 500) (q : Fin 500) :
    ((cfg6.win 2).blk t).view.emb (ix2 l q) = ix2 l q := by
  obtain ⟨-, -, -, -, e0, e1, -⟩ := idx_facts6 t
  funext a; apply Fin.ext
  match a with
  | ⟨0, _⟩ => show win6_2.index t (0 : Fin 2) * 500 + 1 * l.val = l.val; omega
  | ⟨1, _⟩ => show win6_2.index t (1 : Fin 2) * 500 + 1 * q.val = q.val; omega

/-- Where the result block's entry `(p, q)` at point `t` sits in the array: row `512 t + p`, column `q`. -/
theorem emb6_3 (t : Fin cfg6.N) (p : Fin 512) (q : Fin 500) (P : Fin 4096) (hP : P.val = t.val * 512 + p.val) :
    ((cfg6.win 3).blk t).view.emb (ix2 p q) = ix2 P q := by
  obtain ⟨-, -, -, -, -, -, e0, e1⟩ := idx_facts6 t
  funext a; apply Fin.ext
  match a with
  | ⟨0, _⟩ => show win6_3.index t (0 : Fin 2) * 512 + 1 * p.val = P.val; omega
  | ⟨1, _⟩ => show win6_3.index t (1 : Fin 2) * 500 + 1 * q.val = q.val; omega

/-- The adjacency block at point `t`, entry `(p, k)`, is the array's entry `(512 t + p, k)`. -/
theorem iblk6_0_apply (c : Dev nD) (t : Fin cfg6.N) (p : Fin 512) (k : Fin 4096) (P : Fin 4096)
    (hP : P.val = t.val * 512 + p.val) :
    iblk6 V c 0 t (ix2 p k) = V c (Pipeline.arrRef spec6 0) (ix2 P k) := by
  show V c (Pipeline.arrRef spec6 0) (((cfg6.win 0).blk t).view.emb (ix2 p k)) = _
  rw [emb6_0 t p k P hP]

/-- The operand block at any point is the operand array. -/
theorem iblk6_1_apply (c : Dev nD) (t : Fin cfg6.N) (k : Fin 4096) (l : Fin 500) :
    iblk6 V c 1 t (ix2 k l) = V c (Pipeline.arrRef spec6 1) (ix2 k l) := by
  show V c (Pipeline.arrRef spec6 1) (((cfg6.win 1).blk t).view.emb (ix2 k l)) = _
  rw [emb6_1 t k l]

/-- The weight block at any point is the weight array. -/
theorem iblk6_2_apply (c : Dev nD) (t : Fin cfg6.N) (l : Fin 500) (q : Fin 500) :
    iblk6 V c 2 t (ix2 l q) = V c (Pipeline.arrRef spec6 2) (ix2 l q) := by
  show V c (Pipeline.arrRef spec6 2) (((cfg6.win 2).blk t).view.emb (ix2 l q)) = _
  rw [emb6_2 t l q]

/-- What point `t` writes back is block `t` of the result of the three arrays as the region finds them. -/
theorem flushed6_3_eq (c : Dev nD) (t : Fin cfg6.N) :
    (dat6 (F := Ideal) V c).flushed 3 t
      = ((cfg6.win 3).blk t).view.read (Elt Ideal)
          (G6_3 (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz6]
  simp only [View.ld_unit_zero (S := S512x4096) hz6, View.ld_unit_zero (S := S4096x500) hz6,
    View.ld_unit_zero (S := S500x500) hz6]
  funext j
  obtain ⟨p, q, rfl⟩ : ∃ (p : Fin 512) (q : Fin 500), j = ix2 p q := ⟨j 0, j 1, eq_ix2 (n0 := 512) (n1 := 500) j⟩
  have ht : t.val < 8 := lt_of_lt_of_eq t.isLt N_6
  have hP : t.val * 512 + p.val < 4096 := by have := p.isLt; omega
  show k6_pay1 (iblk6 V c 0 t) (iblk6 V c 1 t) (iblk6 V c 2 t) (ix2 p q)
    = G6_3 (V c (Pipeline.arrRef spec6 0)) (V c (Pipeline.arrRef spec6 1)) (V c (Pipeline.arrRef spec6 2))
        (((cfg6.win 3).blk t).view.emb (ix2 p q))
  rw [emb6_3 t p q ⟨t.val * 512 + p.val, hP⟩ rfl]
  exact point6_3 _ _ _ _ _ _ p q ⟨t.val * 512 + p.val, hP⟩
    (fun k => iblk6_0_apply V c t p k ⟨t.val * 512 + p.val, hP⟩ rfl)
    (fun k l => iblk6_1_apply V c t k l) (fun l => iblk6_2_apply V c t l q)

/-- An entry of the array lies in point `t`'s result block iff each coordinate lies in the block's range. -/
theorem mem_blk6_3 (t : Fin cfg6.N) (i : S4096x500.Idx) :
    i ∈ ((cfg6.win 3).blk t).view.set ↔ ∀ a : Fin 2, win6_3.index t a * S512x500.size a ≤ (i a).val
      ∧ (i a).val < win6_3.index t a * S512x500.size a + S512x500.size a := by
  show i ∈ ((View.whole main_v33).slice (win6_3.rect t)).set ↔ _
  rw [View.set_slice_whole, Rect.mem_set_unit]
  exact Iff.rfl

/-- Every entry of the array is in some point's result block: row `P` is covered by point `P / 512`. -/
theorem covered6_3 (i : S4096x500.Idx) :
    ∃ t : Fin cfg6.N, (cfg6.win 3).flush t = true ∧ i ∈ ((cfg6.win 3).blk t).view.set := by
  have hi0 : (i 0).val < 4096 := (i 0).isLt
  have hi1 : (i 1).val < 500 := (i 1).isLt
  obtain ⟨t, ht⟩ : ∃ t : Fin cfg6.N, t.val = (i 0).val / 512 :=
    ⟨⟨(i 0).val / 512, lt_of_lt_of_eq (show (i 0).val / 512 < 8 by omega) N_6.symm⟩, rfl⟩
  obtain ⟨-, -, -, -, -, -, e0, e1⟩ := idx_facts6 t
  refine ⟨t, flush6_3 t, ?_⟩
  rw [mem_blk6_3]
  intro a
  match a with
  | ⟨0, _⟩ =>
    show win6_3.index t (0 : Fin 2) * 512 ≤ (i 0).val ∧ (i 0).val < win6_3.index t (0 : Fin 2) * 512 + 512
    omega
  | ⟨1, _⟩ =>
    show win6_3.index t (1 : Fin 2) * 500 ≤ (i 1).val ∧ (i 1).val < win6_3.index t (1 : Fin 2) * 500 + 500
    omega

/-- The result array after the region: the one function of the three arrays as the region finds them. -/
theorem final6_3 (c : Dev nD) :
    (dat6 (F := Ideal) V c).arrAt 3 cfg6.N
      = G6_3 (V c (Pipeline.arrRef spec6 0)) (V c (Pipeline.arrRef spec6 1)) (V c (Pipeline.arrRef spec6 2)) :=
  (dat6 (F := Ideal) V c).arrAt_eq_of_cover 3
    (G6_3 (V c (Pipeline.arrRef spec6 0)) (V c (Pipeline.arrRef spec6 1)) (V c (Pipeline.arrRef spec6 2)))
    (fun t _ => flushed6_3_eq V c t) covered6_3

/-! ## 3. Over the reals -/

/-- The result over the reals, over variables: when the three arrays are entrywise the coercions of real
    matrices `ADJ`, `U`, `W`, the result at `(p, q)` is the coercion of `(relu (ADJ · U) · W) p q`.  (Each
    product, each sum and the maximum with zero are operations of finite extended reals.) -/
theorem G6_3_real (a : Vec Ideal S4096x4096 .bf16) (u : Vec Ideal S4096x500 .bf16) (w : Vec Ideal S500x500 .bf16)
    (ADJ : RealNet.M 4096 4096) (U : RealNet.M 4096 500) (W : RealNet.M 500 500)
    (hA : ∀ (p k : Fin 4096), a (ix2 p k) = ((ADJ p k : ℝ) : EReal))
    (hU : ∀ (k : Fin 4096) (l : Fin 500), u (ix2 k l) = ((U k l : ℝ) : EReal))
    (hW : ∀ (l q : Fin 500), w (ix2 l q) = ((W l q : ℝ) : EReal))
    (p : Fin 4096) (q : Fin 500) :
    G6_3 a u w (ix2 p q) = (((RealNet.relu (ADJ * U) * W) p q : ℝ) : EReal) := by
  rw [G6_3_apply, ← RealNet.lift_matmul (RealNet.relu (ADJ * U)) W p q]
  refine Finset.sum_congr rfl fun l _ => ?_
  have hs : (∑ k : Fin 4096, a (ix2 p k) * u (ix2 k l)) = (((ADJ * U) p l : ℝ) : EReal) := by
    rw [← RealNet.lift_matmul ADJ U p l]
    exact Finset.sum_congr rfl fun k _ => by rw [hA, hU]; rfl
  rw [hs, RealNet.lift_max_zero, hW]
  rfl

/-- The result array after the region, over the reals: with the three arrays the region finds entrywise the
    coercions of `ADJ`, `U`, `W`, every entry is the coercion of `relu (ADJ · U) · W` there. -/
theorem final6_3_real (c : Dev nD) (ADJ : RealNet.M 4096 4096) (U : RealNet.M 4096 500) (W : RealNet.M 500 500)
    (hA : ∀ (p k : Fin 4096), V c (Pipeline.arrRef spec6 0) (ix2 p k) = ((ADJ p k : ℝ) : EReal))
    (hU : ∀ (k : Fin 4096) (l : Fin 500), V c (Pipeline.arrRef spec6 1) (ix2 k l) = ((U k l : ℝ) : EReal))
    (hW : ∀ (l q : Fin 500), V c (Pipeline.arrRef spec6 2) (ix2 l q) = ((W l q : ℝ) : EReal))
    (p : Fin 4096) (q : Fin 500) :
    (dat6 (F := Ideal) V c).arrAt 3 cfg6.N (ix2 p q) = (((RealNet.relu (ADJ * U) * W) p q : ℝ) : EReal) :=
  (congrFun (final6_3 V c) (ix2 p q)).trans (G6_3_real _ _ _ ADJ U W hA hU hW p q)

end Cert.KernelIdeal.HandValue

end
-- ==== Proof.KernelIdealV7.lean ====
/-
  The sweep that follows an adjacency product by a 500 × 512 layer, read as values at the exact instance.

  One grid point of the sweep takes a block of 512 rows of the adjacency `a`, the whole operand `u` and the
  whole weight `w`, and leaves the 512 rows of `max (a · u) 0 · w`, now 512 columns wide.  This module reads
  that off in three steps: the body's arithmetic at one entry of the block; the eight blocks put together as
  one function of the three arrays, entry by entry; and the same over the reals when the three arrays are
  coercions of real matrices.
-/
import proofs.«140843_g75050258530825_cont_9to1_m_403_24_alg».proof.Proof.KernelIdealR7
import proofs.«140843_g75050258530825_cont_9to1_m_403_24_alg».proof.Proof.KernelIdealVMatmul
import proofs.«140843_g75050258530825_cont_9to1_m_403_24_alg».proof.Proof.LibRealLift
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 1. The body's arithmetic at one entry -/

/-- The body's stored value at entry `(p, q)` of the block: the rectified first product, contracted with the
    weight, `∑ l, max (∑ k, x0 (p, k) · x1 (k, l)) 0 · x2 (l, q)`.  (The shape casts are identities, both
    accumulators are the zero word, and the two narrowing changes of format are the identity at the exact
    instance.) -/
theorem pay7_1_apply (x0 : Vec Ideal S512x4096 .bf16) (x1 : Vec Ideal S4096x500 .bf16) (x2 : Vec Ideal S500x512 .bf16)
    (p : Fin 512) (q : Fin 512) :
    k7_pay1 x0 x1 x2 (ix2 p q)
      = ∑ l : Fin 500, max (∑ k : Fin 4096, x0 (ix2 p k) * x1 (ix2 k l)) 0 * x2 (ix2 l q) := by
  unfold k7_pay1
  simp only [shapeCast_self]
  show FloatOps.matmul (φ₁ := .bf16) (φ₂ := .bf16) dotHW512 none
      ((fun i => max (FloatOps.matmul dotAU500 none x0 x1 (constant (F := Ideal) S512x500 .f32 0x00000000#32) i)
        (Ideal.ofBits .f32 0x00000000#32)) : FVec Ideal S512x500 .bf16)
      x2 (constant (F := Ideal) S512x512 .f32 0x00000000#32) (ix2 p q) = _
  rw [matmulHW512_apply]
  refine Finset.sum_congr rfl fun l _ => ?_
  rw [matmulAU500_apply, Ideal.ofBits_zero_f32]

/-! ## 2. The eight blocks as one function of the three arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz7 : (![0, 0] : Fin 2 → Nat) = fun _ => 0 := funext fun a => by fin_cases a <;> rfl

/-- The sweep's result as one function of the adjacency `a`, the operand `u` and the weight `w`, entry by
    entry: row `P` of the result uses row `P` of `a`, all of `u`, and column `Q` of `w`. -/
def G7_3 (a : Vec Ideal S4096x4096 .bf16) (u : Vec Ideal S4096x500 .bf16) (w : Vec Ideal S500x512 .bf16) :
    Vec Ideal S4096x512 .bf16 :=
  fun i => ∑ l : Fin 500, max (∑ k : Fin 4096, a (ix2 (⟨(i 0).val, (i 0).isLt⟩ : Fin 4096) k) * u (ix2 k l)) 0
      * w (ix2 l (⟨(i 1).val, (i 1).isLt⟩ : Fin 512))

/-- The result at entry `(P, Q)`. -/
theorem G7_3_apply (a : Vec Ideal S4096x4096 .bf16) (u : Vec Ideal S4096x500 .bf16) (w : Vec Ideal S500x512 .bf16)
    (P : Fin 4096) (Q : Fin 512) :
    G7_3 a u w (ix2 P Q) = ∑ l : Fin 500, max (∑ k : Fin 4096, a (ix2 P k) * u (ix2 k l)) 0 * w (ix2 l Q) := rfl

/-- One point, over variables: when the first block is row `P` of `a` along row `p`, the second is `u` and the
    third is `w` along column `q`, the body's value at `(p, q)` is the result at `(P, q)`. -/
theorem point7_3 (a : Vec Ideal S4096x4096 .bf16) (u : Vec Ideal S4096x500 .bf16) (w : Vec Ideal S500x512 .bf16)
    (x0 : Vec Ideal S512x4096 .bf16) (x1 : Vec Ideal S4096x500 .bf16) (x2 : Vec Ideal S500x512 .bf16)
    (p : Fin 512) (q : Fin 512) (P : Fin 4096)
    (h0 : ∀ k : Fin 4096, x0 (ix2 p k) = a (ix2 P k))
    (h1 : ∀ (k : Fin 4096) (l : Fin 500), x1 (ix2 k l) = u (ix2 k l))
    (h2 : ∀ l : Fin 500, x2 (ix2 l q) = w (ix2 l q)) :
    k7_pay1 x0 x1 x2 (ix2 p q) = G7_3 a u w (ix2 P q) := by
  rw [pay7_1_apply, G7_3_apply]
  refine Finset.sum_congr rfl fun l _ => ?_
  rw [h2 l]
  refine congrArg (fun s => max s 0 * w (ix2 l q)) (Finset.sum_congr rfl fun k _ => ?_)
  rw [h0 k, h1 k l]

/-- The printed index maps, decided once over the eight points: the adjacency's and the result's blocks are
    row block `t`; the operand's and the weight's blocks are the whole arrays. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Where the adjacency block's entry `(p, k)` at point `t` sits in the array: row `512 t + p`, column `k`. -/
theorem emb7_0 (t : Fin cfg7.N) (p : Fin 512) (k : Fin 4096) (P : Fin 4096) (hP : P.val = t.val * 512 + p.val) :
    ((cfg7.win 0).blk t).view.emb (ix2 p k) = ix2 P k := by
  obtain ⟨e0, e1, -⟩ := idx_facts7 t
  funext a; apply Fin.ext
  match a with
  | ⟨0, _⟩ => show win7_0.index t (0 : Fin 2) * 512 + 1 * p.val = P.val; omega
  | ⟨1, _⟩ => show win7_0.index t (1 : Fin 2) * 4096 + 1 * k.val = k.val; omega

/-- The operand's block is the whole array: entry `(k, l)` sits at `(k, l)`. -/
theorem emb7_1 (t : Fin cfg7.N) (k : Fin 4096) (l : Fin 500) :
    ((cfg7.win 1).blk t).view.emb (ix2 k l) = ix2 k l := by
  obtain ⟨-, -, e0, e1, -⟩ := idx_facts7 t
  funext a; apply Fin.ext
  match a with
  | ⟨0, _⟩ => show win7_1.index t (0 : Fin 2) * 4096 + 1 * k.val = k.val; omega
  | ⟨1, _⟩ => show win7_1.index t (1 : Fin 2) * 500 + 1 * l.val = l.val; omega

/-- The weight's block is the whole array: entry `(l, q)` sits at `(l, q)`. -/
theorem emb7_2 (t : Fin cfg7.N) (l : Fin 500) (q : Fin 512) :
    ((cfg7.win 2).blk t).view.emb (ix2 l q) = ix2 l q := by
  obtain ⟨-, -, -, -, e0, e1, -⟩ := idx_facts7 t
  funext a; apply Fin.ext
  match a with
  | ⟨0, _⟩ => show win7_2.index t (0 : Fin 2) * 500 + 1 * l.val = l.val; omega
  | ⟨1, _⟩ => show win7_2.index t (1 : Fin 2) * 512 + 1 * q.val = q.val; omega

/-- Where the result block's entry `(p, q)` at point `t` sits in the array: row `512 t + p`, column `q`. -/
theorem emb7_3 (t : Fin cfg7.N) (p : Fin 512) (q : Fin 512) (P : Fin 4096) (hP : P.val = t.val * 512 + p.val) :
    ((cfg7.win 3).blk t).view.emb (ix2 p q) = ix2 P q := by
  obtain ⟨-, -, -, -, -, -, e0, e1⟩ := idx_facts7 t
  funext a; apply Fin.ext
  match a with
  | ⟨0, _⟩ => show win7_3.index t (0 : Fin 2) * 512 + 1 * p.val = P.val; omega
  | ⟨1, _⟩ => show win7_3.index t (1 : Fin 2) * 512 + 1 * q.val = q.val; omega

/-- The adjacency block at point `t`, entry `(p, k)`, is the array's entry `(512 t + p, k)`. -/
theorem iblk7_0_apply (c : Dev nD) (t : Fin cfg7.N) (p : Fin 512) (k : Fin 4096) (P : Fin 4096)
    (hP : P.val = t.val * 512 + p.val) :
    iblk7 V c 0 t (ix2 p k) = V c (Pipeline.arrRef spec7 0) (ix2 P k) := by
  show V c (Pipeline.arrRef spec7 0) (((cfg7.win 0).blk t).view.emb (ix2 p k)) = _
  rw [emb7_0 t p k P hP]

/-- The operand block at any point is the operand array. -/
theorem iblk7_1_apply (c : Dev nD) (t : Fin cfg7.N) (k : Fin 4096) (l : Fin 500) :
    iblk7 V c 1 t (ix2 k l) = V c (Pipeline.arrRef spec7 1) (ix2 k l) := by
  show V c (Pipeline.arrRef spec7 1) (((cfg7.win 1).blk t).view.emb (ix2 k l)) = _
  rw [emb7_1 t k l]

/-- The weight block at any point is the weight array. -/
theorem iblk7_2_apply (c : Dev nD) (t : Fin cfg7.N) (l : Fin 500) (q : Fin 512) :
    iblk7 V c 2 t (ix2 l q) = V c (Pipeline.arrRef spec7 2) (ix2 l q) := by
  show V c (Pipeline.arrRef spec7 2) (((cfg7.win 2).blk t).view.emb (ix2 l q)) = _
  rw [emb7_2 t l q]

/-- What point `t` writes back is block `t` of the result of the three arrays as the region finds them. -/
theorem flushed7_3_eq (c : Dev nD) (t : Fin cfg7.N) :
    (dat7 (F := Ideal) V c).flushed 3 t
      = ((cfg7.win 3).blk t).view.read (Elt Ideal)
          (G7_3 (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S512x4096) hz7, View.ld_unit_zero (S := S4096x500) hz7,
    View.ld_unit_zero (S := S500x512) hz7]
  funext j
  obtain ⟨p, q, rfl⟩ : ∃ (p : Fin 512) (q : Fin 512), j = ix2 p q := ⟨j 0, j 1, eq_ix2 (n0 := 512) (n1 := 512) j⟩
  have ht : t.val < 8 := lt_of_lt_of_eq t.isLt N_7
  have hP : t.val * 512 + p.val < 4096 := by have := p.isLt; omega
  show k7_pay1 (iblk7 V c 0 t) (iblk7 V c 1 t) (iblk7 V c 2 t) (ix2 p q)
    = G7_3 (V c (Pipeline.arrRef spec7 0)) (V c (Pipeline.arrRef spec7 1)) (V c (Pipeline.arrRef spec7 2))
        (((cfg7.win 3).blk t).view.emb (ix2 p q))
  rw [emb7_3 t p q ⟨t.val * 512 + p.val, hP⟩ rfl]
  exact point7_3 _ _ _ _ _ _ p q ⟨t.val * 512 + p.val, hP⟩
    (fun k => iblk7_0_apply V c t p k ⟨t.val * 512 + p.val, hP⟩ rfl)
    (fun k l => iblk7_1_apply V c t k l) (fun l => iblk7_2_apply V c t l q)

/-- An entry of the array lies in point `t`'s result block iff each coordinate lies in the block's range. -/
theorem mem_blk7_3 (t : Fin cfg7.N) (i : S4096x512.Idx) :
    i ∈ ((cfg7.win 3).blk t).view.set ↔ ∀ a : Fin 2, win7_3.index t a * S512x512.size a ≤ (i a).val
      ∧ (i a).val < win7_3.index t a * S512x512.size a + S512x512.size a := by
  show i ∈ ((View.whole main_v35).slice (win7_3.rect t)).set ↔ _
  rw [View.set_slice_whole, Rect.mem_set_unit]
  exact Iff.rfl

/-- Every entry of the array is in some point's result block: row `P` is covered by point `P / 512`. -/
theorem covered7_3 (i : S4096x512.Idx) :
    ∃ t : Fin cfg7.N, (cfg7.win 3).flush t = true ∧ i ∈ ((cfg7.win 3).blk t).view.set := by
  have hi0 : (i 0).val < 4096 := (i 0).isLt
  have hi1 : (i 1).val < 512 := (i 1).isLt
  obtain ⟨t, ht⟩ : ∃ t : Fin cfg7.N, t.val = (i 0).val / 512 :=
    ⟨⟨(i 0).val / 512, lt_of_lt_of_eq (show (i 0).val / 512 < 8 by omega) N_7.symm⟩, rfl⟩
  obtain ⟨-, -, -, -, -, -, e0, e1⟩ := idx_facts7 t
  refine ⟨t, flush7_3 t, ?_⟩
  rw [mem_blk7_3]
  intro a
  match a with
  | ⟨0, _⟩ =>
    show win7_3.index t (0 : Fin 2) * 512 ≤ (i 0).val ∧ (i 0).val < win7_3.index t (0 : Fin 2) * 512 + 512
    omega
  | ⟨1, _⟩ =>
    show win7_3.index t (1 : Fin 2) * 512 ≤ (i 1).val ∧ (i 1).val < win7_3.index t (1 : Fin 2) * 512 + 512
    omega

/-- The result array after the region: the one function of the three arrays as the region finds them. -/
theorem final7_3 (c : Dev nD) :
    (dat7 (F := Ideal) V c).arrAt 3 cfg7.N
      = G7_3 (V c (Pipeline.arrRef spec7 0)) (V c (Pipeline.arrRef spec7 1)) (V c (Pipeline.arrRef spec7 2)) :=
  (dat7 (F := Ideal) V c).arrAt_eq_of_cover 3
    (G7_3 (V c (Pipeline.arrRef spec7 0)) (V c (Pipeline.arrRef spec7 1)) (V c (Pipeline.arrRef spec7 2)))
    (fun t _ => flushed7_3_eq V c t) covered7_3

/-! ## 3. Over the reals -/

/-- The result over the reals, over variables: when the three arrays are entrywise the coercions of real
    matrices `ADJ`, `U`, `W`, the result at `(p, q)` is the coercion of `(relu (ADJ · U) · W) p q`.  (Each
    product, each sum and the maximum with zero are operations of finite extended reals.) -/
theorem G7_3_real (a : Vec Ideal S4096x4096 .bf16) (u : Vec Ideal S4096x500 .bf16) (w : Vec Ideal S500x512 .bf16)
    (ADJ : RealNet.M 4096 4096) (U : RealNet.M 4096 500) (W : RealNet.M 500 512)
    (hA : ∀ (p k : Fin 4096), a (ix2 p k) = ((ADJ p k : ℝ) : EReal))
    (hU : ∀ (k : Fin 4096) (l : Fin 500), u (ix2 k l) = ((U k l : ℝ) : EReal))
    (hW : ∀ (l : Fin 500) (q : Fin 512), w (ix2 l q) = ((W l q : ℝ) : EReal))
    (p : Fin 4096) (q : Fin 512) :
    G7_3 a u w (ix2 p q) = (((RealNet.relu (ADJ * U) * W) p q : ℝ) : EReal) := by
  rw [G7_3_apply, ← RealNet.lift_matmul (RealNet.relu (ADJ * U)) W p q]
  refine Finset.sum_congr rfl fun l _ => ?_
  have hs : (∑ k : Fin 4096, a (ix2 p k) * u (ix2 k l)) = (((ADJ * U) p l : ℝ) : EReal) := by
    rw [← RealNet.lift_matmul ADJ U p l]
    exact Finset.sum_congr rfl fun k _ => by rw [hA, hU]; rfl
  rw [hs, RealNet.lift_max_zero, hW]
  rfl

/-- The result array after the region, over the reals: with the three arrays the region finds entrywise the
    coercions of `ADJ`, `U`, `W`, every entry is the coercion of `relu (ADJ · U) · W` there. -/
theorem final7_3_real (c : Dev nD) (ADJ : RealNet.M 4096 4096) (U : RealNet.M 4096 500) (W : RealNet.M 500 512)
    (hA : ∀ (p k : Fin 4096), V c (Pipeline.arrRef spec7 0) (ix2 p k) = ((ADJ p k : ℝ) : EReal))
    (hU : ∀ (k : Fin 4096) (l : Fin 500), V c (Pipeline.arrRef spec7 1) (ix2 k l) = ((U k l : ℝ) : EReal))
    (hW : ∀ (l : Fin 500) (q : Fin 512), V c (Pipeline.arrRef spec7 2) (ix2 l q) = ((W l q : ℝ) : EReal))
    (p : Fin 4096) (q : Fin 512) :
    (dat7 (F := Ideal) V c).arrAt 3 cfg7.N (ix2 p q) = (((RealNet.relu (ADJ * U) * W) p q : ℝ) : EReal) :=
  (congrFun (final7_3 V c) (ix2 p q)).trans (G7_3_real _ _ _ ADJ U W hA hU hW p q)

end Cert.KernelIdeal.HandValue

end
-- ==== Proof.KernelIdealV8.lean ====
/-
  The last adjacency sweep, read as values at the exact instance.

  One grid point of the sweep takes a block of 512 rows of the adjacency `a` and the whole operand `u`, and
  leaves the 512 rows of `max (a · u) 0` twice: in single precision and, narrowed, in bf16 (at the exact
  instance the narrowing is the identity, so the two results are one function).  This module reads that off
  in three steps: the body's arithmetic at one entry of the block; the eight blocks put together as one
  function of the two arrays, entry by entry; and the same over the reals when the two arrays are coercions
  of real matrices.
-/
import proofs.«140843_g75050258530825_cont_9to1_m_403_24_alg».proof.Proof.KernelIdealR8
import proofs.«140843_g75050258530825_cont_9to1_m_403_24_alg».proof.Proof.KernelIdealVMatmul
import proofs.«140843_g75050258530825_cont_9to1_m_403_24_alg».proof.Proof.LibRealLift
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 1. The body's arithmetic at one entry -/

/-- The single-precision stored value at entry `(p, q)` of the block: the rectified product,
    `max (∑ k, x0 (p, k) · x1 (k, q)) 0`.  (The shape casts are identities and the accumulator is the zero
    word.) -/
theorem pay8_1_apply (x0 : Vec Ideal S512x4096 .bf16) (x1 : Vec Ideal S4096x512 .bf16) (p : Fin 512) (q : Fin 512) :
    k8_pay1 x0 x1 (ix2 p q) = max (∑ k : Fin 4096, x0 (ix2 p k) * x1 (ix2 k q)) 0 := by
  unfold k8_pay1
  simp only [shapeCast_self]
  show max (FloatOps.matmul (φ₁ := .bf16) (φ₂ := .bf16) dotAU512 none x0 x1
      (constant (F := Ideal) S512x512 .f32 0x00000000#32) (ix2 p q)) (Ideal.ofBits .f32 0x00000000#32) = _
  rw [matmulAU512_apply, Ideal.ofBits_zero_f32]

/-- The bf16 stored value at entry `(p, q)` of the block: the same rectified product (the narrowing change of
    format is the identity at the exact instance). -/
theorem pay8_2_apply (x0 : Vec Ideal S512x4096 .bf16) (x1 : Vec Ideal S4096x512 .bf16) (p : Fin 512) (q : Fin 512) :
    k8_pay2 x0 x1 (ix2 p q) = max (∑ k : Fin 4096, x0 (ix2 p k) * x1 (ix2 k q)) 0 := by
  unfold k8_pay2
  show k8_pay1 x0 x1 (ix2 p q) = _
  exact pay8_1_apply x0 x1 p q

/-! ## 2. The eight blocks as one function of the two arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz8 : (![0, 0] : Fin 2 → Nat) = fun _ => 0 := funext fun a => by fin_cases a <;> rfl

/-- The sweep's single-precision result as one function of the adjacency `a` and the operand `u`, entry by
    entry: row `P` of the result uses row `P` of `a` and column `Q` of `u`. -/
def G8_2 (a : Vec Ideal S4096x4096 .bf16) (u : Vec Ideal S4096x512 .bf16) : Vec Ideal S4096x512 .f32 :=
  fun i => max (∑ k : Fin 4096, a (ix2 (⟨(i 0).val, (i 0).isLt⟩ : Fin 4096) k)
      * u (ix2 k (⟨(i 1).val, (i 1).isLt⟩ : Fin 512))) 0

/-- The sweep's bf16 result: the same function of the two arrays. -/
def G8_3 (a : Vec Ideal S4096x4096 .bf16) (u : Vec Ideal S4096x512 .bf16) : Vec Ideal S4096x512 .bf16 :=
  fun i => max (∑ k : Fin 4096, a (ix2 (⟨(i 0).val, (i 0).isLt⟩ : Fin 4096) k)
      * u (ix2 k (⟨(i 1).val, (i 1).isLt⟩ : Fin 512))) 0

/-- The single-precision result at entry `(P, Q)`. -/
theorem G8_2_apply (a : Vec Ideal S4096x4096 .bf16) (u : Vec Ideal S4096x512 .bf16) (P : Fin 4096) (Q : Fin 512) :
    G8_2 a u (ix2 P Q) = max (∑ k : Fin 4096, a (ix2 P k) * u (ix2 k Q)) 0 := rfl

/-- The bf16 result at entry `(P, Q)`. -/
theorem G8_3_apply (a : Vec Ideal S4096x4096 .bf16) (u : Vec Ideal S4096x512 .bf16) (P : Fin 4096) (Q : Fin 512) :
    G8_3 a u (ix2 P Q) = max (∑ k : Fin 4096, a (ix2 P k) * u (ix2 k Q)) 0 := rfl

/-- One point of the single-precision result, over variables: when the first block is row `P` of `a` along row
    `p` and the second is `u` along column `q`, the body's value at `(p, q)` is the result at `(P, q)`. -/
theorem point8_2 (a : Vec Ideal S4096x4096 .bf16) (u : Vec Ideal S4096x512 .bf16)
    (x0 : Vec Ideal S512x4096 .bf16) (x1 : Vec Ideal S4096x512 .bf16)
    (p : Fin 512) (q : Fin 512) (P : Fin 4096)
    (h0 : ∀ k : Fin 4096, x0 (ix2 p k) = a (ix2 P k))
    (h1 : ∀ k : Fin 4096, x1 (ix2 k q) = u (ix2 k q)) :
    k8_pay1 x0 x1 (ix2 p q) = G8_2 a u (ix2 P q) := by
  rw [pay8_1_apply, G8_2_apply]
  refine congrArg (fun s => max s 0) (Finset.sum_congr rfl fun k _ => ?_)
  rw [h0 k, h1 k]

/-- One point of the bf16 result, over variables. -/
theorem point8_3 (a : Vec Ideal S4096x4096 .bf16) (u : Vec Ideal S4096x512 .bf16)
    (x0 : Vec Ideal S512x4096 .bf16) (x1 : Vec Ideal S4096x512 .bf16)
    (p : Fin 512) (q : Fin 512) (P : Fin 4096)
    (h0 : ∀ k : Fin 4096, x0 (ix2 p k) = a (ix2 P k))
    (h1 : ∀ k : Fin 4096, x1 (ix2 k q) = u (ix2 k q)) :
    k8_pay2 x0 x1 (ix2 p q) = G8_3 a u (ix2 P q) := by
  rw [pay8_2_apply, G8_3_apply]
  refine congrArg (fun s => max s 0) (Finset.sum_congr rfl fun k _ => ?_)
  rw [h0 k, h1 k]

/-- The printed index maps, decided once over the eight points: the adjacency's and the two results' blocks
    are row block `t`; the operand's block is the whole array. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- Where the adjacency block's entry `(p, k)` at point `t` sits in the array: row `512 t + p`, column `k`. -/
theorem emb8_0 (t : Fin cfg8.N) (p : Fin 512) (k : Fin 4096) (P : Fin 4096) (hP : P.val = t.val * 512 + p.val) :
    ((cfg8.win 0).blk t).view.emb (ix2 p k) = ix2 P k := by
  obtain ⟨e0, e1, -⟩ := idx_facts8 t
  funext a; apply Fin.ext
  match a with
  | ⟨0, _⟩ => show win8_0.index t (0 : Fin 2) * 512 + 1 * p.val = P.val; omega
  | ⟨1, _⟩ => show win8_0.index t (1 : Fin 2) * 4096 + 1 * k.val = k.val; omega

/-- The operand's block is the whole array: entry `(k, q)` sits at `(k, q)`. -/
theorem emb8_1 (t : Fin cfg8.N) (k : Fin 4096) (q : Fin 512) :
    ((cfg8.win 1).blk t).view.emb (ix2 k q) = ix2 k q := by
  obtain ⟨-, -, e0, e1, -⟩ := idx_facts8 t
  funext a; apply Fin.ext
  match a with
  | ⟨0, _⟩ => show win8_1.index t (0 : Fin 2) * 4096 + 1 * k.val = k.val; omega
  | ⟨1, _⟩ => show win8_1.index t (1 : Fin 2) * 512 + 1 * q.val = q.val; omega

/-- Where the single-precision result block's entry `(p, q)` at point `t` sits in the array: row `512 t + p`,
    column `q`. -/
theorem emb8_2 (t : Fin cfg8.N) (p : Fin 512) (q : Fin 512) (P : Fin 4096) (hP : P.val = t.val * 512 + p.val) :
    ((cfg8.win 2).blk t).view.emb (ix2 p q) = ix2 P q := by
  obtain ⟨-, -, -, -, e0, e1, -⟩ := idx_facts8 t
  funext a; apply Fin.ext
  match a with
  | ⟨0, _⟩ => show win8_2.index t (0 : Fin 2) * 512 + 1 * p.val = P.val; omega
  | ⟨1, _⟩ => show win8_2.index t (1 : Fin 2) * 512 + 1 * q.val = q.val; omega

/-- Where the bf16 result block's entry `(p, q)` at point `t` sits in the array: row `512 t + p`, column `q`. -/
theorem emb8_3 (t : Fin cfg8.N) (p : Fin 512) (q : Fin 512) (P : Fin 4096) (hP : P.val = t.val * 512 + p.val) :
    ((cfg8.win 3).blk t).view.emb (ix2 p q) = ix2 P q := by
  obtain ⟨-, -, -, -, -, -, e0, e1⟩ := idx_facts8 t
  funext a; apply Fin.ext
  match a with
  | ⟨0, _⟩ => show win8_3.index t (0 : Fin 2) * 512 + 1 * p.val = P.val; omega
  | ⟨1, _⟩ => show win8_3.index t (1 : Fin 2) * 512 + 1 * q.val = q.val; omega

/-- The adjacency block at point `t`, entry `(p, k)`, is the array's entry `(512 t + p, k)`. -/
theorem iblk8_0_apply (c : Dev nD) (t : Fin cfg8.N) (p : Fin 512) (k : Fin 4096) (P : Fin 4096)
    (hP : P.val = t.val * 512 + p.val) :
    iblk8 V c 0 t (ix2 p k) = V c (Pipeline.arrRef spec8 0) (ix2 P k) := by
  show V c (Pipeline.arrRef spec8 0) (((cfg8.win 0).blk t).view.emb (ix2 p k)) = _
  rw [emb8_0 t p k P hP]

/-- The operand block at any point is the operand array. -/
theorem iblk8_1_apply (c : Dev nD) (t : Fin cfg8.N) (k : Fin 4096) (q : Fin 512) :
    iblk8 V c 1 t (ix2 k q) = V c (Pipeline.arrRef spec8 1) (ix2 k q) := by
  show V c (Pipeline.arrRef spec8 1) (((cfg8.win 1).blk t).view.emb (ix2 k q)) = _
  rw [emb8_1 t k q]

/-- What point `t` writes back in single precision is block `t` of the result of the two arrays as the region
    finds them. -/
theorem flushed8_2_eq (c : Dev nD) (t : Fin cfg8.N) :
    (dat8 (F := Ideal) V c).flushed 2 t
      = ((cfg8.win 2).blk t).view.read (Elt Ideal)
          (G8_2 (V c (Pipeline.arrRef spec8 0)) (V c (Pipeline.arrRef spec8 1))) := by
  show (cfg8.win 2).cut (grid8.coords t) ((dat8 V c).after 2 t) = _
  rw [after8_2]
  unfold out8_2
  rw [View.canon_unit_zero hz8]
  simp only [View.ld_unit_zero (S := S512x4096) hz8, View.ld_unit_zero (S := S4096x512) hz8]
  funext j
  obtain ⟨p, q, rfl⟩ : ∃ (p : Fin 512) (q : Fin 512), j = ix2 p q := ⟨j 0, j 1, eq_ix2 (n0 := 512) (n1 := 512) j⟩
  have ht : t.val < 8 := lt_of_lt_of_eq t.isLt N_8
  have hP : t.val * 512 + p.val < 4096 := by have := p.isLt; omega
  show k8_pay1 (iblk8 V c 0 t) (iblk8 V c 1 t) (ix2 p q)
    = G8_2 (V c (Pipeline.arrRef spec8 0)) (V c (Pipeline.arrRef spec8 1))
        (((cfg8.win 2).blk t).view.emb (ix2 p q))
  rw [emb8_2 t p q ⟨t.val * 512 + p.val, hP⟩ rfl]
  exact point8_2 _ _ _ _ p q ⟨t.val * 512 + p.val, hP⟩
    (fun k => iblk8_0_apply V c t p k ⟨t.val * 512 + p.val, hP⟩ rfl) (fun k => iblk8_1_apply V c t k q)

/-- What point `t` writes back in bf16 is block `t` of the result of the two arrays as the region finds them. -/
theorem flushed8_3_eq (c : Dev nD) (t : Fin cfg8.N) :
    (dat8 (F := Ideal) V c).flushed 3 t
      = ((cfg8.win 3).blk t).view.read (Elt Ideal)
          (G8_3 (V c (Pipeline.arrRef spec8 0)) (V c (Pipeline.arrRef spec8 1))) := by
  show (cfg8.win 3).cut (grid8.coords t) ((dat8 V c).after 3 t) = _
  rw [after8_3]
  unfold out8_3
  rw [View.canon_unit_zero hz8]
  simp only [View.ld_unit_zero (S := S512x4096) hz8, View.ld_unit_zero (S := S4096x512) hz8]
  funext j
  obtain ⟨p, q, rfl⟩ : ∃ (p : Fin 512) (q : Fin 512), j = ix2 p q := ⟨j 0, j 1, eq_ix2 (n0 := 512) (n1 := 512) j⟩
  have ht : t.val < 8 := lt_of_lt_of_eq t.isLt N_8
  have hP : t.val * 512 + p.val < 4096 := by have := p.isLt; omega
  show k8_pay2 (iblk8 V c 0 t) (iblk8 V c 1 t) (ix2 p q)
    = G8_3 (V c (Pipeline.arrRef spec8 0)) (V c (Pipeline.arrRef spec8 1))
        (((cfg8.win 3).blk t).view.emb (ix2 p q))
  rw [emb8_3 t p q ⟨t.val * 512 + p.val, hP⟩ rfl]
  exact point8_3 _ _ _ _ p q ⟨t.val * 512 + p.val, hP⟩
    (fun k => iblk8_0_apply V c t p k ⟨t.val * 512 + p.val, hP⟩ rfl) (fun k => iblk8_1_apply V c t k q)

/-- An entry of the single-precision array lies in point `t`'s result block iff each coordinate lies in the
    block's range. -/
theorem mem_blk8_2 (t : Fin cfg8.N) (i : S4096x512.Idx) :
    i ∈ ((cfg8.win 2).blk t).view.set ↔ ∀ a : Fin 2, win8_2.index t a * S512x512.size a ≤ (i a).val
      ∧ (i a).val < win8_2.index t a * S512x512.size a + S512x512.size a := by
  show i ∈ ((View.whole main_v36_0).slice (win8_2.rect t)).set ↔ _
  rw [View.set_slice_whole, Rect.mem_set_unit]
  exact Iff.rfl

/-- An entry of the bf16 array lies in point `t`'s result block iff each coordinate lies in the block's range. -/
theorem mem_blk8_3 (t : Fin cfg8.N) (i : S4096x512.Idx) :
    i ∈ ((cfg8.win 3).blk t).view.set ↔ ∀ a : Fin 2, win8_3.index t a * S512x512.size a ≤ (i a).val
      ∧ (i a).val < win8_3.index t a * S512x512.size a + S512x512.size a := by
  show i ∈ ((View.whole main_v36_1).slice (win8_3.rect t)).set ↔ _
  rw [View.set_slice_whole, Rect.mem_set_unit]
  exact Iff.rfl

/-- Every entry of the single-precision array is in some point's result block: row `P` is covered by point
    `P / 512`. -/
theorem covered8_2 (i : S4096x512.Idx) :
    ∃ t : Fin cfg8.N, (cfg8.win 2).flush t = true ∧ i ∈ ((cfg8.win 2).blk t).view.set := by
  have hi0 : (i 0).val < 4096 := (i 0).isLt
  have hi1 : (i 1).val < 512 := (i 1).isLt
  obtain ⟨t, ht⟩ : ∃ t : Fin cfg8.N, t.val = (i 0).val / 512 :=
    ⟨⟨(i 0).val / 512, lt_of_lt_of_eq (show (i 0).val / 512 < 8 by omega) N_8.symm⟩, rfl⟩
  obtain ⟨-, -, -, -, e0, e1, -⟩ := idx_facts8 t
  refine ⟨t, flush8_2 t, ?_⟩
  rw [mem_blk8_2]
  intro a
  match a with
  | ⟨0, _⟩ =>
    show win8_2.index t (0 : Fin 2) * 512 ≤ (i 0).val ∧ (i 0).val < win8_2.index t (0 : Fin 2) * 512 + 512
    omega
  | ⟨1, _⟩ =>
    show win8_2.index t (1 : Fin 2) * 512 ≤ (i 1).val ∧ (i 1).val < win8_2.index t (1 : Fin 2) * 512 + 512
    omega

/-- Every entry of the bf16 array is in some point's result block: row `P` is covered by point `P / 512`. -/
theorem covered8_3 (i : S4096x512.Idx) :
    ∃ t : Fin cfg8.N, (cfg8.win 3).flush t = true ∧ i ∈ ((cfg8.win 3).blk t).view.set := by
  have hi0 : (i 0).val < 4096 := (i 0).isLt
  have hi1 : (i 1).val < 512 := (i 1).isLt
  obtain ⟨t, ht⟩ : ∃ t : Fin cfg8.N, t.val = (i 0).val / 512 :=
    ⟨⟨(i 0).val / 512, lt_of_lt_of_eq (show (i 0).val / 512 < 8 by omega) N_8.symm⟩, rfl⟩
  obtain ⟨-, -, -, -, -, -, e0, e1⟩ := idx_facts8 t
  refine ⟨t, flush8_3 t, ?_⟩
  rw [mem_blk8_3]
  intro a
  match a with
  | ⟨0, _⟩ =>
    show win8_3.index t (0 : Fin 2) * 512 ≤ (i 0).val ∧ (i 0).val < win8_3.index t (0 : Fin 2) * 512 + 512
    omega
  | ⟨1, _⟩ =>
    show win8_3.index t (1 : Fin 2) * 512 ≤ (i 1).val ∧ (i 1).val < win8_3.index t (1 : Fin 2) * 512 + 512
    omega

/-- The single-precision result array after the region: the one function of the two arrays as the region finds
    them. -/
theorem final8_2 (c : Dev nD) :
    (dat8 (F := Ideal) V c).arrAt 2 cfg8.N
      = G8_2 (V c (Pipeline.arrRef spec8 0)) (V c (Pipeline.arrRef spec8 1)) :=
  (dat8 (F := Ideal) V c).arrAt_eq_of_cover 2
    (G8_2 (V c (Pipeline.arrRef spec8 0)) (V c (Pipeline.arrRef spec8 1)))
    (fun t _ => flushed8_2_eq V c t) covered8_2

/-- The bf16 result array after the region: the one function of the two arrays as the region finds them. -/
theorem final8_3 (c : Dev nD) :
    (dat8 (F := Ideal) V c).arrAt 3 cfg8.N
      = G8_3 (V c (Pipeline.arrRef spec8 0)) (V c (Pipeline.arrRef spec8 1)) :=
  (dat8 (F := Ideal) V c).arrAt_eq_of_cover 3
    (G8_3 (V c (Pipeline.arrRef spec8 0)) (V c (Pipeline.arrRef spec8 1)))
    (fun t _ => flushed8_3_eq V c t) covered8_3

/-! ## 3. Over the reals -/

/-- The rectified product over the reals, over variables: when the two arrays are entrywise the coercions of
    real matrices `ADJ`, `U`, the value `max (∑ k, a (p, k) · u (k, q)) 0` is the coercion of
    `relu (ADJ · U) p q`.  (Each product, the sum and the maximum with zero are operations of finite extended
    reals.) -/
theorem G8_real (a : Vec Ideal S4096x4096 .bf16) (u : Vec Ideal S4096x512 .bf16)
    (ADJ : RealNet.M 4096 4096) (U : RealNet.M 4096 512)
    (hA : ∀ (p k : Fin 4096), a (ix2 p k) = ((ADJ p k : ℝ) : EReal))
    (hU : ∀ (k : Fin 4096) (q : Fin 512), u (ix2 k q) = ((U k q : ℝ) : EReal))
    (p : Fin 4096) (q : Fin 512) :
    max (∑ k : Fin 4096, a (ix2 p k) * u (ix2 k q)) 0 = ((RealNet.relu (ADJ * U) p q : ℝ) : EReal) := by
  have hs : (∑ k : Fin 4096, a (ix2 p k) * u (ix2 k q)) = (((ADJ * U) p q : ℝ) : EReal) := by
    rw [← RealNet.lift_matmul ADJ U p q]
    exact Finset.sum_congr rfl fun k _ => by rw [hA, hU]; rfl
  rw [hs, RealNet.lift_max_zero]
  rfl

/-- The single-precision result array after the region, over the reals: with the two arrays the region finds
    entrywise the coercions of `ADJ`, `U`, every entry is the coercion of `relu (ADJ · U)` there. -/
theorem final8_2_real (c : Dev nD) (ADJ : RealNet.M 4096 4096) (U : RealNet.M 4096 512)
    (hA : ∀ (p k : Fin 4096), V c (Pipeline.arrRef spec8 0) (ix2 p k) = ((ADJ p k : ℝ) : EReal))
    (hU : ∀ (k : Fin 4096) (q : Fin 512), V c (Pipeline.arrRef spec8 1) (ix2 k q) = ((U k q : ℝ) : EReal))
    (p : Fin 4096) (q : Fin 512) :
    (dat8 (F := Ideal) V c).arrAt 2 cfg8.N (ix2 p q) = ((RealNet.relu (ADJ * U) p q : ℝ) : EReal) :=
  (congrFun (final8_2 V c) (ix2 p q)).trans (G8_real _ _ ADJ U hA hU p q)

/-- The bf16 result array after the region, over the reals: the same matrix `relu (ADJ · U)`. -/
theorem final8_3_real (c : Dev nD) (ADJ : RealNet.M 4096 4096) (U : RealNet.M 4096 512)
    (hA : ∀ (p k : Fin 4096), V c (Pipeline.arrRef spec8 0) (ix2 p k) = ((ADJ p k : ℝ) : EReal))
    (hU : ∀ (k : Fin 4096) (q : Fin 512), V c (Pipeline.arrRef spec8 1) (ix2 k q) = ((U k q : ℝ) : EReal))
    (p : Fin 4096) (q : Fin 512) :
    (dat8 (F := Ideal) V c).arrAt 3 cfg8.N (ix2 p q) = ((RealNet.relu (ADJ * U) p q : ℝ) : EReal) :=
  (congrFun (final8_3 V c) (ix2 p q)).trans (G8_real _ _ ADJ U hA hU p q)

end Cert.KernelIdeal.HandValue

end
-- ==== Proof.KernelIdealV9.lean ====
/-
  The Gram sweep, read as values at the exact instance.

  One grid point of the sweep takes a block of 1024 rows of the array `z` and the whole of the same array, and
  leaves the 1024 rows of `½ (1 + tanh (½ (z · zᵀ)))`: the product contracts the last axis of both operands,
  and the logistic function is spelt through the hyperbolic tangent.  This module reads that off in three
  steps: the body's arithmetic at one entry of the block; the four blocks put together as one function of the
  two arrays the two windows read, entry by entry; and the same over the reals when both arrays are the
  coercion of one real matrix.
-/
import proofs.«140843_g75050258530825_cont_9to1_m_403_24_alg».proof.Proof.KernelIdealR9
import proofs.«140843_g75050258530825_cont_9to1_m_403_24_alg».proof.Proof.LibIdealMatmul
import proofs.«140843_g75050258530825_cont_9to1_m_403_24_alg».proof.Proof.LibRealLift
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators Matrix

/-! ## 1. The body's arithmetic at one entry -/

/-- The dimension numbers of the sweep's product: 1024 × 512 against 4096 × 512, contracting the last axis of
    both. -/
abbrev dot9 : DotDims S1024x512 S4096x512 S1024x4096 := dot_S1024x512_S4096x512_S1024x4096_1_1_0_0_n_n

/-- The product into a zero accumulator, at entry `(p, q)`: the sum over `k` of `x0 (p, k) · x1 (q, k)`. -/
theorem matmul9_apply (x0 : FVec Ideal S1024x512 .bf16) (x1 : FVec Ideal S4096x512 .bf16)
    (p : Fin 1024) (q : Fin 4096) :
    FloatOps.matmul dot9 none x0 x1 (constant (F := Ideal) S1024x4096 .f32 0x00000000#32) (ix2 p q)
      = ∑ k : Fin 512, x0 (ix2 p k) * x1 (ix2 q k) :=
  IdealMatmul.transposedRhs_zero_apply 1024 512 4096 x0 x1 p q

/-- The body's stored value at entry `(p, q)` of the block: with `s = ∑ k, x0 (p, k) · x1 (q, k)`, the value
    `½ (1 + tanh (½ s))`.  (The shape casts are identities, the accumulator is the zero word, and the two
    constant words are one half and one.) -/
theorem pay9_1_apply (x0 : Vec Ideal S1024x512 .bf16) (x1 : Vec Ideal S4096x512 .bf16) (p : Fin 1024) (q : Fin 4096) :
    k9_pay1 x0 x1 (ix2 p q)
      = ((1 / 2 : ℝ) : EReal) * (((1 : ℝ) : EReal)
          + Ideal.tanh (((1 / 2 : ℝ) : EReal) * ∑ k : Fin 512, x0 (ix2 p k) * x1 (ix2 q k))) := by
  unfold k9_pay1
  simp only [shapeCast_self]
  show Ideal.ofBits .f32 0x3F000000#32 * (Ideal.ofBits .f32 0x3F800000#32
      + Ideal.tanh (Ideal.ofBits .f32 0x3F000000#32
          * FloatOps.matmul (φ₁ := .bf16) (φ₂ := .bf16) dot9 none x0 x1
              (constant (F := Ideal) S1024x4096 .f32 0x00000000#32) (ix2 p q))) = _
  rw [matmul9_apply, RealNet.ofBits_f32_half, RealNet.ofBits_f32_one]

/-! ## 2. The four blocks as one function of the two arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz9 : (![0, 0] : Fin 2 → Nat) = fun _ => 0 := funext fun a => by fin_cases a <;> rfl

/-- The sweep's result as one function of the array `z0` the first window reads and the array `z1` the second
    window reads, entry by entry: entry `(P, Q)` uses row `P` of `z0` and row `Q` of `z1`. -/
def G9_2 (z0 z1 : Vec Ideal S4096x512 .bf16) : Vec Ideal S4096x4096 .f32 :=
  fun i => ((1 / 2 : ℝ) : EReal) * (((1 : ℝ) : EReal)
    + Ideal.tanh (((1 / 2 : ℝ) : EReal) * ∑ k : Fin 512, z0 (ix2 (⟨(i 0).val, (i 0).isLt⟩ : Fin 4096) k)
        * z1 (ix2 (⟨(i 1).val, (i 1).isLt⟩ : Fin 4096) k)))

/-- The result at entry `(P, Q)`. -/
theorem G9_2_apply (z0 z1 : Vec Ideal S4096x512 .bf16) (P Q : Fin 4096) :
    G9_2 z0 z1 (ix2 P Q)
      = ((1 / 2 : ℝ) : EReal) * (((1 : ℝ) : EReal)
          + Ideal.tanh (((1 / 2 : ℝ) : EReal) * ∑ k : Fin 512, z0 (ix2 P k) * z1 (ix2 Q k))) := rfl

/-- One point, over variables: when the first block is row `P` of `z0` along row `p` and the second is `z1` along
    row `q`, the body's value at `(p, q)` is the result at `(P, q)`. -/
theorem point9_2 (z0 z1 : Vec Ideal S4096x512 .bf16)
    (x0 : Vec Ideal S1024x512 .bf16) (x1 : Vec Ideal S4096x512 .bf16)
    (p : Fin 1024) (q : Fin 4096) (P : Fin 4096)
    (h0 : ∀ k : Fin 512, x0 (ix2 p k) = z0 (ix2 P k))
    (h1 : ∀ k : Fin 512, x1 (ix2 q k) = z1 (ix2 q k)) :
    k9_pay1 x0 x1 (ix2 p q) = G9_2 z0 z1 (ix2 P q) := by
  rw [pay9_1_apply, G9_2_apply]
  refine congrArg (fun s => ((1 / 2 : ℝ) : EReal) * (((1 : ℝ) : EReal) + Ideal.tanh (((1 / 2 : ℝ) : EReal) * s)))
    (Finset.sum_congr rfl fun k _ => ?_)
  rw [h0 k, h1 k]

/-- The printed index maps, decided once over the four points: the first window's and the result's blocks are
    row block `t`; the second window's block is the whole array. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- Where the first window's entry `(p, k)` at point `t` sits in the array: row `1024 t + p`, column `k`. -/
theorem emb9_0 (t : Fin cfg9.N) (p : Fin 1024) (k : Fin 512) (P : Fin 4096) (hP : P.val = t.val * 1024 + p.val) :
    ((cfg9.win 0).blk t).view.emb (ix2 p k) = ix2 P k := by
  obtain ⟨e0, e1, -⟩ := idx_facts9 t
  funext a; apply Fin.ext
  match a with
  | ⟨0, _⟩ => show win9_0.index t (0 : Fin 2) * 1024 + 1 * p.val = P.val; omega
  | ⟨1, _⟩ => show win9_0.index t (1 : Fin 2) * 512 + 1 * k.val = k.val; omega

/-- The second window's block is the whole array: entry `(q, k)` sits at `(q, k)`. -/
theorem emb9_1 (t : Fin cfg9.N) (q : Fin 4096) (k : Fin 512) :
    ((cfg9.win 1).blk t).view.emb (ix2 q k) = ix2 q k := by
  obtain ⟨-, -, e0, e1, -⟩ := idx_facts9 t
  funext a; apply Fin.ext
  match a with
  | ⟨0, _⟩ => show win9_1.index t (0 : Fin 2) * 4096 + 1 * q.val = q.val; omega
  | ⟨1, _⟩ => show win9_1.index t (1 : Fin 2) * 512 + 1 * k.val = k.val; omega

/-- Where the result block's entry `(p, q)` at point `t` sits in the array: row `1024 t + p`, column `q`. -/
theorem emb9_2 (t : Fin cfg9.N) (p : Fin 1024) (q : Fin 4096) (P : Fin 4096) (hP : P.val = t.val * 1024 + p.val) :
    ((cfg9.win 2).blk t).view.emb (ix2 p q) = ix2 P q := by
  obtain ⟨-, -, -, -, e0, e1⟩ := idx_facts9 t
  funext a; apply Fin.ext
  match a with
  | ⟨0, _⟩ => show win9_2.index t (0 : Fin 2) * 1024 + 1 * p.val = P.val; omega
  | ⟨1, _⟩ => show win9_2.index t (1 : Fin 2) * 4096 + 1 * q.val = q.val; omega

/-- The first window's block at point `t`, entry `(p, k)`, is its array's entry `(1024 t + p, k)`. -/
theorem iblk9_0_apply (c : Dev nD) (t : Fin cfg9.N) (p : Fin 1024) (k : Fin 512) (P : Fin 4096)
    (hP : P.val = t.val * 1024 + p.val) :
    iblk9 V c 0 t (ix2 p k) = V c (Pipeline.arrRef spec9 0) (ix2 P k) := by
  show V c (Pipeline.arrRef spec9 0) (((cfg9.win 0).blk t).view.emb (ix2 p k)) = _
  rw [emb9_0 t p k P hP]

/-- The second window's block at any point is its array. -/
theorem iblk9_1_apply (c : Dev nD) (t : Fin cfg9.N) (q : Fin 4096) (k : Fin 512) :
    iblk9 V c 1 t (ix2 q k) = V c (Pipeline.arrRef spec9 1) (ix2 q k) := by
  show V c (Pipeline.arrRef spec9 1) (((cfg9.win 1).blk t).view.emb (ix2 q k)) = _
  rw [emb9_1 t q k]

/-- What point `t` writes back is block `t` of the result of the two arrays as the region finds them. -/
theorem flushed9_2_eq (c : Dev nD) (t : Fin cfg9.N) :
    (dat9 (F := Ideal) V c).flushed 2 t
      = ((cfg9.win 2).blk t).view.read (Elt Ideal)
          (G9_2 (V c (Pipeline.arrRef spec9 0)) (V c (Pipeline.arrRef spec9 1))) := by
  show (cfg9.win 2).cut (grid9.coords t) ((dat9 V c).after 2 t) = _
  rw [after9_2]
  unfold out9_2
  rw [View.canon_unit_zero hz9]
  simp only [View.ld_unit_zero (S := S1024x512) hz9, View.ld_unit_zero (S := S4096x512) hz9]
  funext j
  obtain ⟨p, q, rfl⟩ : ∃ (p : Fin 1024) (q : Fin 4096), j = ix2 p q :=
    ⟨j 0, j 1, eq_ix2 (n0 := 1024) (n1 := 4096) j⟩
  have ht : t.val < 4 := lt_of_lt_of_eq t.isLt N_9
  have hP : t.val * 1024 + p.val < 4096 := by have := p.isLt; omega
  show k9_pay1 (iblk9 V c 0 t) (iblk9 V c 1 t) (ix2 p q)
    = G9_2 (V c (Pipeline.arrRef spec9 0)) (V c (Pipeline.arrRef spec9 1))
        (((cfg9.win 2).blk t).view.emb (ix2 p q))
  rw [emb9_2 t p q ⟨t.val * 1024 + p.val, hP⟩ rfl]
  exact point9_2 _ _ _ _ p q ⟨t.val * 1024 + p.val, hP⟩
    (fun k => iblk9_0_apply V c t p k ⟨t.val * 1024 + p.val, hP⟩ rfl) (fun k => iblk9_1_apply V c t q k)

/-- An entry of the array lies in point `t`'s result block iff each coordinate lies in the block's range. -/
theorem mem_blk9_2 (t : Fin cfg9.N) (i : S4096x4096.Idx) :
    i ∈ ((cfg9.win 2).blk t).view.set ↔ ∀ a : Fin 2, win9_2.index t a * S1024x4096.size a ≤ (i a).val
      ∧ (i a).val < win9_2.index t a * S1024x4096.size a + S1024x4096.size a := by
  show i ∈ ((View.whole main_v37).slice (win9_2.rect t)).set ↔ _
  rw [View.set_slice_whole, Rect.mem_set_unit]
  exact Iff.rfl

/-- Every entry of the array is in some point's result block: row `P` is covered by point `P / 1024`. -/
theorem covered9_2 (i : S4096x4096.Idx) :
    ∃ t : Fin cfg9.N, (cfg9.win 2).flush t = true ∧ i ∈ ((cfg9.win 2).blk t).view.set := by
  have hi0 : (i 0).val < 4096 := (i 0).isLt
  have hi1 : (i 1).val < 4096 := (i 1).isLt
  obtain ⟨t, ht⟩ : ∃ t : Fin cfg9.N, t.val = (i 0).val / 1024 :=
    ⟨⟨(i 0).val / 1024, lt_of_lt_of_eq (show (i 0).val / 1024 < 4 by omega) N_9.symm⟩, rfl⟩
  obtain ⟨-, -, -, -, e0, e1⟩ := idx_facts9 t
  refine ⟨t, flush9_2 t, ?_⟩
  rw [mem_blk9_2]
  intro a
  match a with
  | ⟨0, _⟩ =>
    show win9_2.index t (0 : Fin 2) * 1024 ≤ (i 0).val ∧ (i 0).val < win9_2.index t (0 : Fin 2) * 1024 + 1024
    omega
  | ⟨1, _⟩ =>
    show win9_2.index t (1 : Fin 2) * 4096 ≤ (i 1).val ∧ (i 1).val < win9_2.index t (1 : Fin 2) * 4096 + 4096
    omega

/-- The result array after the region: the one function of the two arrays as the region finds them. -/
theorem final9_2 (c : Dev nD) :
    (dat9 (F := Ideal) V c).arrAt 2 cfg9.N
      = G9_2 (V c (Pipeline.arrRef spec9 0)) (V c (Pipeline.arrRef spec9 1)) :=
  (dat9 (F := Ideal) V c).arrAt_eq_of_cover 2
    (G9_2 (V c (Pipeline.arrRef spec9 0)) (V c (Pipeline.arrRef spec9 1)))
    (fun t _ => flushed9_2_eq V c t) covered9_2

/-! ## 3. Over the reals -/

/-- The result over the reals, over variables: when both arrays are entrywise the coercion of one real matrix
    `Z`, the result at `(p, q)` is the coercion of the logistic function of the Gram matrix, `logistic (Z · Zᵀ) p q`.
    (Each product, the sum, and the three operations around the hyperbolic tangent are operations of finite
    extended reals; `½ (1 + tanh (x / 2))` is the logistic function of `x`.) -/
theorem G9_2_real (z0 z1 : Vec Ideal S4096x512 .bf16) (Z : RealNet.M 4096 512)
    (h0 : ∀ (p : Fin 4096) (k : Fin 512), z0 (ix2 p k) = ((Z p k : ℝ) : EReal))
    (h1 : ∀ (p : Fin 4096) (k : Fin 512), z1 (ix2 p k) = ((Z p k : ℝ) : EReal))
    (p q : Fin 4096) :
    G9_2 z0 z1 (ix2 p q) = ((RealNet.logistic (Z * Zᵀ) p q : ℝ) : EReal) := by
  rw [G9_2_apply]
  have hs : (∑ k : Fin 512, z0 (ix2 p k) * z1 (ix2 q k)) = RealNet.coeM (Z * Zᵀ) p q := by
    rw [← RealNet.lift_matmul_transpose_apply Z Z p q]
    exact Finset.sum_congr rfl fun k _ => by rw [h0, h1]; rfl
  rw [hs, RealNet.lift_logisticTanh_apply, RealNet.logisticTanh_eq]
  rfl

/-- The result array after the region, over the reals: with the two arrays the region finds both entrywise the
    coercion of `Z`, every entry is the coercion of `logistic (Z · Zᵀ)` there. -/
theorem final9_2_real (c : Dev nD) (Z : RealNet.M 4096 512)
    (h0 : ∀ (p : Fin 4096) (k : Fin 512), V c (Pipeline.arrRef spec9 0) (ix2 p k) = ((Z p k : ℝ) : EReal))
    (h1 : ∀ (p : Fin 4096) (k : Fin 512), V c (Pipeline.arrRef spec9 1) (ix2 p k) = ((Z p k : ℝ) : EReal))
    (p q : Fin 4096) :
    (dat9 (F := Ideal) V c).arrAt 2 cfg9.N (ix2 p q) = ((RealNet.logistic (Z * Zᵀ) p q : ℝ) : EReal) :=
  (congrFun (final9_2 V c) (ix2 p q)).trans (G9_2_real _ _ Z h0 h1 p q)

end Cert.KernelIdeal.HandValue

end
-- ==== Proof.NetForward.lean ====
/-
  The forward pass of the dense graph autoencoder, over the reals.

  `Args` bundles the twenty-eight argument arrays as real matrices and vectors.  The nine results
  are then plain matrix expressions: an eight-layer autoencoder on `x` (latent `r`, reconstruction
  `xbar`), nine graph convolutions `relu (adj (H W))` whose second layer mixes in the encoder's
  activations, the propagated latent `zl = adj (z + r)`, two soft assignments against the cluster
  centres, and the logistic of the Gram matrix of the last convolution.
-/
import proofs.«140843_g75050258530825_cont_9to1_m_403_24_alg».proof.Proof.LibRealNet

noncomputable section

namespace RealNet

open Matrix

/-- The argument arrays, as real matrices and vectors (extents are the program's). -/
structure Args where
  x : M 4096 512
  adj : M 4096 4096
  e1w : M 512 500
  e1b : Fin 500 → ℝ
  e2w : M 500 500
  e2b : Fin 500 → ℝ
  e3w : M 500 2000
  e3b : Fin 2000 → ℝ
  zlw : M 2000 10
  zlb : Fin 10 → ℝ
  d1w : M 10 2000
  d1b : Fin 2000 → ℝ
  d2w : M 2000 500
  d2b : Fin 500 → ℝ
  d3w : M 500 500
  d3b : Fin 500 → ℝ
  xbw : M 500 512
  xbb : Fin 512 → ℝ
  g1 : M 512 500
  g2 : M 500 500
  g3 : M 500 2000
  g4 : M 2000 10
  g5 : M 10 10
  g6 : M 10 2000
  g7 : M 2000 500
  g8 : M 500 500
  g9 : M 500 512
  cluster : M 10 10

namespace Args

variable (A : Args)

/-! ### The autoencoder branch -/
def re1 : M 4096 500 := relu (lin A.x A.e1w A.e1b)
def re2 : M 4096 500 := relu (lin A.re1 A.e2w A.e2b)
def re3 : M 4096 2000 := relu (lin A.re2 A.e3w A.e3b)
/-- The latent code. -/
def r : M 4096 10 := lin A.re3 A.zlw A.zlb
def rd1 : M 4096 2000 := relu (lin A.r A.d1w A.d1b)
def rd2 : M 4096 500 := relu (lin A.rd1 A.d2w A.d2b)
def rd3 : M 4096 500 := relu (lin A.rd2 A.d3w A.d3b)
/-- The reconstruction. -/
def xbar : M 4096 512 := lin A.rd3 A.xbw A.xbb

/-! ### The graph branch: each convolution is `relu (adj (H W))` -/
def z1 : M 4096 500 := relu (A.adj * (A.x * A.g1))
def h2 : M 4096 500 := relu (lin (A.z1 + A.re1) A.e2w A.e2b)
def z2 : M 4096 500 := relu (A.adj * (A.z1 * A.g2))
def z3 : M 4096 2000 := relu (A.adj * ((A.z2 + A.h2) * A.g3))
def z : M 4096 10 := relu (A.adj * (A.z3 * A.g4))
def ar : M 4096 10 := relu (A.adj * ((A.z + A.r) * A.g5))
def zl : M 4096 10 := A.adj * (A.z + A.r)
def dz1 : M 4096 2000 := relu (A.adj * (A.z * A.g6))
def dz2 : M 4096 500 := relu (A.adj * (A.dz1 * A.g7))
def dz3 : M 4096 500 := relu (A.adj * (A.dz2 * A.g8))
def zhat : M 4096 512 := relu (A.adj * (A.dz3 * A.g9))
def adjhat : M 4096 4096 := logistic (A.zhat * A.zhatᵀ)
def q : M 4096 10 := softAssign A.zl A.cluster
def q1 : M 4096 10 := softAssign A.r A.cluster

end Args

end RealNet

end
-- ==== Proof.RefArgs.lean ====
/-
  The hypothesis under which the reference program is read: each of its twenty-eight argument arrays is the
  entrywise coercion of the corresponding real matrix or vector of `RealNet.Args`.
-/
import proofs.«140843_g75050258530825_cont_9to1_m_403_24_alg».proof.Proof.Gen.ReferenceIdeal.Read
import proofs.«140843_g75050258530825_cont_9to1_m_403_24_alg».proof.Proof.NetForward

noncomputable section

namespace Cert.ReferenceIdeal.RefValue

open Cert.ReferenceIdeal Cert.ReferenceIdeal.Gen Idealize.ShloMosaic Idealize.ShloMosaic.ValueIdx

/-- Each argument array, read at an index built from its coordinates, is the coercion of the real entry. -/
structure ArgsAre
  (a0 : (⟨S4096x512, .f32⟩ : BufTy).Contents (Elt Ideal))
  (a1 : (⟨S4096x4096, .f32⟩ : BufTy).Contents (Elt Ideal))
  (a2 : (⟨S512x500, .f32⟩ : BufTy).Contents (Elt Ideal))
  (a3 : (⟨S500, .f32⟩ : BufTy).Contents (Elt Ideal))
  (a4 : (⟨S500x500, .f32⟩ : BufTy).Contents (Elt Ideal))
  (a5 : (⟨S500, .f32⟩ : BufTy).Contents (Elt Ideal))
  (a6 : (⟨S500x2000, .f32⟩ : BufTy).Contents (Elt Ideal))
  (a7 : (⟨S2000, .f32⟩ : BufTy).Contents (Elt Ideal))
  (a8 : (⟨S2000x10, .f32⟩ : BufTy).Contents (Elt Ideal))
  (a9 : (⟨S10, .f32⟩ : BufTy).Contents (Elt Ideal))
  (a10 : (⟨S10x2000, .f32⟩ : BufTy).Contents (Elt Ideal))
  (a11 : (⟨S2000, .f32⟩ : BufTy).Contents (Elt Ideal))
  (a12 : (⟨S2000x500, .f32⟩ : BufTy).Contents (Elt Ideal))
  (a13 : (⟨S500, .f32⟩ : BufTy).Contents (Elt Ideal))
  (a14 : (⟨S500x500, .f32⟩ : BufTy).Contents (Elt Ideal))
  (a15 : (⟨S500, .f32⟩ : BufTy).Contents (Elt Ideal))
  (a16 : (⟨S500x512, .f32⟩ : BufTy).Contents (Elt Ideal))
  (a17 : (⟨S512, .f32⟩ : BufTy).Contents (Elt Ideal))
  (a18 : (⟨S512x500, .f32⟩ : BufTy).Contents (Elt Ideal))
  (a19 : (⟨S500x500, .f32⟩ : BufTy).Contents (Elt Ideal))
  (a20 : (⟨S500x2000, .f32⟩ : BufTy).Contents (Elt Ideal))
  (a21 : (⟨S2000x10, .f32⟩ : BufTy).Contents (Elt Ideal))
  (a22 : (⟨S10x10, .f32⟩ : BufTy).Contents (Elt Ideal))
  (a23 : (⟨S10x2000, .f32⟩ : BufTy).Contents (Elt Ideal))
  (a24 : (⟨S2000x500, .f32⟩ : BufTy).Contents (Elt Ideal))
  (a25 : (⟨S500x500, .f32⟩ : BufTy).Contents (Elt Ideal))
  (a26 : (⟨S500x512, .f32⟩ : BufTy).Contents (Elt Ideal))
  (a27 : (⟨S10x10, .f32⟩ : BufTy).Contents (Elt Ideal))
  (A : RealNet.Args) : Prop where
  x : ∀ (p : Fin 4096) (q : Fin 512), a0 (ix2 p q) = ((A.x p q : ℝ) : EReal)
  adj : ∀ (p : Fin 4096) (q : Fin 4096), a1 (ix2 p q) = ((A.adj p q : ℝ) : EReal)
  e1w : ∀ (p : Fin 512) (q : Fin 500), a2 (ix2 p q) = ((A.e1w p q : ℝ) : EReal)
  e1b : ∀ p : Fin 500, a3 (ix1 p) = ((A.e1b p : ℝ) : EReal)
  e2w : ∀ (p : Fin 500) (q : Fin 500), a4 (ix2 p q) = ((A.e2w p q : ℝ) : EReal)
  e2b : ∀ p : Fin 500, a5 (ix1 p) = ((A.e2b p : ℝ) : EReal)
  e3w : ∀ (p : Fin 500) (q : Fin 2000), a6 (ix2 p q) = ((A.e3w p q : ℝ) : EReal)
  e3b : ∀ p : Fin 2000, a7 (ix1 p) = ((A.e3b p : ℝ) : EReal)
  zlw : ∀ (p : Fin 2000) (q : Fin 10), a8 (ix2 p q) = ((A.zlw p q : ℝ) : EReal)
  zlb : ∀ p : Fin 10, a9 (ix1 p) = ((A.zlb p : ℝ) : EReal)
  d1w : ∀ (p : Fin 10) (q : Fin 2000), a10 (ix2 p q) = ((A.d1w p q : ℝ) : EReal)
  d1b : ∀ p : Fin 2000, a11 (ix1 p) = ((A.d1b p : ℝ) : EReal)
  d2w : ∀ (p : Fin 2000) (q : Fin 500), a12 (ix2 p q) = ((A.d2w p q : ℝ) : EReal)
  d2b : ∀ p : Fin 500, a13 (ix1 p) = ((A.d2b p : ℝ) : EReal)
  d3w : ∀ (p : Fin 500) (q : Fin 500), a14 (ix2 p q) = ((A.d3w p q : ℝ) : EReal)
  d3b : ∀ p : Fin 500, a15 (ix1 p) = ((A.d3b p : ℝ) : EReal)
  xbw : ∀ (p : Fin 500) (q : Fin 512), a16 (ix2 p q) = ((A.xbw p q : ℝ) : EReal)
  xbb : ∀ p : Fin 512, a17 (ix1 p) = ((A.xbb p : ℝ) : EReal)
  g1 : ∀ (p : Fin 512) (q : Fin 500), a18 (ix2 p q) = ((A.g1 p q : ℝ) : EReal)
  g2 : ∀ (p : Fin 500) (q : Fin 500), a19 (ix2 p q) = ((A.g2 p q : ℝ) : EReal)
  g3 : ∀ (p : Fin 500) (q : Fin 2000), a20 (ix2 p q) = ((A.g3 p q : ℝ) : EReal)
  g4 : ∀ (p : Fin 2000) (q : Fin 10), a21 (ix2 p q) = ((A.g4 p q : ℝ) : EReal)
  g5 : ∀ (p : Fin 10) (q : Fin 10), a22 (ix2 p q) = ((A.g5 p q : ℝ) : EReal)
  g6 : ∀ (p : Fin 10) (q : Fin 2000), a23 (ix2 p q) = ((A.g6 p q : ℝ) : EReal)
  g7 : ∀ (p : Fin 2000) (q : Fin 500), a24 (ix2 p q) = ((A.g7 p q : ℝ) : EReal)
  g8 : ∀ (p : Fin 500) (q : Fin 500), a25 (ix2 p q) = ((A.g8 p q : ℝ) : EReal)
  g9 : ∀ (p : Fin 500) (q : Fin 512), a26 (ix2 p q) = ((A.g9 p q : ℝ) : EReal)
  cluster : ∀ (p : Fin 10) (q : Fin 10), a27 (ix2 p q) = ((A.cluster p q : ℝ) : EReal)

end Cert.ReferenceIdeal.RefValue

end
-- ==== Proof.NetReassoc.lean ====
/-
  Re-associations of the forward pass.

  A graph convolution `relu (adj (H W))` may equally apply the adjacency first, `relu ((adj H) W)`, since
  the matrix product is associative; and the propagated latent `adj (z + r)` splits as `adj z + adj r`,
  since it distributes over the sum.  This module records those forms for the four places of the network
  where the narrower factor is swept first.
-/
import proofs.«140843_g75050258530825_cont_9to1_m_403_24_alg».proof.Proof.NetForward

noncomputable section

namespace RealNet

open Matrix

namespace Args

variable (A : Args)

/-- The third graph convolution with the adjacency applied first: `adj ((z₂ + h₂) g₃) = (adj (z₂ + h₂)) g₃`. -/
theorem z3_eq : A.z3 = relu ((A.adj * (A.z2 + A.h2)) * A.g3) := by
  rw [z3, Matrix.mul_assoc]

/-- The propagated latent splits over the sum: `adj (z + r) = adj z + adj r`. -/
theorem zl_eq : A.zl = A.adj * A.z + A.adj * A.r := by
  rw [zl, Matrix.mul_add]

/-- The fifth graph convolution through the two propagated summands:
    `adj ((z + r) g₅) = (adj z + adj r) g₅`. -/
theorem ar_eq : A.ar = relu ((A.adj * A.z + A.adj * A.r) * A.g5) := by
  rw [ar, ← Matrix.mul_assoc, Matrix.mul_add]

/-- The fifth graph convolution through the propagated latent: `adj ((z + r) g₅) = zl g₅`. -/
theorem ar_eq_zl : A.ar = relu (A.zl * A.g5) := by
  rw [ar, zl, Matrix.mul_assoc]

/-- The sixth graph convolution with the adjacency applied first: `adj (z g₆) = (adj z) g₆`. -/
theorem dz1_eq : A.dz1 = relu ((A.adj * A.z) * A.g6) := by
  rw [dz1, Matrix.mul_assoc]

/-- The soft assignment of the propagated latent, through the two propagated summands. -/
theorem q_eq : A.q = softAssign (A.adj * A.z + A.adj * A.r) A.cluster := by
  rw [q, zl_eq]

end Args

end RealNet

end
-- ==== Proof.KernelIdealChain.lean ====
/-
  The kernel program's values, boundary by boundary.  Under the hypothesis that the launch memory's argument arrays
  are the coercions of real arrays, every buffer a later item reads holds, at the boundary where it is read, the
  coercion of a real matrix: the host stretches copy, reshape or transpose arguments; each region's outputs are its
  real form of its inputs.  Read at the last boundary, the nine results are the real network's nine results.
-/
import proofs.«140843_g75050258530825_cont_9to1_m_403_24_alg».proof.Proof.KernelIdealRun
import proofs.«140843_g75050258530825_cont_9to1_m_403_24_alg».proof.Proof.KernelIdealV1
import proofs.«140843_g75050258530825_cont_9to1_m_403_24_alg».proof.Proof.KernelIdealV2
import proofs.«140843_g75050258530825_cont_9to1_m_403_24_alg».proof.Proof.KernelIdealV3
import proofs.«140843_g75050258530825_cont_9to1_m_403_24_alg».proof.Proof.KernelIdealV4
import proofs.«140843_g75050258530825_cont_9to1_m_403_24_alg».proof.Proof.KernelIdealV5
import proofs.«140843_g75050258530825_cont_9to1_m_403_24_alg».proof.Proof.KernelIdealV6
import proofs.«140843_g75050258530825_cont_9to1_m_403_24_alg».proof.Proof.KernelIdealV7
import proofs.«140843_g75050258530825_cont_9to1_m_403_24_alg».proof.Proof.KernelIdealV8
import proofs.«140843_g75050258530825_cont_9to1_m_403_24_alg».proof.Proof.KernelIdealV9
import proofs.«140843_g75050258530825_cont_9to1_m_403_24_alg».proof.Proof.RefArgs
import proofs.«140843_g75050258530825_cont_9to1_m_403_24_alg».proof.Proof.NetReassoc
import proofs.«140843_g75050258530825_cont_9to1_m_403_24_alg».proof.Proof.NetPack
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo
open Cert.ReferenceIdeal.RefValue (ArgsAre)

variable (m : (ℓ : Loc nD τ sig) → Buf (Elt Ideal) ℓ) (c : Dev nD) (A : RealNet.Args)
/-- The launch memory's twenty-eight argument arrays are the coercions of `A`'s. -/
abbrev MemIs : Prop :=
  ArgsAre (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))
    (m ((c.tc : Thread nD τ).loc main_arg22))
    (m ((c.tc : Thread nD τ).loc main_arg23))
    (m ((c.tc : Thread nD τ).loc main_arg24))
    (m ((c.tc : Thread nD τ).loc main_arg25))
    (m ((c.tc : Thread nD τ).loc main_arg26))
    (m ((c.tc : Thread nD τ).loc main_arg27)) A

/-- Walk a buffer back through the boundaries to the last item that wrote it: at each boundary, downwards, step back
    if the item before it does not write the buffer. -/
local macro "walk_back" : tactic =>
  `(tactic| (
    try rw [W16_keep _ _ _ (by decide)]
    try rw [W15_keep _ _ _ (by decide)]
    try rw [W14_keep _ _ _ (by decide)]
    try rw [W13_keep _ _ _ (by decide)]
    try rw [W12_keep _ _ _ (by decide)]
    try rw [W11_keep _ _ _ (by decide)]
    try rw [W10_keep _ _ _ (by decide)]
    try rw [W9_keep _ _ _ (by decide)]
    try rw [W8_keep _ _ _ (by decide)]
    try rw [W7_keep _ _ _ (by decide)]
    try rw [W6_keep _ _ _ (by decide)]
    try rw [W5_keep _ _ _ (by decide)]
    try rw [W4_keep _ _ _ (by decide)]
    try rw [W3_keep _ _ _ (by decide)]
    try rw [W2_keep _ _ _ (by decide)]
    try rw [W1_keep _ _ _ (by decide)]))

/-! ## The arguments through the first host stretch -/

/-- A narrowed weight after the first host stretch is the argument it narrows (a change of format is the identity). -/
theorem W1_v1 (h : MemIs m c A) (p : Fin 512) (q : Fin 500) :
    W1 m c (Proc.devRef .tc main_v1) (ix2 p q) = ((A.e1w p q : ℝ) : EReal) := by
  have e : W1 m c (Proc.devRef .tc main_v1)
      = (truncf (F := Ideal) .bf16 (W0 m c (Proc.devRef .tc main_arg2) : FVec Ideal S512x500 .f32) bitsLt_bf16_f32
          : FVec Ideal S512x500 .bf16) := by
    unfold W1; dsimp only [hostOps0]; after_results
  rw [e]; exact h.e1w p q

theorem W1_v2 (h : MemIs m c A) (p q : Fin 500) :
    W1 m c (Proc.devRef .tc main_v2) (ix2 p q) = ((A.e2w p q : ℝ) : EReal) := by
  have e : W1 m c (Proc.devRef .tc main_v2)
      = (truncf (F := Ideal) .bf16 (W0 m c (Proc.devRef .tc main_arg4) : FVec Ideal S500x500 .f32) bitsLt_bf16_f32
          : FVec Ideal S500x500 .bf16) := by
    unfold W1; dsimp only [hostOps0]; after_results
  rw [e]; exact h.e2w p q

theorem W1_v3 (h : MemIs m c A) (p : Fin 500) (q : Fin 2000) :
    W1 m c (Proc.devRef .tc main_v3) (ix2 p q) = ((A.e3w p q : ℝ) : EReal) := by
  have e : W1 m c (Proc.devRef .tc main_v3)
      = (truncf (F := Ideal) .bf16 (W0 m c (Proc.devRef .tc main_arg6) : FVec Ideal S500x2000 .f32) bitsLt_bf16_f32
          : FVec Ideal S500x2000 .bf16) := by
    unfold W1; dsimp only [hostOps0]; after_results
  rw [e]; exact h.e3w p q

theorem W1_v4 (h : MemIs m c A) (p : Fin 2000) (q : Fin 10) :
    W1 m c (Proc.devRef .tc main_v4) (ix2 p q) = ((A.zlw p q : ℝ) : EReal) := by
  have e : W1 m c (Proc.devRef .tc main_v4)
      = (truncf (F := Ideal) .bf16 (W0 m c (Proc.devRef .tc main_arg8) : FVec Ideal S2000x10 .f32) bitsLt_bf16_f32
          : FVec Ideal S2000x10 .bf16) := by
    unfold W1; dsimp only [hostOps0]; after_results
  rw [e]; exact h.zlw p q

theorem W1_v5 (h : MemIs m c A) (p : Fin 10) (q : Fin 2000) :
    W1 m c (Proc.devRef .tc main_v5) (ix2 p q) = ((A.d1w p q : ℝ) : EReal) := by
  have e : W1 m c (Proc.devRef .tc main_v5)
      = (truncf (F := Ideal) .bf16 (W0 m c (Proc.devRef .tc main_arg10) : FVec Ideal S10x2000 .f32) bitsLt_bf16_f32
          : FVec Ideal S10x2000 .bf16) := by
    unfold W1; dsimp only [hostOps0]; after_results
  rw [e]; exact h.d1w p q

theorem W1_v6 (h : MemIs m c A) (p : Fin 2000) (q : Fin 500) :
    W1 m c (Proc.devRef .tc main_v6) (ix2 p q) = ((A.d2w p q : ℝ) : EReal) := by
  have e : W1 m c (Proc.devRef .tc main_v6)
      = (truncf (F := Ideal) .bf16 (W0 m c (Proc.devRef .tc main_arg12) : FVec Ideal S2000x500 .f32) bitsLt_bf16_f32
          : FVec Ideal S2000x500 .bf16) := by
    unfold W1; dsimp only [hostOps0]; after_results
  rw [e]; exact h.d2w p q

theorem W1_v7 (h : MemIs m c A) (p q : Fin 500) :
    W1 m c (Proc.devRef .tc main_v7) (ix2 p q) = ((A.d3w p q : ℝ) : EReal) := by
  have e : W1 m c (Proc.devRef .tc main_v7)
      = (truncf (F := Ideal) .bf16 (W0 m c (Proc.devRef .tc main_arg14) : FVec Ideal S500x500 .f32) bitsLt_bf16_f32
          : FVec Ideal S500x500 .bf16) := by
    unfold W1; dsimp only [hostOps0]; after_results
  rw [e]; exact h.d3w p q

theorem W1_v8 (h : MemIs m c A) (p : Fin 500) (q : Fin 512) :
    W1 m c (Proc.devRef .tc main_v8) (ix2 p q) = ((A.xbw p q : ℝ) : EReal) := by
  have e : W1 m c (Proc.devRef .tc main_v8)
      = (truncf (F := Ideal) .bf16 (W0 m c (Proc.devRef .tc main_arg16) : FVec Ideal S500x512 .f32) bitsLt_bf16_f32
          : FVec Ideal S500x512 .bf16) := by
    unfold W1; dsimp only [hostOps0]; after_results
  rw [e]; exact h.xbw p q

theorem W1_v17 (h : MemIs m c A) (p : Fin 512) (q : Fin 500) :
    W1 m c (Proc.devRef .tc main_v17) (ix2 p q) = ((A.g1 p q : ℝ) : EReal) := by
  have e : W1 m c (Proc.devRef .tc main_v17)
      = (truncf (F := Ideal) .bf16 (W0 m c (Proc.devRef .tc main_arg18) : FVec Ideal S512x500 .f32) bitsLt_bf16_f32
          : FVec Ideal S512x500 .bf16) := by
    unfold W1; dsimp only [hostOps0]; after_results
  rw [e]; exact h.g1 p q

/-- A bias after the first host stretch is the argument laid out as one row. -/
theorem W1_v9 (h : MemIs m c A) (q : Fin 500) :
    W1 m c (Proc.devRef .tc main_v9) (ix2 (0 : Fin 1) q) = ((A.e1b q : ℝ) : EReal) := by
  have e : W1 m c (Proc.devRef .tc main_v9)
      = (shapeCast S1x500 (W0 m c (Proc.devRef .tc main_arg3) : FVec Ideal S500 .f32) shapeCasts_S500_S1x500
          : FVec Ideal S1x500 .f32) := by
    unfold W1; dsimp only [hostOps0]; after_results; try rfl
  rw [e]; exact (shapeCast_a_1a_apply _ shapeCasts_S500_S1x500 (0 : Fin 1) q).trans (h.e1b q)

theorem W1_v10 (h : MemIs m c A) (q : Fin 500) :
    W1 m c (Proc.devRef .tc main_v10) (ix2 (0 : Fin 1) q) = ((A.e2b q : ℝ) : EReal) := by
  have e : W1 m c (Proc.devRef .tc main_v10)
      = (shapeCast S1x500 (W0 m c (Proc.devRef .tc main_arg5) : FVec Ideal S500 .f32) shapeCasts_S500_S1x500
          : FVec Ideal S1x500 .f32) := by
    unfold W1; dsimp only [hostOps0]; after_results; try rfl
  rw [e]; exact (shapeCast_a_1a_apply _ shapeCasts_S500_S1x500 (0 : Fin 1) q).trans (h.e2b q)

theorem W1_v11 (h : MemIs m c A) (q : Fin 2000) :
    W1 m c (Proc.devRef .tc main_v11) (ix2 (0 : Fin 1) q) = ((A.e3b q : ℝ) : EReal) := by
  have e : W1 m c (Proc.devRef .tc main_v11)
      = (shapeCast S1x2000 (W0 m c (Proc.devRef .tc main_arg7) : FVec Ideal S2000 .f32) shapeCasts_S2000_S1x2000
          : FVec Ideal S1x2000 .f32) := by
    unfold W1; dsimp only [hostOps0]; after_results; try rfl
  rw [e]; exact (shapeCast_a_1a_apply _ shapeCasts_S2000_S1x2000 (0 : Fin 1) q).trans (h.e3b q)

theorem W1_v12 (h : MemIs m c A) (q : Fin 10) :
    W1 m c (Proc.devRef .tc main_v12) (ix2 (0 : Fin 1) q) = ((A.zlb q : ℝ) : EReal) := by
  have e : W1 m c (Proc.devRef .tc main_v12)
      = (shapeCast S1x10 (W0 m c (Proc.devRef .tc main_arg9) : FVec Ideal S10 .f32) shapeCasts_S10_S1x10
          : FVec Ideal S1x10 .f32) := by
    unfold W1; dsimp only [hostOps0]; after_results; try rfl
  rw [e]; exact (shapeCast_a_1a_apply _ shapeCasts_S10_S1x10 (0 : Fin 1) q).trans (h.zlb q)

theorem W1_v13 (h : MemIs m c A) (q : Fin 2000) :
    W1 m c (Proc.devRef .tc main_v13) (ix2 (0 : Fin 1) q) = ((A.d1b q : ℝ) : EReal) := by
  have e : W1 m c (Proc.devRef .tc main_v13)
      = (shapeCast S1x2000 (W0 m c (Proc.devRef .tc main_arg11) : FVec Ideal S2000 .f32) shapeCasts_S2000_S1x2000
          : FVec Ideal S1x2000 .f32) := by
    unfold W1; dsimp only [hostOps0]; after_results; try rfl
  rw [e]; exact (shapeCast_a_1a_apply _ shapeCasts_S2000_S1x2000 (0 : Fin 1) q).trans (h.d1b q)

theorem W1_v14 (h : MemIs m c A) (q : Fin 500) :
    W1 m c (Proc.devRef .tc main_v14) (ix2 (0 : Fin 1) q) = ((A.d2b q : ℝ) : EReal) := by
  have e : W1 m c (Proc.devRef .tc main_v14)
      = (shapeCast S1x500 (W0 m c (Proc.devRef .tc main_arg13) : FVec Ideal S500 .f32) shapeCasts_S500_S1x500
          : FVec Ideal S1x500 .f32) := by
    unfold W1; dsimp only [hostOps0]; after_results; try rfl
  rw [e]; exact (shapeCast_a_1a_apply _ shapeCasts_S500_S1x500 (0 : Fin 1) q).trans (h.d2b q)

theorem W1_v15 (h : MemIs m c A) (q : Fin 500) :
    W1 m c (Proc.devRef .tc main_v15) (ix2 (0 : Fin 1) q) = ((A.d3b q : ℝ) : EReal) := by
  have e : W1 m c (Proc.devRef .tc main_v15)
      = (shapeCast S1x500 (W0 m c (Proc.devRef .tc main_arg15) : FVec Ideal S500 .f32) shapeCasts_S500_S1x500
          : FVec Ideal S1x500 .f32) := by
    unfold W1; dsimp only [hostOps0]; after_results; try rfl
  rw [e]; exact (shapeCast_a_1a_apply _ shapeCasts_S500_S1x500 (0 : Fin 1) q).trans (h.d3b q)

theorem W1_v16 (h : MemIs m c A) (q : Fin 512) :
    W1 m c (Proc.devRef .tc main_v16) (ix2 (0 : Fin 1) q) = ((A.xbb q : ℝ) : EReal) := by
  have e : W1 m c (Proc.devRef .tc main_v16)
      = (shapeCast S1x512 (W0 m c (Proc.devRef .tc main_arg17) : FVec Ideal S512 .f32) shapeCasts_S512_S1x512
          : FVec Ideal S1x512 .f32) := by
    unfold W1; dsimp only [hostOps0]; after_results; try rfl
  rw [e]; exact (shapeCast_a_1a_apply _ shapeCasts_S512_S1x512 (0 : Fin 1) q).trans (h.xbb q)

/-- The cluster centres after the first host stretch are the argument transposed. -/
theorem W1_v0 (h : MemIs m c A) (l j : Fin 10) :
    W1 m c (Proc.devRef .tc main_v0) (ix2 l j) = ((Matrix.transpose A.cluster l j : ℝ) : EReal) := by
  have e : W1 m c (Proc.devRef .tc main_v0)
      = (transpose S10x10 [1, 0] (W0 m c (Proc.devRef .tc main_arg27) : FVec Ideal S10x10 .f32)
          transposes_S10x10_S10x10_1_0 : FVec Ideal S10x10 .f32) := by
    unfold W1; dsimp only [hostOps0]; after_results
  rw [e]; exact (transpose_ix2_apply _ transposes_S10x10_S10x10_1_0 l j).trans (h.cluster j l)

/-- The input `x` is untouched by the first host stretch. -/
theorem W1_arg0 (h : MemIs m c A) (p : Fin 4096) (q : Fin 512) :
    W1 m c (Proc.devRef .tc main_arg0) (ix2 p q) = ((A.x p q : ℝ) : EReal) := by
  walk_back; exact h.x p q

/-! ## The autoencoder region's five outputs (supplied by that region's own value module) -/

/-- What the autoencoder region leaves at the boundary after it: the reconstruction, the latent code, the first
    encoder activation, the latent code's soft assignment, and the projection `x · g₁`. -/
structure Region0Facts : Prop where
  xbar : ∀ (p : Fin 4096) (q : Fin 512), W2 m c (Proc.devRef .tc main_v18_0) (ix2 p q) = ((A.xbar p q : ℝ) : EReal)
  r : ∀ (p : Fin 4096) (q : Fin 10), W2 m c (Proc.devRef .tc main_v18_1) (ix2 p q) = ((A.r p q : ℝ) : EReal)
  re1 : ∀ (p : Fin 4096) (q : Fin 500), W2 m c (Proc.devRef .tc main_v18_2) (ix2 p q) = ((A.re1 p q : ℝ) : EReal)
  q1 : ∀ (p : Fin 4096) (q : Fin 10), W2 m c (Proc.devRef .tc main_v18_3) (ix2 p q) = ((A.q1 p q : ℝ) : EReal)
  xg1 : ∀ (p : Fin 4096) (q : Fin 500),
    W2 m c (Proc.devRef .tc main_v18_4) (ix2 p q) = (((A.x * A.g1) p q : ℝ) : EReal)

variable {m c A}

/-! ## The second host stretch and the first sweep -/

theorem W3_v19 (h : MemIs m c A) (p q : Fin 500) :
    W3 m c (Proc.devRef .tc main_v19) (ix2 p q) = ((A.e2w p q : ℝ) : EReal) := by
  have e : W3 m c (Proc.devRef .tc main_v19)
      = (truncf (F := Ideal) .bf16 (W2 m c (Proc.devRef .tc main_arg4) : FVec Ideal S500x500 .f32) bitsLt_bf16_f32
          : FVec Ideal S500x500 .bf16) := by
    unfold W3; dsimp only [hostOps1]; after_results
  rw [e]
  show W2 m c (Proc.devRef .tc main_arg4) (ix2 p q) = _
  walk_back; exact h.e2w p q

theorem W3_v20 (h : MemIs m c A) (q : Fin 500) :
    W3 m c (Proc.devRef .tc main_v20) (ix2 (0 : Fin 1) q) = ((A.e2b q : ℝ) : EReal) := by
  have e : W3 m c (Proc.devRef .tc main_v20)
      = (shapeCast S1x500 (W2 m c (Proc.devRef .tc main_arg5) : FVec Ideal S500 .f32) shapeCasts_S500_S1x500
          : FVec Ideal S1x500 .f32) := by
    unfold W3; dsimp only [hostOps1]; after_results; try rfl
  rw [e]
  refine (shapeCast_a_1a_apply _ shapeCasts_S500_S1x500 (0 : Fin 1) q).trans ?_
  show W2 m c (Proc.devRef .tc main_arg5) (ix1 q) = _
  walk_back; exact h.e2b q

theorem W3_v21 (h : MemIs m c A) (p q : Fin 500) :
    W3 m c (Proc.devRef .tc main_v21) (ix2 p q) = ((A.g2 p q : ℝ) : EReal) := by
  have e : W3 m c (Proc.devRef .tc main_v21)
      = (truncf (F := Ideal) .bf16 (W2 m c (Proc.devRef .tc main_arg19) : FVec Ideal S500x500 .f32) bitsLt_bf16_f32
          : FVec Ideal S500x500 .bf16) := by
    unfold W3; dsimp only [hostOps1]; after_results
  rw [e]
  show W2 m c (Proc.devRef .tc main_arg19) (ix2 p q) = _
  walk_back; exact h.g2 p q

theorem W3_arg1 (h : MemIs m c A) (p k : Fin 4096) :
    W3 m c (Proc.devRef .tc main_arg1) (ix2 p k) = ((A.adj p k : ℝ) : EReal) := by
  walk_back; exact h.adj p k

theorem W3_v18_4 (h0 : Region0Facts m c A) (p : Fin 4096) (q : Fin 500) :
    W3 m c (Proc.devRef .tc main_v18_4) (ix2 p q) = (((A.x * A.g1) p q : ℝ) : EReal) := by
  walk_back; exact h0.xg1 p q

theorem W3_v18_2 (h0 : Region0Facts m c A) (p : Fin 4096) (q : Fin 500) :
    W3 m c (Proc.devRef .tc main_v18_2) (ix2 p q) = ((A.re1 p q : ℝ) : EReal) := by
  walk_back; exact h0.re1 p q

/-- After the first sweep: the mixed second-layer activation `h₂`. -/
theorem W4_v22_0 (h : MemIs m c A) (h0 : Region0Facts m c A) (p : Fin 4096) (q : Fin 500) :
    W4 m c (Proc.devRef .tc main_v22_0) (ix2 p q) = ((A.h2 p q : ℝ) : EReal) := by
  refine (congrFun (W4_arr m c 6) (ix2 p q)).trans ?_
  exact final1_6_real (atRefs (W3 m)) c A.adj (A.x * A.g1) A.re1 A.e2w A.e2b
    (W3_arg1 h) (W3_v18_4 h0) (W3_v18_2 h0) (W3_v19 h) (W3_v20 h) p q

/-- After the first sweep: the next sweep's operand `z₁ · g₂`. -/
theorem W4_v22_1 (h : MemIs m c A) (h0 : Region0Facts m c A) (p : Fin 4096) (q : Fin 500) :
    W4 m c (Proc.devRef .tc main_v22_1) (ix2 p q) = (((A.z1 * A.g2) p q : ℝ) : EReal) := by
  refine (congrFun (W4_arr m c 7) (ix2 p q)).trans ?_
  exact final1_7_real (atRefs (W3 m)) c A.adj (A.x * A.g1) A.g2 (W3_arg1 h) (W3_v18_4 h0) (W3_v21 h) p q

/-- After the first sweep: the adjacency's narrowed copy, which every later sweep reads. -/
theorem W4_v22_2 (h : MemIs m c A) (p k : Fin 4096) :
    W4 m c (Proc.devRef .tc main_v22_2) (ix2 p k) = ((A.adj p k : ℝ) : EReal) := by
  refine (congrFun (W4_arr m c 8) (ix2 p k)).trans ?_
  exact final1_8_real (atRefs (W3 m)) c A.adj (W3_arg1 h) p k

/-! ## The second sweep -/

theorem W5_v23 (h : MemIs m c A) (h0 : Region0Facts m c A) (p : Fin 4096) (q : Fin 500) :
    W5 m c (Proc.devRef .tc main_v23) (ix2 p q) = (((A.z2 + A.h2) p q : ℝ) : EReal) := by
  refine (congrFun (W5_arr m c 3) (ix2 p q)).trans ?_
  exact final2_3_real (atRefs (W4 m)) c A.adj (A.z1 * A.g2) A.h2 (W4_v22_2 h) (W4_v22_1 h h0) (W4_v22_0 h h0) p q

/-! ## The third host stretch and the third sweep -/

theorem W6_v24 (h : MemIs m c A) (p : Fin 500) (q : Fin 2000) :
    W6 m c (Proc.devRef .tc main_v24) (ix2 p q) = ((A.g3 p q : ℝ) : EReal) := by
  have e : W6 m c (Proc.devRef .tc main_v24)
      = (truncf (F := Ideal) .bf16 (W5 m c (Proc.devRef .tc main_arg20) : FVec Ideal S500x2000 .f32) bitsLt_bf16_f32
          : FVec Ideal S500x2000 .bf16) := by
    unfold W6; dsimp only [hostOps3]; after_results
  rw [e]
  show W5 m c (Proc.devRef .tc main_arg20) (ix2 p q) = _
  walk_back; exact h.g3 p q

theorem W6_v25 (h : MemIs m c A) (p : Fin 2000) (q : Fin 10) :
    W6 m c (Proc.devRef .tc main_v25) (ix2 p q) = ((A.g4 p q : ℝ) : EReal) := by
  have e : W6 m c (Proc.devRef .tc main_v25)
      = (truncf (F := Ideal) .bf16 (W5 m c (Proc.devRef .tc main_arg21) : FVec Ideal S2000x10 .f32) bitsLt_bf16_f32
          : FVec Ideal S2000x10 .bf16) := by
    unfold W6; dsimp only [hostOps3]; after_results
  rw [e]
  show W5 m c (Proc.devRef .tc main_arg21) (ix2 p q) = _
  walk_back; exact h.g4 p q

theorem W6_v22_2 (h : MemIs m c A) (p k : Fin 4096) :
    W6 m c (Proc.devRef .tc main_v22_2) (ix2 p k) = ((A.adj p k : ℝ) : EReal) := by
  walk_back; exact W4_v22_2 h p k

theorem W6_v23 (h : MemIs m c A) (h0 : Region0Facts m c A) (p : Fin 4096) (q : Fin 500) :
    W6 m c (Proc.devRef .tc main_v23) (ix2 p q) = (((A.z2 + A.h2) p q : ℝ) : EReal) := by
  walk_back; exact W5_v23 h h0 p q

/-- After the third sweep: the next sweep's operand `z₃ · g₄`. -/
theorem W7_v26 (h : MemIs m c A) (h0 : Region0Facts m c A) (p : Fin 4096) (q : Fin 10) :
    W7 m c (Proc.devRef .tc main_v26) (ix2 p q) = (((A.z3 * A.g4) p q : ℝ) : EReal) := by
  refine (congrFun (W7_arr m c 4) (ix2 p q)).trans ?_
  rw [RealNet.Args.z3_eq]
  exact final3_4_real (atRefs (W6 m)) c A.adj (A.z2 + A.h2) A.g3 A.g4 (W6_v22_2 h) (W6_v23 h h0) (W6_v24 h) (W6_v25 h) p q

/-! ## The fourth sweep -/

theorem W7_v22_2 (h : MemIs m c A) (p k : Fin 4096) :
    W7 m c (Proc.devRef .tc main_v22_2) (ix2 p k) = ((A.adj p k : ℝ) : EReal) := by
  walk_back; exact W4_v22_2 h p k

theorem W7_v18_1 (h0 : Region0Facts m c A) (p : Fin 4096) (q : Fin 10) :
    W7 m c (Proc.devRef .tc main_v18_1) (ix2 p q) = ((A.r p q : ℝ) : EReal) := by
  walk_back; exact h0.r p q

/-- After the fourth sweep: the graph branch's latent `z`. -/
theorem W8_v27_0 (h : MemIs m c A) (h0 : Region0Facts m c A) (p : Fin 4096) (q : Fin 10) :
    W8 m c (Proc.devRef .tc main_v27_0) (ix2 p q) = ((A.z p q : ℝ) : EReal) := by
  refine (congrFun (W8_arr m c 3) (ix2 p q)).trans ?_
  exact final4_3_real (atRefs (W7 m)) c A.adj (A.z3 * A.g4) (W7_v22_2 h) (W7_v26 h h0) p q

/-- After the fourth sweep: `z` and the latent code `r` packed side by side. -/
theorem W8_v27_1 (h : MemIs m c A) (h0 : Region0Facts m c A) (p : Fin 4096) (cc : Fin 256) :
    W8 m c (Proc.devRef .tc main_v27_1) (ix2 p cc) = ((RealNet.packZR A.z A.r p cc : ℝ) : EReal) := by
  refine (congrFun (W8_arr m c 4) (ix2 p cc)).trans ?_
  exact final4_4_real (atRefs (W7 m)) c A.adj (A.z3 * A.g4) A.r (W7_v22_2 h) (W7_v26 h h0) (W7_v18_1 h0) p cc

/-! ## The fourth host stretch and the fifth sweep -/

theorem W9_v28 (h : MemIs m c A) (p q : Fin 10) :
    W9 m c (Proc.devRef .tc main_v28) (ix2 p q) = ((A.g5 p q : ℝ) : EReal) := by
  have e : W9 m c (Proc.devRef .tc main_v28)
      = (truncf (F := Ideal) .bf16 (W8 m c (Proc.devRef .tc main_arg22) : FVec Ideal S10x10 .f32) bitsLt_bf16_f32
          : FVec Ideal S10x10 .bf16) := by
    unfold W9; dsimp only [hostOps5]; after_results
  rw [e]
  show W8 m c (Proc.devRef .tc main_arg22) (ix2 p q) = _
  walk_back; exact h.g5 p q

theorem W9_v29 (h : MemIs m c A) (p : Fin 10) (q : Fin 2000) :
    W9 m c (Proc.devRef .tc main_v29) (ix2 p q) = ((A.g6 p q : ℝ) : EReal) := by
  have e : W9 m c (Proc.devRef .tc main_v29)
      = (truncf (F := Ideal) .bf16 (W8 m c (Proc.devRef .tc main_arg23) : FVec Ideal S10x2000 .f32) bitsLt_bf16_f32
          : FVec Ideal S10x2000 .bf16) := by
    unfold W9; dsimp only [hostOps5]; after_results
  rw [e]
  show W8 m c (Proc.devRef .tc main_arg23) (ix2 p q) = _
  walk_back; exact h.g6 p q

theorem W9_v30 (h : MemIs m c A) (p : Fin 2000) (q : Fin 500) :
    W9 m c (Proc.devRef .tc main_v30) (ix2 p q) = ((A.g7 p q : ℝ) : EReal) := by
  have e : W9 m c (Proc.devRef .tc main_v30)
      = (truncf (F := Ideal) .bf16 (W8 m c (Proc.devRef .tc main_arg24) : FVec Ideal S2000x500 .f32) bitsLt_bf16_f32
          : FVec Ideal S2000x500 .bf16) := by
    unfold W9; dsimp only [hostOps5]; after_results
  rw [e]
  show W8 m c (Proc.devRef .tc main_arg24) (ix2 p q) = _
  walk_back; exact h.g7 p q

theorem W9_v22_2 (h : MemIs m c A) (p k : Fin 4096) :
    W9 m c (Proc.devRef .tc main_v22_2) (ix2 p k) = ((A.adj p k : ℝ) : EReal) := by
  walk_back; exact W4_v22_2 h p k

theorem W9_v27_1 (h : MemIs m c A) (h0 : Region0Facts m c A) (p : Fin 4096) (cc : Fin 256) :
    W9 m c (Proc.devRef .tc main_v27_1) (ix2 p cc) = ((RealNet.packZR A.z A.r p cc : ℝ) : EReal) := by
  walk_back; exact W8_v27_1 h h0 p cc

theorem W9_v0 (h : MemIs m c A) (l j : Fin 10) :
    W9 m c (Proc.devRef .tc main_v0) (ix2 l j) = ((Matrix.transpose A.cluster l j : ℝ) : EReal) := by
  walk_back; exact W1_v0 m c A h l j

/-- After the fifth sweep: the rectified projection `ar`. -/
theorem W10_v31_0 (h : MemIs m c A) (h0 : Region0Facts m c A) (p : Fin 4096) (q : Fin 10) :
    W10 m c (Proc.devRef .tc main_v31_0) (ix2 p q) = ((A.ar p q : ℝ) : EReal) := by
  refine (congrFun (W10_arr m c 6) (ix2 p q)).trans ?_
  rw [RealNet.Args.ar_eq]
  exact final5_6_real (atRefs (W9 m)) c A.adj A.z A.r A.g5 (W9_v22_2 h) (W9_v27_1 h h0) (W9_v28 h) p q

/-- After the fifth sweep: the propagated latent `zl`. -/
theorem W10_v31_1 (h : MemIs m c A) (h0 : Region0Facts m c A) (p : Fin 4096) (q : Fin 10) :
    W10 m c (Proc.devRef .tc main_v31_1) (ix2 p q) = ((A.zl p q : ℝ) : EReal) := by
  refine (congrFun (W10_arr m c 7) (ix2 p q)).trans ?_
  rw [RealNet.Args.zl_eq]
  exact final5_7_real (atRefs (W9 m)) c A.adj A.z A.r (W9_v22_2 h) (W9_v27_1 h h0) p q

/-- After the fifth sweep: the soft assignment `q` of the propagated latent. -/
theorem W10_v31_2 (h : MemIs m c A) (h0 : Region0Facts m c A) (p : Fin 4096) (q : Fin 10) :
    W10 m c (Proc.devRef .tc main_v31_2) (ix2 p q) = ((A.q p q : ℝ) : EReal) := by
  refine (congrFun (W10_arr m c 8) (ix2 p q)).trans ?_
  rw [RealNet.Args.q_eq, ← RealNet.softAssignExpanded_eq]
  exact final5_8_real (atRefs (W9 m)) c A.adj A.z A.r A.cluster (W9_v22_2 h) (W9_v27_1 h h0) (W9_v0 h) p q

/-- After the fifth sweep: the next sweep's operand `dz₁ · g₇`. -/
theorem W10_v31_3 (h : MemIs m c A) (h0 : Region0Facts m c A) (p : Fin 4096) (q : Fin 500) :
    W10 m c (Proc.devRef .tc main_v31_3) (ix2 p q) = (((A.dz1 * A.g7) p q : ℝ) : EReal) := by
  refine (congrFun (W10_arr m c 9) (ix2 p q)).trans ?_
  rw [RealNet.Args.dz1_eq]
  exact final5_9_real (atRefs (W9 m)) c A.adj A.z A.r A.g6 A.g7 (W9_v22_2 h) (W9_v27_1 h h0) (W9_v29 h) (W9_v30 h) p q

/-! ## The fifth host stretch and the sixth sweep -/

theorem W11_v32 (h : MemIs m c A) (p q : Fin 500) :
    W11 m c (Proc.devRef .tc main_v32) (ix2 p q) = ((A.g8 p q : ℝ) : EReal) := by
  have e : W11 m c (Proc.devRef .tc main_v32)
      = (truncf (F := Ideal) .bf16 (W10 m c (Proc.devRef .tc main_arg25) : FVec Ideal S500x500 .f32) bitsLt_bf16_f32
          : FVec Ideal S500x500 .bf16) := by
    unfold W11; dsimp only [hostOps6]; after_results
  rw [e]
  show W10 m c (Proc.devRef .tc main_arg25) (ix2 p q) = _
  walk_back; exact h.g8 p q

theorem W11_v22_2 (h : MemIs m c A) (p k : Fin 4096) :
    W11 m c (Proc.devRef .tc main_v22_2) (ix2 p k) = ((A.adj p k : ℝ) : EReal) := by
  walk_back; exact W4_v22_2 h p k

theorem W11_v31_3 (h : MemIs m c A) (h0 : Region0Facts m c A) (p : Fin 4096) (q : Fin 500) :
    W11 m c (Proc.devRef .tc main_v31_3) (ix2 p q) = (((A.dz1 * A.g7) p q : ℝ) : EReal) := by
  walk_back; exact W10_v31_3 h h0 p q

/-- After the sixth sweep: the next sweep's operand `dz₂ · g₈`. -/
theorem W12_v33 (h : MemIs m c A) (h0 : Region0Facts m c A) (p : Fin 4096) (q : Fin 500) :
    W12 m c (Proc.devRef .tc main_v33) (ix2 p q) = (((A.dz2 * A.g8) p q : ℝ) : EReal) := by
  refine (congrFun (W12_arr m c 3) (ix2 p q)).trans ?_
  exact final6_3_real (atRefs (W11 m)) c A.adj (A.dz1 * A.g7) A.g8 (W11_v22_2 h) (W11_v31_3 h h0) (W11_v32 h) p q

/-! ## The sixth host stretch and the seventh sweep -/

theorem W13_v34 (h : MemIs m c A) (p : Fin 500) (q : Fin 512) :
    W13 m c (Proc.devRef .tc main_v34) (ix2 p q) = ((A.g9 p q : ℝ) : EReal) := by
  have e : W13 m c (Proc.devRef .tc main_v34)
      = (truncf (F := Ideal) .bf16 (W12 m c (Proc.devRef .tc main_arg26) : FVec Ideal S500x512 .f32) bitsLt_bf16_f32
          : FVec Ideal S500x512 .bf16) := by
    unfold W13; dsimp only [hostOps7]; after_results
  rw [e]
  show W12 m c (Proc.devRef .tc main_arg26) (ix2 p q) = _
  walk_back; exact h.g9 p q

theorem W13_v22_2 (h : MemIs m c A) (p k : Fin 4096) :
    W13 m c (Proc.devRef .tc main_v22_2) (ix2 p k) = ((A.adj p k : ℝ) : EReal) := by
  walk_back; exact W4_v22_2 h p k

theorem W13_v33 (h : MemIs m c A) (h0 : Region0Facts m c A) (p : Fin 4096) (q : Fin 500) :
    W13 m c (Proc.devRef .tc main_v33) (ix2 p q) = (((A.dz2 * A.g8) p q : ℝ) : EReal) := by
  walk_back; exact W12_v33 h h0 p q

/-- After the seventh sweep: the next sweep's operand `dz₃ · g₉`. -/
theorem W14_v35 (h : MemIs m c A) (h0 : Region0Facts m c A) (p : Fin 4096) (q : Fin 512) :
    W14 m c (Proc.devRef .tc main_v35) (ix2 p q) = (((A.dz3 * A.g9) p q : ℝ) : EReal) := by
  refine (congrFun (W14_arr m c 3) (ix2 p q)).trans ?_
  exact final7_3_real (atRefs (W13 m)) c A.adj (A.dz2 * A.g8) A.g9 (W13_v22_2 h) (W13_v33 h h0) (W13_v34 h) p q

/-! ## The eighth sweep and the Gram-matrix region -/

theorem W14_v22_2 (h : MemIs m c A) (p k : Fin 4096) :
    W14 m c (Proc.devRef .tc main_v22_2) (ix2 p k) = ((A.adj p k : ℝ) : EReal) := by
  walk_back; exact W4_v22_2 h p k

/-- After the eighth sweep: the reconstruction of the features `zhat`, in single precision … -/
theorem W15_v36_0 (h : MemIs m c A) (h0 : Region0Facts m c A) (p : Fin 4096) (q : Fin 512) :
    W15 m c (Proc.devRef .tc main_v36_0) (ix2 p q) = ((A.zhat p q : ℝ) : EReal) := by
  refine (congrFun (W15_arr m c 2) (ix2 p q)).trans ?_
  exact final8_2_real (atRefs (W14 m)) c A.adj (A.dz3 * A.g9) (W14_v22_2 h) (W14_v35 h h0) p q

/-- … and its narrowed copy, the Gram-matrix region's operand. -/
theorem W15_v36_1 (h : MemIs m c A) (h0 : Region0Facts m c A) (p : Fin 4096) (q : Fin 512) :
    W15 m c (Proc.devRef .tc main_v36_1) (ix2 p q) = ((A.zhat p q : ℝ) : EReal) := by
  refine (congrFun (W15_arr m c 3) (ix2 p q)).trans ?_
  exact final8_3_real (atRefs (W14 m)) c A.adj (A.dz3 * A.g9) (W14_v22_2 h) (W14_v35 h h0) p q

/-- After the last region: the reconstructed adjacency `adjhat`. -/
theorem W16_v37 (h : MemIs m c A) (h0 : Region0Facts m c A) (p q : Fin 4096) :
    W16 m c (Proc.devRef .tc main_v37) (ix2 p q) = ((A.adjhat p q : ℝ) : EReal) := by
  refine (congrFun (W16_out m c) (ix2 p q)).trans ?_
  exact final9_2_real (atRefs (W15 m)) c A.zhat (W15_v36_1 h h0) (W15_v36_1 h h0) p q

/-! ## The nine results at the last boundary -/

/-- The nine results of the kernel program, read at the last boundary, are the real network's nine results. -/
theorem kernel_results_of (h : MemIs m c A) (h0 : Region0Facts m c A) :
    (∀ (p : Fin 4096) (q : Fin 512), W16 m c (Proc.devRef .tc main_v18_0) (ix2 p q) = ((A.xbar p q : ℝ) : EReal))
    ∧ (∀ (p : Fin 4096) (q : Fin 512), W16 m c (Proc.devRef .tc main_v36_0) (ix2 p q) = ((A.zhat p q : ℝ) : EReal))
    ∧ (∀ (p q : Fin 4096), W16 m c (Proc.devRef .tc main_v37) (ix2 p q) = ((A.adjhat p q : ℝ) : EReal))
    ∧ (∀ (p : Fin 4096) (q : Fin 10), W16 m c (Proc.devRef .tc main_v31_2) (ix2 p q) = ((A.q p q : ℝ) : EReal))
    ∧ (∀ (p : Fin 4096) (q : Fin 10), W16 m c (Proc.devRef .tc main_v18_3) (ix2 p q) = ((A.q1 p q : ℝ) : EReal))
    ∧ (∀ (p : Fin 4096) (q : Fin 10), W16 m c (Proc.devRef .tc main_v31_0) (ix2 p q) = ((A.ar p q : ℝ) : EReal))
    ∧ (∀ (p : Fin 4096) (q : Fin 10), W16 m c (Proc.devRef .tc main_v27_0) (ix2 p q) = ((A.z p q : ℝ) : EReal))
    ∧ (∀ (p : Fin 4096) (q : Fin 10), W16 m c (Proc.devRef .tc main_v18_1) (ix2 p q) = ((A.r p q : ℝ) : EReal))
    ∧ (∀ (p : Fin 4096) (q : Fin 10), W16 m c (Proc.devRef .tc main_v31_1) (ix2 p q) = ((A.zl p q : ℝ) : EReal)) := by
  refine ⟨fun p q => ?_, fun p q => ?_, fun p q => W16_v37 h h0 p q, fun p q => ?_, fun p q => ?_, fun p q => ?_,
    fun p q => ?_, fun p q => ?_, fun p q => ?_⟩
  · walk_back; exact h0.xbar p q
  · walk_back; exact W15_v36_0 h h0 p q
  · walk_back; exact W10_v31_2 h h0 p q
  · walk_back; exact h0.q1 p q
  · walk_back; exact W10_v31_0 h h0 p q
  · walk_back; exact W8_v27_0 h h0 p q
  · walk_back; exact h0.r p q
  · walk_back; exact W10_v31_1 h h0 p q

end Cert.KernelIdeal.HandValue

end
-- ==== Proof.KernelIdealV0.lean ====
/-
  The autoencoder region, read as values at the exact instance.

  One grid point of the region takes a block of 1024 rows of the input `x` and the whole weights and bias rows of
  eight dense layers, and leaves five blocks of 1024 rows: the reconstruction, the latent code, the first hidden
  layer, the soft assignment of the latent code to the centres, and the input times the first graph weight.  Every
  one of them is computed row by row: row `p` of an output is a function of row `p` of `x` and of the whole weights.
  This module reads four of them off (the soft assignment has its own module) in three steps: the body's arithmetic at one entry of a block, as a composition of
  row functions; the blocks of the four grid points put together as one function of the arrays, entry by entry; and the same over the
  reals when the arrays are coercions of real matrices.
-/
import proofs.«140843_g75050258530825_cont_9to1_m_403_24_alg».proof.Proof.KernelIdealR0
import proofs.«140843_g75050258530825_cont_9to1_m_403_24_alg».proof.Proof.NetForward
import proofs.«140843_g75050258530825_cont_9to1_m_403_24_alg».proof.Proof.LibRealLift
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 0. Plain products and row broadcasts, as functions of the entry -/

/-- A plain `m × k` by `k × n` product into a zero accumulator at entry `(a, b)`: the sum over the contracted
    coordinate of the products of the entries. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply]
  exact (Ideal.dotGeneral_apply (DotDims.plain m k n) prec _ A B (ix2 a b)).symm.trans
    (StackMember.dotGeneral_plain_apply prec A B a b)

/-- The same as a function of the entry. -/
theorem matmul_plain_fun {m k n : Nat} {φ₁ φ₂ : FTy} (prec : Option ContractPrecision)
    (A : FVec Ideal ⟨2, ![m, k]⟩ φ₁) (B : FVec Ideal ⟨2, ![k, n]⟩ φ₂) :
    FloatOps.matmul (DotDims.plain m k n) prec A B (constant (F := Ideal) ⟨2, ![m, n]⟩ .f32 0x00000000#32)
      = fun i => ∑ c : Fin k, A (ix2 (i 0) c) * B (ix2 c (i 1)) := by
  funext i
  obtain ⟨a, b, rfl⟩ : ∃ (a : Fin m) (b : Fin n), i = ix2 a b := ⟨i 0, i 1, eq_ix2 i⟩
  exact matmul_plain_apply prec A B a b

/-- One row broadcast over many rows, as a function of the entry: entry `(p, c)` reads the row at `c`. -/
theorem broadcastTo_row_fun {α : Type} {a b : ℕ} (v : (⟨2, ![1, b]⟩ : Shape).Idx → α)
    (h : (⟨2, ![1, b]⟩ : Shape).Broadcasts ⟨2, ![a, b]⟩) :
    broadcastTo ⟨2, ![a, b]⟩ v h = fun i => v (ix2 (0 : Fin 1) (i 1)) := by
  funext i
  obtain ⟨p, c, rfl⟩ : ∃ (p : Fin a) (c : Fin b), i = ix2 p c := ⟨i 0, i 1, eq_ix2 i⟩
  exact broadcastTo_1b_ab_apply v h p c

/-- The zero word of single precision is zero. -/
theorem ofBits_f32_zero0 : FloatOps.ofBits (F := Ideal) .f32 0x00000000#32 = 0 := Ideal.ofBits_zero_f32

/-- The region's eight dimension-number records are plain products. -/
theorem dot0_x_e1 : dot_S1024x512_S512x500_S1024x500_1_0_0_1_n_n = DotDims.plain 1024 512 500 := rfl
theorem dot0_e2 : dot_S1024x500_S500x500_S1024x500_1_0_0_1_n_n = DotDims.plain 1024 500 500 := rfl
theorem dot0_e3 : dot_S1024x500_S500x2000_S1024x2000_1_0_0_1_n_n = DotDims.plain 1024 500 2000 := rfl
theorem dot0_zl : dot_S1024x2000_S2000x10_S1024x10_1_0_0_1_n_n = DotDims.plain 1024 2000 10 := rfl
theorem dot0_d1 : dot_S1024x10_S10x2000_S1024x2000_1_0_0_1_n_n = DotDims.plain 1024 10 2000 := rfl
theorem dot0_d2 : dot_S1024x2000_S2000x500_S1024x500_1_0_0_1_n_n = DotDims.plain 1024 2000 500 := rfl
theorem dot0_xb : dot_S1024x500_S500x512_S1024x512_1_0_0_1_n_n = DotDims.plain 1024 500 512 := rfl
theorem dot0_ct : dot_S1024x10_S10x10_S1024x10_1_0_0_1_n_n = DotDims.plain 1024 10 10 := rfl

/-! ## 1. The body's arithmetic at one entry, row by row -/

/-- One row through a product: entry `q` is `∑ c, y c · w (c, q)`. -/
def mulRow {k n : ℕ} (y : Fin k → EReal) (w : (⟨2, ![k, n]⟩ : Shape).Idx → EReal) : Fin n → EReal :=
  fun q => ∑ c : Fin k, y c * w (ix2 c q)

/-- One row through a dense layer with its bias row: entry `q` is `∑ c, y c · w (c, q) + b (0, q)`. -/
def linRow {k n : ℕ} (y : Fin k → EReal) (w : (⟨2, ![k, n]⟩ : Shape).Idx → EReal)
    (b : (⟨2, ![1, n]⟩ : Shape).Idx → EReal) : Fin n → EReal :=
  fun q => (∑ c : Fin k, y c * w (ix2 c q)) + b (ix2 (0 : Fin 1) q)

/-- One row rectified: entry `q` is `max (y q) 0`. -/
def reluRow {n : ℕ} (y : Fin n → EReal) : Fin n → EReal := fun q => max (y q) 0

/-- The first hidden layer of a row `y` of the input. -/
def re1Row (y : Fin 512 → EReal) (w1 : Vec Ideal S512x500 .bf16) (b1 : Vec Ideal S1x500 .f32) : Fin 500 → EReal :=
  reluRow (linRow y w1 b1)

/-- The third hidden layer of a row `y` of the input. -/
def re3Row (y : Fin 512 → EReal) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) : Fin 2000 → EReal :=
  reluRow (linRow (reluRow (linRow (re1Row y w1 b1) w2 b2)) w3 b3)

/-- The latent code of a row `y` of the input: three rectified dense layers and a fourth dense layer. -/
def latRow (y : Fin 512 → EReal) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32) : Fin 10 → EReal :=
  linRow (re3Row y w1 b1 w2 b2 w3 b3) w4 b4

/-- The reconstruction of a latent row `z`: three rectified dense layers and a fourth dense layer. -/
def xbarRow (z : Fin 10 → EReal) (w5 : Vec Ideal S10x2000 .bf16) (b5 : Vec Ideal S1x2000 .f32)
    (w6 : Vec Ideal S2000x500 .bf16) (b6 : Vec Ideal S1x500 .f32) (w7 : Vec Ideal S500x500 .bf16)
    (b7 : Vec Ideal S1x500 .f32) (w8 : Vec Ideal S500x512 .bf16) (b8 : Vec Ideal S1x512 .f32) : Fin 512 → EReal :=
  linRow (reluRow (linRow (reluRow (linRow (reluRow (linRow z w5 b5)) w6 b6)) w7 b7)) w8 b8

/-- The first hidden layer at entry `(p, q)`: the row function of row `p` of the block.  (The shape casts are
    identities, the accumulator and the rectifier's bound are the zero word, the change of format is the identity
    at the exact instance.) -/
theorem pay0_2_apply (x0 : Vec Ideal S1024x512 .f32) (x1 : Vec Ideal S512x500 .bf16) (x2 : Vec Ideal S1x500 .f32)
    (p : Fin 1024) (q : Fin 500) :
    k0_pay2 x0 x1 x2 (ix2 p q) = re1Row (fun c => x0 (ix2 p c)) x1 x2 q := by
  unfold k0_pay2
  simp only [shapeCast_self, dot0_x_e1, matmul, matmul_plain_fun, broadcastTo_row_fun, ofBits_f32_zero0]
  rfl

/-- The latent code at entry `(p, q)`: the row function of row `p` of the block. -/
theorem pay0_4_apply (x0 : Vec Ideal S1024x512 .f32) (x1 : Vec Ideal S512x500 .bf16) (x2 : Vec Ideal S1x500 .f32)
    (x3 : Vec Ideal S500x500 .bf16) (x4 : Vec Ideal S1x500 .f32) (x5 : Vec Ideal S500x2000 .bf16)
    (x6 : Vec Ideal S1x2000 .f32) (x7 : Vec Ideal S2000x10 .bf16) (x8 : Vec Ideal S1x10 .f32)
    (p : Fin 1024) (q : Fin 10) :
    k0_pay4 (k0_pay3 x0 x1 x2 x3 x4 x5 x6 x7) x8 (ix2 p q)
      = latRow (fun c => x0 (ix2 p c)) x1 x2 x3 x4 x5 x6 x7 x8 q := by
  unfold k0_pay4 k0_pay3 k0_pay2
  simp only [shapeCast_self, dot0_x_e1, dot0_e2, dot0_e3, dot0_zl, matmul, matmul_plain_fun, broadcastTo_row_fun,
    ofBits_f32_zero0]
  rfl

/-- The reconstruction at entry `(p, q)`, from the latent block `z`: the row function of row `p` of `z`. -/
theorem pay0_6_apply (v34 : FVec Ideal S1024x10 .f32) (x8 : Vec Ideal S1x10 .f32) (x9 : Vec Ideal S10x2000 .bf16)
    (x10 : Vec Ideal S1x2000 .f32) (x11 : Vec Ideal S2000x500 .bf16) (x12 : Vec Ideal S1x500 .f32)
    (x13 : Vec Ideal S500x500 .bf16) (x14 : Vec Ideal S1x500 .f32) (x15 : Vec Ideal S500x512 .bf16)
    (x16 : Vec Ideal S1x512 .f32) (p : Fin 1024) (q : Fin 512) :
    k0_pay6 (k0_pay5 v34 x8 x9 x10 x11 x12 x13 x14 x15) x16 (ix2 p q)
      = xbarRow (fun j => k0_pay4 v34 x8 (ix2 p j)) x9 x10 x11 x12 x13 x14 x15 x16 q := by
  unfold k0_pay6 k0_pay5
  simp only [shapeCast_self, dot0_d1, dot0_d2, dot0_e2, dot0_xb, matmul, matmul_plain_fun, broadcastTo_row_fun,
    ofBits_f32_zero0]
  rfl

/-- The input block times the first graph weight at entry `(p, q)`: the product row of row `p` of the block. -/
theorem pay0_1_apply (x0 : Vec Ideal S1024x512 .f32) (x17 : Vec Ideal S512x500 .bf16) (p : Fin 1024) (q : Fin 500) :
    k0_pay1 (k0_pay9 x17) (k0_pay10 x0) (ix2 p q) = mulRow (fun c => x0 (ix2 p c)) x17 q := by
  unfold k0_pay1 k0_pay9 k0_pay10
  simp only [shapeCast_self, dot0_x_e1, matmul, matmul_plain_fun]
  rfl

/-! ## 2. The blocks of the four grid points as one function of the arrays -/

-- the TensorCore's buffer contents when the region is entered, at the exact instance
variable (V : (c : Dev nD) → (b : Ref sig .tc) → Buf (Elt Ideal) ((c : Thread nD τ).loc b))

/-- The zero offsets of a whole-block rectangle, as a constant function. -/
theorem hz0 : (![0, 0] : Fin 2 → Nat) = fun _ => 0 := funext fun a => by fin_cases a <;> rfl

/-- The latent code as one function of the input `x` and the first four layers' weights and bias rows, entry by
    entry: row `P` of the result is the latent row of row `P` of `x`. -/
def G0_20 (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32) : Vec Ideal S4096x10 .f32 :=
  fun i => latRow (fun c => x (ix2 (⟨(i 0).val, (i 0).isLt⟩ : Fin 4096) c)) w1 b1 w2 b2 w3 b3 w4 b4
    (⟨(i 1).val, (i 1).isLt⟩ : Fin 10)

/-- The first hidden layer as one function of `x` and the first layer's weight and bias row. -/
def G0_21 (x : Vec Ideal S4096x512 .f32) (w1 : Vec Ideal S512x500 .bf16) (b1 : Vec Ideal S1x500 .f32) :
    Vec Ideal S4096x500 .bf16 :=
  fun i => re1Row (fun c => x (ix2 (⟨(i 0).val, (i 0).isLt⟩ : Fin 4096) c)) w1 b1 (⟨(i 1).val, (i 1).isLt⟩ : Fin 500)

/-- The input times the first graph weight as one function of `x` and that weight. -/
def G0_23 (x : Vec Ideal S4096x512 .f32) (g : Vec Ideal S512x500 .bf16) : Vec Ideal S4096x500 .bf16 :=
  fun i => mulRow (fun c => x (ix2 (⟨(i 0).val, (i 0).isLt⟩ : Fin 4096) c)) g (⟨(i 1).val, (i 1).isLt⟩ : Fin 500)

/-- The reconstruction as one function of `x` and the eight layers' weights and bias rows: row `P` of the result
    is the reconstruction of the latent row of row `P` of `x`. -/
def G0_19 (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (w5 : Vec Ideal S10x2000 .bf16) (b5 : Vec Ideal S1x2000 .f32) (w6 : Vec Ideal S2000x500 .bf16)
    (b6 : Vec Ideal S1x500 .f32) (w7 : Vec Ideal S500x500 .bf16) (b7 : Vec Ideal S1x500 .f32)
    (w8 : Vec Ideal S500x512 .bf16) (b8 : Vec Ideal S1x512 .f32) : Vec Ideal S4096x512 .f32 :=
  fun i => xbarRow (latRow (fun c => x (ix2 (⟨(i 0).val, (i 0).isLt⟩ : Fin 4096) c)) w1 b1 w2 b2 w3 b3 w4 b4)
    w5 b5 w6 b6 w7 b7 w8 b8 (⟨(i 1).val, (i 1).isLt⟩ : Fin 512)

theorem G0_20_apply (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32) (P : Fin 4096) (Q : Fin 10) :
    G0_20 x w1 b1 w2 b2 w3 b3 w4 b4 (ix2 P Q) = latRow (fun c => x (ix2 P c)) w1 b1 w2 b2 w3 b3 w4 b4 Q := rfl

theorem G0_21_apply (x : Vec Ideal S4096x512 .f32) (w1 : Vec Ideal S512x500 .bf16) (b1 : Vec Ideal S1x500 .f32)
    (P : Fin 4096) (Q : Fin 500) : G0_21 x w1 b1 (ix2 P Q) = re1Row (fun c => x (ix2 P c)) w1 b1 Q := rfl

theorem G0_23_apply (x : Vec Ideal S4096x512 .f32) (g : Vec Ideal S512x500 .bf16) (P : Fin 4096) (Q : Fin 500) :
    G0_23 x g (ix2 P Q) = mulRow (fun c => x (ix2 P c)) g Q := rfl

theorem G0_19_apply (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (w5 : Vec Ideal S10x2000 .bf16) (b5 : Vec Ideal S1x2000 .f32) (w6 : Vec Ideal S2000x500 .bf16)
    (b6 : Vec Ideal S1x500 .f32) (w7 : Vec Ideal S500x500 .bf16) (b7 : Vec Ideal S1x500 .f32)
    (w8 : Vec Ideal S500x512 .bf16) (b8 : Vec Ideal S1x512 .f32) (P : Fin 4096) (Q : Fin 512) :
    G0_19 x w1 b1 w2 b2 w3 b3 w4 b4 w5 b5 w6 b6 w7 b7 w8 b8 (ix2 P Q)
      = xbarRow (latRow (fun c => x (ix2 P c)) w1 b1 w2 b2 w3 b3 w4 b4) w5 b5 w6 b6 w7 b7 w8 b8 Q := rfl

/-- One point of the latent code, over variables: when the input block's row `p` is row `P` of `x` and the other
    blocks are the whole weights and bias rows, the body's value at `(p, q)` is the result at `(P, q)`. -/
theorem point0_20 (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (x0 : Vec Ideal S1024x512 .f32) (x1 : Vec Ideal S512x500 .bf16) (x2 : Vec Ideal S1x500 .f32)
    (x3 : Vec Ideal S500x500 .bf16) (x4 : Vec Ideal S1x500 .f32) (x5 : Vec Ideal S500x2000 .bf16)
    (x6 : Vec Ideal S1x2000 .f32) (x7 : Vec Ideal S2000x10 .bf16) (x8 : Vec Ideal S1x10 .f32)
    (p : Fin 1024) (q : Fin 10) (P : Fin 4096)
    (h0 : ∀ c : Fin 512, x0 (ix2 p c) = x (ix2 P c))
    (h1 : x1 = w1) (h2 : x2 = b1) (h3 : x3 = w2) (h4 : x4 = b2) (h5 : x5 = w3) (h6 : x6 = b3) (h7 : x7 = w4) (h8 : x8 = b4) :
    k0_pay4 (k0_pay3 x0 x1 x2 x3 x4 x5 x6 x7) x8 (ix2 p q) = G0_20 x w1 b1 w2 b2 w3 b3 w4 b4 (ix2 P q) := by
  subst h1 h2 h3 h4 h5 h6 h7 h8
  rw [pay0_4_apply, G0_20_apply]
  exact congrArg (fun y => latRow y x1 x2 x3 x4 x5 x6 x7 x8 q) (funext h0)

/-- One point of the first hidden layer, over variables. -/
theorem point0_21 (x : Vec Ideal S4096x512 .f32) (w1 : Vec Ideal S512x500 .bf16) (b1 : Vec Ideal S1x500 .f32)
    (x0 : Vec Ideal S1024x512 .f32) (x1 : Vec Ideal S512x500 .bf16) (x2 : Vec Ideal S1x500 .f32)
    (p : Fin 1024) (q : Fin 500) (P : Fin 4096)
    (h0 : ∀ c : Fin 512, x0 (ix2 p c) = x (ix2 P c)) (h1 : x1 = w1) (h2 : x2 = b1) :
    k0_pay7 (k0_pay2 x0 x1 x2) (ix2 p q) = G0_21 x w1 b1 (ix2 P q) := by
  subst h1 h2
  show k0_pay2 x0 x1 x2 (ix2 p q) = _
  rw [pay0_2_apply, G0_21_apply]
  exact congrArg (fun y => re1Row y x1 x2 q) (funext h0)

/-- One point of the input times the first graph weight, over variables. -/
theorem point0_23 (x : Vec Ideal S4096x512 .f32) (g : Vec Ideal S512x500 .bf16)
    (x0 : Vec Ideal S1024x512 .f32) (x17 : Vec Ideal S512x500 .bf16)
    (p : Fin 1024) (q : Fin 500) (P : Fin 4096)
    (h0 : ∀ c : Fin 512, x0 (ix2 p c) = x (ix2 P c)) (h17 : x17 = g) :
    k0_pay1 (k0_pay9 x17) (k0_pay10 x0) (ix2 p q) = G0_23 x g (ix2 P q) := by
  subst h17
  rw [pay0_1_apply, G0_23_apply]
  exact congrArg (fun y => mulRow y x17 q) (funext h0)

/-- One point of the reconstruction, over variables. -/
theorem point0_19 (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (w5 : Vec Ideal S10x2000 .bf16) (b5 : Vec Ideal S1x2000 .f32) (w6 : Vec Ideal S2000x500 .bf16)
    (b6 : Vec Ideal S1x500 .f32) (w7 : Vec Ideal S500x500 .bf16) (b7 : Vec Ideal S1x500 .f32)
    (w8 : Vec Ideal S500x512 .bf16) (b8 : Vec Ideal S1x512 .f32)
    (x0 : Vec Ideal S1024x512 .f32) (x1 : Vec Ideal S512x500 .bf16) (x2 : Vec Ideal S1x500 .f32)
    (x3 : Vec Ideal S500x500 .bf16) (x4 : Vec Ideal S1x500 .f32) (x5 : Vec Ideal S500x2000 .bf16)
    (x6 : Vec Ideal S1x2000 .f32) (x7 : Vec Ideal S2000x10 .bf16) (x8 : Vec Ideal S1x10 .f32)
    (x9 : Vec Ideal S10x2000 .bf16) (x10 : Vec Ideal S1x2000 .f32) (x11 : Vec Ideal S2000x500 .bf16)
    (x12 : Vec Ideal S1x500 .f32) (x13 : Vec Ideal S500x500 .bf16) (x14 : Vec Ideal S1x500 .f32)
    (x15 : Vec Ideal S500x512 .bf16) (x16 : Vec Ideal S1x512 .f32)
    (p : Fin 1024) (q : Fin 512) (P : Fin 4096)
    (h0 : ∀ c : Fin 512, x0 (ix2 p c) = x (ix2 P c))
    (h1 : x1 = w1) (h2 : x2 = b1) (h3 : x3 = w2) (h4 : x4 = b2) (h5 : x5 = w3) (h6 : x6 = b3) (h7 : x7 = w4) (h8 : x8 = b4)
    (h9 : x9 = w5) (h10 : x10 = b5) (h11 : x11 = w6) (h12 : x12 = b6) (h13 : x13 = w7) (h14 : x14 = b7)
    (h15 : x15 = w8) (h16 : x16 = b8) :
    k0_pay6 (k0_pay5 (k0_pay3 x0 x1 x2 x3 x4 x5 x6 x7) x8 x9 x10 x11 x12 x13 x14 x15) x16 (ix2 p q)
      = G0_19 x w1 b1 w2 b2 w3 b3 w4 b4 w5 b5 w6 b6 w7 b7 w8 b8 (ix2 P q) := by
  subst h1 h2 h3 h4 h5 h6 h7 h8 h9 h10 h11 h12 h13 h14 h15 h16
  rw [pay0_6_apply, G0_19_apply]
  refine congrArg (fun z => xbarRow z x9 x10 x11 x12 x13 x14 x15 x16 q) (funext fun j => ?_)
  rw [pay0_4_apply]
  exact congrArg (fun y => latRow y x1 x2 x3 x4 x5 x6 x7 x8 j) (funext h0)

/-- The printed index maps, decided once over the four points, window by window: the input's and the five results'
    blocks are row block `t`; every weight's and bias row's block is the whole array. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)
theorem idx0_16 : ∀ t : Fin cfg0.N, win0_16.index t (0 : Fin 2) = 0 ∧ win0_16.index t (1 : Fin 2) = 0 :=
  (by decide +kernel : ∀ t : Fin grid0.N, _)
theorem idx0_17 : ∀ t : Fin cfg0.N, win0_17.index t (0 : Fin 2) = 0 ∧ win0_17.index t (1 : Fin 2) = 0 :=
  (by decide +kernel : ∀ t : Fin grid0.N, _)
theorem idx0_18 : ∀ t : Fin cfg0.N, win0_18.index t (0 : Fin 2) = 0 ∧ win0_18.index t (1 : Fin 2) = 0 :=
  (by decide +kernel : ∀ t : Fin grid0.N, _)
theorem idx0_19 : ∀ t : Fin cfg0.N, win0_19.index t (0 : Fin 2) = t.val ∧ win0_19.index t (1 : Fin 2) = 0 :=
  (by decide +kernel : ∀ t : Fin grid0.N, _)
theorem idx0_20 : ∀ t : Fin cfg0.N, win0_20.index t (0 : Fin 2) = t.val ∧ win0_20.index t (1 : Fin 2) = 0 :=
  (by decide +kernel : ∀ t : Fin grid0.N, _)
theorem idx0_21 : ∀ t : Fin cfg0.N, win0_21.index t (0 : Fin 2) = t.val ∧ win0_21.index t (1 : Fin 2) = 0 :=
  (by decide +kernel : ∀ t : Fin grid0.N, _)
theorem idx0_22 : ∀ t : Fin cfg0.N, win0_22.index t (0 : Fin 2) = t.val ∧ win0_22.index t (1 : Fin 2) = 0 :=
  (by decide +kernel : ∀ t : Fin grid0.N, _)
theorem idx0_23 : ∀ t : Fin cfg0.N, win0_23.index t (0 : Fin 2) = t.val ∧ win0_23.index t (1 : Fin 2) = 0 :=
  (by decide +kernel : ∀ t : Fin grid0.N, _)

/-- The input block of point `t` at entry `(p, k)` is the array's entry at row `1024 t + p`, column `k`. -/
theorem iblk0_0_apply (c : Dev nD) (t : Fin cfg0.N) (p : Fin 1024) (k : Fin 512) (P : Fin 4096)
    (hP : P.val = t.val * 1024 + p.val) :
    iblk0 V c 0 t (ix2 p k) = V c (Pipeline.arrRef spec0 0) (ix2 P k) := by
  obtain ⟨e0, e1⟩ := idx0_0 t
  show V c (Pipeline.arrRef spec0 0) (((cfg0.win 0).blk t).view.emb (ix2 p k)) = V c (Pipeline.arrRef spec0 0) (ix2 P k)
  refine congrArg _ (funext fun ax => Fin.ext ?_)
  match ax with
  | ⟨0, _⟩ => show win0_0.index t (0 : Fin 2) * 1024 + 1 * p.val = P.val; omega
  | ⟨1, _⟩ => show win0_0.index t (1 : Fin 2) * 512 + 1 * k.val = k.val; omega

/-- Every weight's and bias row's block of point `t` is the whole array. -/
theorem iblk0_1_eq (c : Dev nD) (t : Fin cfg0.N) : iblk0 V c 1 t = V c (Pipeline.arrRef spec0 1) := by
  obtain ⟨e0, e1⟩ := idx0_1 t
  funext j
  obtain ⟨a, b, rfl⟩ : ∃ (a : Fin 512) (b : Fin 500), j = ix2 a b := ⟨j 0, j 1, eq_ix2 (n0 := 512) (n1 := 500) j⟩
  show V c (Pipeline.arrRef spec0 1) (((cfg0.win 1).blk t).view.emb (ix2 a b)) = V c (Pipeline.arrRef spec0 1) (ix2 a b)
  refine congrArg _ (funext fun ax => Fin.ext ?_)
  match ax with
  | ⟨0, _⟩ => show win0_1.index t (0 : Fin 2) * 512 + 1 * a.val = a.val; omega
  | ⟨1, _⟩ => show win0_1.index t (1 : Fin 2) * 500 + 1 * b.val = b.val; omega
theorem iblk0_2_eq (c : Dev nD) (t : Fin cfg0.N) : iblk0 V c 2 t = V c (Pipeline.arrRef spec0 2) := by
  obtain ⟨e0, e1⟩ := idx0_2 t
  funext j
  obtain ⟨a, b, rfl⟩ : ∃ (a : Fin 1) (b : Fin 500), j = ix2 a b := ⟨j 0, j 1, eq_ix2 (n0 := 1) (n1 := 500) j⟩
  show V c (Pipeline.arrRef spec0 2) (((cfg0.win 2).blk t).view.emb (ix2 a b)) = V c (Pipeline.arrRef spec0 2) (ix2 a b)
  refine congrArg _ (funext fun ax => Fin.ext ?_)
  match ax with
  | ⟨0, _⟩ => show win0_2.index t (0 : Fin 2) * 1 + 1 * a.val = a.val; omega
  | ⟨1, _⟩ => show win0_2.index t (1 : Fin 2) * 500 + 1 * b.val = b.val; omega
theorem iblk0_3_eq (c : Dev nD) (t : Fin cfg0.N) : iblk0 V c 3 t = V c (Pipeline.arrRef spec0 3) := by
  obtain ⟨e0, e1⟩ := idx0_3 t
  funext j
  obtain ⟨a, b, rfl⟩ : ∃ (a : Fin 500) (b : Fin 500), j = ix2 a b := ⟨j 0, j 1, eq_ix2 (n0 := 500) (n1 := 500) j⟩
  show V c (Pipeline.arrRef spec0 3) (((cfg0.win 3).blk t).view.emb (ix2 a b)) = V c (Pipeline.arrRef spec0 3) (ix2 a b)
  refine congrArg _ (funext fun ax => Fin.ext ?_)
  match ax with
  | ⟨0, _⟩ => show win0_3.index t (0 : Fin 2) * 500 + 1 * a.val = a.val; omega
  | ⟨1, _⟩ => show win0_3.index t (1 : Fin 2) * 500 + 1 * b.val = b.val; omega
theorem iblk0_4_eq (c : Dev nD) (t : Fin cfg0.N) : iblk0 V c 4 t = V c (Pipeline.arrRef spec0 4) := by
  obtain ⟨e0, e1⟩ := idx0_4 t
  funext j
  obtain ⟨a, b, rfl⟩ : ∃ (a : Fin 1) (b : Fin 500), j = ix2 a b := ⟨j 0, j 1, eq_ix2 (n0 := 1) (n1 := 500) j⟩
  show V c (Pipeline.arrRef spec0 4) (((cfg0.win 4).blk t).view.emb (ix2 a b)) = V c (Pipeline.arrRef spec0 4) (ix2 a b)
  refine congrArg _ (funext fun ax => Fin.ext ?_)
  match ax with
  | ⟨0, _⟩ => show win0_4.index t (0 : Fin 2) * 1 + 1 * a.val = a.val; omega
  | ⟨1, _⟩ => show win0_4.index t (1 : Fin 2) * 500 + 1 * b.val = b.val; omega
theorem iblk0_5_eq (c : Dev nD) (t : Fin cfg0.N) : iblk0 V c 5 t = V c (Pipeline.arrRef spec0 5) := by
  obtain ⟨e0, e1⟩ := idx0_5 t
  funext j
  obtain ⟨a, b, rfl⟩ : ∃ (a : Fin 500) (b : Fin 2000), j = ix2 a b := ⟨j 0, j 1, eq_ix2 (n0 := 500) (n1 := 2000) j⟩
  show V c (Pipeline.arrRef spec0 5) (((cfg0.win 5).blk t).view.emb (ix2 a b)) = V c (Pipeline.arrRef spec0 5) (ix2 a b)
  refine congrArg _ (funext fun ax => Fin.ext ?_)
  match ax with
  | ⟨0, _⟩ => show win0_5.index t (0 : Fin 2) * 500 + 1 * a.val = a.val; omega
  | ⟨1, _⟩ => show win0_5.index t (1 : Fin 2) * 2000 + 1 * b.val = b.val; omega
theorem iblk0_6_eq (c : Dev nD) (t : Fin cfg0.N) : iblk0 V c 6 t = V c (Pipeline.arrRef spec0 6) := by
  obtain ⟨e0, e1⟩ := idx0_6 t
  funext j
  obtain ⟨a, b, rfl⟩ : ∃ (a : Fin 1) (b : Fin 2000), j = ix2 a b := ⟨j 0, j 1, eq_ix2 (n0 := 1) (n1 := 2000) j⟩
  show V c (Pipeline.arrRef spec0 6) (((cfg0.win 6).blk t).view.emb (ix2 a b)) = V c (Pipeline.arrRef spec0 6) (ix2 a b)
  refine congrArg _ (funext fun ax => Fin.ext ?_)
  match ax with
  | ⟨0, _⟩ => show win0_6.index t (0 : Fin 2) * 1 + 1 * a.val = a.val; omega
  | ⟨1, _⟩ => show win0_6.index t (1 : Fin 2) * 2000 + 1 * b.val = b.val; omega
theorem iblk0_7_eq (c : Dev nD) (t : Fin cfg0.N) : iblk0 V c 7 t = V c (Pipeline.arrRef spec0 7) := by
  obtain ⟨e0, e1⟩ := idx0_7 t
  funext j
  obtain ⟨a, b, rfl⟩ : ∃ (a : Fin 2000) (b : Fin 10), j = ix2 a b := ⟨j 0, j 1, eq_ix2 (n0 := 2000) (n1 := 10) j⟩
  show V c (Pipeline.arrRef spec0 7) (((cfg0.win 7).blk t).view.emb (ix2 a b)) = V c (Pipeline.arrRef spec0 7) (ix2 a b)
  refine congrArg _ (funext fun ax => Fin.ext ?_)
  match ax with
  | ⟨0, _⟩ => show win0_7.index t (0 : Fin 2) * 2000 + 1 * a.val = a.val; omega
  | ⟨1, _⟩ => show win0_7.index t (1 : Fin 2) * 10 + 1 * b.val = b.val; omega
theorem iblk0_8_eq (c : Dev nD) (t : Fin cfg0.N) : iblk0 V c 8 t = V c (Pipeline.arrRef spec0 8) := by
  obtain ⟨e0, e1⟩ := idx0_8 t
  funext j
  obtain ⟨a, b, rfl⟩ : ∃ (a : Fin 1) (b : Fin 10), j = ix2 a b := ⟨j 0, j 1, eq_ix2 (n0 := 1) (n1 := 10) j⟩
  show V c (Pipeline.arrRef spec0 8) (((cfg0.win 8).blk t).view.emb (ix2 a b)) = V c (Pipeline.arrRef spec0 8) (ix2 a b)
  refine congrArg _ (funext fun ax => Fin.ext ?_)
  match ax with
  | ⟨0, _⟩ => show win0_8.index t (0 : Fin 2) * 1 + 1 * a.val = a.val; omega
  | ⟨1, _⟩ => show win0_8.index t (1 : Fin 2) * 10 + 1 * b.val = b.val; omega
theorem iblk0_9_eq (c : Dev nD) (t : Fin cfg0.N) : iblk0 V c 9 t = V c (Pipeline.arrRef spec0 9) := by
  obtain ⟨e0, e1⟩ := idx0_9 t
  funext j
  obtain ⟨a, b, rfl⟩ : ∃ (a : Fin 10) (b : Fin 2000), j = ix2 a b := ⟨j 0, j 1, eq_ix2 (n0 := 10) (n1 := 2000) j⟩
  show V c (Pipeline.arrRef spec0 9) (((cfg0.win 9).blk t).view.emb (ix2 a b)) = V c (Pipeline.arrRef spec0 9) (ix2 a b)
  refine congrArg _ (funext fun ax => Fin.ext ?_)
  match ax with
  | ⟨0, _⟩ => show win0_9.index t (0 : Fin 2) * 10 + 1 * a.val = a.val; omega
  | ⟨1, _⟩ => show win0_9.index t (1 : Fin 2) * 2000 + 1 * b.val = b.val; omega
theorem iblk0_10_eq (c : Dev nD) (t : Fin cfg0.N) : iblk0 V c 10 t = V c (Pipeline.arrRef spec0 10) := by
  obtain ⟨e0, e1⟩ := idx0_10 t
  funext j
  obtain ⟨a, b, rfl⟩ : ∃ (a : Fin 1) (b : Fin 2000), j = ix2 a b := ⟨j 0, j 1, eq_ix2 (n0 := 1) (n1 := 2000) j⟩
  show V c (Pipeline.arrRef spec0 10) (((cfg0.win 10).blk t).view.emb (ix2 a b)) = V c (Pipeline.arrRef spec0 10) (ix2 a b)
  refine congrArg _ (funext fun ax => Fin.ext ?_)
  match ax with
  | ⟨0, _⟩ => show win0_10.index t (0 : Fin 2) * 1 + 1 * a.val = a.val; omega
  | ⟨1, _⟩ => show win0_10.index t (1 : Fin 2) * 2000 + 1 * b.val = b.val; omega
theorem iblk0_11_eq (c : Dev nD) (t : Fin cfg0.N) : iblk0 V c 11 t = V c (Pipeline.arrRef spec0 11) := by
  obtain ⟨e0, e1⟩ := idx0_11 t
  funext j
  obtain ⟨a, b, rfl⟩ : ∃ (a : Fin 2000) (b : Fin 500), j = ix2 a b := ⟨j 0, j 1, eq_ix2 (n0 := 2000) (n1 := 500) j⟩
  show V c (Pipeline.arrRef spec0 11) (((cfg0.win 11).blk t).view.emb (ix2 a b)) = V c (Pipeline.arrRef spec0 11) (ix2 a b)
  refine congrArg _ (funext fun ax => Fin.ext ?_)
  match ax with
  | ⟨0, _⟩ => show win0_11.index t (0 : Fin 2) * 2000 + 1 * a.val = a.val; omega
  | ⟨1, _⟩ => show win0_11.index t (1 : Fin 2) * 500 + 1 * b.val = b.val; omega
theorem iblk0_12_eq (c : Dev nD) (t : Fin cfg0.N) : iblk0 V c 12 t = V c (Pipeline.arrRef spec0 12) := by
  obtain ⟨e0, e1⟩ := idx0_12 t
  funext j
  obtain ⟨a, b, rfl⟩ : ∃ (a : Fin 1) (b : Fin 500), j = ix2 a b := ⟨j 0, j 1, eq_ix2 (n0 := 1) (n1 := 500) j⟩
  show V c (Pipeline.arrRef spec0 12) (((cfg0.win 12).blk t).view.emb (ix2 a b)) = V c (Pipeline.arrRef spec0 12) (ix2 a b)
  refine congrArg _ (funext fun ax => Fin.ext ?_)
  match ax with
  | ⟨0, _⟩ => show win0_12.index t (0 : Fin 2) * 1 + 1 * a.val = a.val; omega
  | ⟨1, _⟩ => show win0_12.index t (1 : Fin 2) * 500 + 1 * b.val = b.val; omega
theorem iblk0_13_eq (c : Dev nD) (t : Fin cfg0.N) : iblk0 V c 13 t = V c (Pipeline.arrRef spec0 13) := by
  obtain ⟨e0, e1⟩ := idx0_13 t
  funext j
  obtain ⟨a, b, rfl⟩ : ∃ (a : Fin 500) (b : Fin 500), j = ix2 a b := ⟨j 0, j 1, eq_ix2 (n0 := 500) (n1 := 500) j⟩
  show V c (Pipeline.arrRef spec0 13) (((cfg0.win 13).blk t).view.emb (ix2 a b)) = V c (Pipeline.arrRef spec0 13) (ix2 a b)
  refine congrArg _ (funext fun ax => Fin.ext ?_)
  match ax with
  | ⟨0, _⟩ => show win0_13.index t (0 : Fin 2) * 500 + 1 * a.val = a.val; omega
  | ⟨1, _⟩ => show win0_13.index t (1 : Fin 2) * 500 + 1 * b.val = b.val; omega
theorem iblk0_14_eq (c : Dev nD) (t : Fin cfg0.N) : iblk0 V c 14 t = V c (Pipeline.arrRef spec0 14) := by
  obtain ⟨e0, e1⟩ := idx0_14 t
  funext j
  obtain ⟨a, b, rfl⟩ : ∃ (a : Fin 1) (b : Fin 500), j = ix2 a b := ⟨j 0, j 1, eq_ix2 (n0 := 1) (n1 := 500) j⟩
  show V c (Pipeline.arrRef spec0 14) (((cfg0.win 14).blk t).view.emb (ix2 a b)) = V c (Pipeline.arrRef spec0 14) (ix2 a b)
  refine congrArg _ (funext fun ax => Fin.ext ?_)
  match ax with
  | ⟨0, _⟩ => show win0_14.index t (0 : Fin 2) * 1 + 1 * a.val = a.val; omega
  | ⟨1, _⟩ => show win0_14.index t (1 : Fin 2) * 500 + 1 * b.val = b.val; omega
theorem iblk0_15_eq (c : Dev nD) (t : Fin cfg0.N) : iblk0 V c 15 t = V c (Pipeline.arrRef spec0 15) := by
  obtain ⟨e0, e1⟩ := idx0_15 t
  funext j
  obtain ⟨a, b, rfl⟩ : ∃ (a : Fin 500) (b : Fin 512), j = ix2 a b := ⟨j 0, j 1, eq_ix2 (n0 := 500) (n1 := 512) j⟩
  show V c (Pipeline.arrRef spec0 15) (((cfg0.win 15).blk t).view.emb (ix2 a b)) = V c (Pipeline.arrRef spec0 15) (ix2 a b)
  refine congrArg _ (funext fun ax => Fin.ext ?_)
  match ax with
  | ⟨0, _⟩ => show win0_15.index t (0 : Fin 2) * 500 + 1 * a.val = a.val; omega
  | ⟨1, _⟩ => show win0_15.index t (1 : Fin 2) * 512 + 1 * b.val = b.val; omega
theorem iblk0_16_eq (c : Dev nD) (t : Fin cfg0.N) : iblk0 V c 16 t = V c (Pipeline.arrRef spec0 16) := by
  obtain ⟨e0, e1⟩ := idx0_16 t
  funext j
  obtain ⟨a, b, rfl⟩ : ∃ (a : Fin 1) (b : Fin 512), j = ix2 a b := ⟨j 0, j 1, eq_ix2 (n0 := 1) (n1 := 512) j⟩
  show V c (Pipeline.arrRef spec0 16) (((cfg0.win 16).blk t).view.emb (ix2 a b)) = V c (Pipeline.arrRef spec0 16) (ix2 a b)
  refine congrArg _ (funext fun ax => Fin.ext ?_)
  match ax with
  | ⟨0, _⟩ => show win0_16.index t (0 : Fin 2) * 1 + 1 * a.val = a.val; omega
  | ⟨1, _⟩ => show win0_16.index t (1 : Fin 2) * 512 + 1 * b.val = b.val; omega
theorem iblk0_17_eq (c : Dev nD) (t : Fin cfg0.N) : iblk0 V c 17 t = V c (Pipeline.arrRef spec0 17) := by
  obtain ⟨e0, e1⟩ := idx0_17 t
  funext j
  obtain ⟨a, b, rfl⟩ : ∃ (a : Fin 512) (b : Fin 500), j = ix2 a b := ⟨j 0, j 1, eq_ix2 (n0 := 512) (n1 := 500) j⟩
  show V c (Pipeline.arrRef spec0 17) (((cfg0.win 17).blk t).view.emb (ix2 a b)) = V c (Pipeline.arrRef spec0 17) (ix2 a b)
  refine congrArg _ (funext fun ax => Fin.ext ?_)
  match ax with
  | ⟨0, _⟩ => show win0_17.index t (0 : Fin 2) * 512 + 1 * a.val = a.val; omega
  | ⟨1, _⟩ => show win0_17.index t (1 : Fin 2) * 500 + 1 * b.val = b.val; omega
theorem iblk0_18_eq (c : Dev nD) (t : Fin cfg0.N) : iblk0 V c 18 t = V c (Pipeline.arrRef spec0 18) := by
  obtain ⟨e0, e1⟩ := idx0_18 t
  funext j
  obtain ⟨a, b, rfl⟩ : ∃ (a : Fin 10) (b : Fin 10), j = ix2 a b := ⟨j 0, j 1, eq_ix2 (n0 := 10) (n1 := 10) j⟩
  show V c (Pipeline.arrRef spec0 18) (((cfg0.win 18).blk t).view.emb (ix2 a b)) = V c (Pipeline.arrRef spec0 18) (ix2 a b)
  refine congrArg _ (funext fun ax => Fin.ext ?_)
  match ax with
  | ⟨0, _⟩ => show win0_18.index t (0 : Fin 2) * 10 + 1 * a.val = a.val; omega
  | ⟨1, _⟩ => show win0_18.index t (1 : Fin 2) * 10 + 1 * b.val = b.val; omega

/-- Where a result block's entry `(p, q)` at point `t` sits in its array: row `1024 t + p`, column `q`. -/
theorem emb0_19 (t : Fin cfg0.N) (p : Fin 1024) (q : Fin 512) (P : Fin 4096) (hP : P.val = t.val * 1024 + p.val) :
    ((cfg0.win 19).blk t).view.emb (ix2 p q) = ix2 P q := by
  obtain ⟨e0, e1⟩ := idx0_19 t
  funext a; apply Fin.ext
  match a with
  | ⟨0, _⟩ => show win0_19.index t (0 : Fin 2) * 1024 + 1 * p.val = P.val; omega
  | ⟨1, _⟩ => show win0_19.index t (1 : Fin 2) * 512 + 1 * q.val = q.val; omega
theorem emb0_20 (t : Fin cfg0.N) (p : Fin 1024) (q : Fin 10) (P : Fin 4096) (hP : P.val = t.val * 1024 + p.val) :
    ((cfg0.win 20).blk t).view.emb (ix2 p q) = ix2 P q := by
  obtain ⟨e0, e1⟩ := idx0_20 t
  funext a; apply Fin.ext
  match a with
  | ⟨0, _⟩ => show win0_20.index t (0 : Fin 2) * 1024 + 1 * p.val = P.val; omega
  | ⟨1, _⟩ => show win0_20.index t (1 : Fin 2) * 10 + 1 * q.val = q.val; omega
theorem emb0_21 (t : Fin cfg0.N) (p : Fin 1024) (q : Fin 500) (P : Fin 4096) (hP : P.val = t.val * 1024 + p.val) :
    ((cfg0.win 21).blk t).view.emb (ix2 p q) = ix2 P q := by
  obtain ⟨e0, e1⟩ := idx0_21 t
  funext a; apply Fin.ext
  match a with
  | ⟨0, _⟩ => show win0_21.index t (0 : Fin 2) * 1024 + 1 * p.val = P.val; omega
  | ⟨1, _⟩ => show win0_21.index t (1 : Fin 2) * 500 + 1 * q.val = q.val; omega
theorem emb0_22 (t : Fin cfg0.N) (p : Fin 1024) (q : Fin 10) (P : Fin 4096) (hP : P.val = t.val * 1024 + p.val) :
    ((cfg0.win 22).blk t).view.emb (ix2 p q) = ix2 P q := by
  obtain ⟨e0, e1⟩ := idx0_22 t
  funext a; apply Fin.ext
  match a with
  | ⟨0, _⟩ => show win0_22.index t (0 : Fin 2) * 1024 + 1 * p.val = P.val; omega
  | ⟨1, _⟩ => show win0_22.index t (1 : Fin 2) * 10 + 1 * q.val = q.val; omega
theorem emb0_23 (t : Fin cfg0.N) (p : Fin 1024) (q : Fin 500) (P : Fin 4096) (hP : P.val = t.val * 1024 + p.val) :
    ((cfg0.win 23).blk t).view.emb (ix2 p q) = ix2 P q := by
  obtain ⟨e0, e1⟩ := idx0_23 t
  funext a; apply Fin.ext
  match a with
  | ⟨0, _⟩ => show win0_23.index t (0 : Fin 2) * 1024 + 1 * p.val = P.val; omega
  | ⟨1, _⟩ => show win0_23.index t (1 : Fin 2) * 500 + 1 * q.val = q.val; omega

-- nine windows' blocks are identified with their arrays, each by unfolding the window's description
set_option maxHeartbeats 2000000 in
/-- What point `t` writes back through window 20 is block `t` of the latent code of the arrays as the region finds
    them. -/
theorem flushed0_20_eq (c : Dev nD) (t : Fin cfg0.N) :
    (dat0 (F := Ideal) V c).flushed 20 t
      = ((cfg0.win 20).blk t).view.read (Elt Ideal)
          (G0_20 (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))
            (V c (Pipeline.arrRef spec0 6)) (V c (Pipeline.arrRef spec0 7)) (V c (Pipeline.arrRef spec0 8))) := by
  show (cfg0.win 20).cut (grid0.coords t) ((dat0 V c).after 20 t) = _
  rw [after0_20]
  unfold out0_20 lat0 enc0
  rw [View.canon_unit_zero hz0]
  simp only [View.ld_unit_zero (S := S1024x512) hz0, View.ld_unit_zero (S := S512x500) hz0,
    View.ld_unit_zero (S := S1x500) hz0, View.ld_unit_zero (S := S500x500) hz0, View.ld_unit_zero (S := S500x2000) hz0,
    View.ld_unit_zero (S := S1x2000) hz0, View.ld_unit_zero (S := S2000x10) hz0, View.ld_unit_zero (S := S1x10) hz0]
  funext j
  obtain ⟨p, q, rfl⟩ : ∃ (p : Fin 1024) (q : Fin 10), j = ix2 p q := ⟨j 0, j 1, eq_ix2 (n0 := 1024) (n1 := 10) j⟩
  have ht : t.val < 4 := lt_of_lt_of_eq t.isLt N_0
  have hP : t.val * 1024 + p.val < 4096 := by have := p.isLt; omega
  show k0_pay4 (k0_pay3 (iblk0 V c 0 t) (iblk0 V c 1 t) (iblk0 V c 2 t) (iblk0 V c 3 t) (iblk0 V c 4 t) (iblk0 V c 5 t)
      (iblk0 V c 6 t) (iblk0 V c 7 t)) (iblk0 V c 8 t) (ix2 p q)
    = G0_20 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8))
        (((cfg0.win 20).blk t).view.emb (ix2 p q))
  rw [emb0_20 t p q ⟨t.val * 1024 + p.val, hP⟩ rfl]
  exact point0_20 _ _ _ _ _ _ _ _ _ _ _ _ _ _ _ _ _ _ p q ⟨t.val * 1024 + p.val, hP⟩
    (fun k => iblk0_0_apply V c t p k ⟨t.val * 1024 + p.val, hP⟩ rfl)
    (iblk0_1_eq V c t) (iblk0_2_eq V c t) (iblk0_3_eq V c t) (iblk0_4_eq V c t) (iblk0_5_eq V c t) (iblk0_6_eq V c t)
    (iblk0_7_eq V c t) (iblk0_8_eq V c t)

/-- What point `t` writes back through window 21 is block `t` of the first hidden layer. -/
theorem flushed0_21_eq (c : Dev nD) (t : Fin cfg0.N) :
    (dat0 (F := Ideal) V c).flushed 21 t
      = ((cfg0.win 21).blk t).view.read (Elt Ideal)
          (G0_21 (V c (Pipeline.arrRef spec0 0)) (V c (Pipeline.arrRef spec0 1)) (V c (Pipeline.arrRef spec0 2))) := by
  show (cfg0.win 21).cut (grid0.coords t) ((dat0 V c).after 21 t) = _
  rw [after0_21]
  unfold out0_21
  rw [View.canon_unit_zero hz0]
  simp only [View.ld_unit_zero (S := S1024x512) hz0, View.ld_unit_zero (S := S512x500) hz0,
    View.ld_unit_zero (S := S1x500) hz0]
  funext j
  obtain ⟨p, q, rfl⟩ : ∃ (p : Fin 1024) (q : Fin 500), j = ix2 p q := ⟨j 0, j 1, eq_ix2 (n0 := 1024) (n1 := 500) j⟩
  have ht : t.val < 4 := lt_of_lt_of_eq t.isLt N_0
  have hP : t.val * 1024 + p.val < 4096 := by have := p.isLt; omega
  show k0_pay7 (k0_pay2 (iblk0 V c 0 t) (iblk0 V c 1 t) (iblk0 V c 2 t)) (ix2 p q)
    = G0_21 (V c (Pipeline.arrRef spec0 0)) (V c (Pipeline.arrRef spec0 1)) (V c (Pipeline.arrRef spec0 2))
        (((cfg0.win 21).blk t).view.emb (ix2 p q))
  rw [emb0_21 t p q ⟨t.val * 1024 + p.val, hP⟩ rfl]
  exact point0_21 _ _ _ _ _ _ p q ⟨t.val * 1024 + p.val, hP⟩
    (fun k => iblk0_0_apply V c t p k ⟨t.val * 1024 + p.val, hP⟩ rfl) (iblk0_1_eq V c t) (iblk0_2_eq V c t)

/-- What point `t` writes back through window 23 is block `t` of the input times the first graph weight. -/
theorem flushed0_23_eq (c : Dev nD) (t : Fin cfg0.N) :
    (dat0 (F := Ideal) V c).flushed 23 t
      = ((cfg0.win 23).blk t).view.read (Elt Ideal)
          (G0_23 (V c (Pipeline.arrRef spec0 0)) (V c (Pipeline.arrRef spec0 17))) := by
  show (cfg0.win 23).cut (grid0.coords t) ((dat0 V c).after 23 t) = _
  rw [after0_23]
  unfold out0_23
  rw [View.canon_unit_zero hz0]
  simp only [View.ld_unit_zero (S := S1024x512) hz0, View.ld_unit_zero (S := S512x500) hz0]
  funext j
  obtain ⟨p, q, rfl⟩ : ∃ (p : Fin 1024) (q : Fin 500), j = ix2 p q := ⟨j 0, j 1, eq_ix2 (n0 := 1024) (n1 := 500) j⟩
  have ht : t.val < 4 := lt_of_lt_of_eq t.isLt N_0
  have hP : t.val * 1024 + p.val < 4096 := by have := p.isLt; omega
  show k0_pay1 (k0_pay9 (iblk0 V c 17 t)) (k0_pay10 (iblk0 V c 0 t)) (ix2 p q)
    = G0_23 (V c (Pipeline.arrRef spec0 0)) (V c (Pipeline.arrRef spec0 17)) (((cfg0.win 23).blk t).view.emb (ix2 p q))
  rw [emb0_23 t p q ⟨t.val * 1024 + p.val, hP⟩ rfl]
  exact point0_23 _ _ _ _ p q ⟨t.val * 1024 + p.val, hP⟩
    (fun k => iblk0_0_apply V c t p k ⟨t.val * 1024 + p.val, hP⟩ rfl) (iblk0_17_eq V c t)

-- seventeen windows' blocks are identified with their arrays, each by unfolding the window's description
set_option maxHeartbeats 4000000 in
/-- What point `t` writes back through window 19 is block `t` of the reconstruction. -/
theorem flushed0_19_eq (c : Dev nD) (t : Fin cfg0.N) :
    (dat0 (F := Ideal) V c).flushed 19 t
      = ((cfg0.win 19).blk t).view.read (Elt Ideal)
          (G0_19 (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))
            (V c (Pipeline.arrRef spec0 6)) (V c (Pipeline.arrRef spec0 7)) (V c (Pipeline.arrRef spec0 8))
            (V c (Pipeline.arrRef spec0 9)) (V c (Pipeline.arrRef spec0 10)) (V c (Pipeline.arrRef spec0 11))
            (V c (Pipeline.arrRef spec0 12)) (V c (Pipeline.arrRef spec0 13)) (V c (Pipeline.arrRef spec0 14))
            (V c (Pipeline.arrRef spec0 15)) (V c (Pipeline.arrRef spec0 16))) := by
  show (cfg0.win 19).cut (grid0.coords t) ((dat0 V c).after 19 t) = _
  rw [after0_19]
  unfold out0_19 enc0
  rw [View.canon_unit_zero hz0]
  simp only [View.ld_unit_zero (S := S1024x512) hz0, View.ld_unit_zero (S := S512x500) hz0,
    View.ld_unit_zero (S := S1x500) hz0, View.ld_unit_zero (S := S500x500) hz0, View.ld_unit_zero (S := S500x2000) hz0,
    View.ld_unit_zero (S := S1x2000) hz0, View.ld_unit_zero (S := S2000x10) hz0, View.ld_unit_zero (S := S1x10) hz0,
    View.ld_unit_zero (S := S10x2000) hz0, View.ld_unit_zero (S := S2000x500) hz0, View.ld_unit_zero (S := S500x512) hz0,
    View.ld_unit_zero (S := S1x512) hz0]
  funext j
  obtain ⟨p, q, rfl⟩ : ∃ (p : Fin 1024) (q : Fin 512), j = ix2 p q := ⟨j 0, j 1, eq_ix2 (n0 := 1024) (n1 := 512) j⟩
  have ht : t.val < 4 := lt_of_lt_of_eq t.isLt N_0
  have hP : t.val * 1024 + p.val < 4096 := by have := p.isLt; omega
  show k0_pay6 (k0_pay5 (k0_pay3 (iblk0 V c 0 t) (iblk0 V c 1 t) (iblk0 V c 2 t) (iblk0 V c 3 t) (iblk0 V c 4 t)
      (iblk0 V c 5 t) (iblk0 V c 6 t) (iblk0 V c 7 t)) (iblk0 V c 8 t) (iblk0 V c 9 t) (iblk0 V c 10 t) (iblk0 V c 11 t)
      (iblk0 V c 12 t) (iblk0 V c 13 t) (iblk0 V c 14 t) (iblk0 V c 15 t)) (iblk0 V c 16 t) (ix2 p q)
    = G0_19 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8))
        (V c (Pipeline.arrRef spec0 9)) (V c (Pipeline.arrRef spec0 10)) (V c (Pipeline.arrRef spec0 11))
        (V c (Pipeline.arrRef spec0 12)) (V c (Pipeline.arrRef spec0 13)) (V c (Pipeline.arrRef spec0 14))
        (V c (Pipeline.arrRef spec0 15)) (V c (Pipeline.arrRef spec0 16)) (((cfg0.win 19).blk t).view.emb (ix2 p q))
  rw [emb0_19 t p q ⟨t.val * 1024 + p.val, hP⟩ rfl]
  exact point0_19 _ _ _ _ _ _ _ _ _ _ _ _ _ _ _ _ _ _ _ _ _ _ _ _ _ _ _ _ _ _ _ _ _ _ p q ⟨t.val * 1024 + p.val, hP⟩
    (fun k => iblk0_0_apply V c t p k ⟨t.val * 1024 + p.val, hP⟩ rfl)
    (iblk0_1_eq V c t) (iblk0_2_eq V c t) (iblk0_3_eq V c t) (iblk0_4_eq V c t) (iblk0_5_eq V c t) (iblk0_6_eq V c t)
    (iblk0_7_eq V c t) (iblk0_8_eq V c t) (iblk0_9_eq V c t) (iblk0_10_eq V c t) (iblk0_11_eq V c t) (iblk0_12_eq V c t)
    (iblk0_13_eq V c t) (iblk0_14_eq V c t) (iblk0_15_eq V c t) (iblk0_16_eq V c t)

/-- An entry of the array lies in point `t`'s block of window 20 iff each coordinate lies in the block's range. -/
theorem mem_blk0_20 (t : Fin cfg0.N) (i : S4096x10.Idx) :
    i ∈ ((cfg0.win 20).blk t).view.set ↔ ∀ a : Fin 2, win0_20.index t a * S1024x10.size a ≤ (i a).val
      ∧ (i a).val < win0_20.index t a * S1024x10.size a + S1024x10.size a := by
  show i ∈ ((View.whole main_v18_1).slice (win0_20.rect t)).set ↔ _
  rw [View.set_slice_whole, Rect.mem_set_unit]
  exact Iff.rfl
theorem mem_blk0_21 (t : Fin cfg0.N) (i : S4096x500.Idx) :
    i ∈ ((cfg0.win 21).blk t).view.set ↔ ∀ a : Fin 2, win0_21.index t a * S1024x500.size a ≤ (i a).val
      ∧ (i a).val < win0_21.index t a * S1024x500.size a + S1024x500.size a := by
  show i ∈ ((View.whole main_v18_2).slice (win0_21.rect t)).set ↔ _
  rw [View.set_slice_whole, Rect.mem_set_unit]
  exact Iff.rfl
theorem mem_blk0_23 (t : Fin cfg0.N) (i : S4096x500.Idx) :
    i ∈ ((cfg0.win 23).blk t).view.set ↔ ∀ a : Fin 2, win0_23.index t a * S1024x500.size a ≤ (i a).val
      ∧ (i a).val < win0_23.index t a * S1024x500.size a + S1024x500.size a := by
  show i ∈ ((View.whole main_v18_4).slice (win0_23.rect t)).set ↔ _
  rw [View.set_slice_whole, Rect.mem_set_unit]
  exact Iff.rfl
theorem mem_blk0_19 (t : Fin cfg0.N) (i : S4096x512.Idx) :
    i ∈ ((cfg0.win 19).blk t).view.set ↔ ∀ a : Fin 2, win0_19.index t a * S1024x512.size a ≤ (i a).val
      ∧ (i a).val < win0_19.index t a * S1024x512.size a + S1024x512.size a := by
  show i ∈ ((View.whole main_v18_0).slice (win0_19.rect t)).set ↔ _
  rw [View.set_slice_whole, Rect.mem_set_unit]
  exact Iff.rfl

/-- Every entry of the latent array is in some point's block: row `P` is covered by point `P / 1024`. -/
theorem covered0_20 (i : S4096x10.Idx) :
    ∃ t : Fin cfg0.N, (cfg0.win 20).flush t = true ∧ i ∈ ((cfg0.win 20).blk t).view.set := by
  have hi0 : (i 0).val < 4096 := (i 0).isLt
  have hi1 : (i 1).val < 10 := (i 1).isLt
  obtain ⟨t, ht⟩ : ∃ t : Fin cfg0.N, t.val = (i 0).val / 1024 :=
    ⟨⟨(i 0).val / 1024, lt_of_lt_of_eq (show (i 0).val / 1024 < 4 by omega) N_0.symm⟩, rfl⟩
  obtain ⟨e0, e1⟩ := idx0_20 t
  refine ⟨t, flush0_20 t, ?_⟩
  rw [mem_blk0_20]
  intro a
  match a with
  | ⟨0, _⟩ =>
    show win0_20.index t (0 : Fin 2) * 1024 ≤ (i 0).val ∧ (i 0).val < win0_20.index t (0 : Fin 2) * 1024 + 1024
    omega
  | ⟨1, _⟩ =>
    show win0_20.index t (1 : Fin 2) * 10 ≤ (i 1).val ∧ (i 1).val < win0_20.index t (1 : Fin 2) * 10 + 10
    omega
theorem covered0_21 (i : S4096x500.Idx) :
    ∃ t : Fin cfg0.N, (cfg0.win 21).flush t = true ∧ i ∈ ((cfg0.win 21).blk t).view.set := by
  have hi0 : (i 0).val < 4096 := (i 0).isLt
  have hi1 : (i 1).val < 500 := (i 1).isLt
  obtain ⟨t, ht⟩ : ∃ t : Fin cfg0.N, t.val = (i 0).val / 1024 :=
    ⟨⟨(i 0).val / 1024, lt_of_lt_of_eq (show (i 0).val / 1024 < 4 by omega) N_0.symm⟩, rfl⟩
  obtain ⟨e0, e1⟩ := idx0_21 t
  refine ⟨t, flush0_21 t, ?_⟩
  rw [mem_blk0_21]
  intro a
  match a with
  | ⟨0, _⟩ =>
    show win0_21.index t (0 : Fin 2) * 1024 ≤ (i 0).val ∧ (i 0).val < win0_21.index t (0 : Fin 2) * 1024 + 1024
    omega
  | ⟨1, _⟩ =>
    show win0_21.index t (1 : Fin 2) * 500 ≤ (i 1).val ∧ (i 1).val < win0_21.index t (1 : Fin 2) * 500 + 500
    omega
theorem covered0_23 (i : S4096x500.Idx) :
    ∃ t : Fin cfg0.N, (cfg0.win 23).flush t = true ∧ i ∈ ((cfg0.win 23).blk t).view.set := by
  have hi0 : (i 0).val < 4096 := (i 0).isLt
  have hi1 : (i 1).val < 500 := (i 1).isLt
  obtain ⟨t, ht⟩ : ∃ t : Fin cfg0.N, t.val = (i 0).val / 1024 :=
    ⟨⟨(i 0).val / 1024, lt_of_lt_of_eq (show (i 0).val / 1024 < 4 by omega) N_0.symm⟩, rfl⟩
  obtain ⟨e0, e1⟩ := idx0_23 t
  refine ⟨t, flush0_23 t, ?_⟩
  rw [mem_blk0_23]
  intro a
  match a with
  | ⟨0, _⟩ =>
    show win0_23.index t (0 : Fin 2) * 1024 ≤ (i 0).val ∧ (i 0).val < win0_23.index t (0 : Fin 2) * 1024 + 1024
    omega
  | ⟨1, _⟩ =>
    show win0_23.index t (1 : Fin 2) * 500 ≤ (i 1).val ∧ (i 1).val < win0_23.index t (1 : Fin 2) * 500 + 500
    omega
theorem covered0_19 (i : S4096x512.Idx) :
    ∃ t : Fin cfg0.N, (cfg0.win 19).flush t = true ∧ i ∈ ((cfg0.win 19).blk t).view.set := by
  have hi0 : (i 0).val < 4096 := (i 0).isLt
  have hi1 : (i 1).val < 512 := (i 1).isLt
  obtain ⟨t, ht⟩ : ∃ t : Fin cfg0.N, t.val = (i 0).val / 1024 :=
    ⟨⟨(i 0).val / 1024, lt_of_lt_of_eq (show (i 0).val / 1024 < 4 by omega) N_0.symm⟩, rfl⟩
  obtain ⟨e0, e1⟩ := idx0_19 t
  refine ⟨t, flush0_19 t, ?_⟩
  rw [mem_blk0_19]
  intro a
  match a with
  | ⟨0, _⟩ =>
    show win0_19.index t (0 : Fin 2) * 1024 ≤ (i 0).val ∧ (i 0).val < win0_19.index t (0 : Fin 2) * 1024 + 1024
    omega
  | ⟨1, _⟩ =>
    show win0_19.index t (1 : Fin 2) * 512 ≤ (i 1).val ∧ (i 1).val < win0_19.index t (1 : Fin 2) * 512 + 512
    omega

/-- The latent array after the region: the one function of the arrays as the region finds them. -/
theorem final0_20 (c : Dev nD) :
    (dat0 (F := Ideal) V c).arrAt 20 cfg0.N
      = G0_20 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) (V c (Pipeline.arrRef spec0 8)) :=
  (dat0 (F := Ideal) V c).arrAt_eq_of_cover 20 _ (fun t _ => flushed0_20_eq V c t) covered0_20

/-- The first hidden layer's array after the region. -/
theorem final0_21 (c : Dev nD) :
    (dat0 (F := Ideal) V c).arrAt 21 cfg0.N
      = G0_21 (V c (Pipeline.arrRef spec0 0)) (V c (Pipeline.arrRef spec0 1)) (V c (Pipeline.arrRef spec0 2)) :=
  (dat0 (F := Ideal) V c).arrAt_eq_of_cover 21 _ (fun t _ => flushed0_21_eq V c t) covered0_21

/-- The array of the input times the first graph weight after the region. -/
theorem final0_23 (c : Dev nD) :
    (dat0 (F := Ideal) V c).arrAt 23 cfg0.N
      = G0_23 (V c (Pipeline.arrRef spec0 0)) (V c (Pipeline.arrRef spec0 17)) :=
  (dat0 (F := Ideal) V c).arrAt_eq_of_cover 23 _ (fun t _ => flushed0_23_eq V c t) covered0_23

/-- The reconstruction array after the region. -/
theorem final0_19 (c : Dev nD) :
    (dat0 (F := Ideal) V c).arrAt 19 cfg0.N
      = G0_19 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) (V c (Pipeline.arrRef spec0 8))
          (V c (Pipeline.arrRef spec0 9)) (V c (Pipeline.arrRef spec0 10)) (V c (Pipeline.arrRef spec0 11))
          (V c (Pipeline.arrRef spec0 12)) (V c (Pipeline.arrRef spec0 13)) (V c (Pipeline.arrRef spec0 14))
          (V c (Pipeline.arrRef spec0 15)) (V c (Pipeline.arrRef spec0 16)) :=
  (dat0 (F := Ideal) V c).arrAt_eq_of_cover 19 _ (fun t _ => flushed0_19_eq V c t) covered0_19

/-! ## 3. Over the reals -/

/-- A row through a product, over the reals: when the row is row `P` of a real matrix `Y` and the weight is a real
    matrix `W`, entry `q` is the coercion of `(Y · W) P q`. -/
theorem mulRow_real {N k n : ℕ} (y : Fin k → EReal) (w : (⟨2, ![k, n]⟩ : Shape).Idx → EReal)
    (Y : RealNet.M N k) (W : RealNet.M k n) (P : Fin N)
    (hy : ∀ c : Fin k, y c = ((Y P c : ℝ) : EReal))
    (hw : ∀ (c : Fin k) (q : Fin n), w (ix2 c q) = ((W c q : ℝ) : EReal)) (q : Fin n) :
    mulRow y w q = (((Y * W) P q : ℝ) : EReal) := by
  show (∑ c : Fin k, y c * w (ix2 c q)) = _
  rw [← RealNet.lift_matmul Y W P q]
  exact Finset.sum_congr rfl fun c _ => by rw [hy, hw]; rfl

/-- A row through a dense layer, over the reals: entry `q` is the coercion of `lin Y W bb P q`. -/
theorem linRow_real {N k n : ℕ} (y : Fin k → EReal) (w : (⟨2, ![k, n]⟩ : Shape).Idx → EReal)
    (b : (⟨2, ![1, n]⟩ : Shape).Idx → EReal)
    (Y : RealNet.M N k) (W : RealNet.M k n) (bb : Fin n → ℝ) (P : Fin N)
    (hy : ∀ c : Fin k, y c = ((Y P c : ℝ) : EReal))
    (hw : ∀ (c : Fin k) (q : Fin n), w (ix2 c q) = ((W c q : ℝ) : EReal))
    (hb : ∀ q : Fin n, b (ix2 (0 : Fin 1) q) = ((bb q : ℝ) : EReal)) (q : Fin n) :
    linRow y w b q = ((RealNet.lin Y W bb P q : ℝ) : EReal) := by
  show (∑ c : Fin k, y c * w (ix2 c q)) + b (ix2 (0 : Fin 1) q) = _
  rw [show (∑ c : Fin k, y c * w (ix2 c q)) = RealNet.coeM (Y * W) P q from mulRow_real y w Y W P hy hw q, hb]
  exact RealNet.lift_addRow_apply (Y * W) bb P q

/-- A rectified row, over the reals: entry `q` is the coercion of `relu Y P q`. -/
theorem reluRow_real {N n : ℕ} (y : Fin n → EReal) (Y : RealNet.M N n) (P : Fin N)
    (hy : ∀ q : Fin n, y q = ((Y P q : ℝ) : EReal)) (q : Fin n) :
    reluRow y q = ((RealNet.relu Y P q : ℝ) : EReal) := by
  show max (y q) 0 = _
  rw [hy]
  exact RealNet.lift_relu_apply Y P q

section RealForms
variable (A : RealNet.Args)

/-- The first hidden layer of row `P` of the input, over the reals. -/
theorem re1Row_real (x : Vec Ideal S4096x512 .f32) (w1 : Vec Ideal S512x500 .bf16) (b1 : Vec Ideal S1x500 .f32)
    (hx : ∀ (p : Fin 4096) (k : Fin 512), x (ix2 p k) = ((A.x p k : ℝ) : EReal))
    (hw1 : ∀ (k : Fin 512) (q : Fin 500), w1 (ix2 k q) = ((A.e1w k q : ℝ) : EReal))
    (hb1 : ∀ q : Fin 500, b1 (ix2 (0 : Fin 1) q) = ((A.e1b q : ℝ) : EReal))
    (P : Fin 4096) (q : Fin 500) :
    re1Row (fun c => x (ix2 P c)) w1 b1 q = ((A.re1 P q : ℝ) : EReal) :=
  reluRow_real _ (RealNet.lin A.x A.e1w A.e1b) P
    (fun q' => linRow_real _ w1 b1 A.x A.e1w A.e1b P (fun c => hx P c) hw1 hb1 q') q

/-- The latent code of row `P` of the input, over the reals. -/
theorem latRow_real (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (hx : ∀ (p : Fin 4096) (k : Fin 512), x (ix2 p k) = ((A.x p k : ℝ) : EReal))
    (hw1 : ∀ (k : Fin 512) (q : Fin 500), w1 (ix2 k q) = ((A.e1w k q : ℝ) : EReal))
    (hb1 : ∀ q : Fin 500, b1 (ix2 (0 : Fin 1) q) = ((A.e1b q : ℝ) : EReal))
    (hw2 : ∀ (k : Fin 500) (q : Fin 500), w2 (ix2 k q) = ((A.e2w k q : ℝ) : EReal))
    (hb2 : ∀ q : Fin 500, b2 (ix2 (0 : Fin 1) q) = ((A.e2b q : ℝ) : EReal))
    (hw3 : ∀ (k : Fin 500) (q : Fin 2000), w3 (ix2 k q) = ((A.e3w k q : ℝ) : EReal))
    (hb3 : ∀ q : Fin 2000, b3 (ix2 (0 : Fin 1) q) = ((A.e3b q : ℝ) : EReal))
    (hw4 : ∀ (k : Fin 2000) (q : Fin 10), w4 (ix2 k q) = ((A.zlw k q : ℝ) : EReal))
    (hb4 : ∀ q : Fin 10, b4 (ix2 (0 : Fin 1) q) = ((A.zlb q : ℝ) : EReal))
    (P : Fin 4096) (q : Fin 10) :
    latRow (fun c => x (ix2 P c)) w1 b1 w2 b2 w3 b3 w4 b4 q = ((A.r P q : ℝ) : EReal) := by
  have h1 : ∀ j : Fin 500, re1Row (fun c => x (ix2 P c)) w1 b1 j = ((A.re1 P j : ℝ) : EReal) :=
    fun j => re1Row_real A x w1 b1 hx hw1 hb1 P j
  have h2 : ∀ j : Fin 500, reluRow (linRow (re1Row (fun c => x (ix2 P c)) w1 b1) w2 b2) j = ((A.re2 P j : ℝ) : EReal) :=
    fun j => reluRow_real _ (RealNet.lin A.re1 A.e2w A.e2b) P
      (fun j' => linRow_real _ w2 b2 A.re1 A.e2w A.e2b P h1 hw2 hb2 j') j
  have h3 : ∀ j : Fin 2000, re3Row (fun c => x (ix2 P c)) w1 b1 w2 b2 w3 b3 j = ((A.re3 P j : ℝ) : EReal) :=
    fun j => reluRow_real _ (RealNet.lin A.re2 A.e3w A.e3b) P
      (fun j' => linRow_real _ w3 b3 A.re2 A.e3w A.e3b P h2 hw3 hb3 j') j
  exact linRow_real _ w4 b4 A.re3 A.zlw A.zlb P h3 hw4 hb4 q

/-- The reconstruction of a latent row that is row `P` of the real latent code, over the reals. -/
theorem xbarRow_real (z : Fin 10 → EReal) (w5 : Vec Ideal S10x2000 .bf16) (b5 : Vec Ideal S1x2000 .f32)
    (w6 : Vec Ideal S2000x500 .bf16) (b6 : Vec Ideal S1x500 .f32) (w7 : Vec Ideal S500x500 .bf16)
    (b7 : Vec Ideal S1x500 .f32) (w8 : Vec Ideal S500x512 .bf16) (b8 : Vec Ideal S1x512 .f32) (P : Fin 4096)
    (hz : ∀ j : Fin 10, z j = ((A.r P j : ℝ) : EReal))
    (hw5 : ∀ (k : Fin 10) (q : Fin 2000), w5 (ix2 k q) = ((A.d1w k q : ℝ) : EReal))
    (hb5 : ∀ q : Fin 2000, b5 (ix2 (0 : Fin 1) q) = ((A.d1b q : ℝ) : EReal))
    (hw6 : ∀ (k : Fin 2000) (q : Fin 500), w6 (ix2 k q) = ((A.d2w k q : ℝ) : EReal))
    (hb6 : ∀ q : Fin 500, b6 (ix2 (0 : Fin 1) q) = ((A.d2b q : ℝ) : EReal))
    (hw7 : ∀ (k : Fin 500) (q : Fin 500), w7 (ix2 k q) = ((A.d3w k q : ℝ) : EReal))
    (hb7 : ∀ q : Fin 500, b7 (ix2 (0 : Fin 1) q) = ((A.d3b q : ℝ) : EReal))
    (hw8 : ∀ (k : Fin 500) (q : Fin 512), w8 (ix2 k q) = ((A.xbw k q : ℝ) : EReal))
    (hb8 : ∀ q : Fin 512, b8 (ix2 (0 : Fin 1) q) = ((A.xbb q : ℝ) : EReal))
    (q : Fin 512) :
    xbarRow z w5 b5 w6 b6 w7 b7 w8 b8 q = ((A.xbar P q : ℝ) : EReal) := by
  have h1 : ∀ j : Fin 2000, reluRow (linRow z w5 b5) j = ((A.rd1 P j : ℝ) : EReal) :=
    fun j => reluRow_real _ (RealNet.lin A.r A.d1w A.d1b) P
      (fun j' => linRow_real _ w5 b5 A.r A.d1w A.d1b P hz hw5 hb5 j') j
  have h2 : ∀ j : Fin 500, reluRow (linRow (reluRow (linRow z w5 b5)) w6 b6) j = ((A.rd2 P j : ℝ) : EReal) :=
    fun j => reluRow_real _ (RealNet.lin A.rd1 A.d2w A.d2b) P
      (fun j' => linRow_real _ w6 b6 A.rd1 A.d2w A.d2b P h1 hw6 hb6 j') j
  have h3 : ∀ j : Fin 500,
      reluRow (linRow (reluRow (linRow (reluRow (linRow z w5 b5)) w6 b6)) w7 b7) j = ((A.rd3 P j : ℝ) : EReal) :=
    fun j => reluRow_real _ (RealNet.lin A.rd2 A.d3w A.d3b) P
      (fun j' => linRow_real _ w7 b7 A.rd2 A.d3w A.d3b P h2 hw7 hb7 j') j
  exact linRow_real _ w8 b8 A.rd3 A.xbw A.xbb P h3 hw8 hb8 q

/-- The latent code's function of the arrays, over the reals. -/
theorem G0_20_real (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (hx : ∀ (p : Fin 4096) (k : Fin 512), x (ix2 p k) = ((A.x p k : ℝ) : EReal))
    (hw1 : ∀ (k : Fin 512) (q : Fin 500), w1 (ix2 k q) = ((A.e1w k q : ℝ) : EReal))
    (hb1 : ∀ q : Fin 500, b1 (ix2 (0 : Fin 1) q) = ((A.e1b q : ℝ) : EReal))
    (hw2 : ∀ (k : Fin 500) (q : Fin 500), w2 (ix2 k q) = ((A.e2w k q : ℝ) : EReal))
    (hb2 : ∀ q : Fin 500, b2 (ix2 (0 : Fin 1) q) = ((A.e2b q : ℝ) : EReal))
    (hw3 : ∀ (k : Fin 500) (q : Fin 2000), w3 (ix2 k q) = ((A.e3w k q : ℝ) : EReal))
    (hb3 : ∀ q : Fin 2000, b3 (ix2 (0 : Fin 1) q) = ((A.e3b q : ℝ) : EReal))
    (hw4 : ∀ (k : Fin 2000) (q : Fin 10), w4 (ix2 k q) = ((A.zlw k q : ℝ) : EReal))
    (hb4 : ∀ q : Fin 10, b4 (ix2 (0 : Fin 1) q) = ((A.zlb q : ℝ) : EReal))
    (p : Fin 4096) (q : Fin 10) :
    G0_20 x w1 b1 w2 b2 w3 b3 w4 b4 (ix2 p q) = ((A.r p q : ℝ) : EReal) :=
  latRow_real A x w1 b1 w2 b2 w3 b3 w4 b4 hx hw1 hb1 hw2 hb2 hw3 hb3 hw4 hb4 p q

/-- The first hidden layer's function of the arrays, over the reals. -/
theorem G0_21_real (x : Vec Ideal S4096x512 .f32) (w1 : Vec Ideal S512x500 .bf16) (b1 : Vec Ideal S1x500 .f32)
    (hx : ∀ (p : Fin 4096) (k : Fin 512), x (ix2 p k) = ((A.x p k : ℝ) : EReal))
    (hw1 : ∀ (k : Fin 512) (q : Fin 500), w1 (ix2 k q) = ((A.e1w k q : ℝ) : EReal))
    (hb1 : ∀ q : Fin 500, b1 (ix2 (0 : Fin 1) q) = ((A.e1b q : ℝ) : EReal))
    (p : Fin 4096) (q : Fin 500) :
    G0_21 x w1 b1 (ix2 p q) = ((A.re1 p q : ℝ) : EReal) :=
  re1Row_real A x w1 b1 hx hw1 hb1 p q

/-- The function of the arrays that is the input times the first graph weight, over the reals. -/
theorem G0_23_real (x : Vec Ideal S4096x512 .f32) (g : Vec Ideal S512x500 .bf16)
    (hx : ∀ (p : Fin 4096) (k : Fin 512), x (ix2 p k) = ((A.x p k : ℝ) : EReal))
    (hg : ∀ (k : Fin 512) (q : Fin 500), g (ix2 k q) = ((A.g1 k q : ℝ) : EReal))
    (p : Fin 4096) (q : Fin 500) :
    G0_23 x g (ix2 p q) = (((A.x * A.g1) p q : ℝ) : EReal) :=
  mulRow_real (fun c => x (ix2 p c)) g A.x A.g1 p (fun k => hx p k) hg q

/-- The reconstruction's function of the arrays, over the reals. -/
theorem G0_19_real (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (w5 : Vec Ideal S10x2000 .bf16) (b5 : Vec Ideal S1x2000 .f32) (w6 : Vec Ideal S2000x500 .bf16)
    (b6 : Vec Ideal S1x500 .f32) (w7 : Vec Ideal S500x500 .bf16) (b7 : Vec Ideal S1x500 .f32)
    (w8 : Vec Ideal S500x512 .bf16) (b8 : Vec Ideal S1x512 .f32)
    (hx : ∀ (p : Fin 4096) (k : Fin 512), x (ix2 p k) = ((A.x p k : ℝ) : EReal))
    (hw1 : ∀ (k : Fin 512) (q : Fin 500), w1 (ix2 k q) = ((A.e1w k q : ℝ) : EReal))
    (hb1 : ∀ q : Fin 500, b1 (ix2 (0 : Fin 1) q) = ((A.e1b q : ℝ) : EReal))
    (hw2 : ∀ (k : Fin 500) (q : Fin 500), w2 (ix2 k q) = ((A.e2w k q : ℝ) : EReal))
    (hb2 : ∀ q : Fin 500, b2 (ix2 (0 : Fin 1) q) = ((A.e2b q : ℝ) : EReal))
    (hw3 : ∀ (k : Fin 500) (q : Fin 2000), w3 (ix2 k q) = ((A.e3w k q : ℝ) : EReal))
    (hb3 : ∀ q : Fin 2000, b3 (ix2 (0 : Fin 1) q) = ((A.e3b q : ℝ) : EReal))
    (hw4 : ∀ (k : Fin 2000) (q : Fin 10), w4 (ix2 k q) = ((A.zlw k q : ℝ) : EReal))
    (hb4 : ∀ q : Fin 10, b4 (ix2 (0 : Fin 1) q) = ((A.zlb q : ℝ) : EReal))
    (hw5 : ∀ (k : Fin 10) (q : Fin 2000), w5 (ix2 k q) = ((A.d1w k q : ℝ) : EReal))
    (hb5 : ∀ q : Fin 2000, b5 (ix2 (0 : Fin 1) q) = ((A.d1b q : ℝ) : EReal))
    (hw6 : ∀ (k : Fin 2000) (q : Fin 500), w6 (ix2 k q) = ((A.d2w k q : ℝ) : EReal))
    (hb6 : ∀ q : Fin 500, b6 (ix2 (0 : Fin 1) q) = ((A.d2b q : ℝ) : EReal))
    (hw7 : ∀ (k : Fin 500) (q : Fin 500), w7 (ix2 k q) = ((A.d3w k q : ℝ) : EReal))
    (hb7 : ∀ q : Fin 500, b7 (ix2 (0 : Fin 1) q) = ((A.d3b q : ℝ) : EReal))
    (hw8 : ∀ (k : Fin 500) (q : Fin 512), w8 (ix2 k q) = ((A.xbw k q : ℝ) : EReal))
    (hb8 : ∀ q : Fin 512, b8 (ix2 (0 : Fin 1) q) = ((A.xbb q : ℝ) : EReal))
    (p : Fin 4096) (q : Fin 512) :
    G0_19 x w1 b1 w2 b2 w3 b3 w4 b4 w5 b5 w6 b6 w7 b7 w8 b8 (ix2 p q) = ((A.xbar p q : ℝ) : EReal) :=
  xbarRow_real A (latRow (fun c => x (ix2 p c)) w1 b1 w2 b2 w3 b3 w4 b4) w5 b5 w6 b6 w7 b7 w8 b8 p
    (fun j => latRow_real A x w1 b1 w2 b2 w3 b3 w4 b4 hx hw1 hb1 hw2 hb2 hw3 hb3 hw4 hb4 p j)
    hw5 hb5 hw6 hb6 hw7 hb7 hw8 hb8 q

/-- The latent array after the region, over the reals: with the input and the first four layers' weights and bias
    rows entrywise the coercions of `A`'s, every entry is the coercion of the latent code `A.r` there. -/
theorem final0_20_real (c : Dev nD)
    (hx : ∀ (p : Fin 4096) (k : Fin 512), V c (Pipeline.arrRef spec0 0) (ix2 p k) = ((A.x p k : ℝ) : EReal))
    (hw1 : ∀ (k : Fin 512) (q : Fin 500), V c (Pipeline.arrRef spec0 1) (ix2 k q) = ((A.e1w k q : ℝ) : EReal))
    (hb1 : ∀ q : Fin 500, V c (Pipeline.arrRef spec0 2) (ix2 (0 : Fin 1) q) = ((A.e1b q : ℝ) : EReal))
    (hw2 : ∀ (k : Fin 500) (q : Fin 500), V c (Pipeline.arrRef spec0 3) (ix2 k q) = ((A.e2w k q : ℝ) : EReal))
    (hb2 : ∀ q : Fin 500, V c (Pipeline.arrRef spec0 4) (ix2 (0 : Fin 1) q) = ((A.e2b q : ℝ) : EReal))
    (hw3 : ∀ (k : Fin 500) (q : Fin 2000), V c (Pipeline.arrRef spec0 5) (ix2 k q) = ((A.e3w k q : ℝ) : EReal))
    (hb3 : ∀ q : Fin 2000, V c (Pipeline.arrRef spec0 6) (ix2 (0 : Fin 1) q) = ((A.e3b q : ℝ) : EReal))
    (hw4 : ∀ (k : Fin 2000) (q : Fin 10), V c (Pipeline.arrRef spec0 7) (ix2 k q) = ((A.zlw k q : ℝ) : EReal))
    (hb4 : ∀ q : Fin 10, V c (Pipeline.arrRef spec0 8) (ix2 (0 : Fin 1) q) = ((A.zlb q : ℝ) : EReal))
    (p : Fin 4096) (q : Fin 10) :
    (dat0 (F := Ideal) V c).arrAt 20 cfg0.N (ix2 p q) = ((A.r p q : ℝ) : EReal) :=
  (congrFun (final0_20 V c) (ix2 p q)).trans
    (G0_20_real A _ _ _ _ _ _ _ _ _ hx hw1 hb1 hw2 hb2 hw3 hb3 hw4 hb4 p q)

/-- The first hidden layer's array after the region, over the reals: every entry is the coercion of `A.re1`
    there. -/
theorem final0_21_real (c : Dev nD)
    (hx : ∀ (p : Fin 4096) (k : Fin 512), V c (Pipeline.arrRef spec0 0) (ix2 p k) = ((A.x p k : ℝ) : EReal))
    (hw1 : ∀ (k : Fin 512) (q : Fin 500), V c (Pipeline.arrRef spec0 1) (ix2 k q) = ((A.e1w k q : ℝ) : EReal))
    (hb1 : ∀ q : Fin 500, V c (Pipeline.arrRef spec0 2) (ix2 (0 : Fin 1) q) = ((A.e1b q : ℝ) : EReal))
    (p : Fin 4096) (q : Fin 500) :
    (dat0 (F := Ideal) V c).arrAt 21 cfg0.N (ix2 p q) = ((A.re1 p q : ℝ) : EReal) :=
  (congrFun (final0_21 V c) (ix2 p q)).trans (G0_21_real A _ _ _ hx hw1 hb1 p q)

/-- The array of the input times the first graph weight after the region, over the reals: every entry is the
    coercion of `A.x · A.g1` there. -/
theorem final0_23_real (c : Dev nD)
    (hx : ∀ (p : Fin 4096) (k : Fin 512), V c (Pipeline.arrRef spec0 0) (ix2 p k) = ((A.x p k : ℝ) : EReal))
    (hg : ∀ (k : Fin 512) (q : Fin 500), V c (Pipeline.arrRef spec0 17) (ix2 k q) = ((A.g1 k q : ℝ) : EReal))
    (p : Fin 4096) (q : Fin 500) :
    (dat0 (F := Ideal) V c).arrAt 23 cfg0.N (ix2 p q) = (((A.x * A.g1) p q : ℝ) : EReal) :=
  (congrFun (final0_23 V c) (ix2 p q)).trans (G0_23_real A _ _ hx hg p q)

/-- The reconstruction array after the region, over the reals: with the input and the eight layers' weights and
    bias rows entrywise the coercions of `A`'s, every entry is the coercion of the reconstruction `A.xbar` there. -/
theorem final0_19_real (c : Dev nD)
    (hx : ∀ (p : Fin 4096) (k : Fin 512), V c (Pipeline.arrRef spec0 0) (ix2 p k) = ((A.x p k : ℝ) : EReal))
    (hw1 : ∀ (k : Fin 512) (q : Fin 500), V c (Pipeline.arrRef spec0 1) (ix2 k q) = ((A.e1w k q : ℝ) : EReal))
    (hb1 : ∀ q : Fin 500, V c (Pipeline.arrRef spec0 2) (ix2 (0 : Fin 1) q) = ((A.e1b q : ℝ) : EReal))
    (hw2 : ∀ (k : Fin 500) (q : Fin 500), V c (Pipeline.arrRef spec0 3) (ix2 k q) = ((A.e2w k q : ℝ) : EReal))
    (hb2 : ∀ q : Fin 500, V c (Pipeline.arrRef spec0 4) (ix2 (0 : Fin 1) q) = ((A.e2b q : ℝ) : EReal))
    (hw3 : ∀ (k : Fin 500) (q : Fin 2000), V c (Pipeline.arrRef spec0 5) (ix2 k q) = ((A.e3w k q : ℝ) : EReal))
    (hb3 : ∀ q : Fin 2000, V c (Pipeline.arrRef spec0 6) (ix2 (0 : Fin 1) q) = ((A.e3b q : ℝ) : EReal))
    (hw4 : ∀ (k : Fin 2000) (q : Fin 10), V c (Pipeline.arrRef spec0 7) (ix2 k q) = ((A.zlw k q : ℝ) : EReal))
    (hb4 : ∀ q : Fin 10, V c (Pipeline.arrRef spec0 8) (ix2 (0 : Fin 1) q) = ((A.zlb q : ℝ) : EReal))
    (hw5 : ∀ (k : Fin 10) (q : Fin 2000), V c (Pipeline.arrRef spec0 9) (ix2 k q) = ((A.d1w k q : ℝ) : EReal))
    (hb5 : ∀ q : Fin 2000, V c (Pipeline.arrRef spec0 10) (ix2 (0 : Fin 1) q) = ((A.d1b q : ℝ) : EReal))
    (hw6 : ∀ (k : Fin 2000) (q : Fin 500), V c (Pipeline.arrRef spec0 11) (ix2 k q) = ((A.d2w k q : ℝ) : EReal))
    (hb6 : ∀ q : Fin 500, V c (Pipeline.arrRef spec0 12) (ix2 (0 : Fin 1) q) = ((A.d2b q : ℝ) : EReal))
    (hw7 : ∀ (k : Fin 500) (q : Fin 500), V c (Pipeline.arrRef spec0 13) (ix2 k q) = ((A.d3w k q : ℝ) : EReal))
    (hb7 : ∀ q : Fin 500, V c (Pipeline.arrRef spec0 14) (ix2 (0 : Fin 1) q) = ((A.d3b q : ℝ) : EReal))
    (hw8 : ∀ (k : Fin 500) (q : Fin 512), V c (Pipeline.arrRef spec0 15) (ix2 k q) = ((A.xbw k q : ℝ) : EReal))
    (hb8 : ∀ q : Fin 512, V c (Pipeline.arrRef spec0 16) (ix2 (0 : Fin 1) q) = ((A.xbb q : ℝ) : EReal))
    (p : Fin 4096) (q : Fin 512) :
    (dat0 (F := Ideal) V c).arrAt 19 cfg0.N (ix2 p q) = ((A.xbar p q : ℝ) : EReal) :=
  (congrFun (final0_19 V c) (ix2 p q)).trans
    (G0_19_real A _ _ _ _ _ _ _ _ _ _ _ _ _ _ _ _ _ hx hw1 hb1 hw2 hb2 hw3 hb3 hw4 hb4 hw5 hb5 hw6 hb6 hw7 hb7 hw8 hb8 p q)

end RealForms

end Cert.KernelIdeal.HandValue

end
-- ==== Proof.KernelIdealChain0.lean ====
/-
  The autoencoder region's outputs and the nine results.

  The autoencoder region reads the input, the eight layers' narrowed weights and bias rows, the first graph weight
  and the transposed centres as the first host stretch leaves them; its outputs at the boundary after it are the
  real network's reconstruction, latent code, first activation and projection `x · g₁` (and the latent code's soft
  assignment).  With them the nine results of the kernel program are the real network's nine results.
-/
import proofs.«140843_g75050258530825_cont_9to1_m_403_24_alg».proof.Proof.KernelIdealChain
import proofs.«140843_g75050258530825_cont_9to1_m_403_24_alg».proof.Proof.KernelIdealV0

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable {m : (ℓ : Loc nD τ sig) → Buf (Elt Ideal) ℓ} {c : Dev nD} {A : RealNet.Args}

/-- After the autoencoder region: the latent code `r`. -/
theorem W2_v18_1 (h : MemIs m c A) (p : Fin 4096) (q : Fin 10) :
    W2 m c (Proc.devRef .tc main_v18_1) (ix2 p q) = ((A.r p q : ℝ) : EReal) := by
  refine (congrFun (W2_arr m c 20) (ix2 p q)).trans ?_
  exact final0_20_real (atRefs (W1 m)) A c (W1_arg0 m c A h) (W1_v1 m c A h) (W1_v9 m c A h) (W1_v2 m c A h)
    (W1_v10 m c A h) (W1_v3 m c A h) (W1_v11 m c A h) (W1_v4 m c A h) (W1_v12 m c A h) p q

/-- After the autoencoder region: the first encoder activation `re₁`. -/
theorem W2_v18_2 (h : MemIs m c A) (p : Fin 4096) (q : Fin 500) :
    W2 m c (Proc.devRef .tc main_v18_2) (ix2 p q) = ((A.re1 p q : ℝ) : EReal) := by
  refine (congrFun (W2_arr m c 21) (ix2 p q)).trans ?_
  exact final0_21_real (atRefs (W1 m)) A c (W1_arg0 m c A h) (W1_v1 m c A h) (W1_v9 m c A h) p q

/-- After the autoencoder region: the projection `x · g₁`. -/
theorem W2_v18_4 (h : MemIs m c A) (p : Fin 4096) (q : Fin 500) :
    W2 m c (Proc.devRef .tc main_v18_4) (ix2 p q) = (((A.x * A.g1) p q : ℝ) : EReal) := by
  refine (congrFun (W2_arr m c 23) (ix2 p q)).trans ?_
  exact final0_23_real (atRefs (W1 m)) A c (W1_arg0 m c A h) (W1_v17 m c A h) p q

/-- After the autoencoder region: the reconstruction `xbar`. -/
theorem W2_v18_0 (h : MemIs m c A) (p : Fin 4096) (q : Fin 512) :
    W2 m c (Proc.devRef .tc main_v18_0) (ix2 p q) = ((A.xbar p q : ℝ) : EReal) := by
  refine (congrFun (W2_arr m c 19) (ix2 p q)).trans ?_
  exact final0_19_real (atRefs (W1 m)) A c (W1_arg0 m c A h) (W1_v1 m c A h) (W1_v9 m c A h) (W1_v2 m c A h)
    (W1_v10 m c A h) (W1_v3 m c A h) (W1_v11 m c A h) (W1_v4 m c A h) (W1_v12 m c A h) (W1_v5 m c A h)
    (W1_v13 m c A h) (W1_v6 m c A h) (W1_v14 m c A h) (W1_v7 m c A h) (W1_v15 m c A h) (W1_v8 m c A h)
    (W1_v16 m c A h) p q

/-- The autoencoder region's five outputs, the soft assignment of the latent code being given. -/
theorem region0Facts_of (h : MemIs m c A)
    (hq1 : ∀ (p : Fin 4096) (q : Fin 10), W2 m c (Proc.devRef .tc main_v18_3) (ix2 p q) = ((A.q1 p q : ℝ) : EReal)) :
    Region0Facts m c A :=
  ⟨W2_v18_0 h, W2_v18_1 h, W2_v18_2 h, hq1, W2_v18_4 h⟩

end Cert.KernelIdeal.HandValue

end
-- ==== Proof.KernelIdealV0S.lean ====
/-
  The soft assignment of the autoencoder region, read as values at the exact instance.

  One grid point of the region leaves, through its window 22, the block of 1024 rows of the soft assignment of the
  latent code to the ten centres.  Row `p` of it is a function of row `p` of the latent code, hence of row `p` of
  the input `x`, and of the centres, which arrive transposed.  This module reads off the body's arithmetic at one
  entry of the block, and puts the blocks of the four grid points together as one function of the arrays.
-/
import proofs.«140843_g75050258530825_cont_9to1_m_403_24_alg».proof.Proof.KernelIdealV0

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## 4. The soft assignment

The last output normalises, along each row, the Student-t kernel of the latent row against the ten centres, the squared
distance taken in expanded form: the row's squared norm, minus twice its products with the centres, plus the
centres' squared norms.  The centres arrive transposed: column `j` of the array is centre `j`. -/

/-- A sum along the second axis, as a function of the entry: entry `p` is the sum of row `p`. -/
theorem reduce_axis1_fun {m n : ℕ} (src : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) :
    multiReduction .add [1] ⟨1, ![m]⟩ src acc h hφ hacc = fun i => ∑ k : Fin n, src (ix2 (i 0) k) := by
  funext i
  refine (Ideal.multiReduction_add_single src acc h hφ hacc i).trans
    (Finset.sum_congr rfl fun k _ => congrArg src (funext fun c => Fin.ext ?_))
  rw [h.lift_val]
  unfold Shape.Reduces.liftVal
  match c with
  | ⟨0, _⟩ => rw [dif_neg (by simp), dif_pos (by simp)]; rfl
  | ⟨1, _⟩ => rw [dif_pos (by simp)]

/-- A sum along the first axis, as a function of the entry: entry `q` is the sum of column `q`. -/
theorem reduce_axis0_fun {m n : ℕ} (src : FVec Ideal ⟨2, ![m, n]⟩ .f32) (acc : BitVec 32)
    (h : (⟨2, ![m, n]⟩ : Shape).Reduces [0] ⟨1, ![n]⟩) (hφ : FKind.Formats .f32)
    (hacc : acc = FKind.add.neutral .f32 hφ) :
    multiReduction .add [0] ⟨1, ![n]⟩ src acc h hφ hacc = fun i => ∑ l : Fin m, src (ix2 l (i 0)) := by
  funext i
  refine (Ideal.multiReduction_add_single src acc h hφ hacc i).trans
    (Finset.sum_congr rfl fun l _ => congrArg src (funext fun c => Fin.ext ?_))
  rw [h.lift_val]
  unfold Shape.Reduces.liftVal
  match c with
  | ⟨0, _⟩ => rw [dif_pos (by simp)]
  | ⟨1, _⟩ => rw [dif_neg (by simp), dif_neg (by simp)]; rfl

/-- A vector cast to one column, as a function of the entry. -/
theorem shapeCast_col_fun {α : Type} {m : ℕ} (x : (⟨1, ![m]⟩ : Shape).Idx → α)
    (h : (⟨1, ![m]⟩ : Shape).ShapeCasts ⟨2, ![m, 1]⟩) :
    shapeCast ⟨2, ![m, 1]⟩ x h = fun i => x (ix1 (i 0)) := by
  funext i
  obtain ⟨p, u, rfl⟩ : ∃ (p : Fin m) (u : Fin 1), i = ix2 p u := ⟨i 0, i 1, eq_ix2 i⟩
  refine shapeCast_apply x h _ _ ?_
  have hu : u.val = 0 := by omega
  rw [Shape.rowMajor_val_two, Shape.rowMajor_val_one]
  show p.val = p.val * 1 + u.val
  omega

/-- A vector cast to one row, as a function of the entry. -/
theorem shapeCast_row_fun {α : Type} {n : ℕ} (x : (⟨1, ![n]⟩ : Shape).Idx → α)
    (h : (⟨1, ![n]⟩ : Shape).ShapeCasts ⟨2, ![1, n]⟩) :
    shapeCast ⟨2, ![1, n]⟩ x h = fun i => x (ix1 (i 1)) := by
  funext i
  obtain ⟨u, q, rfl⟩ : ∃ (u : Fin 1) (q : Fin n), i = ix2 u q := ⟨i 0, i 1, eq_ix2 i⟩
  exact shapeCast_a_1a_apply x h u q

/-- One column broadcast over many columns, as a function of the entry: entry `(p, c)` reads the column at `p`. -/
theorem broadcastTo_col_fun {α : Type} {m n : ℕ} (v : (⟨2, ![m, 1]⟩ : Shape).Idx → α)
    (h : (⟨2, ![m, 1]⟩ : Shape).Broadcasts ⟨2, ![m, n]⟩) :
    broadcastTo ⟨2, ![m, n]⟩ v h = fun i => v (ix2 (i 0) (0 : Fin 1)) := by
  funext i
  obtain ⟨p, c, rfl⟩ : ∃ (p : Fin m) (c : Fin n), i = ix2 p c := ⟨i 0, i 1, eq_ix2 i⟩
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

/-- The Student-t kernel of a latent row `z` against centre `j` (column `j` of `ct`), from the expanded squared
    distance: `1 / (1 + (‖z‖² − 2 ∑ l, z l · ct (l, j) + ∑ l, ct (l, j)²))`. -/
def kerRow (z : Fin 10 → EReal) (ct : Vec Ideal S10x10 .f32) : Fin 10 → EReal :=
  fun j => Ideal.div (Ideal.ofBits .f32 0x3F800000#32)
    (Ideal.ofBits .f32 0x3F800000#32
      + ((∑ l : Fin 10, z l * z l) - Ideal.ofBits .f32 0x40000000#32 * (∑ l : Fin 10, z l * ct (ix2 l j))
        + ∑ l : Fin 10, ct (ix2 l j) * ct (ix2 l j)))

/-- The soft assignment of a latent row: its kernel row divided by the kernel row's sum. -/
def softRow (z : Fin 10 → EReal) (ct : Vec Ideal S10x10 .f32) : Fin 10 → EReal :=
  fun j => Ideal.div (kerRow z ct j) (∑ j' : Fin 10, kerRow z ct j')

/-- The soft assignment at entry `(p, q)`, from the latent block `z`: the row function of row `p` of `z`. -/
theorem pay0_8_apply (v38 : FVec Ideal S1024x10 .f32) (x18 : Vec Ideal S10x10 .f32) (p : Fin 1024) (q : Fin 10) :
    k0_pay8 v38 x18 (ix2 p q) = softRow (fun j => v38 (ix2 p j)) x18 q := by
  unfold k0_pay8
  simp only [shapeCast_self, dot0_ct, matmul, matmul_plain_fun, broadcastTo_row_fun, broadcastTo_col_fun,
    shapeCast_col_fun, shapeCast_row_fun]
  -- the reductions' side conditions are stated through the neutral element's definition: match up to unfolding it
  erw [reduce_axis1_fun, reduce_axis1_fun, reduce_axis0_fun]
  rfl

/-! ## The blocks of the four grid points as one function of the arrays -/

-- the TensorCore's buffer contents when the region is entered, at the exact instance
variable (V : (c : Dev nD) → (b : Ref sig .tc) → Buf (Elt Ideal) ((c : Thread nD τ).loc b))

/-- The soft assignment as one function of the input `x`, the first four layers' weights and bias rows and the
    transposed centres, entry by entry: row `P` of the result is the soft assignment of the latent row of row `P` of
    `x`. -/
def G0_22 (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (ct : Vec Ideal S10x10 .f32) : Vec Ideal S4096x10 .f32 :=
  fun i => softRow (latRow (fun c => x (ix2 (⟨(i 0).val, (i 0).isLt⟩ : Fin 4096) c)) w1 b1 w2 b2 w3 b3 w4 b4) ct
    (⟨(i 1).val, (i 1).isLt⟩ : Fin 10)

theorem G0_22_apply (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (ct : Vec Ideal S10x10 .f32) (P : Fin 4096) (Q : Fin 10) :
    G0_22 x w1 b1 w2 b2 w3 b3 w4 b4 ct (ix2 P Q)
      = softRow (latRow (fun c => x (ix2 P c)) w1 b1 w2 b2 w3 b3 w4 b4) ct Q := rfl

/-- One point of the soft assignment, over variables: when the input block's row `p` is row `P` of `x` and the
    other blocks are the whole weights, bias rows and centres, the body's value at `(p, q)` is the result at
    `(P, q)`. -/
theorem point0_22 (x : Vec Ideal S4096x512 .f32) (w1 : Vec Ideal S512x500 .bf16) (b1 : Vec Ideal S1x500 .f32)
    (w2 : Vec Ideal S500x500 .bf16) (b2 : Vec Ideal S1x500 .f32) (w3 : Vec Ideal S500x2000 .bf16)
    (b3 : Vec Ideal S1x2000 .f32) (w4 : Vec Ideal S2000x10 .bf16) (b4 : Vec Ideal S1x10 .f32)
    (ct : Vec Ideal S10x10 .f32)
    (x0 : Vec Ideal S1024x512 .f32) (x1 : Vec Ideal S512x500 .bf16) (x2 : Vec Ideal S1x500 .f32)
    (x3 : Vec Ideal S500x500 .bf16) (x4 : Vec Ideal S1x500 .f32) (x5 : Vec Ideal S500x2000 .bf16)
    (x6 : Vec Ideal S1x2000 .f32) (x7 : Vec Ideal S2000x10 .bf16) (x8 : Vec Ideal S1x10 .f32)
    (x18 : Vec Ideal S10x10 .f32)
    (p : Fin 1024) (q : Fin 10) (P : Fin 4096)
    (h0 : ∀ c : Fin 512, x0 (ix2 p c) = x (ix2 P c))
    (h1 : x1 = w1) (h2 : x2 = b1) (h3 : x3 = w2) (h4 : x4 = b2) (h5 : x5 = w3) (h6 : x6 = b3) (h7 : x7 = w4) (h8 : x8 = b4)
    (h18 : x18 = ct) :
    k0_pay8 (k0_pay4 (k0_pay3 x0 x1 x2 x3 x4 x5 x6 x7) x8) x18 (ix2 p q)
      = G0_22 x w1 b1 w2 b2 w3 b3 w4 b4 ct (ix2 P q) := by
  subst h1 h2 h3 h4 h5 h6 h7 h8 h18
  rw [pay0_8_apply, G0_22_apply]
  refine congrArg (fun z => softRow z x18 q) (funext fun j => ?_)
  rw [pay0_4_apply]
  exact congrArg (fun y => latRow y x1 x2 x3 x4 x5 x6 x7 x8 j) (funext h0)

-- ten windows' blocks are identified with their arrays, each by unfolding the window's description
set_option maxHeartbeats 2000000 in
/-- What point `t` writes back through window 22 is block `t` of the soft assignment of the arrays as the region
    finds them. -/
theorem flushed0_22_eq (c : Dev nD) (t : Fin cfg0.N) :
    (dat0 (F := Ideal) V c).flushed 22 t
      = ((cfg0.win 22).blk t).view.read (Elt Ideal)
          (G0_22 (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))
            (V c (Pipeline.arrRef spec0 6)) (V c (Pipeline.arrRef spec0 7)) (V c (Pipeline.arrRef spec0 8))
            (V c (Pipeline.arrRef spec0 18))) := by
  show (cfg0.win 22).cut (grid0.coords t) ((dat0 V c).after 22 t) = _
  rw [after0_22]
  unfold out0_22 lat0 enc0
  rw [View.canon_unit_zero hz0]
  simp only [View.ld_unit_zero (S := S1024x512) hz0, View.ld_unit_zero (S := S512x500) hz0,
    View.ld_unit_zero (S := S1x500) hz0, View.ld_unit_zero (S := S500x500) hz0, View.ld_unit_zero (S := S500x2000) hz0,
    View.ld_unit_zero (S := S1x2000) hz0, View.ld_unit_zero (S := S2000x10) hz0, View.ld_unit_zero (S := S1x10) hz0,
    View.ld_unit_zero (S := S10x10) hz0]
  funext j
  obtain ⟨p, q, rfl⟩ : ∃ (p : Fin 1024) (q : Fin 10), j = ix2 p q := ⟨j 0, j 1, eq_ix2 (n0 := 1024) (n1 := 10) j⟩
  have ht : t.val < 4 := lt_of_lt_of_eq t.isLt N_0
  have hP : t.val * 1024 + p.val < 4096 := by have := p.isLt; omega
  show k0_pay8 (k0_pay4 (k0_pay3 (iblk0 V c 0 t) (iblk0 V c 1 t) (iblk0 V c 2 t) (iblk0 V c 3 t) (iblk0 V c 4 t)
      (iblk0 V c 5 t) (iblk0 V c 6 t) (iblk0 V c 7 t)) (iblk0 V c 8 t)) (iblk0 V c 18 t) (ix2 p q)
    = G0_22 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (V c (Pipeline.arrRef spec0 7)) (V c (Pipeline.arrRef spec0 8))
        (V c (Pipeline.arrRef spec0 18)) (((cfg0.win 22).blk t).view.emb (ix2 p q))
  rw [emb0_22 t p q ⟨t.val * 1024 + p.val, hP⟩ rfl]
  exact point0_22 _ _ _ _ _ _ _ _ _ _ _ _ _ _ _ _ _ _ _ _ p q ⟨t.val * 1024 + p.val, hP⟩
    (fun k => iblk0_0_apply V c t p k ⟨t.val * 1024 + p.val, hP⟩ rfl)
    (iblk0_1_eq V c t) (iblk0_2_eq V c t) (iblk0_3_eq V c t) (iblk0_4_eq V c t) (iblk0_5_eq V c t) (iblk0_6_eq V c t)
    (iblk0_7_eq V c t) (iblk0_8_eq V c t) (iblk0_18_eq V c t)

/-- An entry of the array lies in point `t`'s block of window 22 iff each coordinate lies in the block's range. -/
theorem mem_blk0_22 (t : Fin cfg0.N) (i : S4096x10.Idx) :
    i ∈ ((cfg0.win 22).blk t).view.set ↔ ∀ a : Fin 2, win0_22.index t a * S1024x10.size a ≤ (i a).val
      ∧ (i a).val < win0_22.index t a * S1024x10.size a + S1024x10.size a := by
  show i ∈ ((View.whole main_v18_3).slice (win0_22.rect t)).set ↔ _
  rw [View.set_slice_whole, Rect.mem_set_unit]
  exact Iff.rfl

/-- Every entry of the soft-assignment array is in some point's block: row `P` is covered by point `P / 1024`. -/
theorem covered0_22 (i : S4096x10.Idx) :
    ∃ t : Fin cfg0.N, (cfg0.win 22).flush t = true ∧ i ∈ ((cfg0.win 22).blk t).view.set := by
  have hi0 : (i 0).val < 4096 := (i 0).isLt
  have hi1 : (i 1).val < 10 := (i 1).isLt
  obtain ⟨t, ht⟩ : ∃ t : Fin cfg0.N, t.val = (i 0).val / 1024 :=
    ⟨⟨(i 0).val / 1024, lt_of_lt_of_eq (show (i 0).val / 1024 < 4 by omega) N_0.symm⟩, rfl⟩
  obtain ⟨e0, e1⟩ := idx0_22 t
  refine ⟨t, flush0_22 t, ?_⟩
  rw [mem_blk0_22]
  intro a
  match a with
  | ⟨0, _⟩ =>
    show win0_22.index t (0 : Fin 2) * 1024 ≤ (i 0).val ∧ (i 0).val < win0_22.index t (0 : Fin 2) * 1024 + 1024
    omega
  | ⟨1, _⟩ =>
    show win0_22.index t (1 : Fin 2) * 10 ≤ (i 1).val ∧ (i 1).val < win0_22.index t (1 : Fin 2) * 10 + 10
    omega

/-- The soft-assignment array after the region: the one function of the arrays as the region finds them. -/
theorem final0_22 (c : Dev nD) :
    (dat0 (F := Ideal) V c).arrAt 22 cfg0.N
      = G0_22 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) (V c (Pipeline.arrRef spec0 8))
          (V c (Pipeline.arrRef spec0 18)) :=
  (dat0 (F := Ideal) V c).arrAt_eq_of_cover 22 _ (fun t _ => flushed0_22_eq V c t) covered0_22

end Cert.KernelIdeal.HandValue

end
-- ==== Proof.KernelIdealV0b.lean ====
/-
  The soft assignment of the latent code in the first sweep, over the reals.

  The sweep computes, for each row of the latent code and each cluster centre, the Student-t kernel from the
  squared distance in expanded form `‖z‖² − 2 z · c + ‖c‖²` (the centres are held transposed), and normalises
  each row.  When the row is a row of the real latent code `r` and the array holds the transposed real centres,
  every value is the coercion of the real soft assignment `q1`: the expanded squared distance is the sum of
  squared differences, and a row's kernel values have a positive sum.
-/
import proofs.«140843_g75050258530825_cont_9to1_m_403_24_alg».proof.Proof.KernelIdealV0S
import proofs.«140843_g75050258530825_cont_9to1_m_403_24_alg».proof.Proof.NetForward
import proofs.«140843_g75050258530825_cont_9to1_m_403_24_alg».proof.Proof.LibRealLift
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators Matrix

/-- The kernel of a latent row against one centre, over the reals: when the row is row `P` of the real latent
    code and the array holds the transposed centres, the value is the coercion of the Student-t kernel computed
    from the expanded squared distance. -/
theorem kerRow_real (A : RealNet.Args) (z : Fin 10 → EReal) (ct : Vec Ideal S10x10 .f32) (P : Fin 4096)
    (hz : ∀ j : Fin 10, z j = ((A.r P j : ℝ) : EReal))
    (hct : ∀ (l j : Fin 10), ct (ix2 l j) = ((A.cluster j l : ℝ) : EReal))
    (j : Fin 10) : kerRow z ct j = RealNet.coeM (RealNet.tKernelExpanded A.r A.cluster) P j := by
  have e1 : (∑ l : Fin 10, z l * z l) = ∑ l : Fin 10, RealNet.coeM A.r P l * RealNet.coeM A.r P l :=
    Finset.sum_congr rfl fun l _ => by rw [hz l]; rfl
  have e2 : (∑ l : Fin 10, z l * ct (ix2 l j)) = RealNet.coeM (A.r * A.clusterᵀ) P j := by
    rw [← RealNet.lift_matmul_apply A.r A.clusterᵀ P j]
    exact Finset.sum_congr rfl fun l _ => by rw [hz l, hct l j]; rfl
  have e3 : (∑ l : Fin 10, ct (ix2 l j) * ct (ix2 l j))
      = ∑ l : Fin 10, RealNet.coeM A.clusterᵀ l j * RealNet.coeM A.clusterᵀ l j :=
    Finset.sum_congr rfl fun l _ => by rw [hct l j]; rfl
  unfold kerRow
  rw [RealNet.ofBits_f32_one, RealNet.ofBits_f32_two, e1, e2, e3]
  exact RealNet.lift_tKernelExpanded_apply A.r A.cluster P j

/-- The soft assignment of a latent row, over the reals: under the same hypotheses the normalised kernel value
    is the coercion of the soft assignment `q1` of the latent code at `(P, q)`. -/
theorem softRow_real (A : RealNet.Args) (z : Fin 10 → EReal) (ct : Vec Ideal S10x10 .f32) (P : Fin 4096)
    (hz : ∀ j : Fin 10, z j = ((A.r P j : ℝ) : EReal))
    (hct : ∀ (l j : Fin 10), ct (ix2 l j) = ((A.cluster j l : ℝ) : EReal))
    (q : Fin 10) : softRow z ct q = ((A.q1 P q : ℝ) : EReal) := by
  have es : (∑ j' : Fin 10, kerRow z ct j')
      = ∑ j' : Fin 10, RealNet.coeM (RealNet.tKernelExpanded A.r A.cluster) P j' :=
    Finset.sum_congr rfl fun j' _ => kerRow_real A z ct P hz hct j'
  unfold softRow
  rw [kerRow_real A z ct P hz hct q, es,
    RealNet.lift_softAssignExpanded_apply (by decide) A.r A.cluster P q, RealNet.softAssignExpanded_eq]
  rfl

/-- The soft assignment as one function of the arrays, over the reals: with the input, the first four layers'
    weights and bias rows entrywise the coercions of `A`'s, and the centres' array the coercion of the transposed
    centres, the value at `(p, q)` is the coercion of the soft assignment `A.q1 p q`. -/
theorem G0_22_real (A : RealNet.Args) (x : Vec Ideal S4096x512 .f32) (w1 : Vec Ideal S512x500 .bf16)
    (b1 : Vec Ideal S1x500 .f32) (w2 : Vec Ideal S500x500 .bf16) (b2 : Vec Ideal S1x500 .f32)
    (w3 : Vec Ideal S500x2000 .bf16) (b3 : Vec Ideal S1x2000 .f32) (w4 : Vec Ideal S2000x10 .bf16)
    (b4 : Vec Ideal S1x10 .f32) (ct : Vec Ideal S10x10 .f32)
    (hx : ∀ (p : Fin 4096) (k : Fin 512), x (ix2 p k) = ((A.x p k : ℝ) : EReal))
    (hw1 : ∀ (k : Fin 512) (q : Fin 500), w1 (ix2 k q) = ((A.e1w k q : ℝ) : EReal))
    (hb1 : ∀ q : Fin 500, b1 (ix2 (0 : Fin 1) q) = ((A.e1b q : ℝ) : EReal))
    (hw2 : ∀ (k : Fin 500) (q : Fin 500), w2 (ix2 k q) = ((A.e2w k q : ℝ) : EReal))
    (hb2 : ∀ q : Fin 500, b2 (ix2 (0 : Fin 1) q) = ((A.e2b q : ℝ) : EReal))
    (hw3 : ∀ (k : Fin 500) (q : Fin 2000), w3 (ix2 k q) = ((A.e3w k q : ℝ) : EReal))
    (hb3 : ∀ q : Fin 2000, b3 (ix2 (0 : Fin 1) q) = ((A.e3b q : ℝ) : EReal))
    (hw4 : ∀ (k : Fin 2000) (q : Fin 10), w4 (ix2 k q) = ((A.zlw k q : ℝ) : EReal))
    (hb4 : ∀ q : Fin 10, b4 (ix2 (0 : Fin 1) q) = ((A.zlb q : ℝ) : EReal))
    (hct : ∀ (l j : Fin 10), ct (ix2 l j) = ((A.cluster j l : ℝ) : EReal))
    (p : Fin 4096) (q : Fin 10) :
    G0_22 x w1 b1 w2 b2 w3 b3 w4 b4 ct (ix2 p q) = ((A.q1 p q : ℝ) : EReal) :=
  softRow_real A (latRow (fun c => x (ix2 p c)) w1 b1 w2 b2 w3 b3 w4 b4) ct p
    (fun j => latRow_real A x w1 b1 w2 b2 w3 b3 w4 b4 hx hw1 hb1 hw2 hb2 hw3 hb3 hw4 hb4 p j) hct q

-- the TensorCore's buffer contents when the region is entered, at the exact instance
variable (V : (c : Dev nD) → (b : Ref sig .tc) → Buf (Elt Ideal) ((c : Thread nD τ).loc b))
variable (A : RealNet.Args)

/-- The soft assignment's array after the region, over the reals: with the input, the first four layers' weights
    and bias rows entrywise the coercions of `A`'s, and the centres' array the coercion of the transposed
    centres, every entry is the coercion of the soft assignment `A.q1` there. -/
theorem final0_22_real (c : Dev nD)
    (hx : ∀ (p : Fin 4096) (k : Fin 512), V c (Pipeline.arrRef spec0 0) (ix2 p k) = ((A.x p k : ℝ) : EReal))
    (hw1 : ∀ (k : Fin 512) (q : Fin 500), V c (Pipeline.arrRef spec0 1) (ix2 k q) = ((A.e1w k q : ℝ) : EReal))
    (hb1 : ∀ q : Fin 500, V c (Pipeline.arrRef spec0 2) (ix2 (0 : Fin 1) q) = ((A.e1b q : ℝ) : EReal))
    (hw2 : ∀ (k : Fin 500) (q : Fin 500), V c (Pipeline.arrRef spec0 3) (ix2 k q) = ((A.e2w k q : ℝ) : EReal))
    (hb2 : ∀ q : Fin 500, V c (Pipeline.arrRef spec0 4) (ix2 (0 : Fin 1) q) = ((A.e2b q : ℝ) : EReal))
    (hw3 : ∀ (k : Fin 500) (q : Fin 2000), V c (Pipeline.arrRef spec0 5) (ix2 k q) = ((A.e3w k q : ℝ) : EReal))
    (hb3 : ∀ q : Fin 2000, V c (Pipeline.arrRef spec0 6) (ix2 (0 : Fin 1) q) = ((A.e3b q : ℝ) : EReal))
    (hw4 : ∀ (k : Fin 2000) (q : Fin 10), V c (Pipeline.arrRef spec0 7) (ix2 k q) = ((A.zlw k q : ℝ) : EReal))
    (hb4 : ∀ q : Fin 10, V c (Pipeline.arrRef spec0 8) (ix2 (0 : Fin 1) q) = ((A.zlb q : ℝ) : EReal))
    (hct : ∀ (l j : Fin 10), V c (Pipeline.arrRef spec0 18) (ix2 l j) = ((A.cluster j l : ℝ) : EReal))
    (p : Fin 4096) (q : Fin 10) :
    (dat0 (F := Ideal) V c).arrAt 22 cfg0.N (ix2 p q) = ((A.q1 p q : ℝ) : EReal) :=
  (congrFun (final0_22 V c) (ix2 p q)).trans
    (G0_22_real A _ _ _ _ _ _ _ _ _ _ hx hw1 hb1 hw2 hb2 hw3 hb3 hw4 hb4 hct p q)

end Cert.KernelIdeal.HandValue

end
-- ==== Proof.KernelIdealResults.lean ====
/-
  The nine results of the kernel program.

  The last of the autoencoder region's outputs, the soft assignment of the latent code against the cluster
  centres, completes what that region leaves; the nine results read at the last boundary are then the real
  network's nine results, under the one hypothesis that the launch memory's arguments are the coercions of the
  real arguments.
-/
import proofs.«140843_g75050258530825_cont_9to1_m_403_24_alg».proof.Proof.KernelIdealChain0
import proofs.«140843_g75050258530825_cont_9to1_m_403_24_alg».proof.Proof.KernelIdealV0b

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD) (A : RealNet.Args)

/-- After the autoencoder region: the soft assignment `q₁` of the latent code. -/
theorem W2_v18_3 (h : MemIs m c A) (p : Fin 4096) (q : Fin 10) :
    W2 m c (Proc.devRef .tc main_v18_3) (ix2 p q) = ((A.q1 p q : ℝ) : EReal) := by
  refine (congrFun (W2_arr m c 22) (ix2 p q)).trans ?_
  exact final0_22_real (atRefs (W1 m)) A c (W1_arg0 m c A h) (W1_v1 m c A h) (W1_v9 m c A h) (W1_v2 m c A h)
    (W1_v10 m c A h) (W1_v3 m c A h) (W1_v11 m c A h) (W1_v4 m c A h) (W1_v12 m c A h) (W1_v0 m c A h) p q

/-- The autoencoder region's five outputs. -/
theorem region0Facts (h : MemIs m c A) : Region0Facts m c A :=
  region0Facts_of h (W2_v18_3 m c A h)

/-- The nine results of the kernel program, read at the last boundary, are the real network's nine results. -/
theorem kernel_results (h : MemIs m c A) :
    (∀ (p : Fin 4096) (q : Fin 512), W16 m c (Proc.devRef .tc main_v18_0) (ix2 p q) = ((A.xbar p q : ℝ) : EReal))
    ∧ (∀ (p : Fin 4096) (q : Fin 512), W16 m c (Proc.devRef .tc main_v36_0) (ix2 p q) = ((A.zhat p q : ℝ) : EReal))
    ∧ (∀ (p q : Fin 4096), W16 m c (Proc.devRef .tc main_v37) (ix2 p q) = ((A.adjhat p q : ℝ) : EReal))
    ∧ (∀ (p : Fin 4096) (q : Fin 10), W16 m c (Proc.devRef .tc main_v31_2) (ix2 p q) = ((A.q p q : ℝ) : EReal))
    ∧ (∀ (p : Fin 4096) (q : Fin 10), W16 m c (Proc.devRef .tc main_v18_3) (ix2 p q) = ((A.q1 p q : ℝ) : EReal))
    ∧ (∀ (p : Fin 4096) (q : Fin 10), W16 m c (Proc.devRef .tc main_v31_0) (ix2 p q) = ((A.ar p q : ℝ) : EReal))
    ∧ (∀ (p : Fin 4096) (q : Fin 10), W16 m c (Proc.devRef .tc main_v27_0) (ix2 p q) = ((A.z p q : ℝ) : EReal))
    ∧ (∀ (p : Fin 4096) (q : Fin 10), W16 m c (Proc.devRef .tc main_v18_1) (ix2 p q) = ((A.r p q : ℝ) : EReal))
    ∧ (∀ (p : Fin 4096) (q : Fin 10), W16 m c (Proc.devRef .tc main_v31_1) (ix2 p q) = ((A.zl p q : ℝ) : EReal)) :=
  kernel_results_of h (region0Facts m c A h)

end Cert.KernelIdeal.HandValue

end
-- ==== Proof.RefConsts.lean ====
/-
  The reference program's splat constants, read at an index: the rectifiers' zero arrays are the extended
  real zero, the unit arrays of the two soft assignments and of the logistic are the extended real one, and
  the initial values of the four sums are zero.
-/
import proofs.«140843_g75050258530825_cont_9to1_m_403_24_alg».proof.Proof.Gen.ReferenceIdeal.Read
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-! ### The zero arrays the seventeen rectifiers compare with -/

theorem relu0 (i : S4096x500.Idx) : val_main_call0_v0 (F := Ideal) i = 0 := by
  rw [val_main_call0_v0_apply, val_main_call0_cst_apply]; exact Ideal.ofBits_zero_f32
theorem relu1 (i : S4096x500.Idx) : val_main_call1_v0 (F := Ideal) i = 0 := by
  rw [val_main_call1_v0_apply, val_main_call1_cst_apply]; exact Ideal.ofBits_zero_f32
theorem relu2 (i : S4096x2000.Idx) : val_main_call2_v0 (F := Ideal) i = 0 := by
  rw [val_main_call2_v0_apply, val_main_call2_cst_apply]; exact Ideal.ofBits_zero_f32
theorem relu3 (i : S4096x2000.Idx) : val_main_call3_v0 (F := Ideal) i = 0 := by
  rw [val_main_call3_v0_apply, val_main_call3_cst_apply]; exact Ideal.ofBits_zero_f32
theorem relu4 (i : S4096x500.Idx) : val_main_call4_v0 (F := Ideal) i = 0 := by
  rw [val_main_call4_v0_apply, val_main_call4_cst_apply]; exact Ideal.ofBits_zero_f32
theorem relu5 (i : S4096x500.Idx) : val_main_call5_v0 (F := Ideal) i = 0 := by
  rw [val_main_call5_v0_apply, val_main_call5_cst_apply]; exact Ideal.ofBits_zero_f32
theorem relu6 (i : S4096x500.Idx) : val_main_call6_v0 (F := Ideal) i = 0 := by
  rw [val_main_call6_v0_apply, val_main_call6_cst_apply]; exact Ideal.ofBits_zero_f32
theorem relu7 (i : S4096x500.Idx) : val_main_call7_v0 (F := Ideal) i = 0 := by
  rw [val_main_call7_v0_apply, val_main_call7_cst_apply]; exact Ideal.ofBits_zero_f32
theorem relu8 (i : S4096x500.Idx) : val_main_call8_v0 (F := Ideal) i = 0 := by
  rw [val_main_call8_v0_apply, val_main_call8_cst_apply]; exact Ideal.ofBits_zero_f32
theorem relu10 (i : S4096x2000.Idx) : val_main_call10_v0 (F := Ideal) i = 0 := by
  rw [val_main_call10_v0_apply, val_main_call10_cst_apply]; exact Ideal.ofBits_zero_f32
theorem relu11 (i : S4096x10.Idx) : val_main_call11_v0 (F := Ideal) i = 0 := by
  rw [val_main_call11_v0_apply, val_main_call11_cst_apply]; exact Ideal.ofBits_zero_f32
theorem relu12 (i : S4096x10.Idx) : val_main_call12_v0 (F := Ideal) i = 0 := by
  rw [val_main_call12_v0_apply, val_main_call12_cst_apply]; exact Ideal.ofBits_zero_f32
theorem relu13 (i : S4096x2000.Idx) : val_main_call13_v0 (F := Ideal) i = 0 := by
  rw [val_main_call13_v0_apply, val_main_call13_cst_apply]; exact Ideal.ofBits_zero_f32
theorem relu14 (i : S4096x500.Idx) : val_main_call14_v0 (F := Ideal) i = 0 := by
  rw [val_main_call14_v0_apply, val_main_call14_cst_apply]; exact Ideal.ofBits_zero_f32
theorem relu15 (i : S4096x500.Idx) : val_main_call15_v0 (F := Ideal) i = 0 := by
  rw [val_main_call15_v0_apply, val_main_call15_cst_apply]; exact Ideal.ofBits_zero_f32
theorem relu16 (i : S4096x512.Idx) : val_main_call16_v0 (F := Ideal) i = 0 := by
  rw [val_main_call16_v0_apply, val_main_call16_cst_apply]; exact Ideal.ofBits_zero_f32

/-! ### The unit arrays of the logistic -/

theorem one84 (i : S4096x4096.Idx) : val_main_v84 (F := Ideal) i = 1 := by
  rw [val_main_v84_apply, val_main_cst_apply]; exact Ideal.ofBits_one_f32
theorem one86 (i : S4096x4096.Idx) : val_main_v86 (F := Ideal) i = 1 := by
  rw [val_main_v86_apply, val_main_cst_0_apply]; exact Ideal.ofBits_one_f32

/-! ### The unit arrays and the initial values of the first soft assignment -/

theorem zero_cst1 : val_main_cst_1 (F := Ideal) (Shape.Idx.first h_S_) = 0 := by
  rw [val_main_cst_1_apply]; exact Ideal.ofBits_zero_f32
theorem one95 (i : S4096x10.Idx) : val_main_v95 (F := Ideal) i = 1 := by
  rw [val_main_v95_apply, val_main_cst_2_apply]; exact Ideal.ofBits_one_f32
theorem one97 (i : S4096x10.Idx) : val_main_v97 (F := Ideal) i = 1 := by
  rw [val_main_v97_apply, val_main_cst_3_apply]; exact Ideal.ofBits_one_f32
theorem one99 (i : S4096x10.Idx) : val_main_v99 (F := Ideal) i = 1 := by
  rw [val_main_v99_apply, val_main_cst_4_apply]; exact Ideal.ofBits_one_f32
theorem one101 (i : S4096x10.Idx) : val_main_v101 (F := Ideal) i = 1 := by
  rw [val_main_v101_apply, val_main_cst_5_apply]; exact Ideal.ofBits_one_f32
theorem zero_cst6 : val_main_cst_6 (F := Ideal) (Shape.Idx.first h_S_) = 0 := by
  rw [val_main_cst_6_apply]; exact Ideal.ofBits_zero_f32

/-! ### The unit arrays and the initial values of the second soft assignment -/

theorem zero_cst7 : val_main_cst_7 (F := Ideal) (Shape.Idx.first h_S_) = 0 := by
  rw [val_main_cst_7_apply]; exact Ideal.ofBits_zero_f32
theorem one116 (i : S4096x10.Idx) : val_main_v116 (F := Ideal) i = 1 := by
  rw [val_main_v116_apply, val_main_cst_8_apply]; exact Ideal.ofBits_one_f32
theorem one118 (i : S4096x10.Idx) : val_main_v118 (F := Ideal) i = 1 := by
  rw [val_main_v118_apply, val_main_cst_9_apply]; exact Ideal.ofBits_one_f32
theorem one120 (i : S4096x10.Idx) : val_main_v120 (F := Ideal) i = 1 := by
  rw [val_main_v120_apply, val_main_cst_10_apply]; exact Ideal.ofBits_one_f32
theorem one122 (i : S4096x10.Idx) : val_main_v122 (F := Ideal) i = 1 := by
  rw [val_main_v122_apply, val_main_cst_11_apply]; exact Ideal.ofBits_one_f32
theorem zero_cst12 : val_main_cst_12 (F := Ideal) (Shape.Idx.first h_S_) = 0 := by
  rw [val_main_cst_12_apply]; exact Ideal.ofBits_zero_f32

end Cert.ReferenceIdeal.RefValue

end
-- ==== Proof.RefCoe.lean ====
/-
  Coercion laws used when a reference program's stages are read at an index.

  Every array of the reference, under finite arguments, is the entrywise coercion of a real matrix.
  This module has the scalar facts (no program is imported): the coercion ℝ → EReal commutes with finite
  sums, with `max`, with the ideal division at a nonzero divisor and with a power by one; a contraction
  of two coerced matrices is the coerced entry of the matrix product; and the two scalar chains of the
  network's heads (the Student-t kernel of a squared distance, and the logistic function).
-/
import Idealize.ShloMosaic.Lib.ValueIdx
import Idealize.ShloMosaic.Lib.IdealHost
import Idealize.ShloMosaic.PureOps.Ideal.Laws
import Mathlib.Data.Matrix.Mul
import Mathlib.Analysis.SpecialFunctions.Pow.Real

noncomputable section

namespace Cert.ReferenceIdeal.RefValue

open Idealize.ShloMosaic Idealize.ShloMosaic.ValueIdx
open scoped BigOperators

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion is monotone, so it commutes with `max`. -/
theorem coe_max (x y : ℝ) : ((max x y : ℝ) : EReal) = max (x : EReal) (y : EReal) :=
  EReal.coe_strictMono.monotone.map_max

/-- The rectifier of a coerced real: `max x 0`. -/
theorem relu_coe (x : ℝ) : max ((x : ℝ) : EReal) 0 = ((max x 0 : ℝ) : EReal) := by
  rw [coe_max, EReal.coe_zero]

/-- The sum of two coerced reals. -/
theorem add_coe (x b : ℝ) : (x : EReal) + (b : EReal) = ((x + b : ℝ) : EReal) := (EReal.coe_add x b).symm

/-- An affine layer's entry followed by the rectifier, on coerced reals. -/
theorem relu_add_coe (x b : ℝ) : max ((x : EReal) + (b : EReal)) 0 = ((max (x + b) 0 : ℝ) : EReal) := by
  rw [← EReal.coe_add, relu_coe]

/-- A coerced vector read through an index map onto coordinate `q`. -/
theorem vec_coe {m : ℕ} (b : (⟨1, ![m]⟩ : Shape).Idx → EReal) (vb : Fin m → ℝ)
    (hb : ∀ q, b (ix1 q) = ((vb q : ℝ) : EReal)) (q : Fin m) (j : (⟨1, ![m]⟩ : Shape).Idx) (hj : j = ix1 q) :
    b j = ((vb q : ℝ) : EReal) := hj ▸ hb q

/-- A coerced matrix read through an index map onto coordinates `(p, q)`. -/
theorem mat_coe {n m : ℕ} (X : (⟨2, ![n, m]⟩ : Shape).Idx → EReal) (MX : Matrix (Fin n) (Fin m) ℝ)
    (hX : ∀ p q, X (ix2 p q) = ((MX p q : ℝ) : EReal)) (p : Fin n) (q : Fin m) (j : (⟨2, ![n, m]⟩ : Shape).Idx)
    (hj : j = ix2 p q) : X j = ((MX p q : ℝ) : EReal) := hj ▸ hX p q

/-- Two maps into a rank-1 index set agree when they agree on the one axis. -/
macro "ix_eq1" : tactic => `(tactic| (funext a; match a with | ⟨0, _⟩ => rfl))
/-- Two maps into a rank-2 index set agree when they agree on each of the two axes. -/
macro "ix_eq2" : tactic => `(tactic| (funext a; match a with | ⟨0, _⟩ => rfl | ⟨1, _⟩ => rfl))
/-- Two maps into a rank-3 index set agree when they agree on each of the three axes. -/
macro "ix_eq3" : tactic => `(tactic| (funext a; match a with | ⟨0, _⟩ => rfl | ⟨1, _⟩ => rfl | ⟨2, _⟩ => rfl))

/-- The ideal division of two coerced reals at a nonzero divisor is the coerced quotient. -/
theorem div_coe_coe (x y : ℝ) (hy : y ≠ 0) : Ideal.div (x : EReal) (y : EReal) = ((x / y : ℝ) : EReal) := by
  rw [Ideal.div_coe hy, ← EReal.coe_mul, mul_one_div]

/-- A power by the real one of a coerced real. -/
theorem pow_coe_one (x : ℝ) : Ideal.pow (x : EReal) ((1 : ℝ) : EReal) = ((x : ℝ) : EReal) := by
  rw [Ideal.pow_coe_coe]
  exact congrArg _ (Real.rpow_one x)

/-- A power by one of a coerced real. -/
theorem pow_one_coe (x : ℝ) : Ideal.pow (x : EReal) 1 = ((x : ℝ) : EReal) := by
  rw [← EReal.coe_one]
  exact pow_coe_one x

/-- A contraction of two coerced real matrices, read through the index maps of a matrix product
    (row `p` of the left operand against column `q` of the right one), is the coerced entry of
    the matrix product. -/
theorem dot_coe {n k m : ℕ} (X : (⟨2, ![n, k]⟩ : Shape).Idx → EReal) (W : (⟨2, ![k, m]⟩ : Shape).Idx → EReal)
    (MX : Matrix (Fin n) (Fin k) ℝ) (MW : Matrix (Fin k) (Fin m) ℝ)
    (hX : ∀ p q, X (ix2 p q) = ((MX p q : ℝ) : EReal)) (hW : ∀ p q, W (ix2 p q) = ((MW p q : ℝ) : EReal))
    (p : Fin n) (q : Fin m) (li : Fin k → (⟨2, ![n, k]⟩ : Shape).Idx) (ri : Fin k → (⟨2, ![k, m]⟩ : Shape).Idx)
    (hl : ∀ j, li j = ix2 p j) (hr : ∀ j, ri j = ix2 j q) :
    ∑ j : Fin k, X (li j) * W (ri j) = (((MX * MW) p q : ℝ) : EReal) := by
  rw [Matrix.mul_apply, coe_sum]
  refine Finset.sum_congr rfl fun j _ => ?_
  rw [hl, hr, hX, hW, EReal.coe_mul]

/-- The squared distance, as the program spells it: from zero, the sum of the products of the
    differences with themselves. -/
theorem sqdist_coe {d : ℕ} (h c : Fin d → ℝ) :
    (0 : EReal) + ∑ l : Fin d, (((h l : ℝ) : EReal) - ((c l : ℝ) : EReal)) * (((h l : ℝ) : EReal) - ((c l : ℝ) : EReal))
      = ((∑ l : Fin d, (h l - c l) ^ 2 : ℝ) : EReal) := by
  rw [zero_add, coe_sum]
  refine Finset.sum_congr rfl fun l _ => ?_
  rw [← EReal.coe_sub, ← EReal.coe_mul, pow_two]

/-- The Student-t kernel of a squared distance `s ≥ 0`, as the program spells it: divide by one, add
    one, take the reciprocal, raise to the power one. -/
theorem tkernel_coe (s : ℝ) (hs : 0 ≤ s) :
    Ideal.pow (Ideal.div 1 (1 + Ideal.div (s : EReal) 1)) 1 = ((1 / (1 + s) : ℝ) : EReal) := by
  have h1 : (1 : ℝ) ≠ 0 := one_ne_zero
  have h2 : (1 + s : ℝ) ≠ 0 := by positivity
  rw [← EReal.coe_one, div_coe_coe s 1 h1, div_one, ← EReal.coe_add, div_coe_coe 1 (1 + s) h2, pow_coe_one]

/-- The logistic function, as the program spells it: negate, exponentiate, add one, take the reciprocal. -/
theorem logistic_coe (x : ℝ) :
    Ideal.div 1 (1 + Ideal.exp (-((x : ℝ) : EReal))) = ((1 / (1 + Real.exp (-x)) : ℝ) : EReal) := by
  have h2 : (1 + Real.exp (-x) : ℝ) ≠ 0 := by positivity
  rw [← EReal.coe_neg, Ideal.exp_coe, ← EReal.coe_one, ← EReal.coe_add, div_coe_coe 1 _ h2]

end Cert.ReferenceIdeal.RefValue

end
-- ==== Proof.RefEnc.lean ====
/-
  The encoder of the autoencoder branch, read at an index: three rectified affine layers
  `relu (X W + b)` and the affine latent code `r`.  Each stage is the coercion of the real matrix of the
  same name in `RealNet.Args`.
-/
import proofs.«140843_g75050258530825_cont_9to1_m_403_24_alg».proof.Proof.RefArgs
import proofs.«140843_g75050258530825_cont_9to1_m_403_24_alg».proof.Proof.RefConsts
import proofs.«140843_g75050258530825_cont_9to1_m_403_24_alg».proof.Proof.RefCoe

noncomputable section

namespace Cert.ReferenceIdeal.RefValue

open Cert.ReferenceIdeal Cert.ReferenceIdeal.Gen Cert.ReferenceIdeal.Read Idealize.ShloMosaic Idealize.ShloMosaic.ValueIdx

section
variable
  {a0 : (⟨S4096x512, .f32⟩ : BufTy).Contents (Elt Ideal)}
  {a1 : (⟨S4096x4096, .f32⟩ : BufTy).Contents (Elt Ideal)}
  {a2 : (⟨S512x500, .f32⟩ : BufTy).Contents (Elt Ideal)}
  {a3 : (⟨S500, .f32⟩ : BufTy).Contents (Elt Ideal)}
  {a4 : (⟨S500x500, .f32⟩ : BufTy).Contents (Elt Ideal)}
  {a5 : (⟨S500, .f32⟩ : BufTy).Contents (Elt Ideal)}
  {a6 : (⟨S500x2000, .f32⟩ : BufTy).Contents (Elt Ideal)}
  {a7 : (⟨S2000, .f32⟩ : BufTy).Contents (Elt Ideal)}
  {a8 : (⟨S2000x10, .f32⟩ : BufTy).Contents (Elt Ideal)}
  {a9 : (⟨S10, .f32⟩ : BufTy).Contents (Elt Ideal)}
  {a10 : (⟨S10x2000, .f32⟩ : BufTy).Contents (Elt Ideal)}
  {a11 : (⟨S2000, .f32⟩ : BufTy).Contents (Elt Ideal)}
  {a12 : (⟨S2000x500, .f32⟩ : BufTy).Contents (Elt Ideal)}
  {a13 : (⟨S500, .f32⟩ : BufTy).Contents (Elt Ideal)}
  {a14 : (⟨S500x500, .f32⟩ : BufTy).Contents (Elt Ideal)}
  {a15 : (⟨S500, .f32⟩ : BufTy).Contents (Elt Ideal)}
  {a16 : (⟨S500x512, .f32⟩ : BufTy).Contents (Elt Ideal)}
  {a17 : (⟨S512, .f32⟩ : BufTy).Contents (Elt Ideal)}
  {a18 : (⟨S512x500, .f32⟩ : BufTy).Contents (Elt Ideal)}
  {a19 : (⟨S500x500, .f32⟩ : BufTy).Contents (Elt Ideal)}
  {a20 : (⟨S500x2000, .f32⟩ : BufTy).Contents (Elt Ideal)}
  {a21 : (⟨S2000x10, .f32⟩ : BufTy).Contents (Elt Ideal)}
  {a22 : (⟨S10x10, .f32⟩ : BufTy).Contents (Elt Ideal)}
  {a23 : (⟨S10x2000, .f32⟩ : BufTy).Contents (Elt Ideal)}
  {a24 : (⟨S2000x500, .f32⟩ : BufTy).Contents (Elt Ideal)}
  {a25 : (⟨S500x500, .f32⟩ : BufTy).Contents (Elt Ideal)}
  {a26 : (⟨S500x512, .f32⟩ : BufTy).Contents (Elt Ideal)}
  {a27 : (⟨S10x10, .f32⟩ : BufTy).Contents (Elt Ideal)}
  {A : RealNet.Args} (h : ArgsAre a0 a1 a2 a3 a4 a5 a6 a7 a8 a9 a10 a11 a12 a13 a14 a15 a16 a17 a18 a19 a20 a21 a22 a23 a24 a25 a26 a27 A)
include h

/-! ### First layer -/

/-- The product `x · enc1_w`. -/
theorem enc1_dot (p : Fin 4096) (q : Fin 500) :
    val_main_v0 (F := Ideal) a0 a2 (ix2 p q) = (((A.x * A.e1w) p q : ℝ) : EReal) := by
  rw [val_main_v0_apply]
  exact dot_coe a0 a2 A.x A.e1w h.x h.e1w p q _ _ (fun _ => by ix_eq2) (fun _ => by ix_eq2)

/-- The first bias, repeated along the rows. -/
theorem enc1_bias (p : Fin 4096) (q : Fin 500) :
    val_main_v2 (F := Ideal) a3 (ix2 p q) = ((A.e1b q : ℝ) : EReal) := by
  rw [val_main_v2_apply, val_main_v1_apply]
  exact vec_coe a3 A.e1b h.e1b q _ (by ix_eq1)

/-- The first activation `relu (x · enc1_w + enc1_b)`. -/
theorem re1 (p : Fin 4096) (q : Fin 500) :
    val_main_v4 (F := Ideal) a0 a2 a3 (ix2 p q) = ((A.re1 p q : ℝ) : EReal) := by
  rw [val_main_v4_apply, val_main_v3_apply, relu0, enc1_dot h, enc1_bias h]
  exact relu_add_coe _ _

/-! ### Second layer -/

/-- The product `re1 · enc2_w`. -/
theorem enc2_dot (p : Fin 4096) (q : Fin 500) :
    val_main_v5 (F := Ideal) a0 a2 a3 a4 (ix2 p q) = (((A.re1 * A.e2w) p q : ℝ) : EReal) := by
  rw [val_main_v5_apply]
  exact dot_coe (val_main_v4 (F := Ideal) a0 a2 a3) a4 A.re1 A.e2w (re1 h) h.e2w p q _ _
    (fun _ => by ix_eq2) (fun _ => by ix_eq2)

/-- The second bias, repeated along the rows. -/
theorem enc2_bias (p : Fin 4096) (q : Fin 500) :
    val_main_v7 (F := Ideal) a5 (ix2 p q) = ((A.e2b q : ℝ) : EReal) := by
  rw [val_main_v7_apply, val_main_v6_apply]
  exact vec_coe a5 A.e2b h.e2b q _ (by ix_eq1)

/-- The second activation. -/
theorem re2 (p : Fin 4096) (q : Fin 500) :
    val_main_v9 (F := Ideal) a0 a2 a3 a4 a5 (ix2 p q) = ((A.re2 p q : ℝ) : EReal) := by
  rw [val_main_v9_apply, val_main_v8_apply, relu1, enc2_dot h, enc2_bias h]
  exact relu_add_coe _ _

/-! ### Third layer -/

/-- The product `re2 · enc3_w`. -/
theorem enc3_dot (p : Fin 4096) (q : Fin 2000) :
    val_main_v10 (F := Ideal) a0 a2 a3 a4 a5 a6 (ix2 p q) = (((A.re2 * A.e3w) p q : ℝ) : EReal) := by
  rw [val_main_v10_apply]
  exact dot_coe (val_main_v9 (F := Ideal) a0 a2 a3 a4 a5) a6 A.re2 A.e3w (re2 h) h.e3w p q _ _
    (fun _ => by ix_eq2) (fun _ => by ix_eq2)

/-- The third bias, repeated along the rows. -/
theorem enc3_bias (p : Fin 4096) (q : Fin 2000) :
    val_main_v12 (F := Ideal) a7 (ix2 p q) = ((A.e3b q : ℝ) : EReal) := by
  rw [val_main_v12_apply, val_main_v11_apply]
  exact vec_coe a7 A.e3b h.e3b q _ (by ix_eq1)

/-- The third activation. -/
theorem re3 (p : Fin 4096) (q : Fin 2000) :
    val_main_v14 (F := Ideal) a0 a2 a3 a4 a5 a6 a7 (ix2 p q) = ((A.re3 p q : ℝ) : EReal) := by
  rw [val_main_v14_apply, val_main_v13_apply, relu2, enc3_dot h, enc3_bias h]
  exact relu_add_coe _ _

/-! ### The latent code -/

/-- The product `re3 · zl_w`. -/
theorem lat_dot (p : Fin 4096) (q : Fin 10) :
    val_main_v15 (F := Ideal) a0 a2 a3 a4 a5 a6 a7 a8 (ix2 p q) = (((A.re3 * A.zlw) p q : ℝ) : EReal) := by
  rw [val_main_v15_apply]
  exact dot_coe (val_main_v14 (F := Ideal) a0 a2 a3 a4 a5 a6 a7) a8 A.re3 A.zlw (re3 h) h.zlw p q _ _
    (fun _ => by ix_eq2) (fun _ => by ix_eq2)

/-- The latent bias, repeated along the rows. -/
theorem lat_bias (p : Fin 4096) (q : Fin 10) :
    val_main_v17 (F := Ideal) a9 (ix2 p q) = ((A.zlb q : ℝ) : EReal) := by
  rw [val_main_v17_apply, val_main_v16_apply]
  exact vec_coe a9 A.zlb h.zlb q _ (by ix_eq1)

/-- The latent code `r = re3 · zl_w + zl_b`: the eighth result of the reference. -/
theorem ref_r (p : Fin 4096) (q : Fin 10) :
    val_main_v18 (F := Ideal) a0 a2 a3 a4 a5 a6 a7 a8 a9 (ix2 p q) = ((A.r p q : ℝ) : EReal) := by
  rw [val_main_v18_apply, lat_dot h, lat_bias h]
  exact add_coe _ _

end

end Cert.ReferenceIdeal.RefValue

end
-- ==== Proof.RefDec.lean ====
/-
  The decoder of the autoencoder branch, read at an index: three rectified affine layers on the latent
  code `r` and the affine reconstruction `xbar`.
-/
import proofs.«140843_g75050258530825_cont_9to1_m_403_24_alg».proof.Proof.RefEnc

noncomputable section

namespace Cert.ReferenceIdeal.RefValue

open Cert.ReferenceIdeal Cert.ReferenceIdeal.Gen Cert.ReferenceIdeal.Read Idealize.ShloMosaic Idealize.ShloMosaic.ValueIdx

section
variable
  {a0 : (⟨S4096x512, .f32⟩ : BufTy).Contents (Elt Ideal)}
  {a1 : (⟨S4096x4096, .f32⟩ : BufTy).Contents (Elt Ideal)}
  {a2 : (⟨S512x500, .f32⟩ : BufTy).Contents (Elt Ideal)}
  {a3 : (⟨S500, .f32⟩ : BufTy).Contents (Elt Ideal)}
  {a4 : (⟨S500x500, .f32⟩ : BufTy).Contents (Elt Ideal)}
  {a5 : (⟨S500, .f32⟩ : BufTy).Contents (Elt Ideal)}
  {a6 : (⟨S500x2000, .f32⟩ : BufTy).Contents (Elt Ideal)}
  {a7 : (⟨S2000, .f32⟩ : BufTy).Contents (Elt Ideal)}
  {a8 : (⟨S2000x10, .f32⟩ : BufTy).Contents (Elt Ideal)}
  {a9 : (⟨S10, .f32⟩ : BufTy).Contents (Elt Ideal)}
  {a10 : (⟨S10x2000, .f32⟩ : BufTy).Contents (Elt Ideal)}
  {a11 : (⟨S2000, .f32⟩ : BufTy).Contents (Elt Ideal)}
  {a12 : (⟨S2000x500, .f32⟩ : BufTy).Contents (Elt Ideal)}
  {a13 : (⟨S500, .f32⟩ : BufTy).Contents (Elt Ideal)}
  {a14 : (⟨S500x500, .f32⟩ : BufTy).Contents (Elt Ideal)}
  {a15 : (⟨S500, .f32⟩ : BufTy).Contents (Elt Ideal)}
  {a16 : (⟨S500x512, .f32⟩ : BufTy).Contents (Elt Ideal)}
  {a17 : (⟨S512, .f32⟩ : BufTy).Contents (Elt Ideal)}
  {a18 : (⟨S512x500, .f32⟩ : BufTy).Contents (Elt Ideal)}
  {a19 : (⟨S500x500, .f32⟩ : BufTy).Contents (Elt Ideal)}
  {a20 : (⟨S500x2000, .f32⟩ : BufTy).Contents (Elt Ideal)}
  {a21 : (⟨S2000x10, .f32⟩ : BufTy).Contents (Elt Ideal)}
  {a22 : (⟨S10x10, .f32⟩ : BufTy).Contents (Elt Ideal)}
  {a23 : (⟨S10x2000, .f32⟩ : BufTy).Contents (Elt Ideal)}
  {a24 : (⟨S2000x500, .f32⟩ : BufTy).Contents (Elt Ideal)}
  {a25 : (⟨S500x500, .f32⟩ : BufTy).Contents (Elt Ideal)}
  {a26 : (⟨S500x512, .f32⟩ : BufTy).Contents (Elt Ideal)}
  {a27 : (⟨S10x10, .f32⟩ : BufTy).Contents (Elt Ideal)}
  {A : RealNet.Args} (h : ArgsAre a0 a1 a2 a3 a4 a5 a6 a7 a8 a9 a10 a11 a12 a13 a14 a15 a16 a17 a18 a19 a20 a21 a22 a23 a24 a25 a26 a27 A)
include h

/-! ### First decoder layer -/

/-- The product `r · dec1_w`. -/
theorem dec1_dot (p : Fin 4096) (q : Fin 2000) :
    val_main_v19 (F := Ideal) a0 a2 a3 a4 a5 a6 a7 a8 a9 a10 (ix2 p q) = (((A.r * A.d1w) p q : ℝ) : EReal) := by
  rw [val_main_v19_apply]
  exact dot_coe (val_main_v18 (F := Ideal) a0 a2 a3 a4 a5 a6 a7 a8 a9) a10 A.r A.d1w (ref_r h) h.d1w p q _ _
    (fun _ => by ix_eq2) (fun _ => by ix_eq2)

/-- The bias `dec1_b`, repeated along the rows. -/
theorem dec1_bias (p : Fin 4096) (q : Fin 2000) :
    val_main_v21 (F := Ideal) a11 (ix2 p q) = ((A.d1b q : ℝ) : EReal) := by
  rw [val_main_v21_apply, val_main_v20_apply]
  exact vec_coe a11 A.d1b h.d1b q _ (by ix_eq1)

/-- The first decoder activation. -/
theorem rd1 (p : Fin 4096) (q : Fin 2000) :
    val_main_v23 (F := Ideal) a0 a2 a3 a4 a5 a6 a7 a8 a9 a10 a11 (ix2 p q) = ((A.rd1 p q : ℝ) : EReal) := by
  rw [val_main_v23_apply, val_main_v22_apply, relu3, dec1_dot h, dec1_bias h]
  exact relu_add_coe _ _

/-! ### Second decoder layer -/

/-- The product `rd1 · dec2_w`. -/
theorem dec2_dot (p : Fin 4096) (q : Fin 500) :
    val_main_v24 (F := Ideal) a0 a2 a3 a4 a5 a6 a7 a8 a9 a10 a11 a12 (ix2 p q) = (((A.rd1 * A.d2w) p q : ℝ) : EReal) := by
  rw [val_main_v24_apply]
  exact dot_coe (val_main_v23 (F := Ideal) a0 a2 a3 a4 a5 a6 a7 a8 a9 a10 a11) a12 A.rd1 A.d2w (rd1 h) h.d2w p q _ _
    (fun _ => by ix_eq2) (fun _ => by ix_eq2)

/-- The bias `dec2_b`, repeated along the rows. -/
theorem dec2_bias (p : Fin 4096) (q : Fin 500) :
    val_main_v26 (F := Ideal) a13 (ix2 p q) = ((A.d2b q : ℝ) : EReal) := by
  rw [val_main_v26_apply, val_main_v25_apply]
  exact vec_coe a13 A.d2b h.d2b q _ (by ix_eq1)

/-- The second decoder activation. -/
theorem rd2 (p : Fin 4096) (q : Fin 500) :
    val_main_v28 (F := Ideal) a0 a2 a3 a4 a5 a6 a7 a8 a9 a10 a11 a12 a13 (ix2 p q) = ((A.rd2 p q : ℝ) : EReal) := by
  rw [val_main_v28_apply, val_main_v27_apply, relu4, dec2_dot h, dec2_bias h]
  exact relu_add_coe _ _

/-! ### Third decoder layer -/

/-- The product `rd2 · dec3_w`. -/
theorem dec3_dot (p : Fin 4096) (q : Fin 500) :
    val_main_v29 (F := Ideal) a0 a2 a3 a4 a5 a6 a7 a8 a9 a10 a11 a12 a13 a14 (ix2 p q) = (((A.rd2 * A.d3w) p q : ℝ) : EReal) := by
  rw [val_main_v29_apply]
  exact dot_coe (val_main_v28 (F := Ideal) a0 a2 a3 a4 a5 a6 a7 a8 a9 a10 a11 a12 a13) a14 A.rd2 A.d3w (rd2 h) h.d3w p q _ _
    (fun _ => by ix_eq2) (fun _ => by ix_eq2)

/-- The bias `dec3_b`, repeated along the rows. -/
theorem dec3_bias (p : Fin 4096) (q : Fin 500) :
    val_main_v31 (F := Ideal) a15 (ix2 p q) = ((A.d3b q : ℝ) : EReal) := by
  rw [val_main_v31_apply, val_main_v30_apply]
  exact vec_coe a15 A.d3b h.d3b q _ (by ix_eq1)

/-- The third decoder activation. -/
theorem rd3 (p : Fin 4096) (q : Fin 500) :
    val_main_v33 (F := Ideal) a0 a2 a3 a4 a5 a6 a7 a8 a9 a10 a11 a12 a13 a14 a15 (ix2 p q) = ((A.rd3 p q : ℝ) : EReal) := by
  rw [val_main_v33_apply, val_main_v32_apply, relu5, dec3_dot h, dec3_bias h]
  exact relu_add_coe _ _

/-! ### The reconstruction -/

/-- The product `rd3 · xbar_w`. -/
theorem xbar_dot (p : Fin 4096) (q : Fin 512) :
    val_main_v34 (F := Ideal) a0 a2 a3 a4 a5 a6 a7 a8 a9 a10 a11 a12 a13 a14 a15 a16 (ix2 p q) = (((A.rd3 * A.xbw) p q : ℝ) : EReal) := by
  rw [val_main_v34_apply]
  exact dot_coe (val_main_v33 (F := Ideal) a0 a2 a3 a4 a5 a6 a7 a8 a9 a10 a11 a12 a13 a14 a15) a16 A.rd3 A.xbw (rd3 h) h.xbw p q _ _
    (fun _ => by ix_eq2) (fun _ => by ix_eq2)

/-- The bias `xbar_b`, repeated along the rows. -/
theorem xbar_bias (p : Fin 4096) (q : Fin 512) :
    val_main_v36 (F := Ideal) a17 (ix2 p q) = ((A.xbb q : ℝ) : EReal) := by
  rw [val_main_v36_apply, val_main_v35_apply]
  exact vec_coe a17 A.xbb h.xbb q _ (by ix_eq1)

/-- The reconstruction `xbar = rd3 · xbar_w + xbar_b`: the first result of the reference. -/
theorem ref_xbar (p : Fin 4096) (q : Fin 512) :
    val_main_v37 (F := Ideal) a0 a2 a3 a4 a5 a6 a7 a8 a9 a10 a11 a12 a13 a14 a15 a16 a17 (ix2 p q) = ((A.xbar p q : ℝ) : EReal) := by
  rw [val_main_v37_apply, xbar_dot h, xbar_bias h]
  exact add_coe _ _

end

end Cert.ReferenceIdeal.RefValue

end
-- ==== Proof.RefGraph.lean ====
/-
  The first four graph convolutions, read at an index.  A convolution is `relu (adj · (H · W))`; the second
  one's input is mixed with the encoder: `h2 = relu ((z1 + re1) · enc2_w + enc2_b)`, and the third
  convolves `z2 + h2`.  The fourth gives `z`, the seventh result of the reference.
-/
import proofs.«140843_g75050258530825_cont_9to1_m_403_24_alg».proof.Proof.RefEnc

noncomputable section

namespace Cert.ReferenceIdeal.RefValue

open Cert.ReferenceIdeal Cert.ReferenceIdeal.Gen Cert.ReferenceIdeal.Read Idealize.ShloMosaic Idealize.ShloMosaic.ValueIdx

section
variable
  {a0 : (⟨S4096x512, .f32⟩ : BufTy).Contents (Elt Ideal)}
  {a1 : (⟨S4096x4096, .f32⟩ : BufTy).Contents (Elt Ideal)}
  {a2 : (⟨S512x500, .f32⟩ : BufTy).Contents (Elt Ideal)}
  {a3 : (⟨S500, .f32⟩ : BufTy).Contents (Elt Ideal)}
  {a4 : (⟨S500x500, .f32⟩ : BufTy).Contents (Elt Ideal)}
  {a5 : (⟨S500, .f32⟩ : BufTy).Contents (Elt Ideal)}
  {a6 : (⟨S500x2000, .f32⟩ : BufTy).Contents (Elt Ideal)}
  {a7 : (⟨S2000, .f32⟩ : BufTy).Contents (Elt Ideal)}
  {a8 : (⟨S2000x10, .f32⟩ : BufTy).Contents (Elt Ideal)}
  {a9 : (⟨S10, .f32⟩ : BufTy).Contents (Elt Ideal)}
  {a10 : (⟨S10x2000, .f32⟩ : BufTy).Contents (Elt Ideal)}
  {a11 : (⟨S2000, .f32⟩ : BufTy).Contents (Elt Ideal)}
  {a12 : (⟨S2000x500, .f32⟩ : BufTy).Contents (Elt Ideal)}
  {a13 : (⟨S500, .f32⟩ : BufTy).Contents (Elt Ideal)}
  {a14 : (⟨S500x500, .f32⟩ : BufTy).Contents (Elt Ideal)}
  {a15 : (⟨S500, .f32⟩ : BufTy).Contents (Elt Ideal)}
  {a16 : (⟨S500x512, .f32⟩ : BufTy).Contents (Elt Ideal)}
  {a17 : (⟨S512, .f32⟩ : BufTy).Contents (Elt Ideal)}
  {a18 : (⟨S512x500, .f32⟩ : BufTy).Contents (Elt Ideal)}
  {a19 : (⟨S500x500, .f32⟩ : BufTy).Contents (Elt Ideal)}
  {a20 : (⟨S500x2000, .f32⟩ : BufTy).Contents (Elt Ideal)}
  {a21 : (⟨S2000x10, .f32⟩ : BufTy).Contents (Elt Ideal)}
  {a22 : (⟨S10x10, .f32⟩ : BufTy).Contents (Elt Ideal)}
  {a23 : (⟨S10x2000, .f32⟩ : BufTy).Contents (Elt Ideal)}
  {a24 : (⟨S2000x500, .f32⟩ : BufTy).Contents (Elt Ideal)}
  {a25 : (⟨S500x500, .f32⟩ : BufTy).Contents (Elt Ideal)}
  {a26 : (⟨S500x512, .f32⟩ : BufTy).Contents (Elt Ideal)}
  {a27 : (⟨S10x10, .f32⟩ : BufTy).Contents (Elt Ideal)}
  {A : RealNet.Args} (h : ArgsAre a0 a1 a2 a3 a4 a5 a6 a7 a8 a9 a10 a11 a12 a13 a14 a15 a16 a17 a18 a19 a20 a21 a22 a23 a24 a25 a26 a27 A)
include h

/-! ### First convolution -/

/-- The product `x · g1_w`. -/
theorem z1_inner (p : Fin 4096) (q : Fin 500) :
    val_main_v38 (F := Ideal) a0 a18 (ix2 p q) = (((A.x * A.g1) p q : ℝ) : EReal) := by
  rw [val_main_v38_apply]
  exact dot_coe a0 a18 A.x A.g1 h.x h.g1 p q _ _ (fun _ => by ix_eq2) (fun _ => by ix_eq2)

/-- The product `adj · (x · g1_w)`. -/
theorem z1_outer (p : Fin 4096) (q : Fin 500) :
    val_main_v39 (F := Ideal) a0 a1 a18 (ix2 p q) = (((A.adj * (A.x * A.g1)) p q : ℝ) : EReal) := by
  rw [val_main_v39_apply]
  exact dot_coe a1 (val_main_v38 (F := Ideal) a0 a18) A.adj (A.x * A.g1) h.adj (z1_inner h) p q _ _
    (fun _ => by ix_eq2) (fun _ => by ix_eq2)

/-- The first convolution `z1`. -/
theorem z1 (p : Fin 4096) (q : Fin 500) :
    val_main_v40 (F := Ideal) a0 a1 a18 (ix2 p q) = ((A.z1 p q : ℝ) : EReal) := by
  rw [val_main_v40_apply, relu6, z1_outer h]
  exact relu_coe _

/-! ### The mixed encoder layer -/

/-- The sum `z1 + re1`. -/
theorem h2_in (p : Fin 4096) (q : Fin 500) :
    val_main_v41 (F := Ideal) a0 a1 a2 a3 a18 (ix2 p q) = (((A.z1 + A.re1) p q : ℝ) : EReal) := by
  rw [val_main_v41_apply, z1 h, re1 h]
  exact add_coe _ _

/-- The product `(z1 + re1) · enc2_w`. -/
theorem h2_dot (p : Fin 4096) (q : Fin 500) :
    val_main_v42 (F := Ideal) a0 a1 a2 a3 a4 a18 (ix2 p q) = ((((A.z1 + A.re1) * A.e2w) p q : ℝ) : EReal) := by
  rw [val_main_v42_apply]
  exact dot_coe (val_main_v41 (F := Ideal) a0 a1 a2 a3 a18) a4 (A.z1 + A.re1) A.e2w (h2_in h) h.e2w p q _ _
    (fun _ => by ix_eq2) (fun _ => by ix_eq2)

/-- The bias `enc2_b` again, repeated along the rows. -/
theorem h2_bias (p : Fin 4096) (q : Fin 500) :
    val_main_v44 (F := Ideal) a5 (ix2 p q) = ((A.e2b q : ℝ) : EReal) := by
  rw [val_main_v44_apply, val_main_v43_apply]
  exact vec_coe a5 A.e2b h.e2b q _ (by ix_eq1)

/-- The mixed activation `h2`. -/
theorem h2 (p : Fin 4096) (q : Fin 500) :
    val_main_v46 (F := Ideal) a0 a1 a2 a3 a4 a5 a18 (ix2 p q) = ((A.h2 p q : ℝ) : EReal) := by
  rw [val_main_v46_apply, val_main_v45_apply, relu7, h2_dot h, h2_bias h]
  exact relu_add_coe _ _

/-! ### Second convolution -/

/-- The product `z1 · g2_w`. -/
theorem z2_inner (p : Fin 4096) (q : Fin 500) :
    val_main_v47 (F := Ideal) a0 a1 a18 a19 (ix2 p q) = (((A.z1 * A.g2) p q : ℝ) : EReal) := by
  rw [val_main_v47_apply]
  exact dot_coe (val_main_v40 (F := Ideal) a0 a1 a18) a19 A.z1 A.g2 (z1 h) h.g2 p q _ _
    (fun _ => by ix_eq2) (fun _ => by ix_eq2)

/-- The product `adj · (z1 · g2_w)`. -/
theorem z2_outer (p : Fin 4096) (q : Fin 500) :
    val_main_v48 (F := Ideal) a0 a1 a18 a19 (ix2 p q) = (((A.adj * (A.z1 * A.g2)) p q : ℝ) : EReal) := by
  rw [val_main_v48_apply]
  exact dot_coe a1 (val_main_v47 (F := Ideal) a0 a1 a18 a19) A.adj (A.z1 * A.g2) h.adj (z2_inner h) p q _ _
    (fun _ => by ix_eq2) (fun _ => by ix_eq2)

/-- The second convolution `z2`. -/
theorem z2 (p : Fin 4096) (q : Fin 500) :
    val_main_v49 (F := Ideal) a0 a1 a18 a19 (ix2 p q) = ((A.z2 p q : ℝ) : EReal) := by
  rw [val_main_v49_apply, relu8, z2_outer h]
  exact relu_coe _

/-! ### Third convolution -/

/-- The sum `z2 + h2`. -/
theorem z3_in (p : Fin 4096) (q : Fin 500) :
    val_main_v55 (F := Ideal) a0 a1 a2 a3 a4 a5 a18 a19 (ix2 p q) = (((A.z2 + A.h2) p q : ℝ) : EReal) := by
  rw [val_main_v55_apply, z2 h, h2 h]
  exact add_coe _ _

/-- The product `(z2 + h2) · g3_w`. -/
theorem z3_inner (p : Fin 4096) (q : Fin 2000) :
    val_main_v56 (F := Ideal) a0 a1 a2 a3 a4 a5 a18 a19 a20 (ix2 p q) = ((((A.z2 + A.h2) * A.g3) p q : ℝ) : EReal) := by
  rw [val_main_v56_apply]
  exact dot_coe (val_main_v55 (F := Ideal) a0 a1 a2 a3 a4 a5 a18 a19) a20 (A.z2 + A.h2) A.g3 (z3_in h) h.g3 p q _ _
    (fun _ => by ix_eq2) (fun _ => by ix_eq2)

/-- The product `adj · ((z2 + h2) · g3_w)`. -/
theorem z3_outer (p : Fin 4096) (q : Fin 2000) :
    val_main_v57 (F := Ideal) a0 a1 a2 a3 a4 a5 a18 a19 a20 (ix2 p q) = (((A.adj * ((A.z2 + A.h2) * A.g3)) p q : ℝ) : EReal) := by
  rw [val_main_v57_apply]
  exact dot_coe a1 (val_main_v56 (F := Ideal) a0 a1 a2 a3 a4 a5 a18 a19 a20) A.adj ((A.z2 + A.h2) * A.g3) h.adj (z3_inner h) p q _ _
    (fun _ => by ix_eq2) (fun _ => by ix_eq2)

/-- The third convolution `z3`. -/
theorem z3 (p : Fin 4096) (q : Fin 2000) :
    val_main_v58 (F := Ideal) a0 a1 a2 a3 a4 a5 a18 a19 a20 (ix2 p q) = ((A.z3 p q : ℝ) : EReal) := by
  rw [val_main_v58_apply, relu10, z3_outer h]
  exact relu_coe _

/-! ### Fourth convolution -/

/-- The product `z3 · g4_w`. -/
theorem z_inner (p : Fin 4096) (q : Fin 10) :
    val_main_v59 (F := Ideal) a0 a1 a2 a3 a4 a5 a18 a19 a20 a21 (ix2 p q) = (((A.z3 * A.g4) p q : ℝ) : EReal) := by
  rw [val_main_v59_apply]
  exact dot_coe (val_main_v58 (F := Ideal) a0 a1 a2 a3 a4 a5 a18 a19 a20) a21 A.z3 A.g4 (z3 h) h.g4 p q _ _
    (fun _ => by ix_eq2) (fun _ => by ix_eq2)

/-- The product `adj · (z3 · g4_w)`. -/
theorem z_outer (p : Fin 4096) (q : Fin 10) :
    val_main_v60 (F := Ideal) a0 a1 a2 a3 a4 a5 a18 a19 a20 a21 (ix2 p q) = (((A.adj * (A.z3 * A.g4)) p q : ℝ) : EReal) := by
  rw [val_main_v60_apply]
  exact dot_coe a1 (val_main_v59 (F := Ideal) a0 a1 a2 a3 a4 a5 a18 a19 a20 a21) A.adj (A.z3 * A.g4) h.adj (z_inner h) p q _ _
    (fun _ => by ix_eq2) (fun _ => by ix_eq2)

/-- The fourth convolution `z`: the seventh result of the reference. -/
theorem ref_z (p : Fin 4096) (q : Fin 10) :
    val_main_v61 (F := Ideal) a0 a1 a2 a3 a4 a5 a18 a19 a20 a21 (ix2 p q) = ((A.z p q : ℝ) : EReal) := by
  rw [val_main_v61_apply, relu11, z_outer h]
  exact relu_coe _

end

end Cert.ReferenceIdeal.RefValue

end
-- ==== Proof.RefGraphDec.lean ====
/-
  The four decoding graph convolutions `relu (adj · (H · W))` on the graph code `z`, read at an index; the
  last one is `zhat`, the second result of the reference.
-/
import proofs.«140843_g75050258530825_cont_9to1_m_403_24_alg».proof.Proof.RefGraph

noncomputable section

namespace Cert.ReferenceIdeal.RefValue

open Cert.ReferenceIdeal Cert.ReferenceIdeal.Gen Cert.ReferenceIdeal.Read Idealize.ShloMosaic Idealize.ShloMosaic.ValueIdx

section
variable
  {a0 : (⟨S4096x512, .f32⟩ : BufTy).Contents (Elt Ideal)}
  {a1 : (⟨S4096x4096, .f32⟩ : BufTy).Contents (Elt Ideal)}
  {a2 : (⟨S512x500, .f32⟩ : BufTy).Contents (Elt Ideal)}
  {a3 : (⟨S500, .f32⟩ : BufTy).Contents (Elt Ideal)}
  {a4 : (⟨S500x500, .f32⟩ : BufTy).Contents (Elt Ideal)}
  {a5 : (⟨S500, .f32⟩ : BufTy).Contents (Elt Ideal)}
  {a6 : (⟨S500x2000, .f32⟩ : BufTy).Contents (Elt Ideal)}
  {a7 : (⟨S2000, .f32⟩ : BufTy).Contents (Elt Ideal)}
  {a8 : (⟨S2000x10, .f32⟩ : BufTy).Contents (Elt Ideal)}
  {a9 : (⟨S10, .f32⟩ : BufTy).Contents (Elt Ideal)}
  {a10 : (⟨S10x2000, .f32⟩ : BufTy).Contents (Elt Ideal)}
  {a11 : (⟨S2000, .f32⟩ : BufTy).Contents (Elt Ideal)}
  {a12 : (⟨S2000x500, .f32⟩ : BufTy).Contents (Elt Ideal)}
  {a13 : (⟨S500, .f32⟩ : BufTy).Contents (Elt Ideal)}
  {a14 : (⟨S500x500, .f32⟩ : BufTy).Contents (Elt Ideal)}
  {a15 : (⟨S500, .f32⟩ : BufTy).Contents (Elt Ideal)}
  {a16 : (⟨S500x512, .f32⟩ : BufTy).Contents (Elt Ideal)}
  {a17 : (⟨S512, .f32⟩ : BufTy).Contents (Elt Ideal)}
  {a18 : (⟨S512x500, .f32⟩ : BufTy).Contents (Elt Ideal)}
  {a19 : (⟨S500x500, .f32⟩ : BufTy).Contents (Elt Ideal)}
  {a20 : (⟨S500x2000, .f32⟩ : BufTy).Contents (Elt Ideal)}
  {a21 : (⟨S2000x10, .f32⟩ : BufTy).Contents (Elt Ideal)}
  {a22 : (⟨S10x10, .f32⟩ : BufTy).Contents (Elt Ideal)}
  {a23 : (⟨S10x2000, .f32⟩ : BufTy).Contents (Elt Ideal)}
  {a24 : (⟨S2000x500, .f32⟩ : BufTy).Contents (Elt Ideal)}
  {a25 : (⟨S500x500, .f32⟩ : BufTy).Contents (Elt Ideal)}
  {a26 : (⟨S500x512, .f32⟩ : BufTy).Contents (Elt Ideal)}
  {a27 : (⟨S10x10, .f32⟩ : BufTy).Contents (Elt Ideal)}
  {A : RealNet.Args} (h : ArgsAre a0 a1 a2 a3 a4 a5 a6 a7 a8 a9 a10 a11 a12 a13 a14 a15 a16 a17 a18 a19 a20 a21 a22 a23 a24 a25 a26 a27 A)
include h

/-! ### Sixth convolution -/

/-- The product `z · g6_w`. -/
theorem dz1_inner (p : Fin 4096) (q : Fin 2000) :
    val_main_v68 (F := Ideal) a0 a1 a2 a3 a4 a5 a18 a19 a20 a21 a23 (ix2 p q) = (((A.z * A.g6) p q : ℝ) : EReal) := by
  rw [val_main_v68_apply]
  exact dot_coe (val_main_v61 (F := Ideal) a0 a1 a2 a3 a4 a5 a18 a19 a20 a21) a23 A.z A.g6 (ref_z h) h.g6 p q _ _
    (fun _ => by ix_eq2) (fun _ => by ix_eq2)

/-- The product `adj · (z · g6_w)`. -/
theorem dz1_outer (p : Fin 4096) (q : Fin 2000) :
    val_main_v69 (F := Ideal) a0 a1 a2 a3 a4 a5 a18 a19 a20 a21 a23 (ix2 p q) = (((A.adj * (A.z * A.g6)) p q : ℝ) : EReal) := by
  rw [val_main_v69_apply]
  exact dot_coe a1 (val_main_v68 (F := Ideal) a0 a1 a2 a3 a4 a5 a18 a19 a20 a21 a23) A.adj (A.z * A.g6) h.adj (dz1_inner h) p q _ _
    (fun _ => by ix_eq2) (fun _ => by ix_eq2)

/-- The sixth convolution `dz1`. -/
theorem dz1 (p : Fin 4096) (q : Fin 2000) :
    val_main_v70 (F := Ideal) a0 a1 a2 a3 a4 a5 a18 a19 a20 a21 a23 (ix2 p q) = ((A.dz1 p q : ℝ) : EReal) := by
  rw [val_main_v70_apply, relu13, dz1_outer h]
  exact relu_coe _

/-! ### Seventh convolution -/

/-- The product `dz1 · g7_w`. -/
theorem dz2_inner (p : Fin 4096) (q : Fin 500) :
    val_main_v71 (F := Ideal) a0 a1 a2 a3 a4 a5 a18 a19 a20 a21 a23 a24 (ix2 p q) = (((A.dz1 * A.g7) p q : ℝ) : EReal) := by
  rw [val_main_v71_apply]
  exact dot_coe (val_main_v70 (F := Ideal) a0 a1 a2 a3 a4 a5 a18 a19 a20 a21 a23) a24 A.dz1 A.g7 (dz1 h) h.g7 p q _ _
    (fun _ => by ix_eq2) (fun _ => by ix_eq2)

/-- The product `adj · (dz1 · g7_w)`. -/
theorem dz2_outer (p : Fin 4096) (q : Fin 500) :
    val_main_v72 (F := Ideal) a0 a1 a2 a3 a4 a5 a18 a19 a20 a21 a23 a24 (ix2 p q) = (((A.adj * (A.dz1 * A.g7)) p q : ℝ) : EReal) := by
  rw [val_main_v72_apply]
  exact dot_coe a1 (val_main_v71 (F := Ideal) a0 a1 a2 a3 a4 a5 a18 a19 a20 a21 a23 a24) A.adj (A.dz1 * A.g7) h.adj (dz2_inner h) p q _ _
    (fun _ => by ix_eq2) (fun _ => by ix_eq2)

/-- The seventh convolution `dz2`. -/
theorem dz2 (p : Fin 4096) (q : Fin 500) :
    val_main_v73 (F := Ideal) a0 a1 a2 a3 a4 a5 a18 a19 a20 a21 a23 a24 (ix2 p q) = ((A.dz2 p q : ℝ) : EReal) := by
  rw [val_main_v73_apply, relu14, dz2_outer h]
  exact relu_coe _

/-! ### Eighth convolution -/

/-- The product `dz2 · g8_w`. -/
theorem dz3_inner (p : Fin 4096) (q : Fin 500) :
    val_main_v74 (F := Ideal) a0 a1 a2 a3 a4 a5 a18 a19 a20 a21 a23 a24 a25 (ix2 p q) = (((A.dz2 * A.g8) p q : ℝ) : EReal) := by
  rw [val_main_v74_apply]
  exact dot_coe (val_main_v73 (F := Ideal) a0 a1 a2 a3 a4 a5 a18 a19 a20 a21 a23 a24) a25 A.dz2 A.g8 (dz2 h) h.g8 p q _ _
    (fun _ => by ix_eq2) (fun _ => by ix_eq2)

/-- The product `adj · (dz2 · g8_w)`. -/
theorem dz3_outer (p : Fin 4096) (q : Fin 500) :
    val_main_v75 (F := Ideal) a0 a1 a2 a3 a4 a5 a18 a19 a20 a21 a23 a24 a25 (ix2 p q) = (((A.adj * (A.dz2 * A.g8)) p q : ℝ) : EReal) := by
  rw [val_main_v75_apply]
  exact dot_coe a1 (val_main_v74 (F := Ideal) a0 a1 a2 a3 a4 a5 a18 a19 a20 a21 a23 a24 a25) A.adj (A.dz2 * A.g8) h.adj (dz3_inner h) p q _ _
    (fun _ => by ix_eq2) (fun _ => by ix_eq2)

/-- The eighth convolution `dz3`. -/
theorem dz3 (p : Fin 4096) (q : Fin 500) :
    val_main_v76 (F := Ideal) a0 a1 a2 a3 a4 a5 a18 a19 a20 a21 a23 a24 a25 (ix2 p q) = ((A.dz3 p q : ℝ) : EReal) := by
  rw [val_main_v76_apply, relu15, dz3_outer h]
  exact relu_coe _

/-! ### Ninth convolution -/

/-- The product `dz3 · g9_w`. -/
theorem zhat_inner (p : Fin 4096) (q : Fin 512) :
    val_main_v77 (F := Ideal) a0 a1 a2 a3 a4 a5 a18 a19 a20 a21 a23 a24 a25 a26 (ix2 p q) = (((A.dz3 * A.g9) p q : ℝ) : EReal) := by
  rw [val_main_v77_apply]
  exact dot_coe (val_main_v76 (F := Ideal) a0 a1 a2 a3 a4 a5 a18 a19 a20 a21 a23 a24 a25) a26 A.dz3 A.g9 (dz3 h) h.g9 p q _ _
    (fun _ => by ix_eq2) (fun _ => by ix_eq2)

/-- The product `adj · (dz3 · g9_w)`. -/
theorem zhat_outer (p : Fin 4096) (q : Fin 512) :
    val_main_v78 (F := Ideal) a0 a1 a2 a3 a4 a5 a18 a19 a20 a21 a23 a24 a25 a26 (ix2 p q) = (((A.adj * (A.dz3 * A.g9)) p q : ℝ) : EReal) := by
  rw [val_main_v78_apply]
  exact dot_coe a1 (val_main_v77 (F := Ideal) a0 a1 a2 a3 a4 a5 a18 a19 a20 a21 a23 a24 a25 a26) A.adj (A.dz3 * A.g9) h.adj (zhat_inner h) p q _ _
    (fun _ => by ix_eq2) (fun _ => by ix_eq2)

/-- The ninth convolution `zhat`: the second result of the reference. -/
theorem ref_zhat (p : Fin 4096) (q : Fin 512) :
    val_main_v79 (F := Ideal) a0 a1 a2 a3 a4 a5 a18 a19 a20 a21 a23 a24 a25 a26 (ix2 p q) = ((A.zhat p q : ℝ) : EReal) := by
  rw [val_main_v79_apply, relu16, zhat_outer h]
  exact relu_coe _

end

end Cert.ReferenceIdeal.RefValue

end
-- ==== Proof.RefAdjHat.lean ====
/-
  The reconstructed adjacency, read at an index: the Gram matrix `zhat · zhatᵀ` of the last convolution
  followed by the logistic function, which the program spells as negate, exponential, add one, reciprocal.
-/
import proofs.«140843_g75050258530825_cont_9to1_m_403_24_alg».proof.Proof.RefGraphDec

noncomputable section

namespace Cert.ReferenceIdeal.RefValue

open Cert.ReferenceIdeal Cert.ReferenceIdeal.Gen Cert.ReferenceIdeal.Read Idealize.ShloMosaic Idealize.ShloMosaic.ValueIdx

section
variable
  {a0 : (⟨S4096x512, .f32⟩ : BufTy).Contents (Elt Ideal)}
  {a1 : (⟨S4096x4096, .f32⟩ : BufTy).Contents (Elt Ideal)}
  {a2 : (⟨S512x500, .f32⟩ : BufTy).Contents (Elt Ideal)}
  {a3 : (⟨S500, .f32⟩ : BufTy).Contents (Elt Ideal)}
  {a4 : (⟨S500x500, .f32⟩ : BufTy).Contents (Elt Ideal)}
  {a5 : (⟨S500, .f32⟩ : BufTy).Contents (Elt Ideal)}
  {a6 : (⟨S500x2000, .f32⟩ : BufTy).Contents (Elt Ideal)}
  {a7 : (⟨S2000, .f32⟩ : BufTy).Contents (Elt Ideal)}
  {a8 : (⟨S2000x10, .f32⟩ : BufTy).Contents (Elt Ideal)}
  {a9 : (⟨S10, .f32⟩ : BufTy).Contents (Elt Ideal)}
  {a10 : (⟨S10x2000, .f32⟩ : BufTy).Contents (Elt Ideal)}
  {a11 : (⟨S2000, .f32⟩ : BufTy).Contents (Elt Ideal)}
  {a12 : (⟨S2000x500, .f32⟩ : BufTy).Contents (Elt Ideal)}
  {a13 : (⟨S500, .f32⟩ : BufTy).Contents (Elt Ideal)}
  {a14 : (⟨S500x500, .f32⟩ : BufTy).Contents (Elt Ideal)}
  {a15 : (⟨S500, .f32⟩ : BufTy).Contents (Elt Ideal)}
  {a16 : (⟨S500x512, .f32⟩ : BufTy).Contents (Elt Ideal)}
  {a17 : (⟨S512, .f32⟩ : BufTy).Contents (Elt Ideal)}
  {a18 : (⟨S512x500, .f32⟩ : BufTy).Contents (Elt Ideal)}
  {a19 : (⟨S500x500, .f32⟩ : BufTy).Contents (Elt Ideal)}
  {a20 : (⟨S500x2000, .f32⟩ : BufTy).Contents (Elt Ideal)}
  {a21 : (⟨S2000x10, .f32⟩ : BufTy).Contents (Elt Ideal)}
  {a22 : (⟨S10x10, .f32⟩ : BufTy).Contents (Elt Ideal)}
  {a23 : (⟨S10x2000, .f32⟩ : BufTy).Contents (Elt Ideal)}
  {a24 : (⟨S2000x500, .f32⟩ : BufTy).Contents (Elt Ideal)}
  {a25 : (⟨S500x500, .f32⟩ : BufTy).Contents (Elt Ideal)}
  {a26 : (⟨S500x512, .f32⟩ : BufTy).Contents (Elt Ideal)}
  {a27 : (⟨S10x10, .f32⟩ : BufTy).Contents (Elt Ideal)}
  {A : RealNet.Args} (h : ArgsAre a0 a1 a2 a3 a4 a5 a6 a7 a8 a9 a10 a11 a12 a13 a14 a15 a16 a17 a18 a19 a20 a21 a22 a23 a24 a25 a26 a27 A)
include h

/-- The transposed convolution `zhatᵀ`. -/
theorem zhat_t (k : Fin 512) (q : Fin 4096) :
    val_main_v80 (F := Ideal) a0 a1 a2 a3 a4 a5 a18 a19 a20 a21 a23 a24 a25 a26 (ix2 k q) = ((A.zhat.transpose k q : ℝ) : EReal) := by
  rw [val_main_v80_apply]
  exact mat_coe (val_main_v79 (F := Ideal) a0 a1 a2 a3 a4 a5 a18 a19 a20 a21 a23 a24 a25 a26) A.zhat (ref_zhat h) q k _ (by ix_eq2)

/-- The Gram matrix `zhat · zhatᵀ`. -/
theorem gram (p q : Fin 4096) :
    val_main_v81 (F := Ideal) a0 a1 a2 a3 a4 a5 a18 a19 a20 a21 a23 a24 a25 a26 (ix2 p q) = (((A.zhat * A.zhat.transpose) p q : ℝ) : EReal) := by
  rw [val_main_v81_apply]
  exact dot_coe (val_main_v79 (F := Ideal) a0 a1 a2 a3 a4 a5 a18 a19 a20 a21 a23 a24 a25 a26) (val_main_v80 (F := Ideal) a0 a1 a2 a3 a4 a5 a18 a19 a20 a21 a23 a24 a25 a26) A.zhat A.zhat.transpose
    (ref_zhat h) (zhat_t h) p q _ _ (fun _ => by ix_eq2) (fun _ => by ix_eq2)

/-- The logistic of the Gram matrix, `adjhat`: the third result of the reference. -/
theorem ref_adjhat (p q : Fin 4096) :
    val_main_v87 (F := Ideal) a0 a1 a2 a3 a4 a5 a18 a19 a20 a21 a23 a24 a25 a26 (ix2 p q) = ((A.adjhat p q : ℝ) : EReal) := by
  rw [val_main_v87_apply, val_main_v85_apply, val_main_v83_apply, val_main_v82_apply, one86, one84, gram h]
  exact logistic_coe _

end

end Cert.ReferenceIdeal.RefValue

end
-- ==== Proof.RefLatent.lean ====
/-
  The two stages that combine the graph code `z` with the latent code `r`, read at an index: the fifth
  convolution `ar = relu (adj · ((z + r) · g5_w))` and the propagated code `zl = adj · (z + r)`.
-/
import proofs.«140843_g75050258530825_cont_9to1_m_403_24_alg».proof.Proof.RefGraph

noncomputable section

namespace Cert.ReferenceIdeal.RefValue

open Cert.ReferenceIdeal Cert.ReferenceIdeal.Gen Cert.ReferenceIdeal.Read Idealize.ShloMosaic Idealize.ShloMosaic.ValueIdx

section
variable
  {a0 : (⟨S4096x512, .f32⟩ : BufTy).Contents (Elt Ideal)}
  {a1 : (⟨S4096x4096, .f32⟩ : BufTy).Contents (Elt Ideal)}
  {a2 : (⟨S512x500, .f32⟩ : BufTy).Contents (Elt Ideal)}
  {a3 : (⟨S500, .f32⟩ : BufTy).Contents (Elt Ideal)}
  {a4 : (⟨S500x500, .f32⟩ : BufTy).Contents (Elt Ideal)}
  {a5 : (⟨S500, .f32⟩ : BufTy).Contents (Elt Ideal)}
  {a6 : (⟨S500x2000, .f32⟩ : BufTy).Contents (Elt Ideal)}
  {a7 : (⟨S2000, .f32⟩ : BufTy).Contents (Elt Ideal)}
  {a8 : (⟨S2000x10, .f32⟩ : BufTy).Contents (Elt Ideal)}
  {a9 : (⟨S10, .f32⟩ : BufTy).Contents (Elt Ideal)}
  {a10 : (⟨S10x2000, .f32⟩ : BufTy).Contents (Elt Ideal)}
  {a11 : (⟨S2000, .f32⟩ : BufTy).Contents (Elt Ideal)}
  {a12 : (⟨S2000x500, .f32⟩ : BufTy).Contents (Elt Ideal)}
  {a13 : (⟨S500, .f32⟩ : BufTy).Contents (Elt Ideal)}
  {a14 : (⟨S500x500, .f32⟩ : BufTy).Contents (Elt Ideal)}
  {a15 : (⟨S500, .f32⟩ : BufTy).Contents (Elt Ideal)}
  {a16 : (⟨S500x512, .f32⟩ : BufTy).Contents (Elt Ideal)}
  {a17 : (⟨S512, .f32⟩ : BufTy).Contents (Elt Ideal)}
  {a18 : (⟨S512x500, .f32⟩ : BufTy).Contents (Elt Ideal)}
  {a19 : (⟨S500x500, .f32⟩ : BufTy).Contents (Elt Ideal)}
  {a20 : (⟨S500x2000, .f32⟩ : BufTy).Contents (Elt Ideal)}
  {a21 : (⟨S2000x10, .f32⟩ : BufTy).Contents (Elt Ideal)}
  {a22 : (⟨S10x10, .f32⟩ : BufTy).Contents (Elt Ideal)}
  {a23 : (⟨S10x2000, .f32⟩ : BufTy).Contents (Elt Ideal)}
  {a24 : (⟨S2000x500, .f32⟩ : BufTy).Contents (Elt Ideal)}
  {a25 : (⟨S500x500, .f32⟩ : BufTy).Contents (Elt Ideal)}
  {a26 : (⟨S500x512, .f32⟩ : BufTy).Contents (Elt Ideal)}
  {a27 : (⟨S10x10, .f32⟩ : BufTy).Contents (Elt Ideal)}
  {A : RealNet.Args} (h : ArgsAre a0 a1 a2 a3 a4 a5 a6 a7 a8 a9 a10 a11 a12 a13 a14 a15 a16 a17 a18 a19 a20 a21 a22 a23 a24 a25 a26 a27 A)
include h

/-- The sum `z + r`, as the fifth convolution reads it. -/
theorem ar_in (p : Fin 4096) (q : Fin 10) :
    val_main_v62 (F := Ideal) a0 a1 a2 a3 a4 a5 a6 a7 a8 a9 a18 a19 a20 a21 (ix2 p q) = (((A.z + A.r) p q : ℝ) : EReal) := by
  rw [val_main_v62_apply, ref_z h, ref_r h]
  exact add_coe _ _

/-- The product `(z + r) · g5_w`. -/
theorem ar_inner (p : Fin 4096) (q : Fin 10) :
    val_main_v63 (F := Ideal) a0 a1 a2 a3 a4 a5 a6 a7 a8 a9 a18 a19 a20 a21 a22 (ix2 p q) = ((((A.z + A.r) * A.g5) p q : ℝ) : EReal) := by
  rw [val_main_v63_apply]
  exact dot_coe (val_main_v62 (F := Ideal) a0 a1 a2 a3 a4 a5 a6 a7 a8 a9 a18 a19 a20 a21) a22 (A.z + A.r) A.g5 (ar_in h) h.g5 p q _ _
    (fun _ => by ix_eq2) (fun _ => by ix_eq2)

/-- The product `adj · ((z + r) · g5_w)`. -/
theorem ar_outer (p : Fin 4096) (q : Fin 10) :
    val_main_v64 (F := Ideal) a0 a1 a2 a3 a4 a5 a6 a7 a8 a9 a18 a19 a20 a21 a22 (ix2 p q) = (((A.adj * ((A.z + A.r) * A.g5)) p q : ℝ) : EReal) := by
  rw [val_main_v64_apply]
  exact dot_coe a1 (val_main_v63 (F := Ideal) a0 a1 a2 a3 a4 a5 a6 a7 a8 a9 a18 a19 a20 a21 a22) A.adj ((A.z + A.r) * A.g5) h.adj (ar_inner h) p q _ _
    (fun _ => by ix_eq2) (fun _ => by ix_eq2)

/-- The fifth convolution `ar`: the sixth result of the reference. -/
theorem ref_ar (p : Fin 4096) (q : Fin 10) :
    val_main_v65 (F := Ideal) a0 a1 a2 a3 a4 a5 a6 a7 a8 a9 a18 a19 a20 a21 a22 (ix2 p q) = ((A.ar p q : ℝ) : EReal) := by
  rw [val_main_v65_apply, relu12, ar_outer h]
  exact relu_coe _

/-- The sum `z + r`, as the propagation reads it. -/
theorem zl_in (p : Fin 4096) (q : Fin 10) :
    val_main_v66 (F := Ideal) a0 a1 a2 a3 a4 a5 a6 a7 a8 a9 a18 a19 a20 a21 (ix2 p q) = (((A.z + A.r) p q : ℝ) : EReal) := by
  rw [val_main_v66_apply, ref_z h, ref_r h]
  exact add_coe _ _

/-- The propagated code `zl = adj · (z + r)`: the ninth result of the reference. -/
theorem ref_zl (p : Fin 4096) (q : Fin 10) :
    val_main_v67 (F := Ideal) a0 a1 a2 a3 a4 a5 a6 a7 a8 a9 a18 a19 a20 a21 (ix2 p q) = ((A.zl p q : ℝ) : EReal) := by
  rw [val_main_v67_apply]
  exact dot_coe a1 (val_main_v66 (F := Ideal) a0 a1 a2 a3 a4 a5 a6 a7 a8 a9 a18 a19 a20 a21) A.adj (A.z + A.r) h.adj (zl_in h) p q _ _
    (fun _ => by ix_eq2) (fun _ => by ix_eq2)

end

end Cert.ReferenceIdeal.RefValue

end
-- ==== Proof.RefSoft.lean ====
/-
  The soft assignment on coerced reals.  The Student-t kernel of a row against a centre is positive, so a row's
  kernel values have a nonzero sum and the program's ideal division by that sum is the real quotient.
-/
import proofs.«140843_g75050258530825_cont_9to1_m_403_24_alg».proof.Proof.LibRealNet
import proofs.«140843_g75050258530825_cont_9to1_m_403_24_alg».proof.Proof.RefCoe

noncomputable section

namespace Cert.ReferenceIdeal.RefValue

open Idealize.ShloMosaic
open scoped BigOperators

/-- The kernel is the reciprocal of a number that is at least one, hence positive. -/
theorem tKernel_pos {n d k : ℕ} (h : RealNet.M n d) (c : RealNet.M k d) (i : Fin n) (j : Fin k) :
    0 < RealNet.tKernel h c i j := by
  unfold RealNet.tKernel; positivity

/-- A row's kernel values against ten centres have a positive, hence nonzero, sum. -/
theorem sum_tKernel_ne_zero {n d : ℕ} (h : RealNet.M n d) (c : RealNet.M 10 d) (i : Fin n) :
    ∑ j' : Fin 10, RealNet.tKernel h c i j' ≠ 0 :=
  ne_of_gt (Finset.sum_pos (fun j _ => tKernel_pos h c i j) ⟨0, Finset.mem_univ _⟩)

/-- The kernel as the program spells it, from the coerced squared distance. -/
theorem tKernel_coe {n d k : ℕ} (h : RealNet.M n d) (c : RealNet.M k d) (i : Fin n) (j : Fin k) :
    Ideal.pow (Ideal.div 1 (1 + Ideal.div ((∑ l : Fin d, (h i l - c j l) ^ 2 : ℝ) : EReal) 1)) 1
      = ((RealNet.tKernel h c i j : ℝ) : EReal) :=
  tkernel_coe _ (by positivity)

/-- The normalisation as the program spells it: the ideal division of a coerced kernel value by the coerced
    row sum is the coerced soft assignment. -/
theorem softAssign_coe {n d : ℕ} (h : RealNet.M n d) (c : RealNet.M 10 d) (i : Fin n) (j : Fin 10) :
    Ideal.div ((RealNet.tKernel h c i j : ℝ) : EReal) ((∑ j' : Fin 10, RealNet.tKernel h c i j' : ℝ) : EReal)
      = ((RealNet.softAssign h c i j : ℝ) : EReal) :=
  div_coe_coe _ _ (sum_tKernel_ne_zero h c i)

end Cert.ReferenceIdeal.RefValue

end
-- ==== Proof.RefSoftQ.lean ====
/-
  The soft assignment of the propagated code `zl` to the cluster centres, read at an index.  The program
  repeats the rows of `zl` and the centres against each other, squares the differences, sums over the
  last axis, forms the Student-t kernel, and normalises each row (through two transpositions).
-/
import proofs.«140843_g75050258530825_cont_9to1_m_403_24_alg».proof.Proof.RefLatent
import proofs.«140843_g75050258530825_cont_9to1_m_403_24_alg».proof.Proof.RefSoft

noncomputable section

namespace Cert.ReferenceIdeal.RefValue

open Cert.ReferenceIdeal Cert.ReferenceIdeal.Gen Cert.ReferenceIdeal.Read Idealize.ShloMosaic Idealize.ShloMosaic.ValueIdx

section
variable
  {a0 : (⟨S4096x512, .f32⟩ : BufTy).Contents (Elt Ideal)}
  {a1 : (⟨S4096x4096, .f32⟩ : BufTy).Contents (Elt Ideal)}
  {a2 : (⟨S512x500, .f32⟩ : BufTy).Contents (Elt Ideal)}
  {a3 : (⟨S500, .f32⟩ : BufTy).Contents (Elt Ideal)}
  {a4 : (⟨S500x500, .f32⟩ : BufTy).Contents (Elt Ideal)}
  {a5 : (⟨S500, .f32⟩ : BufTy).Contents (Elt Ideal)}
  {a6 : (⟨S500x2000, .f32⟩ : BufTy).Contents (Elt Ideal)}
  {a7 : (⟨S2000, .f32⟩ : BufTy).Contents (Elt Ideal)}
  {a8 : (⟨S2000x10, .f32⟩ : BufTy).Contents (Elt Ideal)}
  {a9 : (⟨S10, .f32⟩ : BufTy).Contents (Elt Ideal)}
  {a10 : (⟨S10x2000, .f32⟩ : BufTy).Contents (Elt Ideal)}
  {a11 : (⟨S2000, .f32⟩ : BufTy).Contents (Elt Ideal)}
  {a12 : (⟨S2000x500, .f32⟩ : BufTy).Contents (Elt Ideal)}
  {a13 : (⟨S500, .f32⟩ : BufTy).Contents (Elt Ideal)}
  {a14 : (⟨S500x500, .f32⟩ : BufTy).Contents (Elt Ideal)}
  {a15 : (⟨S500, .f32⟩ : BufTy).Contents (Elt Ideal)}
  {a16 : (⟨S500x512, .f32⟩ : BufTy).Contents (Elt Ideal)}
  {a17 : (⟨S512, .f32⟩ : BufTy).Contents (Elt Ideal)}
  {a18 : (⟨S512x500, .f32⟩ : BufTy).Contents (Elt Ideal)}
  {a19 : (⟨S500x500, .f32⟩ : BufTy).Contents (Elt Ideal)}
  {a20 : (⟨S500x2000, .f32⟩ : BufTy).Contents (Elt Ideal)}
  {a21 : (⟨S2000x10, .f32⟩ : BufTy).Contents (Elt Ideal)}
  {a22 : (⟨S10x10, .f32⟩ : BufTy).Contents (Elt Ideal)}
  {a23 : (⟨S10x2000, .f32⟩ : BufTy).Contents (Elt Ideal)}
  {a24 : (⟨S2000x500, .f32⟩ : BufTy).Contents (Elt Ideal)}
  {a25 : (⟨S500x500, .f32⟩ : BufTy).Contents (Elt Ideal)}
  {a26 : (⟨S500x512, .f32⟩ : BufTy).Contents (Elt Ideal)}
  {a27 : (⟨S10x10, .f32⟩ : BufTy).Contents (Elt Ideal)}
  {A : RealNet.Args} (h : ArgsAre a0 a1 a2 a3 a4 a5 a6 a7 a8 a9 a10 a11 a12 a13 a14 a15 a16 a17 a18 a19 a20 a21 a22 a23 a24 a25 a26 a27 A)
include h

/-- The rows of `zl`, repeated against every centre. -/
theorem q_rows (p : Fin 4096) (j l : Fin 10) :
    val_main_v90 (F := Ideal) a0 a1 a2 a3 a4 a5 a6 a7 a8 a9 a18 a19 a20 a21 (ix3 p j l) = ((A.zl p l : ℝ) : EReal) := by
  rw [val_main_v90_apply, val_main_v88_apply]
  exact mat_coe (val_main_v67 (F := Ideal) a0 a1 a2 a3 a4 a5 a6 a7 a8 a9 a18 a19 a20 a21) A.zl (ref_zl h) p l _ (by ix_eq2)

/-- The cluster centres, repeated against every row. -/
theorem q_centres (p : Fin 4096) (j l : Fin 10) :
    val_main_v91 (F := Ideal) a27 (ix3 p j l) = ((A.cluster j l : ℝ) : EReal) := by
  rw [val_main_v91_apply, val_main_v89_apply]
  exact mat_coe a27 A.cluster h.cluster j l _ (by ix_eq2)

/-- The squared distance of row `p` to centre `j`. -/
theorem q_sqdist (p : Fin 4096) (j : Fin 10) :
    val_main_v94 (F := Ideal) a0 a1 a2 a3 a4 a5 a6 a7 a8 a9 a18 a19 a20 a21 a27 (ix2 p j)
      = ((∑ l : Fin 10, (A.zl p l - A.cluster j l) ^ 2 : ℝ) : EReal) := by
  have e : ∀ l : Fin 10, val_main_v93 (F := Ideal) a0 a1 a2 a3 a4 a5 a6 a7 a8 a9 a18 a19 a20 a21 a27 (idx_main_v94 (ix2 p j) l)
      = (((A.zl p l : ℝ) : EReal) - ((A.cluster j l : ℝ) : EReal))
        * (((A.zl p l : ℝ) : EReal) - ((A.cluster j l : ℝ) : EReal)) := by
    intro l
    rw [show idx_main_v94 (ix2 p j) l = ix3 p j l by ix_eq3, val_main_v93_apply, val_main_v92_apply,
      q_rows h, q_centres h]
    rfl
  rw [val_main_v94_apply, zero_cst1, Finset.sum_congr rfl fun l _ => e l]
  exact sqdist_coe (fun l => A.zl p l) (fun l => A.cluster j l)

/-- The Student-t kernel of row `p` against centre `j`. -/
theorem q_kernel (p : Fin 4096) (j : Fin 10) :
    val_main_v102 (F := Ideal) a0 a1 a2 a3 a4 a5 a6 a7 a8 a9 a18 a19 a20 a21 a27 (ix2 p j)
      = ((RealNet.tKernel A.zl A.cluster p j : ℝ) : EReal) := by
  rw [val_main_v102_apply, val_main_v100_apply, val_main_v98_apply, val_main_v96_apply,
    one95, one97, one99, one101, q_sqdist h]
  exact tKernel_coe A.zl A.cluster p j

/-- The sum of row `p`'s kernel values over the centres. -/
theorem q_rowsum (p : Fin 4096) :
    val_main_v104 (F := Ideal) a0 a1 a2 a3 a4 a5 a6 a7 a8 a9 a18 a19 a20 a21 a27 (ix1 p)
      = ((∑ j' : Fin 10, RealNet.tKernel A.zl A.cluster p j' : ℝ) : EReal) := by
  rw [val_main_v104_apply, zero_cst6, zero_add, coe_sum]
  refine Finset.sum_congr rfl fun k _ => ?_
  rw [show idx_main_v104 (ix1 p) k = ix2 p k by ix_eq2]
  exact q_kernel h p k

/-- The soft assignment `q` of `zl`: the fourth result of the reference. -/
theorem ref_q (p : Fin 4096) (j : Fin 10) :
    val_main_v108 (F := Ideal) a0 a1 a2 a3 a4 a5 a6 a7 a8 a9 a18 a19 a20 a21 a27 (ix2 p j) = ((A.q p j : ℝ) : EReal) := by
  rw [val_main_v108_apply, val_main_v107_apply, val_main_v103_apply, val_main_v106_apply,
    val_main_v105_apply,
    show idx_main_v103 (idx_main_v108 (ix2 p j)) = ix2 p j by ix_eq2,
    show idx_main_v105 (idx_main_v106 (idx_main_v108 (ix2 p j))) = ix1 p by ix_eq1,
    q_kernel h, q_rowsum h]
  exact softAssign_coe A.zl A.cluster p j

end

end Cert.ReferenceIdeal.RefValue

end
-- ==== Proof.RefSoftQ1.lean ====
/-
  The soft assignment of the latent code `r` to the cluster centres, read at an index: the same chain of
  stages as for the propagated code, on `r`.
-/
import proofs.«140843_g75050258530825_cont_9to1_m_403_24_alg».proof.Proof.RefEnc
import proofs.«140843_g75050258530825_cont_9to1_m_403_24_alg».proof.Proof.RefSoft

noncomputable section

namespace Cert.ReferenceIdeal.RefValue

open Cert.ReferenceIdeal Cert.ReferenceIdeal.Gen Cert.ReferenceIdeal.Read Idealize.ShloMosaic Idealize.ShloMosaic.ValueIdx

section
variable
  {a0 : (⟨S4096x512, .f32⟩ : BufTy).Contents (Elt Ideal)}
  {a1 : (⟨S4096x4096, .f32⟩ : BufTy).Contents (Elt Ideal)}
  {a2 : (⟨S512x500, .f32⟩ : BufTy).Contents (Elt Ideal)}
  {a3 : (⟨S500, .f32⟩ : BufTy).Contents (Elt Ideal)}
  {a4 : (⟨S500x500, .f32⟩ : BufTy).Contents (Elt Ideal)}
  {a5 : (⟨S500, .f32⟩ : BufTy).Contents (Elt Ideal)}
  {a6 : (⟨S500x2000, .f32⟩ : BufTy).Contents (Elt Ideal)}
  {a7 : (⟨S2000, .f32⟩ : BufTy).Contents (Elt Ideal)}
  {a8 : (⟨S2000x10, .f32⟩ : BufTy).Contents (Elt Ideal)}
  {a9 : (⟨S10, .f32⟩ : BufTy).Contents (Elt Ideal)}
  {a10 : (⟨S10x2000, .f32⟩ : BufTy).Contents (Elt Ideal)}
  {a11 : (⟨S2000, .f32⟩ : BufTy).Contents (Elt Ideal)}
  {a12 : (⟨S2000x500, .f32⟩ : BufTy).Contents (Elt Ideal)}
  {a13 : (⟨S500, .f32⟩ : BufTy).Contents (Elt Ideal)}
  {a14 : (⟨S500x500, .f32⟩ : BufTy).Contents (Elt Ideal)}
  {a15 : (⟨S500, .f32⟩ : BufTy).Contents (Elt Ideal)}
  {a16 : (⟨S500x512, .f32⟩ : BufTy).Contents (Elt Ideal)}
  {a17 : (⟨S512, .f32⟩ : BufTy).Contents (Elt Ideal)}
  {a18 : (⟨S512x500, .f32⟩ : BufTy).Contents (Elt Ideal)}
  {a19 : (⟨S500x500, .f32⟩ : BufTy).Contents (Elt Ideal)}
  {a20 : (⟨S500x2000, .f32⟩ : BufTy).Contents (Elt Ideal)}
  {a21 : (⟨S2000x10, .f32⟩ : BufTy).Contents (Elt Ideal)}
  {a22 : (⟨S10x10, .f32⟩ : BufTy).Contents (Elt Ideal)}
  {a23 : (⟨S10x2000, .f32⟩ : BufTy).Contents (Elt Ideal)}
  {a24 : (⟨S2000x500, .f32⟩ : BufTy).Contents (Elt Ideal)}
  {a25 : (⟨S500x500, .f32⟩ : BufTy).Contents (Elt Ideal)}
  {a26 : (⟨S500x512, .f32⟩ : BufTy).Contents (Elt Ideal)}
  {a27 : (⟨S10x10, .f32⟩ : BufTy).Contents (Elt Ideal)}
  {A : RealNet.Args} (h : ArgsAre a0 a1 a2 a3 a4 a5 a6 a7 a8 a9 a10 a11 a12 a13 a14 a15 a16 a17 a18 a19 a20 a21 a22 a23 a24 a25 a26 a27 A)
include h

/-- The rows of `r`, repeated against every centre. -/
theorem q1_rows (p : Fin 4096) (j l : Fin 10) :
    val_main_v111 (F := Ideal) a0 a2 a3 a4 a5 a6 a7 a8 a9 (ix3 p j l) = ((A.r p l : ℝ) : EReal) := by
  rw [val_main_v111_apply, val_main_v109_apply]
  exact mat_coe (val_main_v18 (F := Ideal) a0 a2 a3 a4 a5 a6 a7 a8 a9) A.r (ref_r h) p l _ (by ix_eq2)

/-- The cluster centres, repeated against every row. -/
theorem q1_centres (p : Fin 4096) (j l : Fin 10) :
    val_main_v112 (F := Ideal) a27 (ix3 p j l) = ((A.cluster j l : ℝ) : EReal) := by
  rw [val_main_v112_apply, val_main_v110_apply]
  exact mat_coe a27 A.cluster h.cluster j l _ (by ix_eq2)

/-- The squared distance of row `p` to centre `j`. -/
theorem q1_sqdist (p : Fin 4096) (j : Fin 10) :
    val_main_v115 (F := Ideal) a0 a2 a3 a4 a5 a6 a7 a8 a9 a27 (ix2 p j)
      = ((∑ l : Fin 10, (A.r p l - A.cluster j l) ^ 2 : ℝ) : EReal) := by
  have e : ∀ l : Fin 10, val_main_v114 (F := Ideal) a0 a2 a3 a4 a5 a6 a7 a8 a9 a27 (idx_main_v115 (ix2 p j) l)
      = (((A.r p l : ℝ) : EReal) - ((A.cluster j l : ℝ) : EReal))
        * (((A.r p l : ℝ) : EReal) - ((A.cluster j l : ℝ) : EReal)) := by
    intro l
    rw [show idx_main_v115 (ix2 p j) l = ix3 p j l by ix_eq3, val_main_v114_apply, val_main_v113_apply,
      q1_rows h, q1_centres h]
    rfl
  rw [val_main_v115_apply, zero_cst7, Finset.sum_congr rfl fun l _ => e l]
  exact sqdist_coe (fun l => A.r p l) (fun l => A.cluster j l)

/-- The Student-t kernel of row `p` against centre `j`. -/
theorem q1_kernel (p : Fin 4096) (j : Fin 10) :
    val_main_v123 (F := Ideal) a0 a2 a3 a4 a5 a6 a7 a8 a9 a27 (ix2 p j)
      = ((RealNet.tKernel A.r A.cluster p j : ℝ) : EReal) := by
  rw [val_main_v123_apply, val_main_v121_apply, val_main_v119_apply, val_main_v117_apply,
    one116, one118, one120, one122, q1_sqdist h]
  exact tKernel_coe A.r A.cluster p j

/-- The sum of row `p`'s kernel values over the centres. -/
theorem q1_rowsum (p : Fin 4096) :
    val_main_v125 (F := Ideal) a0 a2 a3 a4 a5 a6 a7 a8 a9 a27 (ix1 p)
      = ((∑ j' : Fin 10, RealNet.tKernel A.r A.cluster p j' : ℝ) : EReal) := by
  rw [val_main_v125_apply, zero_cst12, zero_add, coe_sum]
  refine Finset.sum_congr rfl fun k _ => ?_
  rw [show idx_main_v125 (ix1 p) k = ix2 p k by ix_eq2]
  exact q1_kernel h p k

/-- The soft assignment `q1` of `r`: the fifth result of the reference. -/
theorem ref_q1 (p : Fin 4096) (j : Fin 10) :
    val_main_v129 (F := Ideal) a0 a2 a3 a4 a5 a6 a7 a8 a9 a27 (ix2 p j) = ((A.q1 p j : ℝ) : EReal) := by
  rw [val_main_v129_apply, val_main_v128_apply, val_main_v124_apply, val_main_v127_apply,
    val_main_v126_apply,
    show idx_main_v124 (idx_main_v129 (ix2 p j)) = ix2 p j by ix_eq2,
    show idx_main_v126 (idx_main_v127 (idx_main_v129 (ix2 p j))) = ix1 p by ix_eq1,
    q1_kernel h, q1_rowsum h]
  exact softAssign_coe A.r A.cluster p j

end

end Cert.ReferenceIdeal.RefValue

end
-- ==== Proof.RefResults.lean ====
/-
  The reference program read at an index: under finite arguments (each argument array the coercion of a
  real matrix or vector, `ArgsAre`), each of its nine results is the entrywise coercion of the real forward
  pass `RealNet.Args`:

    ref_xbar    the reconstruction                       (first result)
    ref_zhat    the last graph convolution                (second)
    ref_adjhat  the logistic of the Gram matrix of zhat   (third)
    ref_q       the soft assignment of zl                 (fourth)
    ref_q1      the soft assignment of r                  (fifth)
    ref_ar      the fifth graph convolution               (sixth)
    ref_z       the fourth graph convolution              (seventh)
    ref_r       the latent code                           (eighth)
    ref_zl      the propagated code adj · (z + r)         (ninth)

  This module only gathers the modules that prove them.
-/
import proofs.«140843_g75050258530825_cont_9to1_m_403_24_alg».proof.Proof.RefDec
import proofs.«140843_g75050258530825_cont_9to1_m_403_24_alg».proof.Proof.RefAdjHat
import proofs.«140843_g75050258530825_cont_9to1_m_403_24_alg».proof.Proof.RefSoftQ
import proofs.«140843_g75050258530825_cont_9to1_m_403_24_alg».proof.Proof.RefSoftQ1
-- ==== Proof.RefRun.lean ====
/-
  The run of the reference program, with its nine results read over the reals.

  Every weakly fair execution of the reference terminates with the argument buffers unchanged and each result
  buffer at the composed term of the arguments.  When the argument buffers of a device are the coercions of a
  real network's matrices and vectors, each result, entry by entry, is then the coercion of the real forward
  pass: the reconstruction, the last graph convolution, the logistic of its Gram matrix, the two soft
  assignments, the fifth and fourth graph convolutions, the latent code and the propagated code.
-/
import proofs.«140843_g75050258530825_cont_9to1_m_403_24_alg».proof.Proof.RefResults
import proofs.«140843_g75050258530825_cont_9to1_m_403_24_alg».proof.Proof.Gen.ReferenceIdeal.Run
import proofs.«140843_g75050258530825_cont_9to1_m_403_24_alg».proof.Proof.Gen.ReferenceIdeal.Read

set_option maxRecDepth 16384

noncomputable section

namespace Cert.ReferenceIdeal.RefValue

open Cert.ReferenceIdeal Cert.ReferenceIdeal.Gen Idealize.ShloMosaic Idealize.ShloMosaic.TcCoe
  Idealize.ShloMosaic.ValueIdx Idealize.SL.Sem

/-- The reference's run over the reals: with each device's argument buffers the coercions of a real network
    `A c`, every execution ends with the nine results entrywise the coercions of that network's forward pass
    and the arguments unchanged. -/
theorem ref_run (m' : (ℓ : Loc nD τ sig) → Buf (Elt Ideal) ℓ) (ρ' : Dev nD → PrngReg)
    (A : Dev nD → RealNet.Args)
    (hA : ∀ c : Dev nD, ArgsAre
      (m' ((c.tc : Thread nD τ).loc main_arg0)) (m' ((c.tc : Thread nD τ).loc main_arg1))
      (m' ((c.tc : Thread nD τ).loc main_arg2)) (m' ((c.tc : Thread nD τ).loc main_arg3))
      (m' ((c.tc : Thread nD τ).loc main_arg4)) (m' ((c.tc : Thread nD τ).loc main_arg5))
      (m' ((c.tc : Thread nD τ).loc main_arg6)) (m' ((c.tc : Thread nD τ).loc main_arg7))
      (m' ((c.tc : Thread nD τ).loc main_arg8)) (m' ((c.tc : Thread nD τ).loc main_arg9))
      (m' ((c.tc : Thread nD τ).loc main_arg10)) (m' ((c.tc : Thread nD τ).loc main_arg11))
      (m' ((c.tc : Thread nD τ).loc main_arg12)) (m' ((c.tc : Thread nD τ).loc main_arg13))
      (m' ((c.tc : Thread nD τ).loc main_arg14)) (m' ((c.tc : Thread nD τ).loc main_arg15))
      (m' ((c.tc : Thread nD τ).loc main_arg16)) (m' ((c.tc : Thread nD τ).loc main_arg17))
      (m' ((c.tc : Thread nD τ).loc main_arg18)) (m' ((c.tc : Thread nD τ).loc main_arg19))
      (m' ((c.tc : Thread nD τ).loc main_arg20)) (m' ((c.tc : Thread nD τ).loc main_arg21))
      (m' ((c.tc : Thread nD τ).loc main_arg22)) (m' ((c.tc : Thread nD τ).loc main_arg23))
      (m' ((c.tc : Thread nD τ).loc main_arg24)) (m' ((c.tc : Thread nD τ).loc main_arg25))
      (m' ((c.tc : Thread nD τ).loc main_arg26)) (m' ((c.tc : Thread nD τ).loc main_arg27)) (A c)) :
    θ_run (defs (F := Ideal)) (onTc (τ := τ) (main (F := Ideal))) ⟨m', fun _ => 0, ρ'⟩ fun r => ∀ c : Dev nD,
      (∀ (p : Fin 4096) (q : Fin 512),
        r.2.mem ((c.tc : Thread nD τ).loc main_v37) (ix2 p q) = (((A c).xbar p q : ℝ) : EReal))
      ∧ (∀ (p : Fin 4096) (q : Fin 512),
        r.2.mem ((c.tc : Thread nD τ).loc main_v79) (ix2 p q) = (((A c).zhat p q : ℝ) : EReal))
      ∧ (∀ (p q : Fin 4096),
        r.2.mem ((c.tc : Thread nD τ).loc main_v87) (ix2 p q) = (((A c).adjhat p q : ℝ) : EReal))
      ∧ (∀ (p : Fin 4096) (q : Fin 10),
        r.2.mem ((c.tc : Thread nD τ).loc main_v108) (ix2 p q) = (((A c).q p q : ℝ) : EReal))
      ∧ (∀ (p : Fin 4096) (q : Fin 10),
        r.2.mem ((c.tc : Thread nD τ).loc main_v129) (ix2 p q) = (((A c).q1 p q : ℝ) : EReal))
      ∧ (∀ (p : Fin 4096) (q : Fin 10),
        r.2.mem ((c.tc : Thread nD τ).loc main_v65) (ix2 p q) = (((A c).ar p q : ℝ) : EReal))
      ∧ (∀ (p : Fin 4096) (q : Fin 10),
        r.2.mem ((c.tc : Thread nD τ).loc main_v61) (ix2 p q) = (((A c).z p q : ℝ) : EReal))
      ∧ (∀ (p : Fin 4096) (q : Fin 10),
        r.2.mem ((c.tc : Thread nD τ).loc main_v18) (ix2 p q) = (((A c).r p q : ℝ) : EReal))
      ∧ (∀ (p : Fin 4096) (q : Fin 10),
        r.2.mem ((c.tc : Thread nD τ).loc main_v67) (ix2 p q) = (((A c).zl p q : ℝ) : EReal))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)
      ∧ r.2.mem ((c.tc : Thread nD τ).loc main_arg26) = m' ((c.tc : Thread nD τ).loc main_arg26)
      ∧ r.2.mem ((c.tc : Thread nD τ).loc main_arg27) = m' ((c.tc : Thread nD τ).loc main_arg27) := by
  refine (θ_run (defs (F := Ideal)) _ _).mono (fun r h c => ?_) (Cert.ReferenceIdeal.Value.run (F := Ideal) m' ρ')
  obtain ⟨h37, h79, h87, h108, h129, h65, h61, h18, h67, hargs⟩ := h c
  refine ⟨fun p q => ?_, fun p q => ?_, fun p q => ?_, fun p q => ?_, fun p q => ?_, fun p q => ?_,
    fun p q => ?_, fun p q => ?_, fun p q => ?_, hargs⟩
  · rw [h37, Read.val_main_v37_eq]; exact ref_xbar (hA c) p q
  · rw [h79, Read.val_main_v79_eq]; exact ref_zhat (hA c) p q
  · rw [h87, Read.val_main_v87_eq]; exact ref_adjhat (hA c) p q
  · rw [h108, Read.val_main_v108_eq]; exact ref_q (hA c) p q
  · rw [h129, Read.val_main_v129_eq]; exact ref_q1 (hA c) p q
  · rw [h65, Read.val_main_v65_eq]; exact ref_ar (hA c) p q
  · rw [h61, Read.val_main_v61_eq]; exact ref_z (hA c) p q
  · rw [h18, Read.val_main_v18_eq]; exact ref_r (hA c) p q
  · rw [h67, Read.val_main_v67_eq]; exact ref_zl (hA c) p q

end Cert.ReferenceIdeal.RefValue

end
-- ==== Proof.FiniteArgs.lean ====
/-
  Finite arguments are coercions of reals.

  The precondition of the two programs says, of each of the twenty-eight argument arrays, that the absolute
  value of every entry compares below plus infinity, and takes the conjunction of all of it.  At the exact
  instance an entry with that property is neither infinity, hence the coercion of a real number.  So under the
  precondition there is a real network `RealNet.Args` whose matrices and vectors the argument arrays are,
  entry by entry.
-/
import proofs.«140843_g75050258530825_cont_9to1_m_403_24_alg».proof.Defs
import proofs.«140843_g75050258530825_cont_9to1_m_403_24_alg».proof.Proof.RefArgs
import proofs.«140843_g75050258530825_cont_9to1_m_403_24_alg».proof.Proof.LibRealLift
import Idealize.ShloMosaic.Lib.ReduceAll
import Idealize.ShloMosaic.Lib.ValueIdx
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.ValueIdx Idealize.SL.Sem

/-! ## One entry, one array -/

/-- The f32 pattern with all exponent bits set and no fraction bit is plus infinity. -/
theorem ofBits_inf_f32 : Ideal.ofBits .f32 0x7F800000#32 = ⊤ := by
  simp [Ideal.ofBits, Ideal.ieee]

/-- An extended real whose absolute value compares below plus infinity is neither infinity. -/
theorem finite_of_abs_lt_inf (x : EReal)
    (h : Ideal.cmp .olt (max x (-x)) (Ideal.ofBits .f32 0x7F800000#32) = 1#1) : x ≠ ⊤ ∧ x ≠ ⊥ := by
  rw [ofBits_inf_f32] at h
  have hlt : max x (-x) < ⊤ := by
    by_contra hn
    simp [Ideal.cmp, hn] at h
  constructor
  · rintro rfl; simp at hlt
  · rintro rfl; simp at hlt

/-- The index set of a scalar has one element. -/
instance subsingleton_scalar_idx : Subsingleton (⟨0, ![]⟩ : Shape).Idx := ⟨fun a b => funext fun d => d.elim0⟩

/-- The printed test of one argument array: if the conjunction over all entries of "the absolute value is
    below plus infinity" is one, no entry is an infinity. -/
theorem finite_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (h : Host.reduce IntOp.andi
        (cmpf .olt (Host.absf x) (broadcastInDim s ![] hb (constant (F := Ideal) (⟨0, ![]⟩ : Shape) .f32 0x7F800000#32)))
        (constantI (⟨0, ![]⟩ : Shape) 1 1#1) hr h0 ix0 = 1#1)
    (i : s.Idx) : x i ≠ ⊤ ∧ x i ≠ ⊥ :=
  finite_of_abs_lt_inf (x i) (Host.reduce_andi_all _ _ hr h0 ix0 h i)

/-! ## The twenty-eight arrays -/

section
variable [Cert.Pre_finite_inputs.Facts]

/-- Under the precondition, the argument arrays are entrywise the coercions of a real network's matrices and
    vectors. -/
theorem argsAre_of_finite
    (a0 : (⟨S4096x512, .f32⟩ : BufTy).Contents (Elt Ideal))
    (a1 : (⟨S4096x4096, .f32⟩ : BufTy).Contents (Elt Ideal))
    (a2 : (⟨S512x500, .f32⟩ : BufTy).Contents (Elt Ideal))
    (a3 : (⟨S500, .f32⟩ : BufTy).Contents (Elt Ideal))
    (a4 : (⟨S500x500, .f32⟩ : BufTy).Contents (Elt Ideal))
    (a5 : (⟨S500, .f32⟩ : BufTy).Contents (Elt Ideal))
    (a6 : (⟨S500x2000, .f32⟩ : BufTy).Contents (Elt Ideal))
    (a7 : (⟨S2000, .f32⟩ : BufTy).Contents (Elt Ideal))
    (a8 : (⟨S2000x10, .f32⟩ : BufTy).Contents (Elt Ideal))
    (a9 : (⟨S10, .f32⟩ : BufTy).Contents (Elt Ideal))
    (a10 : (⟨S10x2000, .f32⟩ : BufTy).Contents (Elt Ideal))
    (a11 : (⟨S2000, .f32⟩ : BufTy).Contents (Elt Ideal))
    (a12 : (⟨S2000x500, .f32⟩ : BufTy).Contents (Elt Ideal))
    (a13 : (⟨S500, .f32⟩ : BufTy).Contents (Elt Ideal))
    (a14 : (⟨S500x500, .f32⟩ : BufTy).Contents (Elt Ideal))
    (a15 : (⟨S500, .f32⟩ : BufTy).Contents (Elt Ideal))
    (a16 : (⟨S500x512, .f32⟩ : BufTy).Contents (Elt Ideal))
    (a17 : (⟨S512, .f32⟩ : BufTy).Contents (Elt Ideal))
    (a18 : (⟨S512x500, .f32⟩ : BufTy).Contents (Elt Ideal))
    (a19 : (⟨S500x500, .f32⟩ : BufTy).Contents (Elt Ideal))
    (a20 : (⟨S500x2000, .f32⟩ : BufTy).Contents (Elt Ideal))
    (a21 : (⟨S2000x10, .f32⟩ : BufTy).Contents (Elt Ideal))
    (a22 : (⟨S10x10, .f32⟩ : BufTy).Contents (Elt Ideal))
    (a23 : (⟨S10x2000, .f32⟩ : BufTy).Contents (Elt Ideal))
    (a24 : (⟨S2000x500, .f32⟩ : BufTy).Contents (Elt Ideal))
    (a25 : (⟨S500x500, .f32⟩ : BufTy).Contents (Elt Ideal))
    (a26 : (⟨S500x512, .f32⟩ : BufTy).Contents (Elt Ideal))
    (a27 : (⟨S10x10, .f32⟩ : BufTy).Contents (Elt Ideal))
    (h : Cert.Pre_finite_inputs.fn (F := Ideal) a0 a1 a2 a3 a4 a5 a6 a7 a8 a9 a10 a11 a12 a13 a14 a15 a16 a17 a18
      a19 a20 a21 a22 a23 a24 a25 a26 a27 = (fun _ => 1#1)) :
    ∃ A : RealNet.Args, ArgsAre a0 a1 a2 a3 a4 a5 a6 a7 a8 a9 a10 a11 a12 a13 a14 a15 a16 a17 a18 a19 a20 a21 a22
      a23 a24 a25 a26 a27 A := by
  have h := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at h
  -- the conjunction of the twenty-eight tests, taken apart from the last to the first
  obtain ⟨h, h27⟩ := IntOp.andi_eq_one.1 h
  obtain ⟨h, h26⟩ := IntOp.andi_eq_one.1 h
  obtain ⟨h, h25⟩ := IntOp.andi_eq_one.1 h
  obtain ⟨h, h24⟩ := IntOp.andi_eq_one.1 h
  obtain ⟨h, h23⟩ := IntOp.andi_eq_one.1 h
  obtain ⟨h, h22⟩ := IntOp.andi_eq_one.1 h
  obtain ⟨h, h21⟩ := IntOp.andi_eq_one.1 h
  obtain ⟨h, h20⟩ := IntOp.andi_eq_one.1 h
  obtain ⟨h, h19⟩ := IntOp.andi_eq_one.1 h
  obtain ⟨h, h18⟩ := IntOp.andi_eq_one.1 h
  obtain ⟨h, h17⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  -- each array without an infinity is a coerced real matrix or vector
  obtain ⟨X0, e0⟩ := RealNet.exists_coeM_of_finite (fun p q => a0 (ix2 p q))
    (fun p q => finite_of_all a0 _ _ _ h0 (ix2 p q))
  obtain ⟨X1, e1⟩ := RealNet.exists_coeM_of_finite (fun p q => a1 (ix2 p q))
    (fun p q => finite_of_all a1 _ _ _ h1 (ix2 p q))
  obtain ⟨X2, e2⟩ := RealNet.exists_coeM_of_finite (fun p q => a2 (ix2 p q))
    (fun p q => finite_of_all a2 _ _ _ h2 (ix2 p q))
  obtain ⟨X3, e3⟩ := RealNet.exists_coeV_of_finite (fun p => a3 (ix1 p))
    (fun p => finite_of_all a3 _ _ _ h3 (ix1 p))
  obtain ⟨X4, e4⟩ := RealNet.exists_coeM_of_finite (fun p q => a4 (ix2 p q))
    (fun p q => finite_of_all a4 _ _ _ h4 (ix2 p q))
  obtain ⟨X5, e5⟩ := RealNet.exists_coeV_of_finite (fun p => a5 (ix1 p))
    (fun p => finite_of_all a5 _ _ _ h5 (ix1 p))
  obtain ⟨X6, e6⟩ := RealNet.exists_coeM_of_finite (fun p q => a6 (ix2 p q))
    (fun p q => finite_of_all a6 _ _ _ h6 (ix2 p q))
  obtain ⟨X7, e7⟩ := RealNet.exists_coeV_of_finite (fun p => a7 (ix1 p))
    (fun p => finite_of_all a7 _ _ _ h7 (ix1 p))
  obtain ⟨X8, e8⟩ := RealNet.exists_coeM_of_finite (fun p q => a8 (ix2 p q))
    (fun p q => finite_of_all a8 _ _ _ h8 (ix2 p q))
  obtain ⟨X9, e9⟩ := RealNet.exists_coeV_of_finite (fun p => a9 (ix1 p))
    (fun p => finite_of_all a9 _ _ _ h9 (ix1 p))
  obtain ⟨X10, e10⟩ := RealNet.exists_coeM_of_finite (fun p q => a10 (ix2 p q))
    (fun p q => finite_of_all a10 _ _ _ h10 (ix2 p q))
  obtain ⟨X11, e11⟩ := RealNet.exists_coeV_of_finite (fun p => a11 (ix1 p))
    (fun p => finite_of_all a11 _ _ _ h11 (ix1 p))
  obtain ⟨X12, e12⟩ := RealNet.exists_coeM_of_finite (fun p q => a12 (ix2 p q))
    (fun p q => finite_of_all a12 _ _ _ h12 (ix2 p q))
  obtain ⟨X13, e13⟩ := RealNet.exists_coeV_of_finite (fun p => a13 (ix1 p))
    (fun p => finite_of_all a13 _ _ _ h13 (ix1 p))
  obtain ⟨X14, e14⟩ := RealNet.exists_coeM_of_finite (fun p q => a14 (ix2 p q))
    (fun p q => finite_of_all a14 _ _ _ h14 (ix2 p q))
  obtain ⟨X15, e15⟩ := RealNet.exists_coeV_of_finite (fun p => a15 (ix1 p))
    (fun p => finite_of_all a15 _ _ _ h15 (ix1 p))
  obtain ⟨X16, e16⟩ := RealNet.exists_coeM_of_finite (fun p q => a16 (ix2 p q))
    (fun p q => finite_of_all a16 _ _ _ h16 (ix2 p q))
  obtain ⟨X17, e17⟩ := RealNet.exists_coeV_of_finite (fun p => a17 (ix1 p))
    (fun p => finite_of_all a17 _ _ _ h17 (ix1 p))
  obtain ⟨X18, e18⟩ := RealNet.exists_coeM_of_finite (fun p q => a18 (ix2 p q))
    (fun p q => finite_of_all a18 _ _ _ h18 (ix2 p q))
  obtain ⟨X19, e19⟩ := RealNet.exists_coeM_of_finite (fun p q => a19 (ix2 p q))
    (fun p q => finite_of_all a19 _ _ _ h19 (ix2 p q))
  obtain ⟨X20, e20⟩ := RealNet.exists_coeM_of_finite (fun p q => a20 (ix2 p q))
    (fun p q => finite_of_all a20 _ _ _ h20 (ix2 p q))
  obtain ⟨X21, e21⟩ := RealNet.exists_coeM_of_finite (fun p q => a21 (ix2 p q))
    (fun p q => finite_of_all a21 _ _ _ h21 (ix2 p q))
  obtain ⟨X22, e22⟩ := RealNet.exists_coeM_of_finite (fun p q => a22 (ix2 p q))
    (fun p q => finite_of_all a22 _ _ _ h22 (ix2 p q))
  obtain ⟨X23, e23⟩ := RealNet.exists_coeM_of_finite (fun p q => a23 (ix2 p q))
    (fun p q => finite_of_all a23 _ _ _ h23 (ix2 p q))
  obtain ⟨X24, e24⟩ := RealNet.exists_coeM_of_finite (fun p q => a24 (ix2 p q))
    (fun p q => finite_of_all a24 _ _ _ h24 (ix2 p q))
  obtain ⟨X25, e25⟩ := RealNet.exists_coeM_of_finite (fun p q => a25 (ix2 p q))
    (fun p q => finite_of_all a25 _ _ _ h25 (ix2 p q))
  obtain ⟨X26, e26⟩ := RealNet.exists_coeM_of_finite (fun p q => a26 (ix2 p q))
    (fun p q => finite_of_all a26 _ _ _ h26 (ix2 p q))
  obtain ⟨X27, e27⟩ := RealNet.exists_coeM_of_finite (fun p q => a27 (ix2 p q))
    (fun p q => finite_of_all a27 _ _ _ h27 (ix2 p q))
  refine ⟨{
    x := X0
    adj := X1
    e1w := X2
    e1b := X3
    e2w := X4
    e2b := X5
    e3w := X6
    e3b := X7
    zlw := X8
    zlb := X9
    d1w := X10
    d1b := X11
    d2w := X12
    d2b := X13
    d3w := X14
    d3b := X15
    xbw := X16
    xbb := X17
    g1 := X18
    g2 := X19
    g3 := X20
    g4 := X21
    g5 := X22
    g6 := X23
    g7 := X24
    g8 := X25
    g9 := X26
    cluster := X27 }, ?_⟩
  exact {
    x := fun p q => congrFun (congrFun e0 p) q
    adj := fun p q => congrFun (congrFun e1 p) q
    e1w := fun p q => congrFun (congrFun e2 p) q
    e1b := fun p => congrFun e3 p
    e2w := fun p q => congrFun (congrFun e4 p) q
    e2b := fun p => congrFun e5 p
    e3w := fun p q => congrFun (congrFun e6 p) q
    e3b := fun p => congrFun e7 p
    zlw := fun p q => congrFun (congrFun e8 p) q
    zlb := fun p => congrFun e9 p
    d1w := fun p q => congrFun (congrFun e10 p) q
    d1b := fun p => congrFun e11 p
    d2w := fun p q => congrFun (congrFun e12 p) q
    d2b := fun p => congrFun e13 p
    d3w := fun p q => congrFun (congrFun e14 p) q
    d3b := fun p => congrFun e15 p
    xbw := fun p q => congrFun (congrFun e16 p) q
    xbb := fun p => congrFun e17 p
    g1 := fun p q => congrFun (congrFun e18 p) q
    g2 := fun p q => congrFun (congrFun e19 p) q
    g3 := fun p q => congrFun (congrFun e20 p) q
    g4 := fun p q => congrFun (congrFun e21 p) q
    g5 := fun p q => congrFun (congrFun e22 p) q
    g6 := fun p q => congrFun (congrFun e23 p) q
    g7 := fun p q => congrFun (congrFun e24 p) q
    g8 := fun p q => congrFun (congrFun e25 p) q
    g9 := fun p q => congrFun (congrFun e26 p) q
    cluster := fun p q => congrFun (congrFun e27 p) q }

/-- The same for an initial memory of the idealized kernel of which the precondition holds, on each device:
    the twenty-eight argument buffers of the TensorCore are a real network's matrices and vectors. -/
theorem argsAre_of_pre
    (m : (ℓ : Loc Cert.KernelIdeal.nD Cert.KernelIdeal.τ Cert.KernelIdeal.sig) → Buf (Elt Ideal) ℓ)
    (hm : Cert.Pre_KernelIdeal m) (c : Dev Cert.KernelIdeal.nD) :
    ∃ A : RealNet.Args, ArgsAre
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27)) A :=
  argsAre_of_finite _ _ _ _ _ _ _ _ _ _ _ _ _ _ _ _ _ _ _ _ _ _ _ _ _ _ _ _ (hm c)

end

end Cert.ReferenceIdeal.RefValue

end
-- ==== Proof.lean ====
/-
  A dense graph autoencoder, computed two ways.  The kernel program runs ten pipelined regions: the autoencoder on
  row blocks, eight sweeps of the adjacency matrix whose weights are applied after the sweep (so that each sweep runs
  at the narrower width), and the Gram matrix passed through the logistic in its hyperbolic-tangent form.  The
  reference is the plain composition: every graph convolution is relu (adj (H W)).  At the exact instance, under
  finite inputs, every array in either program is the coercion of a real matrix, and over the reals the two agree:
  a triple product re-associates, adj (z + r) distributes, the squared distance to a centre expands, a first power is
  the identity, and 1 / (1 + e^(-x)) = (1 + tanh (x / 2)) / 2.

  The frames: each region's body is run by the symbolic executor once, at a symbolic grid point, on its staging
  buffers; the regions and the host stretches between them are chained through the contents of every unscoped
  buffer at the sixteen boundaries; no item writes an argument.  The same text serves the word-level program.
-/
import proofs.«140843_g75050258530825_cont_9to1_m_403_24_alg».proof.Defs
import proofs.«140843_g75050258530825_cont_9to1_m_403_24_alg».proof.Proof.Gen.Kernel
import proofs.«140843_g75050258530825_cont_9to1_m_403_24_alg».proof.Proof.Gen.KernelIdeal
import proofs.«140843_g75050258530825_cont_9to1_m_403_24_alg».proof.Proof.Gen.ReferenceIdeal
import proofs.«140843_g75050258530825_cont_9to1_m_403_24_alg».proof.Proof.Gen.Pre_finite_inputs
import proofs.«140843_g75050258530825_cont_9to1_m_403_24_alg».proof.Proof.Gen.ReferenceIdeal.Run
import proofs.«140843_g75050258530825_cont_9to1_m_403_24_alg».proof.Proof.Gen.ReferenceIdeal.Read
import proofs.«140843_g75050258530825_cont_9to1_m_403_24_alg».proof.Proof.KernelFrame
import proofs.«140843_g75050258530825_cont_9to1_m_403_24_alg».proof.Proof.KernelIdealFrame
import proofs.«140843_g75050258530825_cont_9to1_m_403_24_alg».proof.Proof.KernelIdealResults
import proofs.«140843_g75050258530825_cont_9to1_m_403_24_alg».proof.Proof.RefRun
import proofs.«140843_g75050258530825_cont_9to1_m_403_24_alg».proof.Proof.FiniteArgs
import Idealize.ShloMosaic.Adequacy
import Idealize.ShloMosaic.Init

noncomputable section

namespace Cert.Proof

open Idealize.ShloMosaic Idealize.ShloMosaic.TcCoe Idealize.ShloMosaic.ValueIdx Idealize.SL.Sem
open Cert.ReferenceIdeal.RefValue (ArgsAre argsAre_of_pre ref_run)
open Cert.KernelIdeal.Hand (W16 run_all args_kept mem_uc)
open Cert.KernelIdeal.HandValue (kernel_results)

/-- The word-level program runs, faults nowhere and leaves its arguments as launched. -/
theorem frame_p : Cert.frame_Kernel := fun m ρ _ => Cert.Kernel.Hand.run_frame m ρ

/-- So does the idealized program. -/
theorem frame_pi : Cert.frame_KernelIdeal := fun m ρ _ => Cert.KernelIdeal.Hand.run_frame m ρ

/-- The reference has no kernel: its frame is its run with the nine results dropped. -/
theorem frame_ri : Cert.frame_ReferenceIdeal := fun m ρ _ =>
  (θ_run Cert.ReferenceIdeal.defs _ _).mono (fun _ h c => (h c).2.2.2.2.2.2.2.2.2) (Cert.ReferenceIdeal.Value.run (F := Ideal) m ρ)

/-- The idealization rewrote nothing. -/
theorem preserves : Cert.preserves_Kernel_KernelIdeal := trivial

set_option maxHeartbeats 2000000 in
/-- From memories agreeing on the arguments both programs run, and each of the nine results is, entry by entry, the
    coercion of the same real matrix entry. -/
theorem algebraic : Cert.algebraic_KernelIdeal_ReferenceIdeal := by
  intro m ρ m' ρ' hpre hagree
  choose A hA using fun c => argsAre_of_pre m hpre c
  have hA' : ∀ c : Dev Cert.KernelIdeal.nD, ArgsAre (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (A c) := fun c => by
    obtain ⟨h0, h1, h2, h3, h4, h5, h6, h7, h8, h9, h10, h11, h12, h13, h14, h15, h16, h17, h18, h19, h20, h21, h22, h23, h24, h25, h26, h27⟩ := hagree c
    rw [h0, h1, h2, h3, h4, h5, h6, h7, h8, h9, h10, h11, h12, h13, h14, h15, h16, h17, h18, h19, h20, h21, h22, h23, h24, h25, h26, h27]
    exact hA c
  refine ⟨fun c => W16 m c Cert.KernelIdeal.main_v18_0, fun c => W16 m c Cert.KernelIdeal.main_v36_0, fun c => W16 m c Cert.KernelIdeal.main_v37,
    fun c => W16 m c Cert.KernelIdeal.main_v31_2, fun c => W16 m c Cert.KernelIdeal.main_v18_3, fun c => W16 m c Cert.KernelIdeal.main_v31_0,
    fun c => W16 m c Cert.KernelIdeal.main_v27_0, fun c => W16 m c Cert.KernelIdeal.main_v18_1, fun c => W16 m c Cert.KernelIdeal.main_v31_1, ?_, ?_⟩
  · exact (θ_run Cert.KernelIdeal.defs _ _).mono (fun r h c =>
      ⟨h c _ (mem_uc Cert.KernelIdeal.main_v18_0 (by decide)), h c _ (mem_uc Cert.KernelIdeal.main_v36_0 (by decide)),
        h c _ (mem_uc Cert.KernelIdeal.main_v37 (by decide)), h c _ (mem_uc Cert.KernelIdeal.main_v31_2 (by decide)),
        h c _ (mem_uc Cert.KernelIdeal.main_v18_3 (by decide)), h c _ (mem_uc Cert.KernelIdeal.main_v31_0 (by decide)),
        h c _ (mem_uc Cert.KernelIdeal.main_v27_0 (by decide)), h c _ (mem_uc Cert.KernelIdeal.main_v18_1 (by decide)),
        h c _ (mem_uc Cert.KernelIdeal.main_v31_1 (by decide)), args_kept m (h c)⟩) (run_all m ρ)
  · refine (θ_run Cert.ReferenceIdeal.defs _ _).mono (fun r h c => ?_) (ref_run m' ρ' A hA')
    obtain ⟨r0, r1, r2, r3, r4, r5, r6, r7, r8, hargs⟩ := h c
    obtain ⟨k0, k1, k2, k3, k4, k5, k6, k7, k8⟩ := kernel_results m c (A c) (hA c)
    refine ⟨?_, ?_, ?_, ?_, ?_, ?_, ?_, ?_, ?_, hargs⟩
    · funext i; rw [eq_ix2 (n0 := 4096) (n1 := 512) i]; exact (r0 _ _).trans (k0 _ _).symm
    · funext i; rw [eq_ix2 (n0 := 4096) (n1 := 512) i]; exact (r1 _ _).trans (k1 _ _).symm
    · funext i; rw [eq_ix2 (n0 := 4096) (n1 := 4096) i]; exact (r2 _ _).trans (k2 _ _).symm
    · funext i; rw [eq_ix2 (n0 := 4096) (n1 := 10) i]; exact (r3 _ _).trans (k3 _ _).symm
    · funext i; rw [eq_ix2 (n0 := 4096) (n1 := 10) i]; exact (r4 _ _).trans (k4 _ _).symm
    · funext i; rw [eq_ix2 (n0 := 4096) (n1 := 10) i]; exact (r5 _ _).trans (k5 _ _).symm
    · funext i; rw [eq_ix2 (n0 := 4096) (n1 := 10) i]; exact (r6 _ _).trans (k6 _ _).symm
    · funext i; rw [eq_ix2 (n0 := 4096) (n1 := 10) i]; exact (r7 _ _).trans (k7 _ _).symm
    · funext i; rw [eq_ix2 (n0 := 4096) (n1 := 10) i]; exact (r8 _ _).trans (k8 _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
